-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v179)) (v1 : (c : Dev Cert.KernelIdeal.nD) → Buf (Elt Ideal) ((c.tc : Thread Cert.KernelIdeal.nD Cert.KernelIdeal.τ).loc Cert.KernelIdeal.main_v183)) (v2 : (c : Dev Cert.KernelIdeal.nD) → Buf (Elt Ideal) ((c.tc : Thread Cert.KernelIdeal.nD Cert.KernelIdeal.τ).loc Cert.KernelIdeal.main_v187)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v179) = v0 c
          ∧ r.2.mem ((c.tc : Thread Cert.KernelIdeal.nD Cert.KernelIdeal.τ).loc Cert.KernelIdeal.main_v183) = v1 c
          ∧ r.2.mem ((c.tc : Thread Cert.KernelIdeal.nD Cert.KernelIdeal.τ).loc Cert.KernelIdeal.main_v187) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v290) = v0 c
          ∧ r.2.mem ((c.tc : Thread Cert.ReferenceIdeal.nD Cert.ReferenceIdeal.τ).loc Cert.ReferenceIdeal.main_v294) = v1 c
          ∧ r.2.mem ((c.tc : Thread Cert.ReferenceIdeal.nD Cert.ReferenceIdeal.τ).loc Cert.ReferenceIdeal.main_v298) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x8 : Shape := ⟨2, ![50000, 8]⟩
abbrev S2x1600000 : Shape := ⟨2, ![2, 1600000]⟩
abbrev S32x8 : Shape := ⟨2, ![32, 8]⟩
abbrev S1600000 : Shape := ⟨1, ![1600000]⟩
abbrev S32x96 : Shape := ⟨2, ![32, 96]⟩
abbrev S_ : Shape := ⟨0, ![]⟩

class Facts : Prop where
  bcast_S_S50000x8 : S_.BroadcastsInDim S50000x8 (![] : Fin 0 → Fin S50000x8.rank)
  reducesTo_S50000x8_S_d0_1 : S50000x8.ReducesTo [0, 1] S_
  h_S_ : 0 < S_.numel
  bcast_S_S32x8 : S_.BroadcastsInDim S32x8 (![] : Fin 0 → Fin S32x8.rank)
  reducesTo_S32x8_S_d0_1 : S32x8.ReducesTo [0, 1] S_
  bcast_S_S1600000 : S_.BroadcastsInDim S1600000 (![] : Fin 0 → Fin S1600000.rank)
  reducesTo_S1600000_S_d0 : S1600000.ReducesTo [0] S_
  bcast_S_S32x96 : S_.BroadcastsInDim S32x96 (![] : Fin 0 → Fin S32x96.rank)
  reducesTo_S32x96_S_d0_1 : S32x96.ReducesTo [0, 1] S_

variable [Facts]

def fn_part4 {F : FTy → Type} [FloatOps F] (main_arg15 : FVec F S1600000 .f32) (main_arg16 : FVec F S1600000 .f32) (main_v63 : IVec S_ 1) (main_v67 : IVec S_ 1) : IVec S_ 1 :=
  let main_v68 : IVec S_ 1 := andi main_v63 main_v67
  let main_v69 : FVec F S1600000 .f32 := Host.absf main_arg15
  let main_cst_26 : FVec F S_ .f32 := constant S_ .f32 0x7F800000#32
  let main_v70 : FVec F S1600000 .f32 := broadcastInDim S1600000 ![] bcast_S_S1600000 main_cst_26
  let main_v71 : IVec S1600000 1 := cmpf .olt main_v69 main_v70
  let main_c_27 : IVec S_ 1 := constantI S_ 1 1#1
  let main_v72 : IVec S_ 1 := (fun x v => Host.reduce IntOp.andi x v reducesTo_S1600000_S_d0 h_S_) main_v71 main_c_27
  let main_v73 : IVec S_ 1 := andi main_v68 main_v72
  let main_v74 : FVec F S1600000 .f32 := Host.absf main_arg16
  let main_cst_28 : FVec F S_ .f32 := constant S_ .f32 0x7F800000#32
  let main_v75 : FVec F S1600000 .f32 := broadcastInDim S1600000 ![] bcast_S_S1600000 main_cst_28
  let main_v76 : IVec S1600000 1 := cmpf .olt main_v74 main_v75
  let main_c_29 : IVec S_ 1 := constantI S_ 1 1#1
  let main_v77 : IVec S_ 1 := (fun x v => Host.reduce IntOp.andi x v reducesTo_S1600000_S_d0 h_S_) main_v76 main_c_29
  let main_v78 : IVec S_ 1 := andi main_v73 main_v77
  main_v78

def fn_part3 {F : FTy → Type} [FloatOps F] (main_arg12 : FVec F S32x96 .f32) (main_arg13 : FVec F S32x96 .f32) (main_arg14 : FVec F S32x96 .f32) (main_arg15 : FVec F S1600000 .f32) (main_arg16 : FVec F S1600000 .f32) (main_v48 : IVec S_ 1) (main_v49 : FVec F S1600000 .f32) (main_v50 : FVec F S1600000 .f32) : IVec S_ 1 :=
  let main_v51 : IVec S1600000 1 := cmpf .olt main_v49 main_v50
  let main_c_19 : IVec S_ 1 := constantI S_ 1 1#1
  let main_v52 : IVec S_ 1 := (fun x v => Host.reduce IntOp.andi x v reducesTo_S1600000_S_d0 h_S_) main_v51 main_c_19
  let main_v53 : IVec S_ 1 := andi main_v48 main_v52
  let main_v54 : FVec F S32x96 .f32 := Host.absf main_arg12
  let main_cst_20 : FVec F S_ .f32 := constant S_ .f32 0x7F800000#32
  let main_v55 : FVec F S32x96 .f32 := broadcastInDim S32x96 ![] bcast_S_S32x96 main_cst_20
  let main_v56 : IVec S32x96 1 := cmpf .olt main_v54 main_v55
  let main_c_21 : IVec S_ 1 := constantI S_ 1 1#1
  let main_v57 : IVec S_ 1 := (fun x v => Host.reduce IntOp.andi x v reducesTo_S32x96_S_d0_1 h_S_) main_v56 main_c_21
  let main_v58 : IVec S_ 1 := andi main_v53 main_v57
  let main_v59 : FVec F S32x96 .f32 := Host.absf main_arg13
  let main_cst_22 : FVec F S_ .f32 := constant S_ .f32 0x7F800000#32
  let main_v60 : FVec F S32x96 .f32 := broadcastInDim S32x96 ![] bcast_S_S32x96 main_cst_22
  let main_v61 : IVec S32x96 1 := cmpf .olt main_v59 main_v60
  let main_c_23 : IVec S_ 1 := constantI S_ 1 1#1
  let main_v62 : IVec S_ 1 := (fun x v => Host.reduce IntOp.andi x v reducesTo_S32x96_S_d0_1 h_S_) main_v61 main_c_23
  let main_v63 : IVec S_ 1 := andi main_v58 main_v62
  let main_v64 : FVec F S32x96 .f32 := Host.absf main_arg14
  let main_cst_24 : FVec F S_ .f32 := constant S_ .f32 0x7F800000#32
  let main_v65 : FVec F S32x96 .f32 := broadcastInDim S32x96 ![] bcast_S_S32x96 main_cst_24
  let main_v66 : IVec S32x96 1 := cmpf .olt main_v64 main_v65
  let main_c_25 : IVec S_ 1 := constantI S_ 1 1#1
  let main_v67 : IVec S_ 1 := (fun x v => Host.reduce IntOp.andi x v reducesTo_S32x96_S_d0_1 h_S_) main_v66 main_c_25
  fn_part4 (F := F) main_arg15 main_arg16 main_v63 main_v67

def fn_part2 {F : FTy → Type} [FloatOps F] (main_arg8 : FVec F S32x96 .f32) (main_arg9 : FVec F S32x96 .f32) (main_arg10 : FVec F S1600000 .f32) (main_arg11 : FVec F S1600000 .f32) (main_arg12 : FVec F S32x96 .f32) (main_arg13 : FVec F S32x96 .f32) (main_arg14 : FVec F S32x96 .f32) (main_arg15 : FVec F S1600000 .f32) (main_arg16 : FVec F S1600000 .f32) (main_v33 : IVec S_ 1) : IVec S_ 1 :=
  let main_v34 : FVec F S32x96 .f32 := Host.absf main_arg8
  let main_cst_12 : FVec F S_ .f32 := constant S_ .f32 0x7F800000#32
  let main_v35 : FVec F S32x96 .f32 := broadcastInDim S32x96 ![] bcast_S_S32x96 main_cst_12
  let main_v36 : IVec S32x96 1 := cmpf .olt main_v34 main_v35
  let main_c_13 : IVec S_ 1 := constantI S_ 1 1#1
  let main_v37 : IVec S_ 1 := (fun x v => Host.reduce IntOp.andi x v reducesTo_S32x96_S_d0_1 h_S_) main_v36 main_c_13
  let main_v38 : IVec S_ 1 := andi main_v33 main_v37
  let main_v39 : FVec F S32x96 .f32 := Host.absf main_arg9
  let main_cst_14 : FVec F S_ .f32 := constant S_ .f32 0x7F800000#32
  let main_v40 : FVec F S32x96 .f32 := broadcastInDim S32x96 ![] bcast_S_S32x96 main_cst_14
  let main_v41 : IVec S32x96 1 := cmpf .olt main_v39 main_v40
  let main_c_15 : IVec S_ 1 := constantI S_ 1 1#1
  let main_v42 : IVec S_ 1 := (fun x v => Host.reduce IntOp.andi x v reducesTo_S32x96_S_d0_1 h_S_) main_v41 main_c_15
  let main_v43 : IVec S_ 1 := andi main_v38 main_v42
  let main_v44 : FVec F S1600000 .f32 := Host.absf main_arg10
  let main_cst_16 : FVec F S_ .f32 := constant S_ .f32 0x7F800000#32
  let main_v45 : FVec F S1600000 .f32 := broadcastInDim S1600000 ![] bcast_S_S1600000 main_cst_16
  let main_v46 : IVec S1600000 1 := cmpf .olt main_v44 main_v45
  let main_c_17 : IVec S_ 1 := constantI S_ 1 1#1
  let main_v47 : IVec S_ 1 := (fun x v => Host.reduce IntOp.andi x v reducesTo_S1600000_S_d0 h_S_) main_v46 main_c_17
  let main_v48 : IVec S_ 1 := andi main_v43 main_v47
  let main_v49 : FVec F S1600000 .f32 := Host.absf main_arg11
  let main_cst_18 : FVec F S_ .f32 := constant S_ .f32 0x7F800000#32
  let main_v50 : FVec F S1600000 .f32 := broadcastInDim S1600000 ![] bcast_S_S1600000 main_cst_18
  fn_part3 (F := F) main_arg12 main_arg13 main_arg14 main_arg15 main_arg16 main_v48 main_v49 main_v50

def fn_part1 {F : FTy → Type} [FloatOps F] (main_arg5 : FVec F S1600000 .f32) (main_arg6 : FVec F S1600000 .f32) (main_arg7 : FVec F S32x96 .f32) (main_arg8 : FVec F S32x96 .f32) (main_arg9 : FVec F S32x96 .f32) (main_arg10 : FVec F S1600000 .f32) (main_arg11 : FVec F S1600000 .f32) (main_arg12 : FVec F S32x96 .f32) (main_arg13 : FVec F S32x96 .f32) (main_arg14 : FVec F S32x96 .f32) (main_arg15 : FVec F S1600000 .f32) (main_arg16 : FVec F S1600000 .f32) (main_v13 : IVec S_ 1) (main_v16 : IVec S32x8 1) : IVec S_ 1 :=
  let main_c_5 : IVec S_ 1 := constantI S_ 1 1#1
  let main_v17 : IVec S_ 1 := (fun x v => Host.reduce IntOp.andi x v reducesTo_S32x8_S_d0_1 h_S_) main_v16 main_c_5
  let main_v18 : IVec S_ 1 := andi main_v13 main_v17
  let main_v19 : FVec F S1600000 .f32 := Host.absf main_arg5
  let main_cst_6 : FVec F S_ .f32 := constant S_ .f32 0x7F800000#32
  let main_v20 : FVec F S1600000 .f32 := broadcastInDim S1600000 ![] bcast_S_S1600000 main_cst_6
  let main_v21 : IVec S1600000 1 := cmpf .olt main_v19 main_v20
  let main_c_7 : IVec S_ 1 := constantI S_ 1 1#1
  let main_v22 : IVec S_ 1 := (fun x v => Host.reduce IntOp.andi x v reducesTo_S1600000_S_d0 h_S_) main_v21 main_c_7
  let main_v23 : IVec S_ 1 := andi main_v18 main_v22
  let main_v24 : FVec F S1600000 .f32 := Host.absf main_arg6
  let main_cst_8 : FVec F S_ .f32 := constant S_ .f32 0x7F800000#32
  let main_v25 : FVec F S1600000 .f32 := broadcastInDim S1600000 ![] bcast_S_S1600000 main_cst_8
  let main_v26 : IVec S1600000 1 := cmpf .olt main_v24 main_v25
  let main_c_9 : IVec S_ 1 := constantI S_ 1 1#1
  let main_v27 : IVec S_ 1 := (fun x v => Host.reduce IntOp.andi x v reducesTo_S1600000_S_d0 h_S_) main_v26 main_c_9
  let main_v28 : IVec S_ 1 := andi main_v23 main_v27
  let main_v29 : FVec F S32x96 .f32 := Host.absf main_arg7
  let main_cst_10 : FVec F S_ .f32 := constant S_ .f32 0x7F800000#32
  let main_v30 : FVec F S32x96 .f32 := broadcastInDim S32x96 ![] bcast_S_S32x96 main_cst_10
  let main_v31 : IVec S32x96 1 := cmpf .olt main_v29 main_v30
  let main_c_11 : IVec S_ 1 := constantI S_ 1 1#1
  let main_v32 : IVec S_ 1 := (fun x v => Host.reduce IntOp.andi x v reducesTo_S32x96_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x8 .f32) (main_arg1 : IVec S2x1600000 32) (main_arg2 : FVec F S32x8 .f32) (main_arg3 : FVec F S32x8 .f32) (main_arg4 : FVec F S32x8 .f32) (main_arg5 : FVec F S1600000 .f32) (main_arg6 : FVec F S1600000 .f32) (main_arg7 : FVec F S32x96 .f32) (main_arg8 : FVec F S32x96 .f32) (main_arg9 : FVec F S32x96 .f32) (main_arg10 : FVec F S1600000 .f32) (main_arg11 : FVec F S1600000 .f32) (main_arg12 : FVec F S32x96 .f32) (main_arg13 : FVec F S32x96 .f32) (main_arg14 : FVec F S32x96 .f32) (main_arg15 : FVec F S1600000 .f32) (main_arg16 : FVec F S1600000 .f32) : IVec S_ 1 :=
  let main_v0 : FVec F S50000x8 .f32 := Host.absf main_arg0
  let main_cst : FVec F S_ .f32 := constant S_ .f32 0x7F800000#32
  let main_v1 : FVec F S50000x8 .f32 := broadcastInDim S50000x8 ![] bcast_S_S50000x8 main_cst
  let main_v2 : IVec S50000x8 1 := cmpf .olt main_v0 main_v1
  let main_c : IVec S_ 1 := constantI S_ 1 1#1
  let main_v3 : IVec S_ 1 := (fun x v => Host.reduce IntOp.andi x v reducesTo_S50000x8_S_d0_1 h_S_) main_v2 main_c
  let main_v4 : FVec F S32x8 .f32 := Host.absf main_arg2
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : IVec S_ 1 := andi main_v3 main_v7
  let main_v9 : FVec F S32x8 .f32 := Host.absf main_arg3
  let main_cst_2 : FVec F S_ .f32 := constant S_ .f32 0x7F800000#32
  let main_v10 : FVec F S32x8 .f32 := broadcastInDim S32x8 ![] bcast_S_S32x8 main_cst_2
  let main_v11 : IVec S32x8 1 := cmpf .olt main_v9 main_v10
  let main_c_3 : IVec S_ 1 := constantI S_ 1 1#1
  let main_v12 : IVec S_ 1 := (fun x v => Host.reduce IntOp.andi x v reducesTo_S32x8_S_d0_1 h_S_) main_v11 main_c_3
  let main_v13 : IVec S_ 1 := andi main_v8 main_v12
  let main_v14 : FVec F S32x8 .f32 := Host.absf main_arg4
  let main_cst_4 : FVec F S_ .f32 := constant S_ .f32 0x7F800000#32
  let main_v15 : FVec F S32x8 .f32 := broadcastInDim S32x8 ![] bcast_S_S32x8 main_cst_4
  let main_v16 : IVec S32x8 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x8 : Shape := ⟨2, ![50000, 8]⟩
abbrev S2x1600000 : Shape := ⟨2, ![2, 1600000]⟩
abbrev S32x8 : Shape := ⟨2, ![32, 8]⟩
abbrev S1600000 : Shape := ⟨1, ![1600000]⟩
abbrev S32x96 : Shape := ⟨2, ![32, 96]⟩
abbrev S1x1600000 : Shape := ⟨2, ![1, 1600000]⟩
abbrev S_ : Shape := ⟨0, ![]⟩
abbrev S50000 : Shape := ⟨1, ![50000]⟩
abbrev S1600000x1 : Shape := ⟨2, ![1600000, 1]⟩
abbrev S96x8 : Shape := ⟨2, ![96, 8]⟩
abbrev S8x96 : Shape := ⟨2, ![8, 96]⟩
abbrev S50000x96 : Shape := ⟨2, ![50000, 96]⟩
abbrev S5000x8 : Shape := ⟨2, ![5000, 8]⟩
abbrev S5000x96 : Shape := ⟨2, ![5000, 96]⟩
abbrev S50000x32 : Shape := ⟨2, ![50000, 32]⟩
abbrev S1600000x32 : Shape := ⟨2, ![1600000, 32]⟩
abbrev S8000x32 : Shape := ⟨2, ![8000, 32]⟩
abbrev S8000x1 : Shape := ⟨2, ![8000, 1]⟩
abbrev S10000x96 : Shape := ⟨2, ![10000, 96]⟩
abbrev S10000 : Shape := ⟨1, ![10000]⟩
abbrev S10000x1 : Shape := ⟨2, ![10000, 1]⟩
abbrev S96x96 : Shape := ⟨2, ![96, 96]⟩

abbrev nBuf : Space → Nat
  | .hbm => 259
  | .vmem => 63
  | .smem => 0
  | _ => 0

abbrev hbmTy0_0 (i : Nat) : BufTy := match i % 128 with
  | 0 => ⟨S50000x8, .f32⟩
  | 1 => ⟨S2x1600000, .i32⟩
  | 2 => ⟨S32x8, .f32⟩
  | 3 => ⟨S32x8, .f32⟩
  | 4 => ⟨S32x8, .f32⟩
  | 5 => ⟨S1600000, .f32⟩
  | 6 => ⟨S1600000, .f32⟩
  | 7 => ⟨S32x96, .f32⟩
  | 8 => ⟨S32x96, .f32⟩
  | 9 => ⟨S32x96, .f32⟩
  | 10 => ⟨S1600000, .f32⟩
  | 11 => ⟨S1600000, .f32⟩
  | 12 => ⟨S32x96, .f32⟩
  | 13 => ⟨S32x96, .f32⟩
  | 14 => ⟨S32x96, .f32⟩
  | 15 => ⟨S1600000, .f32⟩
  | 16 => ⟨S1600000, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S50000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S_, .i32⟩
  | 32 => ⟨S1600000, .i32⟩
  | 33 => ⟨S50000, .i32⟩
  | 34 => ⟨S50000, .f32⟩
  | 35 => ⟨S_, .i32⟩
  | 36 => ⟨S50000, .i32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S_, .i32⟩
  | 46 => ⟨S1600000, .i32⟩
  | 47 => ⟨S50000, .i32⟩
  | 48 => ⟨S50000, .f32⟩
  | 49 => ⟨S_, .f32⟩
  | 50 => ⟨S50000, .f32⟩
  | 51 => ⟨S50000, .i1⟩
  | 52 => ⟨S_, .f32⟩
  | 53 => ⟨S50000, .f32⟩
  | 54 => ⟨S50000, .f32⟩
  | 55 => ⟨S_, .f32⟩
  | 56 => ⟨S_, .f32⟩
  | 57 => ⟨S50000, .f32⟩
  | 58 => ⟨S50000, .f32⟩
  | 59 => ⟨S_, .f32⟩
  | 60 => ⟨S50000, .f32⟩
  | 61 => ⟨S50000, .i1⟩
  | 62 => ⟨S_, .f32⟩
  | 63 => ⟨S50000, .f32⟩
  | 64 => ⟨S50000, .f32⟩
  | 65 => ⟨S_, .f32⟩
  | 66 => ⟨S_, .f32⟩
  | 67 => ⟨S50000, .f32⟩
  | 68 => ⟨S50000, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000, .f32⟩
  | 87 => ⟨S96x8, .f32⟩
  | 88 => ⟨S8x96, .f32⟩
  | 89 => ⟨S50000x96, .f32⟩
  | 90 => ⟨S50000x32, .f32⟩
  | 91 => ⟨S50000x32, .f32⟩
  | 92 => ⟨S50000x32, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x32, .f32⟩
  | 102 => ⟨S1600000, .f32⟩
  | 103 => ⟨S1600000x1, .f32⟩
  | 104 => ⟨S1600000x32, .f32⟩
  | 105 => ⟨S_, .f32⟩
  | 106 => ⟨S50000x32, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S50000x32, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x32, .f32⟩
  | 125 => ⟨S1600000, .f32⟩
  | 126 => ⟨S1600000x1, .f32⟩
  | 127 => ⟨S1600000x32, .f32⟩
  | _ => ⟨S50000x8, .f32⟩

abbrev hbmTy0_1 (i : Nat) : BufTy := match i % 128 with
  | 0 => ⟨S_, .f32⟩
  | 1 => ⟨S50000x32, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S50000x32, .f32⟩
  | 11 => ⟨S50000x96, .f32⟩
  | 12 => ⟨S50000x96, .f32⟩
  | 13 => ⟨S96x96, .f32⟩
  | 14 => ⟨S96x96, .f32⟩
  | 15 => ⟨S50000x96, .f32⟩
  | 16 => ⟨S50000x32, .f32⟩
  | 17 => ⟨S50000x32, .f32⟩
  | 18 => ⟨S50000x32, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x32, .f32⟩
  | 28 => ⟨S1600000, .f32⟩
  | 29 => ⟨S1600000x1, .f32⟩
  | 30 => ⟨S1600000x32, .f32⟩
  | 31 => ⟨S_, .f32⟩
  | 32 => ⟨S50000x32, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S50000x32, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x32, .f32⟩
  | 51 => ⟨S1600000, .f32⟩
  | 52 => ⟨S1600000x1, .f32⟩
  | 53 => ⟨S1600000x32, .f32⟩
  | 54 => ⟨S_, .f32⟩
  | 55 => ⟨S50000x32, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S50000x32, .f32⟩
  | 65 => ⟨S50000x96, .f32⟩
  | 66 => ⟨S50000x96, .f32⟩
  | 67 => ⟨S96x96, .f32⟩
  | 68 => ⟨S96x96, .f32⟩
  | 69 => ⟨S50000x96, .f32⟩
  | 70 => ⟨S50000x32, .f32⟩
  | 71 => ⟨S50000x32, .f32⟩
  | 72 => ⟨S50000x32, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x32, .f32⟩
  | 82 => ⟨S1600000, .f32⟩
  | 83 => ⟨S1600000x1, .f32⟩
  | 84 => ⟨S1600000x32, .f32⟩
  | 85 => ⟨S_, .f32⟩
  | 86 => ⟨S50000x32, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S50000x32, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x32, .f32⟩
  | 105 => ⟨S1600000, .f32⟩
  | 106 => ⟨S1600000x1, .f32⟩
  | 107 => ⟨S1600000x32, .f32⟩
  | 108 => ⟨S_, .f32⟩
  | 109 => ⟨S50000x32, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S50000x32, .f32⟩
  | 119 => ⟨S50000x96, .f32⟩
  | 120 => ⟨S50000x96, .f32⟩
  | 121 => ⟨S1600000, .f32⟩
  | 122 => ⟨S1600000, .f32⟩
  | 123 => ⟨S_, .f32⟩
  | 124 => ⟨S1600000, .f32⟩
  | 125 => ⟨S1600000, .f32⟩
  | 126 => ⟨S1600000, .f32⟩
  | 127 => ⟨S1600000, .f32⟩
  | _ => ⟨S50000x8, .f32⟩

abbrev hbmTy0_2 (i : Nat) : BufTy := match i % 128 with
  | 0 => ⟨S_, .f32⟩
  | 1 => ⟨S1600000, .f32⟩
  | 2 => ⟨S1600000, .f32⟩
  | _ => ⟨S50000x8, .f32⟩

abbrev hbmTy (i : Nat) : BufTy := match i / 128 with
  | 0 => hbmTy0_0 i
  | 1 => hbmTy0_1 i
  | 2 => hbmTy0_2 i
  | _ => ⟨S50000x8, .f32⟩

abbrev bufTy : (tb : Table) → Fin (tcTables nBuf tb) → BufTy
  | .hbm, ⟨i, _⟩ => hbmTy i
  | .local _ .vmem, ⟨0, _⟩ => ⟨S5000x8, .f32⟩
  | .local _ .vmem, ⟨1, _⟩ => ⟨S5000x8, .f32⟩
  | .local _ .vmem, ⟨2, _⟩ => ⟨S8x96, .f32⟩
  | .local _ .vmem, ⟨3, _⟩ => ⟨S5000x96, .f32⟩
  | .local _ .vmem, ⟨4, _⟩ => ⟨S5000x96, .f32⟩
  | .local _ .vmem, ⟨5, _⟩ => ⟨S8000x32, .f32⟩
  | .local _ .vmem, ⟨6, _⟩ => ⟨S8000x32, .f32⟩
  | .local _ .vmem, ⟨7, _⟩ => ⟨S8000x1, .f32⟩
  | .local _ .vmem, ⟨8, _⟩ => ⟨S8000x1, .f32⟩
  | .local _ .vmem, ⟨9, _⟩ => ⟨S8000x32, .f32⟩
  | .local _ .vmem, ⟨10, _⟩ => ⟨S8000x32, .f32⟩
  | .local _ .vmem, ⟨11, _⟩ => ⟨S8000x32, .f32⟩
  | .local _ .vmem, ⟨12, _⟩ => ⟨S8000x32, .f32⟩
  | .local _ .vmem, ⟨13, _⟩ => ⟨S8000x1, .f32⟩
  | .local _ .vmem, ⟨14, _⟩ => ⟨S8000x1, .f32⟩
  | .local _ .vmem, ⟨15, _⟩ => ⟨S8000x32, .f32⟩
  | .local _ .vmem, ⟨16, _⟩ => ⟨S8000x32, .f32⟩
  | .local _ .vmem, ⟨17, _⟩ => ⟨S10000x96, .f32⟩
  | .local _ .vmem, ⟨18, _⟩ => ⟨S10000x96, .f32⟩
  | .local _ .vmem, ⟨19, _⟩ => ⟨S10000x96, .f32⟩
  | .local _ .vmem, ⟨20, _⟩ => ⟨S10000x96, .f32⟩
  | .local _ .vmem, ⟨21, _⟩ => ⟨S5000x96, .f32⟩
  | .local _ .vmem, ⟨22, _⟩ => ⟨S5000x96, .f32⟩
  | .local _ .vmem, ⟨23, _⟩ => ⟨S96x96, .f32⟩
  | .local _ .vmem, ⟨24, _⟩ => ⟨S5000x96, .f32⟩
  | .local _ .vmem, ⟨25, _⟩ => ⟨S5000x96, .f32⟩
  | .local _ .vmem, ⟨26, _⟩ => ⟨S8000x32, .f32⟩
  | .local _ .vmem, ⟨27, _⟩ => ⟨S8000x32, .f32⟩
  | .local _ .vmem, ⟨28, _⟩ => ⟨S8000x1, .f32⟩
  | .local _ .vmem, ⟨29, _⟩ => ⟨S8000x1, .f32⟩
  | .local _ .vmem, ⟨30, _⟩ => ⟨S8000x32, .f32⟩
  | .local _ .vmem, ⟨31, _⟩ => ⟨S8000x32, .f32⟩
  | .local _ .vmem, ⟨32, _⟩ => ⟨S8000x32, .f32⟩
  | .local _ .vmem, ⟨33, _⟩ => ⟨S8000x32, .f32⟩
  | .local _ .vmem, ⟨34, _⟩ => ⟨S8000x1, .f32⟩
  | .local _ .vmem, ⟨35, _⟩ => ⟨S8000x1, .f32⟩
  | .local _ .vmem, ⟨36, _⟩ => ⟨S8000x32, .f32⟩
  | .local _ .vmem, ⟨37, _⟩ => ⟨S8000x32, .f32⟩
  | .local _ .vmem, ⟨38, _⟩ => ⟨S10000x96, .f32⟩
  | .local _ .vmem, ⟨39, _⟩ => ⟨S10000x96, .f32⟩
  | .local _ .vmem, ⟨40, _⟩ => ⟨S10000x96, .f32⟩
  | .local _ .vmem, ⟨41, _⟩ => ⟨S10000x96, .f32⟩
  | .local _ .vmem, ⟨42, _⟩ => ⟨S5000x96, .f32⟩
  | .local _ .vmem, ⟨43, _⟩ => ⟨S5000x96, .f32⟩
  | .local _ .vmem, ⟨44, _⟩ => ⟨S96x96, .f32⟩
  | .local _ .vmem, ⟨45, _⟩ => ⟨S5000x96, .f32⟩
  | .local _ .vmem, ⟨46, _⟩ => ⟨S5000x96, .f32⟩
  | .local _ .vmem, ⟨47, _⟩ => ⟨S8000x32, .f32⟩
  | .local _ .vmem, ⟨48, _⟩ => ⟨S8000x32, .f32⟩
  | .local _ .vmem, ⟨49, _⟩ => ⟨S8000x1, .f32⟩
  | .local _ .vmem, ⟨50, _⟩ => ⟨S8000x1, .f32⟩
  | .local _ .vmem, ⟨51, _⟩ => ⟨S8000x32, .f32⟩
  | .local _ .vmem, ⟨52, _⟩ => ⟨S8000x32, .f32⟩
  | .local _ .vmem, ⟨53, _⟩ => ⟨S8000x32, .f32⟩
  | .local _ .vmem, ⟨54, _⟩ => ⟨S8000x32, .f32⟩
  | .local _ .vmem, ⟨55, _⟩ => ⟨S8000x1, .f32⟩
  | .local _ .vmem, ⟨56, _⟩ => ⟨S8000x1, .f32⟩
  | .local _ .vmem, ⟨57, _⟩ => ⟨S8000x32, .f32⟩
  | .local _ .vmem, ⟨58, _⟩ => ⟨S8000x32, .f32⟩
  | .local _ .vmem, ⟨59, _⟩ => ⟨S10000x96, .f32⟩
  | .local _ .vmem, ⟨60, _⟩ => ⟨S10000x96, .f32⟩
  | .local _ .vmem, ⟨61, _⟩ => ⟨S10000x96, .f32⟩
  | .local _ .vmem, ⟨62, _⟩ => ⟨S10000x96, .f32⟩
  | _, _ => ⟨S50000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_c_4 : Ref sig .tc := ⟨.hbm, 37, rfl⟩
abbrev main_v15 : Ref sig .tc := ⟨.hbm, 38, rfl⟩
abbrev main_v16 : Ref sig .tc := ⟨.hbm, 39, rfl⟩
abbrev main_c_5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_6 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst : Ref sig .tc := ⟨.hbm, 49, rfl⟩
abbrev main_v24 : Ref sig .tc := ⟨.hbm, 50, rfl⟩
abbrev main_v25 : Ref sig .tc := ⟨.hbm, 51, rfl⟩
abbrev main_cst_7 : Ref sig .tc := ⟨.hbm, 52, rfl⟩
abbrev main_v26 : Ref sig .tc := ⟨.hbm, 53, rfl⟩
abbrev main_v27 : Ref sig .tc := ⟨.hbm, 54, rfl⟩
abbrev main_cst_8 : Ref sig .tc := ⟨.hbm, 55, rfl⟩
abbrev main_call0_v0 : Ref sig .tc := ⟨.hbm, 56, rfl⟩
abbrev main_call0_v1 : Ref sig .tc := ⟨.hbm, 57, rfl⟩
abbrev main_v28 : Ref sig .tc := ⟨.hbm, 58, rfl⟩
abbrev main_cst_9 : Ref sig .tc := ⟨.hbm, 59, rfl⟩
abbrev main_v29 : Ref sig .tc := ⟨.hbm, 60, rfl⟩
abbrev main_v30 : Ref sig .tc := ⟨.hbm, 61, rfl⟩
abbrev main_cst_10 : Ref sig .tc := ⟨.hbm, 62, rfl⟩
abbrev main_v31 : Ref sig .tc := ⟨.hbm, 63, rfl⟩
abbrev main_v32 : Ref sig .tc := ⟨.hbm, 64, rfl⟩
abbrev main_cst_11 : Ref sig .tc := ⟨.hbm, 65, rfl⟩
abbrev main_call1_v0 : Ref sig .tc := ⟨.hbm, 66, rfl⟩
abbrev main_call1_v1 : Ref sig .tc := ⟨.hbm, 67, rfl⟩
abbrev main_v33 : Ref sig .tc := ⟨.hbm, 68, rfl⟩
abbrev main_c_12 : Ref sig .tc := ⟨.hbm, 69, rfl⟩
abbrev main_v34 : Ref sig .tc := ⟨.hbm, 70, rfl⟩
abbrev main_v35 : Ref sig .tc := ⟨.hbm, 71, rfl⟩
abbrev main_c_13 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_c_14 : Ref sig .tc := ⟨.hbm, 78, rfl⟩
abbrev main_v41 : Ref sig .tc := ⟨.hbm, 79, rfl⟩
abbrev main_v42 : Ref sig .tc := ⟨.hbm, 80, rfl⟩
abbrev main_c_15 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_c_16 : Ref sig .tc := ⟨.hbm, 93, rfl⟩
abbrev main_v54 : Ref sig .tc := ⟨.hbm, 94, rfl⟩
abbrev main_v55 : Ref sig .tc := ⟨.hbm, 95, rfl⟩
abbrev main_c_17 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_18 : Ref sig .tc := ⟨.hbm, 105, rfl⟩
abbrev main_v64 : Ref sig .tc := ⟨.hbm, 106, rfl⟩
abbrev main_c_19 : Ref sig .tc := ⟨.hbm, 107, rfl⟩
abbrev main_v65 : Ref sig .tc := ⟨.hbm, 108, rfl⟩
abbrev main_v66 : Ref sig .tc := ⟨.hbm, 109, rfl⟩
abbrev main_c_20 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_c_21 : Ref sig .tc := ⟨.hbm, 116, rfl⟩
abbrev main_v72 : Ref sig .tc := ⟨.hbm, 117, rfl⟩
abbrev main_v73 : Ref sig .tc := ⟨.hbm, 118, rfl⟩
abbrev main_c_22 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_23 : Ref sig .tc := ⟨.hbm, 128, rfl⟩
abbrev main_v82 : Ref sig .tc := ⟨.hbm, 129, rfl⟩
abbrev main_c_24 : Ref sig .tc := ⟨.hbm, 130, rfl⟩
abbrev main_v83 : Ref sig .tc := ⟨.hbm, 131, rfl⟩
abbrev main_v84 : Ref sig .tc := ⟨.hbm, 132, rfl⟩
abbrev main_c_25 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_c_26 : Ref sig .tc := ⟨.hbm, 147, rfl⟩
abbrev main_v98 : Ref sig .tc := ⟨.hbm, 148, rfl⟩
abbrev main_v99 : Ref sig .tc := ⟨.hbm, 149, rfl⟩
abbrev main_c_27 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_28 : Ref sig .tc := ⟨.hbm, 159, rfl⟩
abbrev main_v108 : Ref sig .tc := ⟨.hbm, 160, rfl⟩
abbrev main_c_29 : Ref sig .tc := ⟨.hbm, 161, rfl⟩
abbrev main_v109 : Ref sig .tc := ⟨.hbm, 162, rfl⟩
abbrev main_v110 : Ref sig .tc := ⟨.hbm, 163, rfl⟩
abbrev main_c_30 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_c_31 : Ref sig .tc := ⟨.hbm, 170, rfl⟩
abbrev main_v116 : Ref sig .tc := ⟨.hbm, 171, rfl⟩
abbrev main_v117 : Ref sig .tc := ⟨.hbm, 172, rfl⟩
abbrev main_c_32 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_cst_33 : Ref sig .tc := ⟨.hbm, 182, rfl⟩
abbrev main_v126 : Ref sig .tc := ⟨.hbm, 183, rfl⟩
abbrev main_c_34 : Ref sig .tc := ⟨.hbm, 184, rfl⟩
abbrev main_v127 : Ref sig .tc := ⟨.hbm, 185, rfl⟩
abbrev main_v128 : Ref sig .tc := ⟨.hbm, 186, rfl⟩
abbrev main_c_35 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_c_36 : Ref sig .tc := ⟨.hbm, 201, rfl⟩
abbrev main_v142 : Ref sig .tc := ⟨.hbm, 202, rfl⟩
abbrev main_v143 : Ref sig .tc := ⟨.hbm, 203, rfl⟩
abbrev main_c_37 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_cst_38 : Ref sig .tc := ⟨.hbm, 213, rfl⟩
abbrev main_v152 : Ref sig .tc := ⟨.hbm, 214, rfl⟩
abbrev main_c_39 : Ref sig .tc := ⟨.hbm, 215, rfl⟩
abbrev main_v153 : Ref sig .tc := ⟨.hbm, 216, rfl⟩
abbrev main_v154 : Ref sig .tc := ⟨.hbm, 217, rfl⟩
abbrev main_c_40 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_c_41 : Ref sig .tc := ⟨.hbm, 224, rfl⟩
abbrev main_v160 : Ref sig .tc := ⟨.hbm, 225, rfl⟩
abbrev main_v161 : Ref sig .tc := ⟨.hbm, 226, rfl⟩
abbrev main_c_42 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_cst_43 : Ref sig .tc := ⟨.hbm, 236, rfl⟩
abbrev main_v170 : Ref sig .tc := ⟨.hbm, 237, rfl⟩
abbrev main_c_44 : Ref sig .tc := ⟨.hbm, 238, rfl⟩
abbrev main_v171 : Ref sig .tc := ⟨.hbm, 239, rfl⟩
abbrev main_v172 : Ref sig .tc := ⟨.hbm, 240, rfl⟩
abbrev main_c_45 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_cst_46 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_cst_47 : Ref sig .tc := ⟨.hbm, 256, rfl⟩
abbrev main_v186 : Ref sig .tc := ⟨.hbm, 257, rfl⟩
abbrev main_v187 : Ref sig .tc := ⟨.hbm, 258, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg1_1 : Ref sig .tc := ⟨.vmem, 35, rfl⟩
abbrev cc6_stg2_0 : Ref sig .tc := ⟨.vmem, 36, rfl⟩
abbrev cc6_stg2_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg1_1 : Ref sig .tc := ⟨.vmem, 41, rfl⟩
abbrev cc8_stg0_0 : Ref sig .tc := ⟨.vmem, 42, rfl⟩
abbrev cc8_stg0_1 : Ref sig .tc := ⟨.vmem, 43, rfl⟩
abbrev cc8_stg1_0 : Ref sig .tc := ⟨.vmem, 44, rfl⟩
abbrev cc8_stg2_0 : Ref sig .tc := ⟨.vmem, 45, rfl⟩
abbrev cc8_stg2_1 : Ref sig .tc := ⟨.vmem, 46, rfl⟩
abbrev cc9_stg0_0 : Ref sig .tc := ⟨.vmem, 47, rfl⟩
abbrev cc9_stg0_1 : Ref sig .tc := ⟨.vmem, 48, rfl⟩
abbrev cc9_stg1_0 : Ref sig .tc := ⟨.vmem, 49, rfl⟩
abbrev cc9_stg1_1 : Ref sig .tc := ⟨.vmem, 50, rfl⟩
abbrev cc9_stg2_0 : Ref sig .tc := ⟨.vmem, 51, rfl⟩
abbrev cc9_stg2_1 : Ref sig .tc := ⟨.vmem, 52, rfl⟩
abbrev cc10_stg0_0 : Ref sig .tc := ⟨.vmem, 53, rfl⟩
abbrev cc10_stg0_1 : Ref sig .tc := ⟨.vmem, 54, rfl⟩
abbrev cc10_stg1_0 : Ref sig .tc := ⟨.vmem, 55, rfl⟩
abbrev cc10_stg1_1 : Ref sig .tc := ⟨.vmem, 56, rfl⟩
abbrev cc10_stg2_0 : Ref sig .tc := ⟨.vmem, 57, rfl⟩
abbrev cc10_stg2_1 : Ref sig .tc := ⟨.vmem, 58, rfl⟩
abbrev cc11_stg0_0 : Ref sig .tc := ⟨.vmem, 59, rfl⟩
abbrev cc11_stg0_1 : Ref sig .tc := ⟨.vmem, 60, rfl⟩
abbrev cc11_stg1_0 : Ref sig .tc := ⟨.vmem, 61, rfl⟩
abbrev cc11_stg1_1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem1_1 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem1_1 : DmaSem sig := 35
abbrev cc6_sem2_0 : DmaSem sig := 36
abbrev cc6_sem2_1 : DmaSem sig := 37
abbrev cc7_sem0_0 : DmaSem sig := 38
abbrev cc7_sem0_1 : DmaSem sig := 39
abbrev cc7_sem1_0 : DmaSem sig := 40
abbrev cc7_sem1_1 : DmaSem sig := 41
abbrev cc8_sem0_0 : DmaSem sig := 42
abbrev cc8_sem0_1 : DmaSem sig := 43
abbrev cc8_sem1_0 : DmaSem sig := 44
abbrev cc8_sem2_0 : DmaSem sig := 45
abbrev cc8_sem2_1 : DmaSem sig := 46
abbrev cc9_sem0_0 : DmaSem sig := 47
abbrev cc9_sem0_1 : DmaSem sig := 48
abbrev cc9_sem1_0 : DmaSem sig := 49
abbrev cc9_sem1_1 : DmaSem sig := 50
abbrev cc9_sem2_0 : DmaSem sig := 51
abbrev cc9_sem2_1 : DmaSem sig := 52
abbrev cc10_sem0_0 : DmaSem sig := 53
abbrev cc10_sem0_1 : DmaSem sig := 54
abbrev cc10_sem1_0 : DmaSem sig := 55
abbrev cc10_sem1_1 : DmaSem sig := 56
abbrev cc10_sem2_0 : DmaSem sig := 57
abbrev cc10_sem2_1 : DmaSem sig := 58
abbrev cc11_sem0_0 : DmaSem sig := 59
abbrev cc11_sem0_1 : DmaSem sig := 60
abbrev cc11_sem1_0 : DmaSem sig := 61
abbrev cc11_sem1_1 : DmaSem sig := 62

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S96x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x96 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![200], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x96 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x96 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x96 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S96x96 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x96 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![200], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S8000x32 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![200], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S8000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S8000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S8000x32 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x96 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S10000x96 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S32x8_S32x8_S32x8_S96x8_d0 : Shape.Concatenates [S32x8, S32x8, S32x8] S96x8 0
  transposes_S96x8_S8x96_1_0 : S96x8.Transposes [1, 0] S8x96
  inb_S5000x8_S5000x8_0_0 : ∀ a, (![0, 0] : Fin 2 → Nat) a + S5000x8.size a ≤ S5000x8.size a
  h_S5000x8 : 0 < S5000x8.numel
  bitsLt_bf16_f32 : FTy.bits .bf16 < FTy.bits .f32
  inb_S8x96_S8x96_0_0 : ∀ a, (![0, 0] : Fin 2 → Nat) a + S8x96.size a ≤ S8x96.size a
  h_S8x96 : 0 < S8x96.numel
  shapeCasts_S8x96_S8x96 : S8x96.ShapeCasts S8x96
  inb_S5000x96_S5000x96_0_0 : ∀ a, (![0, 0] : Fin 2 → Nat) a + S5000x96.size a ≤ S5000x96.size a
  h_S5000x96 : 0 < S5000x96.numel
  slices_S50000x96_S50000x32_0_0 : S50000x96.Slices ![0, 0] S50000x32
  slices_S50000x96_S50000x32_0_32 : S50000x96.Slices ![0, 32] S50000x32
  slices_S50000x96_S50000x32_0_64 : S50000x96.Slices ![0, 64] S50000x32
  shapeCasts_S1600000_S1600000x1 : S1600000.ShapeCasts S1600000x1
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x32 : S8000x1.Broadcasts S8000x32
  bcast_S_S50000x32 : S_.BroadcastsInDim S50000x32 (![] : Fin 0 → Fin S50000x32.rank)
  concatenates_S50000x32_S50000x32_S50000x32_S50000x96_d1 : Shape.Concatenates [S50000x32, S50000x32, S50000x32] S50000x96 1
  inb_S10000x96_S10000x96_0_0 : ∀ a, (![0, 0] : Fin 2 → Nat) a + S10000x96.size a ≤ S10000x96.size a
  h_S10000x96 : 0 < S10000x96.numel
  shapeCasts_S10000x96_S10000x96 : S10000x96.ShapeCasts S10000x96
  reduces_S10000x96_S10000 : S10000x96.Reduces [1] S10000
  shapeCasts_S10000_S10000x1 : S10000.ShapeCasts S10000x1
  broadcasts_S10000x1_S10000x96 : S10000x1.Broadcasts S10000x96
  concatenates_S32x96_S32x96_S32x96_S96x96_d0 : Shape.Concatenates [S32x96, S32x96, S32x96] S96x96 0
  transposes_S96x96_S96x96_1_0 : S96x96.Transposes [1, 0] S96x96
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S5000x8_S8x96_S5000x96_1_0_0_1_n_n_wf : DotDims.WF S5000x8 S8x96 S5000x96 [1] [0] [0] [1] [] []
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S50000x8.size a
  hwx0_0 : ∀ i : grid0.Coords, EltTy.bits .f32 = 32 ∨ (Rect.block (s := S50000x8) S5000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x96.size a ≤ S8x96.size a
  hwx0_1 : ∀ i : grid0.Coords, EltTy.bits .f32 = 32 ∨ (Rect.block (s := S8x96) S8x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S1600000x32.size a
  hwx1_0 : ∀ i : grid1.Coords, EltTy.bits .f32 = 32 ∨ (Rect.block (s := S1600000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x32.size a ≤ S1600000x32.size a
  hwx1_2 : ∀ i : grid1.Coords, EltTy.bits .f32 = 32 ∨ (Rect.block (s := S1600000x32) S8000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x32.size a ≤ S1600000x32.size a
  hwx2_0 : ∀ i : grid2.Coords, EltTy.bits .f32 = 32 ∨ (Rect.block (s := S1600000x32) S8000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S1600000x1.size a
  hwx2_1 : ∀ i : grid2.Coords, EltTy.bits .f32 = 32 ∨ (Rect.block (s := S1600000x1) S8000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x32.size a ≤ S1600000x32.size a
  hwx2_2 : ∀ i : grid2.Coords, EltTy.bits .f32 = 32 ∨ (Rect.block (s := S1600000x32) S8000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x96.size a ≤ S50000x96.size a
  hwx3_0 : ∀ i : grid3.Coords, EltTy.bits .f32 = 32 ∨ (Rect.block (s := S50000x96) S10000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x96.size a ≤ S50000x96.size a
  hwx3_1 : ∀ i : grid3.Coords, EltTy.bits .f32 = 32 ∨ (Rect.block (s := S50000x96) S10000x96.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S96x96.size a ≤ S96x96.size a
  hwx4_1 : ∀ i : grid4.Coords, EltTy.bits .f32 = 32 ∨ (Rect.block (s := S96x96) S96x96.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x96.size a ≤ S50000x96.size a
  hwx4_2 : ∀ i : grid4.Coords, EltTy.bits .f32 = 32 ∨ (Rect.block (s := S50000x96) S5000x96.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x32.size a ≤ S1600000x32.size a
  hwx5_0 : ∀ i : grid5.Coords, EltTy.bits .f32 = 32 ∨ (Rect.block (s := S1600000x32) S8000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x1.size a ≤ S1600000x1.size a
  hwx5_1 : ∀ i : grid5.Coords, EltTy.bits .f32 = 32 ∨ (Rect.block (s := S1600000x1) S8000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x32.size a ≤ S1600000x32.size a
  hwx5_2 : ∀ i : grid5.Coords, EltTy.bits .f32 = 32 ∨ (Rect.block (s := S1600000x32) S8000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x32.size a ≤ S1600000x32.size a
  hwx6_0 : ∀ i : grid6.Coords, EltTy.bits .f32 = 32 ∨ (Rect.block (s := S1600000x32) S8000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x1.size a ≤ S1600000x1.size a
  hwx6_1 : ∀ i : grid6.Coords, EltTy.bits .f32 = 32 ∨ (Rect.block (s := S1600000x1) S8000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8000x32.size a ≤ S1600000x32.size a
  hwx6_2 : ∀ i : grid6.Coords, EltTy.bits .f32 = 32 ∨ (Rect.block (s := S1600000x32) S8000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x96.size a ≤ S50000x96.size a
  hwx7_0 : ∀ i : grid7.Coords, EltTy.bits .f32 = 32 ∨ (Rect.block (s := S50000x96) S10000x96.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x96.size a ≤ S50000x96.size a
  hwx7_1 : ∀ i : grid7.Coords, EltTy.bits .f32 = 32 ∨ (Rect.block (s := S50000x96) S10000x96.size (cc7_transform_1 i) (hinb7_1 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x96.size a ≤ S50000x96.size a
  hwx8_0 : ∀ i : grid8.Coords, EltTy.bits .f32 = 32 ∨ (Rect.block (s := S50000x96) S5000x96.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S96x96.size a ≤ S96x96.size a
  hwx8_1 : ∀ i : grid8.Coords, EltTy.bits .f32 = 32 ∨ (Rect.block (s := S96x96) S96x96.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x96.size a ≤ S50000x96.size a
  hwx8_2 : ∀ i : grid8.Coords, EltTy.bits .f32 = 32 ∨ (Rect.block (s := S50000x96) S5000x96.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8000x32.size a ≤ S1600000x32.size a
  hwx9_0 : ∀ i : grid9.Coords, EltTy.bits .f32 = 32 ∨ (Rect.block (s := S1600000x32) S8000x32.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S8000x1.size a ≤ S1600000x1.size a
  hwx9_1 : ∀ i : grid9.Coords, EltTy.bits .f32 = 32 ∨ (Rect.block (s := S1600000x1) S8000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S8000x32.size a ≤ S1600000x32.size a
  hwx9_2 : ∀ i : grid9.Coords, EltTy.bits .f32 = 32 ∨ (Rect.block (s := S1600000x32) S8000x32.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8000x32.size a ≤ S1600000x32.size a
  hwx10_0 : ∀ i : grid10.Coords, EltTy.bits .f32 = 32 ∨ (Rect.block (s := S1600000x32) S8000x32.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S8000x1.size a ≤ S1600000x1.size a
  hwx10_1 : ∀ i : grid10.Coords, EltTy.bits .f32 = 32 ∨ (Rect.block (s := S1600000x1) S8000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S8000x32.size a ≤ S1600000x32.size a
  hwx10_2 : ∀ i : grid10.Coords, EltTy.bits .f32 = 32 ∨ (Rect.block (s := S1600000x32) S8000x32.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x96.size a ≤ S50000x96.size a
  hwx11_0 : ∀ i : grid11.Coords, EltTy.bits .f32 = 32 ∨ (Rect.block (s := S50000x96) S10000x96.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S10000x96.size a ≤ S50000x96.size a
  hwx11_1 : ∀ i : grid11.Coords, EltTy.bits .f32 = 32 ∨ (Rect.block (s := S50000x96) S10000x96.size (cc11_transform_1 i) (hinb11_1 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S5000x8_S8x96_S5000x96_1_0_0_1_n_n : DotDims S5000x8 S8x96 S5000x96 where
  lhsContracting := [1]
  rhsContracting := [0]
  lhsNonContracting := [0]
  rhsNonContracting := [1]
  lhsBatch := []
  rhsBatch := []
  wf := dot_S5000x8_S8x96_S5000x96_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_arg0) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S8x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v50) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v60) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v63) S8000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v78) S8000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v80) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v81) S8000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v90) S10000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91) S10000x96.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v91) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93) S96x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v94) S5000x96.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v104) S8000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v106) S8000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v107) S8000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v122) S8000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v124) S8000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v125) S8000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v134) S10000x96.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v135) S10000x96.size cc7_transform_1 reads7_1 true false 2 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

abbrev win8_0 : Pipeline.Window sig grid8 :=
  Pipeline.Window.ofSpec (Memref.whole main_v135) S5000x96.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v137) S96x96.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v138) S5000x96.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v148) S8000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v150) S8000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v151) S8000x32.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v166) S8000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v168) S8000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v169) S8000x32.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v178) S10000x96.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v179) S10000x96.size cc11_transform_1 reads11_1 true false 2 stage11_1 sem11_1
    hrank11 hreads11_1 hinb11_1 nbuf11_1 (Memref.isWhole_whole _) hwx11_1 hstage11_1

abbrev win11 : Fin 2 → Pipeline.Window sig grid11 := fun | 0 => win11_0 | 1 => win11_1 | ⟨_ + 2, h⟩ => absurd h (Nat.not_lt.2 (Nat.le_add_left _ _))
abbrev spec11 : Fin 2 → Pipeline.WinSpec sig grid11.rank := fun w => (win11 w).toWinSpec

class Facts : Prop extends Facts₀ where

variable [Facts]
-- ==== ReferenceIdeal.lean ====
abbrev S50000x8 : Shape := ⟨2, ![50000, 8]⟩
abbrev S2x1600000 : Shape := ⟨2, ![2, 1600000]⟩
abbrev S32x8 : Shape := ⟨2, ![32, 8]⟩
abbrev S1600000 : Shape := ⟨1, ![1600000]⟩
abbrev S32x96 : Shape := ⟨2, ![32, 96]⟩
abbrev S1x1600000 : Shape := ⟨2, ![1, 1600000]⟩
abbrev S8x32 : Shape := ⟨2, ![8, 32]⟩
abbrev S50000x32 : Shape := ⟨2, ![50000, 32]⟩
abbrev S_ : Shape := ⟨0, ![]⟩
abbrev S50000 : Shape := ⟨1, ![50000]⟩
abbrev S1600000x1 : Shape := ⟨2, ![1600000, 1]⟩
abbrev S1600000x32 : Shape := ⟨2, ![1600000, 32]⟩
abbrev S50000x96 : Shape := ⟨2, ![50000, 96]⟩
abbrev S50000x1 : Shape := ⟨2, ![50000, 1]⟩
abbrev S96x32 : Shape := ⟨2, ![96, 32]⟩

abbrev nBuf : Space → Nat
  | .hbm => 450
  | .vmem => 0
  | .smem => 0
  | _ => 0

abbrev hbmTy0_0 (i : Nat) : BufTy := match i % 128 with
  | 0 => ⟨S50000x8, .f32⟩
  | 1 => ⟨S2x1600000, .i32⟩
  | 2 => ⟨S32x8, .f32⟩
  | 3 => ⟨S32x8, .f32⟩
  | 4 => ⟨S32x8, .f32⟩
  | 5 => ⟨S1600000, .f32⟩
  | 6 => ⟨S1600000, .f32⟩
  | 7 => ⟨S32x96, .f32⟩
  | 8 => ⟨S32x96, .f32⟩
  | 9 => ⟨S32x96, .f32⟩
  | 10 => ⟨S1600000, .f32⟩
  | 11 => ⟨S1600000, .f32⟩
  | 12 => ⟨S32x96, .f32⟩
  | 13 => ⟨S32x96, .f32⟩
  | 14 => ⟨S32x96, .f32⟩
  | 15 => ⟨S1600000, .f32⟩
  | 16 => ⟨S1600000, .f32⟩
  | 17 => ⟨S1x1600000, .i32⟩
  | 18 => ⟨S1600000, .i32⟩
  | 19 => ⟨S1x1600000, .i32⟩
  | 20 => ⟨S1600000, .i32⟩
  | 21 => ⟨S8x32, .f32⟩
  | 22 => ⟨S50000x32, .f32⟩
  | 23 => ⟨S8x32, .f32⟩
  | 24 => ⟨S50000x32, .f32⟩
  | 25 => ⟨S8x32, .f32⟩
  | 26 => ⟨S50000x32, .f32⟩
  | 27 => ⟨S_, .f32⟩
  | 28 => ⟨S50000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S_, .f32⟩
  | 38 => ⟨S1600000, .f32⟩
  | 39 => ⟨S50000, .f32⟩
  | 40 => ⟨S_, .f32⟩
  | 41 => ⟨S50000, .f32⟩
  | 42 => ⟨S50000, .i1⟩
  | 43 => ⟨S_, .f32⟩
  | 44 => ⟨S50000, .f32⟩
  | 45 => ⟨S50000, .f32⟩
  | 46 => ⟨S_, .f32⟩
  | 47 => ⟨S_, .f32⟩
  | 48 => ⟨S50000, .f32⟩
  | 49 => ⟨S50000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000, .f32⟩
  | 59 => ⟨S1600000, .f32⟩
  | 60 => ⟨S1600000x1, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x32, .f32⟩
  | 70 => ⟨S1600000x32, .f32⟩
  | 71 => ⟨S1600000x32, .f32⟩
  | 72 => ⟨S_, .f32⟩
  | 73 => ⟨S50000x32, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S50000x32, .f32⟩
  | 83 => ⟨S_, .f32⟩
  | 84 => ⟨S50000, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S_, .f32⟩
  | 94 => ⟨S1600000, .f32⟩
  | 95 => ⟨S50000, .f32⟩
  | 96 => ⟨S_, .f32⟩
  | 97 => ⟨S50000, .f32⟩
  | 98 => ⟨S50000, .i1⟩
  | 99 => ⟨S_, .f32⟩
  | 100 => ⟨S50000, .f32⟩
  | 101 => ⟨S50000, .f32⟩
  | 102 => ⟨S_, .f32⟩
  | 103 => ⟨S_, .f32⟩
  | 104 => ⟨S50000, .f32⟩
  | 105 => ⟨S50000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000, .f32⟩
  | 115 => ⟨S1600000, .f32⟩
  | 116 => ⟨S1600000x1, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x32, .f32⟩
  | 126 => ⟨S1600000x32, .f32⟩
  | 127 => ⟨S1600000x32, .f32⟩
  | _ => ⟨S50000x8, .f32⟩

abbrev hbmTy0_1 (i : Nat) : BufTy := match i % 128 with
  | 0 => ⟨S_, .f32⟩
  | 1 => ⟨S50000x32, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S50000x32, .f32⟩
  | 11 => ⟨S50000x96, .f32⟩
  | 12 => ⟨S50000x96, .f32⟩
  | 13 => ⟨S_, .f32⟩
  | 14 => ⟨S50000, .f32⟩
  | 15 => ⟨S50000x1, .f32⟩
  | 16 => ⟨S50000x1, .f32⟩
  | 17 => ⟨S_, .f32⟩
  | 18 => ⟨S50000x1, .f32⟩
  | 19 => ⟨S50000x1, .f32⟩
  | 20 => ⟨S50000x96, .f32⟩
  | 21 => ⟨S50000x96, .f32⟩
  | 22 => ⟨S_, .f32⟩
  | 23 => ⟨S_, .f32⟩
  | 24 => ⟨S50000x96, .f32⟩
  | 25 => ⟨S50000x96, .i1⟩
  | 26 => ⟨S_, .f32⟩
  | 27 => ⟨S50000x96, .f32⟩
  | 28 => ⟨S50000x96, .f32⟩
  | 29 => ⟨S50000x96, .f32⟩
  | 30 => ⟨S1x1600000, .i32⟩
  | 31 => ⟨S1600000, .i32⟩
  | 32 => ⟨S1x1600000, .i32⟩
  | 33 => ⟨S1600000, .i32⟩
  | 34 => ⟨S96x32, .f32⟩
  | 35 => ⟨S50000x32, .f32⟩
  | 36 => ⟨S96x32, .f32⟩
  | 37 => ⟨S50000x32, .f32⟩
  | 38 => ⟨S96x32, .f32⟩
  | 39 => ⟨S50000x32, .f32⟩
  | 40 => ⟨S_, .f32⟩
  | 41 => ⟨S50000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S_, .f32⟩
  | 51 => ⟨S1600000, .f32⟩
  | 52 => ⟨S50000, .f32⟩
  | 53 => ⟨S_, .f32⟩
  | 54 => ⟨S50000, .f32⟩
  | 55 => ⟨S50000, .i1⟩
  | 56 => ⟨S_, .f32⟩
  | 57 => ⟨S50000, .f32⟩
  | 58 => ⟨S50000, .f32⟩
  | 59 => ⟨S_, .f32⟩
  | 60 => ⟨S_, .f32⟩
  | 61 => ⟨S50000, .f32⟩
  | 62 => ⟨S50000, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000, .f32⟩
  | 72 => ⟨S1600000, .f32⟩
  | 73 => ⟨S1600000x1, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x32, .f32⟩
  | 83 => ⟨S1600000x32, .f32⟩
  | 84 => ⟨S1600000x32, .f32⟩
  | 85 => ⟨S_, .f32⟩
  | 86 => ⟨S50000x32, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S50000x32, .f32⟩
  | 96 => ⟨S_, .f32⟩
  | 97 => ⟨S50000, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S_, .f32⟩
  | 107 => ⟨S1600000, .f32⟩
  | 108 => ⟨S50000, .f32⟩
  | 109 => ⟨S_, .f32⟩
  | 110 => ⟨S50000, .f32⟩
  | 111 => ⟨S50000, .i1⟩
  | 112 => ⟨S_, .f32⟩
  | 113 => ⟨S50000, .f32⟩
  | 114 => ⟨S50000, .f32⟩
  | 115 => ⟨S_, .f32⟩
  | 116 => ⟨S_, .f32⟩
  | 117 => ⟨S50000, .f32⟩
  | 118 => ⟨S50000, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000, .f32⟩
  | _ => ⟨S50000x8, .f32⟩

abbrev hbmTy0_2 (i : Nat) : BufTy := match i % 128 with
  | 0 => ⟨S1600000, .f32⟩
  | 1 => ⟨S1600000x1, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x32, .f32⟩
  | 11 => ⟨S1600000x32, .f32⟩
  | 12 => ⟨S1600000x32, .f32⟩
  | 13 => ⟨S_, .f32⟩
  | 14 => ⟨S50000x32, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S50000x32, .f32⟩
  | 24 => ⟨S50000x96, .f32⟩
  | 25 => ⟨S50000x96, .f32⟩
  | 26 => ⟨S_, .f32⟩
  | 27 => ⟨S50000, .f32⟩
  | 28 => ⟨S50000x1, .f32⟩
  | 29 => ⟨S50000x1, .f32⟩
  | 30 => ⟨S_, .f32⟩
  | 31 => ⟨S50000x1, .f32⟩
  | 32 => ⟨S50000x1, .f32⟩
  | 33 => ⟨S50000x96, .f32⟩
  | 34 => ⟨S50000x96, .f32⟩
  | 35 => ⟨S_, .f32⟩
  | 36 => ⟨S_, .f32⟩
  | 37 => ⟨S50000x96, .f32⟩
  | 38 => ⟨S50000x96, .i1⟩
  | 39 => ⟨S_, .f32⟩
  | 40 => ⟨S50000x96, .f32⟩
  | 41 => ⟨S50000x96, .f32⟩
  | 42 => ⟨S50000x96, .f32⟩
  | 43 => ⟨S1x1600000, .i32⟩
  | 44 => ⟨S1600000, .i32⟩
  | 45 => ⟨S1x1600000, .i32⟩
  | 46 => ⟨S1600000, .i32⟩
  | 47 => ⟨S96x32, .f32⟩
  | 48 => ⟨S50000x32, .f32⟩
  | 49 => ⟨S96x32, .f32⟩
  | 50 => ⟨S50000x32, .f32⟩
  | 51 => ⟨S96x32, .f32⟩
  | 52 => ⟨S50000x32, .f32⟩
  | 53 => ⟨S_, .f32⟩
  | 54 => ⟨S50000, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S_, .f32⟩
  | 64 => ⟨S1600000, .f32⟩
  | 65 => ⟨S50000, .f32⟩
  | 66 => ⟨S_, .f32⟩
  | 67 => ⟨S50000, .f32⟩
  | 68 => ⟨S50000, .i1⟩
  | 69 => ⟨S_, .f32⟩
  | 70 => ⟨S50000, .f32⟩
  | 71 => ⟨S50000, .f32⟩
  | 72 => ⟨S_, .f32⟩
  | 73 => ⟨S_, .f32⟩
  | 74 => ⟨S50000, .f32⟩
  | 75 => ⟨S50000, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000, .f32⟩
  | 85 => ⟨S1600000, .f32⟩
  | 86 => ⟨S1600000x1, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x32, .f32⟩
  | 96 => ⟨S1600000x32, .f32⟩
  | 97 => ⟨S1600000x32, .f32⟩
  | 98 => ⟨S_, .f32⟩
  | 99 => ⟨S50000x32, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S50000x32, .f32⟩
  | 109 => ⟨S_, .f32⟩
  | 110 => ⟨S50000, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S_, .f32⟩
  | 120 => ⟨S1600000, .f32⟩
  | 121 => ⟨S50000, .f32⟩
  | 122 => ⟨S_, .f32⟩
  | 123 => ⟨S50000, .f32⟩
  | 124 => ⟨S50000, .i1⟩
  | 125 => ⟨S_, .f32⟩
  | 126 => ⟨S50000, .f32⟩
  | 127 => ⟨S50000, .f32⟩
  | _ => ⟨S50000x8, .f32⟩

abbrev hbmTy0_3 (i : Nat) : BufTy := match i % 128 with
  | 0 => ⟨S_, .f32⟩
  | 1 => ⟨S_, .f32⟩
  | 2 => ⟨S50000, .f32⟩
  | 3 => ⟨S50000, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000, .f32⟩
  | 13 => ⟨S1600000, .f32⟩
  | 14 => ⟨S1600000x1, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x32, .f32⟩
  | 24 => ⟨S1600000x32, .f32⟩
  | 25 => ⟨S1600000x32, .f32⟩
  | 26 => ⟨S_, .f32⟩
  | 27 => ⟨S50000x32, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S50000x32, .f32⟩
  | 37 => ⟨S50000x96, .f32⟩
  | 38 => ⟨S50000x96, .f32⟩
  | 39 => ⟨S_, .f32⟩
  | 40 => ⟨S50000, .f32⟩
  | 41 => ⟨S50000x1, .f32⟩
  | 42 => ⟨S50000x1, .f32⟩
  | 43 => ⟨S_, .f32⟩
  | 44 => ⟨S50000x1, .f32⟩
  | 45 => ⟨S50000x1, .f32⟩
  | 46 => ⟨S50000x96, .f32⟩
  | 47 => ⟨S50000x96, .f32⟩
  | 48 => ⟨S_, .f32⟩
  | 49 => ⟨S_, .f32⟩
  | 50 => ⟨S50000x96, .f32⟩
  | 51 => ⟨S50000x96, .i1⟩
  | 52 => ⟨S_, .f32⟩
  | 53 => ⟨S50000x96, .f32⟩
  | 54 => ⟨S50000x96, .f32⟩
  | 55 => ⟨S50000x96, .f32⟩
  | 56 => ⟨S1600000, .f32⟩
  | 57 => ⟨S1600000, .f32⟩
  | 58 => ⟨S_, .f32⟩
  | 59 => ⟨S1600000, .f32⟩
  | 60 => ⟨S1600000, .f32⟩
  | 61 => ⟨S1600000, .f32⟩
  | 62 => ⟨S1600000, .f32⟩
  | 63 => ⟨S_, .f32⟩
  | 64 => ⟨S1600000, .f32⟩
  | 65 => ⟨S1600000, .f32⟩
  | _ => ⟨S50000x8, .f32⟩

abbrev hbmTy (i : Nat) : BufTy := match i / 128 with
  | 0 => hbmTy0_0 i
  | 1 => hbmTy0_1 i
  | 2 => hbmTy0_2 i
  | 3 => hbmTy0_3 i
  | _ => ⟨S50000x8, .f32⟩

abbrev bufTy : (tb : Table) → Fin (tcTables nBuf tb) → BufTy
  | .hbm, ⟨i, _⟩ => hbmTy i
  | _, _ => ⟨S50000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_call0_v0 : Ref sig .tc := ⟨.hbm, 47, rfl⟩
abbrev main_call0_v1 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_c_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_c_8 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_c_10 : Ref sig .tc := ⟨.hbm, 74, rfl⟩
abbrev main_v43 : Ref sig .tc := ⟨.hbm, 75, rfl⟩
abbrev main_v44 : Ref sig .tc := ⟨.hbm, 76, rfl⟩
abbrev main_c_11 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_12 : Ref sig .tc := ⟨.hbm, 83, rfl⟩
abbrev main_v50 : Ref sig .tc := ⟨.hbm, 84, rfl⟩
abbrev main_c_13 : Ref sig .tc := ⟨.hbm, 85, rfl⟩
abbrev main_v51 : Ref sig .tc := ⟨.hbm, 86, rfl⟩
abbrev main_v52 : Ref sig .tc := ⟨.hbm, 87, rfl⟩
abbrev main_c_14 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_15 : Ref sig .tc := ⟨.hbm, 93, rfl⟩
abbrev main_v57 : Ref sig .tc := ⟨.hbm, 94, rfl⟩
abbrev main_v58 : Ref sig .tc := ⟨.hbm, 95, rfl⟩
abbrev main_cst_16 : Ref sig .tc := ⟨.hbm, 96, rfl⟩
abbrev main_v59 : Ref sig .tc := ⟨.hbm, 97, rfl⟩
abbrev main_v60 : Ref sig .tc := ⟨.hbm, 98, rfl⟩
abbrev main_cst_17 : Ref sig .tc := ⟨.hbm, 99, rfl⟩
abbrev main_v61 : Ref sig .tc := ⟨.hbm, 100, rfl⟩
abbrev main_v62 : Ref sig .tc := ⟨.hbm, 101, rfl⟩
abbrev main_cst_18 : Ref sig .tc := ⟨.hbm, 102, rfl⟩
abbrev main_call1_v0 : Ref sig .tc := ⟨.hbm, 103, rfl⟩
abbrev main_call1_v1 : Ref sig .tc := ⟨.hbm, 104, rfl⟩
abbrev main_v63 : Ref sig .tc := ⟨.hbm, 105, rfl⟩
abbrev main_c_19 : Ref sig .tc := ⟨.hbm, 106, rfl⟩
abbrev main_v64 : Ref sig .tc := ⟨.hbm, 107, rfl⟩
abbrev main_v65 : Ref sig .tc := ⟨.hbm, 108, rfl⟩
abbrev main_c_20 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_c_21 : Ref sig .tc := ⟨.hbm, 117, rfl⟩
abbrev main_v73 : Ref sig .tc := ⟨.hbm, 118, rfl⟩
abbrev main_v74 : Ref sig .tc := ⟨.hbm, 119, rfl⟩
abbrev main_c_22 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_23 : Ref sig .tc := ⟨.hbm, 128, rfl⟩
abbrev main_v82 : Ref sig .tc := ⟨.hbm, 129, rfl⟩
abbrev main_c_24 : Ref sig .tc := ⟨.hbm, 130, rfl⟩
abbrev main_v83 : Ref sig .tc := ⟨.hbm, 131, rfl⟩
abbrev main_v84 : Ref sig .tc := ⟨.hbm, 132, rfl⟩
abbrev main_c_25 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_call2_v0 : Ref sig .tc := ⟨.hbm, 140, rfl⟩
abbrev main_call2_cst : Ref sig .tc := ⟨.hbm, 141, rfl⟩
abbrev main_call2_v1 : Ref sig .tc := ⟨.hbm, 142, rfl⟩
abbrev main_call2_v2 : Ref sig .tc := ⟨.hbm, 143, rfl⟩
abbrev main_v91 : Ref sig .tc := ⟨.hbm, 144, rfl⟩
abbrev main_cst_26 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_cst_27 : Ref sig .tc := ⟨.hbm, 150, rfl⟩
abbrev main_call3_cst : Ref sig .tc := ⟨.hbm, 151, rfl⟩
abbrev main_call3_v0 : Ref sig .tc := ⟨.hbm, 152, rfl⟩
abbrev main_call3_v1 : Ref sig .tc := ⟨.hbm, 153, rfl⟩
abbrev main_call3_v2 : Ref sig .tc := ⟨.hbm, 154, rfl⟩
abbrev main_call3_v3 : Ref sig .tc := ⟨.hbm, 155, rfl⟩
abbrev main_call3_v4 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_cst_28 : Ref sig .tc := ⟨.hbm, 168, rfl⟩
abbrev main_v107 : Ref sig .tc := ⟨.hbm, 169, rfl⟩
abbrev main_c_29 : Ref sig .tc := ⟨.hbm, 170, rfl⟩
abbrev main_v108 : Ref sig .tc := ⟨.hbm, 171, rfl⟩
abbrev main_v109 : Ref sig .tc := ⟨.hbm, 172, rfl⟩
abbrev main_c_30 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_cst_31 : Ref sig .tc := ⟨.hbm, 178, rfl⟩
abbrev main_v114 : Ref sig .tc := ⟨.hbm, 179, rfl⟩
abbrev main_v115 : Ref sig .tc := ⟨.hbm, 180, rfl⟩
abbrev main_cst_32 : Ref sig .tc := ⟨.hbm, 181, rfl⟩
abbrev main_v116 : Ref sig .tc := ⟨.hbm, 182, rfl⟩
abbrev main_v117 : Ref sig .tc := ⟨.hbm, 183, rfl⟩
abbrev main_cst_33 : Ref sig .tc := ⟨.hbm, 184, rfl⟩
abbrev main_v118 : Ref sig .tc := ⟨.hbm, 185, rfl⟩
abbrev main_v119 : Ref sig .tc := ⟨.hbm, 186, rfl⟩
abbrev main_cst_34 : Ref sig .tc := ⟨.hbm, 187, rfl⟩
abbrev main_call4_v0 : Ref sig .tc := ⟨.hbm, 188, rfl⟩
abbrev main_call4_v1 : Ref sig .tc := ⟨.hbm, 189, rfl⟩
abbrev main_v120 : Ref sig .tc := ⟨.hbm, 190, rfl⟩
abbrev main_c_35 : Ref sig .tc := ⟨.hbm, 191, rfl⟩
abbrev main_v121 : Ref sig .tc := ⟨.hbm, 192, rfl⟩
abbrev main_v122 : Ref sig .tc := ⟨.hbm, 193, rfl⟩
abbrev main_c_36 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_c_37 : Ref sig .tc := ⟨.hbm, 202, rfl⟩
abbrev main_v130 : Ref sig .tc := ⟨.hbm, 203, rfl⟩
abbrev main_v131 : Ref sig .tc := ⟨.hbm, 204, rfl⟩
abbrev main_c_38 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_cst_39 : Ref sig .tc := ⟨.hbm, 213, rfl⟩
abbrev main_v139 : Ref sig .tc := ⟨.hbm, 214, rfl⟩
abbrev main_c_40 : Ref sig .tc := ⟨.hbm, 215, rfl⟩
abbrev main_v140 : Ref sig .tc := ⟨.hbm, 216, rfl⟩
abbrev main_v141 : Ref sig .tc := ⟨.hbm, 217, rfl⟩
abbrev main_c_41 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_cst_42 : Ref sig .tc := ⟨.hbm, 224, rfl⟩
abbrev main_v147 : Ref sig .tc := ⟨.hbm, 225, rfl⟩
abbrev main_c_43 : Ref sig .tc := ⟨.hbm, 226, rfl⟩
abbrev main_v148 : Ref sig .tc := ⟨.hbm, 227, rfl⟩
abbrev main_v149 : Ref sig .tc := ⟨.hbm, 228, rfl⟩
abbrev main_c_44 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_cst_45 : Ref sig .tc := ⟨.hbm, 234, rfl⟩
abbrev main_v154 : Ref sig .tc := ⟨.hbm, 235, rfl⟩
abbrev main_v155 : Ref sig .tc := ⟨.hbm, 236, rfl⟩
abbrev main_cst_46 : Ref sig .tc := ⟨.hbm, 237, rfl⟩
abbrev main_v156 : Ref sig .tc := ⟨.hbm, 238, rfl⟩
abbrev main_v157 : Ref sig .tc := ⟨.hbm, 239, rfl⟩
abbrev main_cst_47 : Ref sig .tc := ⟨.hbm, 240, rfl⟩
abbrev main_v158 : Ref sig .tc := ⟨.hbm, 241, rfl⟩
abbrev main_v159 : Ref sig .tc := ⟨.hbm, 242, rfl⟩
abbrev main_cst_48 : Ref sig .tc := ⟨.hbm, 243, rfl⟩
abbrev main_call5_v0 : Ref sig .tc := ⟨.hbm, 244, rfl⟩
abbrev main_call5_v1 : Ref sig .tc := ⟨.hbm, 245, rfl⟩
abbrev main_v160 : Ref sig .tc := ⟨.hbm, 246, rfl⟩
abbrev main_c_49 : Ref sig .tc := ⟨.hbm, 247, rfl⟩
abbrev main_v161 : Ref sig .tc := ⟨.hbm, 248, rfl⟩
abbrev main_v162 : Ref sig .tc := ⟨.hbm, 249, rfl⟩
abbrev main_c_50 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_c_51 : Ref sig .tc := ⟨.hbm, 258, rfl⟩
abbrev main_v170 : Ref sig .tc := ⟨.hbm, 259, rfl⟩
abbrev main_v171 : Ref sig .tc := ⟨.hbm, 260, rfl⟩
abbrev main_c_52 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_cst_53 : Ref sig .tc := ⟨.hbm, 269, rfl⟩
abbrev main_v179 : Ref sig .tc := ⟨.hbm, 270, rfl⟩
abbrev main_c_54 : Ref sig .tc := ⟨.hbm, 271, rfl⟩
abbrev main_v180 : Ref sig .tc := ⟨.hbm, 272, rfl⟩
abbrev main_v181 : Ref sig .tc := ⟨.hbm, 273, rfl⟩
abbrev main_c_55 : Ref sig .tc := ⟨.hbm, 274, rfl⟩
abbrev main_v182 : Ref sig .tc := ⟨.hbm, 275, rfl⟩
abbrev main_v183 : Ref sig .tc := ⟨.hbm, 276, rfl⟩
abbrev main_v184 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_call6_v0 : Ref sig .tc := ⟨.hbm, 281, rfl⟩
abbrev main_call6_cst : Ref sig .tc := ⟨.hbm, 282, rfl⟩
abbrev main_call6_v1 : Ref sig .tc := ⟨.hbm, 283, rfl⟩
abbrev main_call6_v2 : Ref sig .tc := ⟨.hbm, 284, rfl⟩
abbrev main_v188 : Ref sig .tc := ⟨.hbm, 285, rfl⟩
abbrev main_cst_56 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_v192 : Ref sig .tc := ⟨.hbm, 290, rfl⟩
abbrev main_cst_57 : Ref sig .tc := ⟨.hbm, 291, rfl⟩
abbrev main_call7_cst : Ref sig .tc := ⟨.hbm, 292, rfl⟩
abbrev main_call7_v0 : Ref sig .tc := ⟨.hbm, 293, rfl⟩
abbrev main_call7_v1 : Ref sig .tc := ⟨.hbm, 294, rfl⟩
abbrev main_call7_v2 : Ref sig .tc := ⟨.hbm, 295, rfl⟩
abbrev main_call7_v3 : Ref sig .tc := ⟨.hbm, 296, rfl⟩
abbrev main_call7_v4 : Ref sig .tc := ⟨.hbm, 297, rfl⟩
abbrev main_v193 : Ref sig .tc := ⟨.hbm, 298, rfl⟩
abbrev main_v194 : Ref sig .tc := ⟨.hbm, 299, rfl⟩
abbrev main_v195 : Ref sig .tc := ⟨.hbm, 300, rfl⟩
abbrev main_v196 : Ref sig .tc := ⟨.hbm, 301, rfl⟩
abbrev main_v197 : Ref sig .tc := ⟨.hbm, 302, rfl⟩
abbrev main_v198 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_cst_58 : Ref sig .tc := ⟨.hbm, 309, rfl⟩
abbrev main_v204 : Ref sig .tc := ⟨.hbm, 310, rfl⟩
abbrev main_c_59 : Ref sig .tc := ⟨.hbm, 311, rfl⟩
abbrev main_v205 : Ref sig .tc := ⟨.hbm, 312, rfl⟩
abbrev main_v206 : Ref sig .tc := ⟨.hbm, 313, rfl⟩
abbrev main_c_60 : Ref sig .tc := ⟨.hbm, 314, rfl⟩
abbrev main_v207 : Ref sig .tc := ⟨.hbm, 315, rfl⟩
abbrev main_v208 : Ref sig .tc := ⟨.hbm, 316, rfl⟩
abbrev main_v209 : Ref sig .tc := ⟨.hbm, 317, rfl⟩
abbrev main_v210 : Ref sig .tc := ⟨.hbm, 318, rfl⟩
abbrev main_cst_61 : Ref sig .tc := ⟨.hbm, 319, rfl⟩
abbrev main_v211 : Ref sig .tc := ⟨.hbm, 320, rfl⟩
abbrev main_v212 : Ref sig .tc := ⟨.hbm, 321, rfl⟩
abbrev main_cst_62 : Ref sig .tc := ⟨.hbm, 322, rfl⟩
abbrev main_v213 : Ref sig .tc := ⟨.hbm, 323, rfl⟩
abbrev main_v214 : Ref sig .tc := ⟨.hbm, 324, rfl⟩
abbrev main_cst_63 : Ref sig .tc := ⟨.hbm, 325, rfl⟩
abbrev main_v215 : Ref sig .tc := ⟨.hbm, 326, rfl⟩
abbrev main_v216 : Ref sig .tc := ⟨.hbm, 327, rfl⟩
abbrev main_cst_64 : Ref sig .tc := ⟨.hbm, 328, rfl⟩
abbrev main_call8_v0 : Ref sig .tc := ⟨.hbm, 329, rfl⟩
abbrev main_call8_v1 : Ref sig .tc := ⟨.hbm, 330, rfl⟩
abbrev main_v217 : Ref sig .tc := ⟨.hbm, 331, rfl⟩
abbrev main_c_65 : Ref sig .tc := ⟨.hbm, 332, rfl⟩
abbrev main_v218 : Ref sig .tc := ⟨.hbm, 333, rfl⟩
abbrev main_v219 : Ref sig .tc := ⟨.hbm, 334, rfl⟩
abbrev main_c_66 : Ref sig .tc := ⟨.hbm, 335, rfl⟩
abbrev main_v220 : Ref sig .tc := ⟨.hbm, 336, rfl⟩
abbrev main_v221 : Ref sig .tc := ⟨.hbm, 337, rfl⟩
abbrev main_v222 : Ref sig .tc := ⟨.hbm, 338, rfl⟩
abbrev main_v223 : Ref sig .tc := ⟨.hbm, 339, rfl⟩
abbrev main_v224 : Ref sig .tc := ⟨.hbm, 340, rfl⟩
abbrev main_v225 : Ref sig .tc := ⟨.hbm, 341, rfl⟩
abbrev main_v226 : Ref sig .tc := ⟨.hbm, 342, rfl⟩
abbrev main_c_67 : Ref sig .tc := ⟨.hbm, 343, rfl⟩
abbrev main_v227 : Ref sig .tc := ⟨.hbm, 344, rfl⟩
abbrev main_v228 : Ref sig .tc := ⟨.hbm, 345, rfl⟩
abbrev main_c_68 : Ref sig .tc := ⟨.hbm, 346, rfl⟩
abbrev main_v229 : Ref sig .tc := ⟨.hbm, 347, rfl⟩
abbrev main_v230 : Ref sig .tc := ⟨.hbm, 348, rfl⟩
abbrev main_v231 : Ref sig .tc := ⟨.hbm, 349, rfl⟩
abbrev main_v232 : Ref sig .tc := ⟨.hbm, 350, rfl⟩
abbrev main_v233 : Ref sig .tc := ⟨.hbm, 351, rfl⟩
abbrev main_v234 : Ref sig .tc := ⟨.hbm, 352, rfl⟩
abbrev main_v235 : Ref sig .tc := ⟨.hbm, 353, rfl⟩
abbrev main_cst_69 : Ref sig .tc := ⟨.hbm, 354, rfl⟩
abbrev main_v236 : Ref sig .tc := ⟨.hbm, 355, rfl⟩
abbrev main_c_70 : Ref sig .tc := ⟨.hbm, 356, rfl⟩
abbrev main_v237 : Ref sig .tc := ⟨.hbm, 357, rfl⟩
abbrev main_v238 : Ref sig .tc := ⟨.hbm, 358, rfl⟩
abbrev main_c_71 : Ref sig .tc := ⟨.hbm, 359, rfl⟩
abbrev main_v239 : Ref sig .tc := ⟨.hbm, 360, rfl⟩
abbrev main_v240 : Ref sig .tc := ⟨.hbm, 361, rfl⟩
abbrev main_v241 : Ref sig .tc := ⟨.hbm, 362, rfl⟩
abbrev main_v242 : Ref sig .tc := ⟨.hbm, 363, rfl⟩
abbrev main_v243 : Ref sig .tc := ⟨.hbm, 364, rfl⟩
abbrev main_cst_72 : Ref sig .tc := ⟨.hbm, 365, rfl⟩
abbrev main_v244 : Ref sig .tc := ⟨.hbm, 366, rfl⟩
abbrev main_c_73 : Ref sig .tc := ⟨.hbm, 367, rfl⟩
abbrev main_v245 : Ref sig .tc := ⟨.hbm, 368, rfl⟩
abbrev main_v246 : Ref sig .tc := ⟨.hbm, 369, rfl⟩
abbrev main_c_74 : Ref sig .tc := ⟨.hbm, 370, rfl⟩
abbrev main_v247 : Ref sig .tc := ⟨.hbm, 371, rfl⟩
abbrev main_v248 : Ref sig .tc := ⟨.hbm, 372, rfl⟩
abbrev main_v249 : Ref sig .tc := ⟨.hbm, 373, rfl⟩
abbrev main_v250 : Ref sig .tc := ⟨.hbm, 374, rfl⟩
abbrev main_cst_75 : Ref sig .tc := ⟨.hbm, 375, rfl⟩
abbrev main_v251 : Ref sig .tc := ⟨.hbm, 376, rfl⟩
abbrev main_v252 : Ref sig .tc := ⟨.hbm, 377, rfl⟩
abbrev main_cst_76 : Ref sig .tc := ⟨.hbm, 378, rfl⟩
abbrev main_v253 : Ref sig .tc := ⟨.hbm, 379, rfl⟩
abbrev main_v254 : Ref sig .tc := ⟨.hbm, 380, rfl⟩
abbrev main_cst_77 : Ref sig .tc := ⟨.hbm, 381, rfl⟩
abbrev main_v255 : Ref sig .tc := ⟨.hbm, 382, rfl⟩
abbrev main_v256 : Ref sig .tc := ⟨.hbm, 383, rfl⟩
abbrev main_cst_78 : Ref sig .tc := ⟨.hbm, 384, rfl⟩
abbrev main_call9_v0 : Ref sig .tc := ⟨.hbm, 385, rfl⟩
abbrev main_call9_v1 : Ref sig .tc := ⟨.hbm, 386, rfl⟩
abbrev main_v257 : Ref sig .tc := ⟨.hbm, 387, rfl⟩
abbrev main_c_79 : Ref sig .tc := ⟨.hbm, 388, rfl⟩
abbrev main_v258 : Ref sig .tc := ⟨.hbm, 389, rfl⟩
abbrev main_v259 : Ref sig .tc := ⟨.hbm, 390, rfl⟩
abbrev main_c_80 : Ref sig .tc := ⟨.hbm, 391, rfl⟩
abbrev main_v260 : Ref sig .tc := ⟨.hbm, 392, rfl⟩
abbrev main_v261 : Ref sig .tc := ⟨.hbm, 393, rfl⟩
abbrev main_v262 : Ref sig .tc := ⟨.hbm, 394, rfl⟩
abbrev main_v263 : Ref sig .tc := ⟨.hbm, 395, rfl⟩
abbrev main_v264 : Ref sig .tc := ⟨.hbm, 396, rfl⟩
abbrev main_v265 : Ref sig .tc := ⟨.hbm, 397, rfl⟩
abbrev main_v266 : Ref sig .tc := ⟨.hbm, 398, rfl⟩
abbrev main_c_81 : Ref sig .tc := ⟨.hbm, 399, rfl⟩
abbrev main_v267 : Ref sig .tc := ⟨.hbm, 400, rfl⟩
abbrev main_v268 : Ref sig .tc := ⟨.hbm, 401, rfl⟩
abbrev main_c_82 : Ref sig .tc := ⟨.hbm, 402, rfl⟩
abbrev main_v269 : Ref sig .tc := ⟨.hbm, 403, rfl⟩
abbrev main_v270 : Ref sig .tc := ⟨.hbm, 404, rfl⟩
abbrev main_v271 : Ref sig .tc := ⟨.hbm, 405, rfl⟩
abbrev main_v272 : Ref sig .tc := ⟨.hbm, 406, rfl⟩
abbrev main_v273 : Ref sig .tc := ⟨.hbm, 407, rfl⟩
abbrev main_v274 : Ref sig .tc := ⟨.hbm, 408, rfl⟩
abbrev main_v275 : Ref sig .tc := ⟨.hbm, 409, rfl⟩
abbrev main_cst_83 : Ref sig .tc := ⟨.hbm, 410, rfl⟩
abbrev main_v276 : Ref sig .tc := ⟨.hbm, 411, rfl⟩
abbrev main_c_84 : Ref sig .tc := ⟨.hbm, 412, rfl⟩
abbrev main_v277 : Ref sig .tc := ⟨.hbm, 413, rfl⟩
abbrev main_v278 : Ref sig .tc := ⟨.hbm, 414, rfl⟩
abbrev main_c_85 : Ref sig .tc := ⟨.hbm, 415, rfl⟩
abbrev main_v279 : Ref sig .tc := ⟨.hbm, 416, rfl⟩
abbrev main_v280 : Ref sig .tc := ⟨.hbm, 417, rfl⟩
abbrev main_v281 : Ref sig .tc := ⟨.hbm, 418, rfl⟩
abbrev main_v282 : Ref sig .tc := ⟨.hbm, 419, rfl⟩
abbrev main_v283 : Ref sig .tc := ⟨.hbm, 420, rfl⟩
abbrev main_v284 : Ref sig .tc := ⟨.hbm, 421, rfl⟩
abbrev main_call10_v0 : Ref sig .tc := ⟨.hbm, 422, rfl⟩
abbrev main_call10_cst : Ref sig .tc := ⟨.hbm, 423, rfl⟩
abbrev main_call10_v1 : Ref sig .tc := ⟨.hbm, 424, rfl⟩
abbrev main_call10_v2 : Ref sig .tc := ⟨.hbm, 425, rfl⟩
abbrev main_v285 : Ref sig .tc := ⟨.hbm, 426, rfl⟩
abbrev main_cst_86 : Ref sig .tc := ⟨.hbm, 427, rfl⟩
abbrev main_v286 : Ref sig .tc := ⟨.hbm, 428, rfl⟩
abbrev main_v287 : Ref sig .tc := ⟨.hbm, 429, rfl⟩
abbrev main_v288 : Ref sig .tc := ⟨.hbm, 430, rfl⟩
abbrev main_v289 : Ref sig .tc := ⟨.hbm, 431, rfl⟩
abbrev main_cst_87 : Ref sig .tc := ⟨.hbm, 432, rfl⟩
abbrev main_call11_cst : Ref sig .tc := ⟨.hbm, 433, rfl⟩
abbrev main_call11_v0 : Ref sig .tc := ⟨.hbm, 434, rfl⟩
abbrev main_call11_v1 : Ref sig .tc := ⟨.hbm, 435, rfl⟩
abbrev main_call11_v2 : Ref sig .tc := ⟨.hbm, 436, rfl⟩
abbrev main_call11_v3 : Ref sig .tc := ⟨.hbm, 437, rfl⟩
abbrev main_call11_v4 : Ref sig .tc := ⟨.hbm, 438, rfl⟩
abbrev main_v290 : Ref sig .tc := ⟨.hbm, 439, rfl⟩
abbrev main_v291 : Ref sig .tc := ⟨.hbm, 440, rfl⟩
abbrev main_v292 : Ref sig .tc := ⟨.hbm, 441, rfl⟩
abbrev main_cst_88 : Ref sig .tc := ⟨.hbm, 442, rfl⟩
abbrev main_v293 : Ref sig .tc := ⟨.hbm, 443, rfl⟩
abbrev main_v294 : Ref sig .tc := ⟨.hbm, 444, rfl⟩
abbrev main_v295 : Ref sig .tc := ⟨.hbm, 445, rfl⟩
abbrev main_v296 : Ref sig .tc := ⟨.hbm, 446, rfl⟩
abbrev main_cst_89 : Ref sig .tc := ⟨.hbm, 447, rfl⟩
abbrev main_v297 : Ref sig .tc := ⟨.hbm, 448, rfl⟩
abbrev main_v298 : Ref sig .tc := ⟨.hbm, 449, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S32x8_S8x32_1_0 : S32x8.Transposes [1, 0] S8x32
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S50000x32 : S_.BroadcastsInDim S50000x32 (![] : Fin 0 → Fin S50000x32.rank)
  concatenates_S50000x32_S50000x32_S50000x32_S50000x96_d1 : Shape.Concatenates [S50000x32, S50000x32, S50000x32] S50000x96 1
  reducesTo_S50000x96_S50000_d1 : S50000x96.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x96_0_1 : S50000x1.BroadcastsInDim S50000x96 (![0, 1] : Fin 2 → Fin S50000x96.rank)
  bcast_S_S50000x96 : S_.BroadcastsInDim S50000x96 (![] : Fin 0 → Fin S50000x96.rank)
  transposes_S32x96_S96x32_1_0 : S32x96.Transposes [1, 0] S96x32
  dot_S50000x8_S8x32_S50000x32_1_0_0_1_n_n_wf : DotDims.WF S50000x8 S8x32 S50000x32 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  dot_S50000x96_S96x32_S50000x32_1_0_0_1_n_n_wf : DotDims.WF S50000x96 S96x32 S50000x32 [1] [0] [0] [1] [] []

variable [Facts₀]

def dot_S50000x8_S8x32_S50000x32_1_0_0_1_n_n : DotDims S50000x8 S8x32 S50000x32 where
  lhsContracting := [1]
  rhsContracting := [0]
  lhsNonContracting := [0]
  rhsNonContracting := [1]
  lhsBatch := []
  rhsBatch := []
  wf := dot_S50000x8_S8x32_S50000x32_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S50000x96_S96x32_S50000x32_1_0_0_1_n_n : DotDims S50000x96 S96x32 S50000x32 where
  lhsContracting := [1]
  rhsContracting := [0]
  lhsNonContracting := [0]
  rhsNonContracting := [1]
  lhsBatch := []
  rhsBatch := []
  wf := dot_S50000x96_S96x32_S50000x32_1_0_0_1_n_n_wf

class Facts : Prop extends Facts₀ where

variable [Facts]
-- ==== Proof.KReg0.lean ====
/- Region 0 of the program: layer 1's projection. The grid has 10 points; point t sees rows [5000·t, 5000·t + 5000) of the [50000, 8] feature array and the whole fused [8, 96] weight matrix (its block index never moves, so it is fetched once), and writes the same rows of the [50000, 96] output: entry (n, j) is the sum over k of x(n, k) · wt(k, j). Here: the body's run on one block, and the bookkeeping that lets the pipeline's launch theorem carry it over all 10 points. -/
import proofs.«107201_j32822140076800_2_alg».proof.Proof.Gen.Kernel.Launch
import proofs.«107201_j32822140076800_2_alg».proof.Proof.Gen.Kernel.Skeleton
import proofs.«107201_j32822140076800_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every grid point, whether or not the block was fetched there: where it is not fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every grid point, whether or not the block was fetched there: where it is not fetched the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The whole-block rectangles the body loads and stores through -/

abbrev r0_S5000x8 : Rect S5000x8 := Rect.unit (s := S5000x8) ![0, 0] S5000x8.size inb_S5000x8_S5000x8_0_0
abbrev r0_S8x96 : Rect S8x96 := Rect.unit (s := S8x96) ![0, 0] S8x96.size inb_S8x96_S8x96_0_0
abbrev r0_S5000x96 : Rect S5000x96 := Rect.unit (s := S5000x96) ![0, 0] S5000x96.size inb_S5000x96_S5000x96_0_0

/-- What the body leaves in the output block: its single store, of the body's pure function of the loaded input blocks. -/
def out0_2 (x0 : Vec F S5000x8 .f32) (x1 : Vec F S8x96 .f32) : Vec F S5000x96 .f32 :=
  View.canon [⟨r0_S5000x96, k0_pay1 (View.ld x0 r0_S5000x8) (View.ld x1 r0_S8x96)⟩]

/-- The single store covers the whole output block. -/
theorem cover0_2 (p0 : Vec F S5000x96 .f32) (y : S5000x96.Idx) :
    ∃ pc ∈ ([⟨r0_S5000x96, p0⟩] : List (View.Piece (Elt F) S5000x96 .f32)), y ∈ pc.1.set :=
  View.cover_of_tiled [⟨r0_S5000x96, p0⟩] S5000x96.size (by rfl) y

set_option maxHeartbeats 1000000 in
/-- The body, run on whole staging buffers holding `x` (inputs) and anything (output), ends with the inputs as they were and the output block at `out0_2` of them. -/
theorem sound_kernel0 (c : Dev nD) (E : Set ℕ) (i : grid0.Coords) (arg0 : Memref sig .tc .vmem S5000x8 .f32) (harg0 : arg0.IsWhole) (arg1 : Memref sig .tc .vmem S8x96 .f32) (harg1 : arg1.IsWhole) (arg2 : Memref sig .tc .vmem S5000x96 .f32) (harg2 : arg2.IsWhole)
    (x0 : Vec F S5000x8 .f32) (x1 : Vec F S8x96 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input buffer still holds its block and the output buffer holds `out0_2` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic grid point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any grid point the input buffers hold their blocks, so the body's triple applies; the invariant and the core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.KReg1.lean ====
/- Region 1 of the program: the edge-message scaling of layer 1's up direction. The grid has 200 points; point t sees rows [8000·t, 8000·t + 8000) of the gathered [1600000, 32] feature array and of the [1600000, 1] weight column, and writes the same rows of the output: entry (e, q) is gathered(e, q) · w(e, 0). Here: the body's run on one block, and the bookkeeping that lets the pipeline's launch theorem carry it over all 200 points. -/
import proofs.«107201_j32822140076800_2_alg».proof.Proof.Gen.Kernel.Launch
import proofs.«107201_j32822140076800_2_alg».proof.Proof.Gen.Kernel.Skeleton
import proofs.«107201_j32822140076800_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every grid point, whether or not the block was fetched there: where it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every grid point, whether or not the block was fetched there: where it is not fetched the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The whole-block rectangles the body loads and stores through -/

abbrev r1_S8000x32 : Rect S8000x32 := Rect.unit (s := S8000x32) ![0, 0] S8000x32.size inb_S8000x32_S8000x32_0_0
abbrev r1_S8000x1 : Rect S8000x1 := Rect.unit (s := S8000x1) ![0, 0] S8000x1.size inb_S8000x1_S8000x1_0_0

/-- What the body leaves in the output block: its single store, of the body's pure function of the loaded input blocks. -/
def out1_2 (x0 : Vec F S8000x32 .f32) (x1 : Vec F S8000x1 .f32) : Vec F S8000x32 .f32 :=
  View.canon [⟨r1_S8000x32, k1_pay1 (View.ld x0 r1_S8000x32) (View.ld x1 r1_S8000x1)⟩]

/-- The single store covers the whole output block. -/
theorem cover1_2 (p0 : Vec F S8000x32 .f32) (y : S8000x32.Idx) :
    ∃ pc ∈ ([⟨r1_S8000x32, p0⟩] : List (View.Piece (Elt F) S8000x32 .f32)), y ∈ pc.1.set :=
  View.cover_of_tiled [⟨r1_S8000x32, p0⟩] S8000x32.size (by rfl) y

set_option maxHeartbeats 1000000 in
/-- The body, run on whole staging buffers holding `x` (inputs) and anything (output), ends with the inputs as they were and the output block at `out1_2` of them. -/
theorem sound_kernel1 (c : Dev nD) (E : Set ℕ) (i : grid1.Coords) (arg0 : Memref sig .tc .vmem S8000x32 .f32) (harg0 : arg0.IsWhole) (arg1 : Memref sig .tc .vmem S8000x1 .f32) (harg1 : arg1.IsWhole) (arg2 : Memref sig .tc .vmem S8000x32 .f32) (harg2 : arg2.IsWhole)
    (x0 : Vec F S8000x32 .f32) (x1 : Vec F S8000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__scale_kernel i arg0 harg0 arg1 harg1 arg2 harg2) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The arrays as the region finds them; after the body at point `t` each input buffer still holds its block and the output buffer holds `out1_2` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation at a generic grid point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At any grid point the input buffers hold their blocks, so the body's triple applies; the invariant and the core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.KReg2.lean ====
/- Region 2 of the program: the edge-message scaling of layer 1's down direction. The grid has 200 points; point t sees rows [8000·t, 8000·t + 8000) of the gathered [1600000, 32] feature array and of the [1600000, 1] weight column, and writes the same rows of the output: entry (e, q) is gathered(e, q) · w(e, 0). Here: the body's run on one block, and the bookkeeping that lets the pipeline's launch theorem carry it over all 200 points. -/
import proofs.«107201_j32822140076800_2_alg».proof.Proof.Gen.Kernel.Launch
import proofs.«107201_j32822140076800_2_alg».proof.Proof.Gen.Kernel.Skeleton
import proofs.«107201_j32822140076800_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every grid point, whether or not the block was fetched there: where it is not fetched the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every grid point, whether or not the block was fetched there: where it is not fetched the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The whole-block rectangles the body loads and stores through -/

abbrev r2_S8000x32 : Rect S8000x32 := Rect.unit (s := S8000x32) ![0, 0] S8000x32.size inb_S8000x32_S8000x32_0_0
abbrev r2_S8000x1 : Rect S8000x1 := Rect.unit (s := S8000x1) ![0, 0] S8000x1.size inb_S8000x1_S8000x1_0_0

/-- What the body leaves in the output block: its single store, of the body's pure function of the loaded input blocks. -/
def out2_2 (x0 : Vec F S8000x32 .f32) (x1 : Vec F S8000x1 .f32) : Vec F S8000x32 .f32 :=
  View.canon [⟨r2_S8000x32, k2_pay1 (View.ld x0 r2_S8000x32) (View.ld x1 r2_S8000x1)⟩]

/-- The single store covers the whole output block. -/
theorem cover2_2 (p0 : Vec F S8000x32 .f32) (y : S8000x32.Idx) :
    ∃ pc ∈ ([⟨r2_S8000x32, p0⟩] : List (View.Piece (Elt F) S8000x32 .f32)), y ∈ pc.1.set :=
  View.cover_of_tiled [⟨r2_S8000x32, p0⟩] S8000x32.size (by rfl) y

set_option maxHeartbeats 1000000 in
/-- The body, run on whole staging buffers holding `x` (inputs) and anything (output), ends with the inputs as they were and the output block at `out2_2` of them. -/
theorem sound_kernel2 (c : Dev nD) (E : Set ℕ) (i : grid2.Coords) (arg0 : Memref sig .tc .vmem S8000x32 .f32) (harg0 : arg0.IsWhole) (arg1 : Memref sig .tc .vmem S8000x1 .f32) (harg1 : arg1.IsWhole) (arg2 : Memref sig .tc .vmem S8000x32 .f32) (harg2 : arg2.IsWhole)
    (x0 : Vec F S8000x32 .f32) (x1 : Vec F S8000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__scale_kernel i arg0 harg0 arg1 harg1 arg2 harg2) K := by
  simp only [cc2__scale_kernel_eq_skeleton]; unfold cc2__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the region finds them; after the body at point `t` each input buffer still holds its block and the output buffer holds `out2_2` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation at a generic grid point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- At any grid point the input buffers hold their blocks, so the body's triple applies; the invariant and the core's dues pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.KReg3.lean ====
/- Region 3 of the program: layer 1's row normalisation and activation. The grid has 5 points; point t sees rows [10000·t, 10000·t + 10000) of the concatenated [50000, 96] array and writes the same rows of the output: each row is divided by the larger of its Euclidean norm and a small positive constant, and an entry y that is not positive is replaced by a tenth of itself. Here: the body's run on one block, and the bookkeeping that lets the pipeline's launch theorem carry it over all 5 points. -/
import proofs.«107201_j32822140076800_2_alg».proof.Proof.Gen.Kernel.Launch
import proofs.«107201_j32822140076800_2_alg».proof.Proof.Gen.Kernel.Skeleton
import proofs.«107201_j32822140076800_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every grid point, whether or not the block was fetched there: where it is not fetched the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The whole-block rectangles the body loads and stores through -/

abbrev r3_S10000x96 : Rect S10000x96 := Rect.unit (s := S10000x96) ![0, 0] S10000x96.size inb_S10000x96_S10000x96_0_0

/-- What the body leaves in the output block: its single store, of the body's pure function of the loaded input blocks. -/
def out3_1 (x0 : Vec F S10000x96 .f32) : Vec F S10000x96 .f32 :=
  View.canon [⟨r3_S10000x96, k3_pay1 (View.ld x0 r3_S10000x96)⟩]

/-- The single store covers the whole output block. -/
theorem cover3_1 (p0 : Vec F S10000x96 .f32) (y : S10000x96.Idx) :
    ∃ pc ∈ ([⟨r3_S10000x96, p0⟩] : List (View.Piece (Elt F) S10000x96 .f32)), y ∈ pc.1.set :=
  View.cover_of_tiled [⟨r3_S10000x96, p0⟩] S10000x96.size (by rfl) y

set_option maxHeartbeats 1000000 in
/-- The body, run on whole staging buffers holding `x` (inputs) and anything (output), ends with the inputs as they were and the output block at `out3_1` of them. -/
theorem sound_kernel3 (c : Dev nD) (E : Set ℕ) (i : grid3.Coords) (arg0 : Memref sig .tc .vmem S10000x96 .f32) (harg0 : arg0.IsWhole) (arg1 : Memref sig .tc .vmem S10000x96 .f32) (harg1 : arg1.IsWhole)
    (x0 : Vec F S10000x96 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out3_1 x0)) -∗ K ⟨⟩))
      ⊢ wp frame (wpE (defs₀ (F := F)) Variants.none c none) E (cc3__norm_act_kernel i arg0 harg0 arg1 harg1) K := by
  simp only [cc3__norm_act_kernel_eq_skeleton]; unfold cc3__norm_act_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-! ## The pipeline's proof data -/

/-- The arrays as the region finds them; after the body at point `t` each input buffer still holds its block and the output buffer holds `out3_1` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

/-! ## The body obligation at a generic grid point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- At any grid point the input buffers hold their blocks, so the body's triple applies; the invariant and the core's dues pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.KReg4.lean ====
/- Region 4 of the program: layer 2's projection. The grid has 10 points; point t sees rows [5000·t, 5000·t + 5000) of the [50000, 96] feature array and the whole fused [96, 96] weight matrix (its block index never moves, so it is fetched once), and writes the same rows of the [50000, 96] output: entry (n, j) is the sum over k of x(n, k) · wt(k, j). Here: the body's run on one block, and the bookkeeping that lets the pipeline's launch theorem carry it over all 10 points. -/
import proofs.«107201_j32822140076800_2_alg».proof.Proof.Gen.Kernel.Launch
import proofs.«107201_j32822140076800_2_alg».proof.Proof.Gen.Kernel.Skeleton
import proofs.«107201_j32822140076800_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every grid point, whether or not the block was fetched there: where it is not fetched the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every grid point, whether or not the block was fetched there: where it is not fetched the block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The whole-block rectangles the body loads and stores through -/

abbrev r4_S5000x96 : Rect S5000x96 := Rect.unit (s := S5000x96) ![0, 0] S5000x96.size inb_S5000x96_S5000x96_0_0
abbrev r4_S96x96 : Rect S96x96 := Rect.unit (s := S96x96) ![0, 0] S96x96.size inb_S96x96_S96x96_0_0

/-- What the body leaves in the output block: its single store, of the body's pure function of the loaded input blocks. -/
def out4_2 (x0 : Vec F S5000x96 .f32) (x1 : Vec F S96x96 .f32) : Vec F S5000x96 .f32 :=
  View.canon [⟨r4_S5000x96, k4_pay1 (View.ld x0 r4_S5000x96) (View.ld x1 r4_S96x96)⟩]

/-- The single store covers the whole output block. -/
theorem cover4_2 (p0 : Vec F S5000x96 .f32) (y : S5000x96.Idx) :
    ∃ pc ∈ ([⟨r4_S5000x96, p0⟩] : List (View.Piece (Elt F) S5000x96 .f32)), y ∈ pc.1.set :=
  View.cover_of_tiled [⟨r4_S5000x96, p0⟩] S5000x96.size (by rfl) y

set_option maxHeartbeats 1000000 in
/-- The body, run on whole staging buffers holding `x` (inputs) and anything (output), ends with the inputs as they were and the output block at `out4_2` of them. -/
theorem sound_kernel4 (c : Dev nD) (E : Set ℕ) (i : grid4.Coords) (arg0 : Memref sig .tc .vmem S5000x96 .f32) (harg0 : arg0.IsWhole) (arg1 : Memref sig .tc .vmem S96x96 .f32) (harg1 : arg1.IsWhole) (arg2 : Memref sig .tc .vmem S5000x96 .f32) (harg2 : arg2.IsWhole)
    (x0 : Vec F S5000x96 .f32) (x1 : Vec F S96x96 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__matmul_kernel i arg0 harg0 arg1 harg1 arg2 harg2) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The arrays as the region finds them; after the body at point `t` each input buffer still holds its block and the output buffer holds `out4_2` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation at a generic grid point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- At any grid point the input buffers hold their blocks, so the body's triple applies; the invariant and the core's dues pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.Kernel.Reg

end
-- ==== Proof.KReg5.lean ====
/- Region 5 of the program: the edge-message scaling of layer 2's up direction. The grid has 200 points; point t sees rows [8000·t, 8000·t + 8000) of the gathered [1600000, 32] feature array and of the [1600000, 1] weight column, and writes the same rows of the output: entry (e, q) is gathered(e, q) · w(e, 0). Here: the body's run on one block, and the bookkeeping that lets the pipeline's launch theorem carry it over all 200 points. -/
import proofs.«107201_j32822140076800_2_alg».proof.Proof.Gen.Kernel.Launch
import proofs.«107201_j32822140076800_2_alg».proof.Proof.Gen.Kernel.Skeleton
import proofs.«107201_j32822140076800_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every grid point, whether or not the block was fetched there: where it is not fetched the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every grid point, whether or not the block was fetched there: where it is not fetched the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The whole-block rectangles the body loads and stores through -/

abbrev r5_S8000x32 : Rect S8000x32 := Rect.unit (s := S8000x32) ![0, 0] S8000x32.size inb_S8000x32_S8000x32_0_0
abbrev r5_S8000x1 : Rect S8000x1 := Rect.unit (s := S8000x1) ![0, 0] S8000x1.size inb_S8000x1_S8000x1_0_0

/-- What the body leaves in the output block: its single store, of the body's pure function of the loaded input blocks. -/
def out5_2 (x0 : Vec F S8000x32 .f32) (x1 : Vec F S8000x1 .f32) : Vec F S8000x32 .f32 :=
  View.canon [⟨r5_S8000x32, k5_pay1 (View.ld x0 r5_S8000x32) (View.ld x1 r5_S8000x1)⟩]

/-- The single store covers the whole output block. -/
theorem cover5_2 (p0 : Vec F S8000x32 .f32) (y : S8000x32.Idx) :
    ∃ pc ∈ ([⟨r5_S8000x32, p0⟩] : List (View.Piece (Elt F) S8000x32 .f32)), y ∈ pc.1.set :=
  View.cover_of_tiled [⟨r5_S8000x32, p0⟩] S8000x32.size (by rfl) y

set_option maxHeartbeats 1000000 in
/-- The body, run on whole staging buffers holding `x` (inputs) and anything (output), ends with the inputs as they were and the output block at `out5_2` of them. -/
theorem sound_kernel5 (c : Dev nD) (E : Set ℕ) (i : grid5.Coords) (arg0 : Memref sig .tc .vmem S8000x32 .f32) (harg0 : arg0.IsWhole) (arg1 : Memref sig .tc .vmem S8000x1 .f32) (harg1 : arg1.IsWhole) (arg2 : Memref sig .tc .vmem S8000x32 .f32) (harg2 : arg2.IsWhole)
    (x0 : Vec F S8000x32 .f32) (x1 : Vec F S8000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5__scale_kernel i arg0 harg0 arg1 harg1 arg2 harg2) K := by
  simp only [cc5__scale_kernel_eq_skeleton]; unfold cc5__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The arrays as the region finds them; after the body at point `t` each input buffer still holds its block and the output buffer holds `out5_2` of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation at a generic grid point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- At any grid point the input buffers hold their blocks, so the body's triple applies; the invariant and the core's dues pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.Kernel.Reg

end
-- ==== Proof.KReg6.lean ====
/- Region 6 of the program: the edge-message scaling of layer 2's down direction. The grid has 200 points; point t sees rows [8000·t, 8000·t + 8000) of the gathered [1600000, 32] feature array and of the [1600000, 1] weight column, and writes the same rows of the output: entry (e, q) is gathered(e, q) · w(e, 0). Here: the body's run on one block, and the bookkeeping that lets the pipeline's launch theorem carry it over all 200 points. -/
import proofs.«107201_j32822140076800_2_alg».proof.Proof.Gen.Kernel.Launch
import proofs.«107201_j32822140076800_2_alg».proof.Proof.Gen.Kernel.Skeleton
import proofs.«107201_j32822140076800_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every grid point, whether or not the block was fetched there: where it is not fetched the block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every grid point, whether or not the block was fetched there: where it is not fetched the block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The whole-block rectangles the body loads and stores through -/

abbrev r6_S8000x32 : Rect S8000x32 := Rect.unit (s := S8000x32) ![0, 0] S8000x32.size inb_S8000x32_S8000x32_0_0
abbrev r6_S8000x1 : Rect S8000x1 := Rect.unit (s := S8000x1) ![0, 0] S8000x1.size inb_S8000x1_S8000x1_0_0

/-- What the body leaves in the output block: its single store, of the body's pure function of the loaded input blocks. -/
def out6_2 (x0 : Vec F S8000x32 .f32) (x1 : Vec F S8000x1 .f32) : Vec F S8000x32 .f32 :=
  View.canon [⟨r6_S8000x32, k6_pay1 (View.ld x0 r6_S8000x32) (View.ld x1 r6_S8000x1)⟩]

/-- The single store covers the whole output block. -/
theorem cover6_2 (p0 : Vec F S8000x32 .f32) (y : S8000x32.Idx) :
    ∃ pc ∈ ([⟨r6_S8000x32, p0⟩] : List (View.Piece (Elt F) S8000x32 .f32)), y ∈ pc.1.set :=
  View.cover_of_tiled [⟨r6_S8000x32, p0⟩] S8000x32.size (by rfl) y

set_option maxHeartbeats 1000000 in
/-- The body, run on whole staging buffers holding `x` (inputs) and anything (output), ends with the inputs as they were and the output block at `out6_2` of them. -/
theorem sound_kernel6 (c : Dev nD) (E : Set ℕ) (i : grid6.Coords) (arg0 : Memref sig .tc .vmem S8000x32 .f32) (harg0 : arg0.IsWhole) (arg1 : Memref sig .tc .vmem S8000x1 .f32) (harg1 : arg1.IsWhole) (arg2 : Memref sig .tc .vmem S8000x32 .f32) (harg2 : arg2.IsWhole)
    (x0 : Vec F S8000x32 .f32) (x1 : Vec F S8000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out6_2 x0 x1)) -∗ K ⟨⟩))
      ⊢ wp frame (wpE (defs₀ (F := F)) Variants.none c none) E (cc6__scale_kernel i arg0 harg0 arg1 harg1 arg2 harg2) K := by
  simp only [cc6__scale_kernel_eq_skeleton]; unfold cc6__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The arrays as the region finds them; after the body at point `t` each input buffer still holds its block and the output buffer holds `out6_2` of the input blocks; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation at a generic grid point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- At any grid point the input buffers hold their blocks, so the body's triple applies; the invariant and the core's dues pass through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.Kernel.Reg

end
-- ==== Proof.KReg7.lean ====
/- Region 7 of the program: layer 2's row normalisation and activation. The grid has 5 points; point t sees rows [10000·t, 10000·t + 10000) of the concatenated [50000, 96] array and writes the same rows of the output: each row is divided by the larger of its Euclidean norm and a small positive constant, and an entry y that is not positive is replaced by a tenth of itself. Here: the body's run on one block, and the bookkeeping that lets the pipeline's launch theorem carry it over all 5 points. -/
import proofs.«107201_j32822140076800_2_alg».proof.Proof.Gen.Kernel.Launch
import proofs.«107201_j32822140076800_2_alg».proof.Proof.Gen.Kernel.Skeleton
import proofs.«107201_j32822140076800_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every grid point, whether or not the block was fetched there: where it is not fetched the block index has not moved. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## The whole-block rectangles the body loads and stores through -/

abbrev r7_S10000x96 : Rect S10000x96 := Rect.unit (s := S10000x96) ![0, 0] S10000x96.size inb_S10000x96_S10000x96_0_0

/-- What the body leaves in the output block: its single store, of the body's pure function of the loaded input blocks. -/
def out7_1 (x0 : Vec F S10000x96 .f32) : Vec F S10000x96 .f32 :=
  View.canon [⟨r7_S10000x96, k7_pay1 (View.ld x0 r7_S10000x96)⟩]

/-- The single store covers the whole output block. -/
theorem cover7_1 (p0 : Vec F S10000x96 .f32) (y : S10000x96.Idx) :
    ∃ pc ∈ ([⟨r7_S10000x96, p0⟩] : List (View.Piece (Elt F) S10000x96 .f32)), y ∈ pc.1.set :=
  View.cover_of_tiled [⟨r7_S10000x96, p0⟩] S10000x96.size (by rfl) y

set_option maxHeartbeats 1000000 in
/-- The body, run on whole staging buffers holding `x` (inputs) and anything (output), ends with the inputs as they were and the output block at `out7_1` of them. -/
theorem sound_kernel7 (c : Dev nD) (E : Set ℕ) (i : grid7.Coords) (arg0 : Memref sig .tc .vmem S10000x96 .f32) (harg0 : arg0.IsWhole) (arg1 : Memref sig .tc .vmem S10000x96 .f32) (harg1 : arg1.IsWhole)
    (x0 : Vec F S10000x96 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out7_1 x0)) -∗ K ⟨⟩))
      ⊢ wp frame (wpE (defs₀ (F := F)) Variants.none c none) E (cc7__norm_act_kernel i arg0 harg0 arg1 harg1) K := by
  simp only [cc7__norm_act_kernel_eq_skeleton]; unfold cc7__norm_act_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover7_1 _)

/-! ## The pipeline's proof data -/

/-- The arrays as the region finds them; after the body at point `t` each input buffer still holds its block and the output buffer holds `out7_1` of the input blocks; nothing owed, full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => out7_1 (iblk7 V c 0 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = out7_1 (iblk7 V c 0 t) := by dsimp only [dat7]

theorem before7_0 (c : Dev nD) (t : Fin cfg7.N) (d) : (dat7 V c).before 0 t d = iblk7 V c 0 t :=
  before7_0_of V (dat7 V c) (A_eq7 V c 0) (after7_0 V c) t d

/-! ## The body obligation at a generic grid point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t))

/-- At any grid point the input buffers hold their blocks, so the body's triple applies; the invariant and the core's dues pass through untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).Φ t.succ = (dat7 V c).Φ t.castSucc from rfl,
    show (dat7 V c).owesAt () t.succ = (dat7 V c).owesAt () t.castSucc from rfl,
    after7_0, after7_1]
  iintro ⟨HΦ, Ho, ⟨%d0, H0⟩, ⟨%d1, H1⟩⟩
  iapply (sound_kernel7 c Set.univ _ _ _ _ _ (iblk7 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation7 (c : Dev nD) : BodyObligation (dat7 (F := F) V c) (defs₀ (F := F)) Variants.none () Set.univ := fun t => by
  rw [bigSep_W7, bigSep_W7]
  exact sound_body7 V c t

end Cert.Kernel.Reg

end
-- ==== Proof.KReg8.lean ====
/- Region 8 of the program: layer 3's projection. The grid has 10 points; point t sees rows [5000·t, 5000·t + 5000) of the [50000, 96] feature array and the whole fused [96, 96] weight matrix (its block index never moves, so it is fetched once), and writes the same rows of the [50000, 96] output: entry (n, j) is the sum over k of x(n, k) · wt(k, j). Here: the body's run on one block, and the bookkeeping that lets the pipeline's launch theorem carry it over all 10 points. -/
import proofs.«107201_j32822140076800_2_alg».proof.Proof.Gen.Kernel.Launch
import proofs.«107201_j32822140076800_2_alg».proof.Proof.Gen.Kernel.Skeleton
import proofs.«107201_j32822140076800_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every grid point, whether or not the block was fetched there: where it is not fetched the block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every grid point, whether or not the block was fetched there: where it is not fetched the block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The whole-block rectangles the body loads and stores through -/

abbrev r8_S5000x96 : Rect S5000x96 := Rect.unit (s := S5000x96) ![0, 0] S5000x96.size inb_S5000x96_S5000x96_0_0
abbrev r8_S96x96 : Rect S96x96 := Rect.unit (s := S96x96) ![0, 0] S96x96.size inb_S96x96_S96x96_0_0

/-- What the body leaves in the output block: its single store, of the body's pure function of the loaded input blocks. -/
def out8_2 (x0 : Vec F S5000x96 .f32) (x1 : Vec F S96x96 .f32) : Vec F S5000x96 .f32 :=
  View.canon [⟨r8_S5000x96, k8_pay1 (View.ld x0 r8_S5000x96) (View.ld x1 r8_S96x96)⟩]

/-- The single store covers the whole output block. -/
theorem cover8_2 (p0 : Vec F S5000x96 .f32) (y : S5000x96.Idx) :
    ∃ pc ∈ ([⟨r8_S5000x96, p0⟩] : List (View.Piece (Elt F) S5000x96 .f32)), y ∈ pc.1.set :=
  View.cover_of_tiled [⟨r8_S5000x96, p0⟩] S5000x96.size (by rfl) y

set_option maxHeartbeats 1000000 in
/-- The body, run on whole staging buffers holding `x` (inputs) and anything (output), ends with the inputs as they were and the output block at `out8_2` of them. -/
theorem sound_kernel8 (c : Dev nD) (E : Set ℕ) (i : grid8.Coords) (arg0 : Memref sig .tc .vmem S5000x96 .f32) (harg0 : arg0.IsWhole) (arg1 : Memref sig .tc .vmem S96x96 .f32) (harg1 : arg1.IsWhole) (arg2 : Memref sig .tc .vmem S5000x96 .f32) (harg2 : arg2.IsWhole)
    (x0 : Vec F S5000x96 .f32) (x1 : Vec F S96x96 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out8_2 x0 x1)) -∗ K ⟨⟩))
      ⊢ wp frame (wpE (defs₀ (F := F)) Variants.none c none) E (cc8__matmul_kernel i arg0 harg0 arg1 harg1 arg2 harg2) K := by
  simp only [cc8__matmul_kernel_eq_skeleton]; unfold cc8__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The arrays as the region finds them; after the body at point `t` each input buffer still holds its block and the output buffer holds `out8_2` of the input blocks; nothing owed, full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation at a generic grid point -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- At any grid point the input buffers hold their blocks, so the body's triple applies; the invariant and the core's dues pass through untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation8 (c : Dev nD) : BodyObligation (dat8 (F := F) V c) (defs₀ (F := F)) Variants.none () Set.univ := fun t => by
  rw [bigSep_W8, bigSep_W8]
  exact sound_body8 V c t

end Cert.Kernel.Reg

end
-- ==== Proof.KReg9.lean ====
/- Region 9 of the program: the edge-message scaling of layer 3's up direction. The grid has 200 points; point t sees rows [8000·t, 8000·t + 8000) of the gathered [1600000, 32] feature array and of the [1600000, 1] weight column, and writes the same rows of the output: entry (e, q) is gathered(e, q) · w(e, 0). Here: the body's run on one block, and the bookkeeping that lets the pipeline's launch theorem carry it over all 200 points. -/
import proofs.«107201_j32822140076800_2_alg».proof.Proof.Gen.Kernel.Launch
import proofs.«107201_j32822140076800_2_alg».proof.Proof.Gen.Kernel.Skeleton
import proofs.«107201_j32822140076800_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every grid point, whether or not the block was fetched there: where it is not fetched the block index has not moved. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every grid point, whether or not the block was fetched there: where it is not fetched the block index has not moved. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The whole-block rectangles the body loads and stores through -/

abbrev r9_S8000x32 : Rect S8000x32 := Rect.unit (s := S8000x32) ![0, 0] S8000x32.size inb_S8000x32_S8000x32_0_0
abbrev r9_S8000x1 : Rect S8000x1 := Rect.unit (s := S8000x1) ![0, 0] S8000x1.size inb_S8000x1_S8000x1_0_0

/-- What the body leaves in the output block: its single store, of the body's pure function of the loaded input blocks. -/
def out9_2 (x0 : Vec F S8000x32 .f32) (x1 : Vec F S8000x1 .f32) : Vec F S8000x32 .f32 :=
  View.canon [⟨r9_S8000x32, k9_pay1 (View.ld x0 r9_S8000x32) (View.ld x1 r9_S8000x1)⟩]

/-- The single store covers the whole output block. -/
theorem cover9_2 (p0 : Vec F S8000x32 .f32) (y : S8000x32.Idx) :
    ∃ pc ∈ ([⟨r9_S8000x32, p0⟩] : List (View.Piece (Elt F) S8000x32 .f32)), y ∈ pc.1.set :=
  View.cover_of_tiled [⟨r9_S8000x32, p0⟩] S8000x32.size (by rfl) y

set_option maxHeartbeats 1000000 in
/-- The body, run on whole staging buffers holding `x` (inputs) and anything (output), ends with the inputs as they were and the output block at `out9_2` of them. -/
theorem sound_kernel9 (c : Dev nD) (E : Set ℕ) (i : grid9.Coords) (arg0 : Memref sig .tc .vmem S8000x32 .f32) (harg0 : arg0.IsWhole) (arg1 : Memref sig .tc .vmem S8000x1 .f32) (harg1 : arg1.IsWhole) (arg2 : Memref sig .tc .vmem S8000x32 .f32) (harg2 : arg2.IsWhole)
    (x0 : Vec F S8000x32 .f32) (x1 : Vec F S8000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out9_2 x0 x1)) -∗ K ⟨⟩))
      ⊢ wp frame (wpE (defs₀ (F := F)) Variants.none c none) E (cc9__scale_kernel i arg0 harg0 arg1 harg1 arg2 harg2) K := by
  simp only [cc9__scale_kernel_eq_skeleton]; unfold cc9__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The arrays as the region finds them; after the body at point `t` each input buffer still holds its block and the output buffer holds `out9_2` of the input blocks; nothing owed, full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation at a generic grid point -/

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- At any grid point the input buffers hold their blocks, so the body's triple applies; the invariant and the core's dues pass through untouched. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation9 (c : Dev nD) : BodyObligation (dat9 (F := F) V c) (defs₀ (F := F)) Variants.none () Set.univ := fun t => by
  rw [bigSep_W9, bigSep_W9]
  exact sound_body9 V c t

end Cert.Kernel.Reg

end
-- ==== Proof.KReg10.lean ====
/- Region 10 of the program: the edge-message scaling of layer 3's down direction. The grid has 200 points; point t sees rows [8000·t, 8000·t + 8000) of the gathered [1600000, 32] feature array and of the [1600000, 1] weight column, and writes the same rows of the output: entry (e, q) is gathered(e, q) · w(e, 0). Here: the body's run on one block, and the bookkeeping that lets the pipeline's launch theorem carry it over all 200 points. -/
import proofs.«107201_j32822140076800_2_alg».proof.Proof.Gen.Kernel.Launch
import proofs.«107201_j32822140076800_2_alg».proof.Proof.Gen.Kernel.Skeleton
import proofs.«107201_j32822140076800_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's staging buffer holds its block at every grid point, whether or not the block was fetched there: where it is not fetched the block index has not moved. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's staging buffer holds its block at every grid point, whether or not the block was fetched there: where it is not fetched the block index has not moved. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The whole-block rectangles the body loads and stores through -/

abbrev r10_S8000x32 : Rect S8000x32 := Rect.unit (s := S8000x32) ![0, 0] S8000x32.size inb_S8000x32_S8000x32_0_0
abbrev r10_S8000x1 : Rect S8000x1 := Rect.unit (s := S8000x1) ![0, 0] S8000x1.size inb_S8000x1_S8000x1_0_0

/-- What the body leaves in the output block: its single store, of the body's pure function of the loaded input blocks. -/
def out10_2 (x0 : Vec F S8000x32 .f32) (x1 : Vec F S8000x1 .f32) : Vec F S8000x32 .f32 :=
  View.canon [⟨r10_S8000x32, k10_pay1 (View.ld x0 r10_S8000x32) (View.ld x1 r10_S8000x1)⟩]

/-- The single store covers the whole output block. -/
theorem cover10_2 (p0 : Vec F S8000x32 .f32) (y : S8000x32.Idx) :
    ∃ pc ∈ ([⟨r10_S8000x32, p0⟩] : List (View.Piece (Elt F) S8000x32 .f32)), y ∈ pc.1.set :=
  View.cover_of_tiled [⟨r10_S8000x32, p0⟩] S8000x32.size (by rfl) y

set_option maxHeartbeats 1000000 in
/-- The body, run on whole staging buffers holding `x` (inputs) and anything (output), ends with the inputs as they were and the output block at `out10_2` of them. -/
theorem sound_kernel10 (c : Dev nD) (E : Set ℕ) (i : grid10.Coords) (arg0 : Memref sig .tc .vmem S8000x32 .f32) (harg0 : arg0.IsWhole) (arg1 : Memref sig .tc .vmem S8000x1 .f32) (harg1 : arg1.IsWhole) (arg2 : Memref sig .tc .vmem S8000x32 .f32) (harg2 : arg2.IsWhole)
    (x0 : Vec F S8000x32 .f32) (x1 : Vec F S8000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out10_2 x0 x1)) -∗ K ⟨⟩))
      ⊢ wp frame (wpE (defs₀ (F := F)) Variants.none c none) E (cc10__scale_kernel i arg0 harg0 arg1 harg1 arg2 harg2) K := by
  simp only [cc10__scale_kernel_eq_skeleton]; unfold cc10__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The arrays as the region finds them; after the body at point `t` each input buffer still holds its block and the output buffer holds `out10_2` of the input blocks; nothing owed, full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation at a generic grid point -/

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- At any grid point the input buffers hold their blocks, so the body's triple applies; the invariant and the core's dues pass through untouched. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation10 (c : Dev nD) : BodyObligation (dat10 (F := F) V c) (defs₀ (F := F)) Variants.none () Set.univ := fun t => by
  rw [bigSep_W10, bigSep_W10]
  exact sound_body10 V c t

end Cert.Kernel.Reg

end
-- ==== Proof.KReg11.lean ====
/- Region 11 of the program: layer 3's row normalisation and activation. The grid has 5 points; point t sees rows [10000·t, 10000·t + 10000) of the concatenated [50000, 96] array and writes the same rows of the output: each row is divided by the larger of its Euclidean norm and a small positive constant, and an entry y that is not positive is replaced by a tenth of itself. Here: the body's run on one block, and the bookkeeping that lets the pipeline's launch theorem carry it over all 5 points. -/
import proofs.«107201_j32822140076800_2_alg».proof.Proof.Gen.Kernel.Launch
import proofs.«107201_j32822140076800_2_alg».proof.Proof.Gen.Kernel.Skeleton
import proofs.«107201_j32822140076800_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's staging buffer holds its block at every grid point, whether or not the block was fetched there: where it is not fetched the block index has not moved. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-! ## The whole-block rectangles the body loads and stores through -/

abbrev r11_S10000x96 : Rect S10000x96 := Rect.unit (s := S10000x96) ![0, 0] S10000x96.size inb_S10000x96_S10000x96_0_0

/-- What the body leaves in the output block: its single store, of the body's pure function of the loaded input blocks. -/
def out11_1 (x0 : Vec F S10000x96 .f32) : Vec F S10000x96 .f32 :=
  View.canon [⟨r11_S10000x96, k11_pay1 (View.ld x0 r11_S10000x96)⟩]

/-- The single store covers the whole output block. -/
theorem cover11_1 (p0 : Vec F S10000x96 .f32) (y : S10000x96.Idx) :
    ∃ pc ∈ ([⟨r11_S10000x96, p0⟩] : List (View.Piece (Elt F) S10000x96 .f32)), y ∈ pc.1.set :=
  View.cover_of_tiled [⟨r11_S10000x96, p0⟩] S10000x96.size (by rfl) y

set_option maxHeartbeats 1000000 in
/-- The body, run on whole staging buffers holding `x` (inputs) and anything (output), ends with the inputs as they were and the output block at `out11_1` of them. -/
theorem sound_kernel11 (c : Dev nD) (E : Set ℕ) (i : grid11.Coords) (arg0 : Memref sig .tc .vmem S10000x96 .f32) (harg0 : arg0.IsWhole) (arg1 : Memref sig .tc .vmem S10000x96 .f32) (harg1 : arg1.IsWhole)
    (x0 : Vec F S10000x96 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out11_1 x0)) -∗ K ⟨⟩))
      ⊢ wp frame (wpE (defs₀ (F := F)) Variants.none c none) E (cc11__norm_act_kernel i arg0 harg0 arg1 harg1) K := by
  simp only [cc11__norm_act_kernel_eq_skeleton]; unfold cc11__norm_act_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover11_1 _)

/-! ## The pipeline's proof data -/

/-- The arrays as the region finds them; after the body at point `t` each input buffer still holds its block and the output buffer holds `out11_1` of the input blocks; nothing owed, full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => out11_1 (iblk11 V c 0 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = out11_1 (iblk11 V c 0 t) := by dsimp only [dat11]

theorem before11_0 (c : Dev nD) (t : Fin cfg11.N) (d) : (dat11 V c).before 0 t d = iblk11 V c 0 t :=
  before11_0_of V (dat11 V c) (A_eq11 V c 0) (after11_0 V c) t d

/-! ## The body obligation at a generic grid point -/

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t))

/-- At any grid point the input buffers hold their blocks, so the body's triple applies; the invariant and the core's dues pass through untouched. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0]
  rw [show (dat11 V c).Φ t.succ = (dat11 V c).Φ t.castSucc from rfl,
    show (dat11 V c).owesAt () t.succ = (dat11 V c).owesAt () t.castSucc from rfl,
    after11_0, after11_1]
  iintro ⟨HΦ, Ho, ⟨%d0, H0⟩, ⟨%d1, H1⟩⟩
  iapply (sound_kernel11 c Set.univ _ _ _ _ _ (iblk11 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation11 (c : Dev nD) : BodyObligation (dat11 (F := F) V c) (defs₀ (F := F)) Variants.none () Set.univ := fun t => by
  rw [bigSep_W11, bigSep_W11]
  exact sound_body11 V c t

end Cert.Kernel.Reg

end
-- ==== Proof.KFold.lean ====
/- The run of the program over its 29 items (17 stretches of host operations, 12 kernel regions): the contents of
   every unscoped buffer at each of the 30 boundaries between items, as a fold from the launch memory. A host stretch
   rewrites the buffers its operations write (`StableHlo.after`); a kernel region leaves each of its windows' arrays at
   what its pipeline's write-backs leave (an input array as entered, an output array with every block written) and every
   other buffer as entered. Every argument array is read back through the fold to its launch contents. -/
import proofs.«107201_j32822140076800_2_alg».proof.Proof.Gen.Kernel.Regions
import proofs.«107201_j32822140076800_2_alg».proof.Proof.KReg0
import proofs.«107201_j32822140076800_2_alg».proof.Proof.KReg1
import proofs.«107201_j32822140076800_2_alg».proof.Proof.KReg2
import proofs.«107201_j32822140076800_2_alg».proof.Proof.KReg3
import proofs.«107201_j32822140076800_2_alg».proof.Proof.KReg4
import proofs.«107201_j32822140076800_2_alg».proof.Proof.KReg5
import proofs.«107201_j32822140076800_2_alg».proof.Proof.KReg6
import proofs.«107201_j32822140076800_2_alg».proof.Proof.KReg7
import proofs.«107201_j32822140076800_2_alg».proof.Proof.KReg8
import proofs.«107201_j32822140076800_2_alg».proof.Proof.KReg9
import proofs.«107201_j32822140076800_2_alg».proof.Proof.KReg10
import proofs.«107201_j32822140076800_2_alg».proof.Proof.KReg11
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- A buffer that `hostOps0` does not write keeps its contents. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
/-- After the host stretch `hostOps0_1`. -/
abbrev W2 : Dev nD → Valuation τ sig (Elt F) := fun c => StableHlo.after hostOps0_1 (W1 m ρ c)
/-- A buffer that `hostOps0_1` does not write keeps its contents. -/
theorem W2_keep (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
/-- After the host stretch `hostOps0_2`. -/
abbrev W3 : Dev nD → Valuation τ sig (Elt F) := fun c => StableHlo.after hostOps0_2 (W2 m ρ c)
/-- A buffer that `hostOps0_2` does not write keeps its contents. -/
theorem W3_keep (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
/-- After the host stretch `hostOps0_3`. -/
abbrev W4 : Dev nD → Valuation τ sig (Elt F) := fun c => StableHlo.after hostOps0_3 (W3 m ρ c)
/-- A buffer that `hostOps0_3` does not write keeps its contents. -/
theorem W4_keep (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h
/-- After the host stretch `hostOps0_4`. -/
abbrev W5 : Dev nD → Valuation τ sig (Elt F) := fun c => StableHlo.after hostOps0_4 (W4 m ρ c)
/-- A buffer that `hostOps0_4` does not write keeps its contents. -/
theorem W5_keep (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h
/-- The same read at the TensorCore's references: the contents region 0 is entered from. -/
abbrev Vt5 : (c : Dev nD) → (b : Ref sig .tc) → Buf (Elt F) ((c : Thread nD τ).loc b) := fun c b => W5 m ρ c b
/-- At region 0's exit: its arrays at what the pipeline leaves, every other buffer as entered. -/
def W6 (c : Dev nD) : Valuation τ sig (Elt F) :=
  Pipeline.withArrays spec0 c (W5 m ρ c) fun w => (dat0 (Vt5 m ρ) c).arrAt w cfg0.N
theorem W6_arr (c : Dev nD) (w : Fin cfg0.W) :
    W6 m ρ c (Proc.devRef .tc (Pipeline.arrRef spec0 w)) = (dat0 (Vt5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (region 0's exit contents). -/
abbrev Vt6 : (c : Dev nD) → (b : Ref sig .tc) → Buf (Elt F) ((c : Thread nD τ).loc b) := fun c b => W6 m ρ c b
/-- At region 0's exit each of its arrays holds what the pipeline leaves, and every other buffer what it held at entry. -/
theorem hF0 (c : Dev nD) (w : Fin cfg0.W) : (dat0 (Vt5 m ρ) c).arrAt w cfg0.N = Vt6 m ρ c (Pipeline.arrRef spec0 w) :=
  (W6_arr m ρ c w).symm
theorem hrest0 (c : Dev nD) : ∀ b, b ∉ Finset.univ.image (Pipeline.arrRef spec0) → Vt6 m ρ c b = Vt5 m ρ c b :=
  fun b hb => W6_of_ne m ρ c b fun w e => hb (Finset.mem_image.mpr ⟨w, Finset.mem_univ _, e⟩)
/-- After the host stretch `hostOps1`. -/
abbrev W7 : Dev nD → Valuation τ sig (Elt F) := fun c => StableHlo.after hostOps1 (W6 m ρ c)
/-- A buffer that `hostOps1` does not write keeps its contents. -/
theorem W7_keep (c : Dev nD) (r : Ref sig .tc) (h : r ∉ hostOps1_W) :
    W7 m ρ c (Proc.devRef .tc r) = W6 m ρ c (Proc.devRef .tc r) :=
  StableHlo.after_of_writes_sub hostOps1 _ hostOps1_writes h
/-- The same read at the TensorCore's references: the contents region 1 is entered from. -/
abbrev Vt7 : (c : Dev nD) → (b : Ref sig .tc) → Buf (Elt F) ((c : Thread nD τ).loc b) := fun c b => W7 m ρ c b
/-- At region 1's exit: its arrays at what the pipeline leaves, every other buffer as entered. -/
def W8 (c : Dev nD) : Valuation τ sig (Elt F) :=
  Pipeline.withArrays spec1 c (W7 m ρ c) fun w => (dat1 (Vt7 m ρ) c).arrAt w cfg1.N
theorem W8_arr (c : Dev nD) (w : Fin cfg1.W) :
    W8 m ρ c (Proc.devRef .tc (Pipeline.arrRef spec1 w)) = (dat1 (Vt7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references (region 1's exit contents). -/
abbrev Vt8 : (c : Dev nD) → (b : Ref sig .tc) → Buf (Elt F) ((c : Thread nD τ).loc b) := fun c b => W8 m ρ c b
/-- At region 1's exit each of its arrays holds what the pipeline leaves, and every other buffer what it held at entry. -/
theorem hF1 (c : Dev nD) (w : Fin cfg1.W) : (dat1 (Vt7 m ρ) c).arrAt w cfg1.N = Vt8 m ρ c (Pipeline.arrRef spec1 w) :=
  (W8_arr m ρ c w).symm
theorem hrest1 (c : Dev nD) : ∀ b, b ∉ Finset.univ.image (Pipeline.arrRef spec1) → Vt8 m ρ c b = Vt7 m ρ c b :=
  fun b hb => W8_of_ne m ρ c b fun w e => hb (Finset.mem_image.mpr ⟨w, Finset.mem_univ _, e⟩)
/-- After the host stretch `hostOps2`. -/
abbrev W9 : Dev nD → Valuation τ sig (Elt F) := fun c => StableHlo.after hostOps2 (W8 m ρ c)
/-- A buffer that `hostOps2` does not write keeps its contents. -/
theorem W9_keep (c : Dev nD) (r : Ref sig .tc) (h : r ∉ hostOps2_W) :
    W9 m ρ c (Proc.devRef .tc r) = W8 m ρ c (Proc.devRef .tc r) :=
  StableHlo.after_of_writes_sub hostOps2 _ hostOps2_writes h
/-- The same read at the TensorCore's references: the contents region 2 is entered from. -/
abbrev Vt9 : (c : Dev nD) → (b : Ref sig .tc) → Buf (Elt F) ((c : Thread nD τ).loc b) := fun c b => W9 m ρ c b
/-- At region 2's exit: its arrays at what the pipeline leaves, every other buffer as entered. -/
def W10 (c : Dev nD) : Valuation τ sig (Elt F) :=
  Pipeline.withArrays spec2 c (W9 m ρ c) fun w => (dat2 (Vt9 m ρ) c).arrAt w cfg2.N
theorem W10_arr (c : Dev nD) (w : Fin cfg2.W) :
    W10 m ρ c (Proc.devRef .tc (Pipeline.arrRef spec2 w)) = (dat2 (Vt9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- The same read at the TensorCore's references (region 2's exit contents). -/
abbrev Vt10 : (c : Dev nD) → (b : Ref sig .tc) → Buf (Elt F) ((c : Thread nD τ).loc b) := fun c b => W10 m ρ c b
/-- At region 2's exit each of its arrays holds what the pipeline leaves, and every other buffer what it held at entry. -/
theorem hF2 (c : Dev nD) (w : Fin cfg2.W) : (dat2 (Vt9 m ρ) c).arrAt w cfg2.N = Vt10 m ρ c (Pipeline.arrRef spec2 w) :=
  (W10_arr m ρ c w).symm
theorem hrest2 (c : Dev nD) : ∀ b, b ∉ Finset.univ.image (Pipeline.arrRef spec2) → Vt10 m ρ c b = Vt9 m ρ c b :=
  fun b hb => W10_of_ne m ρ c b fun w e => hb (Finset.mem_image.mpr ⟨w, Finset.mem_univ _, e⟩)
/-- After the host stretch `hostOps3`. -/
abbrev W11 : Dev nD → Valuation τ sig (Elt F) := fun c => StableHlo.after hostOps3 (W10 m ρ c)
/-- A buffer that `hostOps3` does not write keeps its contents. -/
theorem W11_keep (c : Dev nD) (r : Ref sig .tc) (h : r ∉ hostOps3_W) :
    W11 m ρ c (Proc.devRef .tc r) = W10 m ρ c (Proc.devRef .tc r) :=
  StableHlo.after_of_writes_sub hostOps3 _ hostOps3_writes h
/-- The same read at the TensorCore's references: the contents region 3 is entered from. -/
abbrev Vt11 : (c : Dev nD) → (b : Ref sig .tc) → Buf (Elt F) ((c : Thread nD τ).loc b) := fun c b => W11 m ρ c b
/-- At region 3's exit: its arrays at what the pipeline leaves, every other buffer as entered. -/
def W12 (c : Dev nD) : Valuation τ sig (Elt F) :=
  Pipeline.withArrays spec3 c (W11 m ρ c) fun w => (dat3 (Vt11 m ρ) c).arrAt w cfg3.N
theorem W12_arr (c : Dev nD) (w : Fin cfg3.W) :
    W12 m ρ c (Proc.devRef .tc (Pipeline.arrRef spec3 w)) = (dat3 (Vt11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- The same read at the TensorCore's references (region 3's exit contents). -/
abbrev Vt12 : (c : Dev nD) → (b : Ref sig .tc) → Buf (Elt F) ((c : Thread nD τ).loc b) := fun c b => W12 m ρ c b
/-- At region 3's exit each of its arrays holds what the pipeline leaves, and every other buffer what it held at entry. -/
theorem hF3 (c : Dev nD) (w : Fin cfg3.W) : (dat3 (Vt11 m ρ) c).arrAt w cfg3.N = Vt12 m ρ c (Pipeline.arrRef spec3 w) :=
  (W12_arr m ρ c w).symm
theorem hrest3 (c : Dev nD) : ∀ b, b ∉ Finset.univ.image (Pipeline.arrRef spec3) → Vt12 m ρ c b = Vt11 m ρ c b :=
  fun b hb => W12_of_ne m ρ c b fun w e => hb (Finset.mem_image.mpr ⟨w, Finset.mem_univ _, e⟩)
/-- After the host stretch `hostOps4`. -/
abbrev W13 : Dev nD → Valuation τ sig (Elt F) := fun c => StableHlo.after hostOps4 (W12 m ρ c)
/-- A buffer that `hostOps4` does not write keeps its contents. -/
theorem W13_keep (c : Dev nD) (r : Ref sig .tc) (h : r ∉ hostOps4_W) :
    W13 m ρ c (Proc.devRef .tc r) = W12 m ρ c (Proc.devRef .tc r) :=
  StableHlo.after_of_writes_sub hostOps4 _ hostOps4_writes h
/-- The same read at the TensorCore's references: the contents region 4 is entered from. -/
abbrev Vt13 : (c : Dev nD) → (b : Ref sig .tc) → Buf (Elt F) ((c : Thread nD τ).loc b) := fun c b => W13 m ρ c b
/-- At region 4's exit: its arrays at what the pipeline leaves, every other buffer as entered. -/
def W14 (c : Dev nD) : Valuation τ sig (Elt F) :=
  Pipeline.withArrays spec4 c (W13 m ρ c) fun w => (dat4 (Vt13 m ρ) c).arrAt w cfg4.N
theorem W14_arr (c : Dev nD) (w : Fin cfg4.W) :
    W14 m ρ c (Proc.devRef .tc (Pipeline.arrRef spec4 w)) = (dat4 (Vt13 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
/-- The same read at the TensorCore's references (region 4's exit contents). -/
abbrev Vt14 : (c : Dev nD) → (b : Ref sig .tc) → Buf (Elt F) ((c : Thread nD τ).loc b) := fun c b => W14 m ρ c b
/-- At region 4's exit each of its arrays holds what the pipeline leaves, and every other buffer what it held at entry. -/
theorem hF4 (c : Dev nD) (w : Fin cfg4.W) : (dat4 (Vt13 m ρ) c).arrAt w cfg4.N = Vt14 m ρ c (Pipeline.arrRef spec4 w) :=
  (W14_arr m ρ c w).symm
theorem hrest4 (c : Dev nD) : ∀ b, b ∉ Finset.univ.image (Pipeline.arrRef spec4) → Vt14 m ρ c b = Vt13 m ρ c b :=
  fun b hb => W14_of_ne m ρ c b fun w e => hb (Finset.mem_image.mpr ⟨w, Finset.mem_univ _, e⟩)
/-- After the host stretch `hostOps5`. -/
abbrev W15 : Dev nD → Valuation τ sig (Elt F) := fun c => StableHlo.after hostOps5 (W14 m ρ c)
/-- A buffer that `hostOps5` does not write keeps its contents. -/
theorem W15_keep (c : Dev nD) (r : Ref sig .tc) (h : r ∉ hostOps5_W) :
    W15 m ρ c (Proc.devRef .tc r) = W14 m ρ c (Proc.devRef .tc r) :=
  StableHlo.after_of_writes_sub hostOps5 _ hostOps5_writes h
/-- The same read at the TensorCore's references: the contents region 5 is entered from. -/
abbrev Vt15 : (c : Dev nD) → (b : Ref sig .tc) → Buf (Elt F) ((c : Thread nD τ).loc b) := fun c b => W15 m ρ c b
/-- At region 5's exit: its arrays at what the pipeline leaves, every other buffer as entered. -/
def W16 (c : Dev nD) : Valuation τ sig (Elt F) :=
  Pipeline.withArrays spec5 c (W15 m ρ c) fun w => (dat5 (Vt15 m ρ) c).arrAt w cfg5.N
theorem W16_arr (c : Dev nD) (w : Fin cfg5.W) :
    W16 m ρ c (Proc.devRef .tc (Pipeline.arrRef spec5 w)) = (dat5 (Vt15 m ρ) c).arrAt w cfg5.N := by
  unfold W16; exact Pipeline.withArrays_arr spec5 launch5.win.arr_inj c _ _ w
theorem W16_of_ne (c : Dev nD) (b : Ref sig .tc) (hb : ∀ w, Pipeline.arrRef spec5 w ≠ b) :
    W16 m ρ c (Proc.devRef .tc b) = W15 m ρ c (Proc.devRef .tc b) := by
  unfold W16; exact Pipeline.withArrays_of_ne spec5 c _ _ b hb
/-- The same read at the TensorCore's references (region 5's exit contents). -/
abbrev Vt16 : (c : Dev nD) → (b : Ref sig .tc) → Buf (Elt F) ((c : Thread nD τ).loc b) := fun c b => W16 m ρ c b
/-- At region 5's exit each of its arrays holds what the pipeline leaves, and every other buffer what it held at entry. -/
theorem hF5 (c : Dev nD) (w : Fin cfg5.W) : (dat5 (Vt15 m ρ) c).arrAt w cfg5.N = Vt16 m ρ c (Pipeline.arrRef spec5 w) :=
  (W16_arr m ρ c w).symm
theorem hrest5 (c : Dev nD) : ∀ b, b ∉ Finset.univ.image (Pipeline.arrRef spec5) → Vt16 m ρ c b = Vt15 m ρ c b :=
  fun b hb => W16_of_ne m ρ c b fun w e => hb (Finset.mem_image.mpr ⟨w, Finset.mem_univ _, e⟩)
/-- After the host stretch `hostOps6`. -/
abbrev W17 : Dev nD → Valuation τ sig (Elt F) := fun c => StableHlo.after hostOps6 (W16 m ρ c)
/-- A buffer that `hostOps6` does not write keeps its contents. -/
theorem W17_keep (c : Dev nD) (r : Ref sig .tc) (h : r ∉ hostOps6_W) :
    W17 m ρ c (Proc.devRef .tc r) = W16 m ρ c (Proc.devRef .tc r) :=
  StableHlo.after_of_writes_sub hostOps6 _ hostOps6_writes h
/-- The same read at the TensorCore's references: the contents region 6 is entered from. -/
abbrev Vt17 : (c : Dev nD) → (b : Ref sig .tc) → Buf (Elt F) ((c : Thread nD τ).loc b) := fun c b => W17 m ρ c b
/-- At region 6's exit: its arrays at what the pipeline leaves, every other buffer as entered. -/
def W18 (c : Dev nD) : Valuation τ sig (Elt F) :=
  Pipeline.withArrays spec6 c (W17 m ρ c) fun w => (dat6 (Vt17 m ρ) c).arrAt w cfg6.N
theorem W18_arr (c : Dev nD) (w : Fin cfg6.W) :
    W18 m ρ c (Proc.devRef .tc (Pipeline.arrRef spec6 w)) = (dat6 (Vt17 m ρ) c).arrAt w cfg6.N := by
  unfold W18; exact Pipeline.withArrays_arr spec6 launch6.win.arr_inj c _ _ w
theorem W18_of_ne (c : Dev nD) (b : Ref sig .tc) (hb : ∀ w, Pipeline.arrRef spec6 w ≠ b) :
    W18 m ρ c (Proc.devRef .tc b) = W17 m ρ c (Proc.devRef .tc b) := by
  unfold W18; exact Pipeline.withArrays_of_ne spec6 c _ _ b hb
/-- The same read at the TensorCore's references (region 6's exit contents). -/
abbrev Vt18 : (c : Dev nD) → (b : Ref sig .tc) → Buf (Elt F) ((c : Thread nD τ).loc b) := fun c b => W18 m ρ c b
/-- At region 6's exit each of its arrays holds what the pipeline leaves, and every other buffer what it held at entry. -/
theorem hF6 (c : Dev nD) (w : Fin cfg6.W) : (dat6 (Vt17 m ρ) c).arrAt w cfg6.N = Vt18 m ρ c (Pipeline.arrRef spec6 w) :=
  (W18_arr m ρ c w).symm
theorem hrest6 (c : Dev nD) : ∀ b, b ∉ Finset.univ.image (Pipeline.arrRef spec6) → Vt18 m ρ c b = Vt17 m ρ c b :=
  fun b hb => W18_of_ne m ρ c b fun w e => hb (Finset.mem_image.mpr ⟨w, Finset.mem_univ _, e⟩)
/-- After the host stretch `hostOps7`. -/
abbrev W19 : Dev nD → Valuation τ sig (Elt F) := fun c => StableHlo.after hostOps7 (W18 m ρ c)
/-- A buffer that `hostOps7` does not write keeps its contents. -/
theorem W19_keep (c : Dev nD) (r : Ref sig .tc) (h : r ∉ hostOps7_W) :
    W19 m ρ c (Proc.devRef .tc r) = W18 m ρ c (Proc.devRef .tc r) :=
  StableHlo.after_of_writes_sub hostOps7 _ hostOps7_writes h
/-- The same read at the TensorCore's references: the contents region 7 is entered from. -/
abbrev Vt19 : (c : Dev nD) → (b : Ref sig .tc) → Buf (Elt F) ((c : Thread nD τ).loc b) := fun c b => W19 m ρ c b
/-- At region 7's exit: its arrays at what the pipeline leaves, every other buffer as entered. -/
def W20 (c : Dev nD) : Valuation τ sig (Elt F) :=
  Pipeline.withArrays spec7 c (W19 m ρ c) fun w => (dat7 (Vt19 m ρ) c).arrAt w cfg7.N
theorem W20_arr (c : Dev nD) (w : Fin cfg7.W) :
    W20 m ρ c (Proc.devRef .tc (Pipeline.arrRef spec7 w)) = (dat7 (Vt19 m ρ) c).arrAt w cfg7.N := by
  unfold W20; exact Pipeline.withArrays_arr spec7 launch7.win.arr_inj c _ _ w
theorem W20_of_ne (c : Dev nD) (b : Ref sig .tc) (hb : ∀ w, Pipeline.arrRef spec7 w ≠ b) :
    W20 m ρ c (Proc.devRef .tc b) = W19 m ρ c (Proc.devRef .tc b) := by
  unfold W20; exact Pipeline.withArrays_of_ne spec7 c _ _ b hb
/-- The same read at the TensorCore's references (region 7's exit contents). -/
abbrev Vt20 : (c : Dev nD) → (b : Ref sig .tc) → Buf (Elt F) ((c : Thread nD τ).loc b) := fun c b => W20 m ρ c b
/-- At region 7's exit each of its arrays holds what the pipeline leaves, and every other buffer what it held at entry. -/
theorem hF7 (c : Dev nD) (w : Fin cfg7.W) : (dat7 (Vt19 m ρ) c).arrAt w cfg7.N = Vt20 m ρ c (Pipeline.arrRef spec7 w) :=
  (W20_arr m ρ c w).symm
theorem hrest7 (c : Dev nD) : ∀ b, b ∉ Finset.univ.image (Pipeline.arrRef spec7) → Vt20 m ρ c b = Vt19 m ρ c b :=
  fun b hb => W20_of_ne m ρ c b fun w e => hb (Finset.mem_image.mpr ⟨w, Finset.mem_univ _, e⟩)
/-- After the host stretch `hostOps8`. -/
abbrev W21 : Dev nD → Valuation τ sig (Elt F) := fun c => StableHlo.after hostOps8 (W20 m ρ c)
/-- A buffer that `hostOps8` does not write keeps its contents. -/
theorem W21_keep (c : Dev nD) (r : Ref sig .tc) (h : r ∉ hostOps8_W) :
    W21 m ρ c (Proc.devRef .tc r) = W20 m ρ c (Proc.devRef .tc r) :=
  StableHlo.after_of_writes_sub hostOps8 _ hostOps8_writes h
/-- The same read at the TensorCore's references: the contents region 8 is entered from. -/
abbrev Vt21 : (c : Dev nD) → (b : Ref sig .tc) → Buf (Elt F) ((c : Thread nD τ).loc b) := fun c b => W21 m ρ c b
/-- At region 8's exit: its arrays at what the pipeline leaves, every other buffer as entered. -/
def W22 (c : Dev nD) : Valuation τ sig (Elt F) :=
  Pipeline.withArrays spec8 c (W21 m ρ c) fun w => (dat8 (Vt21 m ρ) c).arrAt w cfg8.N
theorem W22_arr (c : Dev nD) (w : Fin cfg8.W) :
    W22 m ρ c (Proc.devRef .tc (Pipeline.arrRef spec8 w)) = (dat8 (Vt21 m ρ) c).arrAt w cfg8.N := by
  unfold W22; exact Pipeline.withArrays_arr spec8 launch8.win.arr_inj c _ _ w
theorem W22_of_ne (c : Dev nD) (b : Ref sig .tc) (hb : ∀ w, Pipeline.arrRef spec8 w ≠ b) :
    W22 m ρ c (Proc.devRef .tc b) = W21 m ρ c (Proc.devRef .tc b) := by
  unfold W22; exact Pipeline.withArrays_of_ne spec8 c _ _ b hb
/-- The same read at the TensorCore's references (region 8's exit contents). -/
abbrev Vt22 : (c : Dev nD) → (b : Ref sig .tc) → Buf (Elt F) ((c : Thread nD τ).loc b) := fun c b => W22 m ρ c b
/-- At region 8's exit each of its arrays holds what the pipeline leaves, and every other buffer what it held at entry. -/
theorem hF8 (c : Dev nD) (w : Fin cfg8.W) : (dat8 (Vt21 m ρ) c).arrAt w cfg8.N = Vt22 m ρ c (Pipeline.arrRef spec8 w) :=
  (W22_arr m ρ c w).symm
theorem hrest8 (c : Dev nD) : ∀ b, b ∉ Finset.univ.image (Pipeline.arrRef spec8) → Vt22 m ρ c b = Vt21 m ρ c b :=
  fun b hb => W22_of_ne m ρ c b fun w e => hb (Finset.mem_image.mpr ⟨w, Finset.mem_univ _, e⟩)
/-- After the host stretch `hostOps9`. -/
abbrev W23 : Dev nD → Valuation τ sig (Elt F) := fun c => StableHlo.after hostOps9 (W22 m ρ c)
/-- A buffer that `hostOps9` does not write keeps its contents. -/
theorem W23_keep (c : Dev nD) (r : Ref sig .tc) (h : r ∉ hostOps9_W) :
    W23 m ρ c (Proc.devRef .tc r) = W22 m ρ c (Proc.devRef .tc r) :=
  StableHlo.after_of_writes_sub hostOps9 _ hostOps9_writes h
/-- The same read at the TensorCore's references: the contents region 9 is entered from. -/
abbrev Vt23 : (c : Dev nD) → (b : Ref sig .tc) → Buf (Elt F) ((c : Thread nD τ).loc b) := fun c b => W23 m ρ c b
/-- At region 9's exit: its arrays at what the pipeline leaves, every other buffer as entered. -/
def W24 (c : Dev nD) : Valuation τ sig (Elt F) :=
  Pipeline.withArrays spec9 c (W23 m ρ c) fun w => (dat9 (Vt23 m ρ) c).arrAt w cfg9.N
theorem W24_arr (c : Dev nD) (w : Fin cfg9.W) :
    W24 m ρ c (Proc.devRef .tc (Pipeline.arrRef spec9 w)) = (dat9 (Vt23 m ρ) c).arrAt w cfg9.N := by
  unfold W24; exact Pipeline.withArrays_arr spec9 launch9.win.arr_inj c _ _ w
theorem W24_of_ne (c : Dev nD) (b : Ref sig .tc) (hb : ∀ w, Pipeline.arrRef spec9 w ≠ b) :
    W24 m ρ c (Proc.devRef .tc b) = W23 m ρ c (Proc.devRef .tc b) := by
  unfold W24; exact Pipeline.withArrays_of_ne spec9 c _ _ b hb
/-- The same read at the TensorCore's references (region 9's exit contents). -/
abbrev Vt24 : (c : Dev nD) → (b : Ref sig .tc) → Buf (Elt F) ((c : Thread nD τ).loc b) := fun c b => W24 m ρ c b
/-- At region 9's exit each of its arrays holds what the pipeline leaves, and every other buffer what it held at entry. -/
theorem hF9 (c : Dev nD) (w : Fin cfg9.W) : (dat9 (Vt23 m ρ) c).arrAt w cfg9.N = Vt24 m ρ c (Pipeline.arrRef spec9 w) :=
  (W24_arr m ρ c w).symm
theorem hrest9 (c : Dev nD) : ∀ b, b ∉ Finset.univ.image (Pipeline.arrRef spec9) → Vt24 m ρ c b = Vt23 m ρ c b :=
  fun b hb => W24_of_ne m ρ c b fun w e => hb (Finset.mem_image.mpr ⟨w, Finset.mem_univ _, e⟩)
/-- After the host stretch `hostOps10`. -/
abbrev W25 : Dev nD → Valuation τ sig (Elt F) := fun c => StableHlo.after hostOps10 (W24 m ρ c)
/-- A buffer that `hostOps10` does not write keeps its contents. -/
theorem W25_keep (c : Dev nD) (r : Ref sig .tc) (h : r ∉ hostOps10_W) :
    W25 m ρ c (Proc.devRef .tc r) = W24 m ρ c (Proc.devRef .tc r) :=
  StableHlo.after_of_writes_sub hostOps10 _ hostOps10_writes h
/-- The same read at the TensorCore's references: the contents region 10 is entered from. -/
abbrev Vt25 : (c : Dev nD) → (b : Ref sig .tc) → Buf (Elt F) ((c : Thread nD τ).loc b) := fun c b => W25 m ρ c b
/-- At region 10's exit: its arrays at what the pipeline leaves, every other buffer as entered. -/
def W26 (c : Dev nD) : Valuation τ sig (Elt F) :=
  Pipeline.withArrays spec10 c (W25 m ρ c) fun w => (dat10 (Vt25 m ρ) c).arrAt w cfg10.N
theorem W26_arr (c : Dev nD) (w : Fin cfg10.W) :
    W26 m ρ c (Proc.devRef .tc (Pipeline.arrRef spec10 w)) = (dat10 (Vt25 m ρ) c).arrAt w cfg10.N := by
  unfold W26; exact Pipeline.withArrays_arr spec10 launch10.win.arr_inj c _ _ w
theorem W26_of_ne (c : Dev nD) (b : Ref sig .tc) (hb : ∀ w, Pipeline.arrRef spec10 w ≠ b) :
    W26 m ρ c (Proc.devRef .tc b) = W25 m ρ c (Proc.devRef .tc b) := by
  unfold W26; exact Pipeline.withArrays_of_ne spec10 c _ _ b hb
/-- The same read at the TensorCore's references (region 10's exit contents). -/
abbrev Vt26 : (c : Dev nD) → (b : Ref sig .tc) → Buf (Elt F) ((c : Thread nD τ).loc b) := fun c b => W26 m ρ c b
/-- At region 10's exit each of its arrays holds what the pipeline leaves, and every other buffer what it held at entry. -/
theorem hF10 (c : Dev nD) (w : Fin cfg10.W) : (dat10 (Vt25 m ρ) c).arrAt w cfg10.N = Vt26 m ρ c (Pipeline.arrRef spec10 w) :=
  (W26_arr m ρ c w).symm
theorem hrest10 (c : Dev nD) : ∀ b, b ∉ Finset.univ.image (Pipeline.arrRef spec10) → Vt26 m ρ c b = Vt25 m ρ c b :=
  fun b hb => W26_of_ne m ρ c b fun w e => hb (Finset.mem_image.mpr ⟨w, Finset.mem_univ _, e⟩)
/-- After the host stretch `hostOps11`. -/
abbrev W27 : Dev nD → Valuation τ sig (Elt F) := fun c => StableHlo.after hostOps11 (W26 m ρ c)
/-- A buffer that `hostOps11` does not write keeps its contents. -/
theorem W27_keep (c : Dev nD) (r : Ref sig .tc) (h : r ∉ hostOps11_W) :
    W27 m ρ c (Proc.devRef .tc r) = W26 m ρ c (Proc.devRef .tc r) :=
  StableHlo.after_of_writes_sub hostOps11 _ hostOps11_writes h
/-- The same read at the TensorCore's references: the contents region 11 is entered from. -/
abbrev Vt27 : (c : Dev nD) → (b : Ref sig .tc) → Buf (Elt F) ((c : Thread nD τ).loc b) := fun c b => W27 m ρ c b
/-- At region 11's exit: its arrays at what the pipeline leaves, every other buffer as entered. -/
def W28 (c : Dev nD) : Valuation τ sig (Elt F) :=
  Pipeline.withArrays spec11 c (W27 m ρ c) fun w => (dat11 (Vt27 m ρ) c).arrAt w cfg11.N
theorem W28_arr (c : Dev nD) (w : Fin cfg11.W) :
    W28 m ρ c (Proc.devRef .tc (Pipeline.arrRef spec11 w)) = (dat11 (Vt27 m ρ) c).arrAt w cfg11.N := by
  unfold W28; exact Pipeline.withArrays_arr spec11 launch11.win.arr_inj c _ _ w
theorem W28_of_ne (c : Dev nD) (b : Ref sig .tc) (hb : ∀ w, Pipeline.arrRef spec11 w ≠ b) :
    W28 m ρ c (Proc.devRef .tc b) = W27 m ρ c (Proc.devRef .tc b) := by
  unfold W28; exact Pipeline.withArrays_of_ne spec11 c _ _ b hb
/-- The same read at the TensorCore's references (region 11's exit contents). -/
abbrev Vt28 : (c : Dev nD) → (b : Ref sig .tc) → Buf (Elt F) ((c : Thread nD τ).loc b) := fun c b => W28 m ρ c b
/-- At region 11's exit each of its arrays holds what the pipeline leaves, and every other buffer what it held at entry. -/
theorem hF11 (c : Dev nD) (w : Fin cfg11.W) : (dat11 (Vt27 m ρ) c).arrAt w cfg11.N = Vt28 m ρ c (Pipeline.arrRef spec11 w) :=
  (W28_arr m ρ c w).symm
theorem hrest11 (c : Dev nD) : ∀ b, b ∉ Finset.univ.image (Pipeline.arrRef spec11) → Vt28 m ρ c b = Vt27 m ρ c b :=
  fun b hb => W28_of_ne m ρ c b fun w e => hb (Finset.mem_image.mpr ⟨w, Finset.mem_univ _, e⟩)
/-- After the host stretch `hostOps12`. -/
abbrev W29 : Dev nD → Valuation τ sig (Elt F) := fun c => StableHlo.after hostOps12 (W28 m ρ c)
/-- A buffer that `hostOps12` does not write keeps its contents. -/
theorem W29_keep (c : Dev nD) (r : Ref sig .tc) (h : r ∉ hostOps12_W) :
    W29 m ρ c (Proc.devRef .tc r) = W28 m ρ c (Proc.devRef .tc r) :=
  StableHlo.after_of_writes_sub hostOps12 _ hostOps12_writes h

/-! ## The arguments end as launched

No host stretch writes an argument array, and no region has one as an output array: region 0 reads `main_arg0`
through an input window (whose array the pipeline leaves as entered), every other region's arrays are other buffers. -/

theorem W29_main_arg0 (c : Dev nD) : W29 m ρ c (Proc.devRef .tc main_arg0) = m ((c : Thread nD τ).loc main_arg0) :=
  (W29_keep m ρ c main_arg0 (by decide)).trans <|
  (W28_of_ne m ρ c main_arg0 (by decide)).trans <|
  (W27_keep m ρ c main_arg0 (by decide)).trans <|
  (W26_of_ne m ρ c main_arg0 (by decide)).trans <|
  (W25_keep m ρ c main_arg0 (by decide)).trans <|
  (W24_of_ne m ρ c main_arg0 (by decide)).trans <|
  (W23_keep m ρ c main_arg0 (by decide)).trans <|
  (W22_of_ne m ρ c main_arg0 (by decide)).trans <|
  (W21_keep m ρ c main_arg0 (by decide)).trans <|
  (W20_of_ne m ρ c main_arg0 (by decide)).trans <|
  (W19_keep m ρ c main_arg0 (by decide)).trans <|
  (W18_of_ne m ρ c main_arg0 (by decide)).trans <|
  (W17_keep m ρ c main_arg0 (by decide)).trans <|
  (W16_of_ne m ρ c main_arg0 (by decide)).trans <|
  (W15_keep m ρ c main_arg0 (by decide)).trans <|
  (W14_of_ne m ρ c main_arg0 (by decide)).trans <|
  (W13_keep m ρ c main_arg0 (by decide)).trans <|
  (W12_of_ne m ρ c main_arg0 (by decide)).trans <|
  (W11_keep m ρ c main_arg0 (by decide)).trans <|
  (W10_of_ne m ρ c main_arg0 (by decide)).trans <|
  (W9_keep m ρ c main_arg0 (by decide)).trans <|
  (W8_of_ne m ρ c main_arg0 (by decide)).trans <|
  (W7_keep m ρ c main_arg0 (by decide)).trans <|
  ((W6_arr m ρ c 0).trans (((dat0 (Vt5 m ρ) c).arrAt_in 0 rfl _).trans (A_eq0 (Vt5 m ρ) c 0))).trans <|
  (W5_keep m ρ c main_arg0 (by decide)).trans <|
  (W4_keep m ρ c main_arg0 (by decide)).trans <|
  (W3_keep m ρ c main_arg0 (by decide)).trans <|
  (W2_keep m ρ c main_arg0 (by decide)).trans <|
  (W1_keep m ρ c main_arg0 (by decide)).trans <| rfl

theorem W29_main_arg1 (c : Dev nD) : W29 m ρ c (Proc.devRef .tc main_arg1) = m ((c : Thread nD τ).loc main_arg1) :=
  (W29_keep m ρ c main_arg1 (by decide)).trans <|
  (W28_of_ne m ρ c main_arg1 (by decide)).trans <|
  (W27_keep m ρ c main_arg1 (by decide)).trans <|
  (W26_of_ne m ρ c main_arg1 (by decide)).trans <|
  (W25_keep m ρ c main_arg1 (by decide)).trans <|
  (W24_of_ne m ρ c main_arg1 (by decide)).trans <|
  (W23_keep m ρ c main_arg1 (by decide)).trans <|
  (W22_of_ne m ρ c main_arg1 (by decide)).trans <|
  (W21_keep m ρ c main_arg1 (by decide)).trans <|
  (W20_of_ne m ρ c main_arg1 (by decide)).trans <|
  (W19_keep m ρ c main_arg1 (by decide)).trans <|
  (W18_of_ne m ρ c main_arg1 (by decide)).trans <|
  (W17_keep m ρ c main_arg1 (by decide)).trans <|
  (W16_of_ne m ρ c main_arg1 (by decide)).trans <|
  (W15_keep m ρ c main_arg1 (by decide)).trans <|
  (W14_of_ne m ρ c main_arg1 (by decide)).trans <|
  (W13_keep m ρ c main_arg1 (by decide)).trans <|
  (W12_of_ne m ρ c main_arg1 (by decide)).trans <|
  (W11_keep m ρ c main_arg1 (by decide)).trans <|
  (W10_of_ne m ρ c main_arg1 (by decide)).trans <|
  (W9_keep m ρ c main_arg1 (by decide)).trans <|
  (W8_of_ne m ρ c main_arg1 (by decide)).trans <|
  (W7_keep m ρ c main_arg1 (by decide)).trans <|
  (W6_of_ne m ρ c main_arg1 (by decide)).trans <|
  (W5_keep m ρ c main_arg1 (by decide)).trans <|
  (W4_keep m ρ c main_arg1 (by decide)).trans <|
  (W3_keep m ρ c main_arg1 (by decide)).trans <|
  (W2_keep m ρ c main_arg1 (by decide)).trans <|
  (W1_keep m ρ c main_arg1 (by decide)).trans <| rfl

theorem W29_main_arg2 (c : Dev nD) : W29 m ρ c (Proc.devRef .tc main_arg2) = m ((c : Thread nD τ).loc main_arg2) :=
  (W29_keep m ρ c main_arg2 (by decide)).trans <|
  (W28_of_ne m ρ c main_arg2 (by decide)).trans <|
  (W27_keep m ρ c main_arg2 (by decide)).trans <|
  (W26_of_ne m ρ c main_arg2 (by decide)).trans <|
  (W25_keep m ρ c main_arg2 (by decide)).trans <|
  (W24_of_ne m ρ c main_arg2 (by decide)).trans <|
  (W23_keep m ρ c main_arg2 (by decide)).trans <|
  (W22_of_ne m ρ c main_arg2 (by decide)).trans <|
  (W21_keep m ρ c main_arg2 (by decide)).trans <|
  (W20_of_ne m ρ c main_arg2 (by decide)).trans <|
  (W19_keep m ρ c main_arg2 (by decide)).trans <|
  (W18_of_ne m ρ c main_arg2 (by decide)).trans <|
  (W17_keep m ρ c main_arg2 (by decide)).trans <|
  (W16_of_ne m ρ c main_arg2 (by decide)).trans <|
  (W15_keep m ρ c main_arg2 (by decide)).trans <|
  (W14_of_ne m ρ c main_arg2 (by decide)).trans <|
  (W13_keep m ρ c main_arg2 (by decide)).trans <|
  (W12_of_ne m ρ c main_arg2 (by decide)).trans <|
  (W11_keep m ρ c main_arg2 (by decide)).trans <|
  (W10_of_ne m ρ c main_arg2 (by decide)).trans <|
  (W9_keep m ρ c main_arg2 (by decide)).trans <|
  (W8_of_ne m ρ c main_arg2 (by decide)).trans <|
  (W7_keep m ρ c main_arg2 (by decide)).trans <|
  (W6_of_ne m ρ c main_arg2 (by decide)).trans <|
  (W5_keep m ρ c main_arg2 (by decide)).trans <|
  (W4_keep m ρ c main_arg2 (by decide)).trans <|
  (W3_keep m ρ c main_arg2 (by decide)).trans <|
  (W2_keep m ρ c main_arg2 (by decide)).trans <|
  (W1_keep m ρ c main_arg2 (by decide)).trans <| rfl

theorem W29_main_arg3 (c : Dev nD) : W29 m ρ c (Proc.devRef .tc main_arg3) = m ((c : Thread nD τ).loc main_arg3) :=
  (W29_keep m ρ c main_arg3 (by decide)).trans <|
  (W28_of_ne m ρ c main_arg3 (by decide)).trans <|
  (W27_keep m ρ c main_arg3 (by decide)).trans <|
  (W26_of_ne m ρ c main_arg3 (by decide)).trans <|
  (W25_keep m ρ c main_arg3 (by decide)).trans <|
  (W24_of_ne m ρ c main_arg3 (by decide)).trans <|
  (W23_keep m ρ c main_arg3 (by decide)).trans <|
  (W22_of_ne m ρ c main_arg3 (by decide)).trans <|
  (W21_keep m ρ c main_arg3 (by decide)).trans <|
  (W20_of_ne m ρ c main_arg3 (by decide)).trans <|
  (W19_keep m ρ c main_arg3 (by decide)).trans <|
  (W18_of_ne m ρ c main_arg3 (by decide)).trans <|
  (W17_keep m ρ c main_arg3 (by decide)).trans <|
  (W16_of_ne m ρ c main_arg3 (by decide)).trans <|
  (W15_keep m ρ c main_arg3 (by decide)).trans <|
  (W14_of_ne m ρ c main_arg3 (by decide)).trans <|
  (W13_keep m ρ c main_arg3 (by decide)).trans <|
  (W12_of_ne m ρ c main_arg3 (by decide)).trans <|
  (W11_keep m ρ c main_arg3 (by decide)).trans <|
  (W10_of_ne m ρ c main_arg3 (by decide)).trans <|
  (W9_keep m ρ c main_arg3 (by decide)).trans <|
  (W8_of_ne m ρ c main_arg3 (by decide)).trans <|
  (W7_keep m ρ c main_arg3 (by decide)).trans <|
  (W6_of_ne m ρ c main_arg3 (by decide)).trans <|
  (W5_keep m ρ c main_arg3 (by decide)).trans <|
  (W4_keep m ρ c main_arg3 (by decide)).trans <|
  (W3_keep m ρ c main_arg3 (by decide)).trans <|
  (W2_keep m ρ c main_arg3 (by decide)).trans <|
  (W1_keep m ρ c main_arg3 (by decide)).trans <| rfl

theorem W29_main_arg4 (c : Dev nD) : W29 m ρ c (Proc.devRef .tc main_arg4) = m ((c : Thread nD τ).loc main_arg4) :=
  (W29_keep m ρ c main_arg4 (by decide)).trans <|
  (W28_of_ne m ρ c main_arg4 (by decide)).trans <|
  (W27_keep m ρ c main_arg4 (by decide)).trans <|
  (W26_of_ne m ρ c main_arg4 (by decide)).trans <|
  (W25_keep m ρ c main_arg4 (by decide)).trans <|
  (W24_of_ne m ρ c main_arg4 (by decide)).trans <|
  (W23_keep m ρ c main_arg4 (by decide)).trans <|
  (W22_of_ne m ρ c main_arg4 (by decide)).trans <|
  (W21_keep m ρ c main_arg4 (by decide)).trans <|
  (W20_of_ne m ρ c main_arg4 (by decide)).trans <|
  (W19_keep m ρ c main_arg4 (by decide)).trans <|
  (W18_of_ne m ρ c main_arg4 (by decide)).trans <|
  (W17_keep m ρ c main_arg4 (by decide)).trans <|
  (W16_of_ne m ρ c main_arg4 (by decide)).trans <|
  (W15_keep m ρ c main_arg4 (by decide)).trans <|
  (W14_of_ne m ρ c main_arg4 (by decide)).trans <|
  (W13_keep m ρ c main_arg4 (by decide)).trans <|
  (W12_of_ne m ρ c main_arg4 (by decide)).trans <|
  (W11_keep m ρ c main_arg4 (by decide)).trans <|
  (W10_of_ne m ρ c main_arg4 (by decide)).trans <|
  (W9_keep m ρ c main_arg4 (by decide)).trans <|
  (W8_of_ne m ρ c main_arg4 (by decide)).trans <|
  (W7_keep m ρ c main_arg4 (by decide)).trans <|
  (W6_of_ne m ρ c main_arg4 (by decide)).trans <|
  (W5_keep m ρ c main_arg4 (by decide)).trans <|
  (W4_keep m ρ c main_arg4 (by decide)).trans <|
  (W3_keep m ρ c main_arg4 (by decide)).trans <|
  (W2_keep m ρ c main_arg4 (by decide)).trans <|
  (W1_keep m ρ c main_arg4 (by decide)).trans <| rfl

theorem W29_main_arg5 (c : Dev nD) : W29 m ρ c (Proc.devRef .tc main_arg5) = m ((c : Thread nD τ).loc main_arg5) :=
  (W29_keep m ρ c main_arg5 (by decide)).trans <|
  (W28_of_ne m ρ c main_arg5 (by decide)).trans <|
  (W27_keep m ρ c main_arg5 (by decide)).trans <|
  (W26_of_ne m ρ c main_arg5 (by decide)).trans <|
  (W25_keep m ρ c main_arg5 (by decide)).trans <|
  (W24_of_ne m ρ c main_arg5 (by decide)).trans <|
  (W23_keep m ρ c main_arg5 (by decide)).trans <|
  (W22_of_ne m ρ c main_arg5 (by decide)).trans <|
  (W21_keep m ρ c main_arg5 (by decide)).trans <|
  (W20_of_ne m ρ c main_arg5 (by decide)).trans <|
  (W19_keep m ρ c main_arg5 (by decide)).trans <|
  (W18_of_ne m ρ c main_arg5 (by decide)).trans <|
  (W17_keep m ρ c main_arg5 (by decide)).trans <|
  (W16_of_ne m ρ c main_arg5 (by decide)).trans <|
  (W15_keep m ρ c main_arg5 (by decide)).trans <|
  (W14_of_ne m ρ c main_arg5 (by decide)).trans <|
  (W13_keep m ρ c main_arg5 (by decide)).trans <|
  (W12_of_ne m ρ c main_arg5 (by decide)).trans <|
  (W11_keep m ρ c main_arg5 (by decide)).trans <|
  (W10_of_ne m ρ c main_arg5 (by decide)).trans <|
  (W9_keep m ρ c main_arg5 (by decide)).trans <|
  (W8_of_ne m ρ c main_arg5 (by decide)).trans <|
  (W7_keep m ρ c main_arg5 (by decide)).trans <|
  (W6_of_ne m ρ c main_arg5 (by decide)).trans <|
  (W5_keep m ρ c main_arg5 (by decide)).trans <|
  (W4_keep m ρ c main_arg5 (by decide)).trans <|
  (W3_keep m ρ c main_arg5 (by decide)).trans <|
  (W2_keep m ρ c main_arg5 (by decide)).trans <|
  (W1_keep m ρ c main_arg5 (by decide)).trans <| rfl

theorem W29_main_arg6 (c : Dev nD) : W29 m ρ c (Proc.devRef .tc main_arg6) = m ((c : Thread nD τ).loc main_arg6) :=
  (W29_keep m ρ c main_arg6 (by decide)).trans <|
  (W28_of_ne m ρ c main_arg6 (by decide)).trans <|
  (W27_keep m ρ c main_arg6 (by decide)).trans <|
  (W26_of_ne m ρ c main_arg6 (by decide)).trans <|
  (W25_keep m ρ c main_arg6 (by decide)).trans <|
  (W24_of_ne m ρ c main_arg6 (by decide)).trans <|
  (W23_keep m ρ c main_arg6 (by decide)).trans <|
  (W22_of_ne m ρ c main_arg6 (by decide)).trans <|
  (W21_keep m ρ c main_arg6 (by decide)).trans <|
  (W20_of_ne m ρ c main_arg6 (by decide)).trans <|
  (W19_keep m ρ c main_arg6 (by decide)).trans <|
  (W18_of_ne m ρ c main_arg6 (by decide)).trans <|
  (W17_keep m ρ c main_arg6 (by decide)).trans <|
  (W16_of_ne m ρ c main_arg6 (by decide)).trans <|
  (W15_keep m ρ c main_arg6 (by decide)).trans <|
  (W14_of_ne m ρ c main_arg6 (by decide)).trans <|
  (W13_keep m ρ c main_arg6 (by decide)).trans <|
  (W12_of_ne m ρ c main_arg6 (by decide)).trans <|
  (W11_keep m ρ c main_arg6 (by decide)).trans <|
  (W10_of_ne m ρ c main_arg6 (by decide)).trans <|
  (W9_keep m ρ c main_arg6 (by decide)).trans <|
  (W8_of_ne m ρ c main_arg6 (by decide)).trans <|
  (W7_keep m ρ c main_arg6 (by decide)).trans <|
  (W6_of_ne m ρ c main_arg6 (by decide)).trans <|
  (W5_keep m ρ c main_arg6 (by decide)).trans <|
  (W4_keep m ρ c main_arg6 (by decide)).trans <|
  (W3_keep m ρ c main_arg6 (by decide)).trans <|
  (W2_keep m ρ c main_arg6 (by decide)).trans <|
  (W1_keep m ρ c main_arg6 (by decide)).trans <| rfl

theorem W29_main_arg7 (c : Dev nD) : W29 m ρ c (Proc.devRef .tc main_arg7) = m ((c : Thread nD τ).loc main_arg7) :=
  (W29_keep m ρ c main_arg7 (by decide)).trans <|
  (W28_of_ne m ρ c main_arg7 (by decide)).trans <|
  (W27_keep m ρ c main_arg7 (by decide)).trans <|
  (W26_of_ne m ρ c main_arg7 (by decide)).trans <|
  (W25_keep m ρ c main_arg7 (by decide)).trans <|
  (W24_of_ne m ρ c main_arg7 (by decide)).trans <|
  (W23_keep m ρ c main_arg7 (by decide)).trans <|
  (W22_of_ne m ρ c main_arg7 (by decide)).trans <|
  (W21_keep m ρ c main_arg7 (by decide)).trans <|
  (W20_of_ne m ρ c main_arg7 (by decide)).trans <|
  (W19_keep m ρ c main_arg7 (by decide)).trans <|
  (W18_of_ne m ρ c main_arg7 (by decide)).trans <|
  (W17_keep m ρ c main_arg7 (by decide)).trans <|
  (W16_of_ne m ρ c main_arg7 (by decide)).trans <|
  (W15_keep m ρ c main_arg7 (by decide)).trans <|
  (W14_of_ne m ρ c main_arg7 (by decide)).trans <|
  (W13_keep m ρ c main_arg7 (by decide)).trans <|
  (W12_of_ne m ρ c main_arg7 (by decide)).trans <|
  (W11_keep m ρ c main_arg7 (by decide)).trans <|
  (W10_of_ne m ρ c main_arg7 (by decide)).trans <|
  (W9_keep m ρ c main_arg7 (by decide)).trans <|
  (W8_of_ne m ρ c main_arg7 (by decide)).trans <|
  (W7_keep m ρ c main_arg7 (by decide)).trans <|
  (W6_of_ne m ρ c main_arg7 (by decide)).trans <|
  (W5_keep m ρ c main_arg7 (by decide)).trans <|
  (W4_keep m ρ c main_arg7 (by decide)).trans <|
  (W3_keep m ρ c main_arg7 (by decide)).trans <|
  (W2_keep m ρ c main_arg7 (by decide)).trans <|
  (W1_keep m ρ c main_arg7 (by decide)).trans <| rfl

theorem W29_main_arg8 (c : Dev nD) : W29 m ρ c (Proc.devRef .tc main_arg8) = m ((c : Thread nD τ).loc main_arg8) :=
  (W29_keep m ρ c main_arg8 (by decide)).trans <|
  (W28_of_ne m ρ c main_arg8 (by decide)).trans <|
  (W27_keep m ρ c main_arg8 (by decide)).trans <|
  (W26_of_ne m ρ c main_arg8 (by decide)).trans <|
  (W25_keep m ρ c main_arg8 (by decide)).trans <|
  (W24_of_ne m ρ c main_arg8 (by decide)).trans <|
  (W23_keep m ρ c main_arg8 (by decide)).trans <|
  (W22_of_ne m ρ c main_arg8 (by decide)).trans <|
  (W21_keep m ρ c main_arg8 (by decide)).trans <|
  (W20_of_ne m ρ c main_arg8 (by decide)).trans <|
  (W19_keep m ρ c main_arg8 (by decide)).trans <|
  (W18_of_ne m ρ c main_arg8 (by decide)).trans <|
  (W17_keep m ρ c main_arg8 (by decide)).trans <|
  (W16_of_ne m ρ c main_arg8 (by decide)).trans <|
  (W15_keep m ρ c main_arg8 (by decide)).trans <|
  (W14_of_ne m ρ c main_arg8 (by decide)).trans <|
  (W13_keep m ρ c main_arg8 (by decide)).trans <|
  (W12_of_ne m ρ c main_arg8 (by decide)).trans <|
  (W11_keep m ρ c main_arg8 (by decide)).trans <|
  (W10_of_ne m ρ c main_arg8 (by decide)).trans <|
  (W9_keep m ρ c main_arg8 (by decide)).trans <|
  (W8_of_ne m ρ c main_arg8 (by decide)).trans <|
  (W7_keep m ρ c main_arg8 (by decide)).trans <|
  (W6_of_ne m ρ c main_arg8 (by decide)).trans <|
  (W5_keep m ρ c main_arg8 (by decide)).trans <|
  (W4_keep m ρ c main_arg8 (by decide)).trans <|
  (W3_keep m ρ c main_arg8 (by decide)).trans <|
  (W2_keep m ρ c main_arg8 (by decide)).trans <|
  (W1_keep m ρ c main_arg8 (by decide)).trans <| rfl

theorem W29_main_arg9 (c : Dev nD) : W29 m ρ c (Proc.devRef .tc main_arg9) = m ((c : Thread nD τ).loc main_arg9) :=
  (W29_keep m ρ c main_arg9 (by decide)).trans <|
  (W28_of_ne m ρ c main_arg9 (by decide)).trans <|
  (W27_keep m ρ c main_arg9 (by decide)).trans <|
  (W26_of_ne m ρ c main_arg9 (by decide)).trans <|
  (W25_keep m ρ c main_arg9 (by decide)).trans <|
  (W24_of_ne m ρ c main_arg9 (by decide)).trans <|
  (W23_keep m ρ c main_arg9 (by decide)).trans <|
  (W22_of_ne m ρ c main_arg9 (by decide)).trans <|
  (W21_keep m ρ c main_arg9 (by decide)).trans <|
  (W20_of_ne m ρ c main_arg9 (by decide)).trans <|
  (W19_keep m ρ c main_arg9 (by decide)).trans <|
  (W18_of_ne m ρ c main_arg9 (by decide)).trans <|
  (W17_keep m ρ c main_arg9 (by decide)).trans <|
  (W16_of_ne m ρ c main_arg9 (by decide)).trans <|
  (W15_keep m ρ c main_arg9 (by decide)).trans <|
  (W14_of_ne m ρ c main_arg9 (by decide)).trans <|
  (W13_keep m ρ c main_arg9 (by decide)).trans <|
  (W12_of_ne m ρ c main_arg9 (by decide)).trans <|
  (W11_keep m ρ c main_arg9 (by decide)).trans <|
  (W10_of_ne m ρ c main_arg9 (by decide)).trans <|
  (W9_keep m ρ c main_arg9 (by decide)).trans <|
  (W8_of_ne m ρ c main_arg9 (by decide)).trans <|
  (W7_keep m ρ c main_arg9 (by decide)).trans <|
  (W6_of_ne m ρ c main_arg9 (by decide)).trans <|
  (W5_keep m ρ c main_arg9 (by decide)).trans <|
  (W4_keep m ρ c main_arg9 (by decide)).trans <|
  (W3_keep m ρ c main_arg9 (by decide)).trans <|
  (W2_keep m ρ c main_arg9 (by decide)).trans <|
  (W1_keep m ρ c main_arg9 (by decide)).trans <| rfl

theorem W29_main_arg10 (c : Dev nD) : W29 m ρ c (Proc.devRef .tc main_arg10) = m ((c : Thread nD τ).loc main_arg10) :=
  (W29_keep m ρ c main_arg10 (by decide)).trans <|
  (W28_of_ne m ρ c main_arg10 (by decide)).trans <|
  (W27_keep m ρ c main_arg10 (by decide)).trans <|
  (W26_of_ne m ρ c main_arg10 (by decide)).trans <|
  (W25_keep m ρ c main_arg10 (by decide)).trans <|
  (W24_of_ne m ρ c main_arg10 (by decide)).trans <|
  (W23_keep m ρ c main_arg10 (by decide)).trans <|
  (W22_of_ne m ρ c main_arg10 (by decide)).trans <|
  (W21_keep m ρ c main_arg10 (by decide)).trans <|
  (W20_of_ne m ρ c main_arg10 (by decide)).trans <|
  (W19_keep m ρ c main_arg10 (by decide)).trans <|
  (W18_of_ne m ρ c main_arg10 (by decide)).trans <|
  (W17_keep m ρ c main_arg10 (by decide)).trans <|
  (W16_of_ne m ρ c main_arg10 (by decide)).trans <|
  (W15_keep m ρ c main_arg10 (by decide)).trans <|
  (W14_of_ne m ρ c main_arg10 (by decide)).trans <|
  (W13_keep m ρ c main_arg10 (by decide)).trans <|
  (W12_of_ne m ρ c main_arg10 (by decide)).trans <|
  (W11_keep m ρ c main_arg10 (by decide)).trans <|
  (W10_of_ne m ρ c main_arg10 (by decide)).trans <|
  (W9_keep m ρ c main_arg10 (by decide)).trans <|
  (W8_of_ne m ρ c main_arg10 (by decide)).trans <|
  (W7_keep m ρ c main_arg10 (by decide)).trans <|
  (W6_of_ne m ρ c main_arg10 (by decide)).trans <|
  (W5_keep m ρ c main_arg10 (by decide)).trans <|
  (W4_keep m ρ c main_arg10 (by decide)).trans <|
  (W3_keep m ρ c main_arg10 (by decide)).trans <|
  (W2_keep m ρ c main_arg10 (by decide)).trans <|
  (W1_keep m ρ c main_arg10 (by decide)).trans <| rfl

theorem W29_main_arg11 (c : Dev nD) : W29 m ρ c (Proc.devRef .tc main_arg11) = m ((c : Thread nD τ).loc main_arg11) :=
  (W29_keep m ρ c main_arg11 (by decide)).trans <|
  (W28_of_ne m ρ c main_arg11 (by decide)).trans <|
  (W27_keep m ρ c main_arg11 (by decide)).trans <|
  (W26_of_ne m ρ c main_arg11 (by decide)).trans <|
  (W25_keep m ρ c main_arg11 (by decide)).trans <|
  (W24_of_ne m ρ c main_arg11 (by decide)).trans <|
  (W23_keep m ρ c main_arg11 (by decide)).trans <|
  (W22_of_ne m ρ c main_arg11 (by decide)).trans <|
  (W21_keep m ρ c main_arg11 (by decide)).trans <|
  (W20_of_ne m ρ c main_arg11 (by decide)).trans <|
  (W19_keep m ρ c main_arg11 (by decide)).trans <|
  (W18_of_ne m ρ c main_arg11 (by decide)).trans <|
  (W17_keep m ρ c main_arg11 (by decide)).trans <|
  (W16_of_ne m ρ c main_arg11 (by decide)).trans <|
  (W15_keep m ρ c main_arg11 (by decide)).trans <|
  (W14_of_ne m ρ c main_arg11 (by decide)).trans <|
  (W13_keep m ρ c main_arg11 (by decide)).trans <|
  (W12_of_ne m ρ c main_arg11 (by decide)).trans <|
  (W11_keep m ρ c main_arg11 (by decide)).trans <|
  (W10_of_ne m ρ c main_arg11 (by decide)).trans <|
  (W9_keep m ρ c main_arg11 (by decide)).trans <|
  (W8_of_ne m ρ c main_arg11 (by decide)).trans <|
  (W7_keep m ρ c main_arg11 (by decide)).trans <|
  (W6_of_ne m ρ c main_arg11 (by decide)).trans <|
  (W5_keep m ρ c main_arg11 (by decide)).trans <|
  (W4_keep m ρ c main_arg11 (by decide)).trans <|
  (W3_keep m ρ c main_arg11 (by decide)).trans <|
  (W2_keep m ρ c main_arg11 (by decide)).trans <|
  (W1_keep m ρ c main_arg11 (by decide)).trans <| rfl

theorem W29_main_arg12 (c : Dev nD) : W29 m ρ c (Proc.devRef .tc main_arg12) = m ((c : Thread nD τ).loc main_arg12) :=
  (W29_keep m ρ c main_arg12 (by decide)).trans <|
  (W28_of_ne m ρ c main_arg12 (by decide)).trans <|
  (W27_keep m ρ c main_arg12 (by decide)).trans <|
  (W26_of_ne m ρ c main_arg12 (by decide)).trans <|
  (W25_keep m ρ c main_arg12 (by decide)).trans <|
  (W24_of_ne m ρ c main_arg12 (by decide)).trans <|
  (W23_keep m ρ c main_arg12 (by decide)).trans <|
  (W22_of_ne m ρ c main_arg12 (by decide)).trans <|
  (W21_keep m ρ c main_arg12 (by decide)).trans <|
  (W20_of_ne m ρ c main_arg12 (by decide)).trans <|
  (W19_keep m ρ c main_arg12 (by decide)).trans <|
  (W18_of_ne m ρ c main_arg12 (by decide)).trans <|
  (W17_keep m ρ c main_arg12 (by decide)).trans <|
  (W16_of_ne m ρ c main_arg12 (by decide)).trans <|
  (W15_keep m ρ c main_arg12 (by decide)).trans <|
  (W14_of_ne m ρ c main_arg12 (by decide)).trans <|
  (W13_keep m ρ c main_arg12 (by decide)).trans <|
  (W12_of_ne m ρ c main_arg12 (by decide)).trans <|
  (W11_keep m ρ c main_arg12 (by decide)).trans <|
  (W10_of_ne m ρ c main_arg12 (by decide)).trans <|
  (W9_keep m ρ c main_arg12 (by decide)).trans <|
  (W8_of_ne m ρ c main_arg12 (by decide)).trans <|
  (W7_keep m ρ c main_arg12 (by decide)).trans <|
  (W6_of_ne m ρ c main_arg12 (by decide)).trans <|
  (W5_keep m ρ c main_arg12 (by decide)).trans <|
  (W4_keep m ρ c main_arg12 (by decide)).trans <|
  (W3_keep m ρ c main_arg12 (by decide)).trans <|
  (W2_keep m ρ c main_arg12 (by decide)).trans <|
  (W1_keep m ρ c main_arg12 (by decide)).trans <| rfl

theorem W29_main_arg13 (c : Dev nD) : W29 m ρ c (Proc.devRef .tc main_arg13) = m ((c : Thread nD τ).loc main_arg13) :=
  (W29_keep m ρ c main_arg13 (by decide)).trans <|
  (W28_of_ne m ρ c main_arg13 (by decide)).trans <|
  (W27_keep m ρ c main_arg13 (by decide)).trans <|
  (W26_of_ne m ρ c main_arg13 (by decide)).trans <|
  (W25_keep m ρ c main_arg13 (by decide)).trans <|
  (W24_of_ne m ρ c main_arg13 (by decide)).trans <|
  (W23_keep m ρ c main_arg13 (by decide)).trans <|
  (W22_of_ne m ρ c main_arg13 (by decide)).trans <|
  (W21_keep m ρ c main_arg13 (by decide)).trans <|
  (W20_of_ne m ρ c main_arg13 (by decide)).trans <|
  (W19_keep m ρ c main_arg13 (by decide)).trans <|
  (W18_of_ne m ρ c main_arg13 (by decide)).trans <|
  (W17_keep m ρ c main_arg13 (by decide)).trans <|
  (W16_of_ne m ρ c main_arg13 (by decide)).trans <|
  (W15_keep m ρ c main_arg13 (by decide)).trans <|
  (W14_of_ne m ρ c main_arg13 (by decide)).trans <|
  (W13_keep m ρ c main_arg13 (by decide)).trans <|
  (W12_of_ne m ρ c main_arg13 (by decide)).trans <|
  (W11_keep m ρ c main_arg13 (by decide)).trans <|
  (W10_of_ne m ρ c main_arg13 (by decide)).trans <|
  (W9_keep m ρ c main_arg13 (by decide)).trans <|
  (W8_of_ne m ρ c main_arg13 (by decide)).trans <|
  (W7_keep m ρ c main_arg13 (by decide)).trans <|
  (W6_of_ne m ρ c main_arg13 (by decide)).trans <|
  (W5_keep m ρ c main_arg13 (by decide)).trans <|
  (W4_keep m ρ c main_arg13 (by decide)).trans <|
  (W3_keep m ρ c main_arg13 (by decide)).trans <|
  (W2_keep m ρ c main_arg13 (by decide)).trans <|
  (W1_keep m ρ c main_arg13 (by decide)).trans <| rfl

theorem W29_main_arg14 (c : Dev nD) : W29 m ρ c (Proc.devRef .tc main_arg14) = m ((c : Thread nD τ).loc main_arg14) :=
  (W29_keep m ρ c main_arg14 (by decide)).trans <|
  (W28_of_ne m ρ c main_arg14 (by decide)).trans <|
  (W27_keep m ρ c main_arg14 (by decide)).trans <|
  (W26_of_ne m ρ c main_arg14 (by decide)).trans <|
  (W25_keep m ρ c main_arg14 (by decide)).trans <|
  (W24_of_ne m ρ c main_arg14 (by decide)).trans <|
  (W23_keep m ρ c main_arg14 (by decide)).trans <|
  (W22_of_ne m ρ c main_arg14 (by decide)).trans <|
  (W21_keep m ρ c main_arg14 (by decide)).trans <|
  (W20_of_ne m ρ c main_arg14 (by decide)).trans <|
  (W19_keep m ρ c main_arg14 (by decide)).trans <|
  (W18_of_ne m ρ c main_arg14 (by decide)).trans <|
  (W17_keep m ρ c main_arg14 (by decide)).trans <|
  (W16_of_ne m ρ c main_arg14 (by decide)).trans <|
  (W15_keep m ρ c main_arg14 (by decide)).trans <|
  (W14_of_ne m ρ c main_arg14 (by decide)).trans <|
  (W13_keep m ρ c main_arg14 (by decide)).trans <|
  (W12_of_ne m ρ c main_arg14 (by decide)).trans <|
  (W11_keep m ρ c main_arg14 (by decide)).trans <|
  (W10_of_ne m ρ c main_arg14 (by decide)).trans <|
  (W9_keep m ρ c main_arg14 (by decide)).trans <|
  (W8_of_ne m ρ c main_arg14 (by decide)).trans <|
  (W7_keep m ρ c main_arg14 (by decide)).trans <|
  (W6_of_ne m ρ c main_arg14 (by decide)).trans <|
  (W5_keep m ρ c main_arg14 (by decide)).trans <|
  (W4_keep m ρ c main_arg14 (by decide)).trans <|
  (W3_keep m ρ c main_arg14 (by decide)).trans <|
  (W2_keep m ρ c main_arg14 (by decide)).trans <|
  (W1_keep m ρ c main_arg14 (by decide)).trans <| rfl

theorem W29_main_arg15 (c : Dev nD) : W29 m ρ c (Proc.devRef .tc main_arg15) = m ((c : Thread nD τ).loc main_arg15) :=
  (W29_keep m ρ c main_arg15 (by decide)).trans <|
  (W28_of_ne m ρ c main_arg15 (by decide)).trans <|
  (W27_keep m ρ c main_arg15 (by decide)).trans <|
  (W26_of_ne m ρ c main_arg15 (by decide)).trans <|
  (W25_keep m ρ c main_arg15 (by decide)).trans <|
  (W24_of_ne m ρ c main_arg15 (by decide)).trans <|
  (W23_keep m ρ c main_arg15 (by decide)).trans <|
  (W22_of_ne m ρ c main_arg15 (by decide)).trans <|
  (W21_keep m ρ c main_arg15 (by decide)).trans <|
  (W20_of_ne m ρ c main_arg15 (by decide)).trans <|
  (W19_keep m ρ c main_arg15 (by decide)).trans <|
  (W18_of_ne m ρ c main_arg15 (by decide)).trans <|
  (W17_keep m ρ c main_arg15 (by decide)).trans <|
  (W16_of_ne m ρ c main_arg15 (by decide)).trans <|
  (W15_keep m ρ c main_arg15 (by decide)).trans <|
  (W14_of_ne m ρ c main_arg15 (by decide)).trans <|
  (W13_keep m ρ c main_arg15 (by decide)).trans <|
  (W12_of_ne m ρ c main_arg15 (by decide)).trans <|
  (W11_keep m ρ c main_arg15 (by decide)).trans <|
  (W10_of_ne m ρ c main_arg15 (by decide)).trans <|
  (W9_keep m ρ c main_arg15 (by decide)).trans <|
  (W8_of_ne m ρ c main_arg15 (by decide)).trans <|
  (W7_keep m ρ c main_arg15 (by decide)).trans <|
  (W6_of_ne m ρ c main_arg15 (by decide)).trans <|
  (W5_keep m ρ c main_arg15 (by decide)).trans <|
  (W4_keep m ρ c main_arg15 (by decide)).trans <|
  (W3_keep m ρ c main_arg15 (by decide)).trans <|
  (W2_keep m ρ c main_arg15 (by decide)).trans <|
  (W1_keep m ρ c main_arg15 (by decide)).trans <| rfl

theorem W29_main_arg16 (c : Dev nD) : W29 m ρ c (Proc.devRef .tc main_arg16) = m ((c : Thread nD τ).loc main_arg16) :=
  (W29_keep m ρ c main_arg16 (by decide)).trans <|
  (W28_of_ne m ρ c main_arg16 (by decide)).trans <|
  (W27_keep m ρ c main_arg16 (by decide)).trans <|
  (W26_of_ne m ρ c main_arg16 (by decide)).trans <|
  (W25_keep m ρ c main_arg16 (by decide)).trans <|
  (W24_of_ne m ρ c main_arg16 (by decide)).trans <|
  (W23_keep m ρ c main_arg16 (by decide)).trans <|
  (W22_of_ne m ρ c main_arg16 (by decide)).trans <|
  (W21_keep m ρ c main_arg16 (by decide)).trans <|
  (W20_of_ne m ρ c main_arg16 (by decide)).trans <|
  (W19_keep m ρ c main_arg16 (by decide)).trans <|
  (W18_of_ne m ρ c main_arg16 (by decide)).trans <|
  (W17_keep m ρ c main_arg16 (by decide)).trans <|
  (W16_of_ne m ρ c main_arg16 (by decide)).trans <|
  (W15_keep m ρ c main_arg16 (by decide)).trans <|
  (W14_of_ne m ρ c main_arg16 (by decide)).trans <|
  (W13_keep m ρ c main_arg16 (by decide)).trans <|
  (W12_of_ne m ρ c main_arg16 (by decide)).trans <|
  (W11_keep m ρ c main_arg16 (by decide)).trans <|
  (W10_of_ne m ρ c main_arg16 (by decide)).trans <|
  (W9_keep m ρ c main_arg16 (by decide)).trans <|
  (W8_of_ne m ρ c main_arg16 (by decide)).trans <|
  (W7_keep m ρ c main_arg16 (by decide)).trans <|
  (W6_of_ne m ρ c main_arg16 (by decide)).trans <|
  (W5_keep m ρ c main_arg16 (by decide)).trans <|
  (W4_keep m ρ c main_arg16 (by decide)).trans <|
  (W3_keep m ρ c main_arg16 (by decide)).trans <|
  (W2_keep m ρ c main_arg16 (by decide)).trans <|
  (W1_keep m ρ c main_arg16 (by decide)).trans <| rfl

/-! ## The proof data family and the thread state -/

/-- Every pipeline's proof data, each at its region's entry contents. -/
def pdats : (p : Fin 12) → (c : Dev nD) → Dat τ (Elt F) Unit ℕ (UR sig nD τ) ℕ (Pipeline.pin (pcfgs (F := F)) adm p) c
  | ⟨0, _⟩ => fun c => dat0 (Vt5 m ρ) c
  | ⟨1, _⟩ => fun c => dat1 (Vt7 m ρ) c
  | ⟨2, _⟩ => fun c => dat2 (Vt9 m ρ) c
  | ⟨3, _⟩ => fun c => dat3 (Vt11 m ρ) c
  | ⟨4, _⟩ => fun c => dat4 (Vt13 m ρ) c
  | ⟨5, _⟩ => fun c => dat5 (Vt15 m ρ) c
  | ⟨6, _⟩ => fun c => dat6 (Vt17 m ρ) c
  | ⟨7, _⟩ => fun c => dat7 (Vt19 m ρ) c
  | ⟨8, _⟩ => fun c => dat8 (Vt21 m ρ) c
  | ⟨9, _⟩ => fun c => dat9 (Vt23 m ρ) c
  | ⟨10, _⟩ => fun c => dat10 (Vt25 m ρ) c
  | ⟨11, _⟩ => fun c => dat11 (Vt27 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W29 m ρ c) ∗ ∃ r, prngReg c r)

end Cert.Kernel.Run

end
-- ==== Proof.KSeg0.lean ====
/- Region 0 of the program as a segment of the run: entered from every unscoped buffer at the contents of boundary 5,
   left at those of boundary 6. Its windows' arrays are split out of the unscoped buffers on entry and put back at
   their exit contents; the generator register passes through the region's invariant; nothing is owed; the kernel has
   no semaphore of its own. -/
import proofs.«107201_j32822140076800_2_alg».proof.Proof.KFold

set_option maxRecDepth 16384

noncomputable section

namespace Cert.Kernel.Run

open Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 0 over the thread state: entered from every unscoped buffer at `W5`, left at `W6`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (Vt5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vt5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vt5 m ρ c) (Vt6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KSeg1.lean ====
/- Region 1 of the program as a segment of the run: entered from every unscoped buffer at the contents of boundary 7,
   left at those of boundary 8. Its windows' arrays are split out of the unscoped buffers on entry and put back at
   their exit contents; the generator register passes through the region's invariant; nothing is owed; the kernel has
   no semaphore of its own. -/
import proofs.«107201_j32822140076800_2_alg».proof.Proof.KFold

set_option maxRecDepth 16384

noncomputable section

namespace Cert.Kernel.Run

open Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 1 over the thread state: entered from every unscoped buffer at `W7`, left at `W8`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (Vt7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vt7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vt7 m ρ c) (Vt8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KSeg2.lean ====
/- Region 2 of the program as a segment of the run: entered from every unscoped buffer at the contents of boundary 9,
   left at those of boundary 10. Its windows' arrays are split out of the unscoped buffers on entry and put back at
   their exit contents; the generator register passes through the region's invariant; nothing is owed; the kernel has
   no semaphore of its own. -/
import proofs.«107201_j32822140076800_2_alg».proof.Proof.KFold

set_option maxRecDepth 16384

noncomputable section

namespace Cert.Kernel.Run

open Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 2 over the thread state: entered from every unscoped buffer at `W9`, left at `W10`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (Vt9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vt9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vt9 m ρ c) (Vt10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KSeg3.lean ====
/- Region 3 of the program as a segment of the run: entered from every unscoped buffer at the contents of boundary 11,
   left at those of boundary 12. Its windows' arrays are split out of the unscoped buffers on entry and put back at
   their exit contents; the generator register passes through the region's invariant; nothing is owed; the kernel has
   no semaphore of its own. -/
import proofs.«107201_j32822140076800_2_alg».proof.Proof.KFold

set_option maxRecDepth 16384

noncomputable section

namespace Cert.Kernel.Run

open Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 3 over the thread state: entered from every unscoped buffer at `W11`, left at `W12`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vt11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (Vt11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vt11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vt11 m ρ c) (Vt12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KSeg4.lean ====
/- Region 4 of the program as a segment of the run: entered from every unscoped buffer at the contents of boundary 13,
   left at those of boundary 14. Its windows' arrays are split out of the unscoped buffers on entry and put back at
   their exit contents; the generator register passes through the region's invariant; nothing is owed; the kernel has
   no semaphore of its own. -/
import proofs.«107201_j32822140076800_2_alg».proof.Proof.KFold

set_option maxRecDepth 16384

noncomputable section

namespace Cert.Kernel.Run

open Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 4 over the thread state: entered from every unscoped buffer at `W13`, left at `W14`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vt13 m ρ) c).loose
  hwaits := Pipeline.hwaits_of_owed_zero _ _ _ _ L lv 4 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec4 c (Vt13 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vt13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vt13 m ρ c) (Vt14 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KSeg5.lean ====
/- Region 5 of the program as a segment of the run: entered from every unscoped buffer at the contents of boundary 15,
   left at those of boundary 16. Its windows' arrays are split out of the unscoped buffers on entry and put back at
   their exit contents; the generator register passes through the region's invariant; nothing is owed; the kernel has
   no semaphore of its own. -/
import proofs.«107201_j32822140076800_2_alg».proof.Proof.KFold

set_option maxRecDepth 16384

noncomputable section

namespace Cert.Kernel.Run

open Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 5 over the thread state: entered from every unscoped buffer at `W15`, left at `W16`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vt15 m ρ) c).loose
  hwaits := Pipeline.hwaits_of_owed_zero _ _ _ _ L lv 5 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec5 c (Vt15 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vt15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vt15 m ρ c) (Vt16 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KSeg6.lean ====
/- Region 6 of the program as a segment of the run: entered from every unscoped buffer at the contents of boundary 17,
   left at those of boundary 18. Its windows' arrays are split out of the unscoped buffers on entry and put back at
   their exit contents; the generator register passes through the region's invariant; nothing is owed; the kernel has
   no semaphore of its own. -/
import proofs.«107201_j32822140076800_2_alg».proof.Proof.KFold

set_option maxRecDepth 16384

noncomputable section

namespace Cert.Kernel.Run

open Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 6 over the thread state: entered from every unscoped buffer at `W17`, left at `W18`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vt17 m ρ) c).loose
  hwaits := Pipeline.hwaits_of_owed_zero _ _ _ _ L lv 6 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec6 c (Vt17 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vt17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vt17 m ρ c) (Vt18 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KSeg7.lean ====
/- Region 7 of the program as a segment of the run: entered from every unscoped buffer at the contents of boundary 19,
   left at those of boundary 20. Its windows' arrays are split out of the unscoped buffers on entry and put back at
   their exit contents; the generator register passes through the region's invariant; nothing is owed; the kernel has
   no semaphore of its own. -/
import proofs.«107201_j32822140076800_2_alg».proof.Proof.KFold

set_option maxRecDepth 16384

noncomputable section

namespace Cert.Kernel.Run

open Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 7 over the thread state: entered from every unscoped buffer at `W19`, left at `W20`. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vt19 m ρ) c).loose
  hwaits := Pipeline.hwaits_of_owed_zero _ _ _ _ L lv 7 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec7 c (Vt19 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (Vt19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (Vt19 m ρ c) (Vt20 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KSeg8.lean ====
/- Region 8 of the program as a segment of the run: entered from every unscoped buffer at the contents of boundary 21,
   left at those of boundary 22. Its windows' arrays are split out of the unscoped buffers on entry and put back at
   their exit contents; the generator register passes through the region's invariant; nothing is owed; the kernel has
   no semaphore of its own. -/
import proofs.«107201_j32822140076800_2_alg».proof.Proof.KFold

set_option maxRecDepth 16384

noncomputable section

namespace Cert.Kernel.Run

open Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 8 over the thread state: entered from every unscoped buffer at `W21`, left at `W22`. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vt21 m ρ) c).loose
  hwaits := Pipeline.hwaits_of_owed_zero _ _ _ _ L lv 8 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec8 c (Vt21 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (Vt21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (Vt21 m ρ c) (Vt22 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KSeg9.lean ====
/- Region 9 of the program as a segment of the run: entered from every unscoped buffer at the contents of boundary 23,
   left at those of boundary 24. Its windows' arrays are split out of the unscoped buffers on entry and put back at
   their exit contents; the generator register passes through the region's invariant; nothing is owed; the kernel has
   no semaphore of its own. -/
import proofs.«107201_j32822140076800_2_alg».proof.Proof.KFold

set_option maxRecDepth 16384

noncomputable section

namespace Cert.Kernel.Run

open Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 9 over the thread state: entered from every unscoped buffer at `W23`, left at `W24`. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vt23 m ρ) c).loose
  hwaits := Pipeline.hwaits_of_owed_zero _ _ _ _ L lv 9 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec9 c (Vt23 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (Vt23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (Vt23 m ρ c) (Vt24 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KSeg10.lean ====
/- Region 10 of the program as a segment of the run: entered from every unscoped buffer at the contents of boundary 25,
   left at those of boundary 26. Its windows' arrays are split out of the unscoped buffers on entry and put back at
   their exit contents; the generator register passes through the region's invariant; nothing is owed; the kernel has
   no semaphore of its own. -/
import proofs.«107201_j32822140076800_2_alg».proof.Proof.KFold

set_option maxRecDepth 16384

noncomputable section

namespace Cert.Kernel.Run

open Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 10 over the thread state: entered from every unscoped buffer at `W25`, left at `W26`. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vt25 m ρ) c).loose
  hwaits := Pipeline.hwaits_of_owed_zero _ _ _ _ L lv 10 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec10 c (Vt25 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (Vt25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (Vt25 m ρ c) (Vt26 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KSeg11.lean ====
/- Region 11 of the program as a segment of the run: entered from every unscoped buffer at the contents of boundary 27,
   left at those of boundary 28. Its windows' arrays are split out of the unscoped buffers on entry and put back at
   their exit contents; the generator register passes through the region's invariant; nothing is owed; the kernel has
   no semaphore of its own. -/
import proofs.«107201_j32822140076800_2_alg».proof.Proof.KFold

set_option maxRecDepth 16384

noncomputable section

namespace Cert.Kernel.Run

open Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 11 over the thread state: entered from every unscoped buffer at `W27`, left at `W28`. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vt27 m ρ) c).loose
  hwaits := Pipeline.hwaits_of_owed_zero _ _ _ _ L lv 11 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec11 c (Vt27 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (Vt27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (Vt27 m ρ c) (Vt28 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KRun.lean ====
/- The program's run as one statement: @main is the run of its 29 items in order, so from any memory with zero
   counters every weakly fair execution terminates, nothing faulting, and the final memory holds every unscoped buffer
   at the last boundary's contents `W29`. The frame statement (every argument array ends as launched) follows by reading
   each argument's buffer back through the fold. -/
import proofs.«107201_j32822140076800_2_alg».proof.Proof.KFold
import proofs.«107201_j32822140076800_2_alg».proof.Proof.KSeg0
import proofs.«107201_j32822140076800_2_alg».proof.Proof.KSeg1
import proofs.«107201_j32822140076800_2_alg».proof.Proof.KSeg2
import proofs.«107201_j32822140076800_2_alg».proof.Proof.KSeg3
import proofs.«107201_j32822140076800_2_alg».proof.Proof.KSeg4
import proofs.«107201_j32822140076800_2_alg».proof.Proof.KSeg5
import proofs.«107201_j32822140076800_2_alg».proof.Proof.KSeg6
import proofs.«107201_j32822140076800_2_alg».proof.Proof.KSeg7
import proofs.«107201_j32822140076800_2_alg».proof.Proof.KSeg8
import proofs.«107201_j32822140076800_2_alg».proof.Proof.KSeg9
import proofs.«107201_j32822140076800_2_alg».proof.Proof.KSeg10
import proofs.«107201_j32822140076800_2_alg».proof.Proof.KSeg11

set_option maxRecDepth 16384

noncomputable section

namespace Cert.Kernel.Run

open Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 29 items in order: a host segment per stretch from its boundary's contents, a region per kernel call. -/
abbrev ksegs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .region (reg3 m ρ),
    .host (hseg hostOps4 hostOps4_sub hostOps4_fresh (W12 m ρ)),
    .region (reg4 m ρ),
    .host (hseg hostOps5 hostOps5_sub hostOps5_fresh (W14 m ρ)),
    .region (reg5 m ρ),
    .host (hseg hostOps6 hostOps6_sub hostOps6_fresh (W16 m ρ)),
    .region (reg6 m ρ),
    .host (hseg hostOps7 hostOps7_sub hostOps7_fresh (W18 m ρ)),
    .region (reg7 m ρ),
    .host (hseg hostOps8 hostOps8_sub hostOps8_fresh (W20 m ρ)),
    .region (reg8 m ρ),
    .host (hseg hostOps9 hostOps9_sub hostOps9_fresh (W22 m ρ)),
    .region (reg9 m ρ),
    .host (hseg hostOps10 hostOps10_sub hostOps10_fresh (W24 m ρ)),
    .region (reg10 m ρ),
    .host (hseg hostOps11 hostOps11_sub hostOps11_fresh (W26 m ρ)),
    .region (reg11 m ρ),
    .host (hseg hostOps12 hostOps12_sub hostOps12_fresh (W28 m ρ)) ]

/-- @main is the run of the items: it is the chain of their programs, and the items' run unfolds to the same chain. -/
theorem main_run (c : Dev nD) : main (F := F) c = Pipeline.Seg.run (ksegs m ρ) := (main_chain c).trans (by chain_rfl)

-- the launch theorem's implicit arguments are found by unifying its conclusion with this one, which takes unfolding
-- plain definitions in a metavariable's type
set_option backward.isDefEq.respectTransparency.types false in
/-- From any memory with zero counters every weakly fair execution of @main terminates, nothing faulting, and every
    final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W29 m ρ c b) :=
  Pipeline.θ_run_regions_kit (pcfgs (F := F)) adm (pdats m ρ) () cellOf_inj emb₁ defs₀ 𝒱₀ L lv m ρ main (ksegs m ρ)
    (fun c Q => by rw [main_run m ρ c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W29 m ρ c) ∗ R c) : sProp 𝕄)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h => h)

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W29_main_arg0 m ρ c),
      (h c _ (mem_uc main_arg1 (by decide))).trans (W29_main_arg1 m ρ c),
      (h c _ (mem_uc main_arg2 (by decide))).trans (W29_main_arg2 m ρ c),
      (h c _ (mem_uc main_arg3 (by decide))).trans (W29_main_arg3 m ρ c),
      (h c _ (mem_uc main_arg4 (by decide))).trans (W29_main_arg4 m ρ c),
      (h c _ (mem_uc main_arg5 (by decide))).trans (W29_main_arg5 m ρ c),
      (h c _ (mem_uc main_arg6 (by decide))).trans (W29_main_arg6 m ρ c),
      (h c _ (mem_uc main_arg7 (by decide))).trans (W29_main_arg7 m ρ c),
      (h c _ (mem_uc main_arg8 (by decide))).trans (W29_main_arg8 m ρ c),
      (h c _ (mem_uc main_arg9 (by decide))).trans (W29_main_arg9 m ρ c),
      (h c _ (mem_uc main_arg10 (by decide))).trans (W29_main_arg10 m ρ c),
      (h c _ (mem_uc main_arg11 (by decide))).trans (W29_main_arg11 m ρ c),
      (h c _ (mem_uc main_arg12 (by decide))).trans (W29_main_arg12 m ρ c),
      (h c _ (mem_uc main_arg13 (by decide))).trans (W29_main_arg13 m ρ c),
      (h c _ (mem_uc main_arg14 (by decide))).trans (W29_main_arg14 m ρ c),
      (h c _ (mem_uc main_arg15 (by decide))).trans (W29_main_arg15 m ρ c),
      (h c _ (mem_uc main_arg16 (by decide))).trans (W29_main_arg16 m ρ c)⟩) (run_all m ρ)

end Cert.Kernel.Run

end
-- ==== Proof.KIReg0.lean ====
/- Region 0 of the program: layer 1's projection. The grid has 10 points; point t sees rows [5000·t, 5000·t + 5000) of the [50000, 8] feature array and the whole fused [8, 96] weight matrix (its block index never moves, so it is fetched once), and writes the same rows of the [50000, 96] output: entry (n, j) is the sum over k of x(n, k) · wt(k, j). Here: the body's run on one block, and the bookkeeping that lets the pipeline's launch theorem carry it over all 10 points. -/
import proofs.«107201_j32822140076800_2_alg».proof.Proof.Gen.KernelIdeal.Launch
import proofs.«107201_j32822140076800_2_alg».proof.Proof.Gen.KernelIdeal.Skeleton
import proofs.«107201_j32822140076800_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every grid point, whether or not the block was fetched there: where it is not fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every grid point, whether or not the block was fetched there: where it is not fetched the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The whole-block rectangles the body loads and stores through -/

abbrev r0_S5000x8 : Rect S5000x8 := Rect.unit (s := S5000x8) ![0, 0] S5000x8.size inb_S5000x8_S5000x8_0_0
abbrev r0_S8x96 : Rect S8x96 := Rect.unit (s := S8x96) ![0, 0] S8x96.size inb_S8x96_S8x96_0_0
abbrev r0_S5000x96 : Rect S5000x96 := Rect.unit (s := S5000x96) ![0, 0] S5000x96.size inb_S5000x96_S5000x96_0_0

/-- What the body leaves in the output block: its single store, of the body's pure function of the loaded input blocks. -/
def out0_2 (x0 : Vec F S5000x8 .f32) (x1 : Vec F S8x96 .f32) : Vec F S5000x96 .f32 :=
  View.canon [⟨r0_S5000x96, k0_pay1 (View.ld x0 r0_S5000x8) (View.ld x1 r0_S8x96)⟩]

/-- The single store covers the whole output block. -/
theorem cover0_2 (p0 : Vec F S5000x96 .f32) (y : S5000x96.Idx) :
    ∃ pc ∈ ([⟨r0_S5000x96, p0⟩] : List (View.Piece (Elt F) S5000x96 .f32)), y ∈ pc.1.set :=
  View.cover_of_tiled [⟨r0_S5000x96, p0⟩] S5000x96.size (by rfl) y

set_option maxHeartbeats 1000000 in
/-- The body, run on whole staging buffers holding `x` (inputs) and anything (output), ends with the inputs as they were and the output block at `out0_2` of them. -/
theorem sound_kernel0 (c : Dev nD) (E : Set ℕ) (i : grid0.Coords) (arg0 : Memref sig .tc .vmem S5000x8 .f32) (harg0 : arg0.IsWhole) (arg1 : Memref sig .tc .vmem S8x96 .f32) (harg1 : arg1.IsWhole) (arg2 : Memref sig .tc .vmem S5000x96 .f32) (harg2 : arg2.IsWhole)
    (x0 : Vec F S5000x8 .f32) (x1 : Vec F S8x96 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input buffer still holds its block and the output buffer holds `out0_2` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic grid point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any grid point the input buffers hold their blocks, so the body's triple applies; the invariant and the core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KIReg1.lean ====
/- Region 1 of the program: the edge-message scaling of layer 1's up direction. The grid has 200 points; point t sees rows [8000·t, 8000·t + 8000) of the gathered [1600000, 32] feature array and of the [1600000, 1] weight column, and writes the same rows of the output: entry (e, q) is gathered(e, q) · w(e, 0). Here: the body's run on one block, and the bookkeeping that lets the pipeline's launch theorem carry it over all 200 points. -/
import proofs.«107201_j32822140076800_2_alg».proof.Proof.Gen.KernelIdeal.Launch
import proofs.«107201_j32822140076800_2_alg».proof.Proof.Gen.KernelIdeal.Skeleton
import proofs.«107201_j32822140076800_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every grid point, whether or not the block was fetched there: where it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every grid point, whether or not the block was fetched there: where it is not fetched the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The whole-block rectangles the body loads and stores through -/

abbrev r1_S8000x32 : Rect S8000x32 := Rect.unit (s := S8000x32) ![0, 0] S8000x32.size inb_S8000x32_S8000x32_0_0
abbrev r1_S8000x1 : Rect S8000x1 := Rect.unit (s := S8000x1) ![0, 0] S8000x1.size inb_S8000x1_S8000x1_0_0

/-- What the body leaves in the output block: its single store, of the body's pure function of the loaded input blocks. -/
def out1_2 (x0 : Vec F S8000x32 .f32) (x1 : Vec F S8000x1 .f32) : Vec F S8000x32 .f32 :=
  View.canon [⟨r1_S8000x32, k1_pay1 (View.ld x0 r1_S8000x32) (View.ld x1 r1_S8000x1)⟩]

/-- The single store covers the whole output block. -/
theorem cover1_2 (p0 : Vec F S8000x32 .f32) (y : S8000x32.Idx) :
    ∃ pc ∈ ([⟨r1_S8000x32, p0⟩] : List (View.Piece (Elt F) S8000x32 .f32)), y ∈ pc.1.set :=
  View.cover_of_tiled [⟨r1_S8000x32, p0⟩] S8000x32.size (by rfl) y

set_option maxHeartbeats 1000000 in
/-- The body, run on whole staging buffers holding `x` (inputs) and anything (output), ends with the inputs as they were and the output block at `out1_2` of them. -/
theorem sound_kernel1 (c : Dev nD) (E : Set ℕ) (i : grid1.Coords) (arg0 : Memref sig .tc .vmem S8000x32 .f32) (harg0 : arg0.IsWhole) (arg1 : Memref sig .tc .vmem S8000x1 .f32) (harg1 : arg1.IsWhole) (arg2 : Memref sig .tc .vmem S8000x32 .f32) (harg2 : arg2.IsWhole)
    (x0 : Vec F S8000x32 .f32) (x1 : Vec F S8000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__scale_kernel i arg0 harg0 arg1 harg1 arg2 harg2) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The arrays as the region finds them; after the body at point `t` each input buffer still holds its block and the output buffer holds `out1_2` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation at a generic grid point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At any grid point the input buffers hold their blocks, so the body's triple applies; the invariant and the core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KIReg2.lean ====
/- Region 2 of the program: the edge-message scaling of layer 1's down direction. The grid has 200 points; point t sees rows [8000·t, 8000·t + 8000) of the gathered [1600000, 32] feature array and of the [1600000, 1] weight column, and writes the same rows of the output: entry (e, q) is gathered(e, q) · w(e, 0). Here: the body's run on one block, and the bookkeeping that lets the pipeline's launch theorem carry it over all 200 points. -/
import proofs.«107201_j32822140076800_2_alg».proof.Proof.Gen.KernelIdeal.Launch
import proofs.«107201_j32822140076800_2_alg».proof.Proof.Gen.KernelIdeal.Skeleton
import proofs.«107201_j32822140076800_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every grid point, whether or not the block was fetched there: where it is not fetched the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every grid point, whether or not the block was fetched there: where it is not fetched the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The whole-block rectangles the body loads and stores through -/

abbrev r2_S8000x32 : Rect S8000x32 := Rect.unit (s := S8000x32) ![0, 0] S8000x32.size inb_S8000x32_S8000x32_0_0
abbrev r2_S8000x1 : Rect S8000x1 := Rect.unit (s := S8000x1) ![0, 0] S8000x1.size inb_S8000x1_S8000x1_0_0

/-- What the body leaves in the output block: its single store, of the body's pure function of the loaded input blocks. -/
def out2_2 (x0 : Vec F S8000x32 .f32) (x1 : Vec F S8000x1 .f32) : Vec F S8000x32 .f32 :=
  View.canon [⟨r2_S8000x32, k2_pay1 (View.ld x0 r2_S8000x32) (View.ld x1 r2_S8000x1)⟩]

/-- The single store covers the whole output block. -/
theorem cover2_2 (p0 : Vec F S8000x32 .f32) (y : S8000x32.Idx) :
    ∃ pc ∈ ([⟨r2_S8000x32, p0⟩] : List (View.Piece (Elt F) S8000x32 .f32)), y ∈ pc.1.set :=
  View.cover_of_tiled [⟨r2_S8000x32, p0⟩] S8000x32.size (by rfl) y

set_option maxHeartbeats 1000000 in
/-- The body, run on whole staging buffers holding `x` (inputs) and anything (output), ends with the inputs as they were and the output block at `out2_2` of them. -/
theorem sound_kernel2 (c : Dev nD) (E : Set ℕ) (i : grid2.Coords) (arg0 : Memref sig .tc .vmem S8000x32 .f32) (harg0 : arg0.IsWhole) (arg1 : Memref sig .tc .vmem S8000x1 .f32) (harg1 : arg1.IsWhole) (arg2 : Memref sig .tc .vmem S8000x32 .f32) (harg2 : arg2.IsWhole)
    (x0 : Vec F S8000x32 .f32) (x1 : Vec F S8000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__scale_kernel i arg0 harg0 arg1 harg1 arg2 harg2) K := by
  simp only [cc2__scale_kernel_eq_skeleton]; unfold cc2__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the region finds them; after the body at point `t` each input buffer still holds its block and the output buffer holds `out2_2` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation at a generic grid point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- At any grid point the input buffers hold their blocks, so the body's triple applies; the invariant and the core's dues pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.KIReg3.lean ====
/- Region 3 of the program: layer 1's row normalisation and activation. The grid has 5 points; point t sees rows [10000·t, 10000·t + 10000) of the concatenated [50000, 96] array and writes the same rows of the output: each row is divided by the larger of its Euclidean norm and a small positive constant, and an entry y that is not positive is replaced by a tenth of itself. Here: the body's run on one block, and the bookkeeping that lets the pipeline's launch theorem carry it over all 5 points. -/
import proofs.«107201_j32822140076800_2_alg».proof.Proof.Gen.KernelIdeal.Launch
import proofs.«107201_j32822140076800_2_alg».proof.Proof.Gen.KernelIdeal.Skeleton
import proofs.«107201_j32822140076800_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every grid point, whether or not the block was fetched there: where it is not fetched the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The whole-block rectangles the body loads and stores through -/

abbrev r3_S10000x96 : Rect S10000x96 := Rect.unit (s := S10000x96) ![0, 0] S10000x96.size inb_S10000x96_S10000x96_0_0

/-- What the body leaves in the output block: its single store, of the body's pure function of the loaded input blocks. -/
def out3_1 (x0 : Vec F S10000x96 .f32) : Vec F S10000x96 .f32 :=
  View.canon [⟨r3_S10000x96, k3_pay1 (View.ld x0 r3_S10000x96)⟩]

/-- The single store covers the whole output block. -/
theorem cover3_1 (p0 : Vec F S10000x96 .f32) (y : S10000x96.Idx) :
    ∃ pc ∈ ([⟨r3_S10000x96, p0⟩] : List (View.Piece (Elt F) S10000x96 .f32)), y ∈ pc.1.set :=
  View.cover_of_tiled [⟨r3_S10000x96, p0⟩] S10000x96.size (by rfl) y

set_option maxHeartbeats 1000000 in
/-- The body, run on whole staging buffers holding `x` (inputs) and anything (output), ends with the inputs as they were and the output block at `out3_1` of them. -/
theorem sound_kernel3 (c : Dev nD) (E : Set ℕ) (i : grid3.Coords) (arg0 : Memref sig .tc .vmem S10000x96 .f32) (harg0 : arg0.IsWhole) (arg1 : Memref sig .tc .vmem S10000x96 .f32) (harg1 : arg1.IsWhole)
    (x0 : Vec F S10000x96 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out3_1 x0)) -∗ K ⟨⟩))
      ⊢ wp frame (wpE (defs₀ (F := F)) Variants.none c none) E (cc3__norm_act_kernel i arg0 harg0 arg1 harg1) K := by
  simp only [cc3__norm_act_kernel_eq_skeleton]; unfold cc3__norm_act_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-! ## The pipeline's proof data -/

/-- The arrays as the region finds them; after the body at point `t` each input buffer still holds its block and the output buffer holds `out3_1` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

/-! ## The body obligation at a generic grid point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- At any grid point the input buffers hold their blocks, so the body's triple applies; the invariant and the core's dues pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.KIReg4.lean ====
/- Region 4 of the program: layer 2's projection. The grid has 10 points; point t sees rows [5000·t, 5000·t + 5000) of the [50000, 96] feature array and the whole fused [96, 96] weight matrix (its block index never moves, so it is fetched once), and writes the same rows of the [50000, 96] output: entry (n, j) is the sum over k of x(n, k) · wt(k, j). Here: the body's run on one block, and the bookkeeping that lets the pipeline's launch theorem carry it over all 10 points. -/
import proofs.«107201_j32822140076800_2_alg».proof.Proof.Gen.KernelIdeal.Launch
import proofs.«107201_j32822140076800_2_alg».proof.Proof.Gen.KernelIdeal.Skeleton
import proofs.«107201_j32822140076800_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every grid point, whether or not the block was fetched there: where it is not fetched the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every grid point, whether or not the block was fetched there: where it is not fetched the block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The whole-block rectangles the body loads and stores through -/

abbrev r4_S5000x96 : Rect S5000x96 := Rect.unit (s := S5000x96) ![0, 0] S5000x96.size inb_S5000x96_S5000x96_0_0
abbrev r4_S96x96 : Rect S96x96 := Rect.unit (s := S96x96) ![0, 0] S96x96.size inb_S96x96_S96x96_0_0

/-- What the body leaves in the output block: its single store, of the body's pure function of the loaded input blocks. -/
def out4_2 (x0 : Vec F S5000x96 .f32) (x1 : Vec F S96x96 .f32) : Vec F S5000x96 .f32 :=
  View.canon [⟨r4_S5000x96, k4_pay1 (View.ld x0 r4_S5000x96) (View.ld x1 r4_S96x96)⟩]

/-- The single store covers the whole output block. -/
theorem cover4_2 (p0 : Vec F S5000x96 .f32) (y : S5000x96.Idx) :
    ∃ pc ∈ ([⟨r4_S5000x96, p0⟩] : List (View.Piece (Elt F) S5000x96 .f32)), y ∈ pc.1.set :=
  View.cover_of_tiled [⟨r4_S5000x96, p0⟩] S5000x96.size (by rfl) y

set_option maxHeartbeats 1000000 in
/-- The body, run on whole staging buffers holding `x` (inputs) and anything (output), ends with the inputs as they were and the output block at `out4_2` of them. -/
theorem sound_kernel4 (c : Dev nD) (E : Set ℕ) (i : grid4.Coords) (arg0 : Memref sig .tc .vmem S5000x96 .f32) (harg0 : arg0.IsWhole) (arg1 : Memref sig .tc .vmem S96x96 .f32) (harg1 : arg1.IsWhole) (arg2 : Memref sig .tc .vmem S5000x96 .f32) (harg2 : arg2.IsWhole)
    (x0 : Vec F S5000x96 .f32) (x1 : Vec F S96x96 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__matmul_kernel i arg0 harg0 arg1 harg1 arg2 harg2) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The arrays as the region finds them; after the body at point `t` each input buffer still holds its block and the output buffer holds `out4_2` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation at a generic grid point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- At any grid point the input buffers hold their blocks, so the body's triple applies; the invariant and the core's dues pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Reg

end
-- ==== Proof.KIReg5.lean ====
/- Region 5 of the program: the edge-message scaling of layer 2's up direction. The grid has 200 points; point t sees rows [8000·t, 8000·t + 8000) of the gathered [1600000, 32] feature array and of the [1600000, 1] weight column, and writes the same rows of the output: entry (e, q) is gathered(e, q) · w(e, 0). Here: the body's run on one block, and the bookkeeping that lets the pipeline's launch theorem carry it over all 200 points. -/
import proofs.«107201_j32822140076800_2_alg».proof.Proof.Gen.KernelIdeal.Launch
import proofs.«107201_j32822140076800_2_alg».proof.Proof.Gen.KernelIdeal.Skeleton
import proofs.«107201_j32822140076800_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every grid point, whether or not the block was fetched there: where it is not fetched the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every grid point, whether or not the block was fetched there: where it is not fetched the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The whole-block rectangles the body loads and stores through -/

abbrev r5_S8000x32 : Rect S8000x32 := Rect.unit (s := S8000x32) ![0, 0] S8000x32.size inb_S8000x32_S8000x32_0_0
abbrev r5_S8000x1 : Rect S8000x1 := Rect.unit (s := S8000x1) ![0, 0] S8000x1.size inb_S8000x1_S8000x1_0_0

/-- What the body leaves in the output block: its single store, of the body's pure function of the loaded input blocks. -/
def out5_2 (x0 : Vec F S8000x32 .f32) (x1 : Vec F S8000x1 .f32) : Vec F S8000x32 .f32 :=
  View.canon [⟨r5_S8000x32, k5_pay1 (View.ld x0 r5_S8000x32) (View.ld x1 r5_S8000x1)⟩]

/-- The single store covers the whole output block. -/
theorem cover5_2 (p0 : Vec F S8000x32 .f32) (y : S8000x32.Idx) :
    ∃ pc ∈ ([⟨r5_S8000x32, p0⟩] : List (View.Piece (Elt F) S8000x32 .f32)), y ∈ pc.1.set :=
  View.cover_of_tiled [⟨r5_S8000x32, p0⟩] S8000x32.size (by rfl) y

set_option maxHeartbeats 1000000 in
/-- The body, run on whole staging buffers holding `x` (inputs) and anything (output), ends with the inputs as they were and the output block at `out5_2` of them. -/
theorem sound_kernel5 (c : Dev nD) (E : Set ℕ) (i : grid5.Coords) (arg0 : Memref sig .tc .vmem S8000x32 .f32) (harg0 : arg0.IsWhole) (arg1 : Memref sig .tc .vmem S8000x1 .f32) (harg1 : arg1.IsWhole) (arg2 : Memref sig .tc .vmem S8000x32 .f32) (harg2 : arg2.IsWhole)
    (x0 : Vec F S8000x32 .f32) (x1 : Vec F S8000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5__scale_kernel i arg0 harg0 arg1 harg1 arg2 harg2) K := by
  simp only [cc5__scale_kernel_eq_skeleton]; unfold cc5__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The arrays as the region finds them; after the body at point `t` each input buffer still holds its block and the output buffer holds `out5_2` of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation at a generic grid point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- At any grid point the input buffers hold their blocks, so the body's triple applies; the invariant and the core's dues pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.KernelIdeal.Reg

end
-- ==== Proof.KIReg6.lean ====
/- Region 6 of the program: the edge-message scaling of layer 2's down direction. The grid has 200 points; point t sees rows [8000·t, 8000·t + 8000) of the gathered [1600000, 32] feature array and of the [1600000, 1] weight column, and writes the same rows of the output: entry (e, q) is gathered(e, q) · w(e, 0). Here: the body's run on one block, and the bookkeeping that lets the pipeline's launch theorem carry it over all 200 points. -/
import proofs.«107201_j32822140076800_2_alg».proof.Proof.Gen.KernelIdeal.Launch
import proofs.«107201_j32822140076800_2_alg».proof.Proof.Gen.KernelIdeal.Skeleton
import proofs.«107201_j32822140076800_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every grid point, whether or not the block was fetched there: where it is not fetched the block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every grid point, whether or not the block was fetched there: where it is not fetched the block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The whole-block rectangles the body loads and stores through -/

abbrev r6_S8000x32 : Rect S8000x32 := Rect.unit (s := S8000x32) ![0, 0] S8000x32.size inb_S8000x32_S8000x32_0_0
abbrev r6_S8000x1 : Rect S8000x1 := Rect.unit (s := S8000x1) ![0, 0] S8000x1.size inb_S8000x1_S8000x1_0_0

/-- What the body leaves in the output block: its single store, of the body's pure function of the loaded input blocks. -/
def out6_2 (x0 : Vec F S8000x32 .f32) (x1 : Vec F S8000x1 .f32) : Vec F S8000x32 .f32 :=
  View.canon [⟨r6_S8000x32, k6_pay1 (View.ld x0 r6_S8000x32) (View.ld x1 r6_S8000x1)⟩]

/-- The single store covers the whole output block. -/
theorem cover6_2 (p0 : Vec F S8000x32 .f32) (y : S8000x32.Idx) :
    ∃ pc ∈ ([⟨r6_S8000x32, p0⟩] : List (View.Piece (Elt F) S8000x32 .f32)), y ∈ pc.1.set :=
  View.cover_of_tiled [⟨r6_S8000x32, p0⟩] S8000x32.size (by rfl) y

set_option maxHeartbeats 1000000 in
/-- The body, run on whole staging buffers holding `x` (inputs) and anything (output), ends with the inputs as they were and the output block at `out6_2` of them. -/
theorem sound_kernel6 (c : Dev nD) (E : Set ℕ) (i : grid6.Coords) (arg0 : Memref sig .tc .vmem S8000x32 .f32) (harg0 : arg0.IsWhole) (arg1 : Memref sig .tc .vmem S8000x1 .f32) (harg1 : arg1.IsWhole) (arg2 : Memref sig .tc .vmem S8000x32 .f32) (harg2 : arg2.IsWhole)
    (x0 : Vec F S8000x32 .f32) (x1 : Vec F S8000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out6_2 x0 x1)) -∗ K ⟨⟩))
      ⊢ wp frame (wpE (defs₀ (F := F)) Variants.none c none) E (cc6__scale_kernel i arg0 harg0 arg1 harg1 arg2 harg2) K := by
  simp only [cc6__scale_kernel_eq_skeleton]; unfold cc6__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The arrays as the region finds them; after the body at point `t` each input buffer still holds its block and the output buffer holds `out6_2` of the input blocks; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation at a generic grid point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- At any grid point the input buffers hold their blocks, so the body's triple applies; the invariant and the core's dues pass through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.KernelIdeal.Reg

end
-- ==== Proof.KIReg7.lean ====
/- Region 7 of the program: layer 2's row normalisation and activation. The grid has 5 points; point t sees rows [10000·t, 10000·t + 10000) of the concatenated [50000, 96] array and writes the same rows of the output: each row is divided by the larger of its Euclidean norm and a small positive constant, and an entry y that is not positive is replaced by a tenth of itself. Here: the body's run on one block, and the bookkeeping that lets the pipeline's launch theorem carry it over all 5 points. -/
import proofs.«107201_j32822140076800_2_alg».proof.Proof.Gen.KernelIdeal.Launch
import proofs.«107201_j32822140076800_2_alg».proof.Proof.Gen.KernelIdeal.Skeleton
import proofs.«107201_j32822140076800_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every grid point, whether or not the block was fetched there: where it is not fetched the block index has not moved. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## The whole-block rectangles the body loads and stores through -/

abbrev r7_S10000x96 : Rect S10000x96 := Rect.unit (s := S10000x96) ![0, 0] S10000x96.size inb_S10000x96_S10000x96_0_0

/-- What the body leaves in the output block: its single store, of the body's pure function of the loaded input blocks. -/
def out7_1 (x0 : Vec F S10000x96 .f32) : Vec F S10000x96 .f32 :=
  View.canon [⟨r7_S10000x96, k7_pay1 (View.ld x0 r7_S10000x96)⟩]

/-- The single store covers the whole output block. -/
theorem cover7_1 (p0 : Vec F S10000x96 .f32) (y : S10000x96.Idx) :
    ∃ pc ∈ ([⟨r7_S10000x96, p0⟩] : List (View.Piece (Elt F) S10000x96 .f32)), y ∈ pc.1.set :=
  View.cover_of_tiled [⟨r7_S10000x96, p0⟩] S10000x96.size (by rfl) y

set_option maxHeartbeats 1000000 in
/-- The body, run on whole staging buffers holding `x` (inputs) and anything (output), ends with the inputs as they were and the output block at `out7_1` of them. -/
theorem sound_kernel7 (c : Dev nD) (E : Set ℕ) (i : grid7.Coords) (arg0 : Memref sig .tc .vmem S10000x96 .f32) (harg0 : arg0.IsWhole) (arg1 : Memref sig .tc .vmem S10000x96 .f32) (harg1 : arg1.IsWhole)
    (x0 : Vec F S10000x96 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out7_1 x0)) -∗ K ⟨⟩))
      ⊢ wp frame (wpE (defs₀ (F := F)) Variants.none c none) E (cc7__norm_act_kernel i arg0 harg0 arg1 harg1) K := by
  simp only [cc7__norm_act_kernel_eq_skeleton]; unfold cc7__norm_act_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover7_1 _)

/-! ## The pipeline's proof data -/

/-- The arrays as the region finds them; after the body at point `t` each input buffer still holds its block and the output buffer holds `out7_1` of the input blocks; nothing owed, full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => out7_1 (iblk7 V c 0 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = out7_1 (iblk7 V c 0 t) := by dsimp only [dat7]

theorem before7_0 (c : Dev nD) (t : Fin cfg7.N) (d) : (dat7 V c).before 0 t d = iblk7 V c 0 t :=
  before7_0_of V (dat7 V c) (A_eq7 V c 0) (after7_0 V c) t d

/-! ## The body obligation at a generic grid point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t))

/-- At any grid point the input buffers hold their blocks, so the body's triple applies; the invariant and the core's dues pass through untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).Φ t.succ = (dat7 V c).Φ t.castSucc from rfl,
    show (dat7 V c).owesAt () t.succ = (dat7 V c).owesAt () t.castSucc from rfl,
    after7_0, after7_1]
  iintro ⟨HΦ, Ho, ⟨%d0, H0⟩, ⟨%d1, H1⟩⟩
  iapply (sound_kernel7 c Set.univ _ _ _ _ _ (iblk7 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation7 (c : Dev nD) : BodyObligation (dat7 (F := F) V c) (defs₀ (F := F)) Variants.none () Set.univ := fun t => by
  rw [bigSep_W7, bigSep_W7]
  exact sound_body7 V c t

end Cert.KernelIdeal.Reg

end
-- ==== Proof.KIReg8.lean ====
/- Region 8 of the program: layer 3's projection. The grid has 10 points; point t sees rows [5000·t, 5000·t + 5000) of the [50000, 96] feature array and the whole fused [96, 96] weight matrix (its block index never moves, so it is fetched once), and writes the same rows of the [50000, 96] output: entry (n, j) is the sum over k of x(n, k) · wt(k, j). Here: the body's run on one block, and the bookkeeping that lets the pipeline's launch theorem carry it over all 10 points. -/
import proofs.«107201_j32822140076800_2_alg».proof.Proof.Gen.KernelIdeal.Launch
import proofs.«107201_j32822140076800_2_alg».proof.Proof.Gen.KernelIdeal.Skeleton
import proofs.«107201_j32822140076800_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every grid point, whether or not the block was fetched there: where it is not fetched the block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every grid point, whether or not the block was fetched there: where it is not fetched the block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The whole-block rectangles the body loads and stores through -/

abbrev r8_S5000x96 : Rect S5000x96 := Rect.unit (s := S5000x96) ![0, 0] S5000x96.size inb_S5000x96_S5000x96_0_0
abbrev r8_S96x96 : Rect S96x96 := Rect.unit (s := S96x96) ![0, 0] S96x96.size inb_S96x96_S96x96_0_0

/-- What the body leaves in the output block: its single store, of the body's pure function of the loaded input blocks. -/
def out8_2 (x0 : Vec F S5000x96 .f32) (x1 : Vec F S96x96 .f32) : Vec F S5000x96 .f32 :=
  View.canon [⟨r8_S5000x96, k8_pay1 (View.ld x0 r8_S5000x96) (View.ld x1 r8_S96x96)⟩]

/-- The single store covers the whole output block. -/
theorem cover8_2 (p0 : Vec F S5000x96 .f32) (y : S5000x96.Idx) :
    ∃ pc ∈ ([⟨r8_S5000x96, p0⟩] : List (View.Piece (Elt F) S5000x96 .f32)), y ∈ pc.1.set :=
  View.cover_of_tiled [⟨r8_S5000x96, p0⟩] S5000x96.size (by rfl) y

set_option maxHeartbeats 1000000 in
/-- The body, run on whole staging buffers holding `x` (inputs) and anything (output), ends with the inputs as they were and the output block at `out8_2` of them. -/
theorem sound_kernel8 (c : Dev nD) (E : Set ℕ) (i : grid8.Coords) (arg0 : Memref sig .tc .vmem S5000x96 .f32) (harg0 : arg0.IsWhole) (arg1 : Memref sig .tc .vmem S96x96 .f32) (harg1 : arg1.IsWhole) (arg2 : Memref sig .tc .vmem S5000x96 .f32) (harg2 : arg2.IsWhole)
    (x0 : Vec F S5000x96 .f32) (x1 : Vec F S96x96 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out8_2 x0 x1)) -∗ K ⟨⟩))
      ⊢ wp frame (wpE (defs₀ (F := F)) Variants.none c none) E (cc8__matmul_kernel i arg0 harg0 arg1 harg1 arg2 harg2) K := by
  simp only [cc8__matmul_kernel_eq_skeleton]; unfold cc8__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The arrays as the region finds them; after the body at point `t` each input buffer still holds its block and the output buffer holds `out8_2` of the input blocks; nothing owed, full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation at a generic grid point -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- At any grid point the input buffers hold their blocks, so the body's triple applies; the invariant and the core's dues pass through untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation8 (c : Dev nD) : BodyObligation (dat8 (F := F) V c) (defs₀ (F := F)) Variants.none () Set.univ := fun t => by
  rw [bigSep_W8, bigSep_W8]
  exact sound_body8 V c t

end Cert.KernelIdeal.Reg

end
-- ==== Proof.KIReg9.lean ====
/- Region 9 of the program: the edge-message scaling of layer 3's up direction. The grid has 200 points; point t sees rows [8000·t, 8000·t + 8000) of the gathered [1600000, 32] feature array and of the [1600000, 1] weight column, and writes the same rows of the output: entry (e, q) is gathered(e, q) · w(e, 0). Here: the body's run on one block, and the bookkeeping that lets the pipeline's launch theorem carry it over all 200 points. -/
import proofs.«107201_j32822140076800_2_alg».proof.Proof.Gen.KernelIdeal.Launch
import proofs.«107201_j32822140076800_2_alg».proof.Proof.Gen.KernelIdeal.Skeleton
import proofs.«107201_j32822140076800_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every grid point, whether or not the block was fetched there: where it is not fetched the block index has not moved. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every grid point, whether or not the block was fetched there: where it is not fetched the block index has not moved. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The whole-block rectangles the body loads and stores through -/

abbrev r9_S8000x32 : Rect S8000x32 := Rect.unit (s := S8000x32) ![0, 0] S8000x32.size inb_S8000x32_S8000x32_0_0
abbrev r9_S8000x1 : Rect S8000x1 := Rect.unit (s := S8000x1) ![0, 0] S8000x1.size inb_S8000x1_S8000x1_0_0

/-- What the body leaves in the output block: its single store, of the body's pure function of the loaded input blocks. -/
def out9_2 (x0 : Vec F S8000x32 .f32) (x1 : Vec F S8000x1 .f32) : Vec F S8000x32 .f32 :=
  View.canon [⟨r9_S8000x32, k9_pay1 (View.ld x0 r9_S8000x32) (View.ld x1 r9_S8000x1)⟩]

/-- The single store covers the whole output block. -/
theorem cover9_2 (p0 : Vec F S8000x32 .f32) (y : S8000x32.Idx) :
    ∃ pc ∈ ([⟨r9_S8000x32, p0⟩] : List (View.Piece (Elt F) S8000x32 .f32)), y ∈ pc.1.set :=
  View.cover_of_tiled [⟨r9_S8000x32, p0⟩] S8000x32.size (by rfl) y

set_option maxHeartbeats 1000000 in
/-- The body, run on whole staging buffers holding `x` (inputs) and anything (output), ends with the inputs as they were and the output block at `out9_2` of them. -/
theorem sound_kernel9 (c : Dev nD) (E : Set ℕ) (i : grid9.Coords) (arg0 : Memref sig .tc .vmem S8000x32 .f32) (harg0 : arg0.IsWhole) (arg1 : Memref sig .tc .vmem S8000x1 .f32) (harg1 : arg1.IsWhole) (arg2 : Memref sig .tc .vmem S8000x32 .f32) (harg2 : arg2.IsWhole)
    (x0 : Vec F S8000x32 .f32) (x1 : Vec F S8000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out9_2 x0 x1)) -∗ K ⟨⟩))
      ⊢ wp frame (wpE (defs₀ (F := F)) Variants.none c none) E (cc9__scale_kernel i arg0 harg0 arg1 harg1 arg2 harg2) K := by
  simp only [cc9__scale_kernel_eq_skeleton]; unfold cc9__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The arrays as the region finds them; after the body at point `t` each input buffer still holds its block and the output buffer holds `out9_2` of the input blocks; nothing owed, full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation at a generic grid point -/

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- At any grid point the input buffers hold their blocks, so the body's triple applies; the invariant and the core's dues pass through untouched. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation9 (c : Dev nD) : BodyObligation (dat9 (F := F) V c) (defs₀ (F := F)) Variants.none () Set.univ := fun t => by
  rw [bigSep_W9, bigSep_W9]
  exact sound_body9 V c t

end Cert.KernelIdeal.Reg

end
-- ==== Proof.KIReg10.lean ====
/- Region 10 of the program: the edge-message scaling of layer 3's down direction. The grid has 200 points; point t sees rows [8000·t, 8000·t + 8000) of the gathered [1600000, 32] feature array and of the [1600000, 1] weight column, and writes the same rows of the output: entry (e, q) is gathered(e, q) · w(e, 0). Here: the body's run on one block, and the bookkeeping that lets the pipeline's launch theorem carry it over all 200 points. -/
import proofs.«107201_j32822140076800_2_alg».proof.Proof.Gen.KernelIdeal.Launch
import proofs.«107201_j32822140076800_2_alg».proof.Proof.Gen.KernelIdeal.Skeleton
import proofs.«107201_j32822140076800_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's staging buffer holds its block at every grid point, whether or not the block was fetched there: where it is not fetched the block index has not moved. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's staging buffer holds its block at every grid point, whether or not the block was fetched there: where it is not fetched the block index has not moved. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The whole-block rectangles the body loads and stores through -/

abbrev r10_S8000x32 : Rect S8000x32 := Rect.unit (s := S8000x32) ![0, 0] S8000x32.size inb_S8000x32_S8000x32_0_0
abbrev r10_S8000x1 : Rect S8000x1 := Rect.unit (s := S8000x1) ![0, 0] S8000x1.size inb_S8000x1_S8000x1_0_0

/-- What the body leaves in the output block: its single store, of the body's pure function of the loaded input blocks. -/
def out10_2 (x0 : Vec F S8000x32 .f32) (x1 : Vec F S8000x1 .f32) : Vec F S8000x32 .f32 :=
  View.canon [⟨r10_S8000x32, k10_pay1 (View.ld x0 r10_S8000x32) (View.ld x1 r10_S8000x1)⟩]

/-- The single store covers the whole output block. -/
theorem cover10_2 (p0 : Vec F S8000x32 .f32) (y : S8000x32.Idx) :
    ∃ pc ∈ ([⟨r10_S8000x32, p0⟩] : List (View.Piece (Elt F) S8000x32 .f32)), y ∈ pc.1.set :=
  View.cover_of_tiled [⟨r10_S8000x32, p0⟩] S8000x32.size (by rfl) y

set_option maxHeartbeats 1000000 in
/-- The body, run on whole staging buffers holding `x` (inputs) and anything (output), ends with the inputs as they were and the output block at `out10_2` of them. -/
theorem sound_kernel10 (c : Dev nD) (E : Set ℕ) (i : grid10.Coords) (arg0 : Memref sig .tc .vmem S8000x32 .f32) (harg0 : arg0.IsWhole) (arg1 : Memref sig .tc .vmem S8000x1 .f32) (harg1 : arg1.IsWhole) (arg2 : Memref sig .tc .vmem S8000x32 .f32) (harg2 : arg2.IsWhole)
    (x0 : Vec F S8000x32 .f32) (x1 : Vec F S8000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out10_2 x0 x1)) -∗ K ⟨⟩))
      ⊢ wp frame (wpE (defs₀ (F := F)) Variants.none c none) E (cc10__scale_kernel i arg0 harg0 arg1 harg1 arg2 harg2) K := by
  simp only [cc10__scale_kernel_eq_skeleton]; unfold cc10__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The arrays as the region finds them; after the body at point `t` each input buffer still holds its block and the output buffer holds `out10_2` of the input blocks; nothing owed, full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation at a generic grid point -/

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- At any grid point the input buffers hold their blocks, so the body's triple applies; the invariant and the core's dues pass through untouched. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation10 (c : Dev nD) : BodyObligation (dat10 (F := F) V c) (defs₀ (F := F)) Variants.none () Set.univ := fun t => by
  rw [bigSep_W10, bigSep_W10]
  exact sound_body10 V c t

end Cert.KernelIdeal.Reg

end
-- ==== Proof.KIReg11.lean ====
/- Region 11 of the program: layer 3's row normalisation and activation. The grid has 5 points; point t sees rows [10000·t, 10000·t + 10000) of the concatenated [50000, 96] array and writes the same rows of the output: each row is divided by the larger of its Euclidean norm and a small positive constant, and an entry y that is not positive is replaced by a tenth of itself. Here: the body's run on one block, and the bookkeeping that lets the pipeline's launch theorem carry it over all 5 points. -/
import proofs.«107201_j32822140076800_2_alg».proof.Proof.Gen.KernelIdeal.Launch
import proofs.«107201_j32822140076800_2_alg».proof.Proof.Gen.KernelIdeal.Skeleton
import proofs.«107201_j32822140076800_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point sees -/

/-- Window `w`'s block at grid point `t`, read off the array the region finds on entry. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's staging buffer holds its block at every grid point, whether or not the block was fetched there: where it is not fetched the block index has not moved. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-! ## The whole-block rectangles the body loads and stores through -/

abbrev r11_S10000x96 : Rect S10000x96 := Rect.unit (s := S10000x96) ![0, 0] S10000x96.size inb_S10000x96_S10000x96_0_0

/-- What the body leaves in the output block: its single store, of the body's pure function of the loaded input blocks. -/
def out11_1 (x0 : Vec F S10000x96 .f32) : Vec F S10000x96 .f32 :=
  View.canon [⟨r11_S10000x96, k11_pay1 (View.ld x0 r11_S10000x96)⟩]

/-- The single store covers the whole output block. -/
theorem cover11_1 (p0 : Vec F S10000x96 .f32) (y : S10000x96.Idx) :
    ∃ pc ∈ ([⟨r11_S10000x96, p0⟩] : List (View.Piece (Elt F) S10000x96 .f32)), y ∈ pc.1.set :=
  View.cover_of_tiled [⟨r11_S10000x96, p0⟩] S10000x96.size (by rfl) y

set_option maxHeartbeats 1000000 in
/-- The body, run on whole staging buffers holding `x` (inputs) and anything (output), ends with the inputs as they were and the output block at `out11_1` of them. -/
theorem sound_kernel11 (c : Dev nD) (E : Set ℕ) (i : grid11.Coords) (arg0 : Memref sig .tc .vmem S10000x96 .f32) (harg0 : arg0.IsWhole) (arg1 : Memref sig .tc .vmem S10000x96 .f32) (harg1 : arg1.IsWhole)
    (x0 : Vec F S10000x96 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out11_1 x0)) -∗ K ⟨⟩))
      ⊢ wp frame (wpE (defs₀ (F := F)) Variants.none c none) E (cc11__norm_act_kernel i arg0 harg0 arg1 harg1) K := by
  simp only [cc11__norm_act_kernel_eq_skeleton]; unfold cc11__norm_act_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover11_1 _)

/-! ## The pipeline's proof data -/

/-- The arrays as the region finds them; after the body at point `t` each input buffer still holds its block and the output buffer holds `out11_1` of the input blocks; nothing owed, full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => out11_1 (iblk11 V c 0 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = out11_1 (iblk11 V c 0 t) := by dsimp only [dat11]

theorem before11_0 (c : Dev nD) (t : Fin cfg11.N) (d) : (dat11 V c).before 0 t d = iblk11 V c 0 t :=
  before11_0_of V (dat11 V c) (A_eq11 V c 0) (after11_0 V c) t d

/-! ## The body obligation at a generic grid point -/

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t))

/-- At any grid point the input buffers hold their blocks, so the body's triple applies; the invariant and the core's dues pass through untouched. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0]
  rw [show (dat11 V c).Φ t.succ = (dat11 V c).Φ t.castSucc from rfl,
    show (dat11 V c).owesAt () t.succ = (dat11 V c).owesAt () t.castSucc from rfl,
    after11_0, after11_1]
  iintro ⟨HΦ, Ho, ⟨%d0, H0⟩, ⟨%d1, H1⟩⟩
  iapply (sound_kernel11 c Set.univ _ _ _ _ _ (iblk11 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation11 (c : Dev nD) : BodyObligation (dat11 (F := F) V c) (defs₀ (F := F)) Variants.none () Set.univ := fun t => by
  rw [bigSep_W11, bigSep_W11]
  exact sound_body11 V c t

end Cert.KernelIdeal.Reg

end
-- ==== Proof.KIFold.lean ====
/- The run of the program over its 29 items (17 stretches of host operations, 12 kernel regions): the contents of
   every unscoped buffer at each of the 30 boundaries between items, as a fold from the launch memory. A host stretch
   rewrites the buffers its operations write (`StableHlo.after`); a kernel region leaves each of its windows' arrays at
   what its pipeline's write-backs leave (an input array as entered, an output array with every block written) and every
   other buffer as entered. Every argument array is read back through the fold to its launch contents. -/
import proofs.«107201_j32822140076800_2_alg».proof.Proof.Gen.KernelIdeal.Regions
import proofs.«107201_j32822140076800_2_alg».proof.Proof.KIReg0
import proofs.«107201_j32822140076800_2_alg».proof.Proof.KIReg1
import proofs.«107201_j32822140076800_2_alg».proof.Proof.KIReg2
import proofs.«107201_j32822140076800_2_alg».proof.Proof.KIReg3
import proofs.«107201_j32822140076800_2_alg».proof.Proof.KIReg4
import proofs.«107201_j32822140076800_2_alg».proof.Proof.KIReg5
import proofs.«107201_j32822140076800_2_alg».proof.Proof.KIReg6
import proofs.«107201_j32822140076800_2_alg».proof.Proof.KIReg7
import proofs.«107201_j32822140076800_2_alg».proof.Proof.KIReg8
import proofs.«107201_j32822140076800_2_alg».proof.Proof.KIReg9
import proofs.«107201_j32822140076800_2_alg».proof.Proof.KIReg10
import proofs.«107201_j32822140076800_2_alg».proof.Proof.KIReg11
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- A buffer that `hostOps0` does not write keeps its contents. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
/-- After the host stretch `hostOps0_1`. -/
abbrev W2 : Dev nD → Valuation τ sig (Elt F) := fun c => StableHlo.after hostOps0_1 (W1 m ρ c)
/-- A buffer that `hostOps0_1` does not write keeps its contents. -/
theorem W2_keep (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
/-- After the host stretch `hostOps0_2`. -/
abbrev W3 : Dev nD → Valuation τ sig (Elt F) := fun c => StableHlo.after hostOps0_2 (W2 m ρ c)
/-- A buffer that `hostOps0_2` does not write keeps its contents. -/
theorem W3_keep (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
/-- After the host stretch `hostOps0_3`. -/
abbrev W4 : Dev nD → Valuation τ sig (Elt F) := fun c => StableHlo.after hostOps0_3 (W3 m ρ c)
/-- A buffer that `hostOps0_3` does not write keeps its contents. -/
theorem W4_keep (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h
/-- After the host stretch `hostOps0_4`. -/
abbrev W5 : Dev nD → Valuation τ sig (Elt F) := fun c => StableHlo.after hostOps0_4 (W4 m ρ c)
/-- A buffer that `hostOps0_4` does not write keeps its contents. -/
theorem W5_keep (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h
/-- The same read at the TensorCore's references: the contents region 0 is entered from. -/
abbrev Vt5 : (c : Dev nD) → (b : Ref sig .tc) → Buf (Elt F) ((c : Thread nD τ).loc b) := fun c b => W5 m ρ c b
/-- At region 0's exit: its arrays at what the pipeline leaves, every other buffer as entered. -/
def W6 (c : Dev nD) : Valuation τ sig (Elt F) :=
  Pipeline.withArrays spec0 c (W5 m ρ c) fun w => (dat0 (Vt5 m ρ) c).arrAt w cfg0.N
theorem W6_arr (c : Dev nD) (w : Fin cfg0.W) :
    W6 m ρ c (Proc.devRef .tc (Pipeline.arrRef spec0 w)) = (dat0 (Vt5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (region 0's exit contents). -/
abbrev Vt6 : (c : Dev nD) → (b : Ref sig .tc) → Buf (Elt F) ((c : Thread nD τ).loc b) := fun c b => W6 m ρ c b
/-- At region 0's exit each of its arrays holds what the pipeline leaves, and every other buffer what it held at entry. -/
theorem hF0 (c : Dev nD) (w : Fin cfg0.W) : (dat0 (Vt5 m ρ) c).arrAt w cfg0.N = Vt6 m ρ c (Pipeline.arrRef spec0 w) :=
  (W6_arr m ρ c w).symm
theorem hrest0 (c : Dev nD) : ∀ b, b ∉ Finset.univ.image (Pipeline.arrRef spec0) → Vt6 m ρ c b = Vt5 m ρ c b :=
  fun b hb => W6_of_ne m ρ c b fun w e => hb (Finset.mem_image.mpr ⟨w, Finset.mem_univ _, e⟩)
/-- After the host stretch `hostOps1`. -/
abbrev W7 : Dev nD → Valuation τ sig (Elt F) := fun c => StableHlo.after hostOps1 (W6 m ρ c)
/-- A buffer that `hostOps1` does not write keeps its contents. -/
theorem W7_keep (c : Dev nD) (r : Ref sig .tc) (h : r ∉ hostOps1_W) :
    W7 m ρ c (Proc.devRef .tc r) = W6 m ρ c (Proc.devRef .tc r) :=
  StableHlo.after_of_writes_sub hostOps1 _ hostOps1_writes h
/-- The same read at the TensorCore's references: the contents region 1 is entered from. -/
abbrev Vt7 : (c : Dev nD) → (b : Ref sig .tc) → Buf (Elt F) ((c : Thread nD τ).loc b) := fun c b => W7 m ρ c b
/-- At region 1's exit: its arrays at what the pipeline leaves, every other buffer as entered. -/
def W8 (c : Dev nD) : Valuation τ sig (Elt F) :=
  Pipeline.withArrays spec1 c (W7 m ρ c) fun w => (dat1 (Vt7 m ρ) c).arrAt w cfg1.N
theorem W8_arr (c : Dev nD) (w : Fin cfg1.W) :
    W8 m ρ c (Proc.devRef .tc (Pipeline.arrRef spec1 w)) = (dat1 (Vt7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references (region 1's exit contents). -/
abbrev Vt8 : (c : Dev nD) → (b : Ref sig .tc) → Buf (Elt F) ((c : Thread nD τ).loc b) := fun c b => W8 m ρ c b
/-- At region 1's exit each of its arrays holds what the pipeline leaves, and every other buffer what it held at entry. -/
theorem hF1 (c : Dev nD) (w : Fin cfg1.W) : (dat1 (Vt7 m ρ) c).arrAt w cfg1.N = Vt8 m ρ c (Pipeline.arrRef spec1 w) :=
  (W8_arr m ρ c w).symm
theorem hrest1 (c : Dev nD) : ∀ b, b ∉ Finset.univ.image (Pipeline.arrRef spec1) → Vt8 m ρ c b = Vt7 m ρ c b :=
  fun b hb => W8_of_ne m ρ c b fun w e => hb (Finset.mem_image.mpr ⟨w, Finset.mem_univ _, e⟩)
/-- After the host stretch `hostOps2`. -/
abbrev W9 : Dev nD → Valuation τ sig (Elt F) := fun c => StableHlo.after hostOps2 (W8 m ρ c)
/-- A buffer that `hostOps2` does not write keeps its contents. -/
theorem W9_keep (c : Dev nD) (r : Ref sig .tc) (h : r ∉ hostOps2_W) :
    W9 m ρ c (Proc.devRef .tc r) = W8 m ρ c (Proc.devRef .tc r) :=
  StableHlo.after_of_writes_sub hostOps2 _ hostOps2_writes h
/-- The same read at the TensorCore's references: the contents region 2 is entered from. -/
abbrev Vt9 : (c : Dev nD) → (b : Ref sig .tc) → Buf (Elt F) ((c : Thread nD τ).loc b) := fun c b => W9 m ρ c b
/-- At region 2's exit: its arrays at what the pipeline leaves, every other buffer as entered. -/
def W10 (c : Dev nD) : Valuation τ sig (Elt F) :=
  Pipeline.withArrays spec2 c (W9 m ρ c) fun w => (dat2 (Vt9 m ρ) c).arrAt w cfg2.N
theorem W10_arr (c : Dev nD) (w : Fin cfg2.W) :
    W10 m ρ c (Proc.devRef .tc (Pipeline.arrRef spec2 w)) = (dat2 (Vt9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- The same read at the TensorCore's references (region 2's exit contents). -/
abbrev Vt10 : (c : Dev nD) → (b : Ref sig .tc) → Buf (Elt F) ((c : Thread nD τ).loc b) := fun c b => W10 m ρ c b
/-- At region 2's exit each of its arrays holds what the pipeline leaves, and every other buffer what it held at entry. -/
theorem hF2 (c : Dev nD) (w : Fin cfg2.W) : (dat2 (Vt9 m ρ) c).arrAt w cfg2.N = Vt10 m ρ c (Pipeline.arrRef spec2 w) :=
  (W10_arr m ρ c w).symm
theorem hrest2 (c : Dev nD) : ∀ b, b ∉ Finset.univ.image (Pipeline.arrRef spec2) → Vt10 m ρ c b = Vt9 m ρ c b :=
  fun b hb => W10_of_ne m ρ c b fun w e => hb (Finset.mem_image.mpr ⟨w, Finset.mem_univ _, e⟩)
/-- After the host stretch `hostOps3`. -/
abbrev W11 : Dev nD → Valuation τ sig (Elt F) := fun c => StableHlo.after hostOps3 (W10 m ρ c)
/-- A buffer that `hostOps3` does not write keeps its contents. -/
theorem W11_keep (c : Dev nD) (r : Ref sig .tc) (h : r ∉ hostOps3_W) :
    W11 m ρ c (Proc.devRef .tc r) = W10 m ρ c (Proc.devRef .tc r) :=
  StableHlo.after_of_writes_sub hostOps3 _ hostOps3_writes h
/-- The same read at the TensorCore's references: the contents region 3 is entered from. -/
abbrev Vt11 : (c : Dev nD) → (b : Ref sig .tc) → Buf (Elt F) ((c : Thread nD τ).loc b) := fun c b => W11 m ρ c b
/-- At region 3's exit: its arrays at what the pipeline leaves, every other buffer as entered. -/
def W12 (c : Dev nD) : Valuation τ sig (Elt F) :=
  Pipeline.withArrays spec3 c (W11 m ρ c) fun w => (dat3 (Vt11 m ρ) c).arrAt w cfg3.N
theorem W12_arr (c : Dev nD) (w : Fin cfg3.W) :
    W12 m ρ c (Proc.devRef .tc (Pipeline.arrRef spec3 w)) = (dat3 (Vt11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- The same read at the TensorCore's references (region 3's exit contents). -/
abbrev Vt12 : (c : Dev nD) → (b : Ref sig .tc) → Buf (Elt F) ((c : Thread nD τ).loc b) := fun c b => W12 m ρ c b
/-- At region 3's exit each of its arrays holds what the pipeline leaves, and every other buffer what it held at entry. -/
theorem hF3 (c : Dev nD) (w : Fin cfg3.W) : (dat3 (Vt11 m ρ) c).arrAt w cfg3.N = Vt12 m ρ c (Pipeline.arrRef spec3 w) :=
  (W12_arr m ρ c w).symm
theorem hrest3 (c : Dev nD) : ∀ b, b ∉ Finset.univ.image (Pipeline.arrRef spec3) → Vt12 m ρ c b = Vt11 m ρ c b :=
  fun b hb => W12_of_ne m ρ c b fun w e => hb (Finset.mem_image.mpr ⟨w, Finset.mem_univ _, e⟩)
/-- After the host stretch `hostOps4`. -/
abbrev W13 : Dev nD → Valuation τ sig (Elt F) := fun c => StableHlo.after hostOps4 (W12 m ρ c)
/-- A buffer that `hostOps4` does not write keeps its contents. -/
theorem W13_keep (c : Dev nD) (r : Ref sig .tc) (h : r ∉ hostOps4_W) :
    W13 m ρ c (Proc.devRef .tc r) = W12 m ρ c (Proc.devRef .tc r) :=
  StableHlo.after_of_writes_sub hostOps4 _ hostOps4_writes h
/-- The same read at the TensorCore's references: the contents region 4 is entered from. -/
abbrev Vt13 : (c : Dev nD) → (b : Ref sig .tc) → Buf (Elt F) ((c : Thread nD τ).loc b) := fun c b => W13 m ρ c b
/-- At region 4's exit: its arrays at what the pipeline leaves, every other buffer as entered. -/
def W14 (c : Dev nD) : Valuation τ sig (Elt F) :=
  Pipeline.withArrays spec4 c (W13 m ρ c) fun w => (dat4 (Vt13 m ρ) c).arrAt w cfg4.N
theorem W14_arr (c : Dev nD) (w : Fin cfg4.W) :
    W14 m ρ c (Proc.devRef .tc (Pipeline.arrRef spec4 w)) = (dat4 (Vt13 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
/-- The same read at the TensorCore's references (region 4's exit contents). -/
abbrev Vt14 : (c : Dev nD) → (b : Ref sig .tc) → Buf (Elt F) ((c : Thread nD τ).loc b) := fun c b => W14 m ρ c b
/-- At region 4's exit each of its arrays holds what the pipeline leaves, and every other buffer what it held at entry. -/
theorem hF4 (c : Dev nD) (w : Fin cfg4.W) : (dat4 (Vt13 m ρ) c).arrAt w cfg4.N = Vt14 m ρ c (Pipeline.arrRef spec4 w) :=
  (W14_arr m ρ c w).symm
theorem hrest4 (c : Dev nD) : ∀ b, b ∉ Finset.univ.image (Pipeline.arrRef spec4) → Vt14 m ρ c b = Vt13 m ρ c b :=
  fun b hb => W14_of_ne m ρ c b fun w e => hb (Finset.mem_image.mpr ⟨w, Finset.mem_univ _, e⟩)
/-- After the host stretch `hostOps5`. -/
abbrev W15 : Dev nD → Valuation τ sig (Elt F) := fun c => StableHlo.after hostOps5 (W14 m ρ c)
/-- A buffer that `hostOps5` does not write keeps its contents. -/
theorem W15_keep (c : Dev nD) (r : Ref sig .tc) (h : r ∉ hostOps5_W) :
    W15 m ρ c (Proc.devRef .tc r) = W14 m ρ c (Proc.devRef .tc r) :=
  StableHlo.after_of_writes_sub hostOps5 _ hostOps5_writes h
/-- The same read at the TensorCore's references: the contents region 5 is entered from. -/
abbrev Vt15 : (c : Dev nD) → (b : Ref sig .tc) → Buf (Elt F) ((c : Thread nD τ).loc b) := fun c b => W15 m ρ c b
/-- At region 5's exit: its arrays at what the pipeline leaves, every other buffer as entered. -/
def W16 (c : Dev nD) : Valuation τ sig (Elt F) :=
  Pipeline.withArrays spec5 c (W15 m ρ c) fun w => (dat5 (Vt15 m ρ) c).arrAt w cfg5.N
theorem W16_arr (c : Dev nD) (w : Fin cfg5.W) :
    W16 m ρ c (Proc.devRef .tc (Pipeline.arrRef spec5 w)) = (dat5 (Vt15 m ρ) c).arrAt w cfg5.N := by
  unfold W16; exact Pipeline.withArrays_arr spec5 launch5.win.arr_inj c _ _ w
theorem W16_of_ne (c : Dev nD) (b : Ref sig .tc) (hb : ∀ w, Pipeline.arrRef spec5 w ≠ b) :
    W16 m ρ c (Proc.devRef .tc b) = W15 m ρ c (Proc.devRef .tc b) := by
  unfold W16; exact Pipeline.withArrays_of_ne spec5 c _ _ b hb
/-- The same read at the TensorCore's references (region 5's exit contents). -/
abbrev Vt16 : (c : Dev nD) → (b : Ref sig .tc) → Buf (Elt F) ((c : Thread nD τ).loc b) := fun c b => W16 m ρ c b
/-- At region 5's exit each of its arrays holds what the pipeline leaves, and every other buffer what it held at entry. -/
theorem hF5 (c : Dev nD) (w : Fin cfg5.W) : (dat5 (Vt15 m ρ) c).arrAt w cfg5.N = Vt16 m ρ c (Pipeline.arrRef spec5 w) :=
  (W16_arr m ρ c w).symm
theorem hrest5 (c : Dev nD) : ∀ b, b ∉ Finset.univ.image (Pipeline.arrRef spec5) → Vt16 m ρ c b = Vt15 m ρ c b :=
  fun b hb => W16_of_ne m ρ c b fun w e => hb (Finset.mem_image.mpr ⟨w, Finset.mem_univ _, e⟩)
/-- After the host stretch `hostOps6`. -/
abbrev W17 : Dev nD → Valuation τ sig (Elt F) := fun c => StableHlo.after hostOps6 (W16 m ρ c)
/-- A buffer that `hostOps6` does not write keeps its contents. -/
theorem W17_keep (c : Dev nD) (r : Ref sig .tc) (h : r ∉ hostOps6_W) :
    W17 m ρ c (Proc.devRef .tc r) = W16 m ρ c (Proc.devRef .tc r) :=
  StableHlo.after_of_writes_sub hostOps6 _ hostOps6_writes h
/-- The same read at the TensorCore's references: the contents region 6 is entered from. -/
abbrev Vt17 : (c : Dev nD) → (b : Ref sig .tc) → Buf (Elt F) ((c : Thread nD τ).loc b) := fun c b => W17 m ρ c b
/-- At region 6's exit: its arrays at what the pipeline leaves, every other buffer as entered. -/
def W18 (c : Dev nD) : Valuation τ sig (Elt F) :=
  Pipeline.withArrays spec6 c (W17 m ρ c) fun w => (dat6 (Vt17 m ρ) c).arrAt w cfg6.N
theorem W18_arr (c : Dev nD) (w : Fin cfg6.W) :
    W18 m ρ c (Proc.devRef .tc (Pipeline.arrRef spec6 w)) = (dat6 (Vt17 m ρ) c).arrAt w cfg6.N := by
  unfold W18; exact Pipeline.withArrays_arr spec6 launch6.win.arr_inj c _ _ w
theorem W18_of_ne (c : Dev nD) (b : Ref sig .tc) (hb : ∀ w, Pipeline.arrRef spec6 w ≠ b) :
    W18 m ρ c (Proc.devRef .tc b) = W17 m ρ c (Proc.devRef .tc b) := by
  unfold W18; exact Pipeline.withArrays_of_ne spec6 c _ _ b hb
/-- The same read at the TensorCore's references (region 6's exit contents). -/
abbrev Vt18 : (c : Dev nD) → (b : Ref sig .tc) → Buf (Elt F) ((c : Thread nD τ).loc b) := fun c b => W18 m ρ c b
/-- At region 6's exit each of its arrays holds what the pipeline leaves, and every other buffer what it held at entry. -/
theorem hF6 (c : Dev nD) (w : Fin cfg6.W) : (dat6 (Vt17 m ρ) c).arrAt w cfg6.N = Vt18 m ρ c (Pipeline.arrRef spec6 w) :=
  (W18_arr m ρ c w).symm
theorem hrest6 (c : Dev nD) : ∀ b, b ∉ Finset.univ.image (Pipeline.arrRef spec6) → Vt18 m ρ c b = Vt17 m ρ c b :=
  fun b hb => W18_of_ne m ρ c b fun w e => hb (Finset.mem_image.mpr ⟨w, Finset.mem_univ _, e⟩)
/-- After the host stretch `hostOps7`. -/
abbrev W19 : Dev nD → Valuation τ sig (Elt F) := fun c => StableHlo.after hostOps7 (W18 m ρ c)
/-- A buffer that `hostOps7` does not write keeps its contents. -/
theorem W19_keep (c : Dev nD) (r : Ref sig .tc) (h : r ∉ hostOps7_W) :
    W19 m ρ c (Proc.devRef .tc r) = W18 m ρ c (Proc.devRef .tc r) :=
  StableHlo.after_of_writes_sub hostOps7 _ hostOps7_writes h
/-- The same read at the TensorCore's references: the contents region 7 is entered from. -/
abbrev Vt19 : (c : Dev nD) → (b : Ref sig .tc) → Buf (Elt F) ((c : Thread nD τ).loc b) := fun c b => W19 m ρ c b
/-- At region 7's exit: its arrays at what the pipeline leaves, every other buffer as entered. -/
def W20 (c : Dev nD) : Valuation τ sig (Elt F) :=
  Pipeline.withArrays spec7 c (W19 m ρ c) fun w => (dat7 (Vt19 m ρ) c).arrAt w cfg7.N
theorem W20_arr (c : Dev nD) (w : Fin cfg7.W) :
    W20 m ρ c (Proc.devRef .tc (Pipeline.arrRef spec7 w)) = (dat7 (Vt19 m ρ) c).arrAt w cfg7.N := by
  unfold W20; exact Pipeline.withArrays_arr spec7 launch7.win.arr_inj c _ _ w
theorem W20_of_ne (c : Dev nD) (b : Ref sig .tc) (hb : ∀ w, Pipeline.arrRef spec7 w ≠ b) :
    W20 m ρ c (Proc.devRef .tc b) = W19 m ρ c (Proc.devRef .tc b) := by
  unfold W20; exact Pipeline.withArrays_of_ne spec7 c _ _ b hb
/-- The same read at the TensorCore's references (region 7's exit contents). -/
abbrev Vt20 : (c : Dev nD) → (b : Ref sig .tc) → Buf (Elt F) ((c : Thread nD τ).loc b) := fun c b => W20 m ρ c b
/-- At region 7's exit each of its arrays holds what the pipeline leaves, and every other buffer what it held at entry. -/
theorem hF7 (c : Dev nD) (w : Fin cfg7.W) : (dat7 (Vt19 m ρ) c).arrAt w cfg7.N = Vt20 m ρ c (Pipeline.arrRef spec7 w) :=
  (W20_arr m ρ c w).symm
theorem hrest7 (c : Dev nD) : ∀ b, b ∉ Finset.univ.image (Pipeline.arrRef spec7) → Vt20 m ρ c b = Vt19 m ρ c b :=
  fun b hb => W20_of_ne m ρ c b fun w e => hb (Finset.mem_image.mpr ⟨w, Finset.mem_univ _, e⟩)
/-- After the host stretch `hostOps8`. -/
abbrev W21 : Dev nD → Valuation τ sig (Elt F) := fun c => StableHlo.after hostOps8 (W20 m ρ c)
/-- A buffer that `hostOps8` does not write keeps its contents. -/
theorem W21_keep (c : Dev nD) (r : Ref sig .tc) (h : r ∉ hostOps8_W) :
    W21 m ρ c (Proc.devRef .tc r) = W20 m ρ c (Proc.devRef .tc r) :=
  StableHlo.after_of_writes_sub hostOps8 _ hostOps8_writes h
/-- The same read at the TensorCore's references: the contents region 8 is entered from. -/
abbrev Vt21 : (c : Dev nD) → (b : Ref sig .tc) → Buf (Elt F) ((c : Thread nD τ).loc b) := fun c b => W21 m ρ c b
/-- At region 8's exit: its arrays at what the pipeline leaves, every other buffer as entered. -/
def W22 (c : Dev nD) : Valuation τ sig (Elt F) :=
  Pipeline.withArrays spec8 c (W21 m ρ c) fun w => (dat8 (Vt21 m ρ) c).arrAt w cfg8.N
theorem W22_arr (c : Dev nD) (w : Fin cfg8.W) :
    W22 m ρ c (Proc.devRef .tc (Pipeline.arrRef spec8 w)) = (dat8 (Vt21 m ρ) c).arrAt w cfg8.N := by
  unfold W22; exact Pipeline.withArrays_arr spec8 launch8.win.arr_inj c _ _ w
theorem W22_of_ne (c : Dev nD) (b : Ref sig .tc) (hb : ∀ w, Pipeline.arrRef spec8 w ≠ b) :
    W22 m ρ c (Proc.devRef .tc b) = W21 m ρ c (Proc.devRef .tc b) := by
  unfold W22; exact Pipeline.withArrays_of_ne spec8 c _ _ b hb
/-- The same read at the TensorCore's references (region 8's exit contents). -/
abbrev Vt22 : (c : Dev nD) → (b : Ref sig .tc) → Buf (Elt F) ((c : Thread nD τ).loc b) := fun c b => W22 m ρ c b
/-- At region 8's exit each of its arrays holds what the pipeline leaves, and every other buffer what it held at entry. -/
theorem hF8 (c : Dev nD) (w : Fin cfg8.W) : (dat8 (Vt21 m ρ) c).arrAt w cfg8.N = Vt22 m ρ c (Pipeline.arrRef spec8 w) :=
  (W22_arr m ρ c w).symm
theorem hrest8 (c : Dev nD) : ∀ b, b ∉ Finset.univ.image (Pipeline.arrRef spec8) → Vt22 m ρ c b = Vt21 m ρ c b :=
  fun b hb => W22_of_ne m ρ c b fun w e => hb (Finset.mem_image.mpr ⟨w, Finset.mem_univ _, e⟩)
/-- After the host stretch `hostOps9`. -/
abbrev W23 : Dev nD → Valuation τ sig (Elt F) := fun c => StableHlo.after hostOps9 (W22 m ρ c)
/-- A buffer that `hostOps9` does not write keeps its contents. -/
theorem W23_keep (c : Dev nD) (r : Ref sig .tc) (h : r ∉ hostOps9_W) :
    W23 m ρ c (Proc.devRef .tc r) = W22 m ρ c (Proc.devRef .tc r) :=
  StableHlo.after_of_writes_sub hostOps9 _ hostOps9_writes h
/-- The same read at the TensorCore's references: the contents region 9 is entered from. -/
abbrev Vt23 : (c : Dev nD) → (b : Ref sig .tc) → Buf (Elt F) ((c : Thread nD τ).loc b) := fun c b => W23 m ρ c b
/-- At region 9's exit: its arrays at what the pipeline leaves, every other buffer as entered. -/
def W24 (c : Dev nD) : Valuation τ sig (Elt F) :=
  Pipeline.withArrays spec9 c (W23 m ρ c) fun w => (dat9 (Vt23 m ρ) c).arrAt w cfg9.N
theorem W24_arr (c : Dev nD) (w : Fin cfg9.W) :
    W24 m ρ c (Proc.devRef .tc (Pipeline.arrRef spec9 w)) = (dat9 (Vt23 m ρ) c).arrAt w cfg9.N := by
  unfold W24; exact Pipeline.withArrays_arr spec9 launch9.win.arr_inj c _ _ w
theorem W24_of_ne (c : Dev nD) (b : Ref sig .tc) (hb : ∀ w, Pipeline.arrRef spec9 w ≠ b) :
    W24 m ρ c (Proc.devRef .tc b) = W23 m ρ c (Proc.devRef .tc b) := by
  unfold W24; exact Pipeline.withArrays_of_ne spec9 c _ _ b hb
/-- The same read at the TensorCore's references (region 9's exit contents). -/
abbrev Vt24 : (c : Dev nD) → (b : Ref sig .tc) → Buf (Elt F) ((c : Thread nD τ).loc b) := fun c b => W24 m ρ c b
/-- At region 9's exit each of its arrays holds what the pipeline leaves, and every other buffer what it held at entry. -/
theorem hF9 (c : Dev nD) (w : Fin cfg9.W) : (dat9 (Vt23 m ρ) c).arrAt w cfg9.N = Vt24 m ρ c (Pipeline.arrRef spec9 w) :=
  (W24_arr m ρ c w).symm
theorem hrest9 (c : Dev nD) : ∀ b, b ∉ Finset.univ.image (Pipeline.arrRef spec9) → Vt24 m ρ c b = Vt23 m ρ c b :=
  fun b hb => W24_of_ne m ρ c b fun w e => hb (Finset.mem_image.mpr ⟨w, Finset.mem_univ _, e⟩)
/-- After the host stretch `hostOps10`. -/
abbrev W25 : Dev nD → Valuation τ sig (Elt F) := fun c => StableHlo.after hostOps10 (W24 m ρ c)
/-- A buffer that `hostOps10` does not write keeps its contents. -/
theorem W25_keep (c : Dev nD) (r : Ref sig .tc) (h : r ∉ hostOps10_W) :
    W25 m ρ c (Proc.devRef .tc r) = W24 m ρ c (Proc.devRef .tc r) :=
  StableHlo.after_of_writes_sub hostOps10 _ hostOps10_writes h
/-- The same read at the TensorCore's references: the contents region 10 is entered from. -/
abbrev Vt25 : (c : Dev nD) → (b : Ref sig .tc) → Buf (Elt F) ((c : Thread nD τ).loc b) := fun c b => W25 m ρ c b
/-- At region 10's exit: its arrays at what the pipeline leaves, every other buffer as entered. -/
def W26 (c : Dev nD) : Valuation τ sig (Elt F) :=
  Pipeline.withArrays spec10 c (W25 m ρ c) fun w => (dat10 (Vt25 m ρ) c).arrAt w cfg10.N
theorem W26_arr (c : Dev nD) (w : Fin cfg10.W) :
    W26 m ρ c (Proc.devRef .tc (Pipeline.arrRef spec10 w)) = (dat10 (Vt25 m ρ) c).arrAt w cfg10.N := by
  unfold W26; exact Pipeline.withArrays_arr spec10 launch10.win.arr_inj c _ _ w
theorem W26_of_ne (c : Dev nD) (b : Ref sig .tc) (hb : ∀ w, Pipeline.arrRef spec10 w ≠ b) :
    W26 m ρ c (Proc.devRef .tc b) = W25 m ρ c (Proc.devRef .tc b) := by
  unfold W26; exact Pipeline.withArrays_of_ne spec10 c _ _ b hb
/-- The same read at the TensorCore's references (region 10's exit contents). -/
abbrev Vt26 : (c : Dev nD) → (b : Ref sig .tc) → Buf (Elt F) ((c : Thread nD τ).loc b) := fun c b => W26 m ρ c b
/-- At region 10's exit each of its arrays holds what the pipeline leaves, and every other buffer what it held at entry. -/
theorem hF10 (c : Dev nD) (w : Fin cfg10.W) : (dat10 (Vt25 m ρ) c).arrAt w cfg10.N = Vt26 m ρ c (Pipeline.arrRef spec10 w) :=
  (W26_arr m ρ c w).symm
theorem hrest10 (c : Dev nD) : ∀ b, b ∉ Finset.univ.image (Pipeline.arrRef spec10) → Vt26 m ρ c b = Vt25 m ρ c b :=
  fun b hb => W26_of_ne m ρ c b fun w e => hb (Finset.mem_image.mpr ⟨w, Finset.mem_univ _, e⟩)
/-- After the host stretch `hostOps11`. -/
abbrev W27 : Dev nD → Valuation τ sig (Elt F) := fun c => StableHlo.after hostOps11 (W26 m ρ c)
/-- A buffer that `hostOps11` does not write keeps its contents. -/
theorem W27_keep (c : Dev nD) (r : Ref sig .tc) (h : r ∉ hostOps11_W) :
    W27 m ρ c (Proc.devRef .tc r) = W26 m ρ c (Proc.devRef .tc r) :=
  StableHlo.after_of_writes_sub hostOps11 _ hostOps11_writes h
/-- The same read at the TensorCore's references: the contents region 11 is entered from. -/
abbrev Vt27 : (c : Dev nD) → (b : Ref sig .tc) → Buf (Elt F) ((c : Thread nD τ).loc b) := fun c b => W27 m ρ c b
/-- At region 11's exit: its arrays at what the pipeline leaves, every other buffer as entered. -/
def W28 (c : Dev nD) : Valuation τ sig (Elt F) :=
  Pipeline.withArrays spec11 c (W27 m ρ c) fun w => (dat11 (Vt27 m ρ) c).arrAt w cfg11.N
theorem W28_arr (c : Dev nD) (w : Fin cfg11.W) :
    W28 m ρ c (Proc.devRef .tc (Pipeline.arrRef spec11 w)) = (dat11 (Vt27 m ρ) c).arrAt w cfg11.N := by
  unfold W28; exact Pipeline.withArrays_arr spec11 launch11.win.arr_inj c _ _ w
theorem W28_of_ne (c : Dev nD) (b : Ref sig .tc) (hb : ∀ w, Pipeline.arrRef spec11 w ≠ b) :
    W28 m ρ c (Proc.devRef .tc b) = W27 m ρ c (Proc.devRef .tc b) := by
  unfold W28; exact Pipeline.withArrays_of_ne spec11 c _ _ b hb
/-- The same read at the TensorCore's references (region 11's exit contents). -/
abbrev Vt28 : (c : Dev nD) → (b : Ref sig .tc) → Buf (Elt F) ((c : Thread nD τ).loc b) := fun c b => W28 m ρ c b
/-- At region 11's exit each of its arrays holds what the pipeline leaves, and every other buffer what it held at entry. -/
theorem hF11 (c : Dev nD) (w : Fin cfg11.W) : (dat11 (Vt27 m ρ) c).arrAt w cfg11.N = Vt28 m ρ c (Pipeline.arrRef spec11 w) :=
  (W28_arr m ρ c w).symm
theorem hrest11 (c : Dev nD) : ∀ b, b ∉ Finset.univ.image (Pipeline.arrRef spec11) → Vt28 m ρ c b = Vt27 m ρ c b :=
  fun b hb => W28_of_ne m ρ c b fun w e => hb (Finset.mem_image.mpr ⟨w, Finset.mem_univ _, e⟩)
/-- After the host stretch `hostOps12`. -/
abbrev W29 : Dev nD → Valuation τ sig (Elt F) := fun c => StableHlo.after hostOps12 (W28 m ρ c)
/-- A buffer that `hostOps12` does not write keeps its contents. -/
theorem W29_keep (c : Dev nD) (r : Ref sig .tc) (h : r ∉ hostOps12_W) :
    W29 m ρ c (Proc.devRef .tc r) = W28 m ρ c (Proc.devRef .tc r) :=
  StableHlo.after_of_writes_sub hostOps12 _ hostOps12_writes h

/-! ## The arguments end as launched

No host stretch writes an argument array, and no region has one as an output array: region 0 reads `main_arg0`
through an input window (whose array the pipeline leaves as entered), every other region's arrays are other buffers. -/

theorem W29_main_arg0 (c : Dev nD) : W29 m ρ c (Proc.devRef .tc main_arg0) = m ((c : Thread nD τ).loc main_arg0) :=
  (W29_keep m ρ c main_arg0 (by decide)).trans <|
  (W28_of_ne m ρ c main_arg0 (by decide)).trans <|
  (W27_keep m ρ c main_arg0 (by decide)).trans <|
  (W26_of_ne m ρ c main_arg0 (by decide)).trans <|
  (W25_keep m ρ c main_arg0 (by decide)).trans <|
  (W24_of_ne m ρ c main_arg0 (by decide)).trans <|
  (W23_keep m ρ c main_arg0 (by decide)).trans <|
  (W22_of_ne m ρ c main_arg0 (by decide)).trans <|
  (W21_keep m ρ c main_arg0 (by decide)).trans <|
  (W20_of_ne m ρ c main_arg0 (by decide)).trans <|
  (W19_keep m ρ c main_arg0 (by decide)).trans <|
  (W18_of_ne m ρ c main_arg0 (by decide)).trans <|
  (W17_keep m ρ c main_arg0 (by decide)).trans <|
  (W16_of_ne m ρ c main_arg0 (by decide)).trans <|
  (W15_keep m ρ c main_arg0 (by decide)).trans <|
  (W14_of_ne m ρ c main_arg0 (by decide)).trans <|
  (W13_keep m ρ c main_arg0 (by decide)).trans <|
  (W12_of_ne m ρ c main_arg0 (by decide)).trans <|
  (W11_keep m ρ c main_arg0 (by decide)).trans <|
  (W10_of_ne m ρ c main_arg0 (by decide)).trans <|
  (W9_keep m ρ c main_arg0 (by decide)).trans <|
  (W8_of_ne m ρ c main_arg0 (by decide)).trans <|
  (W7_keep m ρ c main_arg0 (by decide)).trans <|
  ((W6_arr m ρ c 0).trans (((dat0 (Vt5 m ρ) c).arrAt_in 0 rfl _).trans (A_eq0 (Vt5 m ρ) c 0))).trans <|
  (W5_keep m ρ c main_arg0 (by decide)).trans <|
  (W4_keep m ρ c main_arg0 (by decide)).trans <|
  (W3_keep m ρ c main_arg0 (by decide)).trans <|
  (W2_keep m ρ c main_arg0 (by decide)).trans <|
  (W1_keep m ρ c main_arg0 (by decide)).trans <| rfl

theorem W29_main_arg1 (c : Dev nD) : W29 m ρ c (Proc.devRef .tc main_arg1) = m ((c : Thread nD τ).loc main_arg1) :=
  (W29_keep m ρ c main_arg1 (by decide)).trans <|
  (W28_of_ne m ρ c main_arg1 (by decide)).trans <|
  (W27_keep m ρ c main_arg1 (by decide)).trans <|
  (W26_of_ne m ρ c main_arg1 (by decide)).trans <|
  (W25_keep m ρ c main_arg1 (by decide)).trans <|
  (W24_of_ne m ρ c main_arg1 (by decide)).trans <|
  (W23_keep m ρ c main_arg1 (by decide)).trans <|
  (W22_of_ne m ρ c main_arg1 (by decide)).trans <|
  (W21_keep m ρ c main_arg1 (by decide)).trans <|
  (W20_of_ne m ρ c main_arg1 (by decide)).trans <|
  (W19_keep m ρ c main_arg1 (by decide)).trans <|
  (W18_of_ne m ρ c main_arg1 (by decide)).trans <|
  (W17_keep m ρ c main_arg1 (by decide)).trans <|
  (W16_of_ne m ρ c main_arg1 (by decide)).trans <|
  (W15_keep m ρ c main_arg1 (by decide)).trans <|
  (W14_of_ne m ρ c main_arg1 (by decide)).trans <|
  (W13_keep m ρ c main_arg1 (by decide)).trans <|
  (W12_of_ne m ρ c main_arg1 (by decide)).trans <|
  (W11_keep m ρ c main_arg1 (by decide)).trans <|
  (W10_of_ne m ρ c main_arg1 (by decide)).trans <|
  (W9_keep m ρ c main_arg1 (by decide)).trans <|
  (W8_of_ne m ρ c main_arg1 (by decide)).trans <|
  (W7_keep m ρ c main_arg1 (by decide)).trans <|
  (W6_of_ne m ρ c main_arg1 (by decide)).trans <|
  (W5_keep m ρ c main_arg1 (by decide)).trans <|
  (W4_keep m ρ c main_arg1 (by decide)).trans <|
  (W3_keep m ρ c main_arg1 (by decide)).trans <|
  (W2_keep m ρ c main_arg1 (by decide)).trans <|
  (W1_keep m ρ c main_arg1 (by decide)).trans <| rfl

theorem W29_main_arg2 (c : Dev nD) : W29 m ρ c (Proc.devRef .tc main_arg2) = m ((c : Thread nD τ).loc main_arg2) :=
  (W29_keep m ρ c main_arg2 (by decide)).trans <|
  (W28_of_ne m ρ c main_arg2 (by decide)).trans <|
  (W27_keep m ρ c main_arg2 (by decide)).trans <|
  (W26_of_ne m ρ c main_arg2 (by decide)).trans <|
  (W25_keep m ρ c main_arg2 (by decide)).trans <|
  (W24_of_ne m ρ c main_arg2 (by decide)).trans <|
  (W23_keep m ρ c main_arg2 (by decide)).trans <|
  (W22_of_ne m ρ c main_arg2 (by decide)).trans <|
  (W21_keep m ρ c main_arg2 (by decide)).trans <|
  (W20_of_ne m ρ c main_arg2 (by decide)).trans <|
  (W19_keep m ρ c main_arg2 (by decide)).trans <|
  (W18_of_ne m ρ c main_arg2 (by decide)).trans <|
  (W17_keep m ρ c main_arg2 (by decide)).trans <|
  (W16_of_ne m ρ c main_arg2 (by decide)).trans <|
  (W15_keep m ρ c main_arg2 (by decide)).trans <|
  (W14_of_ne m ρ c main_arg2 (by decide)).trans <|
  (W13_keep m ρ c main_arg2 (by decide)).trans <|
  (W12_of_ne m ρ c main_arg2 (by decide)).trans <|
  (W11_keep m ρ c main_arg2 (by decide)).trans <|
  (W10_of_ne m ρ c main_arg2 (by decide)).trans <|
  (W9_keep m ρ c main_arg2 (by decide)).trans <|
  (W8_of_ne m ρ c main_arg2 (by decide)).trans <|
  (W7_keep m ρ c main_arg2 (by decide)).trans <|
  (W6_of_ne m ρ c main_arg2 (by decide)).trans <|
  (W5_keep m ρ c main_arg2 (by decide)).trans <|
  (W4_keep m ρ c main_arg2 (by decide)).trans <|
  (W3_keep m ρ c main_arg2 (by decide)).trans <|
  (W2_keep m ρ c main_arg2 (by decide)).trans <|
  (W1_keep m ρ c main_arg2 (by decide)).trans <| rfl

theorem W29_main_arg3 (c : Dev nD) : W29 m ρ c (Proc.devRef .tc main_arg3) = m ((c : Thread nD τ).loc main_arg3) :=
  (W29_keep m ρ c main_arg3 (by decide)).trans <|
  (W28_of_ne m ρ c main_arg3 (by decide)).trans <|
  (W27_keep m ρ c main_arg3 (by decide)).trans <|
  (W26_of_ne m ρ c main_arg3 (by decide)).trans <|
  (W25_keep m ρ c main_arg3 (by decide)).trans <|
  (W24_of_ne m ρ c main_arg3 (by decide)).trans <|
  (W23_keep m ρ c main_arg3 (by decide)).trans <|
  (W22_of_ne m ρ c main_arg3 (by decide)).trans <|
  (W21_keep m ρ c main_arg3 (by decide)).trans <|
  (W20_of_ne m ρ c main_arg3 (by decide)).trans <|
  (W19_keep m ρ c main_arg3 (by decide)).trans <|
  (W18_of_ne m ρ c main_arg3 (by decide)).trans <|
  (W17_keep m ρ c main_arg3 (by decide)).trans <|
  (W16_of_ne m ρ c main_arg3 (by decide)).trans <|
  (W15_keep m ρ c main_arg3 (by decide)).trans <|
  (W14_of_ne m ρ c main_arg3 (by decide)).trans <|
  (W13_keep m ρ c main_arg3 (by decide)).trans <|
  (W12_of_ne m ρ c main_arg3 (by decide)).trans <|
  (W11_keep m ρ c main_arg3 (by decide)).trans <|
  (W10_of_ne m ρ c main_arg3 (by decide)).trans <|
  (W9_keep m ρ c main_arg3 (by decide)).trans <|
  (W8_of_ne m ρ c main_arg3 (by decide)).trans <|
  (W7_keep m ρ c main_arg3 (by decide)).trans <|
  (W6_of_ne m ρ c main_arg3 (by decide)).trans <|
  (W5_keep m ρ c main_arg3 (by decide)).trans <|
  (W4_keep m ρ c main_arg3 (by decide)).trans <|
  (W3_keep m ρ c main_arg3 (by decide)).trans <|
  (W2_keep m ρ c main_arg3 (by decide)).trans <|
  (W1_keep m ρ c main_arg3 (by decide)).trans <| rfl

theorem W29_main_arg4 (c : Dev nD) : W29 m ρ c (Proc.devRef .tc main_arg4) = m ((c : Thread nD τ).loc main_arg4) :=
  (W29_keep m ρ c main_arg4 (by decide)).trans <|
  (W28_of_ne m ρ c main_arg4 (by decide)).trans <|
  (W27_keep m ρ c main_arg4 (by decide)).trans <|
  (W26_of_ne m ρ c main_arg4 (by decide)).trans <|
  (W25_keep m ρ c main_arg4 (by decide)).trans <|
  (W24_of_ne m ρ c main_arg4 (by decide)).trans <|
  (W23_keep m ρ c main_arg4 (by decide)).trans <|
  (W22_of_ne m ρ c main_arg4 (by decide)).trans <|
  (W21_keep m ρ c main_arg4 (by decide)).trans <|
  (W20_of_ne m ρ c main_arg4 (by decide)).trans <|
  (W19_keep m ρ c main_arg4 (by decide)).trans <|
  (W18_of_ne m ρ c main_arg4 (by decide)).trans <|
  (W17_keep m ρ c main_arg4 (by decide)).trans <|
  (W16_of_ne m ρ c main_arg4 (by decide)).trans <|
  (W15_keep m ρ c main_arg4 (by decide)).trans <|
  (W14_of_ne m ρ c main_arg4 (by decide)).trans <|
  (W13_keep m ρ c main_arg4 (by decide)).trans <|
  (W12_of_ne m ρ c main_arg4 (by decide)).trans <|
  (W11_keep m ρ c main_arg4 (by decide)).trans <|
  (W10_of_ne m ρ c main_arg4 (by decide)).trans <|
  (W9_keep m ρ c main_arg4 (by decide)).trans <|
  (W8_of_ne m ρ c main_arg4 (by decide)).trans <|
  (W7_keep m ρ c main_arg4 (by decide)).trans <|
  (W6_of_ne m ρ c main_arg4 (by decide)).trans <|
  (W5_keep m ρ c main_arg4 (by decide)).trans <|
  (W4_keep m ρ c main_arg4 (by decide)).trans <|
  (W3_keep m ρ c main_arg4 (by decide)).trans <|
  (W2_keep m ρ c main_arg4 (by decide)).trans <|
  (W1_keep m ρ c main_arg4 (by decide)).trans <| rfl

theorem W29_main_arg5 (c : Dev nD) : W29 m ρ c (Proc.devRef .tc main_arg5) = m ((c : Thread nD τ).loc main_arg5) :=
  (W29_keep m ρ c main_arg5 (by decide)).trans <|
  (W28_of_ne m ρ c main_arg5 (by decide)).trans <|
  (W27_keep m ρ c main_arg5 (by decide)).trans <|
  (W26_of_ne m ρ c main_arg5 (by decide)).trans <|
  (W25_keep m ρ c main_arg5 (by decide)).trans <|
  (W24_of_ne m ρ c main_arg5 (by decide)).trans <|
  (W23_keep m ρ c main_arg5 (by decide)).trans <|
  (W22_of_ne m ρ c main_arg5 (by decide)).trans <|
  (W21_keep m ρ c main_arg5 (by decide)).trans <|
  (W20_of_ne m ρ c main_arg5 (by decide)).trans <|
  (W19_keep m ρ c main_arg5 (by decide)).trans <|
  (W18_of_ne m ρ c main_arg5 (by decide)).trans <|
  (W17_keep m ρ c main_arg5 (by decide)).trans <|
  (W16_of_ne m ρ c main_arg5 (by decide)).trans <|
  (W15_keep m ρ c main_arg5 (by decide)).trans <|
  (W14_of_ne m ρ c main_arg5 (by decide)).trans <|
  (W13_keep m ρ c main_arg5 (by decide)).trans <|
  (W12_of_ne m ρ c main_arg5 (by decide)).trans <|
  (W11_keep m ρ c main_arg5 (by decide)).trans <|
  (W10_of_ne m ρ c main_arg5 (by decide)).trans <|
  (W9_keep m ρ c main_arg5 (by decide)).trans <|
  (W8_of_ne m ρ c main_arg5 (by decide)).trans <|
  (W7_keep m ρ c main_arg5 (by decide)).trans <|
  (W6_of_ne m ρ c main_arg5 (by decide)).trans <|
  (W5_keep m ρ c main_arg5 (by decide)).trans <|
  (W4_keep m ρ c main_arg5 (by decide)).trans <|
  (W3_keep m ρ c main_arg5 (by decide)).trans <|
  (W2_keep m ρ c main_arg5 (by decide)).trans <|
  (W1_keep m ρ c main_arg5 (by decide)).trans <| rfl

theorem W29_main_arg6 (c : Dev nD) : W29 m ρ c (Proc.devRef .tc main_arg6) = m ((c : Thread nD τ).loc main_arg6) :=
  (W29_keep m ρ c main_arg6 (by decide)).trans <|
  (W28_of_ne m ρ c main_arg6 (by decide)).trans <|
  (W27_keep m ρ c main_arg6 (by decide)).trans <|
  (W26_of_ne m ρ c main_arg6 (by decide)).trans <|
  (W25_keep m ρ c main_arg6 (by decide)).trans <|
  (W24_of_ne m ρ c main_arg6 (by decide)).trans <|
  (W23_keep m ρ c main_arg6 (by decide)).trans <|
  (W22_of_ne m ρ c main_arg6 (by decide)).trans <|
  (W21_keep m ρ c main_arg6 (by decide)).trans <|
  (W20_of_ne m ρ c main_arg6 (by decide)).trans <|
  (W19_keep m ρ c main_arg6 (by decide)).trans <|
  (W18_of_ne m ρ c main_arg6 (by decide)).trans <|
  (W17_keep m ρ c main_arg6 (by decide)).trans <|
  (W16_of_ne m ρ c main_arg6 (by decide)).trans <|
  (W15_keep m ρ c main_arg6 (by decide)).trans <|
  (W14_of_ne m ρ c main_arg6 (by decide)).trans <|
  (W13_keep m ρ c main_arg6 (by decide)).trans <|
  (W12_of_ne m ρ c main_arg6 (by decide)).trans <|
  (W11_keep m ρ c main_arg6 (by decide)).trans <|
  (W10_of_ne m ρ c main_arg6 (by decide)).trans <|
  (W9_keep m ρ c main_arg6 (by decide)).trans <|
  (W8_of_ne m ρ c main_arg6 (by decide)).trans <|
  (W7_keep m ρ c main_arg6 (by decide)).trans <|
  (W6_of_ne m ρ c main_arg6 (by decide)).trans <|
  (W5_keep m ρ c main_arg6 (by decide)).trans <|
  (W4_keep m ρ c main_arg6 (by decide)).trans <|
  (W3_keep m ρ c main_arg6 (by decide)).trans <|
  (W2_keep m ρ c main_arg6 (by decide)).trans <|
  (W1_keep m ρ c main_arg6 (by decide)).trans <| rfl

theorem W29_main_arg7 (c : Dev nD) : W29 m ρ c (Proc.devRef .tc main_arg7) = m ((c : Thread nD τ).loc main_arg7) :=
  (W29_keep m ρ c main_arg7 (by decide)).trans <|
  (W28_of_ne m ρ c main_arg7 (by decide)).trans <|
  (W27_keep m ρ c main_arg7 (by decide)).trans <|
  (W26_of_ne m ρ c main_arg7 (by decide)).trans <|
  (W25_keep m ρ c main_arg7 (by decide)).trans <|
  (W24_of_ne m ρ c main_arg7 (by decide)).trans <|
  (W23_keep m ρ c main_arg7 (by decide)).trans <|
  (W22_of_ne m ρ c main_arg7 (by decide)).trans <|
  (W21_keep m ρ c main_arg7 (by decide)).trans <|
  (W20_of_ne m ρ c main_arg7 (by decide)).trans <|
  (W19_keep m ρ c main_arg7 (by decide)).trans <|
  (W18_of_ne m ρ c main_arg7 (by decide)).trans <|
  (W17_keep m ρ c main_arg7 (by decide)).trans <|
  (W16_of_ne m ρ c main_arg7 (by decide)).trans <|
  (W15_keep m ρ c main_arg7 (by decide)).trans <|
  (W14_of_ne m ρ c main_arg7 (by decide)).trans <|
  (W13_keep m ρ c main_arg7 (by decide)).trans <|
  (W12_of_ne m ρ c main_arg7 (by decide)).trans <|
  (W11_keep m ρ c main_arg7 (by decide)).trans <|
  (W10_of_ne m ρ c main_arg7 (by decide)).trans <|
  (W9_keep m ρ c main_arg7 (by decide)).trans <|
  (W8_of_ne m ρ c main_arg7 (by decide)).trans <|
  (W7_keep m ρ c main_arg7 (by decide)).trans <|
  (W6_of_ne m ρ c main_arg7 (by decide)).trans <|
  (W5_keep m ρ c main_arg7 (by decide)).trans <|
  (W4_keep m ρ c main_arg7 (by decide)).trans <|
  (W3_keep m ρ c main_arg7 (by decide)).trans <|
  (W2_keep m ρ c main_arg7 (by decide)).trans <|
  (W1_keep m ρ c main_arg7 (by decide)).trans <| rfl

theorem W29_main_arg8 (c : Dev nD) : W29 m ρ c (Proc.devRef .tc main_arg8) = m ((c : Thread nD τ).loc main_arg8) :=
  (W29_keep m ρ c main_arg8 (by decide)).trans <|
  (W28_of_ne m ρ c main_arg8 (by decide)).trans <|
  (W27_keep m ρ c main_arg8 (by decide)).trans <|
  (W26_of_ne m ρ c main_arg8 (by decide)).trans <|
  (W25_keep m ρ c main_arg8 (by decide)).trans <|
  (W24_of_ne m ρ c main_arg8 (by decide)).trans <|
  (W23_keep m ρ c main_arg8 (by decide)).trans <|
  (W22_of_ne m ρ c main_arg8 (by decide)).trans <|
  (W21_keep m ρ c main_arg8 (by decide)).trans <|
  (W20_of_ne m ρ c main_arg8 (by decide)).trans <|
  (W19_keep m ρ c main_arg8 (by decide)).trans <|
  (W18_of_ne m ρ c main_arg8 (by decide)).trans <|
  (W17_keep m ρ c main_arg8 (by decide)).trans <|
  (W16_of_ne m ρ c main_arg8 (by decide)).trans <|
  (W15_keep m ρ c main_arg8 (by decide)).trans <|
  (W14_of_ne m ρ c main_arg8 (by decide)).trans <|
  (W13_keep m ρ c main_arg8 (by decide)).trans <|
  (W12_of_ne m ρ c main_arg8 (by decide)).trans <|
  (W11_keep m ρ c main_arg8 (by decide)).trans <|
  (W10_of_ne m ρ c main_arg8 (by decide)).trans <|
  (W9_keep m ρ c main_arg8 (by decide)).trans <|
  (W8_of_ne m ρ c main_arg8 (by decide)).trans <|
  (W7_keep m ρ c main_arg8 (by decide)).trans <|
  (W6_of_ne m ρ c main_arg8 (by decide)).trans <|
  (W5_keep m ρ c main_arg8 (by decide)).trans <|
  (W4_keep m ρ c main_arg8 (by decide)).trans <|
  (W3_keep m ρ c main_arg8 (by decide)).trans <|
  (W2_keep m ρ c main_arg8 (by decide)).trans <|
  (W1_keep m ρ c main_arg8 (by decide)).trans <| rfl

theorem W29_main_arg9 (c : Dev nD) : W29 m ρ c (Proc.devRef .tc main_arg9) = m ((c : Thread nD τ).loc main_arg9) :=
  (W29_keep m ρ c main_arg9 (by decide)).trans <|
  (W28_of_ne m ρ c main_arg9 (by decide)).trans <|
  (W27_keep m ρ c main_arg9 (by decide)).trans <|
  (W26_of_ne m ρ c main_arg9 (by decide)).trans <|
  (W25_keep m ρ c main_arg9 (by decide)).trans <|
  (W24_of_ne m ρ c main_arg9 (by decide)).trans <|
  (W23_keep m ρ c main_arg9 (by decide)).trans <|
  (W22_of_ne m ρ c main_arg9 (by decide)).trans <|
  (W21_keep m ρ c main_arg9 (by decide)).trans <|
  (W20_of_ne m ρ c main_arg9 (by decide)).trans <|
  (W19_keep m ρ c main_arg9 (by decide)).trans <|
  (W18_of_ne m ρ c main_arg9 (by decide)).trans <|
  (W17_keep m ρ c main_arg9 (by decide)).trans <|
  (W16_of_ne m ρ c main_arg9 (by decide)).trans <|
  (W15_keep m ρ c main_arg9 (by decide)).trans <|
  (W14_of_ne m ρ c main_arg9 (by decide)).trans <|
  (W13_keep m ρ c main_arg9 (by decide)).trans <|
  (W12_of_ne m ρ c main_arg9 (by decide)).trans <|
  (W11_keep m ρ c main_arg9 (by decide)).trans <|
  (W10_of_ne m ρ c main_arg9 (by decide)).trans <|
  (W9_keep m ρ c main_arg9 (by decide)).trans <|
  (W8_of_ne m ρ c main_arg9 (by decide)).trans <|
  (W7_keep m ρ c main_arg9 (by decide)).trans <|
  (W6_of_ne m ρ c main_arg9 (by decide)).trans <|
  (W5_keep m ρ c main_arg9 (by decide)).trans <|
  (W4_keep m ρ c main_arg9 (by decide)).trans <|
  (W3_keep m ρ c main_arg9 (by decide)).trans <|
  (W2_keep m ρ c main_arg9 (by decide)).trans <|
  (W1_keep m ρ c main_arg9 (by decide)).trans <| rfl

theorem W29_main_arg10 (c : Dev nD) : W29 m ρ c (Proc.devRef .tc main_arg10) = m ((c : Thread nD τ).loc main_arg10) :=
  (W29_keep m ρ c main_arg10 (by decide)).trans <|
  (W28_of_ne m ρ c main_arg10 (by decide)).trans <|
  (W27_keep m ρ c main_arg10 (by decide)).trans <|
  (W26_of_ne m ρ c main_arg10 (by decide)).trans <|
  (W25_keep m ρ c main_arg10 (by decide)).trans <|
  (W24_of_ne m ρ c main_arg10 (by decide)).trans <|
  (W23_keep m ρ c main_arg10 (by decide)).trans <|
  (W22_of_ne m ρ c main_arg10 (by decide)).trans <|
  (W21_keep m ρ c main_arg10 (by decide)).trans <|
  (W20_of_ne m ρ c main_arg10 (by decide)).trans <|
  (W19_keep m ρ c main_arg10 (by decide)).trans <|
  (W18_of_ne m ρ c main_arg10 (by decide)).trans <|
  (W17_keep m ρ c main_arg10 (by decide)).trans <|
  (W16_of_ne m ρ c main_arg10 (by decide)).trans <|
  (W15_keep m ρ c main_arg10 (by decide)).trans <|
  (W14_of_ne m ρ c main_arg10 (by decide)).trans <|
  (W13_keep m ρ c main_arg10 (by decide)).trans <|
  (W12_of_ne m ρ c main_arg10 (by decide)).trans <|
  (W11_keep m ρ c main_arg10 (by decide)).trans <|
  (W10_of_ne m ρ c main_arg10 (by decide)).trans <|
  (W9_keep m ρ c main_arg10 (by decide)).trans <|
  (W8_of_ne m ρ c main_arg10 (by decide)).trans <|
  (W7_keep m ρ c main_arg10 (by decide)).trans <|
  (W6_of_ne m ρ c main_arg10 (by decide)).trans <|
  (W5_keep m ρ c main_arg10 (by decide)).trans <|
  (W4_keep m ρ c main_arg10 (by decide)).trans <|
  (W3_keep m ρ c main_arg10 (by decide)).trans <|
  (W2_keep m ρ c main_arg10 (by decide)).trans <|
  (W1_keep m ρ c main_arg10 (by decide)).trans <| rfl

theorem W29_main_arg11 (c : Dev nD) : W29 m ρ c (Proc.devRef .tc main_arg11) = m ((c : Thread nD τ).loc main_arg11) :=
  (W29_keep m ρ c main_arg11 (by decide)).trans <|
  (W28_of_ne m ρ c main_arg11 (by decide)).trans <|
  (W27_keep m ρ c main_arg11 (by decide)).trans <|
  (W26_of_ne m ρ c main_arg11 (by decide)).trans <|
  (W25_keep m ρ c main_arg11 (by decide)).trans <|
  (W24_of_ne m ρ c main_arg11 (by decide)).trans <|
  (W23_keep m ρ c main_arg11 (by decide)).trans <|
  (W22_of_ne m ρ c main_arg11 (by decide)).trans <|
  (W21_keep m ρ c main_arg11 (by decide)).trans <|
  (W20_of_ne m ρ c main_arg11 (by decide)).trans <|
  (W19_keep m ρ c main_arg11 (by decide)).trans <|
  (W18_of_ne m ρ c main_arg11 (by decide)).trans <|
  (W17_keep m ρ c main_arg11 (by decide)).trans <|
  (W16_of_ne m ρ c main_arg11 (by decide)).trans <|
  (W15_keep m ρ c main_arg11 (by decide)).trans <|
  (W14_of_ne m ρ c main_arg11 (by decide)).trans <|
  (W13_keep m ρ c main_arg11 (by decide)).trans <|
  (W12_of_ne m ρ c main_arg11 (by decide)).trans <|
  (W11_keep m ρ c main_arg11 (by decide)).trans <|
  (W10_of_ne m ρ c main_arg11 (by decide)).trans <|
  (W9_keep m ρ c main_arg11 (by decide)).trans <|
  (W8_of_ne m ρ c main_arg11 (by decide)).trans <|
  (W7_keep m ρ c main_arg11 (by decide)).trans <|
  (W6_of_ne m ρ c main_arg11 (by decide)).trans <|
  (W5_keep m ρ c main_arg11 (by decide)).trans <|
  (W4_keep m ρ c main_arg11 (by decide)).trans <|
  (W3_keep m ρ c main_arg11 (by decide)).trans <|
  (W2_keep m ρ c main_arg11 (by decide)).trans <|
  (W1_keep m ρ c main_arg11 (by decide)).trans <| rfl

theorem W29_main_arg12 (c : Dev nD) : W29 m ρ c (Proc.devRef .tc main_arg12) = m ((c : Thread nD τ).loc main_arg12) :=
  (W29_keep m ρ c main_arg12 (by decide)).trans <|
  (W28_of_ne m ρ c main_arg12 (by decide)).trans <|
  (W27_keep m ρ c main_arg12 (by decide)).trans <|
  (W26_of_ne m ρ c main_arg12 (by decide)).trans <|
  (W25_keep m ρ c main_arg12 (by decide)).trans <|
  (W24_of_ne m ρ c main_arg12 (by decide)).trans <|
  (W23_keep m ρ c main_arg12 (by decide)).trans <|
  (W22_of_ne m ρ c main_arg12 (by decide)).trans <|
  (W21_keep m ρ c main_arg12 (by decide)).trans <|
  (W20_of_ne m ρ c main_arg12 (by decide)).trans <|
  (W19_keep m ρ c main_arg12 (by decide)).trans <|
  (W18_of_ne m ρ c main_arg12 (by decide)).trans <|
  (W17_keep m ρ c main_arg12 (by decide)).trans <|
  (W16_of_ne m ρ c main_arg12 (by decide)).trans <|
  (W15_keep m ρ c main_arg12 (by decide)).trans <|
  (W14_of_ne m ρ c main_arg12 (by decide)).trans <|
  (W13_keep m ρ c main_arg12 (by decide)).trans <|
  (W12_of_ne m ρ c main_arg12 (by decide)).trans <|
  (W11_keep m ρ c main_arg12 (by decide)).trans <|
  (W10_of_ne m ρ c main_arg12 (by decide)).trans <|
  (W9_keep m ρ c main_arg12 (by decide)).trans <|
  (W8_of_ne m ρ c main_arg12 (by decide)).trans <|
  (W7_keep m ρ c main_arg12 (by decide)).trans <|
  (W6_of_ne m ρ c main_arg12 (by decide)).trans <|
  (W5_keep m ρ c main_arg12 (by decide)).trans <|
  (W4_keep m ρ c main_arg12 (by decide)).trans <|
  (W3_keep m ρ c main_arg12 (by decide)).trans <|
  (W2_keep m ρ c main_arg12 (by decide)).trans <|
  (W1_keep m ρ c main_arg12 (by decide)).trans <| rfl

theorem W29_main_arg13 (c : Dev nD) : W29 m ρ c (Proc.devRef .tc main_arg13) = m ((c : Thread nD τ).loc main_arg13) :=
  (W29_keep m ρ c main_arg13 (by decide)).trans <|
  (W28_of_ne m ρ c main_arg13 (by decide)).trans <|
  (W27_keep m ρ c main_arg13 (by decide)).trans <|
  (W26_of_ne m ρ c main_arg13 (by decide)).trans <|
  (W25_keep m ρ c main_arg13 (by decide)).trans <|
  (W24_of_ne m ρ c main_arg13 (by decide)).trans <|
  (W23_keep m ρ c main_arg13 (by decide)).trans <|
  (W22_of_ne m ρ c main_arg13 (by decide)).trans <|
  (W21_keep m ρ c main_arg13 (by decide)).trans <|
  (W20_of_ne m ρ c main_arg13 (by decide)).trans <|
  (W19_keep m ρ c main_arg13 (by decide)).trans <|
  (W18_of_ne m ρ c main_arg13 (by decide)).trans <|
  (W17_keep m ρ c main_arg13 (by decide)).trans <|
  (W16_of_ne m ρ c main_arg13 (by decide)).trans <|
  (W15_keep m ρ c main_arg13 (by decide)).trans <|
  (W14_of_ne m ρ c main_arg13 (by decide)).trans <|
  (W13_keep m ρ c main_arg13 (by decide)).trans <|
  (W12_of_ne m ρ c main_arg13 (by decide)).trans <|
  (W11_keep m ρ c main_arg13 (by decide)).trans <|
  (W10_of_ne m ρ c main_arg13 (by decide)).trans <|
  (W9_keep m ρ c main_arg13 (by decide)).trans <|
  (W8_of_ne m ρ c main_arg13 (by decide)).trans <|
  (W7_keep m ρ c main_arg13 (by decide)).trans <|
  (W6_of_ne m ρ c main_arg13 (by decide)).trans <|
  (W5_keep m ρ c main_arg13 (by decide)).trans <|
  (W4_keep m ρ c main_arg13 (by decide)).trans <|
  (W3_keep m ρ c main_arg13 (by decide)).trans <|
  (W2_keep m ρ c main_arg13 (by decide)).trans <|
  (W1_keep m ρ c main_arg13 (by decide)).trans <| rfl

theorem W29_main_arg14 (c : Dev nD) : W29 m ρ c (Proc.devRef .tc main_arg14) = m ((c : Thread nD τ).loc main_arg14) :=
  (W29_keep m ρ c main_arg14 (by decide)).trans <|
  (W28_of_ne m ρ c main_arg14 (by decide)).trans <|
  (W27_keep m ρ c main_arg14 (by decide)).trans <|
  (W26_of_ne m ρ c main_arg14 (by decide)).trans <|
  (W25_keep m ρ c main_arg14 (by decide)).trans <|
  (W24_of_ne m ρ c main_arg14 (by decide)).trans <|
  (W23_keep m ρ c main_arg14 (by decide)).trans <|
  (W22_of_ne m ρ c main_arg14 (by decide)).trans <|
  (W21_keep m ρ c main_arg14 (by decide)).trans <|
  (W20_of_ne m ρ c main_arg14 (by decide)).trans <|
  (W19_keep m ρ c main_arg14 (by decide)).trans <|
  (W18_of_ne m ρ c main_arg14 (by decide)).trans <|
  (W17_keep m ρ c main_arg14 (by decide)).trans <|
  (W16_of_ne m ρ c main_arg14 (by decide)).trans <|
  (W15_keep m ρ c main_arg14 (by decide)).trans <|
  (W14_of_ne m ρ c main_arg14 (by decide)).trans <|
  (W13_keep m ρ c main_arg14 (by decide)).trans <|
  (W12_of_ne m ρ c main_arg14 (by decide)).trans <|
  (W11_keep m ρ c main_arg14 (by decide)).trans <|
  (W10_of_ne m ρ c main_arg14 (by decide)).trans <|
  (W9_keep m ρ c main_arg14 (by decide)).trans <|
  (W8_of_ne m ρ c main_arg14 (by decide)).trans <|
  (W7_keep m ρ c main_arg14 (by decide)).trans <|
  (W6_of_ne m ρ c main_arg14 (by decide)).trans <|
  (W5_keep m ρ c main_arg14 (by decide)).trans <|
  (W4_keep m ρ c main_arg14 (by decide)).trans <|
  (W3_keep m ρ c main_arg14 (by decide)).trans <|
  (W2_keep m ρ c main_arg14 (by decide)).trans <|
  (W1_keep m ρ c main_arg14 (by decide)).trans <| rfl

theorem W29_main_arg15 (c : Dev nD) : W29 m ρ c (Proc.devRef .tc main_arg15) = m ((c : Thread nD τ).loc main_arg15) :=
  (W29_keep m ρ c main_arg15 (by decide)).trans <|
  (W28_of_ne m ρ c main_arg15 (by decide)).trans <|
  (W27_keep m ρ c main_arg15 (by decide)).trans <|
  (W26_of_ne m ρ c main_arg15 (by decide)).trans <|
  (W25_keep m ρ c main_arg15 (by decide)).trans <|
  (W24_of_ne m ρ c main_arg15 (by decide)).trans <|
  (W23_keep m ρ c main_arg15 (by decide)).trans <|
  (W22_of_ne m ρ c main_arg15 (by decide)).trans <|
  (W21_keep m ρ c main_arg15 (by decide)).trans <|
  (W20_of_ne m ρ c main_arg15 (by decide)).trans <|
  (W19_keep m ρ c main_arg15 (by decide)).trans <|
  (W18_of_ne m ρ c main_arg15 (by decide)).trans <|
  (W17_keep m ρ c main_arg15 (by decide)).trans <|
  (W16_of_ne m ρ c main_arg15 (by decide)).trans <|
  (W15_keep m ρ c main_arg15 (by decide)).trans <|
  (W14_of_ne m ρ c main_arg15 (by decide)).trans <|
  (W13_keep m ρ c main_arg15 (by decide)).trans <|
  (W12_of_ne m ρ c main_arg15 (by decide)).trans <|
  (W11_keep m ρ c main_arg15 (by decide)).trans <|
  (W10_of_ne m ρ c main_arg15 (by decide)).trans <|
  (W9_keep m ρ c main_arg15 (by decide)).trans <|
  (W8_of_ne m ρ c main_arg15 (by decide)).trans <|
  (W7_keep m ρ c main_arg15 (by decide)).trans <|
  (W6_of_ne m ρ c main_arg15 (by decide)).trans <|
  (W5_keep m ρ c main_arg15 (by decide)).trans <|
  (W4_keep m ρ c main_arg15 (by decide)).trans <|
  (W3_keep m ρ c main_arg15 (by decide)).trans <|
  (W2_keep m ρ c main_arg15 (by decide)).trans <|
  (W1_keep m ρ c main_arg15 (by decide)).trans <| rfl

theorem W29_main_arg16 (c : Dev nD) : W29 m ρ c (Proc.devRef .tc main_arg16) = m ((c : Thread nD τ).loc main_arg16) :=
  (W29_keep m ρ c main_arg16 (by decide)).trans <|
  (W28_of_ne m ρ c main_arg16 (by decide)).trans <|
  (W27_keep m ρ c main_arg16 (by decide)).trans <|
  (W26_of_ne m ρ c main_arg16 (by decide)).trans <|
  (W25_keep m ρ c main_arg16 (by decide)).trans <|
  (W24_of_ne m ρ c main_arg16 (by decide)).trans <|
  (W23_keep m ρ c main_arg16 (by decide)).trans <|
  (W22_of_ne m ρ c main_arg16 (by decide)).trans <|
  (W21_keep m ρ c main_arg16 (by decide)).trans <|
  (W20_of_ne m ρ c main_arg16 (by decide)).trans <|
  (W19_keep m ρ c main_arg16 (by decide)).trans <|
  (W18_of_ne m ρ c main_arg16 (by decide)).trans <|
  (W17_keep m ρ c main_arg16 (by decide)).trans <|
  (W16_of_ne m ρ c main_arg16 (by decide)).trans <|
  (W15_keep m ρ c main_arg16 (by decide)).trans <|
  (W14_of_ne m ρ c main_arg16 (by decide)).trans <|
  (W13_keep m ρ c main_arg16 (by decide)).trans <|
  (W12_of_ne m ρ c main_arg16 (by decide)).trans <|
  (W11_keep m ρ c main_arg16 (by decide)).trans <|
  (W10_of_ne m ρ c main_arg16 (by decide)).trans <|
  (W9_keep m ρ c main_arg16 (by decide)).trans <|
  (W8_of_ne m ρ c main_arg16 (by decide)).trans <|
  (W7_keep m ρ c main_arg16 (by decide)).trans <|
  (W6_of_ne m ρ c main_arg16 (by decide)).trans <|
  (W5_keep m ρ c main_arg16 (by decide)).trans <|
  (W4_keep m ρ c main_arg16 (by decide)).trans <|
  (W3_keep m ρ c main_arg16 (by decide)).trans <|
  (W2_keep m ρ c main_arg16 (by decide)).trans <|
  (W1_keep m ρ c main_arg16 (by decide)).trans <| rfl

/-! ## The proof data family and the thread state -/

/-- Every pipeline's proof data, each at its region's entry contents. -/
def pdats : (p : Fin 12) → (c : Dev nD) → Dat τ (Elt F) Unit ℕ (UR sig nD τ) ℕ (Pipeline.pin (pcfgs (F := F)) adm p) c
  | ⟨0, _⟩ => fun c => dat0 (Vt5 m ρ) c
  | ⟨1, _⟩ => fun c => dat1 (Vt7 m ρ) c
  | ⟨2, _⟩ => fun c => dat2 (Vt9 m ρ) c
  | ⟨3, _⟩ => fun c => dat3 (Vt11 m ρ) c
  | ⟨4, _⟩ => fun c => dat4 (Vt13 m ρ) c
  | ⟨5, _⟩ => fun c => dat5 (Vt15 m ρ) c
  | ⟨6, _⟩ => fun c => dat6 (Vt17 m ρ) c
  | ⟨7, _⟩ => fun c => dat7 (Vt19 m ρ) c
  | ⟨8, _⟩ => fun c => dat8 (Vt21 m ρ) c
  | ⟨9, _⟩ => fun c => dat9 (Vt23 m ρ) c
  | ⟨10, _⟩ => fun c => dat10 (Vt25 m ρ) c
  | ⟨11, _⟩ => fun c => dat11 (Vt27 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W29 m ρ c) ∗ ∃ r, prngReg c r)

end Cert.KernelIdeal.Run

end
-- ==== Proof.KISeg0.lean ====
/- Region 0 of the program as a segment of the run: entered from every unscoped buffer at the contents of boundary 5,
   left at those of boundary 6. Its windows' arrays are split out of the unscoped buffers on entry and put back at
   their exit contents; the generator register passes through the region's invariant; nothing is owed; the kernel has
   no semaphore of its own. -/
import proofs.«107201_j32822140076800_2_alg».proof.Proof.KIFold

set_option maxRecDepth 16384

noncomputable section

namespace Cert.KernelIdeal.Run

open Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 0 over the thread state: entered from every unscoped buffer at `W5`, left at `W6`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (Vt5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vt5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vt5 m ρ c) (Vt6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KISeg1.lean ====
/- Region 1 of the program as a segment of the run: entered from every unscoped buffer at the contents of boundary 7,
   left at those of boundary 8. Its windows' arrays are split out of the unscoped buffers on entry and put back at
   their exit contents; the generator register passes through the region's invariant; nothing is owed; the kernel has
   no semaphore of its own. -/
import proofs.«107201_j32822140076800_2_alg».proof.Proof.KIFold

set_option maxRecDepth 16384

noncomputable section

namespace Cert.KernelIdeal.Run

open Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 1 over the thread state: entered from every unscoped buffer at `W7`, left at `W8`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (Vt7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vt7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vt7 m ρ c) (Vt8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KISeg2.lean ====
/- Region 2 of the program as a segment of the run: entered from every unscoped buffer at the contents of boundary 9,
   left at those of boundary 10. Its windows' arrays are split out of the unscoped buffers on entry and put back at
   their exit contents; the generator register passes through the region's invariant; nothing is owed; the kernel has
   no semaphore of its own. -/
import proofs.«107201_j32822140076800_2_alg».proof.Proof.KIFold

set_option maxRecDepth 16384

noncomputable section

namespace Cert.KernelIdeal.Run

open Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 2 over the thread state: entered from every unscoped buffer at `W9`, left at `W10`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (Vt9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vt9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vt9 m ρ c) (Vt10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KISeg3.lean ====
/- Region 3 of the program as a segment of the run: entered from every unscoped buffer at the contents of boundary 11,
   left at those of boundary 12. Its windows' arrays are split out of the unscoped buffers on entry and put back at
   their exit contents; the generator register passes through the region's invariant; nothing is owed; the kernel has
   no semaphore of its own. -/
import proofs.«107201_j32822140076800_2_alg».proof.Proof.KIFold

set_option maxRecDepth 16384

noncomputable section

namespace Cert.KernelIdeal.Run

open Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 3 over the thread state: entered from every unscoped buffer at `W11`, left at `W12`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vt11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (Vt11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vt11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vt11 m ρ c) (Vt12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KISeg4.lean ====
/- Region 4 of the program as a segment of the run: entered from every unscoped buffer at the contents of boundary 13,
   left at those of boundary 14. Its windows' arrays are split out of the unscoped buffers on entry and put back at
   their exit contents; the generator register passes through the region's invariant; nothing is owed; the kernel has
   no semaphore of its own. -/
import proofs.«107201_j32822140076800_2_alg».proof.Proof.KIFold

set_option maxRecDepth 16384

noncomputable section

namespace Cert.KernelIdeal.Run

open Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 4 over the thread state: entered from every unscoped buffer at `W13`, left at `W14`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vt13 m ρ) c).loose
  hwaits := Pipeline.hwaits_of_owed_zero _ _ _ _ L lv 4 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec4 c (Vt13 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vt13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vt13 m ρ c) (Vt14 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KISeg5.lean ====
/- Region 5 of the program as a segment of the run: entered from every unscoped buffer at the contents of boundary 15,
   left at those of boundary 16. Its windows' arrays are split out of the unscoped buffers on entry and put back at
   their exit contents; the generator register passes through the region's invariant; nothing is owed; the kernel has
   no semaphore of its own. -/
import proofs.«107201_j32822140076800_2_alg».proof.Proof.KIFold

set_option maxRecDepth 16384

noncomputable section

namespace Cert.KernelIdeal.Run

open Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 5 over the thread state: entered from every unscoped buffer at `W15`, left at `W16`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vt15 m ρ) c).loose
  hwaits := Pipeline.hwaits_of_owed_zero _ _ _ _ L lv 5 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec5 c (Vt15 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vt15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vt15 m ρ c) (Vt16 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KISeg6.lean ====
/- Region 6 of the program as a segment of the run: entered from every unscoped buffer at the contents of boundary 17,
   left at those of boundary 18. Its windows' arrays are split out of the unscoped buffers on entry and put back at
   their exit contents; the generator register passes through the region's invariant; nothing is owed; the kernel has
   no semaphore of its own. -/
import proofs.«107201_j32822140076800_2_alg».proof.Proof.KIFold

set_option maxRecDepth 16384

noncomputable section

namespace Cert.KernelIdeal.Run

open Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 6 over the thread state: entered from every unscoped buffer at `W17`, left at `W18`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vt17 m ρ) c).loose
  hwaits := Pipeline.hwaits_of_owed_zero _ _ _ _ L lv 6 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec6 c (Vt17 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vt17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vt17 m ρ c) (Vt18 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KISeg7.lean ====
/- Region 7 of the program as a segment of the run: entered from every unscoped buffer at the contents of boundary 19,
   left at those of boundary 20. Its windows' arrays are split out of the unscoped buffers on entry and put back at
   their exit contents; the generator register passes through the region's invariant; nothing is owed; the kernel has
   no semaphore of its own. -/
import proofs.«107201_j32822140076800_2_alg».proof.Proof.KIFold

set_option maxRecDepth 16384

noncomputable section

namespace Cert.KernelIdeal.Run

open Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 7 over the thread state: entered from every unscoped buffer at `W19`, left at `W20`. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vt19 m ρ) c).loose
  hwaits := Pipeline.hwaits_of_owed_zero _ _ _ _ L lv 7 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec7 c (Vt19 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (Vt19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (Vt19 m ρ c) (Vt20 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KISeg8.lean ====
/- Region 8 of the program as a segment of the run: entered from every unscoped buffer at the contents of boundary 21,
   left at those of boundary 22. Its windows' arrays are split out of the unscoped buffers on entry and put back at
   their exit contents; the generator register passes through the region's invariant; nothing is owed; the kernel has
   no semaphore of its own. -/
import proofs.«107201_j32822140076800_2_alg».proof.Proof.KIFold

set_option maxRecDepth 16384

noncomputable section

namespace Cert.KernelIdeal.Run

open Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 8 over the thread state: entered from every unscoped buffer at `W21`, left at `W22`. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vt21 m ρ) c).loose
  hwaits := Pipeline.hwaits_of_owed_zero _ _ _ _ L lv 8 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec8 c (Vt21 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (Vt21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (Vt21 m ρ c) (Vt22 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KISeg9.lean ====
/- Region 9 of the program as a segment of the run: entered from every unscoped buffer at the contents of boundary 23,
   left at those of boundary 24. Its windows' arrays are split out of the unscoped buffers on entry and put back at
   their exit contents; the generator register passes through the region's invariant; nothing is owed; the kernel has
   no semaphore of its own. -/
import proofs.«107201_j32822140076800_2_alg».proof.Proof.KIFold

set_option maxRecDepth 16384

noncomputable section

namespace Cert.KernelIdeal.Run

open Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 9 over the thread state: entered from every unscoped buffer at `W23`, left at `W24`. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vt23 m ρ) c).loose
  hwaits := Pipeline.hwaits_of_owed_zero _ _ _ _ L lv 9 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec9 c (Vt23 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (Vt23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (Vt23 m ρ c) (Vt24 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KISeg10.lean ====
/- Region 10 of the program as a segment of the run: entered from every unscoped buffer at the contents of boundary 25,
   left at those of boundary 26. Its windows' arrays are split out of the unscoped buffers on entry and put back at
   their exit contents; the generator register passes through the region's invariant; nothing is owed; the kernel has
   no semaphore of its own. -/
import proofs.«107201_j32822140076800_2_alg».proof.Proof.KIFold

set_option maxRecDepth 16384

noncomputable section

namespace Cert.KernelIdeal.Run

open Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 10 over the thread state: entered from every unscoped buffer at `W25`, left at `W26`. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vt25 m ρ) c).loose
  hwaits := Pipeline.hwaits_of_owed_zero _ _ _ _ L lv 10 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec10 c (Vt25 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (Vt25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (Vt25 m ρ c) (Vt26 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KISeg11.lean ====
/- Region 11 of the program as a segment of the run: entered from every unscoped buffer at the contents of boundary 27,
   left at those of boundary 28. Its windows' arrays are split out of the unscoped buffers on entry and put back at
   their exit contents; the generator register passes through the region's invariant; nothing is owed; the kernel has
   no semaphore of its own. -/
import proofs.«107201_j32822140076800_2_alg».proof.Proof.KIFold

set_option maxRecDepth 16384

noncomputable section

namespace Cert.KernelIdeal.Run

open Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with the printed configuration only when
-- unification may unfold plain definitions in a metavariable's type
set_option backward.isDefEq.respectTransparency.types false in
/-- Region 11 over the thread state: entered from every unscoped buffer at `W27`, left at `W28`. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vt27 m ρ) c).loose
  hwaits := Pipeline.hwaits_of_owed_zero _ _ _ _ L lv 11 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec11 c (Vt27 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (Vt27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (Vt27 m ρ c) (Vt28 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KIRun.lean ====
/- The program's run as one statement: @main is the run of its 29 items in order, so from any memory with zero
   counters every weakly fair execution terminates, nothing faulting, and the final memory holds every unscoped buffer
   at the last boundary's contents `W29`. The frame statement (every argument array ends as launched) follows by reading
   each argument's buffer back through the fold. -/
import proofs.«107201_j32822140076800_2_alg».proof.Proof.KIFold
import proofs.«107201_j32822140076800_2_alg».proof.Proof.KISeg0
import proofs.«107201_j32822140076800_2_alg».proof.Proof.KISeg1
import proofs.«107201_j32822140076800_2_alg».proof.Proof.KISeg2
import proofs.«107201_j32822140076800_2_alg».proof.Proof.KISeg3
import proofs.«107201_j32822140076800_2_alg».proof.Proof.KISeg4
import proofs.«107201_j32822140076800_2_alg».proof.Proof.KISeg5
import proofs.«107201_j32822140076800_2_alg».proof.Proof.KISeg6
import proofs.«107201_j32822140076800_2_alg».proof.Proof.KISeg7
import proofs.«107201_j32822140076800_2_alg».proof.Proof.KISeg8
import proofs.«107201_j32822140076800_2_alg».proof.Proof.KISeg9
import proofs.«107201_j32822140076800_2_alg».proof.Proof.KISeg10
import proofs.«107201_j32822140076800_2_alg».proof.Proof.KISeg11

set_option maxRecDepth 16384

noncomputable section

namespace Cert.KernelIdeal.Run

open Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 29 items in order: a host segment per stretch from its boundary's contents, a region per kernel call. -/
abbrev ksegs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .region (reg3 m ρ),
    .host (hseg hostOps4 hostOps4_sub hostOps4_fresh (W12 m ρ)),
    .region (reg4 m ρ),
    .host (hseg hostOps5 hostOps5_sub hostOps5_fresh (W14 m ρ)),
    .region (reg5 m ρ),
    .host (hseg hostOps6 hostOps6_sub hostOps6_fresh (W16 m ρ)),
    .region (reg6 m ρ),
    .host (hseg hostOps7 hostOps7_sub hostOps7_fresh (W18 m ρ)),
    .region (reg7 m ρ),
    .host (hseg hostOps8 hostOps8_sub hostOps8_fresh (W20 m ρ)),
    .region (reg8 m ρ),
    .host (hseg hostOps9 hostOps9_sub hostOps9_fresh (W22 m ρ)),
    .region (reg9 m ρ),
    .host (hseg hostOps10 hostOps10_sub hostOps10_fresh (W24 m ρ)),
    .region (reg10 m ρ),
    .host (hseg hostOps11 hostOps11_sub hostOps11_fresh (W26 m ρ)),
    .region (reg11 m ρ),
    .host (hseg hostOps12 hostOps12_sub hostOps12_fresh (W28 m ρ)) ]

/-- @main is the run of the items: it is the chain of their programs, and the items' run unfolds to the same chain. -/
theorem main_run (c : Dev nD) : main (F := F) c = Pipeline.Seg.run (ksegs m ρ) := (main_chain c).trans (by chain_rfl)

-- the launch theorem's implicit arguments are found by unifying its conclusion with this one, which takes unfolding
-- plain definitions in a metavariable's type
set_option backward.isDefEq.respectTransparency.types false in
/-- From any memory with zero counters every weakly fair execution of @main terminates, nothing faulting, and every
    final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W29 m ρ c b) :=
  Pipeline.θ_run_regions_kit (pcfgs (F := F)) adm (pdats m ρ) () cellOf_inj emb₁ defs₀ 𝒱₀ L lv m ρ main (ksegs m ρ)
    (fun c Q => by rw [main_run m ρ c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W29 m ρ c) ∗ R c) : sProp 𝕄)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h => h)

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W29_main_arg0 m ρ c),
      (h c _ (mem_uc main_arg1 (by decide))).trans (W29_main_arg1 m ρ c),
      (h c _ (mem_uc main_arg2 (by decide))).trans (W29_main_arg2 m ρ c),
      (h c _ (mem_uc main_arg3 (by decide))).trans (W29_main_arg3 m ρ c),
      (h c _ (mem_uc main_arg4 (by decide))).trans (W29_main_arg4 m ρ c),
      (h c _ (mem_uc main_arg5 (by decide))).trans (W29_main_arg5 m ρ c),
      (h c _ (mem_uc main_arg6 (by decide))).trans (W29_main_arg6 m ρ c),
      (h c _ (mem_uc main_arg7 (by decide))).trans (W29_main_arg7 m ρ c),
      (h c _ (mem_uc main_arg8 (by decide))).trans (W29_main_arg8 m ρ c),
      (h c _ (mem_uc main_arg9 (by decide))).trans (W29_main_arg9 m ρ c),
      (h c _ (mem_uc main_arg10 (by decide))).trans (W29_main_arg10 m ρ c),
      (h c _ (mem_uc main_arg11 (by decide))).trans (W29_main_arg11 m ρ c),
      (h c _ (mem_uc main_arg12 (by decide))).trans (W29_main_arg12 m ρ c),
      (h c _ (mem_uc main_arg13 (by decide))).trans (W29_main_arg13 m ρ c),
      (h c _ (mem_uc main_arg14 (by decide))).trans (W29_main_arg14 m ρ c),
      (h c _ (mem_uc main_arg15 (by decide))).trans (W29_main_arg15 m ρ c),
      (h c _ (mem_uc main_arg16 (by decide))).trans (W29_main_arg16 m ρ c)⟩) (run_all m ρ)

end Cert.KernelIdeal.Run

end
-- ==== Proof.RefOps.lean ====
/-
  The reference program read as a straight line: its array operations as lists, one list per window of the
  program's text, each entry the operation the text states at that place, and their concatenation.
-/
import proofs.«107201_j32822140076800_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference program's operations 1 … 62 of 433, in order (its window 0; a called function's operations stand in the call's place). -/
abbrev opsP0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.unary main_arg2 main_v4 ((transpose S8x32 [1, 0] · transposes_S32x8_S8x32_1_0) : (⟨S32x8, .f32⟩ : BufTy).Contents (Elt F) → (⟨S8x32, .f32⟩ : BufTy).Contents (Elt F)),
    StableHlo.binary main_arg0 main_v4 main_v5 ((fun l r => Host.dotGeneral dot_S50000x8_S8x32_S50000x32_1_0_0_1_n_n none l r) : (⟨S50000x8, .f32⟩ : BufTy).Contents (Elt F) → (⟨S8x32, .f32⟩ : BufTy).Contents (Elt F) → (⟨S50000x32, .f32⟩ : BufTy).Contents (Elt F)),
    StableHlo.unary main_arg3 main_v6 ((transpose S8x32 [1, 0] · transposes_S32x8_S8x32_1_0) : (⟨S32x8, .f32⟩ : BufTy).Contents (Elt F) → (⟨S8x32, .f32⟩ : BufTy).Contents (Elt F)),
    StableHlo.binary main_arg0 main_v6 main_v7 ((fun l r => Host.dotGeneral dot_S50000x8_S8x32_S50000x32_1_0_0_1_n_n none l r) : (⟨S50000x8, .f32⟩ : BufTy).Contents (Elt F) → (⟨S8x32, .f32⟩ : BufTy).Contents (Elt F) → (⟨S50000x32, .f32⟩ : BufTy).Contents (Elt F)),
    StableHlo.unary main_arg4 main_v8 ((transpose S8x32 [1, 0] · transposes_S32x8_S8x32_1_0) : (⟨S32x8, .f32⟩ : BufTy).Contents (Elt F) → (⟨S8x32, .f32⟩ : BufTy).Contents (Elt F)),
    StableHlo.binary main_arg0 main_v8 main_v9 ((fun l r => Host.dotGeneral dot_S50000x8_S8x32_S50000x32_1_0_0_1_n_n none l r) : (⟨S50000x8, .f32⟩ : BufTy).Contents (Elt F) → (⟨S8x32, .f32⟩ : BufTy).Contents (Elt F) → (⟨S50000x32, .f32⟩ : BufTy).Contents (Elt F)),
    StableHlo.nullary main_cst (constant S_ .f32 0x00000000#32),
    StableHlo.unary main_cst main_v10 (broadcastInDim S50000 ![] bcast_S_S50000 : (⟨S_, .f32⟩ : BufTy).Contents (Elt F) → (⟨S50000, .f32⟩ : BufTy).Contents (Elt F)),
    StableHlo.nullary main_c (constantI S_ 32 0#32),
    StableHlo.unary main_c main_v11 (broadcastInDim S1600000 ![] bcast_S_S1600000 : (⟨S_, .i32⟩ : BufTy).Contents (Elt F) → (⟨S1600000, .i32⟩ : BufTy).Contents (Elt F)),
    StableHlo.binary main_v3 main_v11 main_v12 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 50000#32),
    StableHlo.unary main_c_0 main_v13 (broadcastInDim S1600000 ![] bcast_S_S1600000 : (⟨S_, .i32⟩ : BufTy).Contents (Elt F) → (⟨S1600000, .i32⟩ : BufTy).Contents (Elt F)),
    StableHlo.binary main_v3 main_v13 main_v14 (addi : (⟨S1600000, .i32⟩ : BufTy).Contents (Elt F) → (⟨S1600000, .i32⟩ : BufTy).Contents (Elt F) → (⟨S1600000, .i32⟩ : BufTy).Contents (Elt F)),
    StableHlo.ternary main_v12 main_v14 main_v3 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v15 main_v16 (broadcastInDim S1600000x1 ![0] bcast_S1600000_S1600000x1_0 : (⟨S1600000, .i32⟩ : BufTy).Contents (Elt F) → (⟨S1600000x1, .i32⟩ : BufTy).Contents (Elt F)),
    StableHlo.nullary main_cst_1 (constant S_ .f32 0x3F800000#32),
    StableHlo.unary main_cst_1 main_v17 (broadcastInDim S1600000 ![] bcast_S_S1600000 : (⟨S_, .f32⟩ : BufTy).Contents (Elt F) → (⟨S1600000, .f32⟩ : BufTy).Contents (Elt F)),
    StableHlo.ternary main_v10 main_v16 main_v17 main_v18 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_2 (constant S_ .f32 0x00000000#32),
    StableHlo.unary main_cst_2 main_v19 (broadcastInDim S50000 ![] bcast_S_S50000 : (⟨S_, .f32⟩ : BufTy).Contents (Elt F) → (⟨S50000, .f32⟩ : BufTy).Contents (Elt F)),
    StableHlo.binary main_v18 main_v19 main_v20 (cmpf .ogt : (⟨S50000, .f32⟩ : BufTy).Contents (Elt F) → (⟨S50000, .f32⟩ : BufTy).Contents (Elt F) → (⟨S50000, .i1⟩ : BufTy).Contents (Elt F)),
    StableHlo.nullary main_cst_3 (constant S_ .f32 0x3F800000#32),
    StableHlo.unary main_cst_3 main_v21 (broadcastInDim S50000 ![] bcast_S_S50000 : (⟨S_, .f32⟩ : BufTy).Contents (Elt F) → (⟨S50000, .f32⟩ : BufTy).Contents (Elt F)),
    StableHlo.binary main_v21 main_v18 main_v22 (Host.divf : (⟨S50000, .f32⟩ : BufTy).Contents (Elt F) → (⟨S50000, .f32⟩ : BufTy).Contents (Elt F) → (⟨S50000, .f32⟩ : BufTy).Contents (Elt F)),
    StableHlo.nullary main_cst_4 (constant S_ .f32 0x00000000#32),
    StableHlo.TRef.unary (StableHlo.TRef.of (T := ⟨S_, .f32⟩) main_cst_4) main_call0.v0 id,
    StableHlo.TRef.unary main_call0.v0 main_call0.v1 (broadcastInDim S50000 ![] bcast_S_S50000),
    StableHlo.TRef.ternary (StableHlo.TRef.of (T := ⟨S50000, .i1⟩) main_v20) (StableHlo.TRef.of (T := ⟨S50000, .f32⟩) main_v22) main_call0.v1 main_call0.v2 select,
    StableHlo.nullary main_c_5 (constantI S_ 32 0#32),
    StableHlo.unary main_c_5 main_v24 (broadcastInDim S1600000 ![] bcast_S_S1600000 : (⟨S_, .i32⟩ : BufTy).Contents (Elt F) → (⟨S1600000, .i32⟩ : BufTy).Contents (Elt F)),
    StableHlo.binary main_v3 main_v24 main_v25 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 50000#32),
    StableHlo.unary main_c_6 main_v26 (broadcastInDim S1600000 ![] bcast_S_S1600000 : (⟨S_, .i32⟩ : BufTy).Contents (Elt F) → (⟨S1600000, .i32⟩ : BufTy).Contents (Elt F)),
    StableHlo.binary main_v3 main_v26 main_v27 (addi : (⟨S1600000, .i32⟩ : BufTy).Contents (Elt F) → (⟨S1600000, .i32⟩ : BufTy).Contents (Elt F) → (⟨S1600000, .i32⟩ : BufTy).Contents (Elt F)),
    StableHlo.ternary main_v25 main_v27 main_v3 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v28 main_v29 (broadcastInDim S1600000x1 ![0] bcast_S1600000_S1600000x1_0 : (⟨S1600000, .i32⟩ : BufTy).Contents (Elt F) → (⟨S1600000x1, .i32⟩ : BufTy).Contents (Elt F)),
    StableHlo.binary main_v23 main_v29 main_v30 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v30 main_arg5 main_v31 (mulf : (⟨S1600000, .f32⟩ : BufTy).Contents (Elt F) → (⟨S1600000, .f32⟩ : BufTy).Contents (Elt F) → (⟨S1600000, .f32⟩ : BufTy).Contents (Elt F)),
    StableHlo.unary main_v31 main_v32 (broadcastInDim S1600000x1 ![0] bcast_S1600000_S1600000x1_0 : (⟨S1600000, .f32⟩ : BufTy).Contents (Elt F) → (⟨S1600000x1, .f32⟩ : BufTy).Contents (Elt F)),
    StableHlo.nullary main_c_7 (constantI S_ 32 0#32),
    StableHlo.unary main_c_7 main_v33 (broadcastInDim S1600000 ![] bcast_S_S1600000 : (⟨S_, .i32⟩ : BufTy).Contents (Elt F) → (⟨S1600000, .i32⟩ : BufTy).Contents (Elt F)),
    StableHlo.binary main_v1 main_v33 main_v34 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 50000#32),
    StableHlo.unary main_c_8 main_v35 (broadcastInDim S1600000 ![] bcast_S_S1600000 : (⟨S_, .i32⟩ : BufTy).Contents (Elt F) → (⟨S1600000, .i32⟩ : BufTy).Contents (Elt F)),
    StableHlo.binary main_v1 main_v35 main_v36 (addi : (⟨S1600000, .i32⟩ : BufTy).Contents (Elt F) → (⟨S1600000, .i32⟩ : BufTy).Contents (Elt F) → (⟨S1600000, .i32⟩ : BufTy).Contents (Elt F)),
    StableHlo.ternary main_v34 main_v36 main_v1 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v37 main_v38 (broadcastInDim S1600000x1 ![0] bcast_S1600000_S1600000x1_0 : (⟨S1600000, .i32⟩ : BufTy).Contents (Elt F) → (⟨S1600000x1, .i32⟩ : BufTy).Contents (Elt F)),
    StableHlo.binary main_v5 main_v38 main_v39 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    StableHlo.unary main_v32 main_v40 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v40 main_v39 main_v41 (mulf : (⟨S1600000x32, .f32⟩ : BufTy).Contents (Elt F) → (⟨S1600000x32, .f32⟩ : BufTy).Contents (Elt F) → (⟨S1600000x32, .f32⟩ : BufTy).Contents (Elt F)),
    StableHlo.nullary main_cst_9 (constant S_ .f32 0x00000000#32),
    StableHlo.unary main_cst_9 main_v42 (broadcastInDim S50000x32 ![] bcast_S_S50000x32 : (⟨S_, .f32⟩ : BufTy).Contents (Elt F) → (⟨S50000x32, .f32⟩ : BufTy).Contents (Elt F)),
    StableHlo.nullary main_c_10 (constantI S_ 32 0#32),
    StableHlo.unary main_c_10 main_v43 (broadcastInDim S1600000 ![] bcast_S_S1600000 : (⟨S_, .i32⟩ : BufTy).Contents (Elt F) → (⟨S1600000, .i32⟩ : BufTy).Contents (Elt F)),
    StableHlo.binary main_v3 main_v43 main_v44 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 50000#32),
    StableHlo.unary main_c_11 main_v45 (broadcastInDim S1600000 ![] bcast_S_S1600000 : (⟨S_, .i32⟩ : BufTy).Contents (Elt F) → (⟨S1600000, .i32⟩ : BufTy).Contents (Elt F)) ]

/-- The reference program's operations 63 … 128 of 433, in order (its window 1; a called function's operations stand in the call's place). -/
abbrev opsP1 : List (HloOp τ sig (Elt F)) :=
  [ StableHlo.binary main_v3 main_v45 main_v46 (addi : (⟨S1600000, .i32⟩ : BufTy).Contents (Elt F) → (⟨S1600000, .i32⟩ : BufTy).Contents (Elt F) → (⟨S1600000, .i32⟩ : BufTy).Contents (Elt F)),
    StableHlo.ternary main_v44 main_v46 main_v3 main_v47 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v47 main_v48 (broadcastInDim S1600000x1 ![0] bcast_S1600000_S1600000x1_0 : (⟨S1600000, .i32⟩ : BufTy).Contents (Elt F) → (⟨S1600000x1, .i32⟩ : BufTy).Contents (Elt F)),
    StableHlo.ternary main_v42 main_v48 main_v41 main_v49 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    StableHlo.nullary main_cst_12 (constant S_ .f32 0x00000000#32),
    StableHlo.unary main_cst_12 main_v50 (broadcastInDim S50000 ![] bcast_S_S50000 : (⟨S_, .f32⟩ : BufTy).Contents (Elt F) → (⟨S50000, .f32⟩ : BufTy).Contents (Elt F)),
    StableHlo.nullary main_c_13 (constantI S_ 32 0#32),
    StableHlo.unary main_c_13 main_v51 (broadcastInDim S1600000 ![] bcast_S_S1600000 : (⟨S_, .i32⟩ : BufTy).Contents (Elt F) → (⟨S1600000, .i32⟩ : BufTy).Contents (Elt F)),
    StableHlo.binary main_v1 main_v51 main_v52 (cmpi .slt : (⟨S1600000, .i32⟩ : BufTy).Contents (Elt F) → (⟨S1600000, .i32⟩ : BufTy).Contents (Elt F) → (⟨S1600000, .i1⟩ : BufTy).Contents (Elt F)),
    StableHlo.nullary main_c_14 (constantI S_ 32 50000#32),
    StableHlo.unary main_c_14 main_v53 (broadcastInDim S1600000 ![] bcast_S_S1600000 : (⟨S_, .i32⟩ : BufTy).Contents (Elt F) → (⟨S1600000, .i32⟩ : BufTy).Contents (Elt F)),
    StableHlo.binary main_v1 main_v53 main_v54 (addi : (⟨S1600000, .i32⟩ : BufTy).Contents (Elt F) → (⟨S1600000, .i32⟩ : BufTy).Contents (Elt F) → (⟨S1600000, .i32⟩ : BufTy).Contents (Elt F)),
    StableHlo.ternary main_v52 main_v54 main_v1 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v55 main_v56 (broadcastInDim S1600000x1 ![0] bcast_S1600000_S1600000x1_0 : (⟨S1600000, .i32⟩ : BufTy).Contents (Elt F) → (⟨S1600000x1, .i32⟩ : BufTy).Contents (Elt F)),
    StableHlo.nullary main_cst_15 (constant S_ .f32 0x3F800000#32),
    StableHlo.unary main_cst_15 main_v57 (broadcastInDim S1600000 ![] bcast_S_S1600000 : (⟨S_, .f32⟩ : BufTy).Contents (Elt F) → (⟨S1600000, .f32⟩ : BufTy).Contents (Elt F)),
    StableHlo.ternary main_v50 main_v56 main_v57 main_v58 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_16 (constant S_ .f32 0x00000000#32),
    StableHlo.unary main_cst_16 main_v59 (broadcastInDim S50000 ![] bcast_S_S50000 : (⟨S_, .f32⟩ : BufTy).Contents (Elt F) → (⟨S50000, .f32⟩ : BufTy).Contents (Elt F)),
    StableHlo.binary main_v58 main_v59 main_v60 (cmpf .ogt : (⟨S50000, .f32⟩ : BufTy).Contents (Elt F) → (⟨S50000, .f32⟩ : BufTy).Contents (Elt F) → (⟨S50000, .i1⟩ : BufTy).Contents (Elt F)),
    StableHlo.nullary main_cst_17 (constant S_ .f32 0x3F800000#32),
    StableHlo.unary main_cst_17 main_v61 (broadcastInDim S50000 ![] bcast_S_S50000 : (⟨S_, .f32⟩ : BufTy).Contents (Elt F) → (⟨S50000, .f32⟩ : BufTy).Contents (Elt F)),
    StableHlo.binary main_v61 main_v58 main_v62 (Host.divf : (⟨S50000, .f32⟩ : BufTy).Contents (Elt F) → (⟨S50000, .f32⟩ : BufTy).Contents (Elt F) → (⟨S50000, .f32⟩ : BufTy).Contents (Elt F)),
    StableHlo.nullary main_cst_18 (constant S_ .f32 0x00000000#32),
    StableHlo.TRef.unary (StableHlo.TRef.of (T := ⟨S_, .f32⟩) main_cst_18) main_call1.v0 id,
    StableHlo.TRef.unary main_call1.v0 main_call1.v1 (broadcastInDim S50000 ![] bcast_S_S50000),
    StableHlo.TRef.ternary (StableHlo.TRef.of (T := ⟨S50000, .i1⟩) main_v60) (StableHlo.TRef.of (T := ⟨S50000, .f32⟩) main_v62) main_call1.v1 main_call1.v2 select,
    StableHlo.nullary main_c_19 (constantI S_ 32 0#32),
    StableHlo.unary main_c_19 main_v64 (broadcastInDim S1600000 ![] bcast_S_S1600000 : (⟨S_, .i32⟩ : BufTy).Contents (Elt F) → (⟨S1600000, .i32⟩ : BufTy).Contents (Elt F)),
    StableHlo.binary main_v1 main_v64 main_v65 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 50000#32),
    StableHlo.unary main_c_20 main_v66 (broadcastInDim S1600000 ![] bcast_S_S1600000 : (⟨S_, .i32⟩ : BufTy).Contents (Elt F) → (⟨S1600000, .i32⟩ : BufTy).Contents (Elt F)),
    StableHlo.binary main_v1 main_v66 main_v67 (addi : (⟨S1600000, .i32⟩ : BufTy).Contents (Elt F) → (⟨S1600000, .i32⟩ : BufTy).Contents (Elt F) → (⟨S1600000, .i32⟩ : BufTy).Contents (Elt F)),
    StableHlo.ternary main_v65 main_v67 main_v1 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v68 main_v69 (broadcastInDim S1600000x1 ![0] bcast_S1600000_S1600000x1_0 : (⟨S1600000, .i32⟩ : BufTy).Contents (Elt F) → (⟨S1600000x1, .i32⟩ : BufTy).Contents (Elt F)),
    StableHlo.binary main_v63 main_v69 main_v70 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v70 main_arg6 main_v71 (mulf : (⟨S1600000, .f32⟩ : BufTy).Contents (Elt F) → (⟨S1600000, .f32⟩ : BufTy).Contents (Elt F) → (⟨S1600000, .f32⟩ : BufTy).Contents (Elt F)),
    StableHlo.unary main_v71 main_v72 (broadcastInDim S1600000x1 ![0] bcast_S1600000_S1600000x1_0 : (⟨S1600000, .f32⟩ : BufTy).Contents (Elt F) → (⟨S1600000x1, .f32⟩ : BufTy).Contents (Elt F)),
    StableHlo.nullary main_c_21 (constantI S_ 32 0#32),
    StableHlo.unary main_c_21 main_v73 (broadcastInDim S1600000 ![] bcast_S_S1600000 : (⟨S_, .i32⟩ : BufTy).Contents (Elt F) → (⟨S1600000, .i32⟩ : BufTy).Contents (Elt F)),
    StableHlo.binary main_v3 main_v73 main_v74 (cmpi .slt : (⟨S1600000, .i32⟩ : BufTy).Contents (Elt F) → (⟨S1600000, .i32⟩ : BufTy).Contents (Elt F) → (⟨S1600000, .i1⟩ : BufTy).Contents (Elt F)),
    StableHlo.nullary main_c_22 (constantI S_ 32 50000#32),
    StableHlo.unary main_c_22 main_v75 (broadcastInDim S1600000 ![] bcast_S_S1600000 : (⟨S_, .i32⟩ : BufTy).Contents (Elt F) → (⟨S1600000, .i32⟩ : BufTy).Contents (Elt F)),
    StableHlo.binary main_v3 main_v75 main_v76 (addi : (⟨S1600000, .i32⟩ : BufTy).Contents (Elt F) → (⟨S1600000, .i32⟩ : BufTy).Contents (Elt F) → (⟨S1600000, .i32⟩ : BufTy).Contents (Elt F)),
    StableHlo.ternary main_v74 main_v76 main_v3 main_v77 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v77 main_v78 (broadcastInDim S1600000x1 ![0] bcast_S1600000_S1600000x1_0 : (⟨S1600000, .i32⟩ : BufTy).Contents (Elt F) → (⟨S1600000x1, .i32⟩ : BufTy).Contents (Elt F)),
    StableHlo.binary main_v7 main_v78 main_v79 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    StableHlo.unary main_v72 main_v80 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v80 main_v79 main_v81 (mulf : (⟨S1600000x32, .f32⟩ : BufTy).Contents (Elt F) → (⟨S1600000x32, .f32⟩ : BufTy).Contents (Elt F) → (⟨S1600000x32, .f32⟩ : BufTy).Contents (Elt F)),
    StableHlo.nullary main_cst_23 (constant S_ .f32 0x00000000#32),
    StableHlo.unary main_cst_23 main_v82 (broadcastInDim S50000x32 ![] bcast_S_S50000x32 : (⟨S_, .f32⟩ : BufTy).Contents (Elt F) → (⟨S50000x32, .f32⟩ : BufTy).Contents (Elt F)),
    StableHlo.nullary main_c_24 (constantI S_ 32 0#32),
    StableHlo.unary main_c_24 main_v83 (broadcastInDim S1600000 ![] bcast_S_S1600000 : (⟨S_, .i32⟩ : BufTy).Contents (Elt F) → (⟨S1600000, .i32⟩ : BufTy).Contents (Elt F)),
    StableHlo.binary main_v1 main_v83 main_v84 (cmpi .slt : (⟨S1600000, .i32⟩ : BufTy).Contents (Elt F) → (⟨S1600000, .i32⟩ : BufTy).Contents (Elt F) → (⟨S1600000, .i1⟩ : BufTy).Contents (Elt F)),
    StableHlo.nullary main_c_25 (constantI S_ 32 50000#32),
    StableHlo.unary main_c_25 main_v85 (broadcastInDim S1600000 ![] bcast_S_S1600000 : (⟨S_, .i32⟩ : BufTy).Contents (Elt F) → (⟨S1600000, .i32⟩ : BufTy).Contents (Elt F)),
    StableHlo.binary main_v1 main_v85 main_v86 (addi : (⟨S1600000, .i32⟩ : BufTy).Contents (Elt F) → (⟨S1600000, .i32⟩ : BufTy).Contents (Elt F) → (⟨S1600000, .i32⟩ : BufTy).Contents (Elt F)),
    StableHlo.ternary main_v84 main_v86 main_v1 main_v87 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v87 main_v88 (broadcastInDim S1600000x1 ![0] bcast_S1600000_S1600000x1_0 : (⟨S1600000, .i32⟩ : BufTy).Contents (Elt F) → (⟨S1600000x1, .i32⟩ : BufTy).Contents (Elt F)),
    StableHlo.ternary main_v82 main_v88 main_v81 main_v89 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    StableHlo.nary ![main_v49, main_v89, main_v9] main_v90 (fun u => concatenate S50000x96 1 [⟨S50000x32, u 0⟩, ⟨S50000x32, u 1⟩, ⟨S50000x32, u 2⟩] concatenates_S50000x32_S50000x32_S50000x32_S50000x96_d1),
    StableHlo.TRef.binary (StableHlo.TRef.of (T := ⟨S50000x96, .f32⟩) main_v90) (StableHlo.TRef.of (T := ⟨S50000x96, .f32⟩) main_v90) main_call2.v0 mulf,
    StableHlo.TRef.nullary main_call2.cst (constant S_ .f32 0x00000000#32),
    StableHlo.TRef.binary main_call2.v0 main_call2.cst main_call2.v1 (fun x v => Host.reduceAdd x v reducesTo_S50000x96_S50000_d1 h_S_),
    StableHlo.TRef.unary main_call2.v1 main_call2.v2 (broadcastInDim S50000x1 ![0] bcast_S50000_S50000x1_0),
    StableHlo.TRef.unary main_call2.v2 main_call2.v3 Host.sqrt ]

/-- The reference program's operations 129 … 196 of 433, in order (its window 2; a called function's operations stand in the call's place). -/
abbrev opsP2 : List (HloOp τ sig (Elt F)) :=
  [ StableHlo.nullary main_cst_26 (constant S_ .f32 0x2B8CBCCC#32),
    StableHlo.unary main_cst_26 main_v92 (broadcastInDim S50000x1 ![] bcast_S_S50000x1 : (⟨S_, .f32⟩ : BufTy).Contents (Elt F) → (⟨S50000x1, .f32⟩ : BufTy).Contents (Elt F)),
    StableHlo.binary main_v91 main_v92 main_v93 (maximumf : (⟨S50000x1, .f32⟩ : BufTy).Contents (Elt F) → (⟨S50000x1, .f32⟩ : BufTy).Contents (Elt F) → (⟨S50000x1, .f32⟩ : BufTy).Contents (Elt F)),
    StableHlo.unary main_v93 main_v94 (broadcastInDim S50000x96 ![0, 1] bcast_S50000x1_S50000x96_0_1 : (⟨S50000x1, .f32⟩ : BufTy).Contents (Elt F) → (⟨S50000x96, .f32⟩ : BufTy).Contents (Elt F)),
    StableHlo.binary main_v90 main_v94 main_v95 (Host.divf : (⟨S50000x96, .f32⟩ : BufTy).Contents (Elt F) → (⟨S50000x96, .f32⟩ : BufTy).Contents (Elt F) → (⟨S50000x96, .f32⟩ : BufTy).Contents (Elt F)),
    StableHlo.nullary main_cst_27 (constant S_ .f32 0x3DCCCCCD#32),
    StableHlo.TRef.nullary main_call3.cst (constant S_ .f32 0x00000000#32),
    StableHlo.TRef.unary main_call3.cst main_call3.v0 (broadcastInDim S50000x96 ![] bcast_S_S50000x96),
    StableHlo.TRef.binary (StableHlo.TRef.of (T := ⟨S50000x96, .f32⟩) main_v95) main_call3.v0 main_call3.v1 (cmpf .oge),
    StableHlo.TRef.unary (StableHlo.TRef.of (T := ⟨S_, .f32⟩) main_cst_27) main_call3.v2 id,
    StableHlo.TRef.unary main_call3.v2 main_call3.v3 (broadcastInDim S50000x96 ![] bcast_S_S50000x96),
    StableHlo.TRef.binary main_call3.v3 (StableHlo.TRef.of (T := ⟨S50000x96, .f32⟩) main_v95) main_call3.v4 mulf,
    StableHlo.TRef.ternary main_call3.v1 (StableHlo.TRef.of (T := ⟨S50000x96, .f32⟩) main_v95) main_call3.v4 main_call3.call0.v0 select,
    StableHlo.unary main_arg1 main_v97 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v97 main_v98 rfl shapeCasts_S1x1600000_S1600000,
    StableHlo.unary main_arg1 main_v99 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v99 main_v100 rfl shapeCasts_S1x1600000_S1600000,
    StableHlo.unary main_arg7 main_v101 ((transpose S96x32 [1, 0] · transposes_S32x96_S96x32_1_0) : (⟨S32x96, .f32⟩ : BufTy).Contents (Elt F) → (⟨S96x32, .f32⟩ : BufTy).Contents (Elt F)),
    StableHlo.binary main_v96 main_v101 main_v102 ((fun l r => Host.dotGeneral dot_S50000x96_S96x32_S50000x32_1_0_0_1_n_n none l r) : (⟨S50000x96, .f32⟩ : BufTy).Contents (Elt F) → (⟨S96x32, .f32⟩ : BufTy).Contents (Elt F) → (⟨S50000x32, .f32⟩ : BufTy).Contents (Elt F)),
    StableHlo.unary main_arg8 main_v103 ((transpose S96x32 [1, 0] · transposes_S32x96_S96x32_1_0) : (⟨S32x96, .f32⟩ : BufTy).Contents (Elt F) → (⟨S96x32, .f32⟩ : BufTy).Contents (Elt F)),
    StableHlo.binary main_v96 main_v103 main_v104 ((fun l r => Host.dotGeneral dot_S50000x96_S96x32_S50000x32_1_0_0_1_n_n none l r) : (⟨S50000x96, .f32⟩ : BufTy).Contents (Elt F) → (⟨S96x32, .f32⟩ : BufTy).Contents (Elt F) → (⟨S50000x32, .f32⟩ : BufTy).Contents (Elt F)),
    StableHlo.unary main_arg9 main_v105 ((transpose S96x32 [1, 0] · transposes_S32x96_S96x32_1_0) : (⟨S32x96, .f32⟩ : BufTy).Contents (Elt F) → (⟨S96x32, .f32⟩ : BufTy).Contents (Elt F)),
    StableHlo.binary main_v96 main_v105 main_v106 ((fun l r => Host.dotGeneral dot_S50000x96_S96x32_S50000x32_1_0_0_1_n_n none l r) : (⟨S50000x96, .f32⟩ : BufTy).Contents (Elt F) → (⟨S96x32, .f32⟩ : BufTy).Contents (Elt F) → (⟨S50000x32, .f32⟩ : BufTy).Contents (Elt F)),
    StableHlo.nullary main_cst_28 (constant S_ .f32 0x00000000#32),
    StableHlo.unary main_cst_28 main_v107 (broadcastInDim S50000 ![] bcast_S_S50000 : (⟨S_, .f32⟩ : BufTy).Contents (Elt F) → (⟨S50000, .f32⟩ : BufTy).Contents (Elt F)),
    StableHlo.nullary main_c_29 (constantI S_ 32 0#32),
    StableHlo.unary main_c_29 main_v108 (broadcastInDim S1600000 ![] bcast_S_S1600000 : (⟨S_, .i32⟩ : BufTy).Contents (Elt F) → (⟨S1600000, .i32⟩ : BufTy).Contents (Elt F)),
    StableHlo.binary main_v100 main_v108 main_v109 (cmpi .slt : (⟨S1600000, .i32⟩ : BufTy).Contents (Elt F) → (⟨S1600000, .i32⟩ : BufTy).Contents (Elt F) → (⟨S1600000, .i1⟩ : BufTy).Contents (Elt F)),
    StableHlo.nullary main_c_30 (constantI S_ 32 50000#32),
    StableHlo.unary main_c_30 main_v110 (broadcastInDim S1600000 ![] bcast_S_S1600000 : (⟨S_, .i32⟩ : BufTy).Contents (Elt F) → (⟨S1600000, .i32⟩ : BufTy).Contents (Elt F)),
    StableHlo.binary main_v100 main_v110 main_v111 (addi : (⟨S1600000, .i32⟩ : BufTy).Contents (Elt F) → (⟨S1600000, .i32⟩ : BufTy).Contents (Elt F) → (⟨S1600000, .i32⟩ : BufTy).Contents (Elt F)),
    StableHlo.ternary main_v109 main_v111 main_v100 main_v112 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v112 main_v113 (broadcastInDim S1600000x1 ![0] bcast_S1600000_S1600000x1_0 : (⟨S1600000, .i32⟩ : BufTy).Contents (Elt F) → (⟨S1600000x1, .i32⟩ : BufTy).Contents (Elt F)),
    StableHlo.nullary main_cst_31 (constant S_ .f32 0x3F800000#32),
    StableHlo.unary main_cst_31 main_v114 (broadcastInDim S1600000 ![] bcast_S_S1600000 : (⟨S_, .f32⟩ : BufTy).Contents (Elt F) → (⟨S1600000, .f32⟩ : BufTy).Contents (Elt F)),
    StableHlo.ternary main_v107 main_v113 main_v114 main_v115 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_32 (constant S_ .f32 0x00000000#32),
    StableHlo.unary main_cst_32 main_v116 (broadcastInDim S50000 ![] bcast_S_S50000 : (⟨S_, .f32⟩ : BufTy).Contents (Elt F) → (⟨S50000, .f32⟩ : BufTy).Contents (Elt F)),
    StableHlo.binary main_v115 main_v116 main_v117 (cmpf .ogt : (⟨S50000, .f32⟩ : BufTy).Contents (Elt F) → (⟨S50000, .f32⟩ : BufTy).Contents (Elt F) → (⟨S50000, .i1⟩ : BufTy).Contents (Elt F)),
    StableHlo.nullary main_cst_33 (constant S_ .f32 0x3F800000#32),
    StableHlo.unary main_cst_33 main_v118 (broadcastInDim S50000 ![] bcast_S_S50000 : (⟨S_, .f32⟩ : BufTy).Contents (Elt F) → (⟨S50000, .f32⟩ : BufTy).Contents (Elt F)),
    StableHlo.binary main_v118 main_v115 main_v119 (Host.divf : (⟨S50000, .f32⟩ : BufTy).Contents (Elt F) → (⟨S50000, .f32⟩ : BufTy).Contents (Elt F) → (⟨S50000, .f32⟩ : BufTy).Contents (Elt F)),
    StableHlo.nullary main_cst_34 (constant S_ .f32 0x00000000#32),
    StableHlo.TRef.unary (StableHlo.TRef.of (T := ⟨S_, .f32⟩) main_cst_34) main_call4.v0 id,
    StableHlo.TRef.unary main_call4.v0 main_call4.v1 (broadcastInDim S50000 ![] bcast_S_S50000),
    StableHlo.TRef.ternary (StableHlo.TRef.of (T := ⟨S50000, .i1⟩) main_v117) (StableHlo.TRef.of (T := ⟨S50000, .f32⟩) main_v119) main_call4.v1 main_call4.v2 select,
    StableHlo.nullary main_c_35 (constantI S_ 32 0#32),
    StableHlo.unary main_c_35 main_v121 (broadcastInDim S1600000 ![] bcast_S_S1600000 : (⟨S_, .i32⟩ : BufTy).Contents (Elt F) → (⟨S1600000, .i32⟩ : BufTy).Contents (Elt F)),
    StableHlo.binary main_v100 main_v121 main_v122 (cmpi .slt : (⟨S1600000, .i32⟩ : BufTy).Contents (Elt F) → (⟨S1600000, .i32⟩ : BufTy).Contents (Elt F) → (⟨S1600000, .i1⟩ : BufTy).Contents (Elt F)),
    StableHlo.nullary main_c_36 (constantI S_ 32 50000#32),
    StableHlo.unary main_c_36 main_v123 (broadcastInDim S1600000 ![] bcast_S_S1600000 : (⟨S_, .i32⟩ : BufTy).Contents (Elt F) → (⟨S1600000, .i32⟩ : BufTy).Contents (Elt F)),
    StableHlo.binary main_v100 main_v123 main_v124 (addi : (⟨S1600000, .i32⟩ : BufTy).Contents (Elt F) → (⟨S1600000, .i32⟩ : BufTy).Contents (Elt F) → (⟨S1600000, .i32⟩ : BufTy).Contents (Elt F)),
    StableHlo.ternary main_v122 main_v124 main_v100 main_v125 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v125 main_v126 (broadcastInDim S1600000x1 ![0] bcast_S1600000_S1600000x1_0 : (⟨S1600000, .i32⟩ : BufTy).Contents (Elt F) → (⟨S1600000x1, .i32⟩ : BufTy).Contents (Elt F)),
    StableHlo.binary main_v120 main_v126 main_v127 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v127 main_arg10 main_v128 (mulf : (⟨S1600000, .f32⟩ : BufTy).Contents (Elt F) → (⟨S1600000, .f32⟩ : BufTy).Contents (Elt F) → (⟨S1600000, .f32⟩ : BufTy).Contents (Elt F)),
    StableHlo.unary main_v128 main_v129 (broadcastInDim S1600000x1 ![0] bcast_S1600000_S1600000x1_0 : (⟨S1600000, .f32⟩ : BufTy).Contents (Elt F) → (⟨S1600000x1, .f32⟩ : BufTy).Contents (Elt F)),
    StableHlo.nullary main_c_37 (constantI S_ 32 0#32),
    StableHlo.unary main_c_37 main_v130 (broadcastInDim S1600000 ![] bcast_S_S1600000 : (⟨S_, .i32⟩ : BufTy).Contents (Elt F) → (⟨S1600000, .i32⟩ : BufTy).Contents (Elt F)),
    StableHlo.binary main_v98 main_v130 main_v131 (cmpi .slt : (⟨S1600000, .i32⟩ : BufTy).Contents (Elt F) → (⟨S1600000, .i32⟩ : BufTy).Contents (Elt F) → (⟨S1600000, .i1⟩ : BufTy).Contents (Elt F)),
    StableHlo.nullary main_c_38 (constantI S_ 32 50000#32),
    StableHlo.unary main_c_38 main_v132 (broadcastInDim S1600000 ![] bcast_S_S1600000 : (⟨S_, .i32⟩ : BufTy).Contents (Elt F) → (⟨S1600000, .i32⟩ : BufTy).Contents (Elt F)),
    StableHlo.binary main_v98 main_v132 main_v133 (addi : (⟨S1600000, .i32⟩ : BufTy).Contents (Elt F) → (⟨S1600000, .i32⟩ : BufTy).Contents (Elt F) → (⟨S1600000, .i32⟩ : BufTy).Contents (Elt F)),
    StableHlo.ternary main_v131 main_v133 main_v98 main_v134 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v134 main_v135 (broadcastInDim S1600000x1 ![0] bcast_S1600000_S1600000x1_0 : (⟨S1600000, .i32⟩ : BufTy).Contents (Elt F) → (⟨S1600000x1, .i32⟩ : BufTy).Contents (Elt F)),
    StableHlo.binary main_v102 main_v135 main_v136 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    StableHlo.unary main_v129 main_v137 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v137 main_v136 main_v138 (mulf : (⟨S1600000x32, .f32⟩ : BufTy).Contents (Elt F) → (⟨S1600000x32, .f32⟩ : BufTy).Contents (Elt F) → (⟨S1600000x32, .f32⟩ : BufTy).Contents (Elt F)) ]

/-- The reference program's operations 197 … 258 of 433, in order (its window 3; a called function's operations stand in the call's place). -/
abbrev opsP3 : List (HloOp τ sig (Elt F)) :=
  [ StableHlo.nullary main_cst_39 (constant S_ .f32 0x00000000#32),
    StableHlo.unary main_cst_39 main_v139 (broadcastInDim S50000x32 ![] bcast_S_S50000x32 : (⟨S_, .f32⟩ : BufTy).Contents (Elt F) → (⟨S50000x32, .f32⟩ : BufTy).Contents (Elt F)),
    StableHlo.nullary main_c_40 (constantI S_ 32 0#32),
    StableHlo.unary main_c_40 main_v140 (broadcastInDim S1600000 ![] bcast_S_S1600000 : (⟨S_, .i32⟩ : BufTy).Contents (Elt F) → (⟨S1600000, .i32⟩ : BufTy).Contents (Elt F)),
    StableHlo.binary main_v100 main_v140 main_v141 (cmpi .slt : (⟨S1600000, .i32⟩ : BufTy).Contents (Elt F) → (⟨S1600000, .i32⟩ : BufTy).Contents (Elt F) → (⟨S1600000, .i1⟩ : BufTy).Contents (Elt F)),
    StableHlo.nullary main_c_41 (constantI S_ 32 50000#32),
    StableHlo.unary main_c_41 main_v142 (broadcastInDim S1600000 ![] bcast_S_S1600000 : (⟨S_, .i32⟩ : BufTy).Contents (Elt F) → (⟨S1600000, .i32⟩ : BufTy).Contents (Elt F)),
    StableHlo.binary main_v100 main_v142 main_v143 (addi : (⟨S1600000, .i32⟩ : BufTy).Contents (Elt F) → (⟨S1600000, .i32⟩ : BufTy).Contents (Elt F) → (⟨S1600000, .i32⟩ : BufTy).Contents (Elt F)),
    StableHlo.ternary main_v141 main_v143 main_v100 main_v144 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v144 main_v145 (broadcastInDim S1600000x1 ![0] bcast_S1600000_S1600000x1_0 : (⟨S1600000, .i32⟩ : BufTy).Contents (Elt F) → (⟨S1600000x1, .i32⟩ : BufTy).Contents (Elt F)),
    StableHlo.ternary main_v139 main_v145 main_v138 main_v146 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    StableHlo.nullary main_cst_42 (constant S_ .f32 0x00000000#32),
    StableHlo.unary main_cst_42 main_v147 (broadcastInDim S50000 ![] bcast_S_S50000 : (⟨S_, .f32⟩ : BufTy).Contents (Elt F) → (⟨S50000, .f32⟩ : BufTy).Contents (Elt F)),
    StableHlo.nullary main_c_43 (constantI S_ 32 0#32),
    StableHlo.unary main_c_43 main_v148 (broadcastInDim S1600000 ![] bcast_S_S1600000 : (⟨S_, .i32⟩ : BufTy).Contents (Elt F) → (⟨S1600000, .i32⟩ : BufTy).Contents (Elt F)),
    StableHlo.binary main_v98 main_v148 main_v149 (cmpi .slt : (⟨S1600000, .i32⟩ : BufTy).Contents (Elt F) → (⟨S1600000, .i32⟩ : BufTy).Contents (Elt F) → (⟨S1600000, .i1⟩ : BufTy).Contents (Elt F)),
    StableHlo.nullary main_c_44 (constantI S_ 32 50000#32),
    StableHlo.unary main_c_44 main_v150 (broadcastInDim S1600000 ![] bcast_S_S1600000 : (⟨S_, .i32⟩ : BufTy).Contents (Elt F) → (⟨S1600000, .i32⟩ : BufTy).Contents (Elt F)),
    StableHlo.binary main_v98 main_v150 main_v151 (addi : (⟨S1600000, .i32⟩ : BufTy).Contents (Elt F) → (⟨S1600000, .i32⟩ : BufTy).Contents (Elt F) → (⟨S1600000, .i32⟩ : BufTy).Contents (Elt F)),
    StableHlo.ternary main_v149 main_v151 main_v98 main_v152 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v152 main_v153 (broadcastInDim S1600000x1 ![0] bcast_S1600000_S1600000x1_0 : (⟨S1600000, .i32⟩ : BufTy).Contents (Elt F) → (⟨S1600000x1, .i32⟩ : BufTy).Contents (Elt F)),
    StableHlo.nullary main_cst_45 (constant S_ .f32 0x3F800000#32),
    StableHlo.unary main_cst_45 main_v154 (broadcastInDim S1600000 ![] bcast_S_S1600000 : (⟨S_, .f32⟩ : BufTy).Contents (Elt F) → (⟨S1600000, .f32⟩ : BufTy).Contents (Elt F)),
    StableHlo.ternary main_v147 main_v153 main_v154 main_v155 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_46 (constant S_ .f32 0x00000000#32),
    StableHlo.unary main_cst_46 main_v156 (broadcastInDim S50000 ![] bcast_S_S50000 : (⟨S_, .f32⟩ : BufTy).Contents (Elt F) → (⟨S50000, .f32⟩ : BufTy).Contents (Elt F)),
    StableHlo.binary main_v155 main_v156 main_v157 (cmpf .ogt : (⟨S50000, .f32⟩ : BufTy).Contents (Elt F) → (⟨S50000, .f32⟩ : BufTy).Contents (Elt F) → (⟨S50000, .i1⟩ : BufTy).Contents (Elt F)),
    StableHlo.nullary main_cst_47 (constant S_ .f32 0x3F800000#32),
    StableHlo.unary main_cst_47 main_v158 (broadcastInDim S50000 ![] bcast_S_S50000 : (⟨S_, .f32⟩ : BufTy).Contents (Elt F) → (⟨S50000, .f32⟩ : BufTy).Contents (Elt F)),
    StableHlo.binary main_v158 main_v155 main_v159 (Host.divf : (⟨S50000, .f32⟩ : BufTy).Contents (Elt F) → (⟨S50000, .f32⟩ : BufTy).Contents (Elt F) → (⟨S50000, .f32⟩ : BufTy).Contents (Elt F)),
    StableHlo.nullary main_cst_48 (constant S_ .f32 0x00000000#32),
    StableHlo.TRef.unary (StableHlo.TRef.of (T := ⟨S_, .f32⟩) main_cst_48) main_call5.v0 id,
    StableHlo.TRef.unary main_call5.v0 main_call5.v1 (broadcastInDim S50000 ![] bcast_S_S50000),
    StableHlo.TRef.ternary (StableHlo.TRef.of (T := ⟨S50000, .i1⟩) main_v157) (StableHlo.TRef.of (T := ⟨S50000, .f32⟩) main_v159) main_call5.v1 main_call5.v2 select,
    StableHlo.nullary main_c_49 (constantI S_ 32 0#32),
    StableHlo.unary main_c_49 main_v161 (broadcastInDim S1600000 ![] bcast_S_S1600000 : (⟨S_, .i32⟩ : BufTy).Contents (Elt F) → (⟨S1600000, .i32⟩ : BufTy).Contents (Elt F)),
    StableHlo.binary main_v98 main_v161 main_v162 (cmpi .slt : (⟨S1600000, .i32⟩ : BufTy).Contents (Elt F) → (⟨S1600000, .i32⟩ : BufTy).Contents (Elt F) → (⟨S1600000, .i1⟩ : BufTy).Contents (Elt F)),
    StableHlo.nullary main_c_50 (constantI S_ 32 50000#32),
    StableHlo.unary main_c_50 main_v163 (broadcastInDim S1600000 ![] bcast_S_S1600000 : (⟨S_, .i32⟩ : BufTy).Contents (Elt F) → (⟨S1600000, .i32⟩ : BufTy).Contents (Elt F)),
    StableHlo.binary main_v98 main_v163 main_v164 (addi : (⟨S1600000, .i32⟩ : BufTy).Contents (Elt F) → (⟨S1600000, .i32⟩ : BufTy).Contents (Elt F) → (⟨S1600000, .i32⟩ : BufTy).Contents (Elt F)),
    StableHlo.ternary main_v162 main_v164 main_v98 main_v165 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v165 main_v166 (broadcastInDim S1600000x1 ![0] bcast_S1600000_S1600000x1_0 : (⟨S1600000, .i32⟩ : BufTy).Contents (Elt F) → (⟨S1600000x1, .i32⟩ : BufTy).Contents (Elt F)),
    StableHlo.binary main_v160 main_v166 main_v167 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v167 main_arg11 main_v168 (mulf : (⟨S1600000, .f32⟩ : BufTy).Contents (Elt F) → (⟨S1600000, .f32⟩ : BufTy).Contents (Elt F) → (⟨S1600000, .f32⟩ : BufTy).Contents (Elt F)),
    StableHlo.unary main_v168 main_v169 (broadcastInDim S1600000x1 ![0] bcast_S1600000_S1600000x1_0 : (⟨S1600000, .f32⟩ : BufTy).Contents (Elt F) → (⟨S1600000x1, .f32⟩ : BufTy).Contents (Elt F)),
    StableHlo.nullary main_c_51 (constantI S_ 32 0#32),
    StableHlo.unary main_c_51 main_v170 (broadcastInDim S1600000 ![] bcast_S_S1600000 : (⟨S_, .i32⟩ : BufTy).Contents (Elt F) → (⟨S1600000, .i32⟩ : BufTy).Contents (Elt F)),
    StableHlo.binary main_v100 main_v170 main_v171 (cmpi .slt : (⟨S1600000, .i32⟩ : BufTy).Contents (Elt F) → (⟨S1600000, .i32⟩ : BufTy).Contents (Elt F) → (⟨S1600000, .i1⟩ : BufTy).Contents (Elt F)),
    StableHlo.nullary main_c_52 (constantI S_ 32 50000#32),
    StableHlo.unary main_c_52 main_v172 (broadcastInDim S1600000 ![] bcast_S_S1600000 : (⟨S_, .i32⟩ : BufTy).Contents (Elt F) → (⟨S1600000, .i32⟩ : BufTy).Contents (Elt F)),
    StableHlo.binary main_v100 main_v172 main_v173 (addi : (⟨S1600000, .i32⟩ : BufTy).Contents (Elt F) → (⟨S1600000, .i32⟩ : BufTy).Contents (Elt F) → (⟨S1600000, .i32⟩ : BufTy).Contents (Elt F)),
    StableHlo.ternary main_v171 main_v173 main_v100 main_v174 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v174 main_v175 (broadcastInDim S1600000x1 ![0] bcast_S1600000_S1600000x1_0 : (⟨S1600000, .i32⟩ : BufTy).Contents (Elt F) → (⟨S1600000x1, .i32⟩ : BufTy).Contents (Elt F)),
    StableHlo.binary main_v104 main_v175 main_v176 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    StableHlo.unary main_v169 main_v177 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v177 main_v176 main_v178 (mulf : (⟨S1600000x32, .f32⟩ : BufTy).Contents (Elt F) → (⟨S1600000x32, .f32⟩ : BufTy).Contents (Elt F) → (⟨S1600000x32, .f32⟩ : BufTy).Contents (Elt F)),
    StableHlo.nullary main_cst_53 (constant S_ .f32 0x00000000#32),
    StableHlo.unary main_cst_53 main_v179 (broadcastInDim S50000x32 ![] bcast_S_S50000x32 : (⟨S_, .f32⟩ : BufTy).Contents (Elt F) → (⟨S50000x32, .f32⟩ : BufTy).Contents (Elt F)),
    StableHlo.nullary main_c_54 (constantI S_ 32 0#32),
    StableHlo.unary main_c_54 main_v180 (broadcastInDim S1600000 ![] bcast_S_S1600000 : (⟨S_, .i32⟩ : BufTy).Contents (Elt F) → (⟨S1600000, .i32⟩ : BufTy).Contents (Elt F)),
    StableHlo.binary main_v98 main_v180 main_v181 (cmpi .slt : (⟨S1600000, .i32⟩ : BufTy).Contents (Elt F) → (⟨S1600000, .i32⟩ : BufTy).Contents (Elt F) → (⟨S1600000, .i1⟩ : BufTy).Contents (Elt F)),
    StableHlo.nullary main_c_55 (constantI S_ 32 50000#32) ]

/-- The reference program's operations 259 … 330 of 433, in order (its window 4; a called function's operations stand in the call's place). -/
abbrev opsP4 : List (HloOp τ sig (Elt F)) :=
  [ StableHlo.unary main_c_55 main_v182 (broadcastInDim S1600000 ![] bcast_S_S1600000 : (⟨S_, .i32⟩ : BufTy).Contents (Elt F) → (⟨S1600000, .i32⟩ : BufTy).Contents (Elt F)),
    StableHlo.binary main_v98 main_v182 main_v183 (addi : (⟨S1600000, .i32⟩ : BufTy).Contents (Elt F) → (⟨S1600000, .i32⟩ : BufTy).Contents (Elt F) → (⟨S1600000, .i32⟩ : BufTy).Contents (Elt F)),
    StableHlo.ternary main_v181 main_v183 main_v98 main_v184 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v184 main_v185 (broadcastInDim S1600000x1 ![0] bcast_S1600000_S1600000x1_0 : (⟨S1600000, .i32⟩ : BufTy).Contents (Elt F) → (⟨S1600000x1, .i32⟩ : BufTy).Contents (Elt F)),
    StableHlo.ternary main_v179 main_v185 main_v178 main_v186 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    StableHlo.nary ![main_v146, main_v186, main_v106] main_v187 (fun u => concatenate S50000x96 1 [⟨S50000x32, u 0⟩, ⟨S50000x32, u 1⟩, ⟨S50000x32, u 2⟩] concatenates_S50000x32_S50000x32_S50000x32_S50000x96_d1),
    StableHlo.TRef.binary (StableHlo.TRef.of (T := ⟨S50000x96, .f32⟩) main_v187) (StableHlo.TRef.of (T := ⟨S50000x96, .f32⟩) main_v187) main_call6.v0 mulf,
    StableHlo.TRef.nullary main_call6.cst (constant S_ .f32 0x00000000#32),
    StableHlo.TRef.binary main_call6.v0 main_call6.cst main_call6.v1 (fun x v => Host.reduceAdd x v reducesTo_S50000x96_S50000_d1 h_S_),
    StableHlo.TRef.unary main_call6.v1 main_call6.v2 (broadcastInDim S50000x1 ![0] bcast_S50000_S50000x1_0),
    StableHlo.TRef.unary main_call6.v2 main_call6.v3 Host.sqrt,
    StableHlo.nullary main_cst_56 (constant S_ .f32 0x2B8CBCCC#32),
    StableHlo.unary main_cst_56 main_v189 (broadcastInDim S50000x1 ![] bcast_S_S50000x1 : (⟨S_, .f32⟩ : BufTy).Contents (Elt F) → (⟨S50000x1, .f32⟩ : BufTy).Contents (Elt F)),
    StableHlo.binary main_v188 main_v189 main_v190 (maximumf : (⟨S50000x1, .f32⟩ : BufTy).Contents (Elt F) → (⟨S50000x1, .f32⟩ : BufTy).Contents (Elt F) → (⟨S50000x1, .f32⟩ : BufTy).Contents (Elt F)),
    StableHlo.unary main_v190 main_v191 (broadcastInDim S50000x96 ![0, 1] bcast_S50000x1_S50000x96_0_1 : (⟨S50000x1, .f32⟩ : BufTy).Contents (Elt F) → (⟨S50000x96, .f32⟩ : BufTy).Contents (Elt F)),
    StableHlo.binary main_v187 main_v191 main_v192 (Host.divf : (⟨S50000x96, .f32⟩ : BufTy).Contents (Elt F) → (⟨S50000x96, .f32⟩ : BufTy).Contents (Elt F) → (⟨S50000x96, .f32⟩ : BufTy).Contents (Elt F)),
    StableHlo.nullary main_cst_57 (constant S_ .f32 0x3DCCCCCD#32),
    StableHlo.TRef.nullary main_call7.cst (constant S_ .f32 0x00000000#32),
    StableHlo.TRef.unary main_call7.cst main_call7.v0 (broadcastInDim S50000x96 ![] bcast_S_S50000x96),
    StableHlo.TRef.binary (StableHlo.TRef.of (T := ⟨S50000x96, .f32⟩) main_v192) main_call7.v0 main_call7.v1 (cmpf .oge),
    StableHlo.TRef.unary (StableHlo.TRef.of (T := ⟨S_, .f32⟩) main_cst_57) main_call7.v2 id,
    StableHlo.TRef.unary main_call7.v2 main_call7.v3 (broadcastInDim S50000x96 ![] bcast_S_S50000x96),
    StableHlo.TRef.binary main_call7.v3 (StableHlo.TRef.of (T := ⟨S50000x96, .f32⟩) main_v192) main_call7.v4 mulf,
    StableHlo.TRef.ternary main_call7.v1 (StableHlo.TRef.of (T := ⟨S50000x96, .f32⟩) main_v192) main_call7.v4 main_call7.call0.v0 select,
    StableHlo.unary main_arg1 main_v194 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v194 main_v195 rfl shapeCasts_S1x1600000_S1600000,
    StableHlo.unary main_arg1 main_v196 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v196 main_v197 rfl shapeCasts_S1x1600000_S1600000,
    StableHlo.unary main_arg12 main_v198 ((transpose S96x32 [1, 0] · transposes_S32x96_S96x32_1_0) : (⟨S32x96, .f32⟩ : BufTy).Contents (Elt F) → (⟨S96x32, .f32⟩ : BufTy).Contents (Elt F)),
    StableHlo.binary main_v193 main_v198 main_v199 ((fun l r => Host.dotGeneral dot_S50000x96_S96x32_S50000x32_1_0_0_1_n_n none l r) : (⟨S50000x96, .f32⟩ : BufTy).Contents (Elt F) → (⟨S96x32, .f32⟩ : BufTy).Contents (Elt F) → (⟨S50000x32, .f32⟩ : BufTy).Contents (Elt F)),
    StableHlo.unary main_arg13 main_v200 ((transpose S96x32 [1, 0] · transposes_S32x96_S96x32_1_0) : (⟨S32x96, .f32⟩ : BufTy).Contents (Elt F) → (⟨S96x32, .f32⟩ : BufTy).Contents (Elt F)),
    StableHlo.binary main_v193 main_v200 main_v201 ((fun l r => Host.dotGeneral dot_S50000x96_S96x32_S50000x32_1_0_0_1_n_n none l r) : (⟨S50000x96, .f32⟩ : BufTy).Contents (Elt F) → (⟨S96x32, .f32⟩ : BufTy).Contents (Elt F) → (⟨S50000x32, .f32⟩ : BufTy).Contents (Elt F)),
    StableHlo.unary main_arg14 main_v202 ((transpose S96x32 [1, 0] · transposes_S32x96_S96x32_1_0) : (⟨S32x96, .f32⟩ : BufTy).Contents (Elt F) → (⟨S96x32, .f32⟩ : BufTy).Contents (Elt F)),
    StableHlo.binary main_v193 main_v202 main_v203 ((fun l r => Host.dotGeneral dot_S50000x96_S96x32_S50000x32_1_0_0_1_n_n none l r) : (⟨S50000x96, .f32⟩ : BufTy).Contents (Elt F) → (⟨S96x32, .f32⟩ : BufTy).Contents (Elt F) → (⟨S50000x32, .f32⟩ : BufTy).Contents (Elt F)),
    StableHlo.nullary main_cst_58 (constant S_ .f32 0x00000000#32),
    StableHlo.unary main_cst_58 main_v204 (broadcastInDim S50000 ![] bcast_S_S50000 : (⟨S_, .f32⟩ : BufTy).Contents (Elt F) → (⟨S50000, .f32⟩ : BufTy).Contents (Elt F)),
    StableHlo.nullary main_c_59 (constantI S_ 32 0#32),
    StableHlo.unary main_c_59 main_v205 (broadcastInDim S1600000 ![] bcast_S_S1600000 : (⟨S_, .i32⟩ : BufTy).Contents (Elt F) → (⟨S1600000, .i32⟩ : BufTy).Contents (Elt F)),
    StableHlo.binary main_v197 main_v205 main_v206 (cmpi .slt : (⟨S1600000, .i32⟩ : BufTy).Contents (Elt F) → (⟨S1600000, .i32⟩ : BufTy).Contents (Elt F) → (⟨S1600000, .i1⟩ : BufTy).Contents (Elt F)),
    StableHlo.nullary main_c_60 (constantI S_ 32 50000#32),
    StableHlo.unary main_c_60 main_v207 (broadcastInDim S1600000 ![] bcast_S_S1600000 : (⟨S_, .i32⟩ : BufTy).Contents (Elt F) → (⟨S1600000, .i32⟩ : BufTy).Contents (Elt F)),
    StableHlo.binary main_v197 main_v207 main_v208 (addi : (⟨S1600000, .i32⟩ : BufTy).Contents (Elt F) → (⟨S1600000, .i32⟩ : BufTy).Contents (Elt F) → (⟨S1600000, .i32⟩ : BufTy).Contents (Elt F)),
    StableHlo.ternary main_v206 main_v208 main_v197 main_v209 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v209 main_v210 (broadcastInDim S1600000x1 ![0] bcast_S1600000_S1600000x1_0 : (⟨S1600000, .i32⟩ : BufTy).Contents (Elt F) → (⟨S1600000x1, .i32⟩ : BufTy).Contents (Elt F)),
    StableHlo.nullary main_cst_61 (constant S_ .f32 0x3F800000#32),
    StableHlo.unary main_cst_61 main_v211 (broadcastInDim S1600000 ![] bcast_S_S1600000 : (⟨S_, .f32⟩ : BufTy).Contents (Elt F) → (⟨S1600000, .f32⟩ : BufTy).Contents (Elt F)),
    StableHlo.ternary main_v204 main_v210 main_v211 main_v212 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_62 (constant S_ .f32 0x00000000#32),
    StableHlo.unary main_cst_62 main_v213 (broadcastInDim S50000 ![] bcast_S_S50000 : (⟨S_, .f32⟩ : BufTy).Contents (Elt F) → (⟨S50000, .f32⟩ : BufTy).Contents (Elt F)),
    StableHlo.binary main_v212 main_v213 main_v214 (cmpf .ogt : (⟨S50000, .f32⟩ : BufTy).Contents (Elt F) → (⟨S50000, .f32⟩ : BufTy).Contents (Elt F) → (⟨S50000, .i1⟩ : BufTy).Contents (Elt F)),
    StableHlo.nullary main_cst_63 (constant S_ .f32 0x3F800000#32),
    StableHlo.unary main_cst_63 main_v215 (broadcastInDim S50000 ![] bcast_S_S50000 : (⟨S_, .f32⟩ : BufTy).Contents (Elt F) → (⟨S50000, .f32⟩ : BufTy).Contents (Elt F)),
    StableHlo.binary main_v215 main_v212 main_v216 (Host.divf : (⟨S50000, .f32⟩ : BufTy).Contents (Elt F) → (⟨S50000, .f32⟩ : BufTy).Contents (Elt F) → (⟨S50000, .f32⟩ : BufTy).Contents (Elt F)),
    StableHlo.nullary main_cst_64 (constant S_ .f32 0x00000000#32),
    StableHlo.TRef.unary (StableHlo.TRef.of (T := ⟨S_, .f32⟩) main_cst_64) main_call8.v0 id,
    StableHlo.TRef.unary main_call8.v0 main_call8.v1 (broadcastInDim S50000 ![] bcast_S_S50000),
    StableHlo.TRef.ternary (StableHlo.TRef.of (T := ⟨S50000, .i1⟩) main_v214) (StableHlo.TRef.of (T := ⟨S50000, .f32⟩) main_v216) main_call8.v1 main_call8.v2 select,
    StableHlo.nullary main_c_65 (constantI S_ 32 0#32),
    StableHlo.unary main_c_65 main_v218 (broadcastInDim S1600000 ![] bcast_S_S1600000 : (⟨S_, .i32⟩ : BufTy).Contents (Elt F) → (⟨S1600000, .i32⟩ : BufTy).Contents (Elt F)),
    StableHlo.binary main_v197 main_v218 main_v219 (cmpi .slt : (⟨S1600000, .i32⟩ : BufTy).Contents (Elt F) → (⟨S1600000, .i32⟩ : BufTy).Contents (Elt F) → (⟨S1600000, .i1⟩ : BufTy).Contents (Elt F)),
    StableHlo.nullary main_c_66 (constantI S_ 32 50000#32),
    StableHlo.unary main_c_66 main_v220 (broadcastInDim S1600000 ![] bcast_S_S1600000 : (⟨S_, .i32⟩ : BufTy).Contents (Elt F) → (⟨S1600000, .i32⟩ : BufTy).Contents (Elt F)),
    StableHlo.binary main_v197 main_v220 main_v221 (addi : (⟨S1600000, .i32⟩ : BufTy).Contents (Elt F) → (⟨S1600000, .i32⟩ : BufTy).Contents (Elt F) → (⟨S1600000, .i32⟩ : BufTy).Contents (Elt F)),
    StableHlo.ternary main_v219 main_v221 main_v197 main_v222 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v222 main_v223 (broadcastInDim S1600000x1 ![0] bcast_S1600000_S1600000x1_0 : (⟨S1600000, .i32⟩ : BufTy).Contents (Elt F) → (⟨S1600000x1, .i32⟩ : BufTy).Contents (Elt F)),
    StableHlo.binary main_v217 main_v223 main_v224 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v224 main_arg15 main_v225 (mulf : (⟨S1600000, .f32⟩ : BufTy).Contents (Elt F) → (⟨S1600000, .f32⟩ : BufTy).Contents (Elt F) → (⟨S1600000, .f32⟩ : BufTy).Contents (Elt F)),
    StableHlo.unary main_v225 main_v226 (broadcastInDim S1600000x1 ![0] bcast_S1600000_S1600000x1_0 : (⟨S1600000, .f32⟩ : BufTy).Contents (Elt F) → (⟨S1600000x1, .f32⟩ : BufTy).Contents (Elt F)),
    StableHlo.nullary main_c_67 (constantI S_ 32 0#32),
    StableHlo.unary main_c_67 main_v227 (broadcastInDim S1600000 ![] bcast_S_S1600000 : (⟨S_, .i32⟩ : BufTy).Contents (Elt F) → (⟨S1600000, .i32⟩ : BufTy).Contents (Elt F)),
    StableHlo.binary main_v195 main_v227 main_v228 (cmpi .slt : (⟨S1600000, .i32⟩ : BufTy).Contents (Elt F) → (⟨S1600000, .i32⟩ : BufTy).Contents (Elt F) → (⟨S1600000, .i1⟩ : BufTy).Contents (Elt F)),
    StableHlo.nullary main_c_68 (constantI S_ 32 50000#32) ]

/-- The reference program's operations 331 … 392 of 433, in order (its window 5; a called function's operations stand in the call's place). -/
abbrev opsP5 : List (HloOp τ sig (Elt F)) :=
  [ StableHlo.unary main_c_68 main_v229 (broadcastInDim S1600000 ![] bcast_S_S1600000 : (⟨S_, .i32⟩ : BufTy).Contents (Elt F) → (⟨S1600000, .i32⟩ : BufTy).Contents (Elt F)),
    StableHlo.binary main_v195 main_v229 main_v230 (addi : (⟨S1600000, .i32⟩ : BufTy).Contents (Elt F) → (⟨S1600000, .i32⟩ : BufTy).Contents (Elt F) → (⟨S1600000, .i32⟩ : BufTy).Contents (Elt F)),
    StableHlo.ternary main_v228 main_v230 main_v195 main_v231 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v231 main_v232 (broadcastInDim S1600000x1 ![0] bcast_S1600000_S1600000x1_0 : (⟨S1600000, .i32⟩ : BufTy).Contents (Elt F) → (⟨S1600000x1, .i32⟩ : BufTy).Contents (Elt F)),
    StableHlo.binary main_v199 main_v232 main_v233 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    StableHlo.unary main_v226 main_v234 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v234 main_v233 main_v235 (mulf : (⟨S1600000x32, .f32⟩ : BufTy).Contents (Elt F) → (⟨S1600000x32, .f32⟩ : BufTy).Contents (Elt F) → (⟨S1600000x32, .f32⟩ : BufTy).Contents (Elt F)),
    StableHlo.nullary main_cst_69 (constant S_ .f32 0x00000000#32),
    StableHlo.unary main_cst_69 main_v236 (broadcastInDim S50000x32 ![] bcast_S_S50000x32 : (⟨S_, .f32⟩ : BufTy).Contents (Elt F) → (⟨S50000x32, .f32⟩ : BufTy).Contents (Elt F)),
    StableHlo.nullary main_c_70 (constantI S_ 32 0#32),
    StableHlo.unary main_c_70 main_v237 (broadcastInDim S1600000 ![] bcast_S_S1600000 : (⟨S_, .i32⟩ : BufTy).Contents (Elt F) → (⟨S1600000, .i32⟩ : BufTy).Contents (Elt F)),
    StableHlo.binary main_v197 main_v237 main_v238 (cmpi .slt : (⟨S1600000, .i32⟩ : BufTy).Contents (Elt F) → (⟨S1600000, .i32⟩ : BufTy).Contents (Elt F) → (⟨S1600000, .i1⟩ : BufTy).Contents (Elt F)),
    StableHlo.nullary main_c_71 (constantI S_ 32 50000#32),
    StableHlo.unary main_c_71 main_v239 (broadcastInDim S1600000 ![] bcast_S_S1600000 : (⟨S_, .i32⟩ : BufTy).Contents (Elt F) → (⟨S1600000, .i32⟩ : BufTy).Contents (Elt F)),
    StableHlo.binary main_v197 main_v239 main_v240 (addi : (⟨S1600000, .i32⟩ : BufTy).Contents (Elt F) → (⟨S1600000, .i32⟩ : BufTy).Contents (Elt F) → (⟨S1600000, .i32⟩ : BufTy).Contents (Elt F)),
    StableHlo.ternary main_v238 main_v240 main_v197 main_v241 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v241 main_v242 (broadcastInDim S1600000x1 ![0] bcast_S1600000_S1600000x1_0 : (⟨S1600000, .i32⟩ : BufTy).Contents (Elt F) → (⟨S1600000x1, .i32⟩ : BufTy).Contents (Elt F)),
    StableHlo.ternary main_v236 main_v242 main_v235 main_v243 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    StableHlo.nullary main_cst_72 (constant S_ .f32 0x00000000#32),
    StableHlo.unary main_cst_72 main_v244 (broadcastInDim S50000 ![] bcast_S_S50000 : (⟨S_, .f32⟩ : BufTy).Contents (Elt F) → (⟨S50000, .f32⟩ : BufTy).Contents (Elt F)),
    StableHlo.nullary main_c_73 (constantI S_ 32 0#32),
    StableHlo.unary main_c_73 main_v245 (broadcastInDim S1600000 ![] bcast_S_S1600000 : (⟨S_, .i32⟩ : BufTy).Contents (Elt F) → (⟨S1600000, .i32⟩ : BufTy).Contents (Elt F)),
    StableHlo.binary main_v195 main_v245 main_v246 (cmpi .slt : (⟨S1600000, .i32⟩ : BufTy).Contents (Elt F) → (⟨S1600000, .i32⟩ : BufTy).Contents (Elt F) → (⟨S1600000, .i1⟩ : BufTy).Contents (Elt F)),
    StableHlo.nullary main_c_74 (constantI S_ 32 50000#32),
    StableHlo.unary main_c_74 main_v247 (broadcastInDim S1600000 ![] bcast_S_S1600000 : (⟨S_, .i32⟩ : BufTy).Contents (Elt F) → (⟨S1600000, .i32⟩ : BufTy).Contents (Elt F)),
    StableHlo.binary main_v195 main_v247 main_v248 (addi : (⟨S1600000, .i32⟩ : BufTy).Contents (Elt F) → (⟨S1600000, .i32⟩ : BufTy).Contents (Elt F) → (⟨S1600000, .i32⟩ : BufTy).Contents (Elt F)),
    StableHlo.ternary main_v246 main_v248 main_v195 main_v249 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v249 main_v250 (broadcastInDim S1600000x1 ![0] bcast_S1600000_S1600000x1_0 : (⟨S1600000, .i32⟩ : BufTy).Contents (Elt F) → (⟨S1600000x1, .i32⟩ : BufTy).Contents (Elt F)),
    StableHlo.nullary main_cst_75 (constant S_ .f32 0x3F800000#32),
    StableHlo.unary main_cst_75 main_v251 (broadcastInDim S1600000 ![] bcast_S_S1600000 : (⟨S_, .f32⟩ : BufTy).Contents (Elt F) → (⟨S1600000, .f32⟩ : BufTy).Contents (Elt F)),
    StableHlo.ternary main_v244 main_v250 main_v251 main_v252 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_76 (constant S_ .f32 0x00000000#32),
    StableHlo.unary main_cst_76 main_v253 (broadcastInDim S50000 ![] bcast_S_S50000 : (⟨S_, .f32⟩ : BufTy).Contents (Elt F) → (⟨S50000, .f32⟩ : BufTy).Contents (Elt F)),
    StableHlo.binary main_v252 main_v253 main_v254 (cmpf .ogt : (⟨S50000, .f32⟩ : BufTy).Contents (Elt F) → (⟨S50000, .f32⟩ : BufTy).Contents (Elt F) → (⟨S50000, .i1⟩ : BufTy).Contents (Elt F)),
    StableHlo.nullary main_cst_77 (constant S_ .f32 0x3F800000#32),
    StableHlo.unary main_cst_77 main_v255 (broadcastInDim S50000 ![] bcast_S_S50000 : (⟨S_, .f32⟩ : BufTy).Contents (Elt F) → (⟨S50000, .f32⟩ : BufTy).Contents (Elt F)),
    StableHlo.binary main_v255 main_v252 main_v256 (Host.divf : (⟨S50000, .f32⟩ : BufTy).Contents (Elt F) → (⟨S50000, .f32⟩ : BufTy).Contents (Elt F) → (⟨S50000, .f32⟩ : BufTy).Contents (Elt F)),
    StableHlo.nullary main_cst_78 (constant S_ .f32 0x00000000#32),
    StableHlo.TRef.unary (StableHlo.TRef.of (T := ⟨S_, .f32⟩) main_cst_78) main_call9.v0 id,
    StableHlo.TRef.unary main_call9.v0 main_call9.v1 (broadcastInDim S50000 ![] bcast_S_S50000),
    StableHlo.TRef.ternary (StableHlo.TRef.of (T := ⟨S50000, .i1⟩) main_v254) (StableHlo.TRef.of (T := ⟨S50000, .f32⟩) main_v256) main_call9.v1 main_call9.v2 select,
    StableHlo.nullary main_c_79 (constantI S_ 32 0#32),
    StableHlo.unary main_c_79 main_v258 (broadcastInDim S1600000 ![] bcast_S_S1600000 : (⟨S_, .i32⟩ : BufTy).Contents (Elt F) → (⟨S1600000, .i32⟩ : BufTy).Contents (Elt F)),
    StableHlo.binary main_v195 main_v258 main_v259 (cmpi .slt : (⟨S1600000, .i32⟩ : BufTy).Contents (Elt F) → (⟨S1600000, .i32⟩ : BufTy).Contents (Elt F) → (⟨S1600000, .i1⟩ : BufTy).Contents (Elt F)),
    StableHlo.nullary main_c_80 (constantI S_ 32 50000#32),
    StableHlo.unary main_c_80 main_v260 (broadcastInDim S1600000 ![] bcast_S_S1600000 : (⟨S_, .i32⟩ : BufTy).Contents (Elt F) → (⟨S1600000, .i32⟩ : BufTy).Contents (Elt F)),
    StableHlo.binary main_v195 main_v260 main_v261 (addi : (⟨S1600000, .i32⟩ : BufTy).Contents (Elt F) → (⟨S1600000, .i32⟩ : BufTy).Contents (Elt F) → (⟨S1600000, .i32⟩ : BufTy).Contents (Elt F)),
    StableHlo.ternary main_v259 main_v261 main_v195 main_v262 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v262 main_v263 (broadcastInDim S1600000x1 ![0] bcast_S1600000_S1600000x1_0 : (⟨S1600000, .i32⟩ : BufTy).Contents (Elt F) → (⟨S1600000x1, .i32⟩ : BufTy).Contents (Elt F)),
    StableHlo.binary main_v257 main_v263 main_v264 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v264 main_arg16 main_v265 (mulf : (⟨S1600000, .f32⟩ : BufTy).Contents (Elt F) → (⟨S1600000, .f32⟩ : BufTy).Contents (Elt F) → (⟨S1600000, .f32⟩ : BufTy).Contents (Elt F)),
    StableHlo.unary main_v265 main_v266 (broadcastInDim S1600000x1 ![0] bcast_S1600000_S1600000x1_0 : (⟨S1600000, .f32⟩ : BufTy).Contents (Elt F) → (⟨S1600000x1, .f32⟩ : BufTy).Contents (Elt F)),
    StableHlo.nullary main_c_81 (constantI S_ 32 0#32),
    StableHlo.unary main_c_81 main_v267 (broadcastInDim S1600000 ![] bcast_S_S1600000 : (⟨S_, .i32⟩ : BufTy).Contents (Elt F) → (⟨S1600000, .i32⟩ : BufTy).Contents (Elt F)),
    StableHlo.binary main_v197 main_v267 main_v268 (cmpi .slt : (⟨S1600000, .i32⟩ : BufTy).Contents (Elt F) → (⟨S1600000, .i32⟩ : BufTy).Contents (Elt F) → (⟨S1600000, .i1⟩ : BufTy).Contents (Elt F)),
    StableHlo.nullary main_c_82 (constantI S_ 32 50000#32),
    StableHlo.unary main_c_82 main_v269 (broadcastInDim S1600000 ![] bcast_S_S1600000 : (⟨S_, .i32⟩ : BufTy).Contents (Elt F) → (⟨S1600000, .i32⟩ : BufTy).Contents (Elt F)),
    StableHlo.binary main_v197 main_v269 main_v270 (addi : (⟨S1600000, .i32⟩ : BufTy).Contents (Elt F) → (⟨S1600000, .i32⟩ : BufTy).Contents (Elt F) → (⟨S1600000, .i32⟩ : BufTy).Contents (Elt F)),
    StableHlo.ternary main_v268 main_v270 main_v197 main_v271 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v271 main_v272 (broadcastInDim S1600000x1 ![0] bcast_S1600000_S1600000x1_0 : (⟨S1600000, .i32⟩ : BufTy).Contents (Elt F) → (⟨S1600000x1, .i32⟩ : BufTy).Contents (Elt F)),
    StableHlo.binary main_v201 main_v272 main_v273 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    StableHlo.unary main_v266 main_v274 (broadcastInDim S1600000x32 ![0, 1] bcast_S1600000x1_S1600000x32_0_1 : (⟨S1600000x1, .f32⟩ : BufTy).Contents (Elt F) → (⟨S1600000x32, .f32⟩ : BufTy).Contents (Elt F)) ]

/-- The reference program's operations 393 … 433 of 433, in order (its window 6; a called function's operations stand in the call's place). -/
abbrev opsP6 : List (HloOp τ sig (Elt F)) :=
  [ StableHlo.binary main_v274 main_v273 main_v275 (mulf : (⟨S1600000x32, .f32⟩ : BufTy).Contents (Elt F) → (⟨S1600000x32, .f32⟩ : BufTy).Contents (Elt F) → (⟨S1600000x32, .f32⟩ : BufTy).Contents (Elt F)),
    StableHlo.nullary main_cst_83 (constant S_ .f32 0x00000000#32),
    StableHlo.unary main_cst_83 main_v276 (broadcastInDim S50000x32 ![] bcast_S_S50000x32 : (⟨S_, .f32⟩ : BufTy).Contents (Elt F) → (⟨S50000x32, .f32⟩ : BufTy).Contents (Elt F)),
    StableHlo.nullary main_c_84 (constantI S_ 32 0#32),
    StableHlo.unary main_c_84 main_v277 (broadcastInDim S1600000 ![] bcast_S_S1600000 : (⟨S_, .i32⟩ : BufTy).Contents (Elt F) → (⟨S1600000, .i32⟩ : BufTy).Contents (Elt F)),
    StableHlo.binary main_v195 main_v277 main_v278 (cmpi .slt : (⟨S1600000, .i32⟩ : BufTy).Contents (Elt F) → (⟨S1600000, .i32⟩ : BufTy).Contents (Elt F) → (⟨S1600000, .i1⟩ : BufTy).Contents (Elt F)),
    StableHlo.nullary main_c_85 (constantI S_ 32 50000#32),
    StableHlo.unary main_c_85 main_v279 (broadcastInDim S1600000 ![] bcast_S_S1600000 : (⟨S_, .i32⟩ : BufTy).Contents (Elt F) → (⟨S1600000, .i32⟩ : BufTy).Contents (Elt F)),
    StableHlo.binary main_v195 main_v279 main_v280 (addi : (⟨S1600000, .i32⟩ : BufTy).Contents (Elt F) → (⟨S1600000, .i32⟩ : BufTy).Contents (Elt F) → (⟨S1600000, .i32⟩ : BufTy).Contents (Elt F)),
    StableHlo.ternary main_v278 main_v280 main_v195 main_v281 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v281 main_v282 (broadcastInDim S1600000x1 ![0] bcast_S1600000_S1600000x1_0 : (⟨S1600000, .i32⟩ : BufTy).Contents (Elt F) → (⟨S1600000x1, .i32⟩ : BufTy).Contents (Elt F)),
    StableHlo.ternary main_v276 main_v282 main_v275 main_v283 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    StableHlo.nary ![main_v243, main_v283, main_v203] main_v284 (fun u => concatenate S50000x96 1 [⟨S50000x32, u 0⟩, ⟨S50000x32, u 1⟩, ⟨S50000x32, u 2⟩] concatenates_S50000x32_S50000x32_S50000x32_S50000x96_d1),
    StableHlo.TRef.binary (StableHlo.TRef.of (T := ⟨S50000x96, .f32⟩) main_v284) (StableHlo.TRef.of (T := ⟨S50000x96, .f32⟩) main_v284) main_call10.v0 mulf,
    StableHlo.TRef.nullary main_call10.cst (constant S_ .f32 0x00000000#32),
    StableHlo.TRef.binary main_call10.v0 main_call10.cst main_call10.v1 (fun x v => Host.reduceAdd x v reducesTo_S50000x96_S50000_d1 h_S_),
    StableHlo.TRef.unary main_call10.v1 main_call10.v2 (broadcastInDim S50000x1 ![0] bcast_S50000_S50000x1_0),
    StableHlo.TRef.unary main_call10.v2 main_call10.v3 Host.sqrt,
    StableHlo.nullary main_cst_86 (constant S_ .f32 0x2B8CBCCC#32),
    StableHlo.unary main_cst_86 main_v286 (broadcastInDim S50000x1 ![] bcast_S_S50000x1 : (⟨S_, .f32⟩ : BufTy).Contents (Elt F) → (⟨S50000x1, .f32⟩ : BufTy).Contents (Elt F)),
    StableHlo.binary main_v285 main_v286 main_v287 (maximumf : (⟨S50000x1, .f32⟩ : BufTy).Contents (Elt F) → (⟨S50000x1, .f32⟩ : BufTy).Contents (Elt F) → (⟨S50000x1, .f32⟩ : BufTy).Contents (Elt F)),
    StableHlo.unary main_v287 main_v288 (broadcastInDim S50000x96 ![0, 1] bcast_S50000x1_S50000x96_0_1 : (⟨S50000x1, .f32⟩ : BufTy).Contents (Elt F) → (⟨S50000x96, .f32⟩ : BufTy).Contents (Elt F)),
    StableHlo.binary main_v284 main_v288 main_v289 (Host.divf : (⟨S50000x96, .f32⟩ : BufTy).Contents (Elt F) → (⟨S50000x96, .f32⟩ : BufTy).Contents (Elt F) → (⟨S50000x96, .f32⟩ : BufTy).Contents (Elt F)),
    StableHlo.nullary main_cst_87 (constant S_ .f32 0x3DCCCCCD#32),
    StableHlo.TRef.nullary main_call11.cst (constant S_ .f32 0x00000000#32),
    StableHlo.TRef.unary main_call11.cst main_call11.v0 (broadcastInDim S50000x96 ![] bcast_S_S50000x96),
    StableHlo.TRef.binary (StableHlo.TRef.of (T := ⟨S50000x96, .f32⟩) main_v289) main_call11.v0 main_call11.v1 (cmpf .oge),
    StableHlo.TRef.unary (StableHlo.TRef.of (T := ⟨S_, .f32⟩) main_cst_87) main_call11.v2 id,
    StableHlo.TRef.unary main_call11.v2 main_call11.v3 (broadcastInDim S50000x96 ![] bcast_S_S50000x96),
    StableHlo.TRef.binary main_call11.v3 (StableHlo.TRef.of (T := ⟨S50000x96, .f32⟩) main_v289) main_call11.v4 mulf,
    StableHlo.TRef.ternary main_call11.v1 (StableHlo.TRef.of (T := ⟨S50000x96, .f32⟩) main_v289) main_call11.v4 main_call11.call0.v0 select,
    StableHlo.binary main_arg5 main_arg10 main_v291 (addf : (⟨S1600000, .f32⟩ : BufTy).Contents (Elt F) → (⟨S1600000, .f32⟩ : BufTy).Contents (Elt F) → (⟨S1600000, .f32⟩ : BufTy).Contents (Elt F)),
    StableHlo.binary main_v291 main_arg15 main_v292 (addf : (⟨S1600000, .f32⟩ : BufTy).Contents (Elt F) → (⟨S1600000, .f32⟩ : BufTy).Contents (Elt F) → (⟨S1600000, .f32⟩ : BufTy).Contents (Elt F)),
    StableHlo.nullary main_cst_88 (constant S_ .f32 0x40400000#32),
    StableHlo.unary main_cst_88 main_v293 (broadcastInDim S1600000 ![] bcast_S_S1600000 : (⟨S_, .f32⟩ : BufTy).Contents (Elt F) → (⟨S1600000, .f32⟩ : BufTy).Contents (Elt F)),
    StableHlo.binary main_v292 main_v293 main_v294 (Host.divf : (⟨S1600000, .f32⟩ : BufTy).Contents (Elt F) → (⟨S1600000, .f32⟩ : BufTy).Contents (Elt F) → (⟨S1600000, .f32⟩ : BufTy).Contents (Elt F)),
    StableHlo.binary main_arg6 main_arg11 main_v295 (addf : (⟨S1600000, .f32⟩ : BufTy).Contents (Elt F) → (⟨S1600000, .f32⟩ : BufTy).Contents (Elt F) → (⟨S1600000, .f32⟩ : BufTy).Contents (Elt F)),
    StableHlo.binary main_v295 main_arg16 main_v296 (addf : (⟨S1600000, .f32⟩ : BufTy).Contents (Elt F) → (⟨S1600000, .f32⟩ : BufTy).Contents (Elt F) → (⟨S1600000, .f32⟩ : BufTy).Contents (Elt F)),
    StableHlo.nullary main_cst_89 (constant S_ .f32 0x40400000#32),
    StableHlo.unary main_cst_89 main_v297 (broadcastInDim S1600000 ![] bcast_S_S1600000 : (⟨S_, .f32⟩ : BufTy).Contents (Elt F) → (⟨S1600000, .f32⟩ : BufTy).Contents (Elt F)),
    StableHlo.binary main_v296 main_v297 main_v298 (Host.divf : (⟨S1600000, .f32⟩ : BufTy).Contents (Elt F) → (⟨S1600000, .f32⟩ : BufTy).Contents (Elt F) → (⟨S1600000, .f32⟩ : BufTy).Contents (Elt F)) ]

/-- The reference program's 433 operations, in order. -/
abbrev ops : List (HloOp τ sig (Elt F)) :=
  opsP0 ++ (opsP1 ++ (opsP2 ++ (opsP3 ++ (opsP4 ++ (opsP5 ++ (opsP6))))))

end Cert.ReferenceIdeal.RefRun

end
-- ==== Proof.RefOpsEq.lean ====
/-
  The reference program IS its list of operations: each window of its text equals its list run in order, and the
  whole their concatenation.  Beside that, what running a list needs: every operation touches device buffers only and
  determines what it writes; and, window by window, the references written (each exactly one operation's result).
-/
import proofs.«107201_j32822140076800_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- An operation whose one written buffer is a listed reference writes inside the list. -/
theorem writes_sub_of_mem {op : HloOp τ sig (Elt F)} {y : Ref sig .tc} {W : List (Ref sig .tc)}
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-! ## Each window of the program's text is its list run in order -/

set_option maxRecDepth 8192 in
set_option maxHeartbeats 4000000 in
theorem main_part0_eq (c : Dev nD) : main_part0 (F := F) c = seq opsP0 := rfl

set_option maxRecDepth 8192 in
set_option maxHeartbeats 4000000 in
theorem main_part1_eq (c : Dev nD) : main_part1 (F := F) c = seq opsP1 := rfl

set_option maxRecDepth 8192 in
set_option maxHeartbeats 4000000 in
theorem main_part2_eq (c : Dev nD) : main_part2 (F := F) c = seq opsP2 := rfl

set_option maxRecDepth 8192 in
set_option maxHeartbeats 4000000 in
theorem main_part3_eq (c : Dev nD) : main_part3 (F := F) c = seq opsP3 := rfl

set_option maxRecDepth 8192 in
set_option maxHeartbeats 4000000 in
theorem main_part4_eq (c : Dev nD) : main_part4 (F := F) c = seq opsP4 := rfl

set_option maxRecDepth 8192 in
set_option maxHeartbeats 4000000 in
theorem main_part5_eq (c : Dev nD) : main_part5 (F := F) c = seq opsP5 := rfl

set_option maxRecDepth 8192 in
set_option maxHeartbeats 4000000 in
theorem main_part6_eq (c : Dev nD) : main_part6 (F := F) c = seq opsP6 := rfl

set_option maxRecDepth 8192 in
set_option maxHeartbeats 4000000 in
/-- The whole program is its 433 operations run in order. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl

/-! ## Every operation touches device buffers only, and determines what it writes -/

set_option maxRecDepth 8192 in
theorem opsP0_sub : (opsP0 : List (HloOp τ sig (Elt F))).Forall fun op => op.bufs ⊆ tcRefs τ sig :=
  ⟨unary_bufs_sub .., reshape_bufs_sub .., unary_bufs_sub .., reshape_bufs_sub .., unary_bufs_sub .., binary_bufs_sub .., unary_bufs_sub .., binary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., nullary_bufs_sub .., unary_bufs_sub .., binary_bufs_sub .., nullary_bufs_sub .., unary_bufs_sub ..⟩

set_option maxRecDepth 8192 in
theorem opsP1_sub : (opsP1 : List (HloOp τ sig (Elt F))).Forall fun op => op.bufs ⊆ tcRefs τ sig :=
  ⟨binary_bufs_sub .., ternary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nary_bufs_sub .., binary_bufs_sub .., nullary_bufs_sub .., binary_bufs_sub .., unary_bufs_sub .., unary_bufs_sub ..⟩

set_option maxRecDepth 8192 in
theorem opsP2_sub : (opsP2 : List (HloOp τ sig (Elt F))).Forall fun op => op.bufs ⊆ tcRefs τ sig :=
  ⟨nullary_bufs_sub .., unary_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., reshape_bufs_sub .., unary_bufs_sub .., binary_bufs_sub .., unary_bufs_sub .., binary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub ..⟩

set_option maxRecDepth 8192 in
theorem opsP3_sub : (opsP3 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., nullary_bufs_sub .., unary_bufs_sub .., binary_bufs_sub .., nullary_bufs_sub ..⟩

set_option maxRecDepth 8192 in
theorem opsP4_sub : (opsP4 : List (HloOp τ sig (Elt F))).Forall fun op => op.bufs ⊆ tcRefs τ sig :=
  ⟨unary_bufs_sub .., binary_bufs_sub .., ternary_bufs_sub .., unary_bufs_sub .., ternary_bufs_sub .., nary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., reshape_bufs_sub .., unary_bufs_sub .., binary_bufs_sub .., unary_bufs_sub .., binary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub ..⟩

set_option maxRecDepth 8192 in
theorem opsP5_sub : (opsP5 : List (HloOp τ sig (Elt F))).Forall fun op => op.bufs ⊆ tcRefs τ sig :=
  ⟨unary_bufs_sub .., binary_bufs_sub .., ternary_bufs_sub .., unary_bufs_sub .., binary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩

set_option maxRecDepth 8192 in
theorem opsP6_sub : (opsP6 : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., nullary_bufs_sub .., unary_bufs_sub .., binary_bufs_sub .., binary_bufs_sub .., binary_bufs_sub .., nullary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp opsP0_sub op h, List.forall_iff_forall_mem.mp opsP1_sub op h, List.forall_iff_forall_mem.mp opsP2_sub op h, List.forall_iff_forall_mem.mp opsP3_sub op h, List.forall_iff_forall_mem.mp opsP4_sub op h, List.forall_iff_forall_mem.mp opsP5_sub op h, List.forall_iff_forall_mem.mp opsP6_sub op h]

set_option maxRecDepth 8192 in
theorem opsP0_fresh : (opsP0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsP1_fresh : (opsP1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsP2_fresh : (opsP2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsP3_fresh : (opsP3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsP4_fresh : (opsP4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsP5_fresh : (opsP5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsP6_fresh : (opsP6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_fresh : ∀ op ∈ (ops : List (HloOp τ sig (Elt F))), op.fresh = ∅ := fun op h => by
    simp only [ops, List.mem_append] at h
    rcases h with h | h | h | h | h | h | h
    exacts [List.forall_iff_forall_mem.mp opsP0_fresh op h, List.forall_iff_forall_mem.mp opsP1_fresh op h, List.forall_iff_forall_mem.mp opsP2_fresh op h, List.forall_iff_forall_mem.mp opsP3_fresh op h, List.forall_iff_forall_mem.mp opsP4_fresh op h, List.forall_iff_forall_mem.mp opsP5_fresh op h, List.forall_iff_forall_mem.mp opsP6_fresh op h]

/-! ## What each window writes -/

/-- The references window 0's operations write: one each, in order. -/
abbrev opsP0_W : List (Ref sig .tc) := [main_v0, main_v1, main_v2, main_v3, main_v4, main_v5, main_v6, main_v7, main_v8, main_v9, main_cst, main_v10, main_c, main_v11, main_v12, main_c_0, main_v13, main_v14, main_v15, main_v16, main_cst_1, main_v17, main_v18, main_cst_2, main_v19, main_v20, main_cst_3, main_v21, main_v22, main_cst_4, main_call0_v0, main_call0_v1, main_v23, main_c_5, main_v24, main_v25, main_c_6, main_v26, main_v27, main_v28, main_v29, main_v30, main_v31, main_v32, main_c_7, main_v33, main_v34, main_c_8, main_v35, main_v36, main_v37, main_v38, main_v39, main_v40, main_v41, main_cst_9, main_v42, main_c_10, main_v43, main_v44, main_c_11, main_v45]
set_option maxRecDepth 8192 in
theorem opsP0_writes : (opsP0 : List (HloOp τ sig (Elt F))).Forall fun op => op.writes ⊆ (opsP0_W.map (Proc.devRef (τ := τ) .tc)).toFinset :=
  ⟨writes_sub_of_mem (y := main_v0) rfl (by decide),
   writes_sub_of_mem (y := main_v1) rfl (by decide),
   writes_sub_of_mem (y := main_v2) rfl (by decide),
   writes_sub_of_mem (y := main_v3) rfl (by decide),
   writes_sub_of_mem (y := main_v4) rfl (by decide),
   writes_sub_of_mem (y := main_v5) rfl (by decide),
   writes_sub_of_mem (y := main_v6) rfl (by decide),
   writes_sub_of_mem (y := main_v7) rfl (by decide),
   writes_sub_of_mem (y := main_v8) rfl (by decide),
   writes_sub_of_mem (y := main_v9) rfl (by decide),
   writes_sub_of_mem (y := main_cst) rfl (by decide),
   writes_sub_of_mem (y := main_v10) rfl (by decide),
   writes_sub_of_mem (y := main_c) rfl (by decide),
   writes_sub_of_mem (y := main_v11) rfl (by decide),
   writes_sub_of_mem (y := main_v12) rfl (by decide),
   writes_sub_of_mem (y := main_c_0) rfl (by decide),
   writes_sub_of_mem (y := main_v13) rfl (by decide),
   writes_sub_of_mem (y := main_v14) rfl (by decide),
   writes_sub_of_mem (y := main_v15) rfl (by decide),
   writes_sub_of_mem (y := main_v16) rfl (by decide),
   writes_sub_of_mem (y := main_cst_1) rfl (by decide),
   writes_sub_of_mem (y := main_v17) rfl (by decide),
   writes_sub_of_mem (y := main_v18) rfl (by decide),
   writes_sub_of_mem (y := main_cst_2) rfl (by decide),
   writes_sub_of_mem (y := main_v19) rfl (by decide),
   writes_sub_of_mem (y := main_v20) rfl (by decide),
   writes_sub_of_mem (y := main_cst_3) rfl (by decide),
   writes_sub_of_mem (y := main_v21) rfl (by decide),
   writes_sub_of_mem (y := main_v22) rfl (by decide),
   writes_sub_of_mem (y := main_cst_4) rfl (by decide),
   writes_sub_of_mem (y := main_call0_v0) rfl (by decide),
   writes_sub_of_mem (y := main_call0_v1) rfl (by decide),
   writes_sub_of_mem (y := main_v23) rfl (by decide),
   writes_sub_of_mem (y := main_c_5) rfl (by decide),
   writes_sub_of_mem (y := main_v24) rfl (by decide),
   writes_sub_of_mem (y := main_v25) rfl (by decide),
   writes_sub_of_mem (y := main_c_6) rfl (by decide),
   writes_sub_of_mem (y := main_v26) rfl (by decide),
   writes_sub_of_mem (y := main_v27) rfl (by decide),
   writes_sub_of_mem (y := main_v28) rfl (by decide),
   writes_sub_of_mem (y := main_v29) rfl (by decide),
   writes_sub_of_mem (y := main_v30) rfl (by decide),
   writes_sub_of_mem (y := main_v31) rfl (by decide),
   writes_sub_of_mem (y := main_v32) rfl (by decide),
   writes_sub_of_mem (y := main_c_7) rfl (by decide),
   writes_sub_of_mem (y := main_v33) rfl (by decide),
   writes_sub_of_mem (y := main_v34) rfl (by decide),
   writes_sub_of_mem (y := main_c_8) rfl (by decide),
   writes_sub_of_mem (y := main_v35) rfl (by decide),
   writes_sub_of_mem (y := main_v36) rfl (by decide),
   writes_sub_of_mem (y := main_v37) rfl (by decide),
   writes_sub_of_mem (y := main_v38) rfl (by decide),
   writes_sub_of_mem (y := main_v39) rfl (by decide),
   writes_sub_of_mem (y := main_v40) rfl (by decide),
   writes_sub_of_mem (y := main_v41) rfl (by decide),
   writes_sub_of_mem (y := main_cst_9) rfl (by decide),
   writes_sub_of_mem (y := main_v42) rfl (by decide),
   writes_sub_of_mem (y := main_c_10) rfl (by decide),
   writes_sub_of_mem (y := main_v43) rfl (by decide),
   writes_sub_of_mem (y := main_v44) rfl (by decide),
   writes_sub_of_mem (y := main_c_11) rfl (by decide),
   writes_sub_of_mem (y := main_v45) rfl (by decide)⟩

/-- The references window 1's operations write: one each, in order. -/
abbrev opsP1_W : List (Ref sig .tc) := [main_v46, main_v47, main_v48, main_v49, main_cst_12, main_v50, main_c_13, main_v51, main_v52, main_c_14, main_v53, main_v54, main_v55, main_v56, main_cst_15, main_v57, main_v58, main_cst_16, main_v59, main_v60, main_cst_17, main_v61, main_v62, main_cst_18, main_call1_v0, main_call1_v1, main_v63, main_c_19, main_v64, main_v65, main_c_20, main_v66, main_v67, main_v68, main_v69, main_v70, main_v71, main_v72, main_c_21, main_v73, main_v74, main_c_22, main_v75, main_v76, main_v77, main_v78, main_v79, main_v80, main_v81, main_cst_23, main_v82, main_c_24, main_v83, main_v84, main_c_25, main_v85, main_v86, main_v87, main_v88, main_v89, main_v90, main_call2_v0, main_call2_cst, main_call2_v1, main_call2_v2, main_v91]
set_option maxRecDepth 8192 in
theorem opsP1_writes : (opsP1 : List (HloOp τ sig (Elt F))).Forall fun op => op.writes ⊆ (opsP1_W.map (Proc.devRef (τ := τ) .tc)).toFinset :=
  ⟨writes_sub_of_mem (y := main_v46) rfl (by decide),
   writes_sub_of_mem (y := main_v47) rfl (by decide),
   writes_sub_of_mem (y := main_v48) rfl (by decide),
   writes_sub_of_mem (y := main_v49) rfl (by decide),
   writes_sub_of_mem (y := main_cst_12) rfl (by decide),
   writes_sub_of_mem (y := main_v50) rfl (by decide),
   writes_sub_of_mem (y := main_c_13) rfl (by decide),
   writes_sub_of_mem (y := main_v51) rfl (by decide),
   writes_sub_of_mem (y := main_v52) rfl (by decide),
   writes_sub_of_mem (y := main_c_14) rfl (by decide),
   writes_sub_of_mem (y := main_v53) rfl (by decide),
   writes_sub_of_mem (y := main_v54) rfl (by decide),
   writes_sub_of_mem (y := main_v55) rfl (by decide),
   writes_sub_of_mem (y := main_v56) rfl (by decide),
   writes_sub_of_mem (y := main_cst_15) rfl (by decide),
   writes_sub_of_mem (y := main_v57) rfl (by decide),
   writes_sub_of_mem (y := main_v58) rfl (by decide),
   writes_sub_of_mem (y := main_cst_16) rfl (by decide),
   writes_sub_of_mem (y := main_v59) rfl (by decide),
   writes_sub_of_mem (y := main_v60) rfl (by decide),
   writes_sub_of_mem (y := main_cst_17) rfl (by decide),
   writes_sub_of_mem (y := main_v61) rfl (by decide),
   writes_sub_of_mem (y := main_v62) rfl (by decide),
   writes_sub_of_mem (y := main_cst_18) rfl (by decide),
   writes_sub_of_mem (y := main_call1_v0) rfl (by decide),
   writes_sub_of_mem (y := main_call1_v1) rfl (by decide),
   writes_sub_of_mem (y := main_v63) rfl (by decide),
   writes_sub_of_mem (y := main_c_19) rfl (by decide),
   writes_sub_of_mem (y := main_v64) rfl (by decide),
   writes_sub_of_mem (y := main_v65) rfl (by decide),
   writes_sub_of_mem (y := main_c_20) rfl (by decide),
   writes_sub_of_mem (y := main_v66) rfl (by decide),
   writes_sub_of_mem (y := main_v67) rfl (by decide),
   writes_sub_of_mem (y := main_v68) rfl (by decide),
   writes_sub_of_mem (y := main_v69) rfl (by decide),
   writes_sub_of_mem (y := main_v70) rfl (by decide),
   writes_sub_of_mem (y := main_v71) rfl (by decide),
   writes_sub_of_mem (y := main_v72) rfl (by decide),
   writes_sub_of_mem (y := main_c_21) rfl (by decide),
   writes_sub_of_mem (y := main_v73) rfl (by decide),
   writes_sub_of_mem (y := main_v74) rfl (by decide),
   writes_sub_of_mem (y := main_c_22) rfl (by decide),
   writes_sub_of_mem (y := main_v75) rfl (by decide),
   writes_sub_of_mem (y := main_v76) rfl (by decide),
   writes_sub_of_mem (y := main_v77) rfl (by decide),
   writes_sub_of_mem (y := main_v78) rfl (by decide),
   writes_sub_of_mem (y := main_v79) rfl (by decide),
   writes_sub_of_mem (y := main_v80) rfl (by decide),
   writes_sub_of_mem (y := main_v81) rfl (by decide),
   writes_sub_of_mem (y := main_cst_23) rfl (by decide),
   writes_sub_of_mem (y := main_v82) rfl (by decide),
   writes_sub_of_mem (y := main_c_24) rfl (by decide),
   writes_sub_of_mem (y := main_v83) rfl (by decide),
   writes_sub_of_mem (y := main_v84) rfl (by decide),
   writes_sub_of_mem (y := main_c_25) rfl (by decide),
   writes_sub_of_mem (y := main_v85) rfl (by decide),
   writes_sub_of_mem (y := main_v86) rfl (by decide),
   writes_sub_of_mem (y := main_v87) rfl (by decide),
   writes_sub_of_mem (y := main_v88) rfl (by decide),
   writes_sub_of_mem (y := main_v89) rfl (by decide),
   writes_sub_of_mem (y := main_v90) rfl (by decide),
   writes_sub_of_mem (y := main_call2_v0) rfl (by decide),
   writes_sub_of_mem (y := main_call2_cst) rfl (by decide),
   writes_sub_of_mem (y := main_call2_v1) rfl (by decide),
   writes_sub_of_mem (y := main_call2_v2) rfl (by decide),
   writes_sub_of_mem (y := main_v91) rfl (by decide)⟩

/-- The references window 2's operations write: one each, in order. -/
abbrev opsP2_W : List (Ref sig .tc) := [main_cst_26, main_v92, main_v93, main_v94, main_v95, main_cst_27, main_call3_cst, main_call3_v0, main_call3_v1, main_call3_v2, main_call3_v3, main_call3_v4, main_v96, main_v97, main_v98, main_v99, main_v100, main_v101, main_v102, main_v103, main_v104, main_v105, main_v106, main_cst_28, main_v107, main_c_29, main_v108, main_v109, main_c_30, main_v110, main_v111, main_v112, main_v113, main_cst_31, main_v114, main_v115, main_cst_32, main_v116, main_v117, main_cst_33, main_v118, main_v119, main_cst_34, main_call4_v0, main_call4_v1, main_v120, main_c_35, main_v121, main_v122, main_c_36, main_v123, main_v124, main_v125, main_v126, main_v127, main_v128, main_v129, main_c_37, main_v130, main_v131, main_c_38, main_v132, main_v133, main_v134, main_v135, main_v136, main_v137, main_v138]
set_option maxRecDepth 8192 in
theorem opsP2_writes : (opsP2 : List (HloOp τ sig (Elt F))).Forall fun op => op.writes ⊆ (opsP2_W.map (Proc.devRef (τ := τ) .tc)).toFinset :=
  ⟨writes_sub_of_mem (y := main_cst_26) rfl (by decide),
   writes_sub_of_mem (y := main_v92) rfl (by decide),
   writes_sub_of_mem (y := main_v93) rfl (by decide),
   writes_sub_of_mem (y := main_v94) rfl (by decide),
   writes_sub_of_mem (y := main_v95) rfl (by decide),
   writes_sub_of_mem (y := main_cst_27) rfl (by decide),
   writes_sub_of_mem (y := main_call3_cst) rfl (by decide),
   writes_sub_of_mem (y := main_call3_v0) rfl (by decide),
   writes_sub_of_mem (y := main_call3_v1) rfl (by decide),
   writes_sub_of_mem (y := main_call3_v2) rfl (by decide),
   writes_sub_of_mem (y := main_call3_v3) rfl (by decide),
   writes_sub_of_mem (y := main_call3_v4) rfl (by decide),
   writes_sub_of_mem (y := main_v96) rfl (by decide),
   writes_sub_of_mem (y := main_v97) rfl (by decide),
   writes_sub_of_mem (y := main_v98) rfl (by decide),
   writes_sub_of_mem (y := main_v99) rfl (by decide),
   writes_sub_of_mem (y := main_v100) rfl (by decide),
   writes_sub_of_mem (y := main_v101) rfl (by decide),
   writes_sub_of_mem (y := main_v102) rfl (by decide),
   writes_sub_of_mem (y := main_v103) rfl (by decide),
   writes_sub_of_mem (y := main_v104) rfl (by decide),
   writes_sub_of_mem (y := main_v105) rfl (by decide),
   writes_sub_of_mem (y := main_v106) rfl (by decide),
   writes_sub_of_mem (y := main_cst_28) rfl (by decide),
   writes_sub_of_mem (y := main_v107) rfl (by decide),
   writes_sub_of_mem (y := main_c_29) rfl (by decide),
   writes_sub_of_mem (y := main_v108) rfl (by decide),
   writes_sub_of_mem (y := main_v109) rfl (by decide),
   writes_sub_of_mem (y := main_c_30) rfl (by decide),
   writes_sub_of_mem (y := main_v110) rfl (by decide),
   writes_sub_of_mem (y := main_v111) rfl (by decide),
   writes_sub_of_mem (y := main_v112) rfl (by decide),
   writes_sub_of_mem (y := main_v113) rfl (by decide),
   writes_sub_of_mem (y := main_cst_31) rfl (by decide),
   writes_sub_of_mem (y := main_v114) rfl (by decide),
   writes_sub_of_mem (y := main_v115) rfl (by decide),
   writes_sub_of_mem (y := main_cst_32) rfl (by decide),
   writes_sub_of_mem (y := main_v116) rfl (by decide),
   writes_sub_of_mem (y := main_v117) rfl (by decide),
   writes_sub_of_mem (y := main_cst_33) rfl (by decide),
   writes_sub_of_mem (y := main_v118) rfl (by decide),
   writes_sub_of_mem (y := main_v119) rfl (by decide),
   writes_sub_of_mem (y := main_cst_34) rfl (by decide),
   writes_sub_of_mem (y := main_call4_v0) rfl (by decide),
   writes_sub_of_mem (y := main_call4_v1) rfl (by decide),
   writes_sub_of_mem (y := main_v120) rfl (by decide),
   writes_sub_of_mem (y := main_c_35) rfl (by decide),
   writes_sub_of_mem (y := main_v121) rfl (by decide),
   writes_sub_of_mem (y := main_v122) rfl (by decide),
   writes_sub_of_mem (y := main_c_36) rfl (by decide),
   writes_sub_of_mem (y := main_v123) rfl (by decide),
   writes_sub_of_mem (y := main_v124) rfl (by decide),
   writes_sub_of_mem (y := main_v125) rfl (by decide),
   writes_sub_of_mem (y := main_v126) rfl (by decide),
   writes_sub_of_mem (y := main_v127) rfl (by decide),
   writes_sub_of_mem (y := main_v128) rfl (by decide),
   writes_sub_of_mem (y := main_v129) rfl (by decide),
   writes_sub_of_mem (y := main_c_37) rfl (by decide),
   writes_sub_of_mem (y := main_v130) rfl (by decide),
   writes_sub_of_mem (y := main_v131) rfl (by decide),
   writes_sub_of_mem (y := main_c_38) rfl (by decide),
   writes_sub_of_mem (y := main_v132) rfl (by decide),
   writes_sub_of_mem (y := main_v133) rfl (by decide),
   writes_sub_of_mem (y := main_v134) rfl (by decide),
   writes_sub_of_mem (y := main_v135) rfl (by decide),
   writes_sub_of_mem (y := main_v136) rfl (by decide),
   writes_sub_of_mem (y := main_v137) rfl (by decide),
   writes_sub_of_mem (y := main_v138) rfl (by decide)⟩

/-- The references window 3's operations write: one each, in order. -/
abbrev opsP3_W : List (Ref sig .tc) := [main_cst_39, main_v139, main_c_40, main_v140, main_v141, main_c_41, main_v142, main_v143, main_v144, main_v145, main_v146, main_cst_42, main_v147, main_c_43, main_v148, main_v149, main_c_44, main_v150, main_v151, main_v152, main_v153, main_cst_45, main_v154, main_v155, main_cst_46, main_v156, main_v157, main_cst_47, main_v158, main_v159, main_cst_48, main_call5_v0, main_call5_v1, main_v160, main_c_49, main_v161, main_v162, main_c_50, main_v163, main_v164, main_v165, main_v166, main_v167, main_v168, main_v169, main_c_51, main_v170, main_v171, main_c_52, main_v172, main_v173, main_v174, main_v175, main_v176, main_v177, main_v178, main_cst_53, main_v179, main_c_54, main_v180, main_v181, main_c_55]
set_option maxRecDepth 8192 in
theorem opsP3_writes : (opsP3 : List (HloOp τ sig (Elt F))).Forall fun op => op.writes ⊆ (opsP3_W.map (Proc.devRef (τ := τ) .tc)).toFinset :=
  ⟨writes_sub_of_mem (y := main_cst_39) rfl (by decide),
   writes_sub_of_mem (y := main_v139) rfl (by decide),
   writes_sub_of_mem (y := main_c_40) rfl (by decide),
   writes_sub_of_mem (y := main_v140) rfl (by decide),
   writes_sub_of_mem (y := main_v141) rfl (by decide),
   writes_sub_of_mem (y := main_c_41) rfl (by decide),
   writes_sub_of_mem (y := main_v142) rfl (by decide),
   writes_sub_of_mem (y := main_v143) rfl (by decide),
   writes_sub_of_mem (y := main_v144) rfl (by decide),
   writes_sub_of_mem (y := main_v145) rfl (by decide),
   writes_sub_of_mem (y := main_v146) rfl (by decide),
   writes_sub_of_mem (y := main_cst_42) rfl (by decide),
   writes_sub_of_mem (y := main_v147) rfl (by decide),
   writes_sub_of_mem (y := main_c_43) rfl (by decide),
   writes_sub_of_mem (y := main_v148) rfl (by decide),
   writes_sub_of_mem (y := main_v149) rfl (by decide),
   writes_sub_of_mem (y := main_c_44) rfl (by decide),
   writes_sub_of_mem (y := main_v150) rfl (by decide),
   writes_sub_of_mem (y := main_v151) rfl (by decide),
   writes_sub_of_mem (y := main_v152) rfl (by decide),
   writes_sub_of_mem (y := main_v153) rfl (by decide),
   writes_sub_of_mem (y := main_cst_45) rfl (by decide),
   writes_sub_of_mem (y := main_v154) rfl (by decide),
   writes_sub_of_mem (y := main_v155) rfl (by decide),
   writes_sub_of_mem (y := main_cst_46) rfl (by decide),
   writes_sub_of_mem (y := main_v156) rfl (by decide),
   writes_sub_of_mem (y := main_v157) rfl (by decide),
   writes_sub_of_mem (y := main_cst_47) rfl (by decide),
   writes_sub_of_mem (y := main_v158) rfl (by decide),
   writes_sub_of_mem (y := main_v159) rfl (by decide),
   writes_sub_of_mem (y := main_cst_48) rfl (by decide),
   writes_sub_of_mem (y := main_call5_v0) rfl (by decide),
   writes_sub_of_mem (y := main_call5_v1) rfl (by decide),
   writes_sub_of_mem (y := main_v160) rfl (by decide),
   writes_sub_of_mem (y := main_c_49) rfl (by decide),
   writes_sub_of_mem (y := main_v161) rfl (by decide),
   writes_sub_of_mem (y := main_v162) rfl (by decide),
   writes_sub_of_mem (y := main_c_50) rfl (by decide),
   writes_sub_of_mem (y := main_v163) rfl (by decide),
   writes_sub_of_mem (y := main_v164) rfl (by decide),
   writes_sub_of_mem (y := main_v165) rfl (by decide),
   writes_sub_of_mem (y := main_v166) rfl (by decide),
   writes_sub_of_mem (y := main_v167) rfl (by decide),
   writes_sub_of_mem (y := main_v168) rfl (by decide),
   writes_sub_of_mem (y := main_v169) rfl (by decide),
   writes_sub_of_mem (y := main_c_51) rfl (by decide),
   writes_sub_of_mem (y := main_v170) rfl (by decide),
   writes_sub_of_mem (y := main_v171) rfl (by decide),
   writes_sub_of_mem (y := main_c_52) rfl (by decide),
   writes_sub_of_mem (y := main_v172) rfl (by decide),
   writes_sub_of_mem (y := main_v173) rfl (by decide),
   writes_sub_of_mem (y := main_v174) rfl (by decide),
   writes_sub_of_mem (y := main_v175) rfl (by decide),
   writes_sub_of_mem (y := main_v176) rfl (by decide),
   writes_sub_of_mem (y := main_v177) rfl (by decide),
   writes_sub_of_mem (y := main_v178) rfl (by decide),
   writes_sub_of_mem (y := main_cst_53) rfl (by decide),
   writes_sub_of_mem (y := main_v179) rfl (by decide),
   writes_sub_of_mem (y := main_c_54) rfl (by decide),
   writes_sub_of_mem (y := main_v180) rfl (by decide),
   writes_sub_of_mem (y := main_v181) rfl (by decide),
   writes_sub_of_mem (y := main_c_55) rfl (by decide)⟩

/-- The references window 4's operations write: one each, in order. -/
abbrev opsP4_W : List (Ref sig .tc) := [main_v182, main_v183, main_v184, main_v185, main_v186, main_v187, main_call6_v0, main_call6_cst, main_call6_v1, main_call6_v2, main_v188, main_cst_56, main_v189, main_v190, main_v191, main_v192, main_cst_57, main_call7_cst, main_call7_v0, main_call7_v1, main_call7_v2, main_call7_v3, main_call7_v4, main_v193, main_v194, main_v195, main_v196, main_v197, main_v198, main_v199, main_v200, main_v201, main_v202, main_v203, main_cst_58, main_v204, main_c_59, main_v205, main_v206, main_c_60, main_v207, main_v208, main_v209, main_v210, main_cst_61, main_v211, main_v212, main_cst_62, main_v213, main_v214, main_cst_63, main_v215, main_v216, main_cst_64, main_call8_v0, main_call8_v1, main_v217, main_c_65, main_v218, main_v219, main_c_66, main_v220, main_v221, main_v222, main_v223, main_v224, main_v225, main_v226, main_c_67, main_v227, main_v228, main_c_68]
set_option maxRecDepth 8192 in
theorem opsP4_writes : (opsP4 : List (HloOp τ sig (Elt F))).Forall fun op => op.writes ⊆ (opsP4_W.map (Proc.devRef (τ := τ) .tc)).toFinset :=
  ⟨writes_sub_of_mem (y := main_v182) rfl (by decide),
   writes_sub_of_mem (y := main_v183) rfl (by decide),
   writes_sub_of_mem (y := main_v184) rfl (by decide),
   writes_sub_of_mem (y := main_v185) rfl (by decide),
   writes_sub_of_mem (y := main_v186) rfl (by decide),
   writes_sub_of_mem (y := main_v187) rfl (by decide),
   writes_sub_of_mem (y := main_call6_v0) rfl (by decide),
   writes_sub_of_mem (y := main_call6_cst) rfl (by decide),
   writes_sub_of_mem (y := main_call6_v1) rfl (by decide),
   writes_sub_of_mem (y := main_call6_v2) rfl (by decide),
   writes_sub_of_mem (y := main_v188) rfl (by decide),
   writes_sub_of_mem (y := main_cst_56) rfl (by decide),
   writes_sub_of_mem (y := main_v189) rfl (by decide),
   writes_sub_of_mem (y := main_v190) rfl (by decide),
   writes_sub_of_mem (y := main_v191) rfl (by decide),
   writes_sub_of_mem (y := main_v192) rfl (by decide),
   writes_sub_of_mem (y := main_cst_57) rfl (by decide),
   writes_sub_of_mem (y := main_call7_cst) rfl (by decide),
   writes_sub_of_mem (y := main_call7_v0) rfl (by decide),
   writes_sub_of_mem (y := main_call7_v1) rfl (by decide),
   writes_sub_of_mem (y := main_call7_v2) rfl (by decide),
   writes_sub_of_mem (y := main_call7_v3) rfl (by decide),
   writes_sub_of_mem (y := main_call7_v4) rfl (by decide),
   writes_sub_of_mem (y := main_v193) rfl (by decide),
   writes_sub_of_mem (y := main_v194) rfl (by decide),
   writes_sub_of_mem (y := main_v195) rfl (by decide),
   writes_sub_of_mem (y := main_v196) rfl (by decide),
   writes_sub_of_mem (y := main_v197) rfl (by decide),
   writes_sub_of_mem (y := main_v198) rfl (by decide),
   writes_sub_of_mem (y := main_v199) rfl (by decide),
   writes_sub_of_mem (y := main_v200) rfl (by decide),
   writes_sub_of_mem (y := main_v201) rfl (by decide),
   writes_sub_of_mem (y := main_v202) rfl (by decide),
   writes_sub_of_mem (y := main_v203) rfl (by decide),
   writes_sub_of_mem (y := main_cst_58) rfl (by decide),
   writes_sub_of_mem (y := main_v204) rfl (by decide),
   writes_sub_of_mem (y := main_c_59) rfl (by decide),
   writes_sub_of_mem (y := main_v205) rfl (by decide),
   writes_sub_of_mem (y := main_v206) rfl (by decide),
   writes_sub_of_mem (y := main_c_60) rfl (by decide),
   writes_sub_of_mem (y := main_v207) rfl (by decide),
   writes_sub_of_mem (y := main_v208) rfl (by decide),
   writes_sub_of_mem (y := main_v209) rfl (by decide),
   writes_sub_of_mem (y := main_v210) rfl (by decide),
   writes_sub_of_mem (y := main_cst_61) rfl (by decide),
   writes_sub_of_mem (y := main_v211) rfl (by decide),
   writes_sub_of_mem (y := main_v212) rfl (by decide),
   writes_sub_of_mem (y := main_cst_62) rfl (by decide),
   writes_sub_of_mem (y := main_v213) rfl (by decide),
   writes_sub_of_mem (y := main_v214) rfl (by decide),
   writes_sub_of_mem (y := main_cst_63) rfl (by decide),
   writes_sub_of_mem (y := main_v215) rfl (by decide),
   writes_sub_of_mem (y := main_v216) rfl (by decide),
   writes_sub_of_mem (y := main_cst_64) rfl (by decide),
   writes_sub_of_mem (y := main_call8_v0) rfl (by decide),
   writes_sub_of_mem (y := main_call8_v1) rfl (by decide),
   writes_sub_of_mem (y := main_v217) rfl (by decide),
   writes_sub_of_mem (y := main_c_65) rfl (by decide),
   writes_sub_of_mem (y := main_v218) rfl (by decide),
   writes_sub_of_mem (y := main_v219) rfl (by decide),
   writes_sub_of_mem (y := main_c_66) rfl (by decide),
   writes_sub_of_mem (y := main_v220) rfl (by decide),
   writes_sub_of_mem (y := main_v221) rfl (by decide),
   writes_sub_of_mem (y := main_v222) rfl (by decide),
   writes_sub_of_mem (y := main_v223) rfl (by decide),
   writes_sub_of_mem (y := main_v224) rfl (by decide),
   writes_sub_of_mem (y := main_v225) rfl (by decide),
   writes_sub_of_mem (y := main_v226) rfl (by decide),
   writes_sub_of_mem (y := main_c_67) rfl (by decide),
   writes_sub_of_mem (y := main_v227) rfl (by decide),
   writes_sub_of_mem (y := main_v228) rfl (by decide),
   writes_sub_of_mem (y := main_c_68) rfl (by decide)⟩

/-- The references window 5's operations write: one each, in order. -/
abbrev opsP5_W : List (Ref sig .tc) := [main_v229, main_v230, main_v231, main_v232, main_v233, main_v234, main_v235, main_cst_69, main_v236, main_c_70, main_v237, main_v238, main_c_71, main_v239, main_v240, main_v241, main_v242, main_v243, main_cst_72, main_v244, main_c_73, main_v245, main_v246, main_c_74, main_v247, main_v248, main_v249, main_v250, main_cst_75, main_v251, main_v252, main_cst_76, main_v253, main_v254, main_cst_77, main_v255, main_v256, main_cst_78, main_call9_v0, main_call9_v1, main_v257, main_c_79, main_v258, main_v259, main_c_80, main_v260, main_v261, main_v262, main_v263, main_v264, main_v265, main_v266, main_c_81, main_v267, main_v268, main_c_82, main_v269, main_v270, main_v271, main_v272, main_v273, main_v274]
set_option maxRecDepth 8192 in
theorem opsP5_writes : (opsP5 : List (HloOp τ sig (Elt F))).Forall fun op => op.writes ⊆ (opsP5_W.map (Proc.devRef (τ := τ) .tc)).toFinset :=
  ⟨writes_sub_of_mem (y := main_v229) rfl (by decide),
   writes_sub_of_mem (y := main_v230) rfl (by decide),
   writes_sub_of_mem (y := main_v231) rfl (by decide),
   writes_sub_of_mem (y := main_v232) rfl (by decide),
   writes_sub_of_mem (y := main_v233) rfl (by decide),
   writes_sub_of_mem (y := main_v234) rfl (by decide),
   writes_sub_of_mem (y := main_v235) rfl (by decide),
   writes_sub_of_mem (y := main_cst_69) rfl (by decide),
   writes_sub_of_mem (y := main_v236) rfl (by decide),
   writes_sub_of_mem (y := main_c_70) rfl (by decide),
   writes_sub_of_mem (y := main_v237) rfl (by decide),
   writes_sub_of_mem (y := main_v238) rfl (by decide),
   writes_sub_of_mem (y := main_c_71) rfl (by decide),
   writes_sub_of_mem (y := main_v239) rfl (by decide),
   writes_sub_of_mem (y := main_v240) rfl (by decide),
   writes_sub_of_mem (y := main_v241) rfl (by decide),
   writes_sub_of_mem (y := main_v242) rfl (by decide),
   writes_sub_of_mem (y := main_v243) rfl (by decide),
   writes_sub_of_mem (y := main_cst_72) rfl (by decide),
   writes_sub_of_mem (y := main_v244) rfl (by decide),
   writes_sub_of_mem (y := main_c_73) rfl (by decide),
   writes_sub_of_mem (y := main_v245) rfl (by decide),
   writes_sub_of_mem (y := main_v246) rfl (by decide),
   writes_sub_of_mem (y := main_c_74) rfl (by decide),
   writes_sub_of_mem (y := main_v247) rfl (by decide),
   writes_sub_of_mem (y := main_v248) rfl (by decide),
   writes_sub_of_mem (y := main_v249) rfl (by decide),
   writes_sub_of_mem (y := main_v250) rfl (by decide),
   writes_sub_of_mem (y := main_cst_75) rfl (by decide),
   writes_sub_of_mem (y := main_v251) rfl (by decide),
   writes_sub_of_mem (y := main_v252) rfl (by decide),
   writes_sub_of_mem (y := main_cst_76) rfl (by decide),
   writes_sub_of_mem (y := main_v253) rfl (by decide),
   writes_sub_of_mem (y := main_v254) rfl (by decide),
   writes_sub_of_mem (y := main_cst_77) rfl (by decide),
   writes_sub_of_mem (y := main_v255) rfl (by decide),
   writes_sub_of_mem (y := main_v256) rfl (by decide),
   writes_sub_of_mem (y := main_cst_78) rfl (by decide),
   writes_sub_of_mem (y := main_call9_v0) rfl (by decide),
   writes_sub_of_mem (y := main_call9_v1) rfl (by decide),
   writes_sub_of_mem (y := main_v257) rfl (by decide),
   writes_sub_of_mem (y := main_c_79) rfl (by decide),
   writes_sub_of_mem (y := main_v258) rfl (by decide),
   writes_sub_of_mem (y := main_v259) rfl (by decide),
   writes_sub_of_mem (y := main_c_80) rfl (by decide),
   writes_sub_of_mem (y := main_v260) rfl (by decide),
   writes_sub_of_mem (y := main_v261) rfl (by decide),
   writes_sub_of_mem (y := main_v262) rfl (by decide),
   writes_sub_of_mem (y := main_v263) rfl (by decide),
   writes_sub_of_mem (y := main_v264) rfl (by decide),
   writes_sub_of_mem (y := main_v265) rfl (by decide),
   writes_sub_of_mem (y := main_v266) rfl (by decide),
   writes_sub_of_mem (y := main_c_81) rfl (by decide),
   writes_sub_of_mem (y := main_v267) rfl (by decide),
   writes_sub_of_mem (y := main_v268) rfl (by decide),
   writes_sub_of_mem (y := main_c_82) rfl (by decide),
   writes_sub_of_mem (y := main_v269) rfl (by decide),
   writes_sub_of_mem (y := main_v270) rfl (by decide),
   writes_sub_of_mem (y := main_v271) rfl (by decide),
   writes_sub_of_mem (y := main_v272) rfl (by decide),
   writes_sub_of_mem (y := main_v273) rfl (by decide),
   writes_sub_of_mem (y := main_v274) rfl (by decide)⟩

/-- The references window 6's operations write: one each, in order. -/
abbrev opsP6_W : List (Ref sig .tc) := [main_v275, main_cst_83, main_v276, main_c_84, main_v277, main_v278, main_c_85, main_v279, main_v280, main_v281, main_v282, main_v283, main_v284, main_call10_v0, main_call10_cst, main_call10_v1, main_call10_v2, main_v285, main_cst_86, main_v286, main_v287, main_v288, main_v289, main_cst_87, main_call11_cst, main_call11_v0, main_call11_v1, main_call11_v2, main_call11_v3, main_call11_v4, main_v290, main_v291, main_v292, main_cst_88, main_v293, main_v294, main_v295, main_v296, main_cst_89, main_v297, main_v298]
set_option maxRecDepth 8192 in
theorem opsP6_writes : (opsP6 : List (HloOp τ sig (Elt F))).Forall fun op => op.writes ⊆ (opsP6_W.map (Proc.devRef (τ := τ) .tc)).toFinset :=
  ⟨writes_sub_of_mem (y := main_v275) rfl (by decide),
   writes_sub_of_mem (y := main_cst_83) rfl (by decide),
   writes_sub_of_mem (y := main_v276) rfl (by decide),
   writes_sub_of_mem (y := main_c_84) rfl (by decide),
   writes_sub_of_mem (y := main_v277) rfl (by decide),
   writes_sub_of_mem (y := main_v278) rfl (by decide),
   writes_sub_of_mem (y := main_c_85) rfl (by decide),
   writes_sub_of_mem (y := main_v279) rfl (by decide),
   writes_sub_of_mem (y := main_v280) rfl (by decide),
   writes_sub_of_mem (y := main_v281) rfl (by decide),
   writes_sub_of_mem (y := main_v282) rfl (by decide),
   writes_sub_of_mem (y := main_v283) rfl (by decide),
   writes_sub_of_mem (y := main_v284) rfl (by decide),
   writes_sub_of_mem (y := main_call10_v0) rfl (by decide),
   writes_sub_of_mem (y := main_call10_cst) rfl (by decide),
   writes_sub_of_mem (y := main_call10_v1) rfl (by decide),
   writes_sub_of_mem (y := main_call10_v2) rfl (by decide),
   writes_sub_of_mem (y := main_v285) rfl (by decide),
   writes_sub_of_mem (y := main_cst_86) rfl (by decide),
   writes_sub_of_mem (y := main_v286) rfl (by decide),
   writes_sub_of_mem (y := main_v287) rfl (by decide),
   writes_sub_of_mem (y := main_v288) rfl (by decide),
   writes_sub_of_mem (y := main_v289) rfl (by decide),
   writes_sub_of_mem (y := main_cst_87) rfl (by decide),
   writes_sub_of_mem (y := main_call11_cst) rfl (by decide),
   writes_sub_of_mem (y := main_call11_v0) rfl (by decide),
   writes_sub_of_mem (y := main_call11_v1) rfl (by decide),
   writes_sub_of_mem (y := main_call11_v2) rfl (by decide),
   writes_sub_of_mem (y := main_call11_v3) rfl (by decide),
   writes_sub_of_mem (y := main_call11_v4) rfl (by decide),
   writes_sub_of_mem (y := main_v290) rfl (by decide),
   writes_sub_of_mem (y := main_v291) rfl (by decide),
   writes_sub_of_mem (y := main_v292) rfl (by decide),
   writes_sub_of_mem (y := main_cst_88) rfl (by decide),
   writes_sub_of_mem (y := main_v293) rfl (by decide),
   writes_sub_of_mem (y := main_v294) rfl (by decide),
   writes_sub_of_mem (y := main_v295) rfl (by decide),
   writes_sub_of_mem (y := main_v296) rfl (by decide),
   writes_sub_of_mem (y := main_cst_89) rfl (by decide),
   writes_sub_of_mem (y := main_v297) rfl (by decide),
   writes_sub_of_mem (y := main_v298) rfl (by decide)⟩

end Cert.ReferenceIdeal.RefRun

end
-- ==== Proof.LibStretch.lean ====
/-
  Two general facts about a straight line of array operations run from some contents of the buffers.
  A line cut in two runs its second part from what its first part leaves — so a long program is read stretch by stretch,
  each stretch for arbitrary starting contents.  And contents carried to a typed reference's buffer type and back along
  the same type equation are unchanged — so the operations of a module-local function (which carry every value through
  its typed reference) compose exactly as a program's own operations do, with no transport left between them.
-/
import Idealize.ShloMosaic.Lib.StableHlo.Run

namespace Cert.LibStretch

open Idealize.ShloMosaic Idealize.ShloMosaic.StableHlo

/-- Running `l₁ ++ l₂` from `V` is running `l₂` from what `l₁` leaves. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_append l₁ l₂]

/-- To the buffer's type and back is the identity. -/
theorem ofBuf_toBuf {sig : RefSig} {Val : EltTy → Type} {T : BufTy} (x : TRef sig T) (v : T.Contents Val) :
    x.ofBuf (x.toBuf v) = v := by
  rcases x with ⟨r, h, h2, h3⟩
  subst h
  rfl

/-- From the buffer's type and back likewise. -/
theorem toBuf_ofBuf {sig : RefSig} {Val : EltTy → Type} {T : BufTy} (x : TRef sig T) (v : x.ref.ty.Contents Val) :
    x.toBuf (x.ofBuf v) = v := by
  rcases x with ⟨r, h, h2, h3⟩
  subst h
  rfl

end Cert.LibStretch
-- ==== Proof.RefRun.lean ====
/-
  The reference program's run, read back: it terminates from every memory, every buffer ends at the fold of the
  program's operations over the launch contents, and the arguments — which no operation writes — are unchanged.
-/
import proofs.«107201_j32822140076800_2_alg».proof.Defs
import proofs.«107201_j32822140076800_2_alg».proof.Proof.Gen.Pre_finite_inputs
import proofs.«107201_j32822140076800_2_alg».proof.Proof.RefOpsEq
import proofs.«107201_j32822140076800_2_alg».proof.Proof.LibStretch

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The device has no scoped buffer and no scoped semaphore: the whole boundary is the idle slot. -/
theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of the
    reference program terminates, and ends with every device buffer at the fold of the 433 operations' results over
    the buffers' launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

/-- A reference that no window writes keeps its contents through the whole program. -/
theorem ops_keep (V : Valuation τ sig (Elt F)) {r : Ref sig .tc}
    (h0 : r ∉ opsP0_W) (h1 : r ∉ opsP1_W) (h2 : r ∉ opsP2_W) (h3 : r ∉ opsP3_W) (h4 : r ∉ opsP4_W) (h5 : r ∉ opsP5_W) (h6 : r ∉ opsP6_W) :
    after ops V (Proc.devRef .tc r) = V (Proc.devRef .tc r) := by
  simp only [ops, Cert.LibStretch.after_append]
  rw [after_of_writes_sub opsP6 _ opsP6_writes h6,
    after_of_writes_sub opsP5 _ opsP5_writes h5,
    after_of_writes_sub opsP4 _ opsP4_writes h4,
    after_of_writes_sub opsP3 _ opsP3_writes h3,
    after_of_writes_sub opsP2 _ opsP2_writes h2,
    after_of_writes_sub opsP1 _ opsP1_writes h1,
    after_of_writes_sub opsP0 _ opsP0_writes h0]

/-- The reference program at the ideal instance terminates from every memory and leaves its seventeen arguments as
    they were: each is written by no operation. -/
theorem frame_ri : Cert.frame_ReferenceIdeal := by
  intro m g _
  refine (θ_run _ _ _).mono (fun _ h c => ?_) (run (F := Ideal) m g)
  exact ⟨(h c main_arg0).trans (ops_keep _ (by decide) (by decide) (by decide) (by decide) (by decide) (by decide) (by decide)),
    (h c main_arg1).trans (ops_keep _ (by decide) (by decide) (by decide) (by decide) (by decide) (by decide) (by decide)),
    (h c main_arg2).trans (ops_keep _ (by decide) (by decide) (by decide) (by decide) (by decide) (by decide) (by decide)),
    (h c main_arg3).trans (ops_keep _ (by decide) (by decide) (by decide) (by decide) (by decide) (by decide) (by decide)),
    (h c main_arg4).trans (ops_keep _ (by decide) (by decide) (by decide) (by decide) (by decide) (by decide) (by decide)),
    (h c main_arg5).trans (ops_keep _ (by decide) (by decide) (by decide) (by decide) (by decide) (by decide) (by decide)),
    (h c main_arg6).trans (ops_keep _ (by decide) (by decide) (by decide) (by decide) (by decide) (by decide) (by decide)),
    (h c main_arg7).trans (ops_keep _ (by decide) (by decide) (by decide) (by decide) (by decide) (by decide) (by decide)),
    (h c main_arg8).trans (ops_keep _ (by decide) (by decide) (by decide) (by decide) (by decide) (by decide) (by decide)),
    (h c main_arg9).trans (ops_keep _ (by decide) (by decide) (by decide) (by decide) (by decide) (by decide) (by decide)),
    (h c main_arg10).trans (ops_keep _ (by decide) (by decide) (by decide) (by decide) (by decide) (by decide) (by decide)),
    (h c main_arg11).trans (ops_keep _ (by decide) (by decide) (by decide) (by decide) (by decide) (by decide) (by decide)),
    (h c main_arg12).trans (ops_keep _ (by decide) (by decide) (by decide) (by decide) (by decide) (by decide) (by decide)),
    (h c main_arg13).trans (ops_keep _ (by decide) (by decide) (by decide) (by decide) (by decide) (by decide) (by decide)),
    (h c main_arg14).trans (ops_keep _ (by decide) (by decide) (by decide) (by decide) (by decide) (by decide) (by decide)),
    (h c main_arg15).trans (ops_keep _ (by decide) (by decide) (by decide) (by decide) (by decide) (by decide) (by decide)),
    (h c main_arg16).trans (ops_keep _ (by decide) (by decide) (by decide) (by decide) (by decide) (by decide) (by decide))⟩

end Cert.ReferenceIdeal.RefRun

end
-- ==== Proof.KIVal0.lean ====
/- Region 0's output (layer 1's projection) as one function of its two input arrays. The [50000, 96] output is cut into 10 row blocks of 5000 rows; grid point t writes block t, and what it writes is the body's pure function of block t of the features and of the whole fused weight matrix. So entry (n, j) of the final array is that function of row block n / 5000, read at (n mod 5000, j); every row lies in exactly one block. -/
import proofs.«107201_j32822140076800_2_alg».proof.Proof.KIReg0
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero2_0 : (![0, 0] : Fin 2 → Nat) = fun _ => 0 := funext fun a => by fin_cases a <;> rfl

/-- The windows' block indices at grid point `t`: a window that moves down the rows sits at `(t, 0)`, one that holds a whole array at `(0, 0)`. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Rows `[5000 t, 5000 t + 5000)` of a [50000, 8] array (the row number taken mod 50000, which changes nothing for the points of the grid). -/
def rows0_0 (X : S50000x8.Idx → Elt F .f32) (t : Nat) : Vec F S5000x8 .f32 :=
  fun y => X (ValueIdx.ix2 (⟨(t * 5000 + (y 0).val) % 50000, Nat.mod_lt _ (by decide)⟩ : Fin 50000) (⟨(y 1).val, ValueIdx.idx2_lt1 y⟩ : Fin 8))

/-- Rows `[8 t, 8 t + 8)` of a [8, 96] array (the row number taken mod 8, which changes nothing for the points of the grid). -/
def rows0_1 (X : S8x96.Idx → Elt F .f32) (t : Nat) : Vec F S8x96 .f32 :=
  fun y => X (ValueIdx.ix2 (⟨(t * 8 + (y 0).val) % 8, Nat.mod_lt _ (by decide)⟩ : Fin 8) (⟨(y 1).val, ValueIdx.idx2_lt1 y⟩ : Fin 96))

/-- The output array: entry `(n, q)` is the body's function of row block `n / 5000` of the inputs, read at `(n mod 5000, q)`. -/
def arr0 (X0 : S50000x8.Idx → Elt F .f32) (X1 : S8x96.Idx → Elt F .f32) : S50000x96.Idx → Elt F .f32 :=
  fun i => k0_pay1 (rows0_0 X0 ((i 0).val / 5000)) (rows0_1 X1 0)
    (ValueIdx.ix2 (⟨(i 0).val % 5000, Nat.mod_lt _ (by decide)⟩ : Fin 5000) (⟨(i 1).val, ValueIdx.idx2_lt1 i⟩ : Fin 96))

theorem point_lt0 (t : Fin cfg0.N) : t.val < 10 := by
  have h : t.val < grid0.N := t.isLt
  rw [N_0] at h; exact h

/-- Input window 0's block at point `t` is rows `[5000 t, 5000 t + 5000)` of its array. -/
theorem iblk0_0 (c : Dev nD) (t : Fin cfg0.N) : iblk0 V c 0 t = rows0_0 (V c (Pipeline.arrRef spec0 0)) t.val := by
  obtain ⟨e0, e1, -, -, -, -⟩ := index0 t
  have ht := point_lt0 t
  funext y
  show V c (Pipeline.arrRef spec0 0) (((cfg0.win 0).blk t).view.emb y) = V c (Pipeline.arrRef spec0 0) _
  refine congrArg _ ?_
  funext a; apply Fin.ext
  match a with
  | ⟨0, _⟩ =>
    show win0_0.index t (0 : Fin 2) * 5000 + 1 * (y 0).val = (t.val * 5000 + (y 0).val) % 50000
    have hy : (y 0).val < 5000 := (y 0).isLt
    rw [e0]; omega
  | ⟨1, _⟩ =>
    show win0_0.index t (1 : Fin 2) * 8 + 1 * (y 1).val = (y 1).val
    rw [e1]; omega

/-- Input window 1's block at point `t` is the whole array. -/
theorem iblk0_1 (c : Dev nD) (t : Fin cfg0.N) : iblk0 V c 1 t = rows0_1 (V c (Pipeline.arrRef spec0 1)) 0 := by
  obtain ⟨-, -, e0, e1, -, -⟩ := index0 t
  have ht := point_lt0 t
  funext y
  show V c (Pipeline.arrRef spec0 1) (((cfg0.win 1).blk t).view.emb y) = V c (Pipeline.arrRef spec0 1) _
  refine congrArg _ ?_
  funext a; apply Fin.ext
  match a with
  | ⟨0, _⟩ =>
    show win0_1.index t (0 : Fin 2) * 8 + 1 * (y 0).val = (0 * 8 + (y 0).val) % 8
    have hy : (y 0).val < 8 := (y 0).isLt
    rw [e0]; omega
  | ⟨1, _⟩ =>
    show win0_1.index t (1 : Fin 2) * 96 + 1 * (y 1).val = (y 1).val
    rw [e1]; omega

/-- What point `t` writes back is block `t` of `arr0` of the input arrays as the region finds them. -/
theorem flushed0 (c : Dev nD) (t : Fin cfg0.N) :
    (dat0 V c).flushed 2 t = ((cfg0.win 2).blk t).view.read (Elt F) (arr0 (V c (Pipeline.arrRef spec0 0)) (V c (Pipeline.arrRef spec0 1))) := by
  show (cfg0.win 2).cut (grid0.coords t) ((dat0 V c).after 2 t) = _
  rw [after0_2]
  unfold out0_2
  rw [View.canon_unit_zero zero2_0]
  simp only [View.ld_unit_zero (S := S5000x8) zero2_0, View.ld_unit_zero (S := S8x96) zero2_0, View.ld_unit_zero (S := S5000x96) zero2_0]
  obtain ⟨-, -, -, -, e0, e1⟩ := index0 t
  rw [iblk0_0, iblk0_1]
  funext j
  have hj0 : (j 0).val < 5000 := (j 0).isLt
  have h0 : ((((cfg0.win 2).blk t).view.emb j) 0).val = t.val * 5000 + (j 0).val := by
    show win0_2.index t (0 : Fin 2) * 5000 + 1 * (j 0).val = _
    rw [e0]; omega
  have h1 : ((((cfg0.win 2).blk t).view.emb j) 1).val = (j 1).val := by
    show win0_2.index t (1 : Fin 2) * 96 + 1 * (j 1).val = _
    rw [e1]; omega
  have hq : (t.val * 5000 + (j 0).val) / 5000 = t.val := by omega
  have hr : (t.val * 5000 + (j 0).val) % 5000 = (j 0).val := by omega
  show k0_pay1 (rows0_0 _ t.val) (rows0_1 _ 0) j = arr0 _ _ (((cfg0.win 2).blk t).view.emb j)
  unfold arr0
  simp only [h0, h1, hq, hr]
  refine congrArg _ ?_
  funext a
  match a with
  | ⟨0, _⟩ => rfl
  | ⟨1, _⟩ => rfl

/-- An index of the output array lies in point `t`'s block iff each coordinate is in the block's range on its axis. -/
theorem mem_blk0 (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v50).slice (win0_2.rect t)).set ↔ _
  rw [View.set_slice_whole, Rect.mem_set_unit]
  exact Iff.rfl

/-- Every row of the output lies in some point's block: row `n` in block `n / 5000`. -/
theorem cover0 (i : S50000x96.Idx) : ∃ t : Fin cfg0.N, (cfg0.win 2).flush t = true ∧ i ∈ ((cfg0.win 2).blk t).view.set := by
  have hi0 : (i 0).val < 50000 := ValueIdx.idx2_lt0 i
  have hi1 : (i 1).val < 96 := ValueIdx.idx2_lt1 i
  have hlt : (i 0).val / 5000 < grid0.N := by rw [N_0]; omega
  refine ⟨⟨(i 0).val / 5000, hlt⟩, flush0_2 _, ?_⟩
  rw [mem_blk0]
  obtain ⟨-, -, -, -, e0, e1⟩ := index0 ⟨(i 0).val / 5000, hlt⟩
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_2.index ⟨(i 0).val / 5000, hlt⟩ (1 : Fin 2) * 96 ≤ (i 1).val ∧ (i 1).val < win0_2.index ⟨(i 0).val / 5000, hlt⟩ (1 : Fin 2) * 96 + 96
    rw [e1]; omega

/-- The output array after all 10 points is `arr0` of the input arrays as the region finds them. -/
theorem final0 (c : Dev nD) :
    (dat0 V c).arrAt 2 cfg0.N = arr0 (V c (Pipeline.arrRef spec0 0)) (V c (Pipeline.arrRef spec0 1)) :=
  (dat0 V c).arrAt_eq_of_cover 2 _ (fun t _ => flushed0 V c t) cover0

end Cert.KernelIdeal.Reg

end
-- ==== Proof.KIVal1.lean ====
/- Region 1's output (layer 1, up) as one function of its two input arrays. The [1600000, 32] output is cut into 200 row blocks of 8000 rows; grid point t writes block t, and what it writes is the body's pure function of block t of the gathered features and block t of the weight column. So entry (e, q) of the final array is that function of row block e / 8000, read at (e mod 8000, q); every row lies in exactly one block, so nothing of the entry contents is left. -/
import proofs.«107201_j32822140076800_2_alg».proof.Proof.KIReg1
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero2_1 : (![0, 0] : Fin 2 → Nat) = fun _ => 0 := funext fun a => by fin_cases a <;> rfl

/-- The windows' block indices at grid point `t`: a window that moves down the rows sits at `(t, 0)`, one that holds a whole array at `(0, 0)`. -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Rows `[8000 t, 8000 t + 8000)` of a [1600000, 32] array (the row number taken mod 1600000, which changes nothing for the points of the grid). -/
def rows1_0 (X : S1600000x32.Idx → Elt F .f32) (t : Nat) : Vec F S8000x32 .f32 :=
  fun y => X (ValueIdx.ix2 (⟨(t * 8000 + (y 0).val) % 1600000, Nat.mod_lt _ (by decide)⟩ : Fin 1600000) (⟨(y 1).val, ValueIdx.idx2_lt1 y⟩ : Fin 32))

/-- Rows `[8000 t, 8000 t + 8000)` of a [1600000, 1] array (the row number taken mod 1600000, which changes nothing for the points of the grid). -/
def rows1_1 (X : S1600000x1.Idx → Elt F .f32) (t : Nat) : Vec F S8000x1 .f32 :=
  fun y => X (ValueIdx.ix2 (⟨(t * 8000 + (y 0).val) % 1600000, Nat.mod_lt _ (by decide)⟩ : Fin 1600000) (⟨(y 1).val, ValueIdx.idx2_lt1 y⟩ : Fin 1))

/-- The output array: entry `(n, q)` is the body's function of row block `n / 8000` of the inputs, read at `(n mod 8000, q)`. -/
def arr1 (X0 : S1600000x32.Idx → Elt F .f32) (X1 : S1600000x1.Idx → Elt F .f32) : S1600000x32.Idx → Elt F .f32 :=
  fun i => k1_pay1 (rows1_0 X0 ((i 0).val / 8000)) (rows1_1 X1 ((i 0).val / 8000))
    (ValueIdx.ix2 (⟨(i 0).val % 8000, Nat.mod_lt _ (by decide)⟩ : Fin 8000) (⟨(i 1).val, ValueIdx.idx2_lt1 i⟩ : Fin 32))

theorem point_lt1 (t : Fin cfg1.N) : t.val < 200 := by
  have h : t.val < grid1.N := t.isLt
  rw [N_1] at h; exact h

/-- Input window 0's block at point `t` is rows `[8000 t, 8000 t + 8000)` of its array. -/
theorem iblk1_0 (c : Dev nD) (t : Fin cfg1.N) : iblk1 V c 0 t = rows1_0 (V c (Pipeline.arrRef spec1 0)) t.val := by
  obtain ⟨e0, e1, -, -, -, -⟩ := index1 t
  have ht := point_lt1 t
  funext y
  show V c (Pipeline.arrRef spec1 0) (((cfg1.win 0).blk t).view.emb y) = V c (Pipeline.arrRef spec1 0) _
  refine congrArg _ ?_
  funext a; apply Fin.ext
  match a with
  | ⟨0, _⟩ =>
    show win1_0.index t (0 : Fin 2) * 8000 + 1 * (y 0).val = (t.val * 8000 + (y 0).val) % 1600000
    have hy : (y 0).val < 8000 := (y 0).isLt
    rw [e0]; omega
  | ⟨1, _⟩ =>
    show win1_0.index t (1 : Fin 2) * 32 + 1 * (y 1).val = (y 1).val
    rw [e1]; omega

/-- Input window 1's block at point `t` is rows `[8000 t, 8000 t + 8000)` of its array. -/
theorem iblk1_1 (c : Dev nD) (t : Fin cfg1.N) : iblk1 V c 1 t = rows1_1 (V c (Pipeline.arrRef spec1 1)) t.val := by
  obtain ⟨-, -, e0, e1, -, -⟩ := index1 t
  have ht := point_lt1 t
  funext y
  show V c (Pipeline.arrRef spec1 1) (((cfg1.win 1).blk t).view.emb y) = V c (Pipeline.arrRef spec1 1) _
  refine congrArg _ ?_
  funext a; apply Fin.ext
  match a with
  | ⟨0, _⟩ =>
    show win1_1.index t (0 : Fin 2) * 8000 + 1 * (y 0).val = (t.val * 8000 + (y 0).val) % 1600000
    have hy : (y 0).val < 8000 := (y 0).isLt
    rw [e0]; omega
  | ⟨1, _⟩ =>
    show win1_1.index t (1 : Fin 2) * 1 + 1 * (y 1).val = (y 1).val
    rw [e1]; omega

/-- What point `t` writes back is block `t` of `arr1` of the input arrays as the region finds them. -/
theorem flushed1 (c : Dev nD) (t : Fin cfg1.N) :
    (dat1 V c).flushed 2 t = ((cfg1.win 2).blk t).view.read (Elt F) (arr1 (V c (Pipeline.arrRef spec1 0)) (V c (Pipeline.arrRef spec1 1))) := by
  show (cfg1.win 2).cut (grid1.coords t) ((dat1 V c).after 2 t) = _
  rw [after1_2]
  unfold out1_2
  rw [View.canon_unit_zero zero2_1]
  simp only [View.ld_unit_zero (S := S8000x32) zero2_1, View.ld_unit_zero (S := S8000x1) zero2_1]
  obtain ⟨-, -, -, -, e0, e1⟩ := index1 t
  rw [iblk1_0, iblk1_1]
  funext j
  have hj0 : (j 0).val < 8000 := (j 0).isLt
  have h0 : ((((cfg1.win 2).blk t).view.emb j) 0).val = t.val * 8000 + (j 0).val := by
    show win1_2.index t (0 : Fin 2) * 8000 + 1 * (j 0).val = _
    rw [e0]; omega
  have h1 : ((((cfg1.win 2).blk t).view.emb j) 1).val = (j 1).val := by
    show win1_2.index t (1 : Fin 2) * 32 + 1 * (j 1).val = _
    rw [e1]; omega
  have hq : (t.val * 8000 + (j 0).val) / 8000 = t.val := by omega
  have hr : (t.val * 8000 + (j 0).val) % 8000 = (j 0).val := by omega
  show k1_pay1 (rows1_0 _ t.val) (rows1_1 _ t.val) j = arr1 _ _ (((cfg1.win 2).blk t).view.emb j)
  unfold arr1
  simp only [h0, h1, hq, hr]
  refine congrArg _ ?_
  funext a
  match a with
  | ⟨0, _⟩ => rfl
  | ⟨1, _⟩ => rfl

/-- An index of the output array lies in point `t`'s block iff each coordinate is in the block's range on its axis. -/
theorem mem_blk1 (t : Fin cfg1.N) (i : S1600000x32.Idx) :
    i ∈ ((cfg1.win 2).blk t).view.set ↔ ∀ a : Fin 2, win1_2.index t a * S8000x32.size a ≤ (i a).val ∧ (i a).val < win1_2.index t a * S8000x32.size a + S8000x32.size a := by
  show i ∈ ((View.whole main_v63).slice (win1_2.rect t)).set ↔ _
  rw [View.set_slice_whole, Rect.mem_set_unit]
  exact Iff.rfl

/-- Every row of the output lies in some point's block: row `n` in block `n / 8000`. -/
theorem cover1 (i : S1600000x32.Idx) : ∃ t : Fin cfg1.N, (cfg1.win 2).flush t = true ∧ i ∈ ((cfg1.win 2).blk t).view.set := by
  have hi0 : (i 0).val < 1600000 := ValueIdx.idx2_lt0 i
  have hi1 : (i 1).val < 32 := ValueIdx.idx2_lt1 i
  have hlt : (i 0).val / 8000 < grid1.N := by rw [N_1]; omega
  refine ⟨⟨(i 0).val / 8000, hlt⟩, flush1_2 _, ?_⟩
  rw [mem_blk1]
  obtain ⟨-, -, -, -, e0, e1⟩ := index1 ⟨(i 0).val / 8000, hlt⟩
  intro a
  match a with
  | ⟨0, _⟩ =>
    show win1_2.index ⟨(i 0).val / 8000, hlt⟩ (0 : Fin 2) * 8000 ≤ (i 0).val ∧ (i 0).val < win1_2.index ⟨(i 0).val / 8000, hlt⟩ (0 : Fin 2) * 8000 + 8000
    rw [e0]; show (i 0).val / 8000 * 8000 ≤ (i 0).val ∧ (i 0).val < (i 0).val / 8000 * 8000 + 8000; omega
  | ⟨1, _⟩ =>
    show win1_2.index ⟨(i 0).val / 8000, hlt⟩ (1 : Fin 2) * 32 ≤ (i 1).val ∧ (i 1).val < win1_2.index ⟨(i 0).val / 8000, hlt⟩ (1 : Fin 2) * 32 + 32
    rw [e1]; omega

/-- The output array after all 200 points is `arr1` of the input arrays as the region finds them. -/
theorem final1 (c : Dev nD) :
    (dat1 V c).arrAt 2 cfg1.N = arr1 (V c (Pipeline.arrRef spec1 0)) (V c (Pipeline.arrRef spec1 1)) :=
  (dat1 V c).arrAt_eq_of_cover 2 _ (fun t _ => flushed1 V c t) cover1

end Cert.KernelIdeal.Reg

end
-- ==== Proof.KIVal2.lean ====
/- Region 2's output (layer 1, down) as one function of its two input arrays. The [1600000, 32] output is cut into 200 row blocks of 8000 rows; grid point t writes block t, and what it writes is the body's pure function of block t of the gathered features and block t of the weight column. So entry (e, q) of the final array is that function of row block e / 8000, read at (e mod 8000, q); every row lies in exactly one block, so nothing of the entry contents is left. -/
import proofs.«107201_j32822140076800_2_alg».proof.Proof.KIReg2
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero2_2 : (![0, 0] : Fin 2 → Nat) = fun _ => 0 := funext fun a => by fin_cases a <;> rfl

/-- The windows' block indices at grid point `t`: a window that moves down the rows sits at `(t, 0)`, one that holds a whole array at `(0, 0)`. -/
theorem index2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Rows `[8000 t, 8000 t + 8000)` of a [1600000, 32] array (the row number taken mod 1600000, which changes nothing for the points of the grid). -/
def rows2_0 (X : S1600000x32.Idx → Elt F .f32) (t : Nat) : Vec F S8000x32 .f32 :=
  fun y => X (ValueIdx.ix2 (⟨(t * 8000 + (y 0).val) % 1600000, Nat.mod_lt _ (by decide)⟩ : Fin 1600000) (⟨(y 1).val, ValueIdx.idx2_lt1 y⟩ : Fin 32))

/-- Rows `[8000 t, 8000 t + 8000)` of a [1600000, 1] array (the row number taken mod 1600000, which changes nothing for the points of the grid). -/
def rows2_1 (X : S1600000x1.Idx → Elt F .f32) (t : Nat) : Vec F S8000x1 .f32 :=
  fun y => X (ValueIdx.ix2 (⟨(t * 8000 + (y 0).val) % 1600000, Nat.mod_lt _ (by decide)⟩ : Fin 1600000) (⟨(y 1).val, ValueIdx.idx2_lt1 y⟩ : Fin 1))

/-- The output array: entry `(n, q)` is the body's function of row block `n / 8000` of the inputs, read at `(n mod 8000, q)`. -/
def arr2 (X0 : S1600000x32.Idx → Elt F .f32) (X1 : S1600000x1.Idx → Elt F .f32) : S1600000x32.Idx → Elt F .f32 :=
  fun i => k2_pay1 (rows2_0 X0 ((i 0).val / 8000)) (rows2_1 X1 ((i 0).val / 8000))
    (ValueIdx.ix2 (⟨(i 0).val % 8000, Nat.mod_lt _ (by decide)⟩ : Fin 8000) (⟨(i 1).val, ValueIdx.idx2_lt1 i⟩ : Fin 32))

theorem point_lt2 (t : Fin cfg2.N) : t.val < 200 := by
  have h : t.val < grid2.N := t.isLt
  rw [N_2] at h; exact h

/-- Input window 0's block at point `t` is rows `[8000 t, 8000 t + 8000)` of its array. -/
theorem iblk2_0 (c : Dev nD) (t : Fin cfg2.N) : iblk2 V c 0 t = rows2_0 (V c (Pipeline.arrRef spec2 0)) t.val := by
  obtain ⟨e0, e1, -, -, -, -⟩ := index2 t
  have ht := point_lt2 t
  funext y
  show V c (Pipeline.arrRef spec2 0) (((cfg2.win 0).blk t).view.emb y) = V c (Pipeline.arrRef spec2 0) _
  refine congrArg _ ?_
  funext a; apply Fin.ext
  match a with
  | ⟨0, _⟩ =>
    show win2_0.index t (0 : Fin 2) * 8000 + 1 * (y 0).val = (t.val * 8000 + (y 0).val) % 1600000
    have hy : (y 0).val < 8000 := (y 0).isLt
    rw [e0]; omega
  | ⟨1, _⟩ =>
    show win2_0.index t (1 : Fin 2) * 32 + 1 * (y 1).val = (y 1).val
    rw [e1]; omega

/-- Input window 1's block at point `t` is rows `[8000 t, 8000 t + 8000)` of its array. -/
theorem iblk2_1 (c : Dev nD) (t : Fin cfg2.N) : iblk2 V c 1 t = rows2_1 (V c (Pipeline.arrRef spec2 1)) t.val := by
  obtain ⟨-, -, e0, e1, -, -⟩ := index2 t
  have ht := point_lt2 t
  funext y
  show V c (Pipeline.arrRef spec2 1) (((cfg2.win 1).blk t).view.emb y) = V c (Pipeline.arrRef spec2 1) _
  refine congrArg _ ?_
  funext a; apply Fin.ext
  match a with
  | ⟨0, _⟩ =>
    show win2_1.index t (0 : Fin 2) * 8000 + 1 * (y 0).val = (t.val * 8000 + (y 0).val) % 1600000
    have hy : (y 0).val < 8000 := (y 0).isLt
    rw [e0]; omega
  | ⟨1, _⟩ =>
    show win2_1.index t (1 : Fin 2) * 1 + 1 * (y 1).val = (y 1).val
    rw [e1]; omega

set_option maxHeartbeats 1000000 in
/-- What point `t` writes back is block `t` of `arr2` of the input arrays as the region finds them. -/
theorem flushed2 (c : Dev nD) (t : Fin cfg2.N) :
    (dat2 V c).flushed 2 t = ((cfg2.win 2).blk t).view.read (Elt F) (arr2 (V c (Pipeline.arrRef spec2 0)) (V c (Pipeline.arrRef spec2 1))) := by
  show (cfg2.win 2).cut (grid2.coords t) ((dat2 V c).after 2 t) = _
  rw [after2_2]
  unfold out2_2
  rw [View.canon_unit_zero zero2_2]
  simp only [View.ld_unit_zero (S := S8000x32) zero2_2, View.ld_unit_zero (S := S8000x1) zero2_2]
  obtain ⟨-, -, -, -, e0, e1⟩ := index2 t
  rw [iblk2_0, iblk2_1]
  funext j
  have hj0 : (j 0).val < 8000 := (j 0).isLt
  have h0 : ((((cfg2.win 2).blk t).view.emb j) 0).val = t.val * 8000 + (j 0).val := by
    show win2_2.index t (0 : Fin 2) * 8000 + 1 * (j 0).val = _
    rw [e0]; omega
  have h1 : ((((cfg2.win 2).blk t).view.emb j) 1).val = (j 1).val := by
    show win2_2.index t (1 : Fin 2) * 32 + 1 * (j 1).val = _
    rw [e1]; omega
  have hq : (t.val * 8000 + (j 0).val) / 8000 = t.val := by omega
  have hr : (t.val * 8000 + (j 0).val) % 8000 = (j 0).val := by omega
  show k2_pay1 (rows2_0 _ t.val) (rows2_1 _ t.val) j = arr2 _ _ (((cfg2.win 2).blk t).view.emb j)
  unfold arr2
  simp only [h0, h1, hq, hr]
  refine congrArg _ ?_
  funext a
  match a with
  | ⟨0, _⟩ => rfl
  | ⟨1, _⟩ => rfl

/-- An index of the output array lies in point `t`'s block iff each coordinate is in the block's range on its axis. -/
theorem mem_blk2 (t : Fin cfg2.N) (i : S1600000x32.Idx) :
    i ∈ ((cfg2.win 2).blk t).view.set ↔ ∀ a : Fin 2, win2_2.index t a * S8000x32.size a ≤ (i a).val ∧ (i a).val < win2_2.index t a * S8000x32.size a + S8000x32.size a := by
  show i ∈ ((View.whole main_v81).slice (win2_2.rect t)).set ↔ _
  rw [View.set_slice_whole, Rect.mem_set_unit]
  exact Iff.rfl

/-- Every row of the output lies in some point's block: row `n` in block `n / 8000`. -/
theorem cover2 (i : S1600000x32.Idx) : ∃ t : Fin cfg2.N, (cfg2.win 2).flush t = true ∧ i ∈ ((cfg2.win 2).blk t).view.set := by
  have hi0 : (i 0).val < 1600000 := ValueIdx.idx2_lt0 i
  have hi1 : (i 1).val < 32 := ValueIdx.idx2_lt1 i
  have hlt : (i 0).val / 8000 < grid2.N := by rw [N_2]; omega
  refine ⟨⟨(i 0).val / 8000, hlt⟩, flush2_2 _, ?_⟩
  rw [mem_blk2]
  obtain ⟨-, -, -, -, e0, e1⟩ := index2 ⟨(i 0).val / 8000, hlt⟩
  intro a
  match a with
  | ⟨0, _⟩ =>
    show win2_2.index ⟨(i 0).val / 8000, hlt⟩ (0 : Fin 2) * 8000 ≤ (i 0).val ∧ (i 0).val < win2_2.index ⟨(i 0).val / 8000, hlt⟩ (0 : Fin 2) * 8000 + 8000
    rw [e0]; show (i 0).val / 8000 * 8000 ≤ (i 0).val ∧ (i 0).val < (i 0).val / 8000 * 8000 + 8000; omega
  | ⟨1, _⟩ =>
    show win2_2.index ⟨(i 0).val / 8000, hlt⟩ (1 : Fin 2) * 32 ≤ (i 1).val ∧ (i 1).val < win2_2.index ⟨(i 0).val / 8000, hlt⟩ (1 : Fin 2) * 32 + 32
    rw [e1]; omega

/-- The output array after all 200 points is `arr2` of the input arrays as the region finds them. -/
theorem final2 (c : Dev nD) :
    (dat2 V c).arrAt 2 cfg2.N = arr2 (V c (Pipeline.arrRef spec2 0)) (V c (Pipeline.arrRef spec2 1)) :=
  (dat2 V c).arrAt_eq_of_cover 2 _ (fun t _ => flushed2 V c t) cover2

end Cert.KernelIdeal.Reg

end
-- ==== Proof.KIVal3.lean ====
/- Region 3's output (layer 1's normalised, activated features) as one function of its input array. The [50000, 96] output is cut into 5 row blocks of 10000 rows; grid point t writes block t, and what it writes is the body's pure function of block t of the concatenated features. So entry (n, j) of the final array is that function of row block n / 10000, read at (n mod 10000, j); every row lies in exactly one block. -/
import proofs.«107201_j32822140076800_2_alg».proof.Proof.KIReg3
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero2_3 : (![0, 0] : Fin 2 → Nat) = fun _ => 0 := funext fun a => by fin_cases a <;> rfl

/-- The windows' block indices at grid point `t`: a window that moves down the rows sits at `(t, 0)`, one that holds a whole array at `(0, 0)`. -/
theorem index3 : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- Rows `[10000 t, 10000 t + 10000)` of a [50000, 96] array (the row number taken mod 50000, which changes nothing for the points of the grid). -/
def rows3_0 (X : S50000x96.Idx → Elt F .f32) (t : Nat) : Vec F S10000x96 .f32 :=
  fun y => X (ValueIdx.ix2 (⟨(t * 10000 + (y 0).val) % 50000, Nat.mod_lt _ (by decide)⟩ : Fin 50000) (⟨(y 1).val, ValueIdx.idx2_lt1 y⟩ : Fin 96))

/-- The output array: entry `(n, q)` is the body's function of row block `n / 10000` of the inputs, read at `(n mod 10000, q)`. -/
def arr3 (X0 : S50000x96.Idx → Elt F .f32) : S50000x96.Idx → Elt F .f32 :=
  fun i => k3_pay1 (rows3_0 X0 ((i 0).val / 10000))
    (ValueIdx.ix2 (⟨(i 0).val % 10000, Nat.mod_lt _ (by decide)⟩ : Fin 10000) (⟨(i 1).val, ValueIdx.idx2_lt1 i⟩ : Fin 96))

theorem point_lt3 (t : Fin cfg3.N) : t.val < 5 := by
  have h : t.val < grid3.N := t.isLt
  rw [N_3] at h; exact h

/-- Input window 0's block at point `t` is rows `[10000 t, 10000 t + 10000)` of its array. -/
theorem iblk3_0 (c : Dev nD) (t : Fin cfg3.N) : iblk3 V c 0 t = rows3_0 (V c (Pipeline.arrRef spec3 0)) t.val := by
  obtain ⟨e0, e1, -, -⟩ := index3 t
  have ht := point_lt3 t
  funext y
  show V c (Pipeline.arrRef spec3 0) (((cfg3.win 0).blk t).view.emb y) = V c (Pipeline.arrRef spec3 0) _
  refine congrArg _ ?_
  funext a; apply Fin.ext
  match a with
  | ⟨0, _⟩ =>
    show win3_0.index t (0 : Fin 2) * 10000 + 1 * (y 0).val = (t.val * 10000 + (y 0).val) % 50000
    have hy : (y 0).val < 10000 := (y 0).isLt
    rw [e0]; omega
  | ⟨1, _⟩ =>
    show win3_0.index t (1 : Fin 2) * 96 + 1 * (y 1).val = (y 1).val
    rw [e1]; omega

/-- What point `t` writes back is block `t` of `arr3` of the input arrays as the region finds them. -/
theorem flushed3 (c : Dev nD) (t : Fin cfg3.N) :
    (dat3 V c).flushed 1 t = ((cfg3.win 1).blk t).view.read (Elt F) (arr3 (V c (Pipeline.arrRef spec3 0))) := by
  show (cfg3.win 1).cut (grid3.coords t) ((dat3 V c).after 1 t) = _
  rw [after3_1]
  unfold out3_1
  rw [View.canon_unit_zero zero2_3]
  simp only [View.ld_unit_zero (S := S10000x96) zero2_3]
  obtain ⟨-, -, e0, e1⟩ := index3 t
  rw [iblk3_0]
  funext j
  have hj0 : (j 0).val < 10000 := (j 0).isLt
  have h0 : ((((cfg3.win 1).blk t).view.emb j) 0).val = t.val * 10000 + (j 0).val := by
    show win3_1.index t (0 : Fin 2) * 10000 + 1 * (j 0).val = _
    rw [e0]; omega
  have h1 : ((((cfg3.win 1).blk t).view.emb j) 1).val = (j 1).val := by
    show win3_1.index t (1 : Fin 2) * 96 + 1 * (j 1).val = _
    rw [e1]; omega
  have hq : (t.val * 10000 + (j 0).val) / 10000 = t.val := by omega
  have hr : (t.val * 10000 + (j 0).val) % 10000 = (j 0).val := by omega
  show k3_pay1 (rows3_0 _ t.val) j = arr3 _ (((cfg3.win 1).blk t).view.emb j)
  unfold arr3
  simp only [h0, h1, hq, hr]
  refine congrArg _ ?_
  funext a
  match a with
  | ⟨0, _⟩ => rfl
  | ⟨1, _⟩ => rfl

/-- An index of the output array lies in point `t`'s block iff each coordinate is in the block's range on its axis. -/
theorem mem_blk3 (t : Fin cfg3.N) (i : S50000x96.Idx) :
    i ∈ ((cfg3.win 1).blk t).view.set ↔ ∀ a : Fin 2, win3_1.index t a * S10000x96.size a ≤ (i a).val ∧ (i a).val < win3_1.index t a * S10000x96.size a + S10000x96.size a := by
  show i ∈ ((View.whole main_v91).slice (win3_1.rect t)).set ↔ _
  rw [View.set_slice_whole, Rect.mem_set_unit]
  exact Iff.rfl

/-- Every row of the output lies in some point's block: row `n` in block `n / 10000`. -/
theorem cover3 (i : S50000x96.Idx) : ∃ t : Fin cfg3.N, (cfg3.win 1).flush t = true ∧ i ∈ ((cfg3.win 1).blk t).view.set := by
  have hi0 : (i 0).val < 50000 := ValueIdx.idx2_lt0 i
  have hi1 : (i 1).val < 96 := ValueIdx.idx2_lt1 i
  have hlt : (i 0).val / 10000 < grid3.N := by rw [N_3]; omega
  refine ⟨⟨(i 0).val / 10000, hlt⟩, flush3_1 _, ?_⟩
  rw [mem_blk3]
  obtain ⟨-, -, e0, e1⟩ := index3 ⟨(i 0).val / 10000, hlt⟩
  intro a
  match a with
  | ⟨0, _⟩ =>
    show win3_1.index ⟨(i 0).val / 10000, hlt⟩ (0 : Fin 2) * 10000 ≤ (i 0).val ∧ (i 0).val < win3_1.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win3_1.index ⟨(i 0).val / 10000, hlt⟩ (1 : Fin 2) * 96 ≤ (i 1).val ∧ (i 1).val < win3_1.index ⟨(i 0).val / 10000, hlt⟩ (1 : Fin 2) * 96 + 96
    rw [e1]; omega

/-- The output array after all 5 points is `arr3` of the input arrays as the region finds them. -/
theorem final3 (c : Dev nD) :
    (dat3 V c).arrAt 1 cfg3.N = arr3 (V c (Pipeline.arrRef spec3 0)) :=
  (dat3 V c).arrAt_eq_of_cover 1 _ (fun t _ => flushed3 V c t) cover3

end Cert.KernelIdeal.Reg

end
-- ==== Proof.KIVal4.lean ====
/- Region 4's output (layer 2's projection) as one function of its two input arrays. The [50000, 96] output is cut into 10 row blocks of 5000 rows; grid point t writes block t, and what it writes is the body's pure function of block t of the features and of the whole fused weight matrix. So entry (n, j) of the final array is that function of row block n / 5000, read at (n mod 5000, j); every row lies in exactly one block. -/
import proofs.«107201_j32822140076800_2_alg».proof.Proof.KIReg4
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero2_4 : (![0, 0] : Fin 2 → Nat) = fun _ => 0 := funext fun a => by fin_cases a <;> rfl

/-- The windows' block indices at grid point `t`: a window that moves down the rows sits at `(t, 0)`, one that holds a whole array at `(0, 0)`. -/
theorem index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Rows `[5000 t, 5000 t + 5000)` of a [50000, 96] array (the row number taken mod 50000, which changes nothing for the points of the grid). -/
def rows4_0 (X : S50000x96.Idx → Elt F .f32) (t : Nat) : Vec F S5000x96 .f32 :=
  fun y => X (ValueIdx.ix2 (⟨(t * 5000 + (y 0).val) % 50000, Nat.mod_lt _ (by decide)⟩ : Fin 50000) (⟨(y 1).val, ValueIdx.idx2_lt1 y⟩ : Fin 96))

/-- Rows `[96 t, 96 t + 96)` of a [96, 96] array (the row number taken mod 96, which changes nothing for the points of the grid). -/
def rows4_1 (X : S96x96.Idx → Elt F .f32) (t : Nat) : Vec F S96x96 .f32 :=
  fun y => X (ValueIdx.ix2 (⟨(t * 96 + (y 0).val) % 96, Nat.mod_lt _ (by decide)⟩ : Fin 96) (⟨(y 1).val, ValueIdx.idx2_lt1 y⟩ : Fin 96))

/-- The output array: entry `(n, q)` is the body's function of row block `n / 5000` of the inputs, read at `(n mod 5000, q)`. -/
def arr4 (X0 : S50000x96.Idx → Elt F .f32) (X1 : S96x96.Idx → Elt F .f32) : S50000x96.Idx → Elt F .f32 :=
  fun i => k4_pay1 (rows4_0 X0 ((i 0).val / 5000)) (rows4_1 X1 0)
    (ValueIdx.ix2 (⟨(i 0).val % 5000, Nat.mod_lt _ (by decide)⟩ : Fin 5000) (⟨(i 1).val, ValueIdx.idx2_lt1 i⟩ : Fin 96))

theorem point_lt4 (t : Fin cfg4.N) : t.val < 10 := by
  have h : t.val < grid4.N := t.isLt
  rw [N_4] at h; exact h

/-- Input window 0's block at point `t` is rows `[5000 t, 5000 t + 5000)` of its array. -/
theorem iblk4_0 (c : Dev nD) (t : Fin cfg4.N) : iblk4 V c 0 t = rows4_0 (V c (Pipeline.arrRef spec4 0)) t.val := by
  obtain ⟨e0, e1, -, -, -, -⟩ := index4 t
  have ht := point_lt4 t
  funext y
  show V c (Pipeline.arrRef spec4 0) (((cfg4.win 0).blk t).view.emb y) = V c (Pipeline.arrRef spec4 0) _
  refine congrArg _ ?_
  funext a; apply Fin.ext
  match a with
  | ⟨0, _⟩ =>
    show win4_0.index t (0 : Fin 2) * 5000 + 1 * (y 0).val = (t.val * 5000 + (y 0).val) % 50000
    have hy : (y 0).val < 5000 := (y 0).isLt
    rw [e0]; omega
  | ⟨1, _⟩ =>
    show win4_0.index t (1 : Fin 2) * 96 + 1 * (y 1).val = (y 1).val
    rw [e1]; omega

/-- Input window 1's block at point `t` is the whole array. -/
theorem iblk4_1 (c : Dev nD) (t : Fin cfg4.N) : iblk4 V c 1 t = rows4_1 (V c (Pipeline.arrRef spec4 1)) 0 := by
  obtain ⟨-, -, e0, e1, -, -⟩ := index4 t
  have ht := point_lt4 t
  funext y
  show V c (Pipeline.arrRef spec4 1) (((cfg4.win 1).blk t).view.emb y) = V c (Pipeline.arrRef spec4 1) _
  refine congrArg _ ?_
  funext a; apply Fin.ext
  match a with
  | ⟨0, _⟩ =>
    show win4_1.index t (0 : Fin 2) * 96 + 1 * (y 0).val = (0 * 96 + (y 0).val) % 96
    have hy : (y 0).val < 96 := (y 0).isLt
    rw [e0]; omega
  | ⟨1, _⟩ =>
    show win4_1.index t (1 : Fin 2) * 96 + 1 * (y 1).val = (y 1).val
    rw [e1]; omega

/-- What point `t` writes back is block `t` of `arr4` of the input arrays as the region finds them. -/
theorem flushed4 (c : Dev nD) (t : Fin cfg4.N) :
    (dat4 V c).flushed 2 t = ((cfg4.win 2).blk t).view.read (Elt F) (arr4 (V c (Pipeline.arrRef spec4 0)) (V c (Pipeline.arrRef spec4 1))) := by
  show (cfg4.win 2).cut (grid4.coords t) ((dat4 V c).after 2 t) = _
  rw [after4_2]
  unfold out4_2
  rw [View.canon_unit_zero zero2_4]
  simp only [View.ld_unit_zero (S := S5000x96) zero2_4, View.ld_unit_zero (S := S96x96) zero2_4]
  obtain ⟨-, -, -, -, e0, e1⟩ := index4 t
  rw [iblk4_0, iblk4_1]
  funext j
  have hj0 : (j 0).val < 5000 := (j 0).isLt
  have h0 : ((((cfg4.win 2).blk t).view.emb j) 0).val = t.val * 5000 + (j 0).val := by
    show win4_2.index t (0 : Fin 2) * 5000 + 1 * (j 0).val = _
    rw [e0]; omega
  have h1 : ((((cfg4.win 2).blk t).view.emb j) 1).val = (j 1).val := by
    show win4_2.index t (1 : Fin 2) * 96 + 1 * (j 1).val = _
    rw [e1]; omega
  have hq : (t.val * 5000 + (j 0).val) / 5000 = t.val := by omega
  have hr : (t.val * 5000 + (j 0).val) % 5000 = (j 0).val := by omega
  show k4_pay1 (rows4_0 _ t.val) (rows4_1 _ 0) j = arr4 _ _ (((cfg4.win 2).blk t).view.emb j)
  unfold arr4
  simp only [h0, h1, hq, hr]
  refine congrArg _ ?_
  funext a
  match a with
  | ⟨0, _⟩ => rfl
  | ⟨1, _⟩ => rfl

/-- An index of the output array lies in point `t`'s block iff each coordinate is in the block's range on its axis. -/
theorem mem_blk4 (t : Fin cfg4.N) (i : S50000x96.Idx) :
    i ∈ ((cfg4.win 2).blk t).view.set ↔ ∀ a : Fin 2, win4_2.index t a * S5000x96.size a ≤ (i a).val ∧ (i a).val < win4_2.index t a * S5000x96.size a + S5000x96.size a := by
  show i ∈ ((View.whole main_v94).slice (win4_2.rect t)).set ↔ _
  rw [View.set_slice_whole, Rect.mem_set_unit]
  exact Iff.rfl

/-- Every row of the output lies in some point's block: row `n` in block `n / 5000`. -/
theorem cover4 (i : S50000x96.Idx) : ∃ t : Fin cfg4.N, (cfg4.win 2).flush t = true ∧ i ∈ ((cfg4.win 2).blk t).view.set := by
  have hi0 : (i 0).val < 50000 := ValueIdx.idx2_lt0 i
  have hi1 : (i 1).val < 96 := ValueIdx.idx2_lt1 i
  have hlt : (i 0).val / 5000 < grid4.N := by rw [N_4]; omega
  refine ⟨⟨(i 0).val / 5000, hlt⟩, flush4_2 _, ?_⟩
  rw [mem_blk4]
  obtain ⟨-, -, -, -, e0, e1⟩ := index4 ⟨(i 0).val / 5000, hlt⟩
  intro a
  match a with
  | ⟨0, _⟩ =>
    show win4_2.index ⟨(i 0).val / 5000, hlt⟩ (0 : Fin 2) * 5000 ≤ (i 0).val ∧ (i 0).val < win4_2.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win4_2.index ⟨(i 0).val / 5000, hlt⟩ (1 : Fin 2) * 96 ≤ (i 1).val ∧ (i 1).val < win4_2.index ⟨(i 0).val / 5000, hlt⟩ (1 : Fin 2) * 96 + 96
    rw [e1]; omega

/-- The output array after all 10 points is `arr4` of the input arrays as the region finds them. -/
theorem final4 (c : Dev nD) :
    (dat4 V c).arrAt 2 cfg4.N = arr4 (V c (Pipeline.arrRef spec4 0)) (V c (Pipeline.arrRef spec4 1)) :=
  (dat4 V c).arrAt_eq_of_cover 2 _ (fun t _ => flushed4 V c t) cover4

end Cert.KernelIdeal.Reg

end
-- ==== Proof.KIVal5.lean ====
/- Region 5's output (layer 2, up) as one function of its two input arrays. The [1600000, 32] output is cut into 200 row blocks of 8000 rows; grid point t writes block t, and what it writes is the body's pure function of block t of the gathered features and block t of the weight column. So entry (e, q) of the final array is that function of row block e / 8000, read at (e mod 8000, q); every row lies in exactly one block, so nothing of the entry contents is left. -/
import proofs.«107201_j32822140076800_2_alg».proof.Proof.KIReg5
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero2_5 : (![0, 0] : Fin 2 → Nat) = fun _ => 0 := funext fun a => by fin_cases a <;> rfl

/-- The windows' block indices at grid point `t`: a window that moves down the rows sits at `(t, 0)`, one that holds a whole array at `(0, 0)`. -/
theorem index5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- Rows `[8000 t, 8000 t + 8000)` of a [1600000, 32] array (the row number taken mod 1600000, which changes nothing for the points of the grid). -/
def rows5_0 (X : S1600000x32.Idx → Elt F .f32) (t : Nat) : Vec F S8000x32 .f32 :=
  fun y => X (ValueIdx.ix2 (⟨(t * 8000 + (y 0).val) % 1600000, Nat.mod_lt _ (by decide)⟩ : Fin 1600000) (⟨(y 1).val, ValueIdx.idx2_lt1 y⟩ : Fin 32))

/-- Rows `[8000 t, 8000 t + 8000)` of a [1600000, 1] array (the row number taken mod 1600000, which changes nothing for the points of the grid). -/
def rows5_1 (X : S1600000x1.Idx → Elt F .f32) (t : Nat) : Vec F S8000x1 .f32 :=
  fun y => X (ValueIdx.ix2 (⟨(t * 8000 + (y 0).val) % 1600000, Nat.mod_lt _ (by decide)⟩ : Fin 1600000) (⟨(y 1).val, ValueIdx.idx2_lt1 y⟩ : Fin 1))

/-- The output array: entry `(n, q)` is the body's function of row block `n / 8000` of the inputs, read at `(n mod 8000, q)`. -/
def arr5 (X0 : S1600000x32.Idx → Elt F .f32) (X1 : S1600000x1.Idx → Elt F .f32) : S1600000x32.Idx → Elt F .f32 :=
  fun i => k5_pay1 (rows5_0 X0 ((i 0).val / 8000)) (rows5_1 X1 ((i 0).val / 8000))
    (ValueIdx.ix2 (⟨(i 0).val % 8000, Nat.mod_lt _ (by decide)⟩ : Fin 8000) (⟨(i 1).val, ValueIdx.idx2_lt1 i⟩ : Fin 32))

theorem point_lt5 (t : Fin cfg5.N) : t.val < 200 := by
  have h : t.val < grid5.N := t.isLt
  rw [N_5] at h; exact h

/-- Input window 0's block at point `t` is rows `[8000 t, 8000 t + 8000)` of its array. -/
theorem iblk5_0 (c : Dev nD) (t : Fin cfg5.N) : iblk5 V c 0 t = rows5_0 (V c (Pipeline.arrRef spec5 0)) t.val := by
  obtain ⟨e0, e1, -, -, -, -⟩ := index5 t
  have ht := point_lt5 t
  funext y
  show V c (Pipeline.arrRef spec5 0) (((cfg5.win 0).blk t).view.emb y) = V c (Pipeline.arrRef spec5 0) _
  refine congrArg _ ?_
  funext a; apply Fin.ext
  match a with
  | ⟨0, _⟩ =>
    show win5_0.index t (0 : Fin 2) * 8000 + 1 * (y 0).val = (t.val * 8000 + (y 0).val) % 1600000
    have hy : (y 0).val < 8000 := (y 0).isLt
    rw [e0]; omega
  | ⟨1, _⟩ =>
    show win5_0.index t (1 : Fin 2) * 32 + 1 * (y 1).val = (y 1).val
    rw [e1]; omega

/-- Input window 1's block at point `t` is rows `[8000 t, 8000 t + 8000)` of its array. -/
theorem iblk5_1 (c : Dev nD) (t : Fin cfg5.N) : iblk5 V c 1 t = rows5_1 (V c (Pipeline.arrRef spec5 1)) t.val := by
  obtain ⟨-, -, e0, e1, -, -⟩ := index5 t
  have ht := point_lt5 t
  funext y
  show V c (Pipeline.arrRef spec5 1) (((cfg5.win 1).blk t).view.emb y) = V c (Pipeline.arrRef spec5 1) _
  refine congrArg _ ?_
  funext a; apply Fin.ext
  match a with
  | ⟨0, _⟩ =>
    show win5_1.index t (0 : Fin 2) * 8000 + 1 * (y 0).val = (t.val * 8000 + (y 0).val) % 1600000
    have hy : (y 0).val < 8000 := (y 0).isLt
    rw [e0]; omega
  | ⟨1, _⟩ =>
    show win5_1.index t (1 : Fin 2) * 1 + 1 * (y 1).val = (y 1).val
    rw [e1]; omega

/-- What point `t` writes back is block `t` of `arr5` of the input arrays as the region finds them. -/
theorem flushed5 (c : Dev nD) (t : Fin cfg5.N) :
    (dat5 V c).flushed 2 t = ((cfg5.win 2).blk t).view.read (Elt F) (arr5 (V c (Pipeline.arrRef spec5 0)) (V c (Pipeline.arrRef spec5 1))) := by
  show (cfg5.win 2).cut (grid5.coords t) ((dat5 V c).after 2 t) = _
  rw [after5_2]
  unfold out5_2
  rw [View.canon_unit_zero zero2_5]
  simp only [View.ld_unit_zero (S := S8000x32) zero2_5, View.ld_unit_zero (S := S8000x1) zero2_5]
  obtain ⟨-, -, -, -, e0, e1⟩ := index5 t
  rw [iblk5_0, iblk5_1]
  funext j
  have hj0 : (j 0).val < 8000 := (j 0).isLt
  have h0 : ((((cfg5.win 2).blk t).view.emb j) 0).val = t.val * 8000 + (j 0).val := by
    show win5_2.index t (0 : Fin 2) * 8000 + 1 * (j 0).val = _
    rw [e0]; omega
  have h1 : ((((cfg5.win 2).blk t).view.emb j) 1).val = (j 1).val := by
    show win5_2.index t (1 : Fin 2) * 32 + 1 * (j 1).val = _
    rw [e1]; omega
  have hq : (t.val * 8000 + (j 0).val) / 8000 = t.val := by omega
  have hr : (t.val * 8000 + (j 0).val) % 8000 = (j 0).val := by omega
  show k5_pay1 (rows5_0 _ t.val) (rows5_1 _ t.val) j = arr5 _ _ (((cfg5.win 2).blk t).view.emb j)
  unfold arr5
  simp only [h0, h1, hq, hr]
  refine congrArg _ ?_
  funext a
  match a with
  | ⟨0, _⟩ => rfl
  | ⟨1, _⟩ => rfl

/-- An index of the output array lies in point `t`'s block iff each coordinate is in the block's range on its axis. -/
theorem mem_blk5 (t : Fin cfg5.N) (i : S1600000x32.Idx) :
    i ∈ ((cfg5.win 2).blk t).view.set ↔ ∀ a : Fin 2, win5_2.index t a * S8000x32.size a ≤ (i a).val ∧ (i a).val < win5_2.index t a * S8000x32.size a + S8000x32.size a := by
  show i ∈ ((View.whole main_v107).slice (win5_2.rect t)).set ↔ _
  rw [View.set_slice_whole, Rect.mem_set_unit]
  exact Iff.rfl

/-- Every row of the output lies in some point's block: row `n` in block `n / 8000`. -/
theorem cover5 (i : S1600000x32.Idx) : ∃ t : Fin cfg5.N, (cfg5.win 2).flush t = true ∧ i ∈ ((cfg5.win 2).blk t).view.set := by
  have hi0 : (i 0).val < 1600000 := ValueIdx.idx2_lt0 i
  have hi1 : (i 1).val < 32 := ValueIdx.idx2_lt1 i
  have hlt : (i 0).val / 8000 < grid5.N := by rw [N_5]; omega
  refine ⟨⟨(i 0).val / 8000, hlt⟩, flush5_2 _, ?_⟩
  rw [mem_blk5]
  obtain ⟨-, -, -, -, e0, e1⟩ := index5 ⟨(i 0).val / 8000, hlt⟩
  intro a
  match a with
  | ⟨0, _⟩ =>
    show win5_2.index ⟨(i 0).val / 8000, hlt⟩ (0 : Fin 2) * 8000 ≤ (i 0).val ∧ (i 0).val < win5_2.index ⟨(i 0).val / 8000, hlt⟩ (0 : Fin 2) * 8000 + 8000
    rw [e0]; show (i 0).val / 8000 * 8000 ≤ (i 0).val ∧ (i 0).val < (i 0).val / 8000 * 8000 + 8000; omega
  | ⟨1, _⟩ =>
    show win5_2.index ⟨(i 0).val / 8000, hlt⟩ (1 : Fin 2) * 32 ≤ (i 1).val ∧ (i 1).val < win5_2.index ⟨(i 0).val / 8000, hlt⟩ (1 : Fin 2) * 32 + 32
    rw [e1]; omega

/-- The output array after all 200 points is `arr5` of the input arrays as the region finds them. -/
theorem final5 (c : Dev nD) :
    (dat5 V c).arrAt 2 cfg5.N = arr5 (V c (Pipeline.arrRef spec5 0)) (V c (Pipeline.arrRef spec5 1)) :=
  (dat5 V c).arrAt_eq_of_cover 2 _ (fun t _ => flushed5 V c t) cover5

end Cert.KernelIdeal.Reg

end
-- ==== Proof.KIVal6.lean ====
/- Region 6's output (layer 2, down) as one function of its two input arrays. The [1600000, 32] output is cut into 200 row blocks of 8000 rows; grid point t writes block t, and what it writes is the body's pure function of block t of the gathered features and block t of the weight column. So entry (e, q) of the final array is that function of row block e / 8000, read at (e mod 8000, q); every row lies in exactly one block, so nothing of the entry contents is left. -/
import proofs.«107201_j32822140076800_2_alg».proof.Proof.KIReg6
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero2_6 : (![0, 0] : Fin 2 → Nat) = fun _ => 0 := funext fun a => by fin_cases a <;> rfl

/-- The windows' block indices at grid point `t`: a window that moves down the rows sits at `(t, 0)`, one that holds a whole array at `(0, 0)`. -/
theorem index6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- Rows `[8000 t, 8000 t + 8000)` of a [1600000, 32] array (the row number taken mod 1600000, which changes nothing for the points of the grid). -/
def rows6_0 (X : S1600000x32.Idx → Elt F .f32) (t : Nat) : Vec F S8000x32 .f32 :=
  fun y => X (ValueIdx.ix2 (⟨(t * 8000 + (y 0).val) % 1600000, Nat.mod_lt _ (by decide)⟩ : Fin 1600000) (⟨(y 1).val, ValueIdx.idx2_lt1 y⟩ : Fin 32))

/-- Rows `[8000 t, 8000 t + 8000)` of a [1600000, 1] array (the row number taken mod 1600000, which changes nothing for the points of the grid). -/
def rows6_1 (X : S1600000x1.Idx → Elt F .f32) (t : Nat) : Vec F S8000x1 .f32 :=
  fun y => X (ValueIdx.ix2 (⟨(t * 8000 + (y 0).val) % 1600000, Nat.mod_lt _ (by decide)⟩ : Fin 1600000) (⟨(y 1).val, ValueIdx.idx2_lt1 y⟩ : Fin 1))

/-- The output array: entry `(n, q)` is the body's function of row block `n / 8000` of the inputs, read at `(n mod 8000, q)`. -/
def arr6 (X0 : S1600000x32.Idx → Elt F .f32) (X1 : S1600000x1.Idx → Elt F .f32) : S1600000x32.Idx → Elt F .f32 :=
  fun i => k6_pay1 (rows6_0 X0 ((i 0).val / 8000)) (rows6_1 X1 ((i 0).val / 8000))
    (ValueIdx.ix2 (⟨(i 0).val % 8000, Nat.mod_lt _ (by decide)⟩ : Fin 8000) (⟨(i 1).val, ValueIdx.idx2_lt1 i⟩ : Fin 32))

theorem point_lt6 (t : Fin cfg6.N) : t.val < 200 := by
  have h : t.val < grid6.N := t.isLt
  rw [N_6] at h; exact h

/-- Input window 0's block at point `t` is rows `[8000 t, 8000 t + 8000)` of its array. -/
theorem iblk6_0 (c : Dev nD) (t : Fin cfg6.N) : iblk6 V c 0 t = rows6_0 (V c (Pipeline.arrRef spec6 0)) t.val := by
  obtain ⟨e0, e1, -, -, -, -⟩ := index6 t
  have ht := point_lt6 t
  funext y
  show V c (Pipeline.arrRef spec6 0) (((cfg6.win 0).blk t).view.emb y) = V c (Pipeline.arrRef spec6 0) _
  refine congrArg _ ?_
  funext a; apply Fin.ext
  match a with
  | ⟨0, _⟩ =>
    show win6_0.index t (0 : Fin 2) * 8000 + 1 * (y 0).val = (t.val * 8000 + (y 0).val) % 1600000
    have hy : (y 0).val < 8000 := (y 0).isLt
    rw [e0]; omega
  | ⟨1, _⟩ =>
    show win6_0.index t (1 : Fin 2) * 32 + 1 * (y 1).val = (y 1).val
    rw [e1]; omega

/-- Input window 1's block at point `t` is rows `[8000 t, 8000 t + 8000)` of its array. -/
theorem iblk6_1 (c : Dev nD) (t : Fin cfg6.N) : iblk6 V c 1 t = rows6_1 (V c (Pipeline.arrRef spec6 1)) t.val := by
  obtain ⟨-, -, e0, e1, -, -⟩ := index6 t
  have ht := point_lt6 t
  funext y
  show V c (Pipeline.arrRef spec6 1) (((cfg6.win 1).blk t).view.emb y) = V c (Pipeline.arrRef spec6 1) _
  refine congrArg _ ?_
  funext a; apply Fin.ext
  match a with
  | ⟨0, _⟩ =>
    show win6_1.index t (0 : Fin 2) * 8000 + 1 * (y 0).val = (t.val * 8000 + (y 0).val) % 1600000
    have hy : (y 0).val < 8000 := (y 0).isLt
    rw [e0]; omega
  | ⟨1, _⟩ =>
    show win6_1.index t (1 : Fin 2) * 1 + 1 * (y 1).val = (y 1).val
    rw [e1]; omega

/-- What point `t` writes back is block `t` of `arr6` of the input arrays as the region finds them. -/
theorem flushed6 (c : Dev nD) (t : Fin cfg6.N) :
    (dat6 V c).flushed 2 t = ((cfg6.win 2).blk t).view.read (Elt F) (arr6 (V c (Pipeline.arrRef spec6 0)) (V c (Pipeline.arrRef spec6 1))) := by
  show (cfg6.win 2).cut (grid6.coords t) ((dat6 V c).after 2 t) = _
  rw [after6_2]
  unfold out6_2
  rw [View.canon_unit_zero zero2_6]
  simp only [View.ld_unit_zero (S := S8000x32) zero2_6, View.ld_unit_zero (S := S8000x1) zero2_6]
  obtain ⟨-, -, -, -, e0, e1⟩ := index6 t
  rw [iblk6_0, iblk6_1]
  funext j
  have hj0 : (j 0).val < 8000 := (j 0).isLt
  have h0 : ((((cfg6.win 2).blk t).view.emb j) 0).val = t.val * 8000 + (j 0).val := by
    show win6_2.index t (0 : Fin 2) * 8000 + 1 * (j 0).val = _
    rw [e0]; omega
  have h1 : ((((cfg6.win 2).blk t).view.emb j) 1).val = (j 1).val := by
    show win6_2.index t (1 : Fin 2) * 32 + 1 * (j 1).val = _
    rw [e1]; omega
  have hq : (t.val * 8000 + (j 0).val) / 8000 = t.val := by omega
  have hr : (t.val * 8000 + (j 0).val) % 8000 = (j 0).val := by omega
  show k6_pay1 (rows6_0 _ t.val) (rows6_1 _ t.val) j = arr6 _ _ (((cfg6.win 2).blk t).view.emb j)
  unfold arr6
  simp only [h0, h1, hq, hr]
  refine congrArg _ ?_
  funext a
  match a with
  | ⟨0, _⟩ => rfl
  | ⟨1, _⟩ => rfl

/-- An index of the output array lies in point `t`'s block iff each coordinate is in the block's range on its axis. -/
theorem mem_blk6 (t : Fin cfg6.N) (i : S1600000x32.Idx) :
    i ∈ ((cfg6.win 2).blk t).view.set ↔ ∀ a : Fin 2, win6_2.index t a * S8000x32.size a ≤ (i a).val ∧ (i a).val < win6_2.index t a * S8000x32.size a + S8000x32.size a := by
  show i ∈ ((View.whole main_v125).slice (win6_2.rect t)).set ↔ _
  rw [View.set_slice_whole, Rect.mem_set_unit]
  exact Iff.rfl

/-- Every row of the output lies in some point's block: row `n` in block `n / 8000`. -/
theorem cover6 (i : S1600000x32.Idx) : ∃ t : Fin cfg6.N, (cfg6.win 2).flush t = true ∧ i ∈ ((cfg6.win 2).blk t).view.set := by
  have hi0 : (i 0).val < 1600000 := ValueIdx.idx2_lt0 i
  have hi1 : (i 1).val < 32 := ValueIdx.idx2_lt1 i
  have hlt : (i 0).val / 8000 < grid6.N := by rw [N_6]; omega
  refine ⟨⟨(i 0).val / 8000, hlt⟩, flush6_2 _, ?_⟩
  rw [mem_blk6]
  obtain ⟨-, -, -, -, e0, e1⟩ := index6 ⟨(i 0).val / 8000, hlt⟩
  intro a
  match a with
  | ⟨0, _⟩ =>
    show win6_2.index ⟨(i 0).val / 8000, hlt⟩ (0 : Fin 2) * 8000 ≤ (i 0).val ∧ (i 0).val < win6_2.index ⟨(i 0).val / 8000, hlt⟩ (0 : Fin 2) * 8000 + 8000
    rw [e0]; show (i 0).val / 8000 * 8000 ≤ (i 0).val ∧ (i 0).val < (i 0).val / 8000 * 8000 + 8000; omega
  | ⟨1, _⟩ =>
    show win6_2.index ⟨(i 0).val / 8000, hlt⟩ (1 : Fin 2) * 32 ≤ (i 1).val ∧ (i 1).val < win6_2.index ⟨(i 0).val / 8000, hlt⟩ (1 : Fin 2) * 32 + 32
    rw [e1]; omega

/-- The output array after all 200 points is `arr6` of the input arrays as the region finds them. -/
theorem final6 (c : Dev nD) :
    (dat6 V c).arrAt 2 cfg6.N = arr6 (V c (Pipeline.arrRef spec6 0)) (V c (Pipeline.arrRef spec6 1)) :=
  (dat6 V c).arrAt_eq_of_cover 2 _ (fun t _ => flushed6 V c t) cover6

end Cert.KernelIdeal.Reg

end
-- ==== Proof.KIVal7.lean ====
/- Region 7's output (layer 2's normalised, activated features) as one function of its input array. The [50000, 96] output is cut into 5 row blocks of 10000 rows; grid point t writes block t, and what it writes is the body's pure function of block t of the concatenated features. So entry (n, j) of the final array is that function of row block n / 10000, read at (n mod 10000, j); every row lies in exactly one block. -/
import proofs.«107201_j32822140076800_2_alg».proof.Proof.KIReg7
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero2_7 : (![0, 0] : Fin 2 → Nat) = fun _ => 0 := funext fun a => by fin_cases a <;> rfl

/-- The windows' block indices at grid point `t`: a window that moves down the rows sits at `(t, 0)`, one that holds a whole array at `(0, 0)`. -/
theorem index7 : ∀ t : Fin cfg7.N, win7_0.index t (0 : Fin 2) = t.val ∧ win7_0.index t (1 : Fin 2) = 0
    ∧ win7_1.index t (0 : Fin 2) = t.val ∧ win7_1.index t (1 : Fin 2) = 0 :=
  (by decide +kernel : ∀ t : Fin grid7.N, _)

/-- Rows `[10000 t, 10000 t + 10000)` of a [50000, 96] array (the row number taken mod 50000, which changes nothing for the points of the grid). -/
def rows7_0 (X : S50000x96.Idx → Elt F .f32) (t : Nat) : Vec F S10000x96 .f32 :=
  fun y => X (ValueIdx.ix2 (⟨(t * 10000 + (y 0).val) % 50000, Nat.mod_lt _ (by decide)⟩ : Fin 50000) (⟨(y 1).val, ValueIdx.idx2_lt1 y⟩ : Fin 96))

/-- The output array: entry `(n, q)` is the body's function of row block `n / 10000` of the inputs, read at `(n mod 10000, q)`. -/
def arr7 (X0 : S50000x96.Idx → Elt F .f32) : S50000x96.Idx → Elt F .f32 :=
  fun i => k7_pay1 (rows7_0 X0 ((i 0).val / 10000))
    (ValueIdx.ix2 (⟨(i 0).val % 10000, Nat.mod_lt _ (by decide)⟩ : Fin 10000) (⟨(i 1).val, ValueIdx.idx2_lt1 i⟩ : Fin 96))

theorem point_lt7 (t : Fin cfg7.N) : t.val < 5 := by
  have h : t.val < grid7.N := t.isLt
  rw [N_7] at h; exact h

/-- Input window 0's block at point `t` is rows `[10000 t, 10000 t + 10000)` of its array. -/
theorem iblk7_0 (c : Dev nD) (t : Fin cfg7.N) : iblk7 V c 0 t = rows7_0 (V c (Pipeline.arrRef spec7 0)) t.val := by
  obtain ⟨e0, e1, -, -⟩ := index7 t
  have ht := point_lt7 t
  funext y
  show V c (Pipeline.arrRef spec7 0) (((cfg7.win 0).blk t).view.emb y) = V c (Pipeline.arrRef spec7 0) _
  refine congrArg _ ?_
  funext a; apply Fin.ext
  match a with
  | ⟨0, _⟩ =>
    show win7_0.index t (0 : Fin 2) * 10000 + 1 * (y 0).val = (t.val * 10000 + (y 0).val) % 50000
    have hy : (y 0).val < 10000 := (y 0).isLt
    rw [e0]; omega
  | ⟨1, _⟩ =>
    show win7_0.index t (1 : Fin 2) * 96 + 1 * (y 1).val = (y 1).val
    rw [e1]; omega

/-- What point `t` writes back is block `t` of `arr7` of the input arrays as the region finds them. -/
theorem flushed7 (c : Dev nD) (t : Fin cfg7.N) :
    (dat7 V c).flushed 1 t = ((cfg7.win 1).blk t).view.read (Elt F) (arr7 (V c (Pipeline.arrRef spec7 0))) := by
  show (cfg7.win 1).cut (grid7.coords t) ((dat7 V c).after 1 t) = _
  rw [after7_1]
  unfold out7_1
  rw [View.canon_unit_zero zero2_7]
  simp only [View.ld_unit_zero (S := S10000x96) zero2_7]
  obtain ⟨-, -, e0, e1⟩ := index7 t
  rw [iblk7_0]
  funext j
  have hj0 : (j 0).val < 10000 := (j 0).isLt
  have h0 : ((((cfg7.win 1).blk t).view.emb j) 0).val = t.val * 10000 + (j 0).val := by
    show win7_1.index t (0 : Fin 2) * 10000 + 1 * (j 0).val = _
    rw [e0]; omega
  have h1 : ((((cfg7.win 1).blk t).view.emb j) 1).val = (j 1).val := by
    show win7_1.index t (1 : Fin 2) * 96 + 1 * (j 1).val = _
    rw [e1]; omega
  have hq : (t.val * 10000 + (j 0).val) / 10000 = t.val := by omega
  have hr : (t.val * 10000 + (j 0).val) % 10000 = (j 0).val := by omega
  show k7_pay1 (rows7_0 _ t.val) j = arr7 _ (((cfg7.win 1).blk t).view.emb j)
  unfold arr7
  simp only [h0, h1, hq, hr]
  refine congrArg _ ?_
  funext a
  match a with
  | ⟨0, _⟩ => rfl
  | ⟨1, _⟩ => rfl

/-- An index of the output array lies in point `t`'s block iff each coordinate is in the block's range on its axis. -/
theorem mem_blk7 (t : Fin cfg7.N) (i : S50000x96.Idx) :
    i ∈ ((cfg7.win 1).blk t).view.set ↔ ∀ a : Fin 2, win7_1.index t a * S10000x96.size a ≤ (i a).val ∧ (i a).val < win7_1.index t a * S10000x96.size a + S10000x96.size a := by
  show i ∈ ((View.whole main_v135).slice (win7_1.rect t)).set ↔ _
  rw [View.set_slice_whole, Rect.mem_set_unit]
  exact Iff.rfl

/-- Every row of the output lies in some point's block: row `n` in block `n / 10000`. -/
theorem cover7 (i : S50000x96.Idx) : ∃ t : Fin cfg7.N, (cfg7.win 1).flush t = true ∧ i ∈ ((cfg7.win 1).blk t).view.set := by
  have hi0 : (i 0).val < 50000 := ValueIdx.idx2_lt0 i
  have hi1 : (i 1).val < 96 := ValueIdx.idx2_lt1 i
  have hlt : (i 0).val / 10000 < grid7.N := by rw [N_7]; omega
  refine ⟨⟨(i 0).val / 10000, hlt⟩, flush7_1 _, ?_⟩
  rw [mem_blk7]
  obtain ⟨-, -, e0, e1⟩ := index7 ⟨(i 0).val / 10000, hlt⟩
  intro a
  match a with
  | ⟨0, _⟩ =>
    show win7_1.index ⟨(i 0).val / 10000, hlt⟩ (0 : Fin 2) * 10000 ≤ (i 0).val ∧ (i 0).val < win7_1.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win7_1.index ⟨(i 0).val / 10000, hlt⟩ (1 : Fin 2) * 96 ≤ (i 1).val ∧ (i 1).val < win7_1.index ⟨(i 0).val / 10000, hlt⟩ (1 : Fin 2) * 96 + 96
    rw [e1]; omega

/-- The output array after all 5 points is `arr7` of the input arrays as the region finds them. -/
theorem final7 (c : Dev nD) :
    (dat7 V c).arrAt 1 cfg7.N = arr7 (V c (Pipeline.arrRef spec7 0)) :=
  (dat7 V c).arrAt_eq_of_cover 1 _ (fun t _ => flushed7 V c t) cover7

end Cert.KernelIdeal.Reg

end
-- ==== Proof.KIVal8.lean ====
/- Region 8's output (layer 3's projection) as one function of its two input arrays. The [50000, 96] output is cut into 10 row blocks of 5000 rows; grid point t writes block t, and what it writes is the body's pure function of block t of the features and of the whole fused weight matrix. So entry (n, j) of the final array is that function of row block n / 5000, read at (n mod 5000, j); every row lies in exactly one block. -/
import proofs.«107201_j32822140076800_2_alg».proof.Proof.KIReg8
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero2_8 : (![0, 0] : Fin 2 → Nat) = fun _ => 0 := funext fun a => by fin_cases a <;> rfl

/-- The windows' block indices at grid point `t`: a window that moves down the rows sits at `(t, 0)`, one that holds a whole array at `(0, 0)`. -/
theorem index8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- Rows `[5000 t, 5000 t + 5000)` of a [50000, 96] array (the row number taken mod 50000, which changes nothing for the points of the grid). -/
def rows8_0 (X : S50000x96.Idx → Elt F .f32) (t : Nat) : Vec F S5000x96 .f32 :=
  fun y => X (ValueIdx.ix2 (⟨(t * 5000 + (y 0).val) % 50000, Nat.mod_lt _ (by decide)⟩ : Fin 50000) (⟨(y 1).val, ValueIdx.idx2_lt1 y⟩ : Fin 96))

/-- Rows `[96 t, 96 t + 96)` of a [96, 96] array (the row number taken mod 96, which changes nothing for the points of the grid). -/
def rows8_1 (X : S96x96.Idx → Elt F .f32) (t : Nat) : Vec F S96x96 .f32 :=
  fun y => X (ValueIdx.ix2 (⟨(t * 96 + (y 0).val) % 96, Nat.mod_lt _ (by decide)⟩ : Fin 96) (⟨(y 1).val, ValueIdx.idx2_lt1 y⟩ : Fin 96))

/-- The output array: entry `(n, q)` is the body's function of row block `n / 5000` of the inputs, read at `(n mod 5000, q)`. -/
def arr8 (X0 : S50000x96.Idx → Elt F .f32) (X1 : S96x96.Idx → Elt F .f32) : S50000x96.Idx → Elt F .f32 :=
  fun i => k8_pay1 (rows8_0 X0 ((i 0).val / 5000)) (rows8_1 X1 0)
    (ValueIdx.ix2 (⟨(i 0).val % 5000, Nat.mod_lt _ (by decide)⟩ : Fin 5000) (⟨(i 1).val, ValueIdx.idx2_lt1 i⟩ : Fin 96))

theorem point_lt8 (t : Fin cfg8.N) : t.val < 10 := by
  have h : t.val < grid8.N := t.isLt
  rw [N_8] at h; exact h

/-- Input window 0's block at point `t` is rows `[5000 t, 5000 t + 5000)` of its array. -/
theorem iblk8_0 (c : Dev nD) (t : Fin cfg8.N) : iblk8 V c 0 t = rows8_0 (V c (Pipeline.arrRef spec8 0)) t.val := by
  obtain ⟨e0, e1, -, -, -, -⟩ := index8 t
  have ht := point_lt8 t
  funext y
  show V c (Pipeline.arrRef spec8 0) (((cfg8.win 0).blk t).view.emb y) = V c (Pipeline.arrRef spec8 0) _
  refine congrArg _ ?_
  funext a; apply Fin.ext
  match a with
  | ⟨0, _⟩ =>
    show win8_0.index t (0 : Fin 2) * 5000 + 1 * (y 0).val = (t.val * 5000 + (y 0).val) % 50000
    have hy : (y 0).val < 5000 := (y 0).isLt
    rw [e0]; omega
  | ⟨1, _⟩ =>
    show win8_0.index t (1 : Fin 2) * 96 + 1 * (y 1).val = (y 1).val
    rw [e1]; omega

/-- Input window 1's block at point `t` is the whole array. -/
theorem iblk8_1 (c : Dev nD) (t : Fin cfg8.N) : iblk8 V c 1 t = rows8_1 (V c (Pipeline.arrRef spec8 1)) 0 := by
  obtain ⟨-, -, e0, e1, -, -⟩ := index8 t
  have ht := point_lt8 t
  funext y
  show V c (Pipeline.arrRef spec8 1) (((cfg8.win 1).blk t).view.emb y) = V c (Pipeline.arrRef spec8 1) _
  refine congrArg _ ?_
  funext a; apply Fin.ext
  match a with
  | ⟨0, _⟩ =>
    show win8_1.index t (0 : Fin 2) * 96 + 1 * (y 0).val = (0 * 96 + (y 0).val) % 96
    have hy : (y 0).val < 96 := (y 0).isLt
    rw [e0]; omega
  | ⟨1, _⟩ =>
    show win8_1.index t (1 : Fin 2) * 96 + 1 * (y 1).val = (y 1).val
    rw [e1]; omega

/-- What point `t` writes back is block `t` of `arr8` of the input arrays as the region finds them. -/
theorem flushed8 (c : Dev nD) (t : Fin cfg8.N) :
    (dat8 V c).flushed 2 t = ((cfg8.win 2).blk t).view.read (Elt F) (arr8 (V c (Pipeline.arrRef spec8 0)) (V c (Pipeline.arrRef spec8 1))) := by
  show (cfg8.win 2).cut (grid8.coords t) ((dat8 V c).after 2 t) = _
  rw [after8_2]
  unfold out8_2
  rw [View.canon_unit_zero zero2_8]
  simp only [View.ld_unit_zero (S := S5000x96) zero2_8, View.ld_unit_zero (S := S96x96) zero2_8]
  obtain ⟨-, -, -, -, e0, e1⟩ := index8 t
  rw [iblk8_0, iblk8_1]
  funext j
  have hj0 : (j 0).val < 5000 := (j 0).isLt
  have h0 : ((((cfg8.win 2).blk t).view.emb j) 0).val = t.val * 5000 + (j 0).val := by
    show win8_2.index t (0 : Fin 2) * 5000 + 1 * (j 0).val = _
    rw [e0]; omega
  have h1 : ((((cfg8.win 2).blk t).view.emb j) 1).val = (j 1).val := by
    show win8_2.index t (1 : Fin 2) * 96 + 1 * (j 1).val = _
    rw [e1]; omega
  have hq : (t.val * 5000 + (j 0).val) / 5000 = t.val := by omega
  have hr : (t.val * 5000 + (j 0).val) % 5000 = (j 0).val := by omega
  show k8_pay1 (rows8_0 _ t.val) (rows8_1 _ 0) j = arr8 _ _ (((cfg8.win 2).blk t).view.emb j)
  unfold arr8
  simp only [h0, h1, hq, hr]
  refine congrArg _ ?_
  funext a
  match a with
  | ⟨0, _⟩ => rfl
  | ⟨1, _⟩ => rfl

/-- An index of the output array lies in point `t`'s block iff each coordinate is in the block's range on its axis. -/
theorem mem_blk8 (t : Fin cfg8.N) (i : S50000x96.Idx) :
    i ∈ ((cfg8.win 2).blk t).view.set ↔ ∀ a : Fin 2, win8_2.index t a * S5000x96.size a ≤ (i a).val ∧ (i a).val < win8_2.index t a * S5000x96.size a + S5000x96.size a := by
  show i ∈ ((View.whole main_v138).slice (win8_2.rect t)).set ↔ _
  rw [View.set_slice_whole, Rect.mem_set_unit]
  exact Iff.rfl

/-- Every row of the output lies in some point's block: row `n` in block `n / 5000`. -/
theorem cover8 (i : S50000x96.Idx) : ∃ t : Fin cfg8.N, (cfg8.win 2).flush t = true ∧ i ∈ ((cfg8.win 2).blk t).view.set := by
  have hi0 : (i 0).val < 50000 := ValueIdx.idx2_lt0 i
  have hi1 : (i 1).val < 96 := ValueIdx.idx2_lt1 i
  have hlt : (i 0).val / 5000 < grid8.N := by rw [N_8]; omega
  refine ⟨⟨(i 0).val / 5000, hlt⟩, flush8_2 _, ?_⟩
  rw [mem_blk8]
  obtain ⟨-, -, -, -, e0, e1⟩ := index8 ⟨(i 0).val / 5000, hlt⟩
  intro a
  match a with
  | ⟨0, _⟩ =>
    show win8_2.index ⟨(i 0).val / 5000, hlt⟩ (0 : Fin 2) * 5000 ≤ (i 0).val ∧ (i 0).val < win8_2.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win8_2.index ⟨(i 0).val / 5000, hlt⟩ (1 : Fin 2) * 96 ≤ (i 1).val ∧ (i 1).val < win8_2.index ⟨(i 0).val / 5000, hlt⟩ (1 : Fin 2) * 96 + 96
    rw [e1]; omega

/-- The output array after all 10 points is `arr8` of the input arrays as the region finds them. -/
theorem final8 (c : Dev nD) :
    (dat8 V c).arrAt 2 cfg8.N = arr8 (V c (Pipeline.arrRef spec8 0)) (V c (Pipeline.arrRef spec8 1)) :=
  (dat8 V c).arrAt_eq_of_cover 2 _ (fun t _ => flushed8 V c t) cover8

end Cert.KernelIdeal.Reg

end
-- ==== Proof.KIVal9.lean ====
/- Region 9's output (layer 3, up) as one function of its two input arrays. The [1600000, 32] output is cut into 200 row blocks of 8000 rows; grid point t writes block t, and what it writes is the body's pure function of block t of the gathered features and block t of the weight column. So entry (e, q) of the final array is that function of row block e / 8000, read at (e mod 8000, q); every row lies in exactly one block, so nothing of the entry contents is left. -/
import proofs.«107201_j32822140076800_2_alg».proof.Proof.KIReg9
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero2_9 : (![0, 0] : Fin 2 → Nat) = fun _ => 0 := funext fun a => by fin_cases a <;> rfl

/-- The windows' block indices at grid point `t`: a window that moves down the rows sits at `(t, 0)`, one that holds a whole array at `(0, 0)`. -/
theorem index9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0 :=
  (by decide +kernel : ∀ t : Fin grid9.N, _)

/-- Rows `[8000 t, 8000 t + 8000)` of a [1600000, 32] array (the row number taken mod 1600000, which changes nothing for the points of the grid). -/
def rows9_0 (X : S1600000x32.Idx → Elt F .f32) (t : Nat) : Vec F S8000x32 .f32 :=
  fun y => X (ValueIdx.ix2 (⟨(t * 8000 + (y 0).val) % 1600000, Nat.mod_lt _ (by decide)⟩ : Fin 1600000) (⟨(y 1).val, ValueIdx.idx2_lt1 y⟩ : Fin 32))

/-- Rows `[8000 t, 8000 t + 8000)` of a [1600000, 1] array (the row number taken mod 1600000, which changes nothing for the points of the grid). -/
def rows9_1 (X : S1600000x1.Idx → Elt F .f32) (t : Nat) : Vec F S8000x1 .f32 :=
  fun y => X (ValueIdx.ix2 (⟨(t * 8000 + (y 0).val) % 1600000, Nat.mod_lt _ (by decide)⟩ : Fin 1600000) (⟨(y 1).val, ValueIdx.idx2_lt1 y⟩ : Fin 1))

/-- The output array: entry `(n, q)` is the body's function of row block `n / 8000` of the inputs, read at `(n mod 8000, q)`. -/
def arr9 (X0 : S1600000x32.Idx → Elt F .f32) (X1 : S1600000x1.Idx → Elt F .f32) : S1600000x32.Idx → Elt F .f32 :=
  fun i => k9_pay1 (rows9_0 X0 ((i 0).val / 8000)) (rows9_1 X1 ((i 0).val / 8000))
    (ValueIdx.ix2 (⟨(i 0).val % 8000, Nat.mod_lt _ (by decide)⟩ : Fin 8000) (⟨(i 1).val, ValueIdx.idx2_lt1 i⟩ : Fin 32))

theorem point_lt9 (t : Fin cfg9.N) : t.val < 200 := by
  have h : t.val < grid9.N := t.isLt
  rw [N_9] at h; exact h

/-- Input window 0's block at point `t` is rows `[8000 t, 8000 t + 8000)` of its array. -/
theorem iblk9_0 (c : Dev nD) (t : Fin cfg9.N) : iblk9 V c 0 t = rows9_0 (V c (Pipeline.arrRef spec9 0)) t.val := by
  obtain ⟨e0, e1, -, -, -, -⟩ := index9 t
  have ht := point_lt9 t
  funext y
  show V c (Pipeline.arrRef spec9 0) (((cfg9.win 0).blk t).view.emb y) = V c (Pipeline.arrRef spec9 0) _
  refine congrArg _ ?_
  funext a; apply Fin.ext
  match a with
  | ⟨0, _⟩ =>
    show win9_0.index t (0 : Fin 2) * 8000 + 1 * (y 0).val = (t.val * 8000 + (y 0).val) % 1600000
    have hy : (y 0).val < 8000 := (y 0).isLt
    rw [e0]; omega
  | ⟨1, _⟩ =>
    show win9_0.index t (1 : Fin 2) * 32 + 1 * (y 1).val = (y 1).val
    rw [e1]; omega

/-- Input window 1's block at point `t` is rows `[8000 t, 8000 t + 8000)` of its array. -/
theorem iblk9_1 (c : Dev nD) (t : Fin cfg9.N) : iblk9 V c 1 t = rows9_1 (V c (Pipeline.arrRef spec9 1)) t.val := by
  obtain ⟨-, -, e0, e1, -, -⟩ := index9 t
  have ht := point_lt9 t
  funext y
  show V c (Pipeline.arrRef spec9 1) (((cfg9.win 1).blk t).view.emb y) = V c (Pipeline.arrRef spec9 1) _
  refine congrArg _ ?_
  funext a; apply Fin.ext
  match a with
  | ⟨0, _⟩ =>
    show win9_1.index t (0 : Fin 2) * 8000 + 1 * (y 0).val = (t.val * 8000 + (y 0).val) % 1600000
    have hy : (y 0).val < 8000 := (y 0).isLt
    rw [e0]; omega
  | ⟨1, _⟩ =>
    show win9_1.index t (1 : Fin 2) * 1 + 1 * (y 1).val = (y 1).val
    rw [e1]; omega

/-- What point `t` writes back is block `t` of `arr9` of the input arrays as the region finds them. -/
theorem flushed9 (c : Dev nD) (t : Fin cfg9.N) :
    (dat9 V c).flushed 2 t = ((cfg9.win 2).blk t).view.read (Elt F) (arr9 (V c (Pipeline.arrRef spec9 0)) (V c (Pipeline.arrRef spec9 1))) := by
  show (cfg9.win 2).cut (grid9.coords t) ((dat9 V c).after 2 t) = _
  rw [after9_2]
  unfold out9_2
  rw [View.canon_unit_zero zero2_9]
  simp only [View.ld_unit_zero (S := S8000x32) zero2_9, View.ld_unit_zero (S := S8000x1) zero2_9]
  obtain ⟨-, -, -, -, e0, e1⟩ := index9 t
  rw [iblk9_0, iblk9_1]
  funext j
  have hj0 : (j 0).val < 8000 := (j 0).isLt
  have h0 : ((((cfg9.win 2).blk t).view.emb j) 0).val = t.val * 8000 + (j 0).val := by
    show win9_2.index t (0 : Fin 2) * 8000 + 1 * (j 0).val = _
    rw [e0]; omega
  have h1 : ((((cfg9.win 2).blk t).view.emb j) 1).val = (j 1).val := by
    show win9_2.index t (1 : Fin 2) * 32 + 1 * (j 1).val = _
    rw [e1]; omega
  have hq : (t.val * 8000 + (j 0).val) / 8000 = t.val := by omega
  have hr : (t.val * 8000 + (j 0).val) % 8000 = (j 0).val := by omega
  show k9_pay1 (rows9_0 _ t.val) (rows9_1 _ t.val) j = arr9 _ _ (((cfg9.win 2).blk t).view.emb j)
  unfold arr9
  simp only [h0, h1, hq, hr]
  refine congrArg _ ?_
  funext a
  match a with
  | ⟨0, _⟩ => rfl
  | ⟨1, _⟩ => rfl

/-- An index of the output array lies in point `t`'s block iff each coordinate is in the block's range on its axis. -/
theorem mem_blk9 (t : Fin cfg9.N) (i : S1600000x32.Idx) :
    i ∈ ((cfg9.win 2).blk t).view.set ↔ ∀ a : Fin 2, win9_2.index t a * S8000x32.size a ≤ (i a).val ∧ (i a).val < win9_2.index t a * S8000x32.size a + S8000x32.size a := by
  show i ∈ ((View.whole main_v151).slice (win9_2.rect t)).set ↔ _
  rw [View.set_slice_whole, Rect.mem_set_unit]
  exact Iff.rfl

/-- Every row of the output lies in some point's block: row `n` in block `n / 8000`. -/
theorem cover9 (i : S1600000x32.Idx) : ∃ t : Fin cfg9.N, (cfg9.win 2).flush t = true ∧ i ∈ ((cfg9.win 2).blk t).view.set := by
  have hi0 : (i 0).val < 1600000 := ValueIdx.idx2_lt0 i
  have hi1 : (i 1).val < 32 := ValueIdx.idx2_lt1 i
  have hlt : (i 0).val / 8000 < grid9.N := by rw [N_9]; omega
  refine ⟨⟨(i 0).val / 8000, hlt⟩, flush9_2 _, ?_⟩
  rw [mem_blk9]
  obtain ⟨-, -, -, -, e0, e1⟩ := index9 ⟨(i 0).val / 8000, hlt⟩
  intro a
  match a with
  | ⟨0, _⟩ =>
    show win9_2.index ⟨(i 0).val / 8000, hlt⟩ (0 : Fin 2) * 8000 ≤ (i 0).val ∧ (i 0).val < win9_2.index ⟨(i 0).val / 8000, hlt⟩ (0 : Fin 2) * 8000 + 8000
    rw [e0]; show (i 0).val / 8000 * 8000 ≤ (i 0).val ∧ (i 0).val < (i 0).val / 8000 * 8000 + 8000; omega
  | ⟨1, _⟩ =>
    show win9_2.index ⟨(i 0).val / 8000, hlt⟩ (1 : Fin 2) * 32 ≤ (i 1).val ∧ (i 1).val < win9_2.index ⟨(i 0).val / 8000, hlt⟩ (1 : Fin 2) * 32 + 32
    rw [e1]; omega

/-- The output array after all 200 points is `arr9` of the input arrays as the region finds them. -/
theorem final9 (c : Dev nD) :
    (dat9 V c).arrAt 2 cfg9.N = arr9 (V c (Pipeline.arrRef spec9 0)) (V c (Pipeline.arrRef spec9 1)) :=
  (dat9 V c).arrAt_eq_of_cover 2 _ (fun t _ => flushed9 V c t) cover9

end Cert.KernelIdeal.Reg

end
-- ==== Proof.KIVal10.lean ====
/- Region 10's output (layer 3, down) as one function of its two input arrays. The [1600000, 32] output is cut into 200 row blocks of 8000 rows; grid point t writes block t, and what it writes is the body's pure function of block t of the gathered features and block t of the weight column. So entry (e, q) of the final array is that function of row block e / 8000, read at (e mod 8000, q); every row lies in exactly one block, so nothing of the entry contents is left. -/
import proofs.«107201_j32822140076800_2_alg».proof.Proof.KIReg10
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero2_10 : (![0, 0] : Fin 2 → Nat) = fun _ => 0 := funext fun a => by fin_cases a <;> rfl

/-- The windows' block indices at grid point `t`: a window that moves down the rows sits at `(t, 0)`, one that holds a whole array at `(0, 0)`. -/
theorem index10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0 :=
  (by decide +kernel : ∀ t : Fin grid10.N, _)

/-- Rows `[8000 t, 8000 t + 8000)` of a [1600000, 32] array (the row number taken mod 1600000, which changes nothing for the points of the grid). -/
def rows10_0 (X : S1600000x32.Idx → Elt F .f32) (t : Nat) : Vec F S8000x32 .f32 :=
  fun y => X (ValueIdx.ix2 (⟨(t * 8000 + (y 0).val) % 1600000, Nat.mod_lt _ (by decide)⟩ : Fin 1600000) (⟨(y 1).val, ValueIdx.idx2_lt1 y⟩ : Fin 32))

/-- Rows `[8000 t, 8000 t + 8000)` of a [1600000, 1] array (the row number taken mod 1600000, which changes nothing for the points of the grid). -/
def rows10_1 (X : S1600000x1.Idx → Elt F .f32) (t : Nat) : Vec F S8000x1 .f32 :=
  fun y => X (ValueIdx.ix2 (⟨(t * 8000 + (y 0).val) % 1600000, Nat.mod_lt _ (by decide)⟩ : Fin 1600000) (⟨(y 1).val, ValueIdx.idx2_lt1 y⟩ : Fin 1))

/-- The output array: entry `(n, q)` is the body's function of row block `n / 8000` of the inputs, read at `(n mod 8000, q)`. -/
def arr10 (X0 : S1600000x32.Idx → Elt F .f32) (X1 : S1600000x1.Idx → Elt F .f32) : S1600000x32.Idx → Elt F .f32 :=
  fun i => k10_pay1 (rows10_0 X0 ((i 0).val / 8000)) (rows10_1 X1 ((i 0).val / 8000))
    (ValueIdx.ix2 (⟨(i 0).val % 8000, Nat.mod_lt _ (by decide)⟩ : Fin 8000) (⟨(i 1).val, ValueIdx.idx2_lt1 i⟩ : Fin 32))

theorem point_lt10 (t : Fin cfg10.N) : t.val < 200 := by
  have h : t.val < grid10.N := t.isLt
  rw [N_10] at h; exact h

/-- Input window 0's block at point `t` is rows `[8000 t, 8000 t + 8000)` of its array. -/
theorem iblk10_0 (c : Dev nD) (t : Fin cfg10.N) : iblk10 V c 0 t = rows10_0 (V c (Pipeline.arrRef spec10 0)) t.val := by
  obtain ⟨e0, e1, -, -, -, -⟩ := index10 t
  have ht := point_lt10 t
  funext y
  show V c (Pipeline.arrRef spec10 0) (((cfg10.win 0).blk t).view.emb y) = V c (Pipeline.arrRef spec10 0) _
  refine congrArg _ ?_
  funext a; apply Fin.ext
  match a with
  | ⟨0, _⟩ =>
    show win10_0.index t (0 : Fin 2) * 8000 + 1 * (y 0).val = (t.val * 8000 + (y 0).val) % 1600000
    have hy : (y 0).val < 8000 := (y 0).isLt
    rw [e0]; omega
  | ⟨1, _⟩ =>
    show win10_0.index t (1 : Fin 2) * 32 + 1 * (y 1).val = (y 1).val
    rw [e1]; omega

/-- Input window 1's block at point `t` is rows `[8000 t, 8000 t + 8000)` of its array. -/
theorem iblk10_1 (c : Dev nD) (t : Fin cfg10.N) : iblk10 V c 1 t = rows10_1 (V c (Pipeline.arrRef spec10 1)) t.val := by
  obtain ⟨-, -, e0, e1, -, -⟩ := index10 t
  have ht := point_lt10 t
  funext y
  show V c (Pipeline.arrRef spec10 1) (((cfg10.win 1).blk t).view.emb y) = V c (Pipeline.arrRef spec10 1) _
  refine congrArg _ ?_
  funext a; apply Fin.ext
  match a with
  | ⟨0, _⟩ =>
    show win10_1.index t (0 : Fin 2) * 8000 + 1 * (y 0).val = (t.val * 8000 + (y 0).val) % 1600000
    have hy : (y 0).val < 8000 := (y 0).isLt
    rw [e0]; omega
  | ⟨1, _⟩ =>
    show win10_1.index t (1 : Fin 2) * 1 + 1 * (y 1).val = (y 1).val
    rw [e1]; omega

/-- What point `t` writes back is block `t` of `arr10` of the input arrays as the region finds them. -/
theorem flushed10 (c : Dev nD) (t : Fin cfg10.N) :
    (dat10 V c).flushed 2 t = ((cfg10.win 2).blk t).view.read (Elt F) (arr10 (V c (Pipeline.arrRef spec10 0)) (V c (Pipeline.arrRef spec10 1))) := by
  show (cfg10.win 2).cut (grid10.coords t) ((dat10 V c).after 2 t) = _
  rw [after10_2]
  unfold out10_2
  rw [View.canon_unit_zero zero2_10]
  simp only [View.ld_unit_zero (S := S8000x32) zero2_10, View.ld_unit_zero (S := S8000x1) zero2_10]
  obtain ⟨-, -, -, -, e0, e1⟩ := index10 t
  rw [iblk10_0, iblk10_1]
  funext j
  have hj0 : (j 0).val < 8000 := (j 0).isLt
  have h0 : ((((cfg10.win 2).blk t).view.emb j) 0).val = t.val * 8000 + (j 0).val := by
    show win10_2.index t (0 : Fin 2) * 8000 + 1 * (j 0).val = _
    rw [e0]; omega
  have h1 : ((((cfg10.win 2).blk t).view.emb j) 1).val = (j 1).val := by
    show win10_2.index t (1 : Fin 2) * 32 + 1 * (j 1).val = _
    rw [e1]; omega
  have hq : (t.val * 8000 + (j 0).val) / 8000 = t.val := by omega
  have hr : (t.val * 8000 + (j 0).val) % 8000 = (j 0).val := by omega
  show k10_pay1 (rows10_0 _ t.val) (rows10_1 _ t.val) j = arr10 _ _ (((cfg10.win 2).blk t).view.emb j)
  unfold arr10
  simp only [h0, h1, hq, hr]
  refine congrArg _ ?_
  funext a
  match a with
  | ⟨0, _⟩ => rfl
  | ⟨1, _⟩ => rfl

/-- An index of the output array lies in point `t`'s block iff each coordinate is in the block's range on its axis. -/
theorem mem_blk10 (t : Fin cfg10.N) (i : S1600000x32.Idx) :
    i ∈ ((cfg10.win 2).blk t).view.set ↔ ∀ a : Fin 2, win10_2.index t a * S8000x32.size a ≤ (i a).val ∧ (i a).val < win10_2.index t a * S8000x32.size a + S8000x32.size a := by
  show i ∈ ((View.whole main_v169).slice (win10_2.rect t)).set ↔ _
  rw [View.set_slice_whole, Rect.mem_set_unit]
  exact Iff.rfl

/-- Every row of the output lies in some point's block: row `n` in block `n / 8000`. -/
theorem cover10 (i : S1600000x32.Idx) : ∃ t : Fin cfg10.N, (cfg10.win 2).flush t = true ∧ i ∈ ((cfg10.win 2).blk t).view.set := by
  have hi0 : (i 0).val < 1600000 := ValueIdx.idx2_lt0 i
  have hi1 : (i 1).val < 32 := ValueIdx.idx2_lt1 i
  have hlt : (i 0).val / 8000 < grid10.N := by rw [N_10]; omega
  refine ⟨⟨(i 0).val / 8000, hlt⟩, flush10_2 _, ?_⟩
  rw [mem_blk10]
  obtain ⟨-, -, -, -, e0, e1⟩ := index10 ⟨(i 0).val / 8000, hlt⟩
  intro a
  match a with
  | ⟨0, _⟩ =>
    show win10_2.index ⟨(i 0).val / 8000, hlt⟩ (0 : Fin 2) * 8000 ≤ (i 0).val ∧ (i 0).val < win10_2.index ⟨(i 0).val / 8000, hlt⟩ (0 : Fin 2) * 8000 + 8000
    rw [e0]; show (i 0).val / 8000 * 8000 ≤ (i 0).val ∧ (i 0).val < (i 0).val / 8000 * 8000 + 8000; omega
  | ⟨1, _⟩ =>
    show win10_2.index ⟨(i 0).val / 8000, hlt⟩ (1 : Fin 2) * 32 ≤ (i 1).val ∧ (i 1).val < win10_2.index ⟨(i 0).val / 8000, hlt⟩ (1 : Fin 2) * 32 + 32
    rw [e1]; omega

/-- The output array after all 200 points is `arr10` of the input arrays as the region finds them. -/
theorem final10 (c : Dev nD) :
    (dat10 V c).arrAt 2 cfg10.N = arr10 (V c (Pipeline.arrRef spec10 0)) (V c (Pipeline.arrRef spec10 1)) :=
  (dat10 V c).arrAt_eq_of_cover 2 _ (fun t _ => flushed10 V c t) cover10

end Cert.KernelIdeal.Reg

end
-- ==== Proof.KIVal11.lean ====
/- Region 11's output (layer 3's normalised, activated features) as one function of its input array. The [50000, 96] output is cut into 5 row blocks of 10000 rows; grid point t writes block t, and what it writes is the body's pure function of block t of the concatenated features. So entry (n, j) of the final array is that function of row block n / 10000, read at (n mod 10000, j); every row lies in exactly one block. -/
import proofs.«107201_j32822140076800_2_alg».proof.Proof.KIReg11
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero2_11 : (![0, 0] : Fin 2 → Nat) = fun _ => 0 := funext fun a => by fin_cases a <;> rfl

/-- The windows' block indices at grid point `t`: a window that moves down the rows sits at `(t, 0)`, one that holds a whole array at `(0, 0)`. -/
theorem index11 : ∀ t : Fin cfg11.N, win11_0.index t (0 : Fin 2) = t.val ∧ win11_0.index t (1 : Fin 2) = 0
    ∧ win11_1.index t (0 : Fin 2) = t.val ∧ win11_1.index t (1 : Fin 2) = 0 :=
  (by decide +kernel : ∀ t : Fin grid11.N, _)

/-- Rows `[10000 t, 10000 t + 10000)` of a [50000, 96] array (the row number taken mod 50000, which changes nothing for the points of the grid). -/
def rows11_0 (X : S50000x96.Idx → Elt F .f32) (t : Nat) : Vec F S10000x96 .f32 :=
  fun y => X (ValueIdx.ix2 (⟨(t * 10000 + (y 0).val) % 50000, Nat.mod_lt _ (by decide)⟩ : Fin 50000) (⟨(y 1).val, ValueIdx.idx2_lt1 y⟩ : Fin 96))

/-- The output array: entry `(n, q)` is the body's function of row block `n / 10000` of the inputs, read at `(n mod 10000, q)`. -/
def arr11 (X0 : S50000x96.Idx → Elt F .f32) : S50000x96.Idx → Elt F .f32 :=
  fun i => k11_pay1 (rows11_0 X0 ((i 0).val / 10000))
    (ValueIdx.ix2 (⟨(i 0).val % 10000, Nat.mod_lt _ (by decide)⟩ : Fin 10000) (⟨(i 1).val, ValueIdx.idx2_lt1 i⟩ : Fin 96))

theorem point_lt11 (t : Fin cfg11.N) : t.val < 5 := by
  have h : t.val < grid11.N := t.isLt
  rw [N_11] at h; exact h

/-- Input window 0's block at point `t` is rows `[10000 t, 10000 t + 10000)` of its array. -/
theorem iblk11_0 (c : Dev nD) (t : Fin cfg11.N) : iblk11 V c 0 t = rows11_0 (V c (Pipeline.arrRef spec11 0)) t.val := by
  obtain ⟨e0, e1, -, -⟩ := index11 t
  have ht := point_lt11 t
  funext y
  show V c (Pipeline.arrRef spec11 0) (((cfg11.win 0).blk t).view.emb y) = V c (Pipeline.arrRef spec11 0) _
  refine congrArg _ ?_
  funext a; apply Fin.ext
  match a with
  | ⟨0, _⟩ =>
    show win11_0.index t (0 : Fin 2) * 10000 + 1 * (y 0).val = (t.val * 10000 + (y 0).val) % 50000
    have hy : (y 0).val < 10000 := (y 0).isLt
    rw [e0]; omega
  | ⟨1, _⟩ =>
    show win11_0.index t (1 : Fin 2) * 96 + 1 * (y 1).val = (y 1).val
    rw [e1]; omega

/-- What point `t` writes back is block `t` of `arr11` of the input arrays as the region finds them. -/
theorem flushed11 (c : Dev nD) (t : Fin cfg11.N) :
    (dat11 V c).flushed 1 t = ((cfg11.win 1).blk t).view.read (Elt F) (arr11 (V c (Pipeline.arrRef spec11 0))) := by
  show (cfg11.win 1).cut (grid11.coords t) ((dat11 V c).after 1 t) = _
  rw [after11_1]
  unfold out11_1
  rw [View.canon_unit_zero zero2_11]
  simp only [View.ld_unit_zero (S := S10000x96) zero2_11]
  obtain ⟨-, -, e0, e1⟩ := index11 t
  rw [iblk11_0]
  funext j
  have hj0 : (j 0).val < 10000 := (j 0).isLt
  have h0 : ((((cfg11.win 1).blk t).view.emb j) 0).val = t.val * 10000 + (j 0).val := by
    show win11_1.index t (0 : Fin 2) * 10000 + 1 * (j 0).val = _
    rw [e0]; omega
  have h1 : ((((cfg11.win 1).blk t).view.emb j) 1).val = (j 1).val := by
    show win11_1.index t (1 : Fin 2) * 96 + 1 * (j 1).val = _
    rw [e1]; omega
  have hq : (t.val * 10000 + (j 0).val) / 10000 = t.val := by omega
  have hr : (t.val * 10000 + (j 0).val) % 10000 = (j 0).val := by omega
  show k11_pay1 (rows11_0 _ t.val) j = arr11 _ (((cfg11.win 1).blk t).view.emb j)
  unfold arr11
  simp only [h0, h1, hq, hr]
  refine congrArg _ ?_
  funext a
  match a with
  | ⟨0, _⟩ => rfl
  | ⟨1, _⟩ => rfl

/-- An index of the output array lies in point `t`'s block iff each coordinate is in the block's range on its axis. -/
theorem mem_blk11 (t : Fin cfg11.N) (i : S50000x96.Idx) :
    i ∈ ((cfg11.win 1).blk t).view.set ↔ ∀ a : Fin 2, win11_1.index t a * S10000x96.size a ≤ (i a).val ∧ (i a).val < win11_1.index t a * S10000x96.size a + S10000x96.size a := by
  show i ∈ ((View.whole main_v179).slice (win11_1.rect t)).set ↔ _
  rw [View.set_slice_whole, Rect.mem_set_unit]
  exact Iff.rfl

/-- Every row of the output lies in some point's block: row `n` in block `n / 10000`. -/
theorem cover11 (i : S50000x96.Idx) : ∃ t : Fin cfg11.N, (cfg11.win 1).flush t = true ∧ i ∈ ((cfg11.win 1).blk t).view.set := by
  have hi0 : (i 0).val < 50000 := ValueIdx.idx2_lt0 i
  have hi1 : (i 1).val < 96 := ValueIdx.idx2_lt1 i
  have hlt : (i 0).val / 10000 < grid11.N := by rw [N_11]; omega
  refine ⟨⟨(i 0).val / 10000, hlt⟩, flush11_1 _, ?_⟩
  rw [mem_blk11]
  obtain ⟨-, -, e0, e1⟩ := index11 ⟨(i 0).val / 10000, hlt⟩
  intro a
  match a with
  | ⟨0, _⟩ =>
    show win11_1.index ⟨(i 0).val / 10000, hlt⟩ (0 : Fin 2) * 10000 ≤ (i 0).val ∧ (i 0).val < win11_1.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win11_1.index ⟨(i 0).val / 10000, hlt⟩ (1 : Fin 2) * 96 ≤ (i 1).val ∧ (i 1).val < win11_1.index ⟨(i 0).val / 10000, hlt⟩ (1 : Fin 2) * 96 + 96
    rw [e1]; omega

/-- The output array after all 5 points is `arr11` of the input arrays as the region finds them. -/
theorem final11 (c : Dev nD) :
    (dat11 V c).arrAt 1 cfg11.N = arr11 (V c (Pipeline.arrRef spec11 0)) :=
  (dat11 V c).arrAt_eq_of_cover 1 _ (fun t _ => flushed11 V c t) cover11

end Cert.KernelIdeal.Reg

end
-- ==== Proof.KILayer.lean ====
/- The program's own arrangement of the network, as whole-array functions: what its host operations compute between
   the regions, composed in the program's order, each region standing as the whole-array function of its input arrays.
   The edge array's two rows; a row of node numbers as gather / scatter indices (a negative number counts back from the
   50000 rows); how many edges name each node in a row, counted in integers and converted; one over that count (zero
   where the count is zero), gathered at the edges. A layer fuses its three weight matrices into one, projects the node
   features once (a region), cuts the result into its three column groups, sends the first along the edges and the second
   against them (gather the rows, scale them by the edge weight over the degree in a region, add them up per node), lays
   the two sums and the third group side by side and normalises and activates (a region). -/
import proofs.«107201_j32822140076800_2_alg».proof.Proof.KIVal0
import proofs.«107201_j32822140076800_2_alg».proof.Proof.KIVal1
import proofs.«107201_j32822140076800_2_alg».proof.Proof.KIVal2
import proofs.«107201_j32822140076800_2_alg».proof.Proof.KIVal3
import proofs.«107201_j32822140076800_2_alg».proof.Proof.KIVal4
import proofs.«107201_j32822140076800_2_alg».proof.Proof.KIVal5
import proofs.«107201_j32822140076800_2_alg».proof.Proof.KIVal6
import proofs.«107201_j32822140076800_2_alg».proof.Proof.KIVal7
import proofs.«107201_j32822140076800_2_alg».proof.Proof.KIVal8
import proofs.«107201_j32822140076800_2_alg».proof.Proof.KIVal9
import proofs.«107201_j32822140076800_2_alg».proof.Proof.KIVal10
import proofs.«107201_j32822140076800_2_alg».proof.Proof.KIVal11
import Idealize.ShloMosaic.Lib.StableHlo.Run

set_option maxRecDepth 16384

noncomputable section

namespace Cert.KernelIdeal.Run

open Cert.KernelIdeal Cert.KernelIdeal.Gen Cert.KernelIdeal.Reg
open Idealize.ShloMosaic Idealize.ShloMosaic.TcCoe Idealize.SL.Sem

variable {F : FTy → Type} [FloatOps F]

/-- Row 0 of the edge array, as a list of 1600000 node numbers. -/
def kRow0 (ei : IVec S2x1600000 32) : IVec S1600000 32 :=
  shapeCast S1600000 (extractStridedSlice S1x1600000 ![0, 0] ei slices_S2x1600000_S1x1600000_0_0) shapeCasts_S1x1600000_S1600000

/-- Row 1 of the edge array. -/
def kRow1 (ei : IVec S2x1600000 32) : IVec S1600000 32 :=
  shapeCast S1600000 (extractStridedSlice S1x1600000 ![1, 0] ei slices_S2x1600000_S1x1600000_1_0) shapeCasts_S1x1600000_S1600000

/-- A list of node numbers as gather / scatter indices: a negative number counts back from the 50000 rows, and the
    list gets a trailing unit axis. -/
def kIdx (e : IVec S1600000 32) : IVec S1600000x1 32 :=
  broadcastInDim S1600000x1 ![0] bcast_S1600000_S1600000x1_0
    (select (cmpi .slt e (broadcastInDim S1600000 ![] bcast_S_S1600000 (constantI S_ 32 0#32)))
      (addi e (broadcastInDim S1600000 ![] bcast_S_S1600000 (constantI S_ 32 50000#32))) e)

/-- How many entries of the list name each node: ones added up in integers at the indices, then converted. -/
def kDeg (e : IVec S1600000 32) : FVec F S50000 .f32 :=
  sitofp .f32 (Host.scatter scatter_S50000_S1600000x1_S1600000_n_0_0_1 IntOp.addi
    (broadcastInDim S50000 ![] bcast_S_S50000 (constantI S_ 32 0#32)) (kIdx e)
    (broadcastInDim S1600000 ![] bcast_S_S1600000 (constantI S_ 32 1#32)))

/-- One over that count, and zero at a node the list does not name. -/
def kDegInv (e : IVec S1600000 32) : FVec F S50000 .f32 :=
  select (cmpf .ogt (kDeg (F := F) e) (broadcastInDim S50000 ![] bcast_S_S50000 (constant (F := F) S_ .f32 0x00000000#32)))
    (Host.divf (F := F) (broadcastInDim S50000 ![] bcast_S_S50000 (constant (F := F) S_ .f32 0x3F800000#32)) (kDeg (F := F) e))
    (broadcastInDim S50000 ![] bcast_S_S50000 (id (constant (F := F) S_ .f32 0x00000000#32)))

/-- The inverse count of the node each entry names, entry by entry. -/
def kInv (e : IVec S1600000 32) : FVec F S1600000 .f32 :=
  Host.gather gather_S50000_S1600000x1_S1600000_n_0_n_n_0_1_1 (kDegInv (F := F) e) (kIdx e)

/-- Three 32 × 8 weight matrices stacked and transposed: the fused 8 × 96 matrix. -/
def kFuse8 (wu wd wb : FVec F S32x8 .f32) : FVec F S8x96 .f32 :=
  transpose S8x96 [1, 0] (concatenate S96x8 0 [⟨S32x8, wu⟩, ⟨S32x8, wd⟩, ⟨S32x8, wb⟩] concatenates_S32x8_S32x8_S32x8_S96x8_d0)
    transposes_S96x8_S8x96_1_0

/-- Three 32 × 96 weight matrices stacked and transposed: the fused 96 × 96 matrix. -/
def kFuse96 (wu wd wb : FVec F S32x96 .f32) : FVec F S96x96 .f32 :=
  transpose S96x96 [1, 0] (concatenate S96x96 0 [⟨S32x96, wu⟩, ⟨S32x96, wd⟩, ⟨S32x96, wb⟩] concatenates_S32x96_S32x96_S32x96_S96x96_d0)
    transposes_S96x96_S96x96_1_0

/-- Columns 0 … 31, 32 … 63 and 64 … 95 of a [50000, 96] array. -/
def kLo (p : FVec F S50000x96 .f32) : FVec F S50000x32 .f32 :=
  extractStridedSlice S50000x32 ![0, 0] p slices_S50000x96_S50000x32_0_0
def kMid (p : FVec F S50000x96 .f32) : FVec F S50000x32 .f32 :=
  extractStridedSlice S50000x32 ![0, 32] p slices_S50000x96_S50000x32_0_32
def kHi (p : FVec F S50000x96 .f32) : FVec F S50000x32 .f32 :=
  extractStridedSlice S50000x32 ![0, 64] p slices_S50000x96_S50000x32_0_64

/-- The rows of `p` the list names, entry by entry. -/
def kGather (p : FVec F S50000x32 .f32) (e : IVec S1600000 32) : FVec F S1600000x32 .f32 :=
  Host.gather gather_S50000x32_S1600000x1_S1600000x32_1_0_n_n_0_1_132 p (kIdx e)

/-- The edge weight over the degree, as a column. -/
def kWeight (inv ew : FVec F S1600000 .f32) : FVec F S1600000x1 .f32 :=
  shapeCast S1600000x1 (mulf inv ew) shapeCasts_S1600000_S1600000x1

/-- The messages added up at the nodes the list names, from zero. -/
def kScatter (e : IVec S1600000 32) (msg : FVec F S1600000x32 .f32) : FVec F S50000x32 .f32 :=
  Host.scatterAdd scatter_S50000x32_S1600000x1_S1600000x32_1_0_0_1
    (broadcastInDim S50000x32 ![] bcast_S_S50000x32 (constant (F := F) S_ .f32 0x00000000#32)) (kIdx e) msg

/-- Three [50000, 32] arrays side by side. -/
def kCat (a b c : FVec F S50000x32 .f32) : FVec F S50000x96 .f32 :=
  concatenate S50000x96 1 [⟨S50000x32, a⟩, ⟨S50000x32, b⟩, ⟨S50000x32, c⟩] concatenates_S50000x32_S50000x32_S50000x32_S50000x96_d1

/-- The first layer (8 input features). Arguments: node features, edge array, up / down / bias weights, up / down
    edge weights. -/
def kLayerA (x : FVec F S50000x8 .f32) (ei : IVec S2x1600000 32) (wu wd wb : FVec F S32x8 .f32)
    (eu ed : FVec F S1600000 .f32) : FVec F S50000x96 .f32 :=
  arr3 (kCat
    (kScatter (kRow1 ei) (arr1 (kGather (kLo (arr0 x (kFuse8 wu wd wb))) (kRow0 ei)) (kWeight (kInv (F := F) (kRow1 ei)) eu)))
    (kScatter (kRow0 ei) (arr2 (kGather (kMid (arr0 x (kFuse8 wu wd wb))) (kRow1 ei)) (kWeight (kInv (F := F) (kRow0 ei)) ed)))
    (kHi (arr0 x (kFuse8 wu wd wb))))

/-- A later layer (96 input features): as `kLayerA`, over 32 × 96 weights. Same argument order. -/
def kLayerB (x : FVec F S50000x96 .f32) (ei : IVec S2x1600000 32) (wu wd wb : FVec F S32x96 .f32)
    (eu ed : FVec F S1600000 .f32) : FVec F S50000x96 .f32 :=
  arr7 (kCat
    (kScatter (kRow1 ei) (arr5 (kGather (kLo (arr4 x (kFuse96 wu wd wb))) (kRow0 ei)) (kWeight (kInv (F := F) (kRow1 ei)) eu)))
    (kScatter (kRow0 ei) (arr6 (kGather (kMid (arr4 x (kFuse96 wu wd wb))) (kRow1 ei)) (kWeight (kInv (F := F) (kRow0 ei)) ed)))
    (kHi (arr4 x (kFuse96 wu wd wb))))

/-- The mean of three edge-weight lists: their sum over three. -/
def kMean (a b c : FVec F S1600000 .f32) : FVec F S1600000 .f32 :=
  Host.divf (F := F) (addf (addf a b) c) (broadcastInDim S1600000 ![] bcast_S_S1600000 (constant (F := F) S_ .f32 0x40400000#32))

/-! ## The third layer's regions are the second layer's

Regions 8 … 11 run the same bodies over the same extents as regions 4 … 7, so their whole-array functions agree. -/

theorem arr8_eq : @arr8 F _ = @arr4 F _ := rfl
theorem arr9_eq : @arr9 F _ = @arr5 F _ := rfl
theorem arr10_eq : @arr10 F _ = @arr6 F _ := rfl
theorem arr11_eq : @arr11 F _ = @arr7 F _ := rfl

end Cert.KernelIdeal.Run

end
-- ==== Proof.KIReadOps.lean ====
/- What each stretch of host operations leaves in the buffers the later items read, as the program's own operations
   applied to the contents the stretch starts from: one equation per buffer, at any starting contents. -/
import proofs.«107201_j32822140076800_2_alg».proof.Proof.KILayer

set_option maxRecDepth 16384

noncomputable section

namespace Cert.KernelIdeal.Run

open Cert.KernelIdeal Cert.KernelIdeal.Gen Cert.KernelIdeal.Reg
open Idealize.ShloMosaic Idealize.ShloMosaic.TcCoe Idealize.SL.Sem Idealize.ShloMosaic.StableHlo

variable {F : FTy → Type} [FloatOps F]

/-! ## The pieces of the inverse count, as the program spells them -/

/-- Where the count is positive. -/
def kPos (d : FVec F S50000 .f32) : IVec S50000 1 :=
  cmpf .ogt d (broadcastInDim S50000 ![] bcast_S_S50000 (constant (F := F) S_ .f32 0x00000000#32))
/-- One over the count. -/
def kRecip (d : FVec F S50000 .f32) : FVec F S50000 .f32 :=
  Host.divf (F := F) (broadcastInDim S50000 ![] bcast_S_S50000 (constant (F := F) S_ .f32 0x3F800000#32)) d
/-- The scalar zero. -/
def kZero : FVec F S_ .f32 := constant (F := F) S_ .f32 0x00000000#32
/-- The choice between the reciprocal and zero. -/
def kSel (p : IVec S50000 1) (a : FVec F S50000 .f32) (z : FVec F S_ .f32) : FVec F S50000 .f32 :=
  select p a (broadcastInDim S50000 ![] bcast_S_S50000 (id z))
/-- A per-node array gathered at the entries of a list. -/
def kGatherInv (di : FVec F S50000 .f32) (e : IVec S1600000 32) : FVec F S1600000 .f32 :=
  Host.gather gather_S50000_S1600000x1_S1600000_n_0_n_n_0_1_1 di (kIdx e)

theorem kDegInv_eq (e : IVec S1600000 32) : kDegInv (F := F) e = kSel (kPos (kDeg (F := F) e)) (kRecip (kDeg (F := F) e)) kZero := rfl
theorem kInv_eq (e : IVec S1600000 32) : kInv (F := F) e = kGatherInv (kDegInv (F := F) e) e := rfl

variable (V : Valuation τ sig (Elt F))

/-! ## The stretches before the first region -/

set_option maxHeartbeats 1000000 in
theorem h0_v1 : StableHlo.after hostOps0 V (Proc.devRef .tc main_v1) = kRow0 (V (Proc.devRef .tc main_arg1)) := by
  dsimp only [hostOps0]; after_results_simp; rfl

set_option maxHeartbeats 1000000 in
theorem h0_v3 : StableHlo.after hostOps0 V (Proc.devRef .tc main_v3) = kRow1 (V (Proc.devRef .tc main_arg1)) := by
  dsimp only [hostOps0]; after_results_simp; rfl

set_option maxHeartbeats 1000000 in
theorem h0_v23 : StableHlo.after hostOps0 V (Proc.devRef .tc main_v23) = kDeg (F := F) (kRow0 (V (Proc.devRef .tc main_arg1))) := by
  dsimp only [hostOps0]; after_results_simp; rfl

set_option maxHeartbeats 1000000 in
theorem h0_v25 : StableHlo.after hostOps0 V (Proc.devRef .tc main_v25) = kPos (kDeg (F := F) (kRow1 (V (Proc.devRef .tc main_arg1)))) := by
  dsimp only [hostOps0]; after_results_simp; rfl

set_option maxHeartbeats 1000000 in
theorem h0_v27 : StableHlo.after hostOps0 V (Proc.devRef .tc main_v27) = kRecip (kDeg (F := F) (kRow1 (V (Proc.devRef .tc main_arg1)))) := by
  dsimp only [hostOps0]; after_results_simp; rfl

set_option maxHeartbeats 1000000 in
theorem h0_cst8 : StableHlo.after hostOps0 V (Proc.devRef .tc main_cst_8) = kZero (F := F) := by
  dsimp only [hostOps0]; after_results_simp; rfl

set_option maxHeartbeats 1000000 in
theorem h01_v28 : StableHlo.after hostOps0_1 V (Proc.devRef .tc main_v28) = kSel (V (Proc.devRef .tc main_v25)) (V (Proc.devRef .tc main_v27)) (V (Proc.devRef .tc main_cst_8)) := by
  dsimp only [hostOps0_1]; after_results_simp; rfl

set_option maxHeartbeats 1000000 in
theorem h02_v30 : StableHlo.after hostOps0_2 V (Proc.devRef .tc main_v30) = kPos (V (Proc.devRef .tc main_v23)) := by
  dsimp only [hostOps0_2]; after_results_simp; rfl

set_option maxHeartbeats 1000000 in
theorem h02_v32 : StableHlo.after hostOps0_2 V (Proc.devRef .tc main_v32) = kRecip (V (Proc.devRef .tc main_v23)) := by
  dsimp only [hostOps0_2]; after_results_simp; rfl

set_option maxHeartbeats 1000000 in
theorem h02_cst11 : StableHlo.after hostOps0_2 V (Proc.devRef .tc main_cst_11) = kZero (F := F) := by
  dsimp only [hostOps0_2]; after_results_simp; rfl

set_option maxHeartbeats 1000000 in
theorem h03_v33 : StableHlo.after hostOps0_3 V (Proc.devRef .tc main_v33) = kSel (V (Proc.devRef .tc main_v30)) (V (Proc.devRef .tc main_v32)) (V (Proc.devRef .tc main_cst_11)) := by
  dsimp only [hostOps0_3]; after_results_simp; rfl

set_option maxHeartbeats 1000000 in
theorem h04_v40 : StableHlo.after hostOps0_4 V (Proc.devRef .tc main_v40) = kGatherInv (V (Proc.devRef .tc main_v28)) (V (Proc.devRef .tc main_v3)) := by
  dsimp only [hostOps0_4]; after_results_simp; rfl

set_option maxHeartbeats 1000000 in
theorem h04_v47 : StableHlo.after hostOps0_4 V (Proc.devRef .tc main_v47) = kGatherInv (V (Proc.devRef .tc main_v33)) (V (Proc.devRef .tc main_v1)) := by
  dsimp only [hostOps0_4]; after_results_simp; rfl

set_option maxHeartbeats 1000000 in
theorem h04_v49 : StableHlo.after hostOps0_4 V (Proc.devRef .tc main_v49) = kFuse8 (V (Proc.devRef .tc main_arg2)) (V (Proc.devRef .tc main_arg3)) (V (Proc.devRef .tc main_arg4)) := by
  dsimp only [hostOps0_4]; after_results_simp; rfl

/-! ## The stretches of the three layers -/

set_option maxHeartbeats 1000000 in
theorem ha0_g : StableHlo.after hostOps1 V (Proc.devRef .tc main_v60) = kGather (kLo (V (Proc.devRef .tc main_v50))) (V (Proc.devRef .tc main_v1)) := by
  dsimp only [hostOps1]; after_results_simp; rfl
set_option maxHeartbeats 1000000 in
theorem ha0_w : StableHlo.after hostOps1 V (Proc.devRef .tc main_v62) = kWeight (V (Proc.devRef .tc main_v40)) (V (Proc.devRef .tc main_arg5)) := by
  dsimp only [hostOps1]; after_results_simp; rfl
set_option maxHeartbeats 1000000 in
theorem ha0_mid : StableHlo.after hostOps1 V (Proc.devRef .tc main_v52) = kMid (V (Proc.devRef .tc main_v50)) := by
  dsimp only [hostOps1]; after_results_simp; rfl
set_option maxHeartbeats 1000000 in
theorem ha0_hi : StableHlo.after hostOps1 V (Proc.devRef .tc main_v53) = kHi (V (Proc.devRef .tc main_v50)) := by
  dsimp only [hostOps1]; after_results_simp; rfl
set_option maxHeartbeats 1000000 in
theorem hb0_s : StableHlo.after hostOps2 V (Proc.devRef .tc main_v71) = kScatter (V (Proc.devRef .tc main_v3)) (V (Proc.devRef .tc main_v63)) := by
  dsimp only [hostOps2]; after_results_simp; rfl
set_option maxHeartbeats 1000000 in
theorem hb0_g : StableHlo.after hostOps2 V (Proc.devRef .tc main_v78) = kGather (V (Proc.devRef .tc main_v52)) (V (Proc.devRef .tc main_v3)) := by
  dsimp only [hostOps2]; after_results_simp; rfl
set_option maxHeartbeats 1000000 in
theorem hb0_w : StableHlo.after hostOps2 V (Proc.devRef .tc main_v80) = kWeight (V (Proc.devRef .tc main_v47)) (V (Proc.devRef .tc main_arg6)) := by
  dsimp only [hostOps2]; after_results_simp; rfl
set_option maxHeartbeats 1000000 in
theorem hc0_cat : StableHlo.after hostOps3 V (Proc.devRef .tc main_v90) = kCat (V (Proc.devRef .tc main_v71)) (kScatter (V (Proc.devRef .tc main_v1)) (V (Proc.devRef .tc main_v81))) (V (Proc.devRef .tc main_v53)) := by
  dsimp only [hostOps3]; after_results_simp; rfl
set_option maxHeartbeats 1000000 in
theorem hf1_fuse : StableHlo.after hostOps4 V (Proc.devRef .tc main_v93) = kFuse96 (V (Proc.devRef .tc main_arg7)) (V (Proc.devRef .tc main_arg8)) (V (Proc.devRef .tc main_arg9)) := by
  dsimp only [hostOps4]; after_results_simp; rfl
set_option maxHeartbeats 1000000 in
theorem ha1_g : StableHlo.after hostOps5 V (Proc.devRef .tc main_v104) = kGather (kLo (V (Proc.devRef .tc main_v94))) (V (Proc.devRef .tc main_v1)) := by
  dsimp only [hostOps5]; after_results_simp; rfl
set_option maxHeartbeats 1000000 in
theorem ha1_w : StableHlo.after hostOps5 V (Proc.devRef .tc main_v106) = kWeight (V (Proc.devRef .tc main_v40)) (V (Proc.devRef .tc main_arg10)) := by
  dsimp only [hostOps5]; after_results_simp; rfl
set_option maxHeartbeats 1000000 in
theorem ha1_mid : StableHlo.after hostOps5 V (Proc.devRef .tc main_v96) = kMid (V (Proc.devRef .tc main_v94)) := by
  dsimp only [hostOps5]; after_results_simp; rfl
set_option maxHeartbeats 1000000 in
theorem ha1_hi : StableHlo.after hostOps5 V (Proc.devRef .tc main_v97) = kHi (V (Proc.devRef .tc main_v94)) := by
  dsimp only [hostOps5]; after_results_simp; rfl
set_option maxHeartbeats 1000000 in
theorem hb1_s : StableHlo.after hostOps6 V (Proc.devRef .tc main_v115) = kScatter (V (Proc.devRef .tc main_v3)) (V (Proc.devRef .tc main_v107)) := by
  dsimp only [hostOps6]; after_results_simp; rfl
set_option maxHeartbeats 1000000 in
theorem hb1_g : StableHlo.after hostOps6 V (Proc.devRef .tc main_v122) = kGather (V (Proc.devRef .tc main_v96)) (V (Proc.devRef .tc main_v3)) := by
  dsimp only [hostOps6]; after_results_simp; rfl
set_option maxHeartbeats 1000000 in
theorem hb1_w : StableHlo.after hostOps6 V (Proc.devRef .tc main_v124) = kWeight (V (Proc.devRef .tc main_v47)) (V (Proc.devRef .tc main_arg11)) := by
  dsimp only [hostOps6]; after_results_simp; rfl
set_option maxHeartbeats 1000000 in
theorem hc1_cat : StableHlo.after hostOps7 V (Proc.devRef .tc main_v134) = kCat (V (Proc.devRef .tc main_v115)) (kScatter (V (Proc.devRef .tc main_v1)) (V (Proc.devRef .tc main_v125))) (V (Proc.devRef .tc main_v97)) := by
  dsimp only [hostOps7]; after_results_simp; rfl
set_option maxHeartbeats 1000000 in
theorem hf2_fuse : StableHlo.after hostOps8 V (Proc.devRef .tc main_v137) = kFuse96 (V (Proc.devRef .tc main_arg12)) (V (Proc.devRef .tc main_arg13)) (V (Proc.devRef .tc main_arg14)) := by
  dsimp only [hostOps8]; after_results_simp; rfl
set_option maxHeartbeats 1000000 in
theorem ha2_g : StableHlo.after hostOps9 V (Proc.devRef .tc main_v148) = kGather (kLo (V (Proc.devRef .tc main_v138))) (V (Proc.devRef .tc main_v1)) := by
  dsimp only [hostOps9]; after_results_simp; rfl
set_option maxHeartbeats 1000000 in
theorem ha2_w : StableHlo.after hostOps9 V (Proc.devRef .tc main_v150) = kWeight (V (Proc.devRef .tc main_v40)) (V (Proc.devRef .tc main_arg15)) := by
  dsimp only [hostOps9]; after_results_simp; rfl
set_option maxHeartbeats 1000000 in
theorem ha2_mid : StableHlo.after hostOps9 V (Proc.devRef .tc main_v140) = kMid (V (Proc.devRef .tc main_v138)) := by
  dsimp only [hostOps9]; after_results_simp; rfl
set_option maxHeartbeats 1000000 in
theorem ha2_hi : StableHlo.after hostOps9 V (Proc.devRef .tc main_v141) = kHi (V (Proc.devRef .tc main_v138)) := by
  dsimp only [hostOps9]; after_results_simp; rfl
set_option maxHeartbeats 1000000 in
theorem hb2_s : StableHlo.after hostOps10 V (Proc.devRef .tc main_v159) = kScatter (V (Proc.devRef .tc main_v3)) (V (Proc.devRef .tc main_v151)) := by
  dsimp only [hostOps10]; after_results_simp; rfl
set_option maxHeartbeats 1000000 in
theorem hb2_g : StableHlo.after hostOps10 V (Proc.devRef .tc main_v166) = kGather (V (Proc.devRef .tc main_v140)) (V (Proc.devRef .tc main_v3)) := by
  dsimp only [hostOps10]; after_results_simp; rfl
set_option maxHeartbeats 1000000 in
theorem hb2_w : StableHlo.after hostOps10 V (Proc.devRef .tc main_v168) = kWeight (V (Proc.devRef .tc main_v47)) (V (Proc.devRef .tc main_arg16)) := by
  dsimp only [hostOps10]; after_results_simp; rfl
set_option maxHeartbeats 1000000 in
theorem hc2_cat : StableHlo.after hostOps11 V (Proc.devRef .tc main_v178) = kCat (V (Proc.devRef .tc main_v159)) (kScatter (V (Proc.devRef .tc main_v1)) (V (Proc.devRef .tc main_v169))) (V (Proc.devRef .tc main_v141)) := by
  dsimp only [hostOps11]; after_results_simp; rfl

/-! ## The last stretch: the two means -/

set_option maxHeartbeats 1000000 in
theorem h12_up : StableHlo.after hostOps12 V (Proc.devRef .tc main_v183) = kMean (V (Proc.devRef .tc main_arg5)) (V (Proc.devRef .tc main_arg10)) (V (Proc.devRef .tc main_arg15)) := by
  dsimp only [hostOps12]; after_results_simp; rfl

set_option maxHeartbeats 1000000 in
theorem h12_down : StableHlo.after hostOps12 V (Proc.devRef .tc main_v187) = kMean (V (Proc.devRef .tc main_arg6)) (V (Proc.devRef .tc main_arg11)) (V (Proc.devRef .tc main_arg16)) := by
  dsimp only [hostOps12]; after_results_simp; rfl

end Cert.KernelIdeal.Run

end
-- ==== Proof.KIRead.lean ====
/- The program's results read back through the fold, item by item: the two rows of the edge array and the gathered
   inverse counts, computed once before the first region; then each layer — the fused weights, the projection region,
   the three column groups, the two propagations (gather, scale in a region, add up) and the normalisation region — as
   the layer function of what the layer starts from; the network's result is the three layers composed, and the two
   means are the last stretch's. -/
import proofs.«107201_j32822140076800_2_alg».proof.Proof.KIFold
import proofs.«107201_j32822140076800_2_alg».proof.Proof.KIReadOps

set_option maxRecDepth 16384

noncomputable section

namespace Cert.KernelIdeal.Run

open Cert.KernelIdeal Cert.KernelIdeal.Gen Cert.KernelIdeal.Reg
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

/-! ## Before the first region -/

theorem P1_v1 (c : Dev nD) : W1 m ρ c (Proc.devRef .tc main_v1) = kRow0 (m ((c : Thread nD τ).loc main_arg1)) := h0_v1 (W0 m ρ c)
theorem P1_v3 (c : Dev nD) : W1 m ρ c (Proc.devRef .tc main_v3) = kRow1 (m ((c : Thread nD τ).loc main_arg1)) := h0_v3 (W0 m ρ c)
theorem P1_v23 (c : Dev nD) : W1 m ρ c (Proc.devRef .tc main_v23) = kDeg (F := F) (kRow0 (m ((c : Thread nD τ).loc main_arg1))) := h0_v23 (W0 m ρ c)
theorem P1_v25 (c : Dev nD) : W1 m ρ c (Proc.devRef .tc main_v25) = kPos (kDeg (F := F) (kRow1 (m ((c : Thread nD τ).loc main_arg1)))) := h0_v25 (W0 m ρ c)
theorem P1_v27 (c : Dev nD) : W1 m ρ c (Proc.devRef .tc main_v27) = kRecip (kDeg (F := F) (kRow1 (m ((c : Thread nD τ).loc main_arg1)))) := h0_v27 (W0 m ρ c)
theorem P1_cst8 (c : Dev nD) : W1 m ρ c (Proc.devRef .tc main_cst_8) = kZero (F := F) := h0_cst8 (W0 m ρ c)
theorem P2_v28 (c : Dev nD) : W2 m ρ c (Proc.devRef .tc main_v28) = kDegInv (F := F) (kRow1 (m ((c : Thread nD τ).loc main_arg1))) := by
  refine (h01_v28 (W1 m ρ c)).trans ?_
  rw [P1_v25 m ρ c,
    P1_v27 m ρ c,
    P1_cst8 m ρ c]
  all_goals rfl

theorem P3_v30 (c : Dev nD) : W3 m ρ c (Proc.devRef .tc main_v30) = kPos (kDeg (F := F) (kRow0 (m ((c : Thread nD τ).loc main_arg1)))) := by
  refine (h02_v30 (W2 m ρ c)).trans ?_
  rw [((W2_keep m ρ c main_v23 (by decide)).trans (P1_v23 m ρ c))]

theorem P3_v32 (c : Dev nD) : W3 m ρ c (Proc.devRef .tc main_v32) = kRecip (kDeg (F := F) (kRow0 (m ((c : Thread nD τ).loc main_arg1)))) := by
  refine (h02_v32 (W2 m ρ c)).trans ?_
  rw [((W2_keep m ρ c main_v23 (by decide)).trans (P1_v23 m ρ c))]

theorem P3_cst11 (c : Dev nD) : W3 m ρ c (Proc.devRef .tc main_cst_11) = kZero (F := F) := h02_cst11 (W2 m ρ c)
theorem P4_v33 (c : Dev nD) : W4 m ρ c (Proc.devRef .tc main_v33) = kDegInv (F := F) (kRow0 (m ((c : Thread nD τ).loc main_arg1))) := by
  refine (h03_v33 (W3 m ρ c)).trans ?_
  rw [P3_v30 m ρ c,
    P3_v32 m ρ c,
    P3_cst11 m ρ c]
  all_goals rfl

theorem P5_v40 (c : Dev nD) : W5 m ρ c (Proc.devRef .tc main_v40) = (kInv (F := F) (kRow1 (m ((c : Thread nD τ).loc main_arg1)))) := by
  refine (h04_v40 (W4 m ρ c)).trans ?_
  rw [(((W4_keep m ρ c main_v28 (by decide)).trans (W3_keep m ρ c main_v28 (by decide))).trans (P2_v28 m ρ c)),
    (((W4_keep m ρ c main_v3 (by decide)).trans ((W3_keep m ρ c main_v3 (by decide)).trans (W2_keep m ρ c main_v3 (by decide)))).trans (P1_v3 m ρ c))]
  all_goals rfl

theorem P5_v47 (c : Dev nD) : W5 m ρ c (Proc.devRef .tc main_v47) = (kInv (F := F) (kRow0 (m ((c : Thread nD τ).loc main_arg1)))) := by
  refine (h04_v47 (W4 m ρ c)).trans ?_
  rw [P4_v33 m ρ c,
    (((W4_keep m ρ c main_v1 (by decide)).trans ((W3_keep m ρ c main_v1 (by decide)).trans (W2_keep m ρ c main_v1 (by decide)))).trans (P1_v1 m ρ c))]
  all_goals rfl

theorem P5_v49 (c : Dev nD) : W5 m ρ c (Proc.devRef .tc main_v49) = kFuse8 (m ((c : Thread nD τ).loc main_arg2)) (m ((c : Thread nD τ).loc main_arg3)) (m ((c : Thread nD τ).loc main_arg4)) := by
  refine (h04_v49 (W4 m ρ c)).trans ?_
  rw [(((W4_keep m ρ c main_arg2 (by decide)).trans ((W3_keep m ρ c main_arg2 (by decide)).trans ((W2_keep m ρ c main_arg2 (by decide)).trans (W1_keep m ρ c main_arg2 (by decide))))).trans (rfl : W0 m ρ c (Proc.devRef .tc main_arg2) = (m ((c : Thread nD τ).loc main_arg2)))),
    (((W4_keep m ρ c main_arg3 (by decide)).trans ((W3_keep m ρ c main_arg3 (by decide)).trans ((W2_keep m ρ c main_arg3 (by decide)).trans (W1_keep m ρ c main_arg3 (by decide))))).trans (rfl : W0 m ρ c (Proc.devRef .tc main_arg3) = (m ((c : Thread nD τ).loc main_arg3)))),
    (((W4_keep m ρ c main_arg4 (by decide)).trans ((W3_keep m ρ c main_arg4 (by decide)).trans ((W2_keep m ρ c main_arg4 (by decide)).trans (W1_keep m ρ c main_arg4 (by decide))))).trans (rfl : W0 m ρ c (Proc.devRef .tc main_arg4) = (m ((c : Thread nD τ).loc main_arg4))))]

/-! ## Layer 1 -/

theorem L0_x (c : Dev nD) : W5 m ρ c (Proc.devRef .tc main_arg0) = (m ((c : Thread nD τ).loc main_arg0)) :=
  (((W5_keep m ρ c main_arg0 (by decide)).trans ((W4_keep m ρ c main_arg0 (by decide)).trans ((W3_keep m ρ c main_arg0 (by decide)).trans ((W2_keep m ρ c main_arg0 (by decide)).trans (W1_keep m ρ c main_arg0 (by decide)))))).trans (rfl : W0 m ρ c (Proc.devRef .tc main_arg0) = (m ((c : Thread nD τ).loc main_arg0))))
theorem L0_p (c : Dev nD) : W6 m ρ c (Proc.devRef .tc main_v50) = arr0 (m ((c : Thread nD τ).loc main_arg0)) (kFuse8 (m ((c : Thread nD τ).loc main_arg2)) (m ((c : Thread nD τ).loc main_arg3)) (m ((c : Thread nD τ).loc main_arg4))) := by
  refine ((W6_arr m ρ c 2).trans (final0 (Vt5 m ρ) c)).trans ?_
  show arr0 (W5 m ρ c (Proc.devRef .tc main_arg0)) (W5 m ρ c (Proc.devRef .tc main_v49)) = _
  rw [L0_x m ρ c,
    P5_v49 m ρ c]
theorem L0_g1 (c : Dev nD) : W7 m ρ c (Proc.devRef .tc main_v60) = (kGather (kLo (arr0 (m ((c : Thread nD τ).loc main_arg0)) (kFuse8 (m ((c : Thread nD τ).loc main_arg2)) (m ((c : Thread nD τ).loc main_arg3)) (m ((c : Thread nD τ).loc main_arg4))))) (kRow0 (m ((c : Thread nD τ).loc main_arg1)))) := by
  refine (ha0_g (W6 m ρ c)).trans ?_
  rw [L0_p m ρ c,
    (((W6_of_ne m ρ c main_v1 (by decide)).trans ((W5_keep m ρ c main_v1 (by decide)).trans ((W4_keep m ρ c main_v1 (by decide)).trans ((W3_keep m ρ c main_v1 (by decide)).trans (W2_keep m ρ c main_v1 (by decide)))))).trans (P1_v1 m ρ c))]
theorem L0_w1 (c : Dev nD) : W7 m ρ c (Proc.devRef .tc main_v62) = (kWeight (kInv (F := F) (kRow1 (m ((c : Thread nD τ).loc main_arg1)))) (m ((c : Thread nD τ).loc main_arg5))) := by
  refine (ha0_w (W6 m ρ c)).trans ?_
  rw [((W6_of_ne m ρ c main_v40 (by decide)).trans (P5_v40 m ρ c)),
    (((W6_of_ne m ρ c main_arg5 (by decide)).trans ((W5_keep m ρ c main_arg5 (by decide)).trans ((W4_keep m ρ c main_arg5 (by decide)).trans ((W3_keep m ρ c main_arg5 (by decide)).trans ((W2_keep m ρ c main_arg5 (by decide)).trans (W1_keep m ρ c main_arg5 (by decide))))))).trans (rfl : W0 m ρ c (Proc.devRef .tc main_arg5) = (m ((c : Thread nD τ).loc main_arg5))))]
theorem L0_mid (c : Dev nD) : W7 m ρ c (Proc.devRef .tc main_v52) = kMid (arr0 (m ((c : Thread nD τ).loc main_arg0)) (kFuse8 (m ((c : Thread nD τ).loc main_arg2)) (m ((c : Thread nD τ).loc main_arg3)) (m ((c : Thread nD τ).loc main_arg4)))) := by
  refine (ha0_mid (W6 m ρ c)).trans ?_
  rw [L0_p m ρ c]
theorem L0_hi (c : Dev nD) : W7 m ρ c (Proc.devRef .tc main_v53) = kHi (arr0 (m ((c : Thread nD τ).loc main_arg0)) (kFuse8 (m ((c : Thread nD τ).loc main_arg2)) (m ((c : Thread nD τ).loc main_arg3)) (m ((c : Thread nD τ).loc main_arg4)))) := by
  refine (ha0_hi (W6 m ρ c)).trans ?_
  rw [L0_p m ρ c]
theorem L0_u (c : Dev nD) : W8 m ρ c (Proc.devRef .tc main_v63) = arr1 (kGather (kLo (arr0 (m ((c : Thread nD τ).loc main_arg0)) (kFuse8 (m ((c : Thread nD τ).loc main_arg2)) (m ((c : Thread nD τ).loc main_arg3)) (m ((c : Thread nD τ).loc main_arg4))))) (kRow0 (m ((c : Thread nD τ).loc main_arg1)))) (kWeight (kInv (F := F) (kRow1 (m ((c : Thread nD τ).loc main_arg1)))) (m ((c : Thread nD τ).loc main_arg5))) := by
  refine ((W8_arr m ρ c 2).trans (final1 (Vt7 m ρ) c)).trans ?_
  show arr1 (W7 m ρ c (Proc.devRef .tc main_v60)) (W7 m ρ c (Proc.devRef .tc main_v62)) = _
  rw [L0_g1 m ρ c,
    L0_w1 m ρ c]
theorem L0_s1 (c : Dev nD) : W9 m ρ c (Proc.devRef .tc main_v71) = (kScatter (kRow1 (m ((c : Thread nD τ).loc main_arg1))) (arr1 (kGather (kLo (arr0 (m ((c : Thread nD τ).loc main_arg0)) (kFuse8 (m ((c : Thread nD τ).loc main_arg2)) (m ((c : Thread nD τ).loc main_arg3)) (m ((c : Thread nD τ).loc main_arg4))))) (kRow0 (m ((c : Thread nD τ).loc main_arg1)))) (kWeight (kInv (F := F) (kRow1 (m ((c : Thread nD τ).loc main_arg1)))) (m ((c : Thread nD τ).loc main_arg5))))) := by
  refine (hb0_s (W8 m ρ c)).trans ?_
  rw [(((W8_of_ne m ρ c main_v3 (by decide)).trans ((W7_keep m ρ c main_v3 (by decide)).trans ((W6_of_ne m ρ c main_v3 (by decide)).trans ((W5_keep m ρ c main_v3 (by decide)).trans ((W4_keep m ρ c main_v3 (by decide)).trans ((W3_keep m ρ c main_v3 (by decide)).trans (W2_keep m ρ c main_v3 (by decide)))))))).trans (P1_v3 m ρ c)),
    L0_u m ρ c]
theorem L0_g2 (c : Dev nD) : W9 m ρ c (Proc.devRef .tc main_v78) = (kGather (kMid (arr0 (m ((c : Thread nD τ).loc main_arg0)) (kFuse8 (m ((c : Thread nD τ).loc main_arg2)) (m ((c : Thread nD τ).loc main_arg3)) (m ((c : Thread nD τ).loc main_arg4))))) (kRow1 (m ((c : Thread nD τ).loc main_arg1)))) := by
  refine (hb0_g (W8 m ρ c)).trans ?_
  rw [((W8_of_ne m ρ c main_v52 (by decide)).trans (L0_mid m ρ c)),
    (((W8_of_ne m ρ c main_v3 (by decide)).trans ((W7_keep m ρ c main_v3 (by decide)).trans ((W6_of_ne m ρ c main_v3 (by decide)).trans ((W5_keep m ρ c main_v3 (by decide)).trans ((W4_keep m ρ c main_v3 (by decide)).trans ((W3_keep m ρ c main_v3 (by decide)).trans (W2_keep m ρ c main_v3 (by decide)))))))).trans (P1_v3 m ρ c))]
theorem L0_w2 (c : Dev nD) : W9 m ρ c (Proc.devRef .tc main_v80) = (kWeight (kInv (F := F) (kRow0 (m ((c : Thread nD τ).loc main_arg1)))) (m ((c : Thread nD τ).loc main_arg6))) := by
  refine (hb0_w (W8 m ρ c)).trans ?_
  rw [(((W8_of_ne m ρ c main_v47 (by decide)).trans ((W7_keep m ρ c main_v47 (by decide)).trans (W6_of_ne m ρ c main_v47 (by decide)))).trans (P5_v47 m ρ c)),
    (((W8_of_ne m ρ c main_arg6 (by decide)).trans ((W7_keep m ρ c main_arg6 (by decide)).trans ((W6_of_ne m ρ c main_arg6 (by decide)).trans ((W5_keep m ρ c main_arg6 (by decide)).trans ((W4_keep m ρ c main_arg6 (by decide)).trans ((W3_keep m ρ c main_arg6 (by decide)).trans ((W2_keep m ρ c main_arg6 (by decide)).trans (W1_keep m ρ c main_arg6 (by decide))))))))).trans (rfl : W0 m ρ c (Proc.devRef .tc main_arg6) = (m ((c : Thread nD τ).loc main_arg6))))]
theorem L0_d (c : Dev nD) : W10 m ρ c (Proc.devRef .tc main_v81) = arr2 (kGather (kMid (arr0 (m ((c : Thread nD τ).loc main_arg0)) (kFuse8 (m ((c : Thread nD τ).loc main_arg2)) (m ((c : Thread nD τ).loc main_arg3)) (m ((c : Thread nD τ).loc main_arg4))))) (kRow1 (m ((c : Thread nD τ).loc main_arg1)))) (kWeight (kInv (F := F) (kRow0 (m ((c : Thread nD τ).loc main_arg1)))) (m ((c : Thread nD τ).loc main_arg6))) := by
  refine ((W10_arr m ρ c 2).trans (final2 (Vt9 m ρ) c)).trans ?_
  show arr2 (W9 m ρ c (Proc.devRef .tc main_v78)) (W9 m ρ c (Proc.devRef .tc main_v80)) = _
  rw [L0_g2 m ρ c,
    L0_w2 m ρ c]
theorem L0_cat (c : Dev nD) : W11 m ρ c (Proc.devRef .tc main_v90) = (kCat (kScatter (kRow1 (m ((c : Thread nD τ).loc main_arg1))) (arr1 (kGather (kLo (arr0 (m ((c : Thread nD τ).loc main_arg0)) (kFuse8 (m ((c : Thread nD τ).loc main_arg2)) (m ((c : Thread nD τ).loc main_arg3)) (m ((c : Thread nD τ).loc main_arg4))))) (kRow0 (m ((c : Thread nD τ).loc main_arg1)))) (kWeight (kInv (F := F) (kRow1 (m ((c : Thread nD τ).loc main_arg1)))) (m ((c : Thread nD τ).loc main_arg5))))) (kScatter (kRow0 (m ((c : Thread nD τ).loc main_arg1))) (arr2 (kGather (kMid (arr0 (m ((c : Thread nD τ).loc main_arg0)) (kFuse8 (m ((c : Thread nD τ).loc main_arg2)) (m ((c : Thread nD τ).loc main_arg3)) (m ((c : Thread nD τ).loc main_arg4))))) (kRow1 (m ((c : Thread nD τ).loc main_arg1)))) (kWeight (kInv (F := F) (kRow0 (m ((c : Thread nD τ).loc main_arg1)))) (m ((c : Thread nD τ).loc main_arg6))))) (kHi (arr0 (m ((c : Thread nD τ).loc main_arg0)) (kFuse8 (m ((c : Thread nD τ).loc main_arg2)) (m ((c : Thread nD τ).loc main_arg3)) (m ((c : Thread nD τ).loc main_arg4)))))) := by
  refine (hc0_cat (W10 m ρ c)).trans ?_
  rw [((W10_of_ne m ρ c main_v71 (by decide)).trans (L0_s1 m ρ c)),
    (((W10_of_ne m ρ c main_v1 (by decide)).trans ((W9_keep m ρ c main_v1 (by decide)).trans ((W8_of_ne m ρ c main_v1 (by decide)).trans ((W7_keep m ρ c main_v1 (by decide)).trans ((W6_of_ne m ρ c main_v1 (by decide)).trans ((W5_keep m ρ c main_v1 (by decide)).trans ((W4_keep m ρ c main_v1 (by decide)).trans ((W3_keep m ρ c main_v1 (by decide)).trans (W2_keep m ρ c main_v1 (by decide)))))))))).trans (P1_v1 m ρ c)),
    L0_d m ρ c,
    (((W10_of_ne m ρ c main_v53 (by decide)).trans ((W9_keep m ρ c main_v53 (by decide)).trans (W8_of_ne m ρ c main_v53 (by decide)))).trans (L0_hi m ρ c))]
theorem L0_out (c : Dev nD) : W12 m ρ c (Proc.devRef .tc main_v91) = kLayerA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W12_arr m ρ c 1).trans (final3 (Vt11 m ρ) c)).trans ?_
  show arr3 (W11 m ρ c (Proc.devRef .tc main_v90)) = _
  rw [L0_cat m ρ c]
  all_goals rfl

/-! ## Layer 2 -/

theorem L1_fuse (c : Dev nD) : W13 m ρ c (Proc.devRef .tc main_v93) = (kFuse96 (m ((c : Thread nD τ).loc main_arg7)) (m ((c : Thread nD τ).loc main_arg8)) (m ((c : Thread nD τ).loc main_arg9))) := by
  refine (hf1_fuse (W12 m ρ c)).trans ?_
  rw [(((W12_of_ne m ρ c main_arg7 (by decide)).trans ((W11_keep m ρ c main_arg7 (by decide)).trans ((W10_of_ne m ρ c main_arg7 (by decide)).trans ((W9_keep m ρ c main_arg7 (by decide)).trans ((W8_of_ne m ρ c main_arg7 (by decide)).trans ((W7_keep m ρ c main_arg7 (by decide)).trans ((W6_of_ne m ρ c main_arg7 (by decide)).trans ((W5_keep m ρ c main_arg7 (by decide)).trans ((W4_keep m ρ c main_arg7 (by decide)).trans ((W3_keep m ρ c main_arg7 (by decide)).trans ((W2_keep m ρ c main_arg7 (by decide)).trans (W1_keep m ρ c main_arg7 (by decide))))))))))))).trans (rfl : W0 m ρ c (Proc.devRef .tc main_arg7) = (m ((c : Thread nD τ).loc main_arg7)))),
    (((W12_of_ne m ρ c main_arg8 (by decide)).trans ((W11_keep m ρ c main_arg8 (by decide)).trans ((W10_of_ne m ρ c main_arg8 (by decide)).trans ((W9_keep m ρ c main_arg8 (by decide)).trans ((W8_of_ne m ρ c main_arg8 (by decide)).trans ((W7_keep m ρ c main_arg8 (by decide)).trans ((W6_of_ne m ρ c main_arg8 (by decide)).trans ((W5_keep m ρ c main_arg8 (by decide)).trans ((W4_keep m ρ c main_arg8 (by decide)).trans ((W3_keep m ρ c main_arg8 (by decide)).trans ((W2_keep m ρ c main_arg8 (by decide)).trans (W1_keep m ρ c main_arg8 (by decide))))))))))))).trans (rfl : W0 m ρ c (Proc.devRef .tc main_arg8) = (m ((c : Thread nD τ).loc main_arg8)))),
    (((W12_of_ne m ρ c main_arg9 (by decide)).trans ((W11_keep m ρ c main_arg9 (by decide)).trans ((W10_of_ne m ρ c main_arg9 (by decide)).trans ((W9_keep m ρ c main_arg9 (by decide)).trans ((W8_of_ne m ρ c main_arg9 (by decide)).trans ((W7_keep m ρ c main_arg9 (by decide)).trans ((W6_of_ne m ρ c main_arg9 (by decide)).trans ((W5_keep m ρ c main_arg9 (by decide)).trans ((W4_keep m ρ c main_arg9 (by decide)).trans ((W3_keep m ρ c main_arg9 (by decide)).trans ((W2_keep m ρ c main_arg9 (by decide)).trans (W1_keep m ρ c main_arg9 (by decide))))))))))))).trans (rfl : W0 m ρ c (Proc.devRef .tc main_arg9) = (m ((c : Thread nD τ).loc main_arg9))))]
theorem L1_x (c : Dev nD) (X : FVec F S50000x96 .f32) (hx : W12 m ρ c (Proc.devRef .tc main_v91) = X) : W13 m ρ c (Proc.devRef .tc main_v91) = X :=
  (W13_keep m ρ c main_v91 (by decide)).trans hx
theorem L1_p (c : Dev nD) (X : FVec F S50000x96 .f32) (hx : W12 m ρ c (Proc.devRef .tc main_v91) = X) : W14 m ρ c (Proc.devRef .tc main_v94) = arr4 X (kFuse96 (m ((c : Thread nD τ).loc main_arg7)) (m ((c : Thread nD τ).loc main_arg8)) (m ((c : Thread nD τ).loc main_arg9))) := by
  refine ((W14_arr m ρ c 2).trans (final4 (Vt13 m ρ) c)).trans ?_
  show arr4 (W13 m ρ c (Proc.devRef .tc main_v91)) (W13 m ρ c (Proc.devRef .tc main_v93)) = _
  rw [L1_x m ρ c X hx,
    L1_fuse m ρ c]
theorem L1_g1 (c : Dev nD) (X : FVec F S50000x96 .f32) (hx : W12 m ρ c (Proc.devRef .tc main_v91) = X) : W15 m ρ c (Proc.devRef .tc main_v104) = (kGather (kLo (arr4 X (kFuse96 (m ((c : Thread nD τ).loc main_arg7)) (m ((c : Thread nD τ).loc main_arg8)) (m ((c : Thread nD τ).loc main_arg9))))) (kRow0 (m ((c : Thread nD τ).loc main_arg1)))) := by
  refine (ha1_g (W14 m ρ c)).trans ?_
  rw [L1_p m ρ c X hx,
    (((W14_of_ne m ρ c main_v1 (by decide)).trans ((W13_keep m ρ c main_v1 (by decide)).trans ((W12_of_ne m ρ c main_v1 (by decide)).trans ((W11_keep m ρ c main_v1 (by decide)).trans ((W10_of_ne m ρ c main_v1 (by decide)).trans ((W9_keep m ρ c main_v1 (by decide)).trans ((W8_of_ne m ρ c main_v1 (by decide)).trans ((W7_keep m ρ c main_v1 (by decide)).trans ((W6_of_ne m ρ c main_v1 (by decide)).trans ((W5_keep m ρ c main_v1 (by decide)).trans ((W4_keep m ρ c main_v1 (by decide)).trans ((W3_keep m ρ c main_v1 (by decide)).trans (W2_keep m ρ c main_v1 (by decide)))))))))))))).trans (P1_v1 m ρ c))]
theorem L1_w1 (c : Dev nD) : W15 m ρ c (Proc.devRef .tc main_v106) = (kWeight (kInv (F := F) (kRow1 (m ((c : Thread nD τ).loc main_arg1)))) (m ((c : Thread nD τ).loc main_arg10))) := by
  refine (ha1_w (W14 m ρ c)).trans ?_
  rw [(((W14_of_ne m ρ c main_v40 (by decide)).trans ((W13_keep m ρ c main_v40 (by decide)).trans ((W12_of_ne m ρ c main_v40 (by decide)).trans ((W11_keep m ρ c main_v40 (by decide)).trans ((W10_of_ne m ρ c main_v40 (by decide)).trans ((W9_keep m ρ c main_v40 (by decide)).trans ((W8_of_ne m ρ c main_v40 (by decide)).trans ((W7_keep m ρ c main_v40 (by decide)).trans (W6_of_ne m ρ c main_v40 (by decide)))))))))).trans (P5_v40 m ρ c)),
    (((W14_of_ne m ρ c main_arg10 (by decide)).trans ((W13_keep m ρ c main_arg10 (by decide)).trans ((W12_of_ne m ρ c main_arg10 (by decide)).trans ((W11_keep m ρ c main_arg10 (by decide)).trans ((W10_of_ne m ρ c main_arg10 (by decide)).trans ((W9_keep m ρ c main_arg10 (by decide)).trans ((W8_of_ne m ρ c main_arg10 (by decide)).trans ((W7_keep m ρ c main_arg10 (by decide)).trans ((W6_of_ne m ρ c main_arg10 (by decide)).trans ((W5_keep m ρ c main_arg10 (by decide)).trans ((W4_keep m ρ c main_arg10 (by decide)).trans ((W3_keep m ρ c main_arg10 (by decide)).trans ((W2_keep m ρ c main_arg10 (by decide)).trans (W1_keep m ρ c main_arg10 (by decide))))))))))))))).trans (rfl : W0 m ρ c (Proc.devRef .tc main_arg10) = (m ((c : Thread nD τ).loc main_arg10))))]
theorem L1_mid (c : Dev nD) (X : FVec F S50000x96 .f32) (hx : W12 m ρ c (Proc.devRef .tc main_v91) = X) : W15 m ρ c (Proc.devRef .tc main_v96) = kMid (arr4 X (kFuse96 (m ((c : Thread nD τ).loc main_arg7)) (m ((c : Thread nD τ).loc main_arg8)) (m ((c : Thread nD τ).loc main_arg9)))) := by
  refine (ha1_mid (W14 m ρ c)).trans ?_
  rw [L1_p m ρ c X hx]
theorem L1_hi (c : Dev nD) (X : FVec F S50000x96 .f32) (hx : W12 m ρ c (Proc.devRef .tc main_v91) = X) : W15 m ρ c (Proc.devRef .tc main_v97) = kHi (arr4 X (kFuse96 (m ((c : Thread nD τ).loc main_arg7)) (m ((c : Thread nD τ).loc main_arg8)) (m ((c : Thread nD τ).loc main_arg9)))) := by
  refine (ha1_hi (W14 m ρ c)).trans ?_
  rw [L1_p m ρ c X hx]
theorem L1_u (c : Dev nD) (X : FVec F S50000x96 .f32) (hx : W12 m ρ c (Proc.devRef .tc main_v91) = X) : W16 m ρ c (Proc.devRef .tc main_v107) = arr5 (kGather (kLo (arr4 X (kFuse96 (m ((c : Thread nD τ).loc main_arg7)) (m ((c : Thread nD τ).loc main_arg8)) (m ((c : Thread nD τ).loc main_arg9))))) (kRow0 (m ((c : Thread nD τ).loc main_arg1)))) (kWeight (kInv (F := F) (kRow1 (m ((c : Thread nD τ).loc main_arg1)))) (m ((c : Thread nD τ).loc main_arg10))) := by
  refine ((W16_arr m ρ c 2).trans (final5 (Vt15 m ρ) c)).trans ?_
  show arr5 (W15 m ρ c (Proc.devRef .tc main_v104)) (W15 m ρ c (Proc.devRef .tc main_v106)) = _
  rw [L1_g1 m ρ c X hx,
    L1_w1 m ρ c]
theorem L1_s1 (c : Dev nD) (X : FVec F S50000x96 .f32) (hx : W12 m ρ c (Proc.devRef .tc main_v91) = X) : W17 m ρ c (Proc.devRef .tc main_v115) = (kScatter (kRow1 (m ((c : Thread nD τ).loc main_arg1))) (arr5 (kGather (kLo (arr4 X (kFuse96 (m ((c : Thread nD τ).loc main_arg7)) (m ((c : Thread nD τ).loc main_arg8)) (m ((c : Thread nD τ).loc main_arg9))))) (kRow0 (m ((c : Thread nD τ).loc main_arg1)))) (kWeight (kInv (F := F) (kRow1 (m ((c : Thread nD τ).loc main_arg1)))) (m ((c : Thread nD τ).loc main_arg10))))) := by
  refine (hb1_s (W16 m ρ c)).trans ?_
  rw [(((W16_of_ne m ρ c main_v3 (by decide)).trans ((W15_keep m ρ c main_v3 (by decide)).trans ((W14_of_ne m ρ c main_v3 (by decide)).trans ((W13_keep m ρ c main_v3 (by decide)).trans ((W12_of_ne m ρ c main_v3 (by decide)).trans ((W11_keep m ρ c main_v3 (by decide)).trans ((W10_of_ne m ρ c main_v3 (by decide)).trans ((W9_keep m ρ c main_v3 (by decide)).trans ((W8_of_ne m ρ c main_v3 (by decide)).trans ((W7_keep m ρ c main_v3 (by decide)).trans ((W6_of_ne m ρ c main_v3 (by decide)).trans ((W5_keep m ρ c main_v3 (by decide)).trans ((W4_keep m ρ c main_v3 (by decide)).trans ((W3_keep m ρ c main_v3 (by decide)).trans (W2_keep m ρ c main_v3 (by decide)))))))))))))))).trans (P1_v3 m ρ c)),
    L1_u m ρ c X hx]
theorem L1_g2 (c : Dev nD) (X : FVec F S50000x96 .f32) (hx : W12 m ρ c (Proc.devRef .tc main_v91) = X) : W17 m ρ c (Proc.devRef .tc main_v122) = (kGather (kMid (arr4 X (kFuse96 (m ((c : Thread nD τ).loc main_arg7)) (m ((c : Thread nD τ).loc main_arg8)) (m ((c : Thread nD τ).loc main_arg9))))) (kRow1 (m ((c : Thread nD τ).loc main_arg1)))) := by
  refine (hb1_g (W16 m ρ c)).trans ?_
  rw [((W16_of_ne m ρ c main_v96 (by decide)).trans (L1_mid m ρ c X hx)),
    (((W16_of_ne m ρ c main_v3 (by decide)).trans ((W15_keep m ρ c main_v3 (by decide)).trans ((W14_of_ne m ρ c main_v3 (by decide)).trans ((W13_keep m ρ c main_v3 (by decide)).trans ((W12_of_ne m ρ c main_v3 (by decide)).trans ((W11_keep m ρ c main_v3 (by decide)).trans ((W10_of_ne m ρ c main_v3 (by decide)).trans ((W9_keep m ρ c main_v3 (by decide)).trans ((W8_of_ne m ρ c main_v3 (by decide)).trans ((W7_keep m ρ c main_v3 (by decide)).trans ((W6_of_ne m ρ c main_v3 (by decide)).trans ((W5_keep m ρ c main_v3 (by decide)).trans ((W4_keep m ρ c main_v3 (by decide)).trans ((W3_keep m ρ c main_v3 (by decide)).trans (W2_keep m ρ c main_v3 (by decide)))))))))))))))).trans (P1_v3 m ρ c))]
theorem L1_w2 (c : Dev nD) : W17 m ρ c (Proc.devRef .tc main_v124) = (kWeight (kInv (F := F) (kRow0 (m ((c : Thread nD τ).loc main_arg1)))) (m ((c : Thread nD τ).loc main_arg11))) := by
  refine (hb1_w (W16 m ρ c)).trans ?_
  rw [(((W16_of_ne m ρ c main_v47 (by decide)).trans ((W15_keep m ρ c main_v47 (by decide)).trans ((W14_of_ne m ρ c main_v47 (by decide)).trans ((W13_keep m ρ c main_v47 (by decide)).trans ((W12_of_ne m ρ c main_v47 (by decide)).trans ((W11_keep m ρ c main_v47 (by decide)).trans ((W10_of_ne m ρ c main_v47 (by decide)).trans ((W9_keep m ρ c main_v47 (by decide)).trans ((W8_of_ne m ρ c main_v47 (by decide)).trans ((W7_keep m ρ c main_v47 (by decide)).trans (W6_of_ne m ρ c main_v47 (by decide)))))))))))).trans (P5_v47 m ρ c)),
    (((W16_of_ne m ρ c main_arg11 (by decide)).trans ((W15_keep m ρ c main_arg11 (by decide)).trans ((W14_of_ne m ρ c main_arg11 (by decide)).trans ((W13_keep m ρ c main_arg11 (by decide)).trans ((W12_of_ne m ρ c main_arg11 (by decide)).trans ((W11_keep m ρ c main_arg11 (by decide)).trans ((W10_of_ne m ρ c main_arg11 (by decide)).trans ((W9_keep m ρ c main_arg11 (by decide)).trans ((W8_of_ne m ρ c main_arg11 (by decide)).trans ((W7_keep m ρ c main_arg11 (by decide)).trans ((W6_of_ne m ρ c main_arg11 (by decide)).trans ((W5_keep m ρ c main_arg11 (by decide)).trans ((W4_keep m ρ c main_arg11 (by decide)).trans ((W3_keep m ρ c main_arg11 (by decide)).trans ((W2_keep m ρ c main_arg11 (by decide)).trans (W1_keep m ρ c main_arg11 (by decide))))))))))))))))).trans (rfl : W0 m ρ c (Proc.devRef .tc main_arg11) = (m ((c : Thread nD τ).loc main_arg11))))]
theorem L1_d (c : Dev nD) (X : FVec F S50000x96 .f32) (hx : W12 m ρ c (Proc.devRef .tc main_v91) = X) : W18 m ρ c (Proc.devRef .tc main_v125) = arr6 (kGather (kMid (arr4 X (kFuse96 (m ((c : Thread nD τ).loc main_arg7)) (m ((c : Thread nD τ).loc main_arg8)) (m ((c : Thread nD τ).loc main_arg9))))) (kRow1 (m ((c : Thread nD τ).loc main_arg1)))) (kWeight (kInv (F := F) (kRow0 (m ((c : Thread nD τ).loc main_arg1)))) (m ((c : Thread nD τ).loc main_arg11))) := by
  refine ((W18_arr m ρ c 2).trans (final6 (Vt17 m ρ) c)).trans ?_
  show arr6 (W17 m ρ c (Proc.devRef .tc main_v122)) (W17 m ρ c (Proc.devRef .tc main_v124)) = _
  rw [L1_g2 m ρ c X hx,
    L1_w2 m ρ c]
theorem L1_cat (c : Dev nD) (X : FVec F S50000x96 .f32) (hx : W12 m ρ c (Proc.devRef .tc main_v91) = X) : W19 m ρ c (Proc.devRef .tc main_v134) = (kCat (kScatter (kRow1 (m ((c : Thread nD τ).loc main_arg1))) (arr5 (kGather (kLo (arr4 X (kFuse96 (m ((c : Thread nD τ).loc main_arg7)) (m ((c : Thread nD τ).loc main_arg8)) (m ((c : Thread nD τ).loc main_arg9))))) (kRow0 (m ((c : Thread nD τ).loc main_arg1)))) (kWeight (kInv (F := F) (kRow1 (m ((c : Thread nD τ).loc main_arg1)))) (m ((c : Thread nD τ).loc main_arg10))))) (kScatter (kRow0 (m ((c : Thread nD τ).loc main_arg1))) (arr6 (kGather (kMid (arr4 X (kFuse96 (m ((c : Thread nD τ).loc main_arg7)) (m ((c : Thread nD τ).loc main_arg8)) (m ((c : Thread nD τ).loc main_arg9))))) (kRow1 (m ((c : Thread nD τ).loc main_arg1)))) (kWeight (kInv (F := F) (kRow0 (m ((c : Thread nD τ).loc main_arg1)))) (m ((c : Thread nD τ).loc main_arg11))))) (kHi (arr4 X (kFuse96 (m ((c : Thread nD τ).loc main_arg7)) (m ((c : Thread nD τ).loc main_arg8)) (m ((c : Thread nD τ).loc main_arg9)))))) := by
  refine (hc1_cat (W18 m ρ c)).trans ?_
  rw [((W18_of_ne m ρ c main_v115 (by decide)).trans (L1_s1 m ρ c X hx)),
    (((W18_of_ne m ρ c main_v1 (by decide)).trans ((W17_keep m ρ c main_v1 (by decide)).trans ((W16_of_ne m ρ c main_v1 (by decide)).trans ((W15_keep m ρ c main_v1 (by decide)).trans ((W14_of_ne m ρ c main_v1 (by decide)).trans ((W13_keep m ρ c main_v1 (by decide)).trans ((W12_of_ne m ρ c main_v1 (by decide)).trans ((W11_keep m ρ c main_v1 (by decide)).trans ((W10_of_ne m ρ c main_v1 (by decide)).trans ((W9_keep m ρ c main_v1 (by decide)).trans ((W8_of_ne m ρ c main_v1 (by decide)).trans ((W7_keep m ρ c main_v1 (by decide)).trans ((W6_of_ne m ρ c main_v1 (by decide)).trans ((W5_keep m ρ c main_v1 (by decide)).trans ((W4_keep m ρ c main_v1 (by decide)).trans ((W3_keep m ρ c main_v1 (by decide)).trans (W2_keep m ρ c main_v1 (by decide)))))))))))))))))).trans (P1_v1 m ρ c)),
    L1_d m ρ c X hx,
    (((W18_of_ne m ρ c main_v97 (by decide)).trans ((W17_keep m ρ c main_v97 (by decide)).trans (W16_of_ne m ρ c main_v97 (by decide)))).trans (L1_hi m ρ c X hx))]
theorem L1_out (c : Dev nD) (X : FVec F S50000x96 .f32) (hx : W12 m ρ c (Proc.devRef .tc main_v91) = X) : W20 m ρ c (Proc.devRef .tc main_v135) = kLayerB X (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11)) := by
  refine ((W20_arr m ρ c 1).trans (final7 (Vt19 m ρ) c)).trans ?_
  show arr7 (W19 m ρ c (Proc.devRef .tc main_v134)) = _
  rw [L1_cat m ρ c X hx]
  all_goals rfl

/-! ## Layer 3 -/

theorem L2_fuse (c : Dev nD) : W21 m ρ c (Proc.devRef .tc main_v137) = (kFuse96 (m ((c : Thread nD τ).loc main_arg12)) (m ((c : Thread nD τ).loc main_arg13)) (m ((c : Thread nD τ).loc main_arg14))) := by
  refine (hf2_fuse (W20 m ρ c)).trans ?_
  rw [(((W20_of_ne m ρ c main_arg12 (by decide)).trans ((W19_keep m ρ c main_arg12 (by decide)).trans ((W18_of_ne m ρ c main_arg12 (by decide)).trans ((W17_keep m ρ c main_arg12 (by decide)).trans ((W16_of_ne m ρ c main_arg12 (by decide)).trans ((W15_keep m ρ c main_arg12 (by decide)).trans ((W14_of_ne m ρ c main_arg12 (by decide)).trans ((W13_keep m ρ c main_arg12 (by decide)).trans ((W12_of_ne m ρ c main_arg12 (by decide)).trans ((W11_keep m ρ c main_arg12 (by decide)).trans ((W10_of_ne m ρ c main_arg12 (by decide)).trans ((W9_keep m ρ c main_arg12 (by decide)).trans ((W8_of_ne m ρ c main_arg12 (by decide)).trans ((W7_keep m ρ c main_arg12 (by decide)).trans ((W6_of_ne m ρ c main_arg12 (by decide)).trans ((W5_keep m ρ c main_arg12 (by decide)).trans ((W4_keep m ρ c main_arg12 (by decide)).trans ((W3_keep m ρ c main_arg12 (by decide)).trans ((W2_keep m ρ c main_arg12 (by decide)).trans (W1_keep m ρ c main_arg12 (by decide))))))))))))))))))))).trans (rfl : W0 m ρ c (Proc.devRef .tc main_arg12) = (m ((c : Thread nD τ).loc main_arg12)))),
    (((W20_of_ne m ρ c main_arg13 (by decide)).trans ((W19_keep m ρ c main_arg13 (by decide)).trans ((W18_of_ne m ρ c main_arg13 (by decide)).trans ((W17_keep m ρ c main_arg13 (by decide)).trans ((W16_of_ne m ρ c main_arg13 (by decide)).trans ((W15_keep m ρ c main_arg13 (by decide)).trans ((W14_of_ne m ρ c main_arg13 (by decide)).trans ((W13_keep m ρ c main_arg13 (by decide)).trans ((W12_of_ne m ρ c main_arg13 (by decide)).trans ((W11_keep m ρ c main_arg13 (by decide)).trans ((W10_of_ne m ρ c main_arg13 (by decide)).trans ((W9_keep m ρ c main_arg13 (by decide)).trans ((W8_of_ne m ρ c main_arg13 (by decide)).trans ((W7_keep m ρ c main_arg13 (by decide)).trans ((W6_of_ne m ρ c main_arg13 (by decide)).trans ((W5_keep m ρ c main_arg13 (by decide)).trans ((W4_keep m ρ c main_arg13 (by decide)).trans ((W3_keep m ρ c main_arg13 (by decide)).trans ((W2_keep m ρ c main_arg13 (by decide)).trans (W1_keep m ρ c main_arg13 (by decide))))))))))))))))))))).trans (rfl : W0 m ρ c (Proc.devRef .tc main_arg13) = (m ((c : Thread nD τ).loc main_arg13)))),
    (((W20_of_ne m ρ c main_arg14 (by decide)).trans ((W19_keep m ρ c main_arg14 (by decide)).trans ((W18_of_ne m ρ c main_arg14 (by decide)).trans ((W17_keep m ρ c main_arg14 (by decide)).trans ((W16_of_ne m ρ c main_arg14 (by decide)).trans ((W15_keep m ρ c main_arg14 (by decide)).trans ((W14_of_ne m ρ c main_arg14 (by decide)).trans ((W13_keep m ρ c main_arg14 (by decide)).trans ((W12_of_ne m ρ c main_arg14 (by decide)).trans ((W11_keep m ρ c main_arg14 (by decide)).trans ((W10_of_ne m ρ c main_arg14 (by decide)).trans ((W9_keep m ρ c main_arg14 (by decide)).trans ((W8_of_ne m ρ c main_arg14 (by decide)).trans ((W7_keep m ρ c main_arg14 (by decide)).trans ((W6_of_ne m ρ c main_arg14 (by decide)).trans ((W5_keep m ρ c main_arg14 (by decide)).trans ((W4_keep m ρ c main_arg14 (by decide)).trans ((W3_keep m ρ c main_arg14 (by decide)).trans ((W2_keep m ρ c main_arg14 (by decide)).trans (W1_keep m ρ c main_arg14 (by decide))))))))))))))))))))).trans (rfl : W0 m ρ c (Proc.devRef .tc main_arg14) = (m ((c : Thread nD τ).loc main_arg14))))]
theorem L2_x (c : Dev nD) (X : FVec F S50000x96 .f32) (hx : W20 m ρ c (Proc.devRef .tc main_v135) = X) : W21 m ρ c (Proc.devRef .tc main_v135) = X :=
  (W21_keep m ρ c main_v135 (by decide)).trans hx
theorem L2_p (c : Dev nD) (X : FVec F S50000x96 .f32) (hx : W20 m ρ c (Proc.devRef .tc main_v135) = X) : W22 m ρ c (Proc.devRef .tc main_v138) = arr8 X (kFuse96 (m ((c : Thread nD τ).loc main_arg12)) (m ((c : Thread nD τ).loc main_arg13)) (m ((c : Thread nD τ).loc main_arg14))) := by
  refine ((W22_arr m ρ c 2).trans (final8 (Vt21 m ρ) c)).trans ?_
  show arr8 (W21 m ρ c (Proc.devRef .tc main_v135)) (W21 m ρ c (Proc.devRef .tc main_v137)) = _
  rw [L2_x m ρ c X hx,
    L2_fuse m ρ c]
theorem L2_g1 (c : Dev nD) (X : FVec F S50000x96 .f32) (hx : W20 m ρ c (Proc.devRef .tc main_v135) = X) : W23 m ρ c (Proc.devRef .tc main_v148) = (kGather (kLo (arr8 X (kFuse96 (m ((c : Thread nD τ).loc main_arg12)) (m ((c : Thread nD τ).loc main_arg13)) (m ((c : Thread nD τ).loc main_arg14))))) (kRow0 (m ((c : Thread nD τ).loc main_arg1)))) := by
  refine (ha2_g (W22 m ρ c)).trans ?_
  rw [L2_p m ρ c X hx,
    (((W22_of_ne m ρ c main_v1 (by decide)).trans ((W21_keep m ρ c main_v1 (by decide)).trans ((W20_of_ne m ρ c main_v1 (by decide)).trans ((W19_keep m ρ c main_v1 (by decide)).trans ((W18_of_ne m ρ c main_v1 (by decide)).trans ((W17_keep m ρ c main_v1 (by decide)).trans ((W16_of_ne m ρ c main_v1 (by decide)).trans ((W15_keep m ρ c main_v1 (by decide)).trans ((W14_of_ne m ρ c main_v1 (by decide)).trans ((W13_keep m ρ c main_v1 (by decide)).trans ((W12_of_ne m ρ c main_v1 (by decide)).trans ((W11_keep m ρ c main_v1 (by decide)).trans ((W10_of_ne m ρ c main_v1 (by decide)).trans ((W9_keep m ρ c main_v1 (by decide)).trans ((W8_of_ne m ρ c main_v1 (by decide)).trans ((W7_keep m ρ c main_v1 (by decide)).trans ((W6_of_ne m ρ c main_v1 (by decide)).trans ((W5_keep m ρ c main_v1 (by decide)).trans ((W4_keep m ρ c main_v1 (by decide)).trans ((W3_keep m ρ c main_v1 (by decide)).trans (W2_keep m ρ c main_v1 (by decide)))))))))))))))))))))).trans (P1_v1 m ρ c))]
theorem L2_w1 (c : Dev nD) : W23 m ρ c (Proc.devRef .tc main_v150) = (kWeight (kInv (F := F) (kRow1 (m ((c : Thread nD τ).loc main_arg1)))) (m ((c : Thread nD τ).loc main_arg15))) := by
  refine (ha2_w (W22 m ρ c)).trans ?_
  rw [(((W22_of_ne m ρ c main_v40 (by decide)).trans ((W21_keep m ρ c main_v40 (by decide)).trans ((W20_of_ne m ρ c main_v40 (by decide)).trans ((W19_keep m ρ c main_v40 (by decide)).trans ((W18_of_ne m ρ c main_v40 (by decide)).trans ((W17_keep m ρ c main_v40 (by decide)).trans ((W16_of_ne m ρ c main_v40 (by decide)).trans ((W15_keep m ρ c main_v40 (by decide)).trans ((W14_of_ne m ρ c main_v40 (by decide)).trans ((W13_keep m ρ c main_v40 (by decide)).trans ((W12_of_ne m ρ c main_v40 (by decide)).trans ((W11_keep m ρ c main_v40 (by decide)).trans ((W10_of_ne m ρ c main_v40 (by decide)).trans ((W9_keep m ρ c main_v40 (by decide)).trans ((W8_of_ne m ρ c main_v40 (by decide)).trans ((W7_keep m ρ c main_v40 (by decide)).trans (W6_of_ne m ρ c main_v40 (by decide)))))))))))))))))).trans (P5_v40 m ρ c)),
    (((W22_of_ne m ρ c main_arg15 (by decide)).trans ((W21_keep m ρ c main_arg15 (by decide)).trans ((W20_of_ne m ρ c main_arg15 (by decide)).trans ((W19_keep m ρ c main_arg15 (by decide)).trans ((W18_of_ne m ρ c main_arg15 (by decide)).trans ((W17_keep m ρ c main_arg15 (by decide)).trans ((W16_of_ne m ρ c main_arg15 (by decide)).trans ((W15_keep m ρ c main_arg15 (by decide)).trans ((W14_of_ne m ρ c main_arg15 (by decide)).trans ((W13_keep m ρ c main_arg15 (by decide)).trans ((W12_of_ne m ρ c main_arg15 (by decide)).trans ((W11_keep m ρ c main_arg15 (by decide)).trans ((W10_of_ne m ρ c main_arg15 (by decide)).trans ((W9_keep m ρ c main_arg15 (by decide)).trans ((W8_of_ne m ρ c main_arg15 (by decide)).trans ((W7_keep m ρ c main_arg15 (by decide)).trans ((W6_of_ne m ρ c main_arg15 (by decide)).trans ((W5_keep m ρ c main_arg15 (by decide)).trans ((W4_keep m ρ c main_arg15 (by decide)).trans ((W3_keep m ρ c main_arg15 (by decide)).trans ((W2_keep m ρ c main_arg15 (by decide)).trans (W1_keep m ρ c main_arg15 (by decide))))))))))))))))))))))).trans (rfl : W0 m ρ c (Proc.devRef .tc main_arg15) = (m ((c : Thread nD τ).loc main_arg15))))]
theorem L2_mid (c : Dev nD) (X : FVec F S50000x96 .f32) (hx : W20 m ρ c (Proc.devRef .tc main_v135) = X) : W23 m ρ c (Proc.devRef .tc main_v140) = kMid (arr8 X (kFuse96 (m ((c : Thread nD τ).loc main_arg12)) (m ((c : Thread nD τ).loc main_arg13)) (m ((c : Thread nD τ).loc main_arg14)))) := by
  refine (ha2_mid (W22 m ρ c)).trans ?_
  rw [L2_p m ρ c X hx]
theorem L2_hi (c : Dev nD) (X : FVec F S50000x96 .f32) (hx : W20 m ρ c (Proc.devRef .tc main_v135) = X) : W23 m ρ c (Proc.devRef .tc main_v141) = kHi (arr8 X (kFuse96 (m ((c : Thread nD τ).loc main_arg12)) (m ((c : Thread nD τ).loc main_arg13)) (m ((c : Thread nD τ).loc main_arg14)))) := by
  refine (ha2_hi (W22 m ρ c)).trans ?_
  rw [L2_p m ρ c X hx]
theorem L2_u (c : Dev nD) (X : FVec F S50000x96 .f32) (hx : W20 m ρ c (Proc.devRef .tc main_v135) = X) : W24 m ρ c (Proc.devRef .tc main_v151) = arr9 (kGather (kLo (arr8 X (kFuse96 (m ((c : Thread nD τ).loc main_arg12)) (m ((c : Thread nD τ).loc main_arg13)) (m ((c : Thread nD τ).loc main_arg14))))) (kRow0 (m ((c : Thread nD τ).loc main_arg1)))) (kWeight (kInv (F := F) (kRow1 (m ((c : Thread nD τ).loc main_arg1)))) (m ((c : Thread nD τ).loc main_arg15))) := by
  refine ((W24_arr m ρ c 2).trans (final9 (Vt23 m ρ) c)).trans ?_
  show arr9 (W23 m ρ c (Proc.devRef .tc main_v148)) (W23 m ρ c (Proc.devRef .tc main_v150)) = _
  rw [L2_g1 m ρ c X hx,
    L2_w1 m ρ c]
theorem L2_s1 (c : Dev nD) (X : FVec F S50000x96 .f32) (hx : W20 m ρ c (Proc.devRef .tc main_v135) = X) : W25 m ρ c (Proc.devRef .tc main_v159) = (kScatter (kRow1 (m ((c : Thread nD τ).loc main_arg1))) (arr9 (kGather (kLo (arr8 X (kFuse96 (m ((c : Thread nD τ).loc main_arg12)) (m ((c : Thread nD τ).loc main_arg13)) (m ((c : Thread nD τ).loc main_arg14))))) (kRow0 (m ((c : Thread nD τ).loc main_arg1)))) (kWeight (kInv (F := F) (kRow1 (m ((c : Thread nD τ).loc main_arg1)))) (m ((c : Thread nD τ).loc main_arg15))))) := by
  refine (hb2_s (W24 m ρ c)).trans ?_
  rw [(((W24_of_ne m ρ c main_v3 (by decide)).trans ((W23_keep m ρ c main_v3 (by decide)).trans ((W22_of_ne m ρ c main_v3 (by decide)).trans ((W21_keep m ρ c main_v3 (by decide)).trans ((W20_of_ne m ρ c main_v3 (by decide)).trans ((W19_keep m ρ c main_v3 (by decide)).trans ((W18_of_ne m ρ c main_v3 (by decide)).trans ((W17_keep m ρ c main_v3 (by decide)).trans ((W16_of_ne m ρ c main_v3 (by decide)).trans ((W15_keep m ρ c main_v3 (by decide)).trans ((W14_of_ne m ρ c main_v3 (by decide)).trans ((W13_keep m ρ c main_v3 (by decide)).trans ((W12_of_ne m ρ c main_v3 (by decide)).trans ((W11_keep m ρ c main_v3 (by decide)).trans ((W10_of_ne m ρ c main_v3 (by decide)).trans ((W9_keep m ρ c main_v3 (by decide)).trans ((W8_of_ne m ρ c main_v3 (by decide)).trans ((W7_keep m ρ c main_v3 (by decide)).trans ((W6_of_ne m ρ c main_v3 (by decide)).trans ((W5_keep m ρ c main_v3 (by decide)).trans ((W4_keep m ρ c main_v3 (by decide)).trans ((W3_keep m ρ c main_v3 (by decide)).trans (W2_keep m ρ c main_v3 (by decide)))))))))))))))))))))))).trans (P1_v3 m ρ c)),
    L2_u m ρ c X hx]
theorem L2_g2 (c : Dev nD) (X : FVec F S50000x96 .f32) (hx : W20 m ρ c (Proc.devRef .tc main_v135) = X) : W25 m ρ c (Proc.devRef .tc main_v166) = (kGather (kMid (arr8 X (kFuse96 (m ((c : Thread nD τ).loc main_arg12)) (m ((c : Thread nD τ).loc main_arg13)) (m ((c : Thread nD τ).loc main_arg14))))) (kRow1 (m ((c : Thread nD τ).loc main_arg1)))) := by
  refine (hb2_g (W24 m ρ c)).trans ?_
  rw [((W24_of_ne m ρ c main_v140 (by decide)).trans (L2_mid m ρ c X hx)),
    (((W24_of_ne m ρ c main_v3 (by decide)).trans ((W23_keep m ρ c main_v3 (by decide)).trans ((W22_of_ne m ρ c main_v3 (by decide)).trans ((W21_keep m ρ c main_v3 (by decide)).trans ((W20_of_ne m ρ c main_v3 (by decide)).trans ((W19_keep m ρ c main_v3 (by decide)).trans ((W18_of_ne m ρ c main_v3 (by decide)).trans ((W17_keep m ρ c main_v3 (by decide)).trans ((W16_of_ne m ρ c main_v3 (by decide)).trans ((W15_keep m ρ c main_v3 (by decide)).trans ((W14_of_ne m ρ c main_v3 (by decide)).trans ((W13_keep m ρ c main_v3 (by decide)).trans ((W12_of_ne m ρ c main_v3 (by decide)).trans ((W11_keep m ρ c main_v3 (by decide)).trans ((W10_of_ne m ρ c main_v3 (by decide)).trans ((W9_keep m ρ c main_v3 (by decide)).trans ((W8_of_ne m ρ c main_v3 (by decide)).trans ((W7_keep m ρ c main_v3 (by decide)).trans ((W6_of_ne m ρ c main_v3 (by decide)).trans ((W5_keep m ρ c main_v3 (by decide)).trans ((W4_keep m ρ c main_v3 (by decide)).trans ((W3_keep m ρ c main_v3 (by decide)).trans (W2_keep m ρ c main_v3 (by decide)))))))))))))))))))))))).trans (P1_v3 m ρ c))]
theorem L2_w2 (c : Dev nD) : W25 m ρ c (Proc.devRef .tc main_v168) = (kWeight (kInv (F := F) (kRow0 (m ((c : Thread nD τ).loc main_arg1)))) (m ((c : Thread nD τ).loc main_arg16))) := by
  refine (hb2_w (W24 m ρ c)).trans ?_
  rw [(((W24_of_ne m ρ c main_v47 (by decide)).trans ((W23_keep m ρ c main_v47 (by decide)).trans ((W22_of_ne m ρ c main_v47 (by decide)).trans ((W21_keep m ρ c main_v47 (by decide)).trans ((W20_of_ne m ρ c main_v47 (by decide)).trans ((W19_keep m ρ c main_v47 (by decide)).trans ((W18_of_ne m ρ c main_v47 (by decide)).trans ((W17_keep m ρ c main_v47 (by decide)).trans ((W16_of_ne m ρ c main_v47 (by decide)).trans ((W15_keep m ρ c main_v47 (by decide)).trans ((W14_of_ne m ρ c main_v47 (by decide)).trans ((W13_keep m ρ c main_v47 (by decide)).trans ((W12_of_ne m ρ c main_v47 (by decide)).trans ((W11_keep m ρ c main_v47 (by decide)).trans ((W10_of_ne m ρ c main_v47 (by decide)).trans ((W9_keep m ρ c main_v47 (by decide)).trans ((W8_of_ne m ρ c main_v47 (by decide)).trans ((W7_keep m ρ c main_v47 (by decide)).trans (W6_of_ne m ρ c main_v47 (by decide)))))))))))))))))))).trans (P5_v47 m ρ c)),
    (((W24_of_ne m ρ c main_arg16 (by decide)).trans ((W23_keep m ρ c main_arg16 (by decide)).trans ((W22_of_ne m ρ c main_arg16 (by decide)).trans ((W21_keep m ρ c main_arg16 (by decide)).trans ((W20_of_ne m ρ c main_arg16 (by decide)).trans ((W19_keep m ρ c main_arg16 (by decide)).trans ((W18_of_ne m ρ c main_arg16 (by decide)).trans ((W17_keep m ρ c main_arg16 (by decide)).trans ((W16_of_ne m ρ c main_arg16 (by decide)).trans ((W15_keep m ρ c main_arg16 (by decide)).trans ((W14_of_ne m ρ c main_arg16 (by decide)).trans ((W13_keep m ρ c main_arg16 (by decide)).trans ((W12_of_ne m ρ c main_arg16 (by decide)).trans ((W11_keep m ρ c main_arg16 (by decide)).trans ((W10_of_ne m ρ c main_arg16 (by decide)).trans ((W9_keep m ρ c main_arg16 (by decide)).trans ((W8_of_ne m ρ c main_arg16 (by decide)).trans ((W7_keep m ρ c main_arg16 (by decide)).trans ((W6_of_ne m ρ c main_arg16 (by decide)).trans ((W5_keep m ρ c main_arg16 (by decide)).trans ((W4_keep m ρ c main_arg16 (by decide)).trans ((W3_keep m ρ c main_arg16 (by decide)).trans ((W2_keep m ρ c main_arg16 (by decide)).trans (W1_keep m ρ c main_arg16 (by decide))))))))))))))))))))))))).trans (rfl : W0 m ρ c (Proc.devRef .tc main_arg16) = (m ((c : Thread nD τ).loc main_arg16))))]
theorem L2_d (c : Dev nD) (X : FVec F S50000x96 .f32) (hx : W20 m ρ c (Proc.devRef .tc main_v135) = X) : W26 m ρ c (Proc.devRef .tc main_v169) = arr10 (kGather (kMid (arr8 X (kFuse96 (m ((c : Thread nD τ).loc main_arg12)) (m ((c : Thread nD τ).loc main_arg13)) (m ((c : Thread nD τ).loc main_arg14))))) (kRow1 (m ((c : Thread nD τ).loc main_arg1)))) (kWeight (kInv (F := F) (kRow0 (m ((c : Thread nD τ).loc main_arg1)))) (m ((c : Thread nD τ).loc main_arg16))) := by
  refine ((W26_arr m ρ c 2).trans (final10 (Vt25 m ρ) c)).trans ?_
  show arr10 (W25 m ρ c (Proc.devRef .tc main_v166)) (W25 m ρ c (Proc.devRef .tc main_v168)) = _
  rw [L2_g2 m ρ c X hx,
    L2_w2 m ρ c]
theorem L2_cat (c : Dev nD) (X : FVec F S50000x96 .f32) (hx : W20 m ρ c (Proc.devRef .tc main_v135) = X) : W27 m ρ c (Proc.devRef .tc main_v178) = (kCat (kScatter (kRow1 (m ((c : Thread nD τ).loc main_arg1))) (arr9 (kGather (kLo (arr8 X (kFuse96 (m ((c : Thread nD τ).loc main_arg12)) (m ((c : Thread nD τ).loc main_arg13)) (m ((c : Thread nD τ).loc main_arg14))))) (kRow0 (m ((c : Thread nD τ).loc main_arg1)))) (kWeight (kInv (F := F) (kRow1 (m ((c : Thread nD τ).loc main_arg1)))) (m ((c : Thread nD τ).loc main_arg15))))) (kScatter (kRow0 (m ((c : Thread nD τ).loc main_arg1))) (arr10 (kGather (kMid (arr8 X (kFuse96 (m ((c : Thread nD τ).loc main_arg12)) (m ((c : Thread nD τ).loc main_arg13)) (m ((c : Thread nD τ).loc main_arg14))))) (kRow1 (m ((c : Thread nD τ).loc main_arg1)))) (kWeight (kInv (F := F) (kRow0 (m ((c : Thread nD τ).loc main_arg1)))) (m ((c : Thread nD τ).loc main_arg16))))) (kHi (arr8 X (kFuse96 (m ((c : Thread nD τ).loc main_arg12)) (m ((c : Thread nD τ).loc main_arg13)) (m ((c : Thread nD τ).loc main_arg14)))))) := by
  refine (hc2_cat (W26 m ρ c)).trans ?_
  rw [((W26_of_ne m ρ c main_v159 (by decide)).trans (L2_s1 m ρ c X hx)),
    (((W26_of_ne m ρ c main_v1 (by decide)).trans ((W25_keep m ρ c main_v1 (by decide)).trans ((W24_of_ne m ρ c main_v1 (by decide)).trans ((W23_keep m ρ c main_v1 (by decide)).trans ((W22_of_ne m ρ c main_v1 (by decide)).trans ((W21_keep m ρ c main_v1 (by decide)).trans ((W20_of_ne m ρ c main_v1 (by decide)).trans ((W19_keep m ρ c main_v1 (by decide)).trans ((W18_of_ne m ρ c main_v1 (by decide)).trans ((W17_keep m ρ c main_v1 (by decide)).trans ((W16_of_ne m ρ c main_v1 (by decide)).trans ((W15_keep m ρ c main_v1 (by decide)).trans ((W14_of_ne m ρ c main_v1 (by decide)).trans ((W13_keep m ρ c main_v1 (by decide)).trans ((W12_of_ne m ρ c main_v1 (by decide)).trans ((W11_keep m ρ c main_v1 (by decide)).trans ((W10_of_ne m ρ c main_v1 (by decide)).trans ((W9_keep m ρ c main_v1 (by decide)).trans ((W8_of_ne m ρ c main_v1 (by decide)).trans ((W7_keep m ρ c main_v1 (by decide)).trans ((W6_of_ne m ρ c main_v1 (by decide)).trans ((W5_keep m ρ c main_v1 (by decide)).trans ((W4_keep m ρ c main_v1 (by decide)).trans ((W3_keep m ρ c main_v1 (by decide)).trans (W2_keep m ρ c main_v1 (by decide)))))))))))))))))))))))))).trans (P1_v1 m ρ c)),
    L2_d m ρ c X hx,
    (((W26_of_ne m ρ c main_v141 (by decide)).trans ((W25_keep m ρ c main_v141 (by decide)).trans (W24_of_ne m ρ c main_v141 (by decide)))).trans (L2_hi m ρ c X hx))]
theorem L2_out (c : Dev nD) (X : FVec F S50000x96 .f32) (hx : W20 m ρ c (Proc.devRef .tc main_v135) = X) : W28 m ρ c (Proc.devRef .tc main_v179) = kLayerB X (m ((c : Thread nD τ).loc main_arg1)) (m ((c : Thread nD τ).loc main_arg12)) (m ((c : Thread nD τ).loc main_arg13)) (m ((c : Thread nD τ).loc main_arg14)) (m ((c : Thread nD τ).loc main_arg15)) (m ((c : Thread nD τ).loc main_arg16)) := by
  refine ((W28_arr m ρ c 1).trans (final11 (Vt27 m ρ) c)).trans ?_
  show arr11 (W27 m ρ c (Proc.devRef .tc main_v178)) = _
  rw [L2_cat m ρ c X hx]
  rw [arr11_eq, arr10_eq, arr9_eq, arr8_eq]
  all_goals rfl

/-! ## The results -/

/-- The network's result is the three layers composed: the first layer on the node features, the later two on the
    layer before. -/
theorem kRead_h (c : Dev nD) : W29 m ρ c (Proc.devRef .tc main_v179)
    = kLayerB (kLayerB (kLayerA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11)))
        (m ((c : Thread nD τ).loc main_arg1)) (m ((c : Thread nD τ).loc main_arg12)) (m ((c : Thread nD τ).loc main_arg13)) (m ((c : Thread nD τ).loc main_arg14)) (m ((c : Thread nD τ).loc main_arg15)) (m ((c : Thread nD τ).loc main_arg16)) :=
  (W29_keep m ρ c main_v179 (by decide)).trans (L2_out m ρ c _ (L1_out m ρ c _ (L0_out m ρ c)))

/-- The mean of the three layers' up edge weights. -/
theorem kRead_meanUp (c : Dev nD) : W29 m ρ c (Proc.devRef .tc main_v183) = kMean (m ((c : Thread nD τ).loc main_arg5)) (m ((c : Thread nD τ).loc main_arg10)) (m ((c : Thread nD τ).loc main_arg15)) := by
  refine (h12_up (W28 m ρ c)).trans ?_
  rw [(((W28_of_ne m ρ c main_arg5 (by decide)).trans ((W27_keep m ρ c main_arg5 (by decide)).trans ((W26_of_ne m ρ c main_arg5 (by decide)).trans ((W25_keep m ρ c main_arg5 (by decide)).trans ((W24_of_ne m ρ c main_arg5 (by decide)).trans ((W23_keep m ρ c main_arg5 (by decide)).trans ((W22_of_ne m ρ c main_arg5 (by decide)).trans ((W21_keep m ρ c main_arg5 (by decide)).trans ((W20_of_ne m ρ c main_arg5 (by decide)).trans ((W19_keep m ρ c main_arg5 (by decide)).trans ((W18_of_ne m ρ c main_arg5 (by decide)).trans ((W17_keep m ρ c main_arg5 (by decide)).trans ((W16_of_ne m ρ c main_arg5 (by decide)).trans ((W15_keep m ρ c main_arg5 (by decide)).trans ((W14_of_ne m ρ c main_arg5 (by decide)).trans ((W13_keep m ρ c main_arg5 (by decide)).trans ((W12_of_ne m ρ c main_arg5 (by decide)).trans ((W11_keep m ρ c main_arg5 (by decide)).trans ((W10_of_ne m ρ c main_arg5 (by decide)).trans ((W9_keep m ρ c main_arg5 (by decide)).trans ((W8_of_ne m ρ c main_arg5 (by decide)).trans ((W7_keep m ρ c main_arg5 (by decide)).trans ((W6_of_ne m ρ c main_arg5 (by decide)).trans ((W5_keep m ρ c main_arg5 (by decide)).trans ((W4_keep m ρ c main_arg5 (by decide)).trans ((W3_keep m ρ c main_arg5 (by decide)).trans ((W2_keep m ρ c main_arg5 (by decide)).trans (W1_keep m ρ c main_arg5 (by decide))))))))))))))))))))))))))))).trans (rfl : W0 m ρ c (Proc.devRef .tc main_arg5) = (m ((c : Thread nD τ).loc main_arg5)))),
    (((W28_of_ne m ρ c main_arg10 (by decide)).trans ((W27_keep m ρ c main_arg10 (by decide)).trans ((W26_of_ne m ρ c main_arg10 (by decide)).trans ((W25_keep m ρ c main_arg10 (by decide)).trans ((W24_of_ne m ρ c main_arg10 (by decide)).trans ((W23_keep m ρ c main_arg10 (by decide)).trans ((W22_of_ne m ρ c main_arg10 (by decide)).trans ((W21_keep m ρ c main_arg10 (by decide)).trans ((W20_of_ne m ρ c main_arg10 (by decide)).trans ((W19_keep m ρ c main_arg10 (by decide)).trans ((W18_of_ne m ρ c main_arg10 (by decide)).trans ((W17_keep m ρ c main_arg10 (by decide)).trans ((W16_of_ne m ρ c main_arg10 (by decide)).trans ((W15_keep m ρ c main_arg10 (by decide)).trans ((W14_of_ne m ρ c main_arg10 (by decide)).trans ((W13_keep m ρ c main_arg10 (by decide)).trans ((W12_of_ne m ρ c main_arg10 (by decide)).trans ((W11_keep m ρ c main_arg10 (by decide)).trans ((W10_of_ne m ρ c main_arg10 (by decide)).trans ((W9_keep m ρ c main_arg10 (by decide)).trans ((W8_of_ne m ρ c main_arg10 (by decide)).trans ((W7_keep m ρ c main_arg10 (by decide)).trans ((W6_of_ne m ρ c main_arg10 (by decide)).trans ((W5_keep m ρ c main_arg10 (by decide)).trans ((W4_keep m ρ c main_arg10 (by decide)).trans ((W3_keep m ρ c main_arg10 (by decide)).trans ((W2_keep m ρ c main_arg10 (by decide)).trans (W1_keep m ρ c main_arg10 (by decide))))))))))))))))))))))))))))).trans (rfl : W0 m ρ c (Proc.devRef .tc main_arg10) = (m ((c : Thread nD τ).loc main_arg10)))),
    (((W28_of_ne m ρ c main_arg15 (by decide)).trans ((W27_keep m ρ c main_arg15 (by decide)).trans ((W26_of_ne m ρ c main_arg15 (by decide)).trans ((W25_keep m ρ c main_arg15 (by decide)).trans ((W24_of_ne m ρ c main_arg15 (by decide)).trans ((W23_keep m ρ c main_arg15 (by decide)).trans ((W22_of_ne m ρ c main_arg15 (by decide)).trans ((W21_keep m ρ c main_arg15 (by decide)).trans ((W20_of_ne m ρ c main_arg15 (by decide)).trans ((W19_keep m ρ c main_arg15 (by decide)).trans ((W18_of_ne m ρ c main_arg15 (by decide)).trans ((W17_keep m ρ c main_arg15 (by decide)).trans ((W16_of_ne m ρ c main_arg15 (by decide)).trans ((W15_keep m ρ c main_arg15 (by decide)).trans ((W14_of_ne m ρ c main_arg15 (by decide)).trans ((W13_keep m ρ c main_arg15 (by decide)).trans ((W12_of_ne m ρ c main_arg15 (by decide)).trans ((W11_keep m ρ c main_arg15 (by decide)).trans ((W10_of_ne m ρ c main_arg15 (by decide)).trans ((W9_keep m ρ c main_arg15 (by decide)).trans ((W8_of_ne m ρ c main_arg15 (by decide)).trans ((W7_keep m ρ c main_arg15 (by decide)).trans ((W6_of_ne m ρ c main_arg15 (by decide)).trans ((W5_keep m ρ c main_arg15 (by decide)).trans ((W4_keep m ρ c main_arg15 (by decide)).trans ((W3_keep m ρ c main_arg15 (by decide)).trans ((W2_keep m ρ c main_arg15 (by decide)).trans (W1_keep m ρ c main_arg15 (by decide))))))))))))))))))))))))))))).trans (rfl : W0 m ρ c (Proc.devRef .tc main_arg15) = (m ((c : Thread nD τ).loc main_arg15))))]

/-- The mean of the three layers' down edge weights. -/
theorem kRead_meanDown (c : Dev nD) : W29 m ρ c (Proc.devRef .tc main_v187) = kMean (m ((c : Thread nD τ).loc main_arg6)) (m ((c : Thread nD τ).loc main_arg11)) (m ((c : Thread nD τ).loc main_arg16)) := by
  refine (h12_down (W28 m ρ c)).trans ?_
  rw [(((W28_of_ne m ρ c main_arg6 (by decide)).trans ((W27_keep m ρ c main_arg6 (by decide)).trans ((W26_of_ne m ρ c main_arg6 (by decide)).trans ((W25_keep m ρ c main_arg6 (by decide)).trans ((W24_of_ne m ρ c main_arg6 (by decide)).trans ((W23_keep m ρ c main_arg6 (by decide)).trans ((W22_of_ne m ρ c main_arg6 (by decide)).trans ((W21_keep m ρ c main_arg6 (by decide)).trans ((W20_of_ne m ρ c main_arg6 (by decide)).trans ((W19_keep m ρ c main_arg6 (by decide)).trans ((W18_of_ne m ρ c main_arg6 (by decide)).trans ((W17_keep m ρ c main_arg6 (by decide)).trans ((W16_of_ne m ρ c main_arg6 (by decide)).trans ((W15_keep m ρ c main_arg6 (by decide)).trans ((W14_of_ne m ρ c main_arg6 (by decide)).trans ((W13_keep m ρ c main_arg6 (by decide)).trans ((W12_of_ne m ρ c main_arg6 (by decide)).trans ((W11_keep m ρ c main_arg6 (by decide)).trans ((W10_of_ne m ρ c main_arg6 (by decide)).trans ((W9_keep m ρ c main_arg6 (by decide)).trans ((W8_of_ne m ρ c main_arg6 (by decide)).trans ((W7_keep m ρ c main_arg6 (by decide)).trans ((W6_of_ne m ρ c main_arg6 (by decide)).trans ((W5_keep m ρ c main_arg6 (by decide)).trans ((W4_keep m ρ c main_arg6 (by decide)).trans ((W3_keep m ρ c main_arg6 (by decide)).trans ((W2_keep m ρ c main_arg6 (by decide)).trans (W1_keep m ρ c main_arg6 (by decide))))))))))))))))))))))))))))).trans (rfl : W0 m ρ c (Proc.devRef .tc main_arg6) = (m ((c : Thread nD τ).loc main_arg6)))),
    (((W28_of_ne m ρ c main_arg11 (by decide)).trans ((W27_keep m ρ c main_arg11 (by decide)).trans ((W26_of_ne m ρ c main_arg11 (by decide)).trans ((W25_keep m ρ c main_arg11 (by decide)).trans ((W24_of_ne m ρ c main_arg11 (by decide)).trans ((W23_keep m ρ c main_arg11 (by decide)).trans ((W22_of_ne m ρ c main_arg11 (by decide)).trans ((W21_keep m ρ c main_arg11 (by decide)).trans ((W20_of_ne m ρ c main_arg11 (by decide)).trans ((W19_keep m ρ c main_arg11 (by decide)).trans ((W18_of_ne m ρ c main_arg11 (by decide)).trans ((W17_keep m ρ c main_arg11 (by decide)).trans ((W16_of_ne m ρ c main_arg11 (by decide)).trans ((W15_keep m ρ c main_arg11 (by decide)).trans ((W14_of_ne m ρ c main_arg11 (by decide)).trans ((W13_keep m ρ c main_arg11 (by decide)).trans ((W12_of_ne m ρ c main_arg11 (by decide)).trans ((W11_keep m ρ c main_arg11 (by decide)).trans ((W10_of_ne m ρ c main_arg11 (by decide)).trans ((W9_keep m ρ c main_arg11 (by decide)).trans ((W8_of_ne m ρ c main_arg11 (by decide)).trans ((W7_keep m ρ c main_arg11 (by decide)).trans ((W6_of_ne m ρ c main_arg11 (by decide)).trans ((W5_keep m ρ c main_arg11 (by decide)).trans ((W4_keep m ρ c main_arg11 (by decide)).trans ((W3_keep m ρ c main_arg11 (by decide)).trans ((W2_keep m ρ c main_arg11 (by decide)).trans (W1_keep m ρ c main_arg11 (by decide))))))))))))))))))))))))))))).trans (rfl : W0 m ρ c (Proc.devRef .tc main_arg11) = (m ((c : Thread nD τ).loc main_arg11)))),
    (((W28_of_ne m ρ c main_arg16 (by decide)).trans ((W27_keep m ρ c main_arg16 (by decide)).trans ((W26_of_ne m ρ c main_arg16 (by decide)).trans ((W25_keep m ρ c main_arg16 (by decide)).trans ((W24_of_ne m ρ c main_arg16 (by decide)).trans ((W23_keep m ρ c main_arg16 (by decide)).trans ((W22_of_ne m ρ c main_arg16 (by decide)).trans ((W21_keep m ρ c main_arg16 (by decide)).trans ((W20_of_ne m ρ c main_arg16 (by decide)).trans ((W19_keep m ρ c main_arg16 (by decide)).trans ((W18_of_ne m ρ c main_arg16 (by decide)).trans ((W17_keep m ρ c main_arg16 (by decide)).trans ((W16_of_ne m ρ c main_arg16 (by decide)).trans ((W15_keep m ρ c main_arg16 (by decide)).trans ((W14_of_ne m ρ c main_arg16 (by decide)).trans ((W13_keep m ρ c main_arg16 (by decide)).trans ((W12_of_ne m ρ c main_arg16 (by decide)).trans ((W11_keep m ρ c main_arg16 (by decide)).trans ((W10_of_ne m ρ c main_arg16 (by decide)).trans ((W9_keep m ρ c main_arg16 (by decide)).trans ((W8_of_ne m ρ c main_arg16 (by decide)).trans ((W7_keep m ρ c main_arg16 (by decide)).trans ((W6_of_ne m ρ c main_arg16 (by decide)).trans ((W5_keep m ρ c main_arg16 (by decide)).trans ((W4_keep m ρ c main_arg16 (by decide)).trans ((W3_keep m ρ c main_arg16 (by decide)).trans ((W2_keep m ρ c main_arg16 (by decide)).trans (W1_keep m ρ c main_arg16 (by decide))))))))))))))))))))))))))))).trans (rfl : W0 m ρ c (Proc.devRef .tc main_arg16) = (m ((c : Thread nD τ).loc main_arg16))))]

end Cert.KernelIdeal.Run

end
-- ==== Proof.RefLayerSegs.lean ====
/-
  The reference program cut into nineteen stretches at the joints of its three layers — per layer: the three
  projections; for the propagation along the edges, the reciprocal in-degrees and then the messages' sums; the same two
  for the propagation against the edges; the concatenation, normalisation and activation — and a last stretch for the
  two means.  Each stretch is a list of the program's own operations; the program is their concatenation; and a stretch
  leaves alone every buffer it does not write.
-/
import proofs.«107201_j32822140076800_2_alg».proof.Proof.RefOpsEq

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program cut at its layers' joints -/

/-- Operations 1 … 10 of the program (stretch `pro1`). -/
abbrev seg_pro1 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.unary main_arg2 main_v4 ((transpose S8x32 [1, 0] · transposes_S32x8_S8x32_1_0) : (⟨S32x8, .f32⟩ : BufTy).Contents (Elt F) → (⟨S8x32, .f32⟩ : BufTy).Contents (Elt F)),
    StableHlo.binary main_arg0 main_v4 main_v5 ((fun l r => Host.dotGeneral dot_S50000x8_S8x32_S50000x32_1_0_0_1_n_n none l r) : (⟨S50000x8, .f32⟩ : BufTy).Contents (Elt F) → (⟨S8x32, .f32⟩ : BufTy).Contents (Elt F) → (⟨S50000x32, .f32⟩ : BufTy).Contents (Elt F)),
    StableHlo.unary main_arg3 main_v6 ((transpose S8x32 [1, 0] · transposes_S32x8_S8x32_1_0) : (⟨S32x8, .f32⟩ : BufTy).Contents (Elt F) → (⟨S8x32, .f32⟩ : BufTy).Contents (Elt F)),
    StableHlo.binary main_arg0 main_v6 main_v7 ((fun l r => Host.dotGeneral dot_S50000x8_S8x32_S50000x32_1_0_0_1_n_n none l r) : (⟨S50000x8, .f32⟩ : BufTy).Contents (Elt F) → (⟨S8x32, .f32⟩ : BufTy).Contents (Elt F) → (⟨S50000x32, .f32⟩ : BufTy).Contents (Elt F)),
    StableHlo.unary main_arg4 main_v8 ((transpose S8x32 [1, 0] · transposes_S32x8_S8x32_1_0) : (⟨S32x8, .f32⟩ : BufTy).Contents (Elt F) → (⟨S8x32, .f32⟩ : BufTy).Contents (Elt F)),
    StableHlo.binary main_arg0 main_v8 main_v9 ((fun l r => Host.dotGeneral dot_S50000x8_S8x32_S50000x32_1_0_0_1_n_n none l r) : (⟨S50000x8, .f32⟩ : BufTy).Contents (Elt F) → (⟨S8x32, .f32⟩ : BufTy).Contents (Elt F) → (⟨S50000x32, .f32⟩ : BufTy).Contents (Elt F)) ]

/-- Operations 11 … 33 of the program (stretch `dinvU1`). -/
abbrev seg_dinvU1 : List (HloOp τ sig (Elt F)) :=
  [ StableHlo.nullary main_cst (constant S_ .f32 0x00000000#32),
    StableHlo.unary main_cst main_v10 (broadcastInDim S50000 ![] bcast_S_S50000 : (⟨S_, .f32⟩ : BufTy).Contents (Elt F) → (⟨S50000, .f32⟩ : BufTy).Contents (Elt F)),
    StableHlo.nullary main_c (constantI S_ 32 0#32),
    StableHlo.unary main_c main_v11 (broadcastInDim S1600000 ![] bcast_S_S1600000 : (⟨S_, .i32⟩ : BufTy).Contents (Elt F) → (⟨S1600000, .i32⟩ : BufTy).Contents (Elt F)),
    StableHlo.binary main_v3 main_v11 main_v12 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 50000#32),
    StableHlo.unary main_c_0 main_v13 (broadcastInDim S1600000 ![] bcast_S_S1600000 : (⟨S_, .i32⟩ : BufTy).Contents (Elt F) → (⟨S1600000, .i32⟩ : BufTy).Contents (Elt F)),
    StableHlo.binary main_v3 main_v13 main_v14 (addi : (⟨S1600000, .i32⟩ : BufTy).Contents (Elt F) → (⟨S1600000, .i32⟩ : BufTy).Contents (Elt F) → (⟨S1600000, .i32⟩ : BufTy).Contents (Elt F)),
    StableHlo.ternary main_v12 main_v14 main_v3 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v15 main_v16 (broadcastInDim S1600000x1 ![0] bcast_S1600000_S1600000x1_0 : (⟨S1600000, .i32⟩ : BufTy).Contents (Elt F) → (⟨S1600000x1, .i32⟩ : BufTy).Contents (Elt F)),
    StableHlo.nullary main_cst_1 (constant S_ .f32 0x3F800000#32),
    StableHlo.unary main_cst_1 main_v17 (broadcastInDim S1600000 ![] bcast_S_S1600000 : (⟨S_, .f32⟩ : BufTy).Contents (Elt F) → (⟨S1600000, .f32⟩ : BufTy).Contents (Elt F)),
    StableHlo.ternary main_v10 main_v16 main_v17 main_v18 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_2 (constant S_ .f32 0x00000000#32),
    StableHlo.unary main_cst_2 main_v19 (broadcastInDim S50000 ![] bcast_S_S50000 : (⟨S_, .f32⟩ : BufTy).Contents (Elt F) → (⟨S50000, .f32⟩ : BufTy).Contents (Elt F)),
    StableHlo.binary main_v18 main_v19 main_v20 (cmpf .ogt : (⟨S50000, .f32⟩ : BufTy).Contents (Elt F) → (⟨S50000, .f32⟩ : BufTy).Contents (Elt F) → (⟨S50000, .i1⟩ : BufTy).Contents (Elt F)),
    StableHlo.nullary main_cst_3 (constant S_ .f32 0x3F800000#32),
    StableHlo.unary main_cst_3 main_v21 (broadcastInDim S50000 ![] bcast_S_S50000 : (⟨S_, .f32⟩ : BufTy).Contents (Elt F) → (⟨S50000, .f32⟩ : BufTy).Contents (Elt F)),
    StableHlo.binary main_v21 main_v18 main_v22 (Host.divf : (⟨S50000, .f32⟩ : BufTy).Contents (Elt F) → (⟨S50000, .f32⟩ : BufTy).Contents (Elt F) → (⟨S50000, .f32⟩ : BufTy).Contents (Elt F)),
    StableHlo.nullary main_cst_4 (constant S_ .f32 0x00000000#32),
    StableHlo.TRef.unary (StableHlo.TRef.of (T := ⟨S_, .f32⟩) main_cst_4) main_call0.v0 id,
    StableHlo.TRef.unary main_call0.v0 main_call0.v1 (broadcastInDim S50000 ![] bcast_S_S50000),
    StableHlo.TRef.ternary (StableHlo.TRef.of (T := ⟨S50000, .i1⟩) main_v20) (StableHlo.TRef.of (T := ⟨S50000, .f32⟩) main_v22) main_call0.v1 main_call0.v2 select ]

/-- Operations 34 … 66 of the program (stretch `msgU1`). -/
abbrev seg_msgU1 : List (HloOp τ sig (Elt F)) :=
  [ StableHlo.nullary main_c_5 (constantI S_ 32 0#32),
    StableHlo.unary main_c_5 main_v24 (broadcastInDim S1600000 ![] bcast_S_S1600000 : (⟨S_, .i32⟩ : BufTy).Contents (Elt F) → (⟨S1600000, .i32⟩ : BufTy).Contents (Elt F)),
    StableHlo.binary main_v3 main_v24 main_v25 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 50000#32),
    StableHlo.unary main_c_6 main_v26 (broadcastInDim S1600000 ![] bcast_S_S1600000 : (⟨S_, .i32⟩ : BufTy).Contents (Elt F) → (⟨S1600000, .i32⟩ : BufTy).Contents (Elt F)),
    StableHlo.binary main_v3 main_v26 main_v27 (addi : (⟨S1600000, .i32⟩ : BufTy).Contents (Elt F) → (⟨S1600000, .i32⟩ : BufTy).Contents (Elt F) → (⟨S1600000, .i32⟩ : BufTy).Contents (Elt F)),
    StableHlo.ternary main_v25 main_v27 main_v3 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v28 main_v29 (broadcastInDim S1600000x1 ![0] bcast_S1600000_S1600000x1_0 : (⟨S1600000, .i32⟩ : BufTy).Contents (Elt F) → (⟨S1600000x1, .i32⟩ : BufTy).Contents (Elt F)),
    StableHlo.binary main_v23 main_v29 main_v30 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v30 main_arg5 main_v31 (mulf : (⟨S1600000, .f32⟩ : BufTy).Contents (Elt F) → (⟨S1600000, .f32⟩ : BufTy).Contents (Elt F) → (⟨S1600000, .f32⟩ : BufTy).Contents (Elt F)),
    StableHlo.unary main_v31 main_v32 (broadcastInDim S1600000x1 ![0] bcast_S1600000_S1600000x1_0 : (⟨S1600000, .f32⟩ : BufTy).Contents (Elt F) → (⟨S1600000x1, .f32⟩ : BufTy).Contents (Elt F)),
    StableHlo.nullary main_c_7 (constantI S_ 32 0#32),
    StableHlo.unary main_c_7 main_v33 (broadcastInDim S1600000 ![] bcast_S_S1600000 : (⟨S_, .i32⟩ : BufTy).Contents (Elt F) → (⟨S1600000, .i32⟩ : BufTy).Contents (Elt F)),
    StableHlo.binary main_v1 main_v33 main_v34 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 50000#32),
    StableHlo.unary main_c_8 main_v35 (broadcastInDim S1600000 ![] bcast_S_S1600000 : (⟨S_, .i32⟩ : BufTy).Contents (Elt F) → (⟨S1600000, .i32⟩ : BufTy).Contents (Elt F)),
    StableHlo.binary main_v1 main_v35 main_v36 (addi : (⟨S1600000, .i32⟩ : BufTy).Contents (Elt F) → (⟨S1600000, .i32⟩ : BufTy).Contents (Elt F) → (⟨S1600000, .i32⟩ : BufTy).Contents (Elt F)),
    StableHlo.ternary main_v34 main_v36 main_v1 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v37 main_v38 (broadcastInDim S1600000x1 ![0] bcast_S1600000_S1600000x1_0 : (⟨S1600000, .i32⟩ : BufTy).Contents (Elt F) → (⟨S1600000x1, .i32⟩ : BufTy).Contents (Elt F)),
    StableHlo.binary main_v5 main_v38 main_v39 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    StableHlo.unary main_v32 main_v40 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v40 main_v39 main_v41 (mulf : (⟨S1600000x32, .f32⟩ : BufTy).Contents (Elt F) → (⟨S1600000x32, .f32⟩ : BufTy).Contents (Elt F) → (⟨S1600000x32, .f32⟩ : BufTy).Contents (Elt F)),
    StableHlo.nullary main_cst_9 (constant S_ .f32 0x00000000#32),
    StableHlo.unary main_cst_9 main_v42 (broadcastInDim S50000x32 ![] bcast_S_S50000x32 : (⟨S_, .f32⟩ : BufTy).Contents (Elt F) → (⟨S50000x32, .f32⟩ : BufTy).Contents (Elt F)),
    StableHlo.nullary main_c_10 (constantI S_ 32 0#32),
    StableHlo.unary main_c_10 main_v43 (broadcastInDim S1600000 ![] bcast_S_S1600000 : (⟨S_, .i32⟩ : BufTy).Contents (Elt F) → (⟨S1600000, .i32⟩ : BufTy).Contents (Elt F)),
    StableHlo.binary main_v3 main_v43 main_v44 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 50000#32),
    StableHlo.unary main_c_11 main_v45 (broadcastInDim S1600000 ![] bcast_S_S1600000 : (⟨S_, .i32⟩ : BufTy).Contents (Elt F) → (⟨S1600000, .i32⟩ : BufTy).Contents (Elt F)),
    StableHlo.binary main_v3 main_v45 main_v46 (addi : (⟨S1600000, .i32⟩ : BufTy).Contents (Elt F) → (⟨S1600000, .i32⟩ : BufTy).Contents (Elt F) → (⟨S1600000, .i32⟩ : BufTy).Contents (Elt F)),
    StableHlo.ternary main_v44 main_v46 main_v3 main_v47 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v47 main_v48 (broadcastInDim S1600000x1 ![0] bcast_S1600000_S1600000x1_0 : (⟨S1600000, .i32⟩ : BufTy).Contents (Elt F) → (⟨S1600000x1, .i32⟩ : BufTy).Contents (Elt F)),
    StableHlo.ternary main_v42 main_v48 main_v41 main_v49 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)) ]

/-- Operations 67 … 89 of the program (stretch `dinvD1`). -/
abbrev seg_dinvD1 : List (HloOp τ sig (Elt F)) :=
  [ StableHlo.nullary main_cst_12 (constant S_ .f32 0x00000000#32),
    StableHlo.unary main_cst_12 main_v50 (broadcastInDim S50000 ![] bcast_S_S50000 : (⟨S_, .f32⟩ : BufTy).Contents (Elt F) → (⟨S50000, .f32⟩ : BufTy).Contents (Elt F)),
    StableHlo.nullary main_c_13 (constantI S_ 32 0#32),
    StableHlo.unary main_c_13 main_v51 (broadcastInDim S1600000 ![] bcast_S_S1600000 : (⟨S_, .i32⟩ : BufTy).Contents (Elt F) → (⟨S1600000, .i32⟩ : BufTy).Contents (Elt F)),
    StableHlo.binary main_v1 main_v51 main_v52 (cmpi .slt : (⟨S1600000, .i32⟩ : BufTy).Contents (Elt F) → (⟨S1600000, .i32⟩ : BufTy).Contents (Elt F) → (⟨S1600000, .i1⟩ : BufTy).Contents (Elt F)),
    StableHlo.nullary main_c_14 (constantI S_ 32 50000#32),
    StableHlo.unary main_c_14 main_v53 (broadcastInDim S1600000 ![] bcast_S_S1600000 : (⟨S_, .i32⟩ : BufTy).Contents (Elt F) → (⟨S1600000, .i32⟩ : BufTy).Contents (Elt F)),
    StableHlo.binary main_v1 main_v53 main_v54 (addi : (⟨S1600000, .i32⟩ : BufTy).Contents (Elt F) → (⟨S1600000, .i32⟩ : BufTy).Contents (Elt F) → (⟨S1600000, .i32⟩ : BufTy).Contents (Elt F)),
    StableHlo.ternary main_v52 main_v54 main_v1 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v55 main_v56 (broadcastInDim S1600000x1 ![0] bcast_S1600000_S1600000x1_0 : (⟨S1600000, .i32⟩ : BufTy).Contents (Elt F) → (⟨S1600000x1, .i32⟩ : BufTy).Contents (Elt F)),
    StableHlo.nullary main_cst_15 (constant S_ .f32 0x3F800000#32),
    StableHlo.unary main_cst_15 main_v57 (broadcastInDim S1600000 ![] bcast_S_S1600000 : (⟨S_, .f32⟩ : BufTy).Contents (Elt F) → (⟨S1600000, .f32⟩ : BufTy).Contents (Elt F)),
    StableHlo.ternary main_v50 main_v56 main_v57 main_v58 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_16 (constant S_ .f32 0x00000000#32),
    StableHlo.unary main_cst_16 main_v59 (broadcastInDim S50000 ![] bcast_S_S50000 : (⟨S_, .f32⟩ : BufTy).Contents (Elt F) → (⟨S50000, .f32⟩ : BufTy).Contents (Elt F)),
    StableHlo.binary main_v58 main_v59 main_v60 (cmpf .ogt : (⟨S50000, .f32⟩ : BufTy).Contents (Elt F) → (⟨S50000, .f32⟩ : BufTy).Contents (Elt F) → (⟨S50000, .i1⟩ : BufTy).Contents (Elt F)),
    StableHlo.nullary main_cst_17 (constant S_ .f32 0x3F800000#32),
    StableHlo.unary main_cst_17 main_v61 (broadcastInDim S50000 ![] bcast_S_S50000 : (⟨S_, .f32⟩ : BufTy).Contents (Elt F) → (⟨S50000, .f32⟩ : BufTy).Contents (Elt F)),
    StableHlo.binary main_v61 main_v58 main_v62 (Host.divf : (⟨S50000, .f32⟩ : BufTy).Contents (Elt F) → (⟨S50000, .f32⟩ : BufTy).Contents (Elt F) → (⟨S50000, .f32⟩ : BufTy).Contents (Elt F)),
    StableHlo.nullary main_cst_18 (constant S_ .f32 0x00000000#32),
    StableHlo.TRef.unary (StableHlo.TRef.of (T := ⟨S_, .f32⟩) main_cst_18) main_call1.v0 id,
    StableHlo.TRef.unary main_call1.v0 main_call1.v1 (broadcastInDim S50000 ![] bcast_S_S50000),
    StableHlo.TRef.ternary (StableHlo.TRef.of (T := ⟨S50000, .i1⟩) main_v60) (StableHlo.TRef.of (T := ⟨S50000, .f32⟩) main_v62) main_call1.v1 main_call1.v2 select ]

/-- Operations 90 … 122 of the program (stretch `msgD1`). -/
abbrev seg_msgD1 : List (HloOp τ sig (Elt F)) :=
  [ StableHlo.nullary main_c_19 (constantI S_ 32 0#32),
    StableHlo.unary main_c_19 main_v64 (broadcastInDim S1600000 ![] bcast_S_S1600000 : (⟨S_, .i32⟩ : BufTy).Contents (Elt F) → (⟨S1600000, .i32⟩ : BufTy).Contents (Elt F)),
    StableHlo.binary main_v1 main_v64 main_v65 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 50000#32),
    StableHlo.unary main_c_20 main_v66 (broadcastInDim S1600000 ![] bcast_S_S1600000 : (⟨S_, .i32⟩ : BufTy).Contents (Elt F) → (⟨S1600000, .i32⟩ : BufTy).Contents (Elt F)),
    StableHlo.binary main_v1 main_v66 main_v67 (addi : (⟨S1600000, .i32⟩ : BufTy).Contents (Elt F) → (⟨S1600000, .i32⟩ : BufTy).Contents (Elt F) → (⟨S1600000, .i32⟩ : BufTy).Contents (Elt F)),
    StableHlo.ternary main_v65 main_v67 main_v1 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v68 main_v69 (broadcastInDim S1600000x1 ![0] bcast_S1600000_S1600000x1_0 : (⟨S1600000, .i32⟩ : BufTy).Contents (Elt F) → (⟨S1600000x1, .i32⟩ : BufTy).Contents (Elt F)),
    StableHlo.binary main_v63 main_v69 main_v70 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v70 main_arg6 main_v71 (mulf : (⟨S1600000, .f32⟩ : BufTy).Contents (Elt F) → (⟨S1600000, .f32⟩ : BufTy).Contents (Elt F) → (⟨S1600000, .f32⟩ : BufTy).Contents (Elt F)),
    StableHlo.unary main_v71 main_v72 (broadcastInDim S1600000x1 ![0] bcast_S1600000_S1600000x1_0 : (⟨S1600000, .f32⟩ : BufTy).Contents (Elt F) → (⟨S1600000x1, .f32⟩ : BufTy).Contents (Elt F)),
    StableHlo.nullary main_c_21 (constantI S_ 32 0#32),
    StableHlo.unary main_c_21 main_v73 (broadcastInDim S1600000 ![] bcast_S_S1600000 : (⟨S_, .i32⟩ : BufTy).Contents (Elt F) → (⟨S1600000, .i32⟩ : BufTy).Contents (Elt F)),
    StableHlo.binary main_v3 main_v73 main_v74 (cmpi .slt : (⟨S1600000, .i32⟩ : BufTy).Contents (Elt F) → (⟨S1600000, .i32⟩ : BufTy).Contents (Elt F) → (⟨S1600000, .i1⟩ : BufTy).Contents (Elt F)),
    StableHlo.nullary main_c_22 (constantI S_ 32 50000#32),
    StableHlo.unary main_c_22 main_v75 (broadcastInDim S1600000 ![] bcast_S_S1600000 : (⟨S_, .i32⟩ : BufTy).Contents (Elt F) → (⟨S1600000, .i32⟩ : BufTy).Contents (Elt F)),
    StableHlo.binary main_v3 main_v75 main_v76 (addi : (⟨S1600000, .i32⟩ : BufTy).Contents (Elt F) → (⟨S1600000, .i32⟩ : BufTy).Contents (Elt F) → (⟨S1600000, .i32⟩ : BufTy).Contents (Elt F)),
    StableHlo.ternary main_v74 main_v76 main_v3 main_v77 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v77 main_v78 (broadcastInDim S1600000x1 ![0] bcast_S1600000_S1600000x1_0 : (⟨S1600000, .i32⟩ : BufTy).Contents (Elt F) → (⟨S1600000x1, .i32⟩ : BufTy).Contents (Elt F)),
    StableHlo.binary main_v7 main_v78 main_v79 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    StableHlo.unary main_v72 main_v80 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v80 main_v79 main_v81 (mulf : (⟨S1600000x32, .f32⟩ : BufTy).Contents (Elt F) → (⟨S1600000x32, .f32⟩ : BufTy).Contents (Elt F) → (⟨S1600000x32, .f32⟩ : BufTy).Contents (Elt F)),
    StableHlo.nullary main_cst_23 (constant S_ .f32 0x00000000#32),
    StableHlo.unary main_cst_23 main_v82 (broadcastInDim S50000x32 ![] bcast_S_S50000x32 : (⟨S_, .f32⟩ : BufTy).Contents (Elt F) → (⟨S50000x32, .f32⟩ : BufTy).Contents (Elt F)),
    StableHlo.nullary main_c_24 (constantI S_ 32 0#32),
    StableHlo.unary main_c_24 main_v83 (broadcastInDim S1600000 ![] bcast_S_S1600000 : (⟨S_, .i32⟩ : BufTy).Contents (Elt F) → (⟨S1600000, .i32⟩ : BufTy).Contents (Elt F)),
    StableHlo.binary main_v1 main_v83 main_v84 (cmpi .slt : (⟨S1600000, .i32⟩ : BufTy).Contents (Elt F) → (⟨S1600000, .i32⟩ : BufTy).Contents (Elt F) → (⟨S1600000, .i1⟩ : BufTy).Contents (Elt F)),
    StableHlo.nullary main_c_25 (constantI S_ 32 50000#32),
    StableHlo.unary main_c_25 main_v85 (broadcastInDim S1600000 ![] bcast_S_S1600000 : (⟨S_, .i32⟩ : BufTy).Contents (Elt F) → (⟨S1600000, .i32⟩ : BufTy).Contents (Elt F)),
    StableHlo.binary main_v1 main_v85 main_v86 (addi : (⟨S1600000, .i32⟩ : BufTy).Contents (Elt F) → (⟨S1600000, .i32⟩ : BufTy).Contents (Elt F) → (⟨S1600000, .i32⟩ : BufTy).Contents (Elt F)),
    StableHlo.ternary main_v84 main_v86 main_v1 main_v87 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v87 main_v88 (broadcastInDim S1600000x1 ![0] bcast_S1600000_S1600000x1_0 : (⟨S1600000, .i32⟩ : BufTy).Contents (Elt F) → (⟨S1600000x1, .i32⟩ : BufTy).Contents (Elt F)),
    StableHlo.ternary main_v82 main_v88 main_v81 main_v89 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)) ]

/-- Operations 123 … 141 of the program (stretch `fin1`). -/
abbrev seg_fin1 : List (HloOp τ sig (Elt F)) :=
  [ StableHlo.nary ![main_v49, main_v89, main_v9] main_v90 (fun u => concatenate S50000x96 1 [⟨S50000x32, u 0⟩, ⟨S50000x32, u 1⟩, ⟨S50000x32, u 2⟩] concatenates_S50000x32_S50000x32_S50000x32_S50000x96_d1),
    StableHlo.TRef.binary (StableHlo.TRef.of (T := ⟨S50000x96, .f32⟩) main_v90) (StableHlo.TRef.of (T := ⟨S50000x96, .f32⟩) main_v90) main_call2.v0 mulf,
    StableHlo.TRef.nullary main_call2.cst (constant S_ .f32 0x00000000#32),
    StableHlo.TRef.binary main_call2.v0 main_call2.cst main_call2.v1 (fun x v => Host.reduceAdd x v reducesTo_S50000x96_S50000_d1 h_S_),
    StableHlo.TRef.unary main_call2.v1 main_call2.v2 (broadcastInDim S50000x1 ![0] bcast_S50000_S50000x1_0),
    StableHlo.TRef.unary main_call2.v2 main_call2.v3 Host.sqrt,
    StableHlo.nullary main_cst_26 (constant S_ .f32 0x2B8CBCCC#32),
    StableHlo.unary main_cst_26 main_v92 (broadcastInDim S50000x1 ![] bcast_S_S50000x1 : (⟨S_, .f32⟩ : BufTy).Contents (Elt F) → (⟨S50000x1, .f32⟩ : BufTy).Contents (Elt F)),
    StableHlo.binary main_v91 main_v92 main_v93 (maximumf : (⟨S50000x1, .f32⟩ : BufTy).Contents (Elt F) → (⟨S50000x1, .f32⟩ : BufTy).Contents (Elt F) → (⟨S50000x1, .f32⟩ : BufTy).Contents (Elt F)),
    StableHlo.unary main_v93 main_v94 (broadcastInDim S50000x96 ![0, 1] bcast_S50000x1_S50000x96_0_1 : (⟨S50000x1, .f32⟩ : BufTy).Contents (Elt F) → (⟨S50000x96, .f32⟩ : BufTy).Contents (Elt F)),
    StableHlo.binary main_v90 main_v94 main_v95 (Host.divf : (⟨S50000x96, .f32⟩ : BufTy).Contents (Elt F) → (⟨S50000x96, .f32⟩ : BufTy).Contents (Elt F) → (⟨S50000x96, .f32⟩ : BufTy).Contents (Elt F)),
    StableHlo.nullary main_cst_27 (constant S_ .f32 0x3DCCCCCD#32),
    StableHlo.TRef.nullary main_call3.cst (constant S_ .f32 0x00000000#32),
    StableHlo.TRef.unary main_call3.cst main_call3.v0 (broadcastInDim S50000x96 ![] bcast_S_S50000x96),
    StableHlo.TRef.binary (StableHlo.TRef.of (T := ⟨S50000x96, .f32⟩) main_v95) main_call3.v0 main_call3.v1 (cmpf .oge),
    StableHlo.TRef.unary (StableHlo.TRef.of (T := ⟨S_, .f32⟩) main_cst_27) main_call3.v2 id,
    StableHlo.TRef.unary main_call3.v2 main_call3.v3 (broadcastInDim S50000x96 ![] bcast_S_S50000x96),
    StableHlo.TRef.binary main_call3.v3 (StableHlo.TRef.of (T := ⟨S50000x96, .f32⟩) main_v95) main_call3.v4 mulf,
    StableHlo.TRef.ternary main_call3.v1 (StableHlo.TRef.of (T := ⟨S50000x96, .f32⟩) main_v95) main_call3.v4 main_call3.call0.v0 select ]

/-- Operations 142 … 151 of the program (stretch `pro2`). -/
abbrev seg_pro2 : List (HloOp τ sig (Elt F)) :=
  [ StableHlo.unary main_arg1 main_v97 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v97 main_v98 rfl shapeCasts_S1x1600000_S1600000,
    StableHlo.unary main_arg1 main_v99 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v99 main_v100 rfl shapeCasts_S1x1600000_S1600000,
    StableHlo.unary main_arg7 main_v101 ((transpose S96x32 [1, 0] · transposes_S32x96_S96x32_1_0) : (⟨S32x96, .f32⟩ : BufTy).Contents (Elt F) → (⟨S96x32, .f32⟩ : BufTy).Contents (Elt F)),
    StableHlo.binary main_v96 main_v101 main_v102 ((fun l r => Host.dotGeneral dot_S50000x96_S96x32_S50000x32_1_0_0_1_n_n none l r) : (⟨S50000x96, .f32⟩ : BufTy).Contents (Elt F) → (⟨S96x32, .f32⟩ : BufTy).Contents (Elt F) → (⟨S50000x32, .f32⟩ : BufTy).Contents (Elt F)),
    StableHlo.unary main_arg8 main_v103 ((transpose S96x32 [1, 0] · transposes_S32x96_S96x32_1_0) : (⟨S32x96, .f32⟩ : BufTy).Contents (Elt F) → (⟨S96x32, .f32⟩ : BufTy).Contents (Elt F)),
    StableHlo.binary main_v96 main_v103 main_v104 ((fun l r => Host.dotGeneral dot_S50000x96_S96x32_S50000x32_1_0_0_1_n_n none l r) : (⟨S50000x96, .f32⟩ : BufTy).Contents (Elt F) → (⟨S96x32, .f32⟩ : BufTy).Contents (Elt F) → (⟨S50000x32, .f32⟩ : BufTy).Contents (Elt F)),
    StableHlo.unary main_arg9 main_v105 ((transpose S96x32 [1, 0] · transposes_S32x96_S96x32_1_0) : (⟨S32x96, .f32⟩ : BufTy).Contents (Elt F) → (⟨S96x32, .f32⟩ : BufTy).Contents (Elt F)),
    StableHlo.binary main_v96 main_v105 main_v106 ((fun l r => Host.dotGeneral dot_S50000x96_S96x32_S50000x32_1_0_0_1_n_n none l r) : (⟨S50000x96, .f32⟩ : BufTy).Contents (Elt F) → (⟨S96x32, .f32⟩ : BufTy).Contents (Elt F) → (⟨S50000x32, .f32⟩ : BufTy).Contents (Elt F)) ]

/-- Operations 152 … 174 of the program (stretch `dinvU2`). -/
abbrev seg_dinvU2 : List (HloOp τ sig (Elt F)) :=
  [ StableHlo.nullary main_cst_28 (constant S_ .f32 0x00000000#32),
    StableHlo.unary main_cst_28 main_v107 (broadcastInDim S50000 ![] bcast_S_S50000 : (⟨S_, .f32⟩ : BufTy).Contents (Elt F) → (⟨S50000, .f32⟩ : BufTy).Contents (Elt F)),
    StableHlo.nullary main_c_29 (constantI S_ 32 0#32),
    StableHlo.unary main_c_29 main_v108 (broadcastInDim S1600000 ![] bcast_S_S1600000 : (⟨S_, .i32⟩ : BufTy).Contents (Elt F) → (⟨S1600000, .i32⟩ : BufTy).Contents (Elt F)),
    StableHlo.binary main_v100 main_v108 main_v109 (cmpi .slt : (⟨S1600000, .i32⟩ : BufTy).Contents (Elt F) → (⟨S1600000, .i32⟩ : BufTy).Contents (Elt F) → (⟨S1600000, .i1⟩ : BufTy).Contents (Elt F)),
    StableHlo.nullary main_c_30 (constantI S_ 32 50000#32),
    StableHlo.unary main_c_30 main_v110 (broadcastInDim S1600000 ![] bcast_S_S1600000 : (⟨S_, .i32⟩ : BufTy).Contents (Elt F) → (⟨S1600000, .i32⟩ : BufTy).Contents (Elt F)),
    StableHlo.binary main_v100 main_v110 main_v111 (addi : (⟨S1600000, .i32⟩ : BufTy).Contents (Elt F) → (⟨S1600000, .i32⟩ : BufTy).Contents (Elt F) → (⟨S1600000, .i32⟩ : BufTy).Contents (Elt F)),
    StableHlo.ternary main_v109 main_v111 main_v100 main_v112 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v112 main_v113 (broadcastInDim S1600000x1 ![0] bcast_S1600000_S1600000x1_0 : (⟨S1600000, .i32⟩ : BufTy).Contents (Elt F) → (⟨S1600000x1, .i32⟩ : BufTy).Contents (Elt F)),
    StableHlo.nullary main_cst_31 (constant S_ .f32 0x3F800000#32),
    StableHlo.unary main_cst_31 main_v114 (broadcastInDim S1600000 ![] bcast_S_S1600000 : (⟨S_, .f32⟩ : BufTy).Contents (Elt F) → (⟨S1600000, .f32⟩ : BufTy).Contents (Elt F)),
    StableHlo.ternary main_v107 main_v113 main_v114 main_v115 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_32 (constant S_ .f32 0x00000000#32),
    StableHlo.unary main_cst_32 main_v116 (broadcastInDim S50000 ![] bcast_S_S50000 : (⟨S_, .f32⟩ : BufTy).Contents (Elt F) → (⟨S50000, .f32⟩ : BufTy).Contents (Elt F)),
    StableHlo.binary main_v115 main_v116 main_v117 (cmpf .ogt : (⟨S50000, .f32⟩ : BufTy).Contents (Elt F) → (⟨S50000, .f32⟩ : BufTy).Contents (Elt F) → (⟨S50000, .i1⟩ : BufTy).Contents (Elt F)),
    StableHlo.nullary main_cst_33 (constant S_ .f32 0x3F800000#32),
    StableHlo.unary main_cst_33 main_v118 (broadcastInDim S50000 ![] bcast_S_S50000 : (⟨S_, .f32⟩ : BufTy).Contents (Elt F) → (⟨S50000, .f32⟩ : BufTy).Contents (Elt F)),
    StableHlo.binary main_v118 main_v115 main_v119 (Host.divf : (⟨S50000, .f32⟩ : BufTy).Contents (Elt F) → (⟨S50000, .f32⟩ : BufTy).Contents (Elt F) → (⟨S50000, .f32⟩ : BufTy).Contents (Elt F)),
    StableHlo.nullary main_cst_34 (constant S_ .f32 0x00000000#32),
    StableHlo.TRef.unary (StableHlo.TRef.of (T := ⟨S_, .f32⟩) main_cst_34) main_call4.v0 id,
    StableHlo.TRef.unary main_call4.v0 main_call4.v1 (broadcastInDim S50000 ![] bcast_S_S50000),
    StableHlo.TRef.ternary (StableHlo.TRef.of (T := ⟨S50000, .i1⟩) main_v117) (StableHlo.TRef.of (T := ⟨S50000, .f32⟩) main_v119) main_call4.v1 main_call4.v2 select ]

/-- Operations 175 … 207 of the program (stretch `msgU2`). -/
abbrev seg_msgU2 : List (HloOp τ sig (Elt F)) :=
  [ StableHlo.nullary main_c_35 (constantI S_ 32 0#32),
    StableHlo.unary main_c_35 main_v121 (broadcastInDim S1600000 ![] bcast_S_S1600000 : (⟨S_, .i32⟩ : BufTy).Contents (Elt F) → (⟨S1600000, .i32⟩ : BufTy).Contents (Elt F)),
    StableHlo.binary main_v100 main_v121 main_v122 (cmpi .slt : (⟨S1600000, .i32⟩ : BufTy).Contents (Elt F) → (⟨S1600000, .i32⟩ : BufTy).Contents (Elt F) → (⟨S1600000, .i1⟩ : BufTy).Contents (Elt F)),
    StableHlo.nullary main_c_36 (constantI S_ 32 50000#32),
    StableHlo.unary main_c_36 main_v123 (broadcastInDim S1600000 ![] bcast_S_S1600000 : (⟨S_, .i32⟩ : BufTy).Contents (Elt F) → (⟨S1600000, .i32⟩ : BufTy).Contents (Elt F)),
    StableHlo.binary main_v100 main_v123 main_v124 (addi : (⟨S1600000, .i32⟩ : BufTy).Contents (Elt F) → (⟨S1600000, .i32⟩ : BufTy).Contents (Elt F) → (⟨S1600000, .i32⟩ : BufTy).Contents (Elt F)),
    StableHlo.ternary main_v122 main_v124 main_v100 main_v125 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v125 main_v126 (broadcastInDim S1600000x1 ![0] bcast_S1600000_S1600000x1_0 : (⟨S1600000, .i32⟩ : BufTy).Contents (Elt F) → (⟨S1600000x1, .i32⟩ : BufTy).Contents (Elt F)),
    StableHlo.binary main_v120 main_v126 main_v127 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v127 main_arg10 main_v128 (mulf : (⟨S1600000, .f32⟩ : BufTy).Contents (Elt F) → (⟨S1600000, .f32⟩ : BufTy).Contents (Elt F) → (⟨S1600000, .f32⟩ : BufTy).Contents (Elt F)),
    StableHlo.unary main_v128 main_v129 (broadcastInDim S1600000x1 ![0] bcast_S1600000_S1600000x1_0 : (⟨S1600000, .f32⟩ : BufTy).Contents (Elt F) → (⟨S1600000x1, .f32⟩ : BufTy).Contents (Elt F)),
    StableHlo.nullary main_c_37 (constantI S_ 32 0#32),
    StableHlo.unary main_c_37 main_v130 (broadcastInDim S1600000 ![] bcast_S_S1600000 : (⟨S_, .i32⟩ : BufTy).Contents (Elt F) → (⟨S1600000, .i32⟩ : BufTy).Contents (Elt F)),
    StableHlo.binary main_v98 main_v130 main_v131 (cmpi .slt : (⟨S1600000, .i32⟩ : BufTy).Contents (Elt F) → (⟨S1600000, .i32⟩ : BufTy).Contents (Elt F) → (⟨S1600000, .i1⟩ : BufTy).Contents (Elt F)),
    StableHlo.nullary main_c_38 (constantI S_ 32 50000#32),
    StableHlo.unary main_c_38 main_v132 (broadcastInDim S1600000 ![] bcast_S_S1600000 : (⟨S_, .i32⟩ : BufTy).Contents (Elt F) → (⟨S1600000, .i32⟩ : BufTy).Contents (Elt F)),
    StableHlo.binary main_v98 main_v132 main_v133 (addi : (⟨S1600000, .i32⟩ : BufTy).Contents (Elt F) → (⟨S1600000, .i32⟩ : BufTy).Contents (Elt F) → (⟨S1600000, .i32⟩ : BufTy).Contents (Elt F)),
    StableHlo.ternary main_v131 main_v133 main_v98 main_v134 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v134 main_v135 (broadcastInDim S1600000x1 ![0] bcast_S1600000_S1600000x1_0 : (⟨S1600000, .i32⟩ : BufTy).Contents (Elt F) → (⟨S1600000x1, .i32⟩ : BufTy).Contents (Elt F)),
    StableHlo.binary main_v102 main_v135 main_v136 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    StableHlo.unary main_v129 main_v137 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v137 main_v136 main_v138 (mulf : (⟨S1600000x32, .f32⟩ : BufTy).Contents (Elt F) → (⟨S1600000x32, .f32⟩ : BufTy).Contents (Elt F) → (⟨S1600000x32, .f32⟩ : BufTy).Contents (Elt F)),
    StableHlo.nullary main_cst_39 (constant S_ .f32 0x00000000#32),
    StableHlo.unary main_cst_39 main_v139 (broadcastInDim S50000x32 ![] bcast_S_S50000x32 : (⟨S_, .f32⟩ : BufTy).Contents (Elt F) → (⟨S50000x32, .f32⟩ : BufTy).Contents (Elt F)),
    StableHlo.nullary main_c_40 (constantI S_ 32 0#32),
    StableHlo.unary main_c_40 main_v140 (broadcastInDim S1600000 ![] bcast_S_S1600000 : (⟨S_, .i32⟩ : BufTy).Contents (Elt F) → (⟨S1600000, .i32⟩ : BufTy).Contents (Elt F)),
    StableHlo.binary main_v100 main_v140 main_v141 (cmpi .slt : (⟨S1600000, .i32⟩ : BufTy).Contents (Elt F) → (⟨S1600000, .i32⟩ : BufTy).Contents (Elt F) → (⟨S1600000, .i1⟩ : BufTy).Contents (Elt F)),
    StableHlo.nullary main_c_41 (constantI S_ 32 50000#32),
    StableHlo.unary main_c_41 main_v142 (broadcastInDim S1600000 ![] bcast_S_S1600000 : (⟨S_, .i32⟩ : BufTy).Contents (Elt F) → (⟨S1600000, .i32⟩ : BufTy).Contents (Elt F)),
    StableHlo.binary main_v100 main_v142 main_v143 (addi : (⟨S1600000, .i32⟩ : BufTy).Contents (Elt F) → (⟨S1600000, .i32⟩ : BufTy).Contents (Elt F) → (⟨S1600000, .i32⟩ : BufTy).Contents (Elt F)),
    StableHlo.ternary main_v141 main_v143 main_v100 main_v144 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v144 main_v145 (broadcastInDim S1600000x1 ![0] bcast_S1600000_S1600000x1_0 : (⟨S1600000, .i32⟩ : BufTy).Contents (Elt F) → (⟨S1600000x1, .i32⟩ : BufTy).Contents (Elt F)),
    StableHlo.ternary main_v139 main_v145 main_v138 main_v146 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)) ]

/-- Operations 208 … 230 of the program (stretch `dinvD2`). -/
abbrev seg_dinvD2 : List (HloOp τ sig (Elt F)) :=
  [ StableHlo.nullary main_cst_42 (constant S_ .f32 0x00000000#32),
    StableHlo.unary main_cst_42 main_v147 (broadcastInDim S50000 ![] bcast_S_S50000 : (⟨S_, .f32⟩ : BufTy).Contents (Elt F) → (⟨S50000, .f32⟩ : BufTy).Contents (Elt F)),
    StableHlo.nullary main_c_43 (constantI S_ 32 0#32),
    StableHlo.unary main_c_43 main_v148 (broadcastInDim S1600000 ![] bcast_S_S1600000 : (⟨S_, .i32⟩ : BufTy).Contents (Elt F) → (⟨S1600000, .i32⟩ : BufTy).Contents (Elt F)),
    StableHlo.binary main_v98 main_v148 main_v149 (cmpi .slt : (⟨S1600000, .i32⟩ : BufTy).Contents (Elt F) → (⟨S1600000, .i32⟩ : BufTy).Contents (Elt F) → (⟨S1600000, .i1⟩ : BufTy).Contents (Elt F)),
    StableHlo.nullary main_c_44 (constantI S_ 32 50000#32),
    StableHlo.unary main_c_44 main_v150 (broadcastInDim S1600000 ![] bcast_S_S1600000 : (⟨S_, .i32⟩ : BufTy).Contents (Elt F) → (⟨S1600000, .i32⟩ : BufTy).Contents (Elt F)),
    StableHlo.binary main_v98 main_v150 main_v151 (addi : (⟨S1600000, .i32⟩ : BufTy).Contents (Elt F) → (⟨S1600000, .i32⟩ : BufTy).Contents (Elt F) → (⟨S1600000, .i32⟩ : BufTy).Contents (Elt F)),
    StableHlo.ternary main_v149 main_v151 main_v98 main_v152 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v152 main_v153 (broadcastInDim S1600000x1 ![0] bcast_S1600000_S1600000x1_0 : (⟨S1600000, .i32⟩ : BufTy).Contents (Elt F) → (⟨S1600000x1, .i32⟩ : BufTy).Contents (Elt F)),
    StableHlo.nullary main_cst_45 (constant S_ .f32 0x3F800000#32),
    StableHlo.unary main_cst_45 main_v154 (broadcastInDim S1600000 ![] bcast_S_S1600000 : (⟨S_, .f32⟩ : BufTy).Contents (Elt F) → (⟨S1600000, .f32⟩ : BufTy).Contents (Elt F)),
    StableHlo.ternary main_v147 main_v153 main_v154 main_v155 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_46 (constant S_ .f32 0x00000000#32),
    StableHlo.unary main_cst_46 main_v156 (broadcastInDim S50000 ![] bcast_S_S50000 : (⟨S_, .f32⟩ : BufTy).Contents (Elt F) → (⟨S50000, .f32⟩ : BufTy).Contents (Elt F)),
    StableHlo.binary main_v155 main_v156 main_v157 (cmpf .ogt : (⟨S50000, .f32⟩ : BufTy).Contents (Elt F) → (⟨S50000, .f32⟩ : BufTy).Contents (Elt F) → (⟨S50000, .i1⟩ : BufTy).Contents (Elt F)),
    StableHlo.nullary main_cst_47 (constant S_ .f32 0x3F800000#32),
    StableHlo.unary main_cst_47 main_v158 (broadcastInDim S50000 ![] bcast_S_S50000 : (⟨S_, .f32⟩ : BufTy).Contents (Elt F) → (⟨S50000, .f32⟩ : BufTy).Contents (Elt F)),
    StableHlo.binary main_v158 main_v155 main_v159 (Host.divf : (⟨S50000, .f32⟩ : BufTy).Contents (Elt F) → (⟨S50000, .f32⟩ : BufTy).Contents (Elt F) → (⟨S50000, .f32⟩ : BufTy).Contents (Elt F)),
    StableHlo.nullary main_cst_48 (constant S_ .f32 0x00000000#32),
    StableHlo.TRef.unary (StableHlo.TRef.of (T := ⟨S_, .f32⟩) main_cst_48) main_call5.v0 id,
    StableHlo.TRef.unary main_call5.v0 main_call5.v1 (broadcastInDim S50000 ![] bcast_S_S50000),
    StableHlo.TRef.ternary (StableHlo.TRef.of (T := ⟨S50000, .i1⟩) main_v157) (StableHlo.TRef.of (T := ⟨S50000, .f32⟩) main_v159) main_call5.v1 main_call5.v2 select ]

/-- Operations 231 … 263 of the program (stretch `msgD2`). -/
abbrev seg_msgD2 : List (HloOp τ sig (Elt F)) :=
  [ StableHlo.nullary main_c_49 (constantI S_ 32 0#32),
    StableHlo.unary main_c_49 main_v161 (broadcastInDim S1600000 ![] bcast_S_S1600000 : (⟨S_, .i32⟩ : BufTy).Contents (Elt F) → (⟨S1600000, .i32⟩ : BufTy).Contents (Elt F)),
    StableHlo.binary main_v98 main_v161 main_v162 (cmpi .slt : (⟨S1600000, .i32⟩ : BufTy).Contents (Elt F) → (⟨S1600000, .i32⟩ : BufTy).Contents (Elt F) → (⟨S1600000, .i1⟩ : BufTy).Contents (Elt F)),
    StableHlo.nullary main_c_50 (constantI S_ 32 50000#32),
    StableHlo.unary main_c_50 main_v163 (broadcastInDim S1600000 ![] bcast_S_S1600000 : (⟨S_, .i32⟩ : BufTy).Contents (Elt F) → (⟨S1600000, .i32⟩ : BufTy).Contents (Elt F)),
    StableHlo.binary main_v98 main_v163 main_v164 (addi : (⟨S1600000, .i32⟩ : BufTy).Contents (Elt F) → (⟨S1600000, .i32⟩ : BufTy).Contents (Elt F) → (⟨S1600000, .i32⟩ : BufTy).Contents (Elt F)),
    StableHlo.ternary main_v162 main_v164 main_v98 main_v165 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v165 main_v166 (broadcastInDim S1600000x1 ![0] bcast_S1600000_S1600000x1_0 : (⟨S1600000, .i32⟩ : BufTy).Contents (Elt F) → (⟨S1600000x1, .i32⟩ : BufTy).Contents (Elt F)),
    StableHlo.binary main_v160 main_v166 main_v167 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v167 main_arg11 main_v168 (mulf : (⟨S1600000, .f32⟩ : BufTy).Contents (Elt F) → (⟨S1600000, .f32⟩ : BufTy).Contents (Elt F) → (⟨S1600000, .f32⟩ : BufTy).Contents (Elt F)),
    StableHlo.unary main_v168 main_v169 (broadcastInDim S1600000x1 ![0] bcast_S1600000_S1600000x1_0 : (⟨S1600000, .f32⟩ : BufTy).Contents (Elt F) → (⟨S1600000x1, .f32⟩ : BufTy).Contents (Elt F)),
    StableHlo.nullary main_c_51 (constantI S_ 32 0#32),
    StableHlo.unary main_c_51 main_v170 (broadcastInDim S1600000 ![] bcast_S_S1600000 : (⟨S_, .i32⟩ : BufTy).Contents (Elt F) → (⟨S1600000, .i32⟩ : BufTy).Contents (Elt F)),
    StableHlo.binary main_v100 main_v170 main_v171 (cmpi .slt : (⟨S1600000, .i32⟩ : BufTy).Contents (Elt F) → (⟨S1600000, .i32⟩ : BufTy).Contents (Elt F) → (⟨S1600000, .i1⟩ : BufTy).Contents (Elt F)),
    StableHlo.nullary main_c_52 (constantI S_ 32 50000#32),
    StableHlo.unary main_c_52 main_v172 (broadcastInDim S1600000 ![] bcast_S_S1600000 : (⟨S_, .i32⟩ : BufTy).Contents (Elt F) → (⟨S1600000, .i32⟩ : BufTy).Contents (Elt F)),
    StableHlo.binary main_v100 main_v172 main_v173 (addi : (⟨S1600000, .i32⟩ : BufTy).Contents (Elt F) → (⟨S1600000, .i32⟩ : BufTy).Contents (Elt F) → (⟨S1600000, .i32⟩ : BufTy).Contents (Elt F)),
    StableHlo.ternary main_v171 main_v173 main_v100 main_v174 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v174 main_v175 (broadcastInDim S1600000x1 ![0] bcast_S1600000_S1600000x1_0 : (⟨S1600000, .i32⟩ : BufTy).Contents (Elt F) → (⟨S1600000x1, .i32⟩ : BufTy).Contents (Elt F)),
    StableHlo.binary main_v104 main_v175 main_v176 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    StableHlo.unary main_v169 main_v177 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v177 main_v176 main_v178 (mulf : (⟨S1600000x32, .f32⟩ : BufTy).Contents (Elt F) → (⟨S1600000x32, .f32⟩ : BufTy).Contents (Elt F) → (⟨S1600000x32, .f32⟩ : BufTy).Contents (Elt F)),
    StableHlo.nullary main_cst_53 (constant S_ .f32 0x00000000#32),
    StableHlo.unary main_cst_53 main_v179 (broadcastInDim S50000x32 ![] bcast_S_S50000x32 : (⟨S_, .f32⟩ : BufTy).Contents (Elt F) → (⟨S50000x32, .f32⟩ : BufTy).Contents (Elt F)),
    StableHlo.nullary main_c_54 (constantI S_ 32 0#32),
    StableHlo.unary main_c_54 main_v180 (broadcastInDim S1600000 ![] bcast_S_S1600000 : (⟨S_, .i32⟩ : BufTy).Contents (Elt F) → (⟨S1600000, .i32⟩ : BufTy).Contents (Elt F)),
    StableHlo.binary main_v98 main_v180 main_v181 (cmpi .slt : (⟨S1600000, .i32⟩ : BufTy).Contents (Elt F) → (⟨S1600000, .i32⟩ : BufTy).Contents (Elt F) → (⟨S1600000, .i1⟩ : BufTy).Contents (Elt F)),
    StableHlo.nullary main_c_55 (constantI S_ 32 50000#32),
    StableHlo.unary main_c_55 main_v182 (broadcastInDim S1600000 ![] bcast_S_S1600000 : (⟨S_, .i32⟩ : BufTy).Contents (Elt F) → (⟨S1600000, .i32⟩ : BufTy).Contents (Elt F)),
    StableHlo.binary main_v98 main_v182 main_v183 (addi : (⟨S1600000, .i32⟩ : BufTy).Contents (Elt F) → (⟨S1600000, .i32⟩ : BufTy).Contents (Elt F) → (⟨S1600000, .i32⟩ : BufTy).Contents (Elt F)),
    StableHlo.ternary main_v181 main_v183 main_v98 main_v184 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v184 main_v185 (broadcastInDim S1600000x1 ![0] bcast_S1600000_S1600000x1_0 : (⟨S1600000, .i32⟩ : BufTy).Contents (Elt F) → (⟨S1600000x1, .i32⟩ : BufTy).Contents (Elt F)),
    StableHlo.ternary main_v179 main_v185 main_v178 main_v186 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)) ]

/-- Operations 264 … 282 of the program (stretch `fin2`). -/
abbrev seg_fin2 : List (HloOp τ sig (Elt F)) :=
  [ StableHlo.nary ![main_v146, main_v186, main_v106] main_v187 (fun u => concatenate S50000x96 1 [⟨S50000x32, u 0⟩, ⟨S50000x32, u 1⟩, ⟨S50000x32, u 2⟩] concatenates_S50000x32_S50000x32_S50000x32_S50000x96_d1),
    StableHlo.TRef.binary (StableHlo.TRef.of (T := ⟨S50000x96, .f32⟩) main_v187) (StableHlo.TRef.of (T := ⟨S50000x96, .f32⟩) main_v187) main_call6.v0 mulf,
    StableHlo.TRef.nullary main_call6.cst (constant S_ .f32 0x00000000#32),
    StableHlo.TRef.binary main_call6.v0 main_call6.cst main_call6.v1 (fun x v => Host.reduceAdd x v reducesTo_S50000x96_S50000_d1 h_S_),
    StableHlo.TRef.unary main_call6.v1 main_call6.v2 (broadcastInDim S50000x1 ![0] bcast_S50000_S50000x1_0),
    StableHlo.TRef.unary main_call6.v2 main_call6.v3 Host.sqrt,
    StableHlo.nullary main_cst_56 (constant S_ .f32 0x2B8CBCCC#32),
    StableHlo.unary main_cst_56 main_v189 (broadcastInDim S50000x1 ![] bcast_S_S50000x1 : (⟨S_, .f32⟩ : BufTy).Contents (Elt F) → (⟨S50000x1, .f32⟩ : BufTy).Contents (Elt F)),
    StableHlo.binary main_v188 main_v189 main_v190 (maximumf : (⟨S50000x1, .f32⟩ : BufTy).Contents (Elt F) → (⟨S50000x1, .f32⟩ : BufTy).Contents (Elt F) → (⟨S50000x1, .f32⟩ : BufTy).Contents (Elt F)),
    StableHlo.unary main_v190 main_v191 (broadcastInDim S50000x96 ![0, 1] bcast_S50000x1_S50000x96_0_1 : (⟨S50000x1, .f32⟩ : BufTy).Contents (Elt F) → (⟨S50000x96, .f32⟩ : BufTy).Contents (Elt F)),
    StableHlo.binary main_v187 main_v191 main_v192 (Host.divf : (⟨S50000x96, .f32⟩ : BufTy).Contents (Elt F) → (⟨S50000x96, .f32⟩ : BufTy).Contents (Elt F) → (⟨S50000x96, .f32⟩ : BufTy).Contents (Elt F)),
    StableHlo.nullary main_cst_57 (constant S_ .f32 0x3DCCCCCD#32),
    StableHlo.TRef.nullary main_call7.cst (constant S_ .f32 0x00000000#32),
    StableHlo.TRef.unary main_call7.cst main_call7.v0 (broadcastInDim S50000x96 ![] bcast_S_S50000x96),
    StableHlo.TRef.binary (StableHlo.TRef.of (T := ⟨S50000x96, .f32⟩) main_v192) main_call7.v0 main_call7.v1 (cmpf .oge),
    StableHlo.TRef.unary (StableHlo.TRef.of (T := ⟨S_, .f32⟩) main_cst_57) main_call7.v2 id,
    StableHlo.TRef.unary main_call7.v2 main_call7.v3 (broadcastInDim S50000x96 ![] bcast_S_S50000x96),
    StableHlo.TRef.binary main_call7.v3 (StableHlo.TRef.of (T := ⟨S50000x96, .f32⟩) main_v192) main_call7.v4 mulf,
    StableHlo.TRef.ternary main_call7.v1 (StableHlo.TRef.of (T := ⟨S50000x96, .f32⟩) main_v192) main_call7.v4 main_call7.call0.v0 select ]

/-- Operations 283 … 292 of the program (stretch `pro3`). -/
abbrev seg_pro3 : List (HloOp τ sig (Elt F)) :=
  [ StableHlo.unary main_arg1 main_v194 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v194 main_v195 rfl shapeCasts_S1x1600000_S1600000,
    StableHlo.unary main_arg1 main_v196 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v196 main_v197 rfl shapeCasts_S1x1600000_S1600000,
    StableHlo.unary main_arg12 main_v198 ((transpose S96x32 [1, 0] · transposes_S32x96_S96x32_1_0) : (⟨S32x96, .f32⟩ : BufTy).Contents (Elt F) → (⟨S96x32, .f32⟩ : BufTy).Contents (Elt F)),
    StableHlo.binary main_v193 main_v198 main_v199 ((fun l r => Host.dotGeneral dot_S50000x96_S96x32_S50000x32_1_0_0_1_n_n none l r) : (⟨S50000x96, .f32⟩ : BufTy).Contents (Elt F) → (⟨S96x32, .f32⟩ : BufTy).Contents (Elt F) → (⟨S50000x32, .f32⟩ : BufTy).Contents (Elt F)),
    StableHlo.unary main_arg13 main_v200 ((transpose S96x32 [1, 0] · transposes_S32x96_S96x32_1_0) : (⟨S32x96, .f32⟩ : BufTy).Contents (Elt F) → (⟨S96x32, .f32⟩ : BufTy).Contents (Elt F)),
    StableHlo.binary main_v193 main_v200 main_v201 ((fun l r => Host.dotGeneral dot_S50000x96_S96x32_S50000x32_1_0_0_1_n_n none l r) : (⟨S50000x96, .f32⟩ : BufTy).Contents (Elt F) → (⟨S96x32, .f32⟩ : BufTy).Contents (Elt F) → (⟨S50000x32, .f32⟩ : BufTy).Contents (Elt F)),
    StableHlo.unary main_arg14 main_v202 ((transpose S96x32 [1, 0] · transposes_S32x96_S96x32_1_0) : (⟨S32x96, .f32⟩ : BufTy).Contents (Elt F) → (⟨S96x32, .f32⟩ : BufTy).Contents (Elt F)),
    StableHlo.binary main_v193 main_v202 main_v203 ((fun l r => Host.dotGeneral dot_S50000x96_S96x32_S50000x32_1_0_0_1_n_n none l r) : (⟨S50000x96, .f32⟩ : BufTy).Contents (Elt F) → (⟨S96x32, .f32⟩ : BufTy).Contents (Elt F) → (⟨S50000x32, .f32⟩ : BufTy).Contents (Elt F)) ]

/-- Operations 293 … 315 of the program (stretch `dinvU3`). -/
abbrev seg_dinvU3 : List (HloOp τ sig (Elt F)) :=
  [ StableHlo.nullary main_cst_58 (constant S_ .f32 0x00000000#32),
    StableHlo.unary main_cst_58 main_v204 (broadcastInDim S50000 ![] bcast_S_S50000 : (⟨S_, .f32⟩ : BufTy).Contents (Elt F) → (⟨S50000, .f32⟩ : BufTy).Contents (Elt F)),
    StableHlo.nullary main_c_59 (constantI S_ 32 0#32),
    StableHlo.unary main_c_59 main_v205 (broadcastInDim S1600000 ![] bcast_S_S1600000 : (⟨S_, .i32⟩ : BufTy).Contents (Elt F) → (⟨S1600000, .i32⟩ : BufTy).Contents (Elt F)),
    StableHlo.binary main_v197 main_v205 main_v206 (cmpi .slt : (⟨S1600000, .i32⟩ : BufTy).Contents (Elt F) → (⟨S1600000, .i32⟩ : BufTy).Contents (Elt F) → (⟨S1600000, .i1⟩ : BufTy).Contents (Elt F)),
    StableHlo.nullary main_c_60 (constantI S_ 32 50000#32),
    StableHlo.unary main_c_60 main_v207 (broadcastInDim S1600000 ![] bcast_S_S1600000 : (⟨S_, .i32⟩ : BufTy).Contents (Elt F) → (⟨S1600000, .i32⟩ : BufTy).Contents (Elt F)),
    StableHlo.binary main_v197 main_v207 main_v208 (addi : (⟨S1600000, .i32⟩ : BufTy).Contents (Elt F) → (⟨S1600000, .i32⟩ : BufTy).Contents (Elt F) → (⟨S1600000, .i32⟩ : BufTy).Contents (Elt F)),
    StableHlo.ternary main_v206 main_v208 main_v197 main_v209 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v209 main_v210 (broadcastInDim S1600000x1 ![0] bcast_S1600000_S1600000x1_0 : (⟨S1600000, .i32⟩ : BufTy).Contents (Elt F) → (⟨S1600000x1, .i32⟩ : BufTy).Contents (Elt F)),
    StableHlo.nullary main_cst_61 (constant S_ .f32 0x3F800000#32),
    StableHlo.unary main_cst_61 main_v211 (broadcastInDim S1600000 ![] bcast_S_S1600000 : (⟨S_, .f32⟩ : BufTy).Contents (Elt F) → (⟨S1600000, .f32⟩ : BufTy).Contents (Elt F)),
    StableHlo.ternary main_v204 main_v210 main_v211 main_v212 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_62 (constant S_ .f32 0x00000000#32),
    StableHlo.unary main_cst_62 main_v213 (broadcastInDim S50000 ![] bcast_S_S50000 : (⟨S_, .f32⟩ : BufTy).Contents (Elt F) → (⟨S50000, .f32⟩ : BufTy).Contents (Elt F)),
    StableHlo.binary main_v212 main_v213 main_v214 (cmpf .ogt : (⟨S50000, .f32⟩ : BufTy).Contents (Elt F) → (⟨S50000, .f32⟩ : BufTy).Contents (Elt F) → (⟨S50000, .i1⟩ : BufTy).Contents (Elt F)),
    StableHlo.nullary main_cst_63 (constant S_ .f32 0x3F800000#32),
    StableHlo.unary main_cst_63 main_v215 (broadcastInDim S50000 ![] bcast_S_S50000 : (⟨S_, .f32⟩ : BufTy).Contents (Elt F) → (⟨S50000, .f32⟩ : BufTy).Contents (Elt F)),
    StableHlo.binary main_v215 main_v212 main_v216 (Host.divf : (⟨S50000, .f32⟩ : BufTy).Contents (Elt F) → (⟨S50000, .f32⟩ : BufTy).Contents (Elt F) → (⟨S50000, .f32⟩ : BufTy).Contents (Elt F)),
    StableHlo.nullary main_cst_64 (constant S_ .f32 0x00000000#32),
    StableHlo.TRef.unary (StableHlo.TRef.of (T := ⟨S_, .f32⟩) main_cst_64) main_call8.v0 id,
    StableHlo.TRef.unary main_call8.v0 main_call8.v1 (broadcastInDim S50000 ![] bcast_S_S50000),
    StableHlo.TRef.ternary (StableHlo.TRef.of (T := ⟨S50000, .i1⟩) main_v214) (StableHlo.TRef.of (T := ⟨S50000, .f32⟩) main_v216) main_call8.v1 main_call8.v2 select ]

/-- Operations 316 … 348 of the program (stretch `msgU3`). -/
abbrev seg_msgU3 : List (HloOp τ sig (Elt F)) :=
  [ StableHlo.nullary main_c_65 (constantI S_ 32 0#32),
    StableHlo.unary main_c_65 main_v218 (broadcastInDim S1600000 ![] bcast_S_S1600000 : (⟨S_, .i32⟩ : BufTy).Contents (Elt F) → (⟨S1600000, .i32⟩ : BufTy).Contents (Elt F)),
    StableHlo.binary main_v197 main_v218 main_v219 (cmpi .slt : (⟨S1600000, .i32⟩ : BufTy).Contents (Elt F) → (⟨S1600000, .i32⟩ : BufTy).Contents (Elt F) → (⟨S1600000, .i1⟩ : BufTy).Contents (Elt F)),
    StableHlo.nullary main_c_66 (constantI S_ 32 50000#32),
    StableHlo.unary main_c_66 main_v220 (broadcastInDim S1600000 ![] bcast_S_S1600000 : (⟨S_, .i32⟩ : BufTy).Contents (Elt F) → (⟨S1600000, .i32⟩ : BufTy).Contents (Elt F)),
    StableHlo.binary main_v197 main_v220 main_v221 (addi : (⟨S1600000, .i32⟩ : BufTy).Contents (Elt F) → (⟨S1600000, .i32⟩ : BufTy).Contents (Elt F) → (⟨S1600000, .i32⟩ : BufTy).Contents (Elt F)),
    StableHlo.ternary main_v219 main_v221 main_v197 main_v222 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v222 main_v223 (broadcastInDim S1600000x1 ![0] bcast_S1600000_S1600000x1_0 : (⟨S1600000, .i32⟩ : BufTy).Contents (Elt F) → (⟨S1600000x1, .i32⟩ : BufTy).Contents (Elt F)),
    StableHlo.binary main_v217 main_v223 main_v224 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v224 main_arg15 main_v225 (mulf : (⟨S1600000, .f32⟩ : BufTy).Contents (Elt F) → (⟨S1600000, .f32⟩ : BufTy).Contents (Elt F) → (⟨S1600000, .f32⟩ : BufTy).Contents (Elt F)),
    StableHlo.unary main_v225 main_v226 (broadcastInDim S1600000x1 ![0] bcast_S1600000_S1600000x1_0 : (⟨S1600000, .f32⟩ : BufTy).Contents (Elt F) → (⟨S1600000x1, .f32⟩ : BufTy).Contents (Elt F)),
    StableHlo.nullary main_c_67 (constantI S_ 32 0#32),
    StableHlo.unary main_c_67 main_v227 (broadcastInDim S1600000 ![] bcast_S_S1600000 : (⟨S_, .i32⟩ : BufTy).Contents (Elt F) → (⟨S1600000, .i32⟩ : BufTy).Contents (Elt F)),
    StableHlo.binary main_v195 main_v227 main_v228 (cmpi .slt : (⟨S1600000, .i32⟩ : BufTy).Contents (Elt F) → (⟨S1600000, .i32⟩ : BufTy).Contents (Elt F) → (⟨S1600000, .i1⟩ : BufTy).Contents (Elt F)),
    StableHlo.nullary main_c_68 (constantI S_ 32 50000#32),
    StableHlo.unary main_c_68 main_v229 (broadcastInDim S1600000 ![] bcast_S_S1600000 : (⟨S_, .i32⟩ : BufTy).Contents (Elt F) → (⟨S1600000, .i32⟩ : BufTy).Contents (Elt F)),
    StableHlo.binary main_v195 main_v229 main_v230 (addi : (⟨S1600000, .i32⟩ : BufTy).Contents (Elt F) → (⟨S1600000, .i32⟩ : BufTy).Contents (Elt F) → (⟨S1600000, .i32⟩ : BufTy).Contents (Elt F)),
    StableHlo.ternary main_v228 main_v230 main_v195 main_v231 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v231 main_v232 (broadcastInDim S1600000x1 ![0] bcast_S1600000_S1600000x1_0 : (⟨S1600000, .i32⟩ : BufTy).Contents (Elt F) → (⟨S1600000x1, .i32⟩ : BufTy).Contents (Elt F)),
    StableHlo.binary main_v199 main_v232 main_v233 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    StableHlo.unary main_v226 main_v234 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v234 main_v233 main_v235 (mulf : (⟨S1600000x32, .f32⟩ : BufTy).Contents (Elt F) → (⟨S1600000x32, .f32⟩ : BufTy).Contents (Elt F) → (⟨S1600000x32, .f32⟩ : BufTy).Contents (Elt F)),
    StableHlo.nullary main_cst_69 (constant S_ .f32 0x00000000#32),
    StableHlo.unary main_cst_69 main_v236 (broadcastInDim S50000x32 ![] bcast_S_S50000x32 : (⟨S_, .f32⟩ : BufTy).Contents (Elt F) → (⟨S50000x32, .f32⟩ : BufTy).Contents (Elt F)),
    StableHlo.nullary main_c_70 (constantI S_ 32 0#32),
    StableHlo.unary main_c_70 main_v237 (broadcastInDim S1600000 ![] bcast_S_S1600000 : (⟨S_, .i32⟩ : BufTy).Contents (Elt F) → (⟨S1600000, .i32⟩ : BufTy).Contents (Elt F)),
    StableHlo.binary main_v197 main_v237 main_v238 (cmpi .slt : (⟨S1600000, .i32⟩ : BufTy).Contents (Elt F) → (⟨S1600000, .i32⟩ : BufTy).Contents (Elt F) → (⟨S1600000, .i1⟩ : BufTy).Contents (Elt F)),
    StableHlo.nullary main_c_71 (constantI S_ 32 50000#32),
    StableHlo.unary main_c_71 main_v239 (broadcastInDim S1600000 ![] bcast_S_S1600000 : (⟨S_, .i32⟩ : BufTy).Contents (Elt F) → (⟨S1600000, .i32⟩ : BufTy).Contents (Elt F)),
    StableHlo.binary main_v197 main_v239 main_v240 (addi : (⟨S1600000, .i32⟩ : BufTy).Contents (Elt F) → (⟨S1600000, .i32⟩ : BufTy).Contents (Elt F) → (⟨S1600000, .i32⟩ : BufTy).Contents (Elt F)),
    StableHlo.ternary main_v238 main_v240 main_v197 main_v241 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v241 main_v242 (broadcastInDim S1600000x1 ![0] bcast_S1600000_S1600000x1_0 : (⟨S1600000, .i32⟩ : BufTy).Contents (Elt F) → (⟨S1600000x1, .i32⟩ : BufTy).Contents (Elt F)),
    StableHlo.ternary main_v236 main_v242 main_v235 main_v243 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)) ]

/-- Operations 349 … 371 of the program (stretch `dinvD3`). -/
abbrev seg_dinvD3 : List (HloOp τ sig (Elt F)) :=
  [ StableHlo.nullary main_cst_72 (constant S_ .f32 0x00000000#32),
    StableHlo.unary main_cst_72 main_v244 (broadcastInDim S50000 ![] bcast_S_S50000 : (⟨S_, .f32⟩ : BufTy).Contents (Elt F) → (⟨S50000, .f32⟩ : BufTy).Contents (Elt F)),
    StableHlo.nullary main_c_73 (constantI S_ 32 0#32),
    StableHlo.unary main_c_73 main_v245 (broadcastInDim S1600000 ![] bcast_S_S1600000 : (⟨S_, .i32⟩ : BufTy).Contents (Elt F) → (⟨S1600000, .i32⟩ : BufTy).Contents (Elt F)),
    StableHlo.binary main_v195 main_v245 main_v246 (cmpi .slt : (⟨S1600000, .i32⟩ : BufTy).Contents (Elt F) → (⟨S1600000, .i32⟩ : BufTy).Contents (Elt F) → (⟨S1600000, .i1⟩ : BufTy).Contents (Elt F)),
    StableHlo.nullary main_c_74 (constantI S_ 32 50000#32),
    StableHlo.unary main_c_74 main_v247 (broadcastInDim S1600000 ![] bcast_S_S1600000 : (⟨S_, .i32⟩ : BufTy).Contents (Elt F) → (⟨S1600000, .i32⟩ : BufTy).Contents (Elt F)),
    StableHlo.binary main_v195 main_v247 main_v248 (addi : (⟨S1600000, .i32⟩ : BufTy).Contents (Elt F) → (⟨S1600000, .i32⟩ : BufTy).Contents (Elt F) → (⟨S1600000, .i32⟩ : BufTy).Contents (Elt F)),
    StableHlo.ternary main_v246 main_v248 main_v195 main_v249 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v249 main_v250 (broadcastInDim S1600000x1 ![0] bcast_S1600000_S1600000x1_0 : (⟨S1600000, .i32⟩ : BufTy).Contents (Elt F) → (⟨S1600000x1, .i32⟩ : BufTy).Contents (Elt F)),
    StableHlo.nullary main_cst_75 (constant S_ .f32 0x3F800000#32),
    StableHlo.unary main_cst_75 main_v251 (broadcastInDim S1600000 ![] bcast_S_S1600000 : (⟨S_, .f32⟩ : BufTy).Contents (Elt F) → (⟨S1600000, .f32⟩ : BufTy).Contents (Elt F)),
    StableHlo.ternary main_v244 main_v250 main_v251 main_v252 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_76 (constant S_ .f32 0x00000000#32),
    StableHlo.unary main_cst_76 main_v253 (broadcastInDim S50000 ![] bcast_S_S50000 : (⟨S_, .f32⟩ : BufTy).Contents (Elt F) → (⟨S50000, .f32⟩ : BufTy).Contents (Elt F)),
    StableHlo.binary main_v252 main_v253 main_v254 (cmpf .ogt : (⟨S50000, .f32⟩ : BufTy).Contents (Elt F) → (⟨S50000, .f32⟩ : BufTy).Contents (Elt F) → (⟨S50000, .i1⟩ : BufTy).Contents (Elt F)),
    StableHlo.nullary main_cst_77 (constant S_ .f32 0x3F800000#32),
    StableHlo.unary main_cst_77 main_v255 (broadcastInDim S50000 ![] bcast_S_S50000 : (⟨S_, .f32⟩ : BufTy).Contents (Elt F) → (⟨S50000, .f32⟩ : BufTy).Contents (Elt F)),
    StableHlo.binary main_v255 main_v252 main_v256 (Host.divf : (⟨S50000, .f32⟩ : BufTy).Contents (Elt F) → (⟨S50000, .f32⟩ : BufTy).Contents (Elt F) → (⟨S50000, .f32⟩ : BufTy).Contents (Elt F)),
    StableHlo.nullary main_cst_78 (constant S_ .f32 0x00000000#32),
    StableHlo.TRef.unary (StableHlo.TRef.of (T := ⟨S_, .f32⟩) main_cst_78) main_call9.v0 id,
    StableHlo.TRef.unary main_call9.v0 main_call9.v1 (broadcastInDim S50000 ![] bcast_S_S50000),
    StableHlo.TRef.ternary (StableHlo.TRef.of (T := ⟨S50000, .i1⟩) main_v254) (StableHlo.TRef.of (T := ⟨S50000, .f32⟩) main_v256) main_call9.v1 main_call9.v2 select ]

/-- Operations 372 … 404 of the program (stretch `msgD3`). -/
abbrev seg_msgD3 : List (HloOp τ sig (Elt F)) :=
  [ StableHlo.nullary main_c_79 (constantI S_ 32 0#32),
    StableHlo.unary main_c_79 main_v258 (broadcastInDim S1600000 ![] bcast_S_S1600000 : (⟨S_, .i32⟩ : BufTy).Contents (Elt F) → (⟨S1600000, .i32⟩ : BufTy).Contents (Elt F)),
    StableHlo.binary main_v195 main_v258 main_v259 (cmpi .slt : (⟨S1600000, .i32⟩ : BufTy).Contents (Elt F) → (⟨S1600000, .i32⟩ : BufTy).Contents (Elt F) → (⟨S1600000, .i1⟩ : BufTy).Contents (Elt F)),
    StableHlo.nullary main_c_80 (constantI S_ 32 50000#32),
    StableHlo.unary main_c_80 main_v260 (broadcastInDim S1600000 ![] bcast_S_S1600000 : (⟨S_, .i32⟩ : BufTy).Contents (Elt F) → (⟨S1600000, .i32⟩ : BufTy).Contents (Elt F)),
    StableHlo.binary main_v195 main_v260 main_v261 (addi : (⟨S1600000, .i32⟩ : BufTy).Contents (Elt F) → (⟨S1600000, .i32⟩ : BufTy).Contents (Elt F) → (⟨S1600000, .i32⟩ : BufTy).Contents (Elt F)),
    StableHlo.ternary main_v259 main_v261 main_v195 main_v262 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v262 main_v263 (broadcastInDim S1600000x1 ![0] bcast_S1600000_S1600000x1_0 : (⟨S1600000, .i32⟩ : BufTy).Contents (Elt F) → (⟨S1600000x1, .i32⟩ : BufTy).Contents (Elt F)),
    StableHlo.binary main_v257 main_v263 main_v264 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v264 main_arg16 main_v265 (mulf : (⟨S1600000, .f32⟩ : BufTy).Contents (Elt F) → (⟨S1600000, .f32⟩ : BufTy).Contents (Elt F) → (⟨S1600000, .f32⟩ : BufTy).Contents (Elt F)),
    StableHlo.unary main_v265 main_v266 (broadcastInDim S1600000x1 ![0] bcast_S1600000_S1600000x1_0 : (⟨S1600000, .f32⟩ : BufTy).Contents (Elt F) → (⟨S1600000x1, .f32⟩ : BufTy).Contents (Elt F)),
    StableHlo.nullary main_c_81 (constantI S_ 32 0#32),
    StableHlo.unary main_c_81 main_v267 (broadcastInDim S1600000 ![] bcast_S_S1600000 : (⟨S_, .i32⟩ : BufTy).Contents (Elt F) → (⟨S1600000, .i32⟩ : BufTy).Contents (Elt F)),
    StableHlo.binary main_v197 main_v267 main_v268 (cmpi .slt : (⟨S1600000, .i32⟩ : BufTy).Contents (Elt F) → (⟨S1600000, .i32⟩ : BufTy).Contents (Elt F) → (⟨S1600000, .i1⟩ : BufTy).Contents (Elt F)),
    StableHlo.nullary main_c_82 (constantI S_ 32 50000#32),
    StableHlo.unary main_c_82 main_v269 (broadcastInDim S1600000 ![] bcast_S_S1600000 : (⟨S_, .i32⟩ : BufTy).Contents (Elt F) → (⟨S1600000, .i32⟩ : BufTy).Contents (Elt F)),
    StableHlo.binary main_v197 main_v269 main_v270 (addi : (⟨S1600000, .i32⟩ : BufTy).Contents (Elt F) → (⟨S1600000, .i32⟩ : BufTy).Contents (Elt F) → (⟨S1600000, .i32⟩ : BufTy).Contents (Elt F)),
    StableHlo.ternary main_v268 main_v270 main_v197 main_v271 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v271 main_v272 (broadcastInDim S1600000x1 ![0] bcast_S1600000_S1600000x1_0 : (⟨S1600000, .i32⟩ : BufTy).Contents (Elt F) → (⟨S1600000x1, .i32⟩ : BufTy).Contents (Elt F)),
    StableHlo.binary main_v201 main_v272 main_v273 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    StableHlo.unary main_v266 main_v274 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v274 main_v273 main_v275 (mulf : (⟨S1600000x32, .f32⟩ : BufTy).Contents (Elt F) → (⟨S1600000x32, .f32⟩ : BufTy).Contents (Elt F) → (⟨S1600000x32, .f32⟩ : BufTy).Contents (Elt F)),
    StableHlo.nullary main_cst_83 (constant S_ .f32 0x00000000#32),
    StableHlo.unary main_cst_83 main_v276 (broadcastInDim S50000x32 ![] bcast_S_S50000x32 : (⟨S_, .f32⟩ : BufTy).Contents (Elt F) → (⟨S50000x32, .f32⟩ : BufTy).Contents (Elt F)),
    StableHlo.nullary main_c_84 (constantI S_ 32 0#32),
    StableHlo.unary main_c_84 main_v277 (broadcastInDim S1600000 ![] bcast_S_S1600000 : (⟨S_, .i32⟩ : BufTy).Contents (Elt F) → (⟨S1600000, .i32⟩ : BufTy).Contents (Elt F)),
    StableHlo.binary main_v195 main_v277 main_v278 (cmpi .slt : (⟨S1600000, .i32⟩ : BufTy).Contents (Elt F) → (⟨S1600000, .i32⟩ : BufTy).Contents (Elt F) → (⟨S1600000, .i1⟩ : BufTy).Contents (Elt F)),
    StableHlo.nullary main_c_85 (constantI S_ 32 50000#32),
    StableHlo.unary main_c_85 main_v279 (broadcastInDim S1600000 ![] bcast_S_S1600000 : (⟨S_, .i32⟩ : BufTy).Contents (Elt F) → (⟨S1600000, .i32⟩ : BufTy).Contents (Elt F)),
    StableHlo.binary main_v195 main_v279 main_v280 (addi : (⟨S1600000, .i32⟩ : BufTy).Contents (Elt F) → (⟨S1600000, .i32⟩ : BufTy).Contents (Elt F) → (⟨S1600000, .i32⟩ : BufTy).Contents (Elt F)),
    StableHlo.ternary main_v278 main_v280 main_v195 main_v281 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v281 main_v282 (broadcastInDim S1600000x1 ![0] bcast_S1600000_S1600000x1_0 : (⟨S1600000, .i32⟩ : BufTy).Contents (Elt F) → (⟨S1600000x1, .i32⟩ : BufTy).Contents (Elt F)),
    StableHlo.ternary main_v276 main_v282 main_v275 main_v283 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)) ]

/-- Operations 405 … 423 of the program (stretch `fin3`). -/
abbrev seg_fin3 : List (HloOp τ sig (Elt F)) :=
  [ StableHlo.nary ![main_v243, main_v283, main_v203] main_v284 (fun u => concatenate S50000x96 1 [⟨S50000x32, u 0⟩, ⟨S50000x32, u 1⟩, ⟨S50000x32, u 2⟩] concatenates_S50000x32_S50000x32_S50000x32_S50000x96_d1),
    StableHlo.TRef.binary (StableHlo.TRef.of (T := ⟨S50000x96, .f32⟩) main_v284) (StableHlo.TRef.of (T := ⟨S50000x96, .f32⟩) main_v284) main_call10.v0 mulf,
    StableHlo.TRef.nullary main_call10.cst (constant S_ .f32 0x00000000#32),
    StableHlo.TRef.binary main_call10.v0 main_call10.cst main_call10.v1 (fun x v => Host.reduceAdd x v reducesTo_S50000x96_S50000_d1 h_S_),
    StableHlo.TRef.unary main_call10.v1 main_call10.v2 (broadcastInDim S50000x1 ![0] bcast_S50000_S50000x1_0),
    StableHlo.TRef.unary main_call10.v2 main_call10.v3 Host.sqrt,
    StableHlo.nullary main_cst_86 (constant S_ .f32 0x2B8CBCCC#32),
    StableHlo.unary main_cst_86 main_v286 (broadcastInDim S50000x1 ![] bcast_S_S50000x1 : (⟨S_, .f32⟩ : BufTy).Contents (Elt F) → (⟨S50000x1, .f32⟩ : BufTy).Contents (Elt F)),
    StableHlo.binary main_v285 main_v286 main_v287 (maximumf : (⟨S50000x1, .f32⟩ : BufTy).Contents (Elt F) → (⟨S50000x1, .f32⟩ : BufTy).Contents (Elt F) → (⟨S50000x1, .f32⟩ : BufTy).Contents (Elt F)),
    StableHlo.unary main_v287 main_v288 (broadcastInDim S50000x96 ![0, 1] bcast_S50000x1_S50000x96_0_1 : (⟨S50000x1, .f32⟩ : BufTy).Contents (Elt F) → (⟨S50000x96, .f32⟩ : BufTy).Contents (Elt F)),
    StableHlo.binary main_v284 main_v288 main_v289 (Host.divf : (⟨S50000x96, .f32⟩ : BufTy).Contents (Elt F) → (⟨S50000x96, .f32⟩ : BufTy).Contents (Elt F) → (⟨S50000x96, .f32⟩ : BufTy).Contents (Elt F)),
    StableHlo.nullary main_cst_87 (constant S_ .f32 0x3DCCCCCD#32),
    StableHlo.TRef.nullary main_call11.cst (constant S_ .f32 0x00000000#32),
    StableHlo.TRef.unary main_call11.cst main_call11.v0 (broadcastInDim S50000x96 ![] bcast_S_S50000x96),
    StableHlo.TRef.binary (StableHlo.TRef.of (T := ⟨S50000x96, .f32⟩) main_v289) main_call11.v0 main_call11.v1 (cmpf .oge),
    StableHlo.TRef.unary (StableHlo.TRef.of (T := ⟨S_, .f32⟩) main_cst_87) main_call11.v2 id,
    StableHlo.TRef.unary main_call11.v2 main_call11.v3 (broadcastInDim S50000x96 ![] bcast_S_S50000x96),
    StableHlo.TRef.binary main_call11.v3 (StableHlo.TRef.of (T := ⟨S50000x96, .f32⟩) main_v289) main_call11.v4 mulf,
    StableHlo.TRef.ternary main_call11.v1 (StableHlo.TRef.of (T := ⟨S50000x96, .f32⟩) main_v289) main_call11.v4 main_call11.call0.v0 select ]

/-- Operations 424 … 433 of the program (stretch `tail`). -/
abbrev seg_tail : List (HloOp τ sig (Elt F)) :=
  [ StableHlo.binary main_arg5 main_arg10 main_v291 (addf : (⟨S1600000, .f32⟩ : BufTy).Contents (Elt F) → (⟨S1600000, .f32⟩ : BufTy).Contents (Elt F) → (⟨S1600000, .f32⟩ : BufTy).Contents (Elt F)),
    StableHlo.binary main_v291 main_arg15 main_v292 (addf : (⟨S1600000, .f32⟩ : BufTy).Contents (Elt F) → (⟨S1600000, .f32⟩ : BufTy).Contents (Elt F) → (⟨S1600000, .f32⟩ : BufTy).Contents (Elt F)),
    StableHlo.nullary main_cst_88 (constant S_ .f32 0x40400000#32),
    StableHlo.unary main_cst_88 main_v293 (broadcastInDim S1600000 ![] bcast_S_S1600000 : (⟨S_, .f32⟩ : BufTy).Contents (Elt F) → (⟨S1600000, .f32⟩ : BufTy).Contents (Elt F)),
    StableHlo.binary main_v292 main_v293 main_v294 (Host.divf : (⟨S1600000, .f32⟩ : BufTy).Contents (Elt F) → (⟨S1600000, .f32⟩ : BufTy).Contents (Elt F) → (⟨S1600000, .f32⟩ : BufTy).Contents (Elt F)),
    StableHlo.binary main_arg6 main_arg11 main_v295 (addf : (⟨S1600000, .f32⟩ : BufTy).Contents (Elt F) → (⟨S1600000, .f32⟩ : BufTy).Contents (Elt F) → (⟨S1600000, .f32⟩ : BufTy).Contents (Elt F)),
    StableHlo.binary main_v295 main_arg16 main_v296 (addf : (⟨S1600000, .f32⟩ : BufTy).Contents (Elt F) → (⟨S1600000, .f32⟩ : BufTy).Contents (Elt F) → (⟨S1600000, .f32⟩ : BufTy).Contents (Elt F)),
    StableHlo.nullary main_cst_89 (constant S_ .f32 0x40400000#32),
    StableHlo.unary main_cst_89 main_v297 (broadcastInDim S1600000 ![] bcast_S_S1600000 : (⟨S_, .f32⟩ : BufTy).Contents (Elt F) → (⟨S1600000, .f32⟩ : BufTy).Contents (Elt F)),
    StableHlo.binary main_v296 main_v297 main_v298 (Host.divf : (⟨S1600000, .f32⟩ : BufTy).Contents (Elt F) → (⟨S1600000, .f32⟩ : BufTy).Contents (Elt F) → (⟨S1600000, .f32⟩ : BufTy).Contents (Elt F)) ]

set_option maxRecDepth 16384 in
/-- The program's operations are the stretches' in order. -/
theorem ops_eq_segs : (ops : List (HloOp τ sig (Elt F))) = seg_pro1 ++ (seg_dinvU1 ++ (seg_msgU1 ++ (seg_dinvD1 ++ (seg_msgD1 ++ (seg_fin1 ++ (seg_pro2 ++ (seg_dinvU2 ++ (seg_msgU2 ++ (seg_dinvD2 ++ (seg_msgD2 ++ (seg_fin2 ++ (seg_pro3 ++ (seg_dinvU3 ++ (seg_msgU3 ++ (seg_dinvD3 ++ (seg_msgD3 ++ (seg_fin3 ++ (seg_tail)))))))))))))))))) := rfl

/-! ## What each stretch writes, and that it leaves every other buffer alone -/

/-- The references stretch `pro1` writes. -/
abbrev seg_pro1_W : List (Ref sig .tc) := [main_v0, main_v1, main_v2, main_v3, main_v4, main_v5, main_v6, main_v7, main_v8, main_v9]
set_option maxRecDepth 8192 in
theorem seg_pro1_writes : (seg_pro1 : List (HloOp τ sig (Elt F))).Forall fun op => op.writes ⊆ (seg_pro1_W.map (Proc.devRef (τ := τ) .tc)).toFinset :=
  ⟨writes_sub_of_mem (y := main_v0) rfl (by decide),
   writes_sub_of_mem (y := main_v1) rfl (by decide),
   writes_sub_of_mem (y := main_v2) rfl (by decide),
   writes_sub_of_mem (y := main_v3) rfl (by decide),
   writes_sub_of_mem (y := main_v4) rfl (by decide),
   writes_sub_of_mem (y := main_v5) rfl (by decide),
   writes_sub_of_mem (y := main_v6) rfl (by decide),
   writes_sub_of_mem (y := main_v7) rfl (by decide),
   writes_sub_of_mem (y := main_v8) rfl (by decide),
   writes_sub_of_mem (y := main_v9) rfl (by decide)⟩
/-- A reference stretch `pro1` does not write keeps its contents through it. -/
theorem seg_pro1_keep (V : Valuation τ sig (Elt F)) {r : Ref sig .tc} (h : r ∉ seg_pro1_W) :
    after seg_pro1 V (Proc.devRef .tc r) = V (Proc.devRef .tc r) :=
  after_of_writes_sub seg_pro1 V seg_pro1_writes h

/-- The references stretch `dinvU1` writes. -/
abbrev seg_dinvU1_W : List (Ref sig .tc) := [main_cst, main_v10, main_c, main_v11, main_v12, main_c_0, main_v13, main_v14, main_v15, main_v16, main_cst_1, main_v17, main_v18, main_cst_2, main_v19, main_v20, main_cst_3, main_v21, main_v22, main_cst_4, main_call0_v0, main_call0_v1, main_v23]
set_option maxRecDepth 8192 in
theorem seg_dinvU1_writes : (seg_dinvU1 : List (HloOp τ sig (Elt F))).Forall fun op => op.writes ⊆ (seg_dinvU1_W.map (Proc.devRef (τ := τ) .tc)).toFinset :=
  ⟨writes_sub_of_mem (y := main_cst) rfl (by decide),
   writes_sub_of_mem (y := main_v10) rfl (by decide),
   writes_sub_of_mem (y := main_c) rfl (by decide),
   writes_sub_of_mem (y := main_v11) rfl (by decide),
   writes_sub_of_mem (y := main_v12) rfl (by decide),
   writes_sub_of_mem (y := main_c_0) rfl (by decide),
   writes_sub_of_mem (y := main_v13) rfl (by decide),
   writes_sub_of_mem (y := main_v14) rfl (by decide),
   writes_sub_of_mem (y := main_v15) rfl (by decide),
   writes_sub_of_mem (y := main_v16) rfl (by decide),
   writes_sub_of_mem (y := main_cst_1) rfl (by decide),
   writes_sub_of_mem (y := main_v17) rfl (by decide),
   writes_sub_of_mem (y := main_v18) rfl (by decide),
   writes_sub_of_mem (y := main_cst_2) rfl (by decide),
   writes_sub_of_mem (y := main_v19) rfl (by decide),
   writes_sub_of_mem (y := main_v20) rfl (by decide),
   writes_sub_of_mem (y := main_cst_3) rfl (by decide),
   writes_sub_of_mem (y := main_v21) rfl (by decide),
   writes_sub_of_mem (y := main_v22) rfl (by decide),
   writes_sub_of_mem (y := main_cst_4) rfl (by decide),
   writes_sub_of_mem (y := main_call0_v0) rfl (by decide),
   writes_sub_of_mem (y := main_call0_v1) rfl (by decide),
   writes_sub_of_mem (y := main_v23) rfl (by decide)⟩
/-- A reference stretch `dinvU1` does not write keeps its contents through it. -/
theorem seg_dinvU1_keep (V : Valuation τ sig (Elt F)) {r : Ref sig .tc} (h : r ∉ seg_dinvU1_W) :
    after seg_dinvU1 V (Proc.devRef .tc r) = V (Proc.devRef .tc r) :=
  after_of_writes_sub seg_dinvU1 V seg_dinvU1_writes h

/-- The references stretch `msgU1` writes. -/
abbrev seg_msgU1_W : List (Ref sig .tc) := [main_c_5, main_v24, main_v25, main_c_6, main_v26, main_v27, main_v28, main_v29, main_v30, main_v31, main_v32, main_c_7, main_v33, main_v34, main_c_8, main_v35, main_v36, main_v37, main_v38, main_v39, main_v40, main_v41, main_cst_9, main_v42, main_c_10, main_v43, main_v44, main_c_11, main_v45, main_v46, main_v47, main_v48, main_v49]
set_option maxRecDepth 8192 in
theorem seg_msgU1_writes : (seg_msgU1 : List (HloOp τ sig (Elt F))).Forall fun op => op.writes ⊆ (seg_msgU1_W.map (Proc.devRef (τ := τ) .tc)).toFinset :=
  ⟨writes_sub_of_mem (y := main_c_5) rfl (by decide),
   writes_sub_of_mem (y := main_v24) rfl (by decide),
   writes_sub_of_mem (y := main_v25) rfl (by decide),
   writes_sub_of_mem (y := main_c_6) rfl (by decide),
   writes_sub_of_mem (y := main_v26) rfl (by decide),
   writes_sub_of_mem (y := main_v27) rfl (by decide),
   writes_sub_of_mem (y := main_v28) rfl (by decide),
   writes_sub_of_mem (y := main_v29) rfl (by decide),
   writes_sub_of_mem (y := main_v30) rfl (by decide),
   writes_sub_of_mem (y := main_v31) rfl (by decide),
   writes_sub_of_mem (y := main_v32) rfl (by decide),
   writes_sub_of_mem (y := main_c_7) rfl (by decide),
   writes_sub_of_mem (y := main_v33) rfl (by decide),
   writes_sub_of_mem (y := main_v34) rfl (by decide),
   writes_sub_of_mem (y := main_c_8) rfl (by decide),
   writes_sub_of_mem (y := main_v35) rfl (by decide),
   writes_sub_of_mem (y := main_v36) rfl (by decide),
   writes_sub_of_mem (y := main_v37) rfl (by decide),
   writes_sub_of_mem (y := main_v38) rfl (by decide),
   writes_sub_of_mem (y := main_v39) rfl (by decide),
   writes_sub_of_mem (y := main_v40) rfl (by decide),
   writes_sub_of_mem (y := main_v41) rfl (by decide),
   writes_sub_of_mem (y := main_cst_9) rfl (by decide),
   writes_sub_of_mem (y := main_v42) rfl (by decide),
   writes_sub_of_mem (y := main_c_10) rfl (by decide),
   writes_sub_of_mem (y := main_v43) rfl (by decide),
   writes_sub_of_mem (y := main_v44) rfl (by decide),
   writes_sub_of_mem (y := main_c_11) rfl (by decide),
   writes_sub_of_mem (y := main_v45) rfl (by decide),
   writes_sub_of_mem (y := main_v46) rfl (by decide),
   writes_sub_of_mem (y := main_v47) rfl (by decide),
   writes_sub_of_mem (y := main_v48) rfl (by decide),
   writes_sub_of_mem (y := main_v49) rfl (by decide)⟩
/-- A reference stretch `msgU1` does not write keeps its contents through it. -/
theorem seg_msgU1_keep (V : Valuation τ sig (Elt F)) {r : Ref sig .tc} (h : r ∉ seg_msgU1_W) :
    after seg_msgU1 V (Proc.devRef .tc r) = V (Proc.devRef .tc r) :=
  after_of_writes_sub seg_msgU1 V seg_msgU1_writes h

/-- The references stretch `dinvD1` writes. -/
abbrev seg_dinvD1_W : List (Ref sig .tc) := [main_cst_12, main_v50, main_c_13, main_v51, main_v52, main_c_14, main_v53, main_v54, main_v55, main_v56, main_cst_15, main_v57, main_v58, main_cst_16, main_v59, main_v60, main_cst_17, main_v61, main_v62, main_cst_18, main_call1_v0, main_call1_v1, main_v63]
set_option maxRecDepth 8192 in
theorem seg_dinvD1_writes : (seg_dinvD1 : List (HloOp τ sig (Elt F))).Forall fun op => op.writes ⊆ (seg_dinvD1_W.map (Proc.devRef (τ := τ) .tc)).toFinset :=
  ⟨writes_sub_of_mem (y := main_cst_12) rfl (by decide),
   writes_sub_of_mem (y := main_v50) rfl (by decide),
   writes_sub_of_mem (y := main_c_13) rfl (by decide),
   writes_sub_of_mem (y := main_v51) rfl (by decide),
   writes_sub_of_mem (y := main_v52) rfl (by decide),
   writes_sub_of_mem (y := main_c_14) rfl (by decide),
   writes_sub_of_mem (y := main_v53) rfl (by decide),
   writes_sub_of_mem (y := main_v54) rfl (by decide),
   writes_sub_of_mem (y := main_v55) rfl (by decide),
   writes_sub_of_mem (y := main_v56) rfl (by decide),
   writes_sub_of_mem (y := main_cst_15) rfl (by decide),
   writes_sub_of_mem (y := main_v57) rfl (by decide),
   writes_sub_of_mem (y := main_v58) rfl (by decide),
   writes_sub_of_mem (y := main_cst_16) rfl (by decide),
   writes_sub_of_mem (y := main_v59) rfl (by decide),
   writes_sub_of_mem (y := main_v60) rfl (by decide),
   writes_sub_of_mem (y := main_cst_17) rfl (by decide),
   writes_sub_of_mem (y := main_v61) rfl (by decide),
   writes_sub_of_mem (y := main_v62) rfl (by decide),
   writes_sub_of_mem (y := main_cst_18) rfl (by decide),
   writes_sub_of_mem (y := main_call1_v0) rfl (by decide),
   writes_sub_of_mem (y := main_call1_v1) rfl (by decide),
   writes_sub_of_mem (y := main_v63) rfl (by decide)⟩
/-- A reference stretch `dinvD1` does not write keeps its contents through it. -/
theorem seg_dinvD1_keep (V : Valuation τ sig (Elt F)) {r : Ref sig .tc} (h : r ∉ seg_dinvD1_W) :
    after seg_dinvD1 V (Proc.devRef .tc r) = V (Proc.devRef .tc r) :=
  after_of_writes_sub seg_dinvD1 V seg_dinvD1_writes h

/-- The references stretch `msgD1` writes. -/
abbrev seg_msgD1_W : List (Ref sig .tc) := [main_c_19, main_v64, main_v65, main_c_20, main_v66, main_v67, main_v68, main_v69, main_v70, main_v71, main_v72, main_c_21, main_v73, main_v74, main_c_22, main_v75, main_v76, main_v77, main_v78, main_v79, main_v80, main_v81, main_cst_23, main_v82, main_c_24, main_v83, main_v84, main_c_25, main_v85, main_v86, main_v87, main_v88, main_v89]
set_option maxRecDepth 8192 in
theorem seg_msgD1_writes : (seg_msgD1 : List (HloOp τ sig (Elt F))).Forall fun op => op.writes ⊆ (seg_msgD1_W.map (Proc.devRef (τ := τ) .tc)).toFinset :=
  ⟨writes_sub_of_mem (y := main_c_19) rfl (by decide),
   writes_sub_of_mem (y := main_v64) rfl (by decide),
   writes_sub_of_mem (y := main_v65) rfl (by decide),
   writes_sub_of_mem (y := main_c_20) rfl (by decide),
   writes_sub_of_mem (y := main_v66) rfl (by decide),
   writes_sub_of_mem (y := main_v67) rfl (by decide),
   writes_sub_of_mem (y := main_v68) rfl (by decide),
   writes_sub_of_mem (y := main_v69) rfl (by decide),
   writes_sub_of_mem (y := main_v70) rfl (by decide),
   writes_sub_of_mem (y := main_v71) rfl (by decide),
   writes_sub_of_mem (y := main_v72) rfl (by decide),
   writes_sub_of_mem (y := main_c_21) rfl (by decide),
   writes_sub_of_mem (y := main_v73) rfl (by decide),
   writes_sub_of_mem (y := main_v74) rfl (by decide),
   writes_sub_of_mem (y := main_c_22) rfl (by decide),
   writes_sub_of_mem (y := main_v75) rfl (by decide),
   writes_sub_of_mem (y := main_v76) rfl (by decide),
   writes_sub_of_mem (y := main_v77) rfl (by decide),
   writes_sub_of_mem (y := main_v78) rfl (by decide),
   writes_sub_of_mem (y := main_v79) rfl (by decide),
   writes_sub_of_mem (y := main_v80) rfl (by decide),
   writes_sub_of_mem (y := main_v81) rfl (by decide),
   writes_sub_of_mem (y := main_cst_23) rfl (by decide),
   writes_sub_of_mem (y := main_v82) rfl (by decide),
   writes_sub_of_mem (y := main_c_24) rfl (by decide),
   writes_sub_of_mem (y := main_v83) rfl (by decide),
   writes_sub_of_mem (y := main_v84) rfl (by decide),
   writes_sub_of_mem (y := main_c_25) rfl (by decide),
   writes_sub_of_mem (y := main_v85) rfl (by decide),
   writes_sub_of_mem (y := main_v86) rfl (by decide),
   writes_sub_of_mem (y := main_v87) rfl (by decide),
   writes_sub_of_mem (y := main_v88) rfl (by decide),
   writes_sub_of_mem (y := main_v89) rfl (by decide)⟩
/-- A reference stretch `msgD1` does not write keeps its contents through it. -/
theorem seg_msgD1_keep (V : Valuation τ sig (Elt F)) {r : Ref sig .tc} (h : r ∉ seg_msgD1_W) :
    after seg_msgD1 V (Proc.devRef .tc r) = V (Proc.devRef .tc r) :=
  after_of_writes_sub seg_msgD1 V seg_msgD1_writes h

/-- The references stretch `fin1` writes. -/
abbrev seg_fin1_W : List (Ref sig .tc) := [main_v90, main_call2_v0, main_call2_cst, main_call2_v1, main_call2_v2, main_v91, main_cst_26, main_v92, main_v93, main_v94, main_v95, main_cst_27, main_call3_cst, main_call3_v0, main_call3_v1, main_call3_v2, main_call3_v3, main_call3_v4, main_v96]
set_option maxRecDepth 8192 in
theorem seg_fin1_writes : (seg_fin1 : List (HloOp τ sig (Elt F))).Forall fun op => op.writes ⊆ (seg_fin1_W.map (Proc.devRef (τ := τ) .tc)).toFinset :=
  ⟨writes_sub_of_mem (y := main_v90) rfl (by decide),
   writes_sub_of_mem (y := main_call2_v0) rfl (by decide),
   writes_sub_of_mem (y := main_call2_cst) rfl (by decide),
   writes_sub_of_mem (y := main_call2_v1) rfl (by decide),
   writes_sub_of_mem (y := main_call2_v2) rfl (by decide),
   writes_sub_of_mem (y := main_v91) rfl (by decide),
   writes_sub_of_mem (y := main_cst_26) rfl (by decide),
   writes_sub_of_mem (y := main_v92) rfl (by decide),
   writes_sub_of_mem (y := main_v93) rfl (by decide),
   writes_sub_of_mem (y := main_v94) rfl (by decide),
   writes_sub_of_mem (y := main_v95) rfl (by decide),
   writes_sub_of_mem (y := main_cst_27) rfl (by decide),
   writes_sub_of_mem (y := main_call3_cst) rfl (by decide),
   writes_sub_of_mem (y := main_call3_v0) rfl (by decide),
   writes_sub_of_mem (y := main_call3_v1) rfl (by decide),
   writes_sub_of_mem (y := main_call3_v2) rfl (by decide),
   writes_sub_of_mem (y := main_call3_v3) rfl (by decide),
   writes_sub_of_mem (y := main_call3_v4) rfl (by decide),
   writes_sub_of_mem (y := main_v96) rfl (by decide)⟩
/-- A reference stretch `fin1` does not write keeps its contents through it. -/
theorem seg_fin1_keep (V : Valuation τ sig (Elt F)) {r : Ref sig .tc} (h : r ∉ seg_fin1_W) :
    after seg_fin1 V (Proc.devRef .tc r) = V (Proc.devRef .tc r) :=
  after_of_writes_sub seg_fin1 V seg_fin1_writes h

/-- The references stretch `pro2` writes. -/
abbrev seg_pro2_W : List (Ref sig .tc) := [main_v97, main_v98, main_v99, main_v100, main_v101, main_v102, main_v103, main_v104, main_v105, main_v106]
set_option maxRecDepth 8192 in
theorem seg_pro2_writes : (seg_pro2 : List (HloOp τ sig (Elt F))).Forall fun op => op.writes ⊆ (seg_pro2_W.map (Proc.devRef (τ := τ) .tc)).toFinset :=
  ⟨writes_sub_of_mem (y := main_v97) rfl (by decide),
   writes_sub_of_mem (y := main_v98) rfl (by decide),
   writes_sub_of_mem (y := main_v99) rfl (by decide),
   writes_sub_of_mem (y := main_v100) rfl (by decide),
   writes_sub_of_mem (y := main_v101) rfl (by decide),
   writes_sub_of_mem (y := main_v102) rfl (by decide),
   writes_sub_of_mem (y := main_v103) rfl (by decide),
   writes_sub_of_mem (y := main_v104) rfl (by decide),
   writes_sub_of_mem (y := main_v105) rfl (by decide),
   writes_sub_of_mem (y := main_v106) rfl (by decide)⟩
/-- A reference stretch `pro2` does not write keeps its contents through it. -/
theorem seg_pro2_keep (V : Valuation τ sig (Elt F)) {r : Ref sig .tc} (h : r ∉ seg_pro2_W) :
    after seg_pro2 V (Proc.devRef .tc r) = V (Proc.devRef .tc r) :=
  after_of_writes_sub seg_pro2 V seg_pro2_writes h

/-- The references stretch `dinvU2` writes. -/
abbrev seg_dinvU2_W : List (Ref sig .tc) := [main_cst_28, main_v107, main_c_29, main_v108, main_v109, main_c_30, main_v110, main_v111, main_v112, main_v113, main_cst_31, main_v114, main_v115, main_cst_32, main_v116, main_v117, main_cst_33, main_v118, main_v119, main_cst_34, main_call4_v0, main_call4_v1, main_v120]
set_option maxRecDepth 8192 in
theorem seg_dinvU2_writes : (seg_dinvU2 : List (HloOp τ sig (Elt F))).Forall fun op => op.writes ⊆ (seg_dinvU2_W.map (Proc.devRef (τ := τ) .tc)).toFinset :=
  ⟨writes_sub_of_mem (y := main_cst_28) rfl (by decide),
   writes_sub_of_mem (y := main_v107) rfl (by decide),
   writes_sub_of_mem (y := main_c_29) rfl (by decide),
   writes_sub_of_mem (y := main_v108) rfl (by decide),
   writes_sub_of_mem (y := main_v109) rfl (by decide),
   writes_sub_of_mem (y := main_c_30) rfl (by decide),
   writes_sub_of_mem (y := main_v110) rfl (by decide),
   writes_sub_of_mem (y := main_v111) rfl (by decide),
   writes_sub_of_mem (y := main_v112) rfl (by decide),
   writes_sub_of_mem (y := main_v113) rfl (by decide),
   writes_sub_of_mem (y := main_cst_31) rfl (by decide),
   writes_sub_of_mem (y := main_v114) rfl (by decide),
   writes_sub_of_mem (y := main_v115) rfl (by decide),
   writes_sub_of_mem (y := main_cst_32) rfl (by decide),
   writes_sub_of_mem (y := main_v116) rfl (by decide),
   writes_sub_of_mem (y := main_v117) rfl (by decide),
   writes_sub_of_mem (y := main_cst_33) rfl (by decide),
   writes_sub_of_mem (y := main_v118) rfl (by decide),
   writes_sub_of_mem (y := main_v119) rfl (by decide),
   writes_sub_of_mem (y := main_cst_34) rfl (by decide),
   writes_sub_of_mem (y := main_call4_v0) rfl (by decide),
   writes_sub_of_mem (y := main_call4_v1) rfl (by decide),
   writes_sub_of_mem (y := main_v120) rfl (by decide)⟩
/-- A reference stretch `dinvU2` does not write keeps its contents through it. -/
theorem seg_dinvU2_keep (V : Valuation τ sig (Elt F)) {r : Ref sig .tc} (h : r ∉ seg_dinvU2_W) :
    after seg_dinvU2 V (Proc.devRef .tc r) = V (Proc.devRef .tc r) :=
  after_of_writes_sub seg_dinvU2 V seg_dinvU2_writes h

/-- The references stretch `msgU2` writes. -/
abbrev seg_msgU2_W : List (Ref sig .tc) := [main_c_35, main_v121, main_v122, main_c_36, main_v123, main_v124, main_v125, main_v126, main_v127, main_v128, main_v129, main_c_37, main_v130, main_v131, main_c_38, main_v132, main_v133, main_v134, main_v135, main_v136, main_v137, main_v138, main_cst_39, main_v139, main_c_40, main_v140, main_v141, main_c_41, main_v142, main_v143, main_v144, main_v145, main_v146]
set_option maxRecDepth 8192 in
theorem seg_msgU2_writes : (seg_msgU2 : List (HloOp τ sig (Elt F))).Forall fun op => op.writes ⊆ (seg_msgU2_W.map (Proc.devRef (τ := τ) .tc)).toFinset :=
  ⟨writes_sub_of_mem (y := main_c_35) rfl (by decide),
   writes_sub_of_mem (y := main_v121) rfl (by decide),
   writes_sub_of_mem (y := main_v122) rfl (by decide),
   writes_sub_of_mem (y := main_c_36) rfl (by decide),
   writes_sub_of_mem (y := main_v123) rfl (by decide),
   writes_sub_of_mem (y := main_v124) rfl (by decide),
   writes_sub_of_mem (y := main_v125) rfl (by decide),
   writes_sub_of_mem (y := main_v126) rfl (by decide),
   writes_sub_of_mem (y := main_v127) rfl (by decide),
   writes_sub_of_mem (y := main_v128) rfl (by decide),
   writes_sub_of_mem (y := main_v129) rfl (by decide),
   writes_sub_of_mem (y := main_c_37) rfl (by decide),
   writes_sub_of_mem (y := main_v130) rfl (by decide),
   writes_sub_of_mem (y := main_v131) rfl (by decide),
   writes_sub_of_mem (y := main_c_38) rfl (by decide),
   writes_sub_of_mem (y := main_v132) rfl (by decide),
   writes_sub_of_mem (y := main_v133) rfl (by decide),
   writes_sub_of_mem (y := main_v134) rfl (by decide),
   writes_sub_of_mem (y := main_v135) rfl (by decide),
   writes_sub_of_mem (y := main_v136) rfl (by decide),
   writes_sub_of_mem (y := main_v137) rfl (by decide),
   writes_sub_of_mem (y := main_v138) rfl (by decide),
   writes_sub_of_mem (y := main_cst_39) rfl (by decide),
   writes_sub_of_mem (y := main_v139) rfl (by decide),
   writes_sub_of_mem (y := main_c_40) rfl (by decide),
   writes_sub_of_mem (y := main_v140) rfl (by decide),
   writes_sub_of_mem (y := main_v141) rfl (by decide),
   writes_sub_of_mem (y := main_c_41) rfl (by decide),
   writes_sub_of_mem (y := main_v142) rfl (by decide),
   writes_sub_of_mem (y := main_v143) rfl (by decide),
   writes_sub_of_mem (y := main_v144) rfl (by decide),
   writes_sub_of_mem (y := main_v145) rfl (by decide),
   writes_sub_of_mem (y := main_v146) rfl (by decide)⟩
/-- A reference stretch `msgU2` does not write keeps its contents through it. -/
theorem seg_msgU2_keep (V : Valuation τ sig (Elt F)) {r : Ref sig .tc} (h : r ∉ seg_msgU2_W) :
    after seg_msgU2 V (Proc.devRef .tc r) = V (Proc.devRef .tc r) :=
  after_of_writes_sub seg_msgU2 V seg_msgU2_writes h

/-- The references stretch `dinvD2` writes. -/
abbrev seg_dinvD2_W : List (Ref sig .tc) := [main_cst_42, main_v147, main_c_43, main_v148, main_v149, main_c_44, main_v150, main_v151, main_v152, main_v153, main_cst_45, main_v154, main_v155, main_cst_46, main_v156, main_v157, main_cst_47, main_v158, main_v159, main_cst_48, main_call5_v0, main_call5_v1, main_v160]
set_option maxRecDepth 8192 in
theorem seg_dinvD2_writes : (seg_dinvD2 : List (HloOp τ sig (Elt F))).Forall fun op => op.writes ⊆ (seg_dinvD2_W.map (Proc.devRef (τ := τ) .tc)).toFinset :=
  ⟨writes_sub_of_mem (y := main_cst_42) rfl (by decide),
   writes_sub_of_mem (y := main_v147) rfl (by decide),
   writes_sub_of_mem (y := main_c_43) rfl (by decide),
   writes_sub_of_mem (y := main_v148) rfl (by decide),
   writes_sub_of_mem (y := main_v149) rfl (by decide),
   writes_sub_of_mem (y := main_c_44) rfl (by decide),
   writes_sub_of_mem (y := main_v150) rfl (by decide),
   writes_sub_of_mem (y := main_v151) rfl (by decide),
   writes_sub_of_mem (y := main_v152) rfl (by decide),
   writes_sub_of_mem (y := main_v153) rfl (by decide),
   writes_sub_of_mem (y := main_cst_45) rfl (by decide),
   writes_sub_of_mem (y := main_v154) rfl (by decide),
   writes_sub_of_mem (y := main_v155) rfl (by decide),
   writes_sub_of_mem (y := main_cst_46) rfl (by decide),
   writes_sub_of_mem (y := main_v156) rfl (by decide),
   writes_sub_of_mem (y := main_v157) rfl (by decide),
   writes_sub_of_mem (y := main_cst_47) rfl (by decide),
   writes_sub_of_mem (y := main_v158) rfl (by decide),
   writes_sub_of_mem (y := main_v159) rfl (by decide),
   writes_sub_of_mem (y := main_cst_48) rfl (by decide),
   writes_sub_of_mem (y := main_call5_v0) rfl (by decide),
   writes_sub_of_mem (y := main_call5_v1) rfl (by decide),
   writes_sub_of_mem (y := main_v160) rfl (by decide)⟩
/-- A reference stretch `dinvD2` does not write keeps its contents through it. -/
theorem seg_dinvD2_keep (V : Valuation τ sig (Elt F)) {r : Ref sig .tc} (h : r ∉ seg_dinvD2_W) :
    after seg_dinvD2 V (Proc.devRef .tc r) = V (Proc.devRef .tc r) :=
  after_of_writes_sub seg_dinvD2 V seg_dinvD2_writes h

/-- The references stretch `msgD2` writes. -/
abbrev seg_msgD2_W : List (Ref sig .tc) := [main_c_49, main_v161, main_v162, main_c_50, main_v163, main_v164, main_v165, main_v166, main_v167, main_v168, main_v169, main_c_51, main_v170, main_v171, main_c_52, main_v172, main_v173, main_v174, main_v175, main_v176, main_v177, main_v178, main_cst_53, main_v179, main_c_54, main_v180, main_v181, main_c_55, main_v182, main_v183, main_v184, main_v185, main_v186]
set_option maxRecDepth 8192 in
theorem seg_msgD2_writes : (seg_msgD2 : List (HloOp τ sig (Elt F))).Forall fun op => op.writes ⊆ (seg_msgD2_W.map (Proc.devRef (τ := τ) .tc)).toFinset :=
  ⟨writes_sub_of_mem (y := main_c_49) rfl (by decide),
   writes_sub_of_mem (y := main_v161) rfl (by decide),
   writes_sub_of_mem (y := main_v162) rfl (by decide),
   writes_sub_of_mem (y := main_c_50) rfl (by decide),
   writes_sub_of_mem (y := main_v163) rfl (by decide),
   writes_sub_of_mem (y := main_v164) rfl (by decide),
   writes_sub_of_mem (y := main_v165) rfl (by decide),
   writes_sub_of_mem (y := main_v166) rfl (by decide),
   writes_sub_of_mem (y := main_v167) rfl (by decide),
   writes_sub_of_mem (y := main_v168) rfl (by decide),
   writes_sub_of_mem (y := main_v169) rfl (by decide),
   writes_sub_of_mem (y := main_c_51) rfl (by decide),
   writes_sub_of_mem (y := main_v170) rfl (by decide),
   writes_sub_of_mem (y := main_v171) rfl (by decide),
   writes_sub_of_mem (y := main_c_52) rfl (by decide),
   writes_sub_of_mem (y := main_v172) rfl (by decide),
   writes_sub_of_mem (y := main_v173) rfl (by decide),
   writes_sub_of_mem (y := main_v174) rfl (by decide),
   writes_sub_of_mem (y := main_v175) rfl (by decide),
   writes_sub_of_mem (y := main_v176) rfl (by decide),
   writes_sub_of_mem (y := main_v177) rfl (by decide),
   writes_sub_of_mem (y := main_v178) rfl (by decide),
   writes_sub_of_mem (y := main_cst_53) rfl (by decide),
   writes_sub_of_mem (y := main_v179) rfl (by decide),
   writes_sub_of_mem (y := main_c_54) rfl (by decide),
   writes_sub_of_mem (y := main_v180) rfl (by decide),
   writes_sub_of_mem (y := main_v181) rfl (by decide),
   writes_sub_of_mem (y := main_c_55) rfl (by decide),
   writes_sub_of_mem (y := main_v182) rfl (by decide),
   writes_sub_of_mem (y := main_v183) rfl (by decide),
   writes_sub_of_mem (y := main_v184) rfl (by decide),
   writes_sub_of_mem (y := main_v185) rfl (by decide),
   writes_sub_of_mem (y := main_v186) rfl (by decide)⟩
/-- A reference stretch `msgD2` does not write keeps its contents through it. -/
theorem seg_msgD2_keep (V : Valuation τ sig (Elt F)) {r : Ref sig .tc} (h : r ∉ seg_msgD2_W) :
    after seg_msgD2 V (Proc.devRef .tc r) = V (Proc.devRef .tc r) :=
  after_of_writes_sub seg_msgD2 V seg_msgD2_writes h

/-- The references stretch `fin2` writes. -/
abbrev seg_fin2_W : List (Ref sig .tc) := [main_v187, main_call6_v0, main_call6_cst, main_call6_v1, main_call6_v2, main_v188, main_cst_56, main_v189, main_v190, main_v191, main_v192, main_cst_57, main_call7_cst, main_call7_v0, main_call7_v1, main_call7_v2, main_call7_v3, main_call7_v4, main_v193]
set_option maxRecDepth 8192 in
theorem seg_fin2_writes : (seg_fin2 : List (HloOp τ sig (Elt F))).Forall fun op => op.writes ⊆ (seg_fin2_W.map (Proc.devRef (τ := τ) .tc)).toFinset :=
  ⟨writes_sub_of_mem (y := main_v187) rfl (by decide),
   writes_sub_of_mem (y := main_call6_v0) rfl (by decide),
   writes_sub_of_mem (y := main_call6_cst) rfl (by decide),
   writes_sub_of_mem (y := main_call6_v1) rfl (by decide),
   writes_sub_of_mem (y := main_call6_v2) rfl (by decide),
   writes_sub_of_mem (y := main_v188) rfl (by decide),
   writes_sub_of_mem (y := main_cst_56) rfl (by decide),
   writes_sub_of_mem (y := main_v189) rfl (by decide),
   writes_sub_of_mem (y := main_v190) rfl (by decide),
   writes_sub_of_mem (y := main_v191) rfl (by decide),
   writes_sub_of_mem (y := main_v192) rfl (by decide),
   writes_sub_of_mem (y := main_cst_57) rfl (by decide),
   writes_sub_of_mem (y := main_call7_cst) rfl (by decide),
   writes_sub_of_mem (y := main_call7_v0) rfl (by decide),
   writes_sub_of_mem (y := main_call7_v1) rfl (by decide),
   writes_sub_of_mem (y := main_call7_v2) rfl (by decide),
   writes_sub_of_mem (y := main_call7_v3) rfl (by decide),
   writes_sub_of_mem (y := main_call7_v4) rfl (by decide),
   writes_sub_of_mem (y := main_v193) rfl (by decide)⟩
/-- A reference stretch `fin2` does not write keeps its contents through it. -/
theorem seg_fin2_keep (V : Valuation τ sig (Elt F)) {r : Ref sig .tc} (h : r ∉ seg_fin2_W) :
    after seg_fin2 V (Proc.devRef .tc r) = V (Proc.devRef .tc r) :=
  after_of_writes_sub seg_fin2 V seg_fin2_writes h

/-- The references stretch `pro3` writes. -/
abbrev seg_pro3_W : List (Ref sig .tc) := [main_v194, main_v195, main_v196, main_v197, main_v198, main_v199, main_v200, main_v201, main_v202, main_v203]
set_option maxRecDepth 8192 in
theorem seg_pro3_writes : (seg_pro3 : List (HloOp τ sig (Elt F))).Forall fun op => op.writes ⊆ (seg_pro3_W.map (Proc.devRef (τ := τ) .tc)).toFinset :=
  ⟨writes_sub_of_mem (y := main_v194) rfl (by decide),
   writes_sub_of_mem (y := main_v195) rfl (by decide),
   writes_sub_of_mem (y := main_v196) rfl (by decide),
   writes_sub_of_mem (y := main_v197) rfl (by decide),
   writes_sub_of_mem (y := main_v198) rfl (by decide),
   writes_sub_of_mem (y := main_v199) rfl (by decide),
   writes_sub_of_mem (y := main_v200) rfl (by decide),
   writes_sub_of_mem (y := main_v201) rfl (by decide),
   writes_sub_of_mem (y := main_v202) rfl (by decide),
   writes_sub_of_mem (y := main_v203) rfl (by decide)⟩
/-- A reference stretch `pro3` does not write keeps its contents through it. -/
theorem seg_pro3_keep (V : Valuation τ sig (Elt F)) {r : Ref sig .tc} (h : r ∉ seg_pro3_W) :
    after seg_pro3 V (Proc.devRef .tc r) = V (Proc.devRef .tc r) :=
  after_of_writes_sub seg_pro3 V seg_pro3_writes h

/-- The references stretch `dinvU3` writes. -/
abbrev seg_dinvU3_W : List (Ref sig .tc) := [main_cst_58, main_v204, main_c_59, main_v205, main_v206, main_c_60, main_v207, main_v208, main_v209, main_v210, main_cst_61, main_v211, main_v212, main_cst_62, main_v213, main_v214, main_cst_63, main_v215, main_v216, main_cst_64, main_call8_v0, main_call8_v1, main_v217]
set_option maxRecDepth 8192 in
theorem seg_dinvU3_writes : (seg_dinvU3 : List (HloOp τ sig (Elt F))).Forall fun op => op.writes ⊆ (seg_dinvU3_W.map (Proc.devRef (τ := τ) .tc)).toFinset :=
  ⟨writes_sub_of_mem (y := main_cst_58) rfl (by decide),
   writes_sub_of_mem (y := main_v204) rfl (by decide),
   writes_sub_of_mem (y := main_c_59) rfl (by decide),
   writes_sub_of_mem (y := main_v205) rfl (by decide),
   writes_sub_of_mem (y := main_v206) rfl (by decide),
   writes_sub_of_mem (y := main_c_60) rfl (by decide),
   writes_sub_of_mem (y := main_v207) rfl (by decide),
   writes_sub_of_mem (y := main_v208) rfl (by decide),
   writes_sub_of_mem (y := main_v209) rfl (by decide),
   writes_sub_of_mem (y := main_v210) rfl (by decide),
   writes_sub_of_mem (y := main_cst_61) rfl (by decide),
   writes_sub_of_mem (y := main_v211) rfl (by decide),
   writes_sub_of_mem (y := main_v212) rfl (by decide),
   writes_sub_of_mem (y := main_cst_62) rfl (by decide),
   writes_sub_of_mem (y := main_v213) rfl (by decide),
   writes_sub_of_mem (y := main_v214) rfl (by decide),
   writes_sub_of_mem (y := main_cst_63) rfl (by decide),
   writes_sub_of_mem (y := main_v215) rfl (by decide),
   writes_sub_of_mem (y := main_v216) rfl (by decide),
   writes_sub_of_mem (y := main_cst_64) rfl (by decide),
   writes_sub_of_mem (y := main_call8_v0) rfl (by decide),
   writes_sub_of_mem (y := main_call8_v1) rfl (by decide),
   writes_sub_of_mem (y := main_v217) rfl (by decide)⟩
/-- A reference stretch `dinvU3` does not write keeps its contents through it. -/
theorem seg_dinvU3_keep (V : Valuation τ sig (Elt F)) {r : Ref sig .tc} (h : r ∉ seg_dinvU3_W) :
    after seg_dinvU3 V (Proc.devRef .tc r) = V (Proc.devRef .tc r) :=
  after_of_writes_sub seg_dinvU3 V seg_dinvU3_writes h

/-- The references stretch `msgU3` writes. -/
abbrev seg_msgU3_W : List (Ref sig .tc) := [main_c_65, main_v218, main_v219, main_c_66, main_v220, main_v221, main_v222, main_v223, main_v224, main_v225, main_v226, main_c_67, main_v227, main_v228, main_c_68, main_v229, main_v230, main_v231, main_v232, main_v233, main_v234, main_v235, main_cst_69, main_v236, main_c_70, main_v237, main_v238, main_c_71, main_v239, main_v240, main_v241, main_v242, main_v243]
set_option maxRecDepth 8192 in
theorem seg_msgU3_writes : (seg_msgU3 : List (HloOp τ sig (Elt F))).Forall fun op => op.writes ⊆ (seg_msgU3_W.map (Proc.devRef (τ := τ) .tc)).toFinset :=
  ⟨writes_sub_of_mem (y := main_c_65) rfl (by decide),
   writes_sub_of_mem (y := main_v218) rfl (by decide),
   writes_sub_of_mem (y := main_v219) rfl (by decide),
   writes_sub_of_mem (y := main_c_66) rfl (by decide),
   writes_sub_of_mem (y := main_v220) rfl (by decide),
   writes_sub_of_mem (y := main_v221) rfl (by decide),
   writes_sub_of_mem (y := main_v222) rfl (by decide),
   writes_sub_of_mem (y := main_v223) rfl (by decide),
   writes_sub_of_mem (y := main_v224) rfl (by decide),
   writes_sub_of_mem (y := main_v225) rfl (by decide),
   writes_sub_of_mem (y := main_v226) rfl (by decide),
   writes_sub_of_mem (y := main_c_67) rfl (by decide),
   writes_sub_of_mem (y := main_v227) rfl (by decide),
   writes_sub_of_mem (y := main_v228) rfl (by decide),
   writes_sub_of_mem (y := main_c_68) rfl (by decide),
   writes_sub_of_mem (y := main_v229) rfl (by decide),
   writes_sub_of_mem (y := main_v230) rfl (by decide),
   writes_sub_of_mem (y := main_v231) rfl (by decide),
   writes_sub_of_mem (y := main_v232) rfl (by decide),
   writes_sub_of_mem (y := main_v233) rfl (by decide),
   writes_sub_of_mem (y := main_v234) rfl (by decide),
   writes_sub_of_mem (y := main_v235) rfl (by decide),
   writes_sub_of_mem (y := main_cst_69) rfl (by decide),
   writes_sub_of_mem (y := main_v236) rfl (by decide),
   writes_sub_of_mem (y := main_c_70) rfl (by decide),
   writes_sub_of_mem (y := main_v237) rfl (by decide),
   writes_sub_of_mem (y := main_v238) rfl (by decide),
   writes_sub_of_mem (y := main_c_71) rfl (by decide),
   writes_sub_of_mem (y := main_v239) rfl (by decide),
   writes_sub_of_mem (y := main_v240) rfl (by decide),
   writes_sub_of_mem (y := main_v241) rfl (by decide),
   writes_sub_of_mem (y := main_v242) rfl (by decide),
   writes_sub_of_mem (y := main_v243) rfl (by decide)⟩
/-- A reference stretch `msgU3` does not write keeps its contents through it. -/
theorem seg_msgU3_keep (V : Valuation τ sig (Elt F)) {r : Ref sig .tc} (h : r ∉ seg_msgU3_W) :
    after seg_msgU3 V (Proc.devRef .tc r) = V (Proc.devRef .tc r) :=
  after_of_writes_sub seg_msgU3 V seg_msgU3_writes h

/-- The references stretch `dinvD3` writes. -/
abbrev seg_dinvD3_W : List (Ref sig .tc) := [main_cst_72, main_v244, main_c_73, main_v245, main_v246, main_c_74, main_v247, main_v248, main_v249, main_v250, main_cst_75, main_v251, main_v252, main_cst_76, main_v253, main_v254, main_cst_77, main_v255, main_v256, main_cst_78, main_call9_v0, main_call9_v1, main_v257]
set_option maxRecDepth 8192 in
theorem seg_dinvD3_writes : (seg_dinvD3 : List (HloOp τ sig (Elt F))).Forall fun op => op.writes ⊆ (seg_dinvD3_W.map (Proc.devRef (τ := τ) .tc)).toFinset :=
  ⟨writes_sub_of_mem (y := main_cst_72) rfl (by decide),
   writes_sub_of_mem (y := main_v244) rfl (by decide),
   writes_sub_of_mem (y := main_c_73) rfl (by decide),
   writes_sub_of_mem (y := main_v245) rfl (by decide),
   writes_sub_of_mem (y := main_v246) rfl (by decide),
   writes_sub_of_mem (y := main_c_74) rfl (by decide),
   writes_sub_of_mem (y := main_v247) rfl (by decide),
   writes_sub_of_mem (y := main_v248) rfl (by decide),
   writes_sub_of_mem (y := main_v249) rfl (by decide),
   writes_sub_of_mem (y := main_v250) rfl (by decide),
   writes_sub_of_mem (y := main_cst_75) rfl (by decide),
   writes_sub_of_mem (y := main_v251) rfl (by decide),
   writes_sub_of_mem (y := main_v252) rfl (by decide),
   writes_sub_of_mem (y := main_cst_76) rfl (by decide),
   writes_sub_of_mem (y := main_v253) rfl (by decide),
   writes_sub_of_mem (y := main_v254) rfl (by decide),
   writes_sub_of_mem (y := main_cst_77) rfl (by decide),
   writes_sub_of_mem (y := main_v255) rfl (by decide),
   writes_sub_of_mem (y := main_v256) rfl (by decide),
   writes_sub_of_mem (y := main_cst_78) rfl (by decide),
   writes_sub_of_mem (y := main_call9_v0) rfl (by decide),
   writes_sub_of_mem (y := main_call9_v1) rfl (by decide),
   writes_sub_of_mem (y := main_v257) rfl (by decide)⟩
/-- A reference stretch `dinvD3` does not write keeps its contents through it. -/
theorem seg_dinvD3_keep (V : Valuation τ sig (Elt F)) {r : Ref sig .tc} (h : r ∉ seg_dinvD3_W) :
    after seg_dinvD3 V (Proc.devRef .tc r) = V (Proc.devRef .tc r) :=
  after_of_writes_sub seg_dinvD3 V seg_dinvD3_writes h

/-- The references stretch `msgD3` writes. -/
abbrev seg_msgD3_W : List (Ref sig .tc) := [main_c_79, main_v258, main_v259, main_c_80, main_v260, main_v261, main_v262, main_v263, main_v264, main_v265, main_v266, main_c_81, main_v267, main_v268, main_c_82, main_v269, main_v270, main_v271, main_v272, main_v273, main_v274, main_v275, main_cst_83, main_v276, main_c_84, main_v277, main_v278, main_c_85, main_v279, main_v280, main_v281, main_v282, main_v283]
set_option maxRecDepth 8192 in
theorem seg_msgD3_writes : (seg_msgD3 : List (HloOp τ sig (Elt F))).Forall fun op => op.writes ⊆ (seg_msgD3_W.map (Proc.devRef (τ := τ) .tc)).toFinset :=
  ⟨writes_sub_of_mem (y := main_c_79) rfl (by decide),
   writes_sub_of_mem (y := main_v258) rfl (by decide),
   writes_sub_of_mem (y := main_v259) rfl (by decide),
   writes_sub_of_mem (y := main_c_80) rfl (by decide),
   writes_sub_of_mem (y := main_v260) rfl (by decide),
   writes_sub_of_mem (y := main_v261) rfl (by decide),
   writes_sub_of_mem (y := main_v262) rfl (by decide),
   writes_sub_of_mem (y := main_v263) rfl (by decide),
   writes_sub_of_mem (y := main_v264) rfl (by decide),
   writes_sub_of_mem (y := main_v265) rfl (by decide),
   writes_sub_of_mem (y := main_v266) rfl (by decide),
   writes_sub_of_mem (y := main_c_81) rfl (by decide),
   writes_sub_of_mem (y := main_v267) rfl (by decide),
   writes_sub_of_mem (y := main_v268) rfl (by decide),
   writes_sub_of_mem (y := main_c_82) rfl (by decide),
   writes_sub_of_mem (y := main_v269) rfl (by decide),
   writes_sub_of_mem (y := main_v270) rfl (by decide),
   writes_sub_of_mem (y := main_v271) rfl (by decide),
   writes_sub_of_mem (y := main_v272) rfl (by decide),
   writes_sub_of_mem (y := main_v273) rfl (by decide),
   writes_sub_of_mem (y := main_v274) rfl (by decide),
   writes_sub_of_mem (y := main_v275) rfl (by decide),
   writes_sub_of_mem (y := main_cst_83) rfl (by decide),
   writes_sub_of_mem (y := main_v276) rfl (by decide),
   writes_sub_of_mem (y := main_c_84) rfl (by decide),
   writes_sub_of_mem (y := main_v277) rfl (by decide),
   writes_sub_of_mem (y := main_v278) rfl (by decide),
   writes_sub_of_mem (y := main_c_85) rfl (by decide),
   writes_sub_of_mem (y := main_v279) rfl (by decide),
   writes_sub_of_mem (y := main_v280) rfl (by decide),
   writes_sub_of_mem (y := main_v281) rfl (by decide),
   writes_sub_of_mem (y := main_v282) rfl (by decide),
   writes_sub_of_mem (y := main_v283) rfl (by decide)⟩
/-- A reference stretch `msgD3` does not write keeps its contents through it. -/
theorem seg_msgD3_keep (V : Valuation τ sig (Elt F)) {r : Ref sig .tc} (h : r ∉ seg_msgD3_W) :
    after seg_msgD3 V (Proc.devRef .tc r) = V (Proc.devRef .tc r) :=
  after_of_writes_sub seg_msgD3 V seg_msgD3_writes h

/-- The references stretch `fin3` writes. -/
abbrev seg_fin3_W : List (Ref sig .tc) := [main_v284, main_call10_v0, main_call10_cst, main_call10_v1, main_call10_v2, main_v285, main_cst_86, main_v286, main_v287, main_v288, main_v289, main_cst_87, main_call11_cst, main_call11_v0, main_call11_v1, main_call11_v2, main_call11_v3, main_call11_v4, main_v290]
set_option maxRecDepth 8192 in
theorem seg_fin3_writes : (seg_fin3 : List (HloOp τ sig (Elt F))).Forall fun op => op.writes ⊆ (seg_fin3_W.map (Proc.devRef (τ := τ) .tc)).toFinset :=
  ⟨writes_sub_of_mem (y := main_v284) rfl (by decide),
   writes_sub_of_mem (y := main_call10_v0) rfl (by decide),
   writes_sub_of_mem (y := main_call10_cst) rfl (by decide),
   writes_sub_of_mem (y := main_call10_v1) rfl (by decide),
   writes_sub_of_mem (y := main_call10_v2) rfl (by decide),
   writes_sub_of_mem (y := main_v285) rfl (by decide),
   writes_sub_of_mem (y := main_cst_86) rfl (by decide),
   writes_sub_of_mem (y := main_v286) rfl (by decide),
   writes_sub_of_mem (y := main_v287) rfl (by decide),
   writes_sub_of_mem (y := main_v288) rfl (by decide),
   writes_sub_of_mem (y := main_v289) rfl (by decide),
   writes_sub_of_mem (y := main_cst_87) rfl (by decide),
   writes_sub_of_mem (y := main_call11_cst) rfl (by decide),
   writes_sub_of_mem (y := main_call11_v0) rfl (by decide),
   writes_sub_of_mem (y := main_call11_v1) rfl (by decide),
   writes_sub_of_mem (y := main_call11_v2) rfl (by decide),
   writes_sub_of_mem (y := main_call11_v3) rfl (by decide),
   writes_sub_of_mem (y := main_call11_v4) rfl (by decide),
   writes_sub_of_mem (y := main_v290) rfl (by decide)⟩
/-- A reference stretch `fin3` does not write keeps its contents through it. -/
theorem seg_fin3_keep (V : Valuation τ sig (Elt F)) {r : Ref sig .tc} (h : r ∉ seg_fin3_W) :
    after seg_fin3 V (Proc.devRef .tc r) = V (Proc.devRef .tc r) :=
  after_of_writes_sub seg_fin3 V seg_fin3_writes h

/-- The references stretch `tail` writes. -/
abbrev seg_tail_W : List (Ref sig .tc) := [main_v291, main_v292, main_cst_88, main_v293, main_v294, main_v295, main_v296, main_cst_89, main_v297, main_v298]
set_option maxRecDepth 8192 in
theorem seg_tail_writes : (seg_tail : List (HloOp τ sig (Elt F))).Forall fun op => op.writes ⊆ (seg_tail_W.map (Proc.devRef (τ := τ) .tc)).toFinset :=
  ⟨writes_sub_of_mem (y := main_v291) rfl (by decide),
   writes_sub_of_mem (y := main_v292) rfl (by decide),
   writes_sub_of_mem (y := main_cst_88) rfl (by decide),
   writes_sub_of_mem (y := main_v293) rfl (by decide),
   writes_sub_of_mem (y := main_v294) rfl (by decide),
   writes_sub_of_mem (y := main_v295) rfl (by decide),
   writes_sub_of_mem (y := main_v296) rfl (by decide),
   writes_sub_of_mem (y := main_cst_89) rfl (by decide),
   writes_sub_of_mem (y := main_v297) rfl (by decide),
   writes_sub_of_mem (y := main_v298) rfl (by decide)⟩
/-- A reference stretch `tail` does not write keeps its contents through it. -/
theorem seg_tail_keep (V : Valuation τ sig (Elt F)) {r : Ref sig .tc} (h : r ∉ seg_tail_W) :
    after seg_tail V (Proc.devRef .tc r) = V (Proc.devRef .tc r) :=
  after_of_writes_sub seg_tail V seg_tail_writes h

end Cert.ReferenceIdeal.RefRun

end
-- ==== Proof.RefLayer.lean ====
/-
  The reference network as whole-array functions.  One layer takes the node features, the edge list (row 0 the sources,
  row 1 the targets) and three weight matrices; it projects the features three ways, sends the first projection along
  the edges and the second against them — each message weighted by its edge weight over the in-degree of the node it
  arrives at, and added up per node —, lays the two sums and the third projection side by side, scales every row to
  unit Euclidean length (the length floored at 1e-12) and applies the leaky rectifier of slope 0.1.  The network is three
  such layers; beside it, the mean of the three layers' edge weights.  Every definition is the program's own operations,
  in the program's order, at the ideal instance.
-/
import proofs.«107201_j32822140076800_2_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

/-- Row 0 of the edge array (the sources), as a list of 1600000 node numbers. -/
def edgeRow0 (ei : IVec S2x1600000 32) : IVec S1600000 32 :=
  shapeCast S1600000 (extractStridedSlice S1x1600000 ![0, 0] ei slices_S2x1600000_S1x1600000_0_0) shapeCasts_S1x1600000_S1600000

/-- Row 1 of the edge array (the targets). -/
def edgeRow1 (ei : IVec S2x1600000 32) : IVec S1600000 32 :=
  shapeCast S1600000 (extractStridedSlice S1x1600000 ![1, 0] ei slices_S2x1600000_S1x1600000_1_0) shapeCasts_S1x1600000_S1600000

/-- A list of node numbers as gather / scatter indices: a negative number counts back from the 50000 rows, and the
    list gets a trailing unit axis. -/
def edgeIdx (e : IVec S1600000 32) : IVec S1600000x1 32 :=
  broadcastInDim S1600000x1 ![0] bcast_S1600000_S1600000x1_0
    (select (cmpi .slt e (broadcastInDim S1600000 ![] bcast_S_S1600000 (constantI S_ 32 0#32)))
      (addi e (broadcastInDim S1600000 ![] bcast_S_S1600000 (constantI S_ 32 50000#32))) e)

/-- How many edges arrive at each node: ones added up at the targets. -/
def degOf (dst : IVec S1600000 32) : FVec Ideal S50000 .f32 :=
  Host.scatterAdd (F := Ideal) scatter_S50000_S1600000x1_S1600000_n_0_0_1
    (broadcastInDim S50000 ![] bcast_S_S50000 (constant (F := Ideal) S_ .f32 0x00000000#32)) (edgeIdx dst)
    (broadcastInDim S1600000 ![] bcast_S_S1600000 (constant (F := Ideal) S_ .f32 0x3F800000#32))

/-- One over the in-degree, and zero at a node no edge arrives at. -/
def degInv (dst : IVec S1600000 32) : FVec Ideal S50000 .f32 :=
  select (cmpf .ogt (degOf dst) (broadcastInDim S50000 ![] bcast_S_S50000 (constant (F := Ideal) S_ .f32 0x00000000#32)))
    (Host.divf (F := Ideal) (broadcastInDim S50000 ![] bcast_S_S50000 (constant (F := Ideal) S_ .f32 0x3F800000#32)) (degOf dst))
    (broadcastInDim S50000 ![] bcast_S_S50000 (id (constant (F := Ideal) S_ .f32 0x00000000#32)))

/-- The messages' sums, given the reciprocal in-degrees `dinv`: each message is its source's row of `xp` times the edge's
    weight times its target's `dinv`, and a node's result is the sum of the messages arriving at it. -/
def messages (dinv : FVec Ideal S50000 .f32) (xp : FVec Ideal S50000x32 .f32) (src dst : IVec S1600000 32)
    (ew : FVec Ideal S1600000 .f32) : FVec Ideal S50000x32 .f32 :=
  Host.scatterAdd (F := Ideal) scatter_S50000x32_S1600000x1_S1600000x32_1_0_0_1
    (broadcastInDim S50000x32 ![] bcast_S_S50000x32 (constant (F := Ideal) S_ .f32 0x00000000#32)) (edgeIdx dst)
    (mulf
      (broadcastInDim S1600000x32 ![0, 1] bcast_S1600000x1_S1600000x32_0_1
        (broadcastInDim S1600000x1 ![0] bcast_S1600000_S1600000x1_0
          (mulf (Host.gather gather_S50000_S1600000x1_S1600000_n_0_n_n_0_1_1 dinv (edgeIdx dst)) ew)))
      (Host.gather gather_S50000x32_S1600000x1_S1600000x32_1_0_n_n_0_1_132 xp (edgeIdx src)))

/-- The rows of `xp` sent along the edges `src → dst`: each message is its source's row times the edge's weight over
    the in-degree of its target, and a node's result is the sum of the messages arriving at it. -/
def propagate (xp : FVec Ideal S50000x32 .f32) (src dst : IVec S1600000 32) (ew : FVec Ideal S1600000 .f32) :
    FVec Ideal S50000x32 .f32 :=
  messages (degInv dst) xp src dst ew

/-- The Euclidean length of each row, as a column. -/
def rowNorm (cat : FVec Ideal S50000x96 .f32) : FVec Ideal S50000x1 .f32 :=
  Host.sqrt (F := Ideal) (broadcastInDim S50000x1 ![0] bcast_S50000_S50000x1_0
    (Host.reduceAdd (F := Ideal) (mulf cat cat) (constant (F := Ideal) S_ .f32 0x00000000#32) reducesTo_S50000x96_S50000_d1 h_S_))

/-- The leaky rectifier of slope 0.1: a non-negative entry kept, a negative one times 0.1. -/
def leaky (y : FVec Ideal S50000x96 .f32) : FVec Ideal S50000x96 .f32 :=
  select (cmpf .oge y (broadcastInDim S50000x96 ![] bcast_S_S50000x96 (constant (F := Ideal) S_ .f32 0x00000000#32))) y
    (mulf (broadcastInDim S50000x96 ![] bcast_S_S50000x96 (id (constant (F := Ideal) S_ .f32 0x3DCCCCCD#32))) y)

/-- Every row over its Euclidean length (floored at 1e-12), then the leaky rectifier. -/
def normAct (cat : FVec Ideal S50000x96 .f32) : FVec Ideal S50000x96 .f32 :=
  leaky (Host.divf (F := Ideal) cat (broadcastInDim S50000x96 ![0, 1] bcast_S50000x1_S50000x96_0_1
    (maximumf (rowNorm cat) (broadcastInDim S50000x1 ![] bcast_S_S50000x1 (constant (F := Ideal) S_ .f32 0x2B8CBCCC#32)))))

/-- A projection of the first layer's features: `x` times the transpose of a 32 × 8 weight matrix. -/
def projA (x : FVec Ideal S50000x8 .f32) (w : FVec Ideal S32x8 .f32) : FVec Ideal S50000x32 .f32 :=
  Host.dotGeneral (F := Ideal) dot_S50000x8_S8x32_S50000x32_1_0_0_1_n_n none x (transpose S8x32 [1, 0] w transposes_S32x8_S8x32_1_0)

/-- A projection of a later layer's features: `x` times the transpose of a 32 × 96 weight matrix. -/
def projB (x : FVec Ideal S50000x96 .f32) (w : FVec Ideal S32x96 .f32) : FVec Ideal S50000x32 .f32 :=
  Host.dotGeneral (F := Ideal) dot_S50000x96_S96x32_S50000x32_1_0_0_1_n_n none x (transpose S96x32 [1, 0] w transposes_S32x96_S96x32_1_0)

/-- Three 32-column blocks side by side. -/
def cat3 (a b c : FVec Ideal S50000x32 .f32) : FVec Ideal S50000x96 .f32 :=
  concatenate S50000x96 1 [⟨S50000x32, a⟩, ⟨S50000x32, b⟩, ⟨S50000x32, c⟩] concatenates_S50000x32_S50000x32_S50000x32_S50000x96_d1

/-- The first layer (8 input features): the up-projection sent along the edges, the down-projection sent against them,
    the bias projection, side by side; then `normAct`.
    Arguments: node features, edge array, up / down / bias weights, up / down edge weights. -/
def layerA (x : FVec Ideal S50000x8 .f32) (ei : IVec S2x1600000 32) (wu wd wb : FVec Ideal S32x8 .f32)
    (eu ed : FVec Ideal S1600000 .f32) : FVec Ideal S50000x96 .f32 :=
  normAct (cat3 (propagate (projA x wu) (edgeRow0 ei) (edgeRow1 ei) eu)
    (propagate (projA x wd) (edgeRow1 ei) (edgeRow0 ei) ed) (projA x wb))

/-- A later layer (96 input features): as `layerA`, over 32 × 96 weights. Same argument order. -/
def layerB (x : FVec Ideal S50000x96 .f32) (ei : IVec S2x1600000 32) (wu wd wb : FVec Ideal S32x96 .f32)
    (eu ed : FVec Ideal S1600000 .f32) : FVec Ideal S50000x96 .f32 :=
  normAct (cat3 (propagate (projB x wu) (edgeRow0 ei) (edgeRow1 ei) eu)
    (propagate (projB x wd) (edgeRow1 ei) (edgeRow0 ei) ed) (projB x wb))

/-- The mean of three edge-weight lists: their sum over three. -/
def meanOf (a b c : FVec Ideal S1600000 .f32) : FVec Ideal S1600000 .f32 :=
  Host.divf (F := Ideal) (addf (addf a b) c) (broadcastInDim S1600000 ![] bcast_S_S1600000 (constant (F := Ideal) S_ .f32 0x40400000#32))

end Cert.ReferenceIdeal.RefRun

end
-- ==== Proof.RefLayerRun.lean ====
/-
  The reference program's results as the network's layers.  Stretch by stretch, for arbitrary contents of the buffers,
  what a stretch leaves in the buffer a later stretch reads is the corresponding piece of a layer applied to the contents
  of the buffers the stretch reads.  Composed along the program — a buffer a stretch does not write being carried through
  it — the program's first result is the third layer of the second of the first of the arguments, and the other two are
  the means of the edge weights.
-/
import proofs.«107201_j32822140076800_2_alg».proof.Proof.RefLayerSegs
import proofs.«107201_j32822140076800_2_alg».proof.Proof.RefLayer
import proofs.«107201_j32822140076800_2_alg».proof.Proof.LibStretch

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.LibStretch (after_append)

/-! ## The reciprocal in-degree stretches, stated on the buffers themselves

A called function's operations carry each value to its typed reference's buffer type and back.  Stated on the buffers
themselves they are the same operations, and a stretch read in that form leaves no transport between its values. -/

/-- Stretch `dinvU1` with the called function's three operations stated on the buffers themselves. -/
abbrev seg_dinvU1_plain {F : FTy → Type} [FloatOps F] : List (HloOp τ sig (Elt F)) :=
  [ StableHlo.nullary main_cst (constant S_ .f32 0x00000000#32),
    StableHlo.unary main_cst main_v10 (broadcastInDim S50000 ![] bcast_S_S50000 : (⟨S_, .f32⟩ : BufTy).Contents (Elt F) → (⟨S50000, .f32⟩ : BufTy).Contents (Elt F)),
    StableHlo.nullary main_c (constantI S_ 32 0#32),
    StableHlo.unary main_c main_v11 (broadcastInDim S1600000 ![] bcast_S_S1600000 : (⟨S_, .i32⟩ : BufTy).Contents (Elt F) → (⟨S1600000, .i32⟩ : BufTy).Contents (Elt F)),
    StableHlo.binary main_v3 main_v11 main_v12 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 50000#32),
    StableHlo.unary main_c_0 main_v13 (broadcastInDim S1600000 ![] bcast_S_S1600000 : (⟨S_, .i32⟩ : BufTy).Contents (Elt F) → (⟨S1600000, .i32⟩ : BufTy).Contents (Elt F)),
    StableHlo.binary main_v3 main_v13 main_v14 (addi : (⟨S1600000, .i32⟩ : BufTy).Contents (Elt F) → (⟨S1600000, .i32⟩ : BufTy).Contents (Elt F) → (⟨S1600000, .i32⟩ : BufTy).Contents (Elt F)),
    StableHlo.ternary main_v12 main_v14 main_v3 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v15 main_v16 (broadcastInDim S1600000x1 ![0] bcast_S1600000_S1600000x1_0 : (⟨S1600000, .i32⟩ : BufTy).Contents (Elt F) → (⟨S1600000x1, .i32⟩ : BufTy).Contents (Elt F)),
    StableHlo.nullary main_cst_1 (constant S_ .f32 0x3F800000#32),
    StableHlo.unary main_cst_1 main_v17 (broadcastInDim S1600000 ![] bcast_S_S1600000 : (⟨S_, .f32⟩ : BufTy).Contents (Elt F) → (⟨S1600000, .f32⟩ : BufTy).Contents (Elt F)),
    StableHlo.ternary main_v10 main_v16 main_v17 main_v18 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_2 (constant S_ .f32 0x00000000#32),
    StableHlo.unary main_cst_2 main_v19 (broadcastInDim S50000 ![] bcast_S_S50000 : (⟨S_, .f32⟩ : BufTy).Contents (Elt F) → (⟨S50000, .f32⟩ : BufTy).Contents (Elt F)),
    StableHlo.binary main_v18 main_v19 main_v20 (cmpf .ogt : (⟨S50000, .f32⟩ : BufTy).Contents (Elt F) → (⟨S50000, .f32⟩ : BufTy).Contents (Elt F) → (⟨S50000, .i1⟩ : BufTy).Contents (Elt F)),
    StableHlo.nullary main_cst_3 (constant S_ .f32 0x3F800000#32),
    StableHlo.unary main_cst_3 main_v21 (broadcastInDim S50000 ![] bcast_S_S50000 : (⟨S_, .f32⟩ : BufTy).Contents (Elt F) → (⟨S50000, .f32⟩ : BufTy).Contents (Elt F)),
    StableHlo.binary main_v21 main_v18 main_v22 (Host.divf : (⟨S50000, .f32⟩ : BufTy).Contents (Elt F) → (⟨S50000, .f32⟩ : BufTy).Contents (Elt F) → (⟨S50000, .f32⟩ : BufTy).Contents (Elt F)),
    StableHlo.nullary main_cst_4 (constant S_ .f32 0x00000000#32),
    StableHlo.unary main_cst_4 main_call0_v0 (id : (⟨S_, .f32⟩ : BufTy).Contents (Elt F) → (⟨S_, .f32⟩ : BufTy).Contents (Elt F)),
    StableHlo.unary main_call0_v0 main_call0_v1 ((broadcastInDim S50000 ![] bcast_S_S50000) : (⟨S_, .f32⟩ : BufTy).Contents (Elt F) → (⟨S50000, .f32⟩ : BufTy).Contents (Elt F)),
    StableHlo.ternary main_v20 main_v22 main_call0_v1 main_v23 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

set_option maxRecDepth 16384 in
/-- It is the same list: a value carried to a typed reference's buffer type and back is unchanged. -/
theorem seg_dinvU1_eq_plain {F : FTy → Type} [FloatOps F] : (seg_dinvU1 : List (HloOp τ sig (Elt F))) = seg_dinvU1_plain := rfl

/-- Stretch `dinvD1` with the called function's three operations stated on the buffers themselves. -/
abbrev seg_dinvD1_plain {F : FTy → Type} [FloatOps F] : List (HloOp τ sig (Elt F)) :=
  [ StableHlo.nullary main_cst_12 (constant S_ .f32 0x00000000#32),
    StableHlo.unary main_cst_12 main_v50 (broadcastInDim S50000 ![] bcast_S_S50000 : (⟨S_, .f32⟩ : BufTy).Contents (Elt F) → (⟨S50000, .f32⟩ : BufTy).Contents (Elt F)),
    StableHlo.nullary main_c_13 (constantI S_ 32 0#32),
    StableHlo.unary main_c_13 main_v51 (broadcastInDim S1600000 ![] bcast_S_S1600000 : (⟨S_, .i32⟩ : BufTy).Contents (Elt F) → (⟨S1600000, .i32⟩ : BufTy).Contents (Elt F)),
    StableHlo.binary main_v1 main_v51 main_v52 (cmpi .slt : (⟨S1600000, .i32⟩ : BufTy).Contents (Elt F) → (⟨S1600000, .i32⟩ : BufTy).Contents (Elt F) → (⟨S1600000, .i1⟩ : BufTy).Contents (Elt F)),
    StableHlo.nullary main_c_14 (constantI S_ 32 50000#32),
    StableHlo.unary main_c_14 main_v53 (broadcastInDim S1600000 ![] bcast_S_S1600000 : (⟨S_, .i32⟩ : BufTy).Contents (Elt F) → (⟨S1600000, .i32⟩ : BufTy).Contents (Elt F)),
    StableHlo.binary main_v1 main_v53 main_v54 (addi : (⟨S1600000, .i32⟩ : BufTy).Contents (Elt F) → (⟨S1600000, .i32⟩ : BufTy).Contents (Elt F) → (⟨S1600000, .i32⟩ : BufTy).Contents (Elt F)),
    StableHlo.ternary main_v52 main_v54 main_v1 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v55 main_v56 (broadcastInDim S1600000x1 ![0] bcast_S1600000_S1600000x1_0 : (⟨S1600000, .i32⟩ : BufTy).Contents (Elt F) → (⟨S1600000x1, .i32⟩ : BufTy).Contents (Elt F)),
    StableHlo.nullary main_cst_15 (constant S_ .f32 0x3F800000#32),
    StableHlo.unary main_cst_15 main_v57 (broadcastInDim S1600000 ![] bcast_S_S1600000 : (⟨S_, .f32⟩ : BufTy).Contents (Elt F) → (⟨S1600000, .f32⟩ : BufTy).Contents (Elt F)),
    StableHlo.ternary main_v50 main_v56 main_v57 main_v58 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_16 (constant S_ .f32 0x00000000#32),
    StableHlo.unary main_cst_16 main_v59 (broadcastInDim S50000 ![] bcast_S_S50000 : (⟨S_, .f32⟩ : BufTy).Contents (Elt F) → (⟨S50000, .f32⟩ : BufTy).Contents (Elt F)),
    StableHlo.binary main_v58 main_v59 main_v60 (cmpf .ogt : (⟨S50000, .f32⟩ : BufTy).Contents (Elt F) → (⟨S50000, .f32⟩ : BufTy).Contents (Elt F) → (⟨S50000, .i1⟩ : BufTy).Contents (Elt F)),
    StableHlo.nullary main_cst_17 (constant S_ .f32 0x3F800000#32),
    StableHlo.unary main_cst_17 main_v61 (broadcastInDim S50000 ![] bcast_S_S50000 : (⟨S_, .f32⟩ : BufTy).Contents (Elt F) → (⟨S50000, .f32⟩ : BufTy).Contents (Elt F)),
    StableHlo.binary main_v61 main_v58 main_v62 (Host.divf : (⟨S50000, .f32⟩ : BufTy).Contents (Elt F) → (⟨S50000, .f32⟩ : BufTy).Contents (Elt F) → (⟨S50000, .f32⟩ : BufTy).Contents (Elt F)),
    StableHlo.nullary main_cst_18 (constant S_ .f32 0x00000000#32),
    StableHlo.unary main_cst_18 main_call1_v0 (id : (⟨S_, .f32⟩ : BufTy).Contents (Elt F) → (⟨S_, .f32⟩ : BufTy).Contents (Elt F)),
    StableHlo.unary main_call1_v0 main_call1_v1 ((broadcastInDim S50000 ![] bcast_S_S50000) : (⟨S_, .f32⟩ : BufTy).Contents (Elt F) → (⟨S50000, .f32⟩ : BufTy).Contents (Elt F)),
    StableHlo.ternary main_v60 main_v62 main_call1_v1 main_v63 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

set_option maxRecDepth 16384 in
/-- It is the same list: a value carried to a typed reference's buffer type and back is unchanged. -/
theorem seg_dinvD1_eq_plain {F : FTy → Type} [FloatOps F] : (seg_dinvD1 : List (HloOp τ sig (Elt F))) = seg_dinvD1_plain := rfl

/-- Stretch `dinvU2` with the called function's three operations stated on the buffers themselves. -/
abbrev seg_dinvU2_plain {F : FTy → Type} [FloatOps F] : List (HloOp τ sig (Elt F)) :=
  [ StableHlo.nullary main_cst_28 (constant S_ .f32 0x00000000#32),
    StableHlo.unary main_cst_28 main_v107 (broadcastInDim S50000 ![] bcast_S_S50000 : (⟨S_, .f32⟩ : BufTy).Contents (Elt F) → (⟨S50000, .f32⟩ : BufTy).Contents (Elt F)),
    StableHlo.nullary main_c_29 (constantI S_ 32 0#32),
    StableHlo.unary main_c_29 main_v108 (broadcastInDim S1600000 ![] bcast_S_S1600000 : (⟨S_, .i32⟩ : BufTy).Contents (Elt F) → (⟨S1600000, .i32⟩ : BufTy).Contents (Elt F)),
    StableHlo.binary main_v100 main_v108 main_v109 (cmpi .slt : (⟨S1600000, .i32⟩ : BufTy).Contents (Elt F) → (⟨S1600000, .i32⟩ : BufTy).Contents (Elt F) → (⟨S1600000, .i1⟩ : BufTy).Contents (Elt F)),
    StableHlo.nullary main_c_30 (constantI S_ 32 50000#32),
    StableHlo.unary main_c_30 main_v110 (broadcastInDim S1600000 ![] bcast_S_S1600000 : (⟨S_, .i32⟩ : BufTy).Contents (Elt F) → (⟨S1600000, .i32⟩ : BufTy).Contents (Elt F)),
    StableHlo.binary main_v100 main_v110 main_v111 (addi : (⟨S1600000, .i32⟩ : BufTy).Contents (Elt F) → (⟨S1600000, .i32⟩ : BufTy).Contents (Elt F) → (⟨S1600000, .i32⟩ : BufTy).Contents (Elt F)),
    StableHlo.ternary main_v109 main_v111 main_v100 main_v112 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v112 main_v113 (broadcastInDim S1600000x1 ![0] bcast_S1600000_S1600000x1_0 : (⟨S1600000, .i32⟩ : BufTy).Contents (Elt F) → (⟨S1600000x1, .i32⟩ : BufTy).Contents (Elt F)),
    StableHlo.nullary main_cst_31 (constant S_ .f32 0x3F800000#32),
    StableHlo.unary main_cst_31 main_v114 (broadcastInDim S1600000 ![] bcast_S_S1600000 : (⟨S_, .f32⟩ : BufTy).Contents (Elt F) → (⟨S1600000, .f32⟩ : BufTy).Contents (Elt F)),
    StableHlo.ternary main_v107 main_v113 main_v114 main_v115 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_32 (constant S_ .f32 0x00000000#32),
    StableHlo.unary main_cst_32 main_v116 (broadcastInDim S50000 ![] bcast_S_S50000 : (⟨S_, .f32⟩ : BufTy).Contents (Elt F) → (⟨S50000, .f32⟩ : BufTy).Contents (Elt F)),
    StableHlo.binary main_v115 main_v116 main_v117 (cmpf .ogt : (⟨S50000, .f32⟩ : BufTy).Contents (Elt F) → (⟨S50000, .f32⟩ : BufTy).Contents (Elt F) → (⟨S50000, .i1⟩ : BufTy).Contents (Elt F)),
    StableHlo.nullary main_cst_33 (constant S_ .f32 0x3F800000#32),
    StableHlo.unary main_cst_33 main_v118 (broadcastInDim S50000 ![] bcast_S_S50000 : (⟨S_, .f32⟩ : BufTy).Contents (Elt F) → (⟨S50000, .f32⟩ : BufTy).Contents (Elt F)),
    StableHlo.binary main_v118 main_v115 main_v119 (Host.divf : (⟨S50000, .f32⟩ : BufTy).Contents (Elt F) → (⟨S50000, .f32⟩ : BufTy).Contents (Elt F) → (⟨S50000, .f32⟩ : BufTy).Contents (Elt F)),
    StableHlo.nullary main_cst_34 (constant S_ .f32 0x00000000#32),
    StableHlo.unary main_cst_34 main_call4_v0 (id : (⟨S_, .f32⟩ : BufTy).Contents (Elt F) → (⟨S_, .f32⟩ : BufTy).Contents (Elt F)),
    StableHlo.unary main_call4_v0 main_call4_v1 ((broadcastInDim S50000 ![] bcast_S_S50000) : (⟨S_, .f32⟩ : BufTy).Contents (Elt F) → (⟨S50000, .f32⟩ : BufTy).Contents (Elt F)),
    StableHlo.ternary main_v117 main_v119 main_call4_v1 main_v120 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

set_option maxRecDepth 16384 in
/-- It is the same list: a value carried to a typed reference's buffer type and back is unchanged. -/
theorem seg_dinvU2_eq_plain {F : FTy → Type} [FloatOps F] : (seg_dinvU2 : List (HloOp τ sig (Elt F))) = seg_dinvU2_plain := rfl

/-- Stretch `dinvD2` with the called function's three operations stated on the buffers themselves. -/
abbrev seg_dinvD2_plain {F : FTy → Type} [FloatOps F] : List (HloOp τ sig (Elt F)) :=
  [ StableHlo.nullary main_cst_42 (constant S_ .f32 0x00000000#32),
    StableHlo.unary main_cst_42 main_v147 (broadcastInDim S50000 ![] bcast_S_S50000 : (⟨S_, .f32⟩ : BufTy).Contents (Elt F) → (⟨S50000, .f32⟩ : BufTy).Contents (Elt F)),
    StableHlo.nullary main_c_43 (constantI S_ 32 0#32),
    StableHlo.unary main_c_43 main_v148 (broadcastInDim S1600000 ![] bcast_S_S1600000 : (⟨S_, .i32⟩ : BufTy).Contents (Elt F) → (⟨S1600000, .i32⟩ : BufTy).Contents (Elt F)),
    StableHlo.binary main_v98 main_v148 main_v149 (cmpi .slt : (⟨S1600000, .i32⟩ : BufTy).Contents (Elt F) → (⟨S1600000, .i32⟩ : BufTy).Contents (Elt F) → (⟨S1600000, .i1⟩ : BufTy).Contents (Elt F)),
    StableHlo.nullary main_c_44 (constantI S_ 32 50000#32),
    StableHlo.unary main_c_44 main_v150 (broadcastInDim S1600000 ![] bcast_S_S1600000 : (⟨S_, .i32⟩ : BufTy).Contents (Elt F) → (⟨S1600000, .i32⟩ : BufTy).Contents (Elt F)),
    StableHlo.binary main_v98 main_v150 main_v151 (addi : (⟨S1600000, .i32⟩ : BufTy).Contents (Elt F) → (⟨S1600000, .i32⟩ : BufTy).Contents (Elt F) → (⟨S1600000, .i32⟩ : BufTy).Contents (Elt F)),
    StableHlo.ternary main_v149 main_v151 main_v98 main_v152 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v152 main_v153 (broadcastInDim S1600000x1 ![0] bcast_S1600000_S1600000x1_0 : (⟨S1600000, .i32⟩ : BufTy).Contents (Elt F) → (⟨S1600000x1, .i32⟩ : BufTy).Contents (Elt F)),
    StableHlo.nullary main_cst_45 (constant S_ .f32 0x3F800000#32),
    StableHlo.unary main_cst_45 main_v154 (broadcastInDim S1600000 ![] bcast_S_S1600000 : (⟨S_, .f32⟩ : BufTy).Contents (Elt F) → (⟨S1600000, .f32⟩ : BufTy).Contents (Elt F)),
    StableHlo.ternary main_v147 main_v153 main_v154 main_v155 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_46 (constant S_ .f32 0x00000000#32),
    StableHlo.unary main_cst_46 main_v156 (broadcastInDim S50000 ![] bcast_S_S50000 : (⟨S_, .f32⟩ : BufTy).Contents (Elt F) → (⟨S50000, .f32⟩ : BufTy).Contents (Elt F)),
    StableHlo.binary main_v155 main_v156 main_v157 (cmpf .ogt : (⟨S50000, .f32⟩ : BufTy).Contents (Elt F) → (⟨S50000, .f32⟩ : BufTy).Contents (Elt F) → (⟨S50000, .i1⟩ : BufTy).Contents (Elt F)),
    StableHlo.nullary main_cst_47 (constant S_ .f32 0x3F800000#32),
    StableHlo.unary main_cst_47 main_v158 (broadcastInDim S50000 ![] bcast_S_S50000 : (⟨S_, .f32⟩ : BufTy).Contents (Elt F) → (⟨S50000, .f32⟩ : BufTy).Contents (Elt F)),
    StableHlo.binary main_v158 main_v155 main_v159 (Host.divf : (⟨S50000, .f32⟩ : BufTy).Contents (Elt F) → (⟨S50000, .f32⟩ : BufTy).Contents (Elt F) → (⟨S50000, .f32⟩ : BufTy).Contents (Elt F)),
    StableHlo.nullary main_cst_48 (constant S_ .f32 0x00000000#32),
    StableHlo.unary main_cst_48 main_call5_v0 (id : (⟨S_, .f32⟩ : BufTy).Contents (Elt F) → (⟨S_, .f32⟩ : BufTy).Contents (Elt F)),
    StableHlo.unary main_call5_v0 main_call5_v1 ((broadcastInDim S50000 ![] bcast_S_S50000) : (⟨S_, .f32⟩ : BufTy).Contents (Elt F) → (⟨S50000, .f32⟩ : BufTy).Contents (Elt F)),
    StableHlo.ternary main_v157 main_v159 main_call5_v1 main_v160 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

set_option maxRecDepth 16384 in
/-- It is the same list: a value carried to a typed reference's buffer type and back is unchanged. -/
theorem seg_dinvD2_eq_plain {F : FTy → Type} [FloatOps F] : (seg_dinvD2 : List (HloOp τ sig (Elt F))) = seg_dinvD2_plain := rfl

/-- Stretch `dinvU3` with the called function's three operations stated on the buffers themselves. -/
abbrev seg_dinvU3_plain {F : FTy → Type} [FloatOps F] : List (HloOp τ sig (Elt F)) :=
  [ StableHlo.nullary main_cst_58 (constant S_ .f32 0x00000000#32),
    StableHlo.unary main_cst_58 main_v204 (broadcastInDim S50000 ![] bcast_S_S50000 : (⟨S_, .f32⟩ : BufTy).Contents (Elt F) → (⟨S50000, .f32⟩ : BufTy).Contents (Elt F)),
    StableHlo.nullary main_c_59 (constantI S_ 32 0#32),
    StableHlo.unary main_c_59 main_v205 (broadcastInDim S1600000 ![] bcast_S_S1600000 : (⟨S_, .i32⟩ : BufTy).Contents (Elt F) → (⟨S1600000, .i32⟩ : BufTy).Contents (Elt F)),
    StableHlo.binary main_v197 main_v205 main_v206 (cmpi .slt : (⟨S1600000, .i32⟩ : BufTy).Contents (Elt F) → (⟨S1600000, .i32⟩ : BufTy).Contents (Elt F) → (⟨S1600000, .i1⟩ : BufTy).Contents (Elt F)),
    StableHlo.nullary main_c_60 (constantI S_ 32 50000#32),
    StableHlo.unary main_c_60 main_v207 (broadcastInDim S1600000 ![] bcast_S_S1600000 : (⟨S_, .i32⟩ : BufTy).Contents (Elt F) → (⟨S1600000, .i32⟩ : BufTy).Contents (Elt F)),
    StableHlo.binary main_v197 main_v207 main_v208 (addi : (⟨S1600000, .i32⟩ : BufTy).Contents (Elt F) → (⟨S1600000, .i32⟩ : BufTy).Contents (Elt F) → (⟨S1600000, .i32⟩ : BufTy).Contents (Elt F)),
    StableHlo.ternary main_v206 main_v208 main_v197 main_v209 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v209 main_v210 (broadcastInDim S1600000x1 ![0] bcast_S1600000_S1600000x1_0 : (⟨S1600000, .i32⟩ : BufTy).Contents (Elt F) → (⟨S1600000x1, .i32⟩ : BufTy).Contents (Elt F)),
    StableHlo.nullary main_cst_61 (constant S_ .f32 0x3F800000#32),
    StableHlo.unary main_cst_61 main_v211 (broadcastInDim S1600000 ![] bcast_S_S1600000 : (⟨S_, .f32⟩ : BufTy).Contents (Elt F) → (⟨S1600000, .f32⟩ : BufTy).Contents (Elt F)),
    StableHlo.ternary main_v204 main_v210 main_v211 main_v212 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_62 (constant S_ .f32 0x00000000#32),
    StableHlo.unary main_cst_62 main_v213 (broadcastInDim S50000 ![] bcast_S_S50000 : (⟨S_, .f32⟩ : BufTy).Contents (Elt F) → (⟨S50000, .f32⟩ : BufTy).Contents (Elt F)),
    StableHlo.binary main_v212 main_v213 main_v214 (cmpf .ogt : (⟨S50000, .f32⟩ : BufTy).Contents (Elt F) → (⟨S50000, .f32⟩ : BufTy).Contents (Elt F) → (⟨S50000, .i1⟩ : BufTy).Contents (Elt F)),
    StableHlo.nullary main_cst_63 (constant S_ .f32 0x3F800000#32),
    StableHlo.unary main_cst_63 main_v215 (broadcastInDim S50000 ![] bcast_S_S50000 : (⟨S_, .f32⟩ : BufTy).Contents (Elt F) → (⟨S50000, .f32⟩ : BufTy).Contents (Elt F)),
    StableHlo.binary main_v215 main_v212 main_v216 (Host.divf : (⟨S50000, .f32⟩ : BufTy).Contents (Elt F) → (⟨S50000, .f32⟩ : BufTy).Contents (Elt F) → (⟨S50000, .f32⟩ : BufTy).Contents (Elt F)),
    StableHlo.nullary main_cst_64 (constant S_ .f32 0x00000000#32),
    StableHlo.unary main_cst_64 main_call8_v0 (id : (⟨S_, .f32⟩ : BufTy).Contents (Elt F) → (⟨S_, .f32⟩ : BufTy).Contents (Elt F)),
    StableHlo.unary main_call8_v0 main_call8_v1 ((broadcastInDim S50000 ![] bcast_S_S50000) : (⟨S_, .f32⟩ : BufTy).Contents (Elt F) → (⟨S50000, .f32⟩ : BufTy).Contents (Elt F)),
    StableHlo.ternary main_v214 main_v216 main_call8_v1 main_v217 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

set_option maxRecDepth 16384 in
/-- It is the same list: a value carried to a typed reference's buffer type and back is unchanged. -/
theorem seg_dinvU3_eq_plain {F : FTy → Type} [FloatOps F] : (seg_dinvU3 : List (HloOp τ sig (Elt F))) = seg_dinvU3_plain := rfl

/-- Stretch `dinvD3` with the called function's three operations stated on the buffers themselves. -/
abbrev seg_dinvD3_plain {F : FTy → Type} [FloatOps F] : List (HloOp τ sig (Elt F)) :=
  [ StableHlo.nullary main_cst_72 (constant S_ .f32 0x00000000#32),
    StableHlo.unary main_cst_72 main_v244 (broadcastInDim S50000 ![] bcast_S_S50000 : (⟨S_, .f32⟩ : BufTy).Contents (Elt F) → (⟨S50000, .f32⟩ : BufTy).Contents (Elt F)),
    StableHlo.nullary main_c_73 (constantI S_ 32 0#32),
    StableHlo.unary main_c_73 main_v245 (broadcastInDim S1600000 ![] bcast_S_S1600000 : (⟨S_, .i32⟩ : BufTy).Contents (Elt F) → (⟨S1600000, .i32⟩ : BufTy).Contents (Elt F)),
    StableHlo.binary main_v195 main_v245 main_v246 (cmpi .slt : (⟨S1600000, .i32⟩ : BufTy).Contents (Elt F) → (⟨S1600000, .i32⟩ : BufTy).Contents (Elt F) → (⟨S1600000, .i1⟩ : BufTy).Contents (Elt F)),
    StableHlo.nullary main_c_74 (constantI S_ 32 50000#32),
    StableHlo.unary main_c_74 main_v247 (broadcastInDim S1600000 ![] bcast_S_S1600000 : (⟨S_, .i32⟩ : BufTy).Contents (Elt F) → (⟨S1600000, .i32⟩ : BufTy).Contents (Elt F)),
    StableHlo.binary main_v195 main_v247 main_v248 (addi : (⟨S1600000, .i32⟩ : BufTy).Contents (Elt F) → (⟨S1600000, .i32⟩ : BufTy).Contents (Elt F) → (⟨S1600000, .i32⟩ : BufTy).Contents (Elt F)),
    StableHlo.ternary main_v246 main_v248 main_v195 main_v249 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v249 main_v250 (broadcastInDim S1600000x1 ![0] bcast_S1600000_S1600000x1_0 : (⟨S1600000, .i32⟩ : BufTy).Contents (Elt F) → (⟨S1600000x1, .i32⟩ : BufTy).Contents (Elt F)),
    StableHlo.nullary main_cst_75 (constant S_ .f32 0x3F800000#32),
    StableHlo.unary main_cst_75 main_v251 (broadcastInDim S1600000 ![] bcast_S_S1600000 : (⟨S_, .f32⟩ : BufTy).Contents (Elt F) → (⟨S1600000, .f32⟩ : BufTy).Contents (Elt F)),
    StableHlo.ternary main_v244 main_v250 main_v251 main_v252 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_76 (constant S_ .f32 0x00000000#32),
    StableHlo.unary main_cst_76 main_v253 (broadcastInDim S50000 ![] bcast_S_S50000 : (⟨S_, .f32⟩ : BufTy).Contents (Elt F) → (⟨S50000, .f32⟩ : BufTy).Contents (Elt F)),
    StableHlo.binary main_v252 main_v253 main_v254 (cmpf .ogt : (⟨S50000, .f32⟩ : BufTy).Contents (Elt F) → (⟨S50000, .f32⟩ : BufTy).Contents (Elt F) → (⟨S50000, .i1⟩ : BufTy).Contents (Elt F)),
    StableHlo.nullary main_cst_77 (constant S_ .f32 0x3F800000#32),
    StableHlo.unary main_cst_77 main_v255 (broadcastInDim S50000 ![] bcast_S_S50000 : (⟨S_, .f32⟩ : BufTy).Contents (Elt F) → (⟨S50000, .f32⟩ : BufTy).Contents (Elt F)),
    StableHlo.binary main_v255 main_v252 main_v256 (Host.divf : (⟨S50000, .f32⟩ : BufTy).Contents (Elt F) → (⟨S50000, .f32⟩ : BufTy).Contents (Elt F) → (⟨S50000, .f32⟩ : BufTy).Contents (Elt F)),
    StableHlo.nullary main_cst_78 (constant S_ .f32 0x00000000#32),
    StableHlo.unary main_cst_78 main_call9_v0 (id : (⟨S_, .f32⟩ : BufTy).Contents (Elt F) → (⟨S_, .f32⟩ : BufTy).Contents (Elt F)),
    StableHlo.unary main_call9_v0 main_call9_v1 ((broadcastInDim S50000 ![] bcast_S_S50000) : (⟨S_, .f32⟩ : BufTy).Contents (Elt F) → (⟨S50000, .f32⟩ : BufTy).Contents (Elt F)),
    StableHlo.ternary main_v254 main_v256 main_call9_v1 main_v257 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

set_option maxRecDepth 16384 in
/-- It is the same list: a value carried to a typed reference's buffer type and back is unchanged. -/
theorem seg_dinvD3_eq_plain {F : FTy → Type} [FloatOps F] : (seg_dinvD3 : List (HloOp τ sig (Elt F))) = seg_dinvD3_plain := rfl

/-! ## Layer 1, stretch by stretch -/

set_option maxRecDepth 100000 in
set_option maxHeartbeats 4000000 in
/-- The sources, read off the edge array. -/
theorem pro1_row (V : Valuation τ sig (Elt Ideal)) :
    after seg_pro1 V (Proc.devRef .tc main_v1) = edgeRow0 (V (Proc.devRef .tc main_arg1)) := by
  after_results_simp
  try simp only [Cert.LibStretch.ofBuf_toBuf, Cert.LibStretch.toBuf_ofBuf]
  rfl

set_option maxRecDepth 100000 in
set_option maxHeartbeats 4000000 in
/-- The targets, read off the edge array. -/
theorem pro1_col (V : Valuation τ sig (Elt Ideal)) :
    after seg_pro1 V (Proc.devRef .tc main_v3) = edgeRow1 (V (Proc.devRef .tc main_arg1)) := by
  after_results_simp
  try simp only [Cert.LibStretch.ofBuf_toBuf, Cert.LibStretch.toBuf_ofBuf]
  rfl

set_option maxRecDepth 100000 in
set_option maxHeartbeats 4000000 in
/-- The up-projection of the features. -/
theorem pro1_up (V : Valuation τ sig (Elt Ideal)) :
    after seg_pro1 V (Proc.devRef .tc main_v5) = projA (V (Proc.devRef .tc main_arg0)) (V (Proc.devRef .tc main_arg2)) := by
  after_results_simp
  try simp only [Cert.LibStretch.ofBuf_toBuf, Cert.LibStretch.toBuf_ofBuf]
  rfl

set_option maxRecDepth 100000 in
set_option maxHeartbeats 4000000 in
/-- The down-projection of the features. -/
theorem pro1_down (V : Valuation τ sig (Elt Ideal)) :
    after seg_pro1 V (Proc.devRef .tc main_v7) = projA (V (Proc.devRef .tc main_arg0)) (V (Proc.devRef .tc main_arg3)) := by
  after_results_simp
  try simp only [Cert.LibStretch.ofBuf_toBuf, Cert.LibStretch.toBuf_ofBuf]
  rfl

set_option maxRecDepth 100000 in
set_option maxHeartbeats 4000000 in
/-- The bias projection of the features. -/
theorem pro1_bias (V : Valuation τ sig (Elt Ideal)) :
    after seg_pro1 V (Proc.devRef .tc main_v9) = projA (V (Proc.devRef .tc main_arg0)) (V (Proc.devRef .tc main_arg4)) := by
  after_results_simp
  try simp only [Cert.LibStretch.ofBuf_toBuf, Cert.LibStretch.toBuf_ofBuf]
  rfl

set_option maxRecDepth 100000 in
set_option maxHeartbeats 4000000 in
/-- The reciprocal in-degrees along the edges (targets: row 1). -/
theorem dinvU1_result (V : Valuation τ sig (Elt Ideal)) :
    after seg_dinvU1 V (Proc.devRef .tc main_v23) = degInv (V (Proc.devRef .tc main_v3)) := by
  rw [seg_dinvU1_eq_plain]
  after_results_simp
  rfl

set_option maxRecDepth 100000 in
set_option maxHeartbeats 4000000 in
/-- The up-projection sent along the edges. -/
theorem msgU1_result (V : Valuation τ sig (Elt Ideal)) :
    after seg_msgU1 V (Proc.devRef .tc main_v49) = messages (V (Proc.devRef .tc main_v23)) (V (Proc.devRef .tc main_v5)) (V (Proc.devRef .tc main_v1)) (V (Proc.devRef .tc main_v3)) (V (Proc.devRef .tc main_arg5)) := by
  after_results_simp
  try simp only [Cert.LibStretch.ofBuf_toBuf, Cert.LibStretch.toBuf_ofBuf]
  rfl

set_option maxRecDepth 100000 in
set_option maxHeartbeats 4000000 in
/-- The reciprocal in-degrees against the edges (targets: row 0). -/
theorem dinvD1_result (V : Valuation τ sig (Elt Ideal)) :
    after seg_dinvD1 V (Proc.devRef .tc main_v63) = degInv (V (Proc.devRef .tc main_v1)) := by
  rw [seg_dinvD1_eq_plain]
  after_results_simp
  rfl

set_option maxRecDepth 100000 in
set_option maxHeartbeats 4000000 in
/-- The down-projection sent against the edges. -/
theorem msgD1_result (V : Valuation τ sig (Elt Ideal)) :
    after seg_msgD1 V (Proc.devRef .tc main_v89) = messages (V (Proc.devRef .tc main_v63)) (V (Proc.devRef .tc main_v7)) (V (Proc.devRef .tc main_v3)) (V (Proc.devRef .tc main_v1)) (V (Proc.devRef .tc main_arg6)) := by
  after_results_simp
  try simp only [Cert.LibStretch.ofBuf_toBuf, Cert.LibStretch.toBuf_ofBuf]
  rfl

set_option maxRecDepth 100000 in
set_option maxHeartbeats 4000000 in
/-- The three blocks side by side, normalised and activated. -/
theorem fin1_result (V : Valuation τ sig (Elt Ideal)) :
    after seg_fin1 V (Proc.devRef .tc main_v96) = normAct (cat3 (V (Proc.devRef .tc main_v49)) (V (Proc.devRef .tc main_v89)) (V (Proc.devRef .tc main_v9))) := by
  after_results_simp
  try simp only [Cert.LibStretch.ofBuf_toBuf, Cert.LibStretch.toBuf_ofBuf]
  rfl

/-! ## Layer 2, stretch by stretch -/

set_option maxRecDepth 100000 in
set_option maxHeartbeats 4000000 in
/-- The sources, read off the edge array. -/
theorem pro2_row (V : Valuation τ sig (Elt Ideal)) :
    after seg_pro2 V (Proc.devRef .tc main_v98) = edgeRow0 (V (Proc.devRef .tc main_arg1)) := by
  after_results_simp
  try simp only [Cert.LibStretch.ofBuf_toBuf, Cert.LibStretch.toBuf_ofBuf]
  rfl

set_option maxRecDepth 100000 in
set_option maxHeartbeats 4000000 in
/-- The targets, read off the edge array. -/
theorem pro2_col (V : Valuation τ sig (Elt Ideal)) :
    after seg_pro2 V (Proc.devRef .tc main_v100) = edgeRow1 (V (Proc.devRef .tc main_arg1)) := by
  after_results_simp
  try simp only [Cert.LibStretch.ofBuf_toBuf, Cert.LibStretch.toBuf_ofBuf]
  rfl

set_option maxRecDepth 100000 in
set_option maxHeartbeats 4000000 in
/-- The up-projection of the features. -/
theorem pro2_up (V : Valuation τ sig (Elt Ideal)) :
    after seg_pro2 V (Proc.devRef .tc main_v102) = projB (V (Proc.devRef .tc main_v96)) (V (Proc.devRef .tc main_arg7)) := by
  after_results_simp
  try simp only [Cert.LibStretch.ofBuf_toBuf, Cert.LibStretch.toBuf_ofBuf]
  rfl

set_option maxRecDepth 100000 in
set_option maxHeartbeats 4000000 in
/-- The down-projection of the features. -/
theorem pro2_down (V : Valuation τ sig (Elt Ideal)) :
    after seg_pro2 V (Proc.devRef .tc main_v104) = projB (V (Proc.devRef .tc main_v96)) (V (Proc.devRef .tc main_arg8)) := by
  after_results_simp
  try simp only [Cert.LibStretch.ofBuf_toBuf, Cert.LibStretch.toBuf_ofBuf]
  rfl

set_option maxRecDepth 100000 in
set_option maxHeartbeats 4000000 in
/-- The bias projection of the features. -/
theorem pro2_bias (V : Valuation τ sig (Elt Ideal)) :
    after seg_pro2 V (Proc.devRef .tc main_v106) = projB (V (Proc.devRef .tc main_v96)) (V (Proc.devRef .tc main_arg9)) := by
  after_results_simp
  try simp only [Cert.LibStretch.ofBuf_toBuf, Cert.LibStretch.toBuf_ofBuf]
  rfl

set_option maxRecDepth 100000 in
set_option maxHeartbeats 4000000 in
/-- The reciprocal in-degrees along the edges (targets: row 1). -/
theorem dinvU2_result (V : Valuation τ sig (Elt Ideal)) :
    after seg_dinvU2 V (Proc.devRef .tc main_v120) = degInv (V (Proc.devRef .tc main_v100)) := by
  rw [seg_dinvU2_eq_plain]
  after_results_simp
  rfl

set_option maxRecDepth 100000 in
set_option maxHeartbeats 4000000 in
/-- The up-projection sent along the edges. -/
theorem msgU2_result (V : Valuation τ sig (Elt Ideal)) :
    after seg_msgU2 V (Proc.devRef .tc main_v146) = messages (V (Proc.devRef .tc main_v120)) (V (Proc.devRef .tc main_v102)) (V (Proc.devRef .tc main_v98)) (V (Proc.devRef .tc main_v100)) (V (Proc.devRef .tc main_arg10)) := by
  after_results_simp
  try simp only [Cert.LibStretch.ofBuf_toBuf, Cert.LibStretch.toBuf_ofBuf]
  rfl

set_option maxRecDepth 100000 in
set_option maxHeartbeats 4000000 in
/-- The reciprocal in-degrees against the edges (targets: row 0). -/
theorem dinvD2_result (V : Valuation τ sig (Elt Ideal)) :
    after seg_dinvD2 V (Proc.devRef .tc main_v160) = degInv (V (Proc.devRef .tc main_v98)) := by
  rw [seg_dinvD2_eq_plain]
  after_results_simp
  rfl

set_option maxRecDepth 100000 in
set_option maxHeartbeats 4000000 in
/-- The down-projection sent against the edges. -/
theorem msgD2_result (V : Valuation τ sig (Elt Ideal)) :
    after seg_msgD2 V (Proc.devRef .tc main_v186) = messages (V (Proc.devRef .tc main_v160)) (V (Proc.devRef .tc main_v104)) (V (Proc.devRef .tc main_v100)) (V (Proc.devRef .tc main_v98)) (V (Proc.devRef .tc main_arg11)) := by
  after_results_simp
  try simp only [Cert.LibStretch.ofBuf_toBuf, Cert.LibStretch.toBuf_ofBuf]
  rfl

set_option maxRecDepth 100000 in
set_option maxHeartbeats 4000000 in
/-- The three blocks side by side, normalised and activated. -/
theorem fin2_result (V : Valuation τ sig (Elt Ideal)) :
    after seg_fin2 V (Proc.devRef .tc main_v193) = normAct (cat3 (V (Proc.devRef .tc main_v146)) (V (Proc.devRef .tc main_v186)) (V (Proc.devRef .tc main_v106))) := by
  after_results_simp
  try simp only [Cert.LibStretch.ofBuf_toBuf, Cert.LibStretch.toBuf_ofBuf]
  rfl

/-! ## Layer 3, stretch by stretch -/

set_option maxRecDepth 100000 in
set_option maxHeartbeats 4000000 in
/-- The sources, read off the edge array. -/
theorem pro3_row (V : Valuation τ sig (Elt Ideal)) :
    after seg_pro3 V (Proc.devRef .tc main_v195) = edgeRow0 (V (Proc.devRef .tc main_arg1)) := by
  after_results_simp
  try simp only [Cert.LibStretch.ofBuf_toBuf, Cert.LibStretch.toBuf_ofBuf]
  rfl

set_option maxRecDepth 100000 in
set_option maxHeartbeats 4000000 in
/-- The targets, read off the edge array. -/
theorem pro3_col (V : Valuation τ sig (Elt Ideal)) :
    after seg_pro3 V (Proc.devRef .tc main_v197) = edgeRow1 (V (Proc.devRef .tc main_arg1)) := by
  after_results_simp
  try simp only [Cert.LibStretch.ofBuf_toBuf, Cert.LibStretch.toBuf_ofBuf]
  rfl

set_option maxRecDepth 100000 in
set_option maxHeartbeats 4000000 in
/-- The up-projection of the features. -/
theorem pro3_up (V : Valuation τ sig (Elt Ideal)) :
    after seg_pro3 V (Proc.devRef .tc main_v199) = projB (V (Proc.devRef .tc main_v193)) (V (Proc.devRef .tc main_arg12)) := by
  after_results_simp
  try simp only [Cert.LibStretch.ofBuf_toBuf, Cert.LibStretch.toBuf_ofBuf]
  rfl

set_option maxRecDepth 100000 in
set_option maxHeartbeats 4000000 in
/-- The down-projection of the features. -/
theorem pro3_down (V : Valuation τ sig (Elt Ideal)) :
    after seg_pro3 V (Proc.devRef .tc main_v201) = projB (V (Proc.devRef .tc main_v193)) (V (Proc.devRef .tc main_arg13)) := by
  after_results_simp
  try simp only [Cert.LibStretch.ofBuf_toBuf, Cert.LibStretch.toBuf_ofBuf]
  rfl

set_option maxRecDepth 100000 in
set_option maxHeartbeats 4000000 in
/-- The bias projection of the features. -/
theorem pro3_bias (V : Valuation τ sig (Elt Ideal)) :
    after seg_pro3 V (Proc.devRef .tc main_v203) = projB (V (Proc.devRef .tc main_v193)) (V (Proc.devRef .tc main_arg14)) := by
  after_results_simp
  try simp only [Cert.LibStretch.ofBuf_toBuf, Cert.LibStretch.toBuf_ofBuf]
  rfl

set_option maxRecDepth 100000 in
set_option maxHeartbeats 4000000 in
/-- The reciprocal in-degrees along the edges (targets: row 1). -/
theorem dinvU3_result (V : Valuation τ sig (Elt Ideal)) :
    after seg_dinvU3 V (Proc.devRef .tc main_v217) = degInv (V (Proc.devRef .tc main_v197)) := by
  rw [seg_dinvU3_eq_plain]
  after_results_simp
  rfl

set_option maxRecDepth 100000 in
set_option maxHeartbeats 4000000 in
/-- The up-projection sent along the edges. -/
theorem msgU3_result (V : Valuation τ sig (Elt Ideal)) :
    after seg_msgU3 V (Proc.devRef .tc main_v243) = messages (V (Proc.devRef .tc main_v217)) (V (Proc.devRef .tc main_v199)) (V (Proc.devRef .tc main_v195)) (V (Proc.devRef .tc main_v197)) (V (Proc.devRef .tc main_arg15)) := by
  after_results_simp
  try simp only [Cert.LibStretch.ofBuf_toBuf, Cert.LibStretch.toBuf_ofBuf]
  rfl

set_option maxRecDepth 100000 in
set_option maxHeartbeats 4000000 in
/-- The reciprocal in-degrees against the edges (targets: row 0). -/
theorem dinvD3_result (V : Valuation τ sig (Elt Ideal)) :
    after seg_dinvD3 V (Proc.devRef .tc main_v257) = degInv (V (Proc.devRef .tc main_v195)) := by
  rw [seg_dinvD3_eq_plain]
  after_results_simp
  rfl

set_option maxRecDepth 100000 in
set_option maxHeartbeats 4000000 in
/-- The down-projection sent against the edges. -/
theorem msgD3_result (V : Valuation τ sig (Elt Ideal)) :
    after seg_msgD3 V (Proc.devRef .tc main_v283) = messages (V (Proc.devRef .tc main_v257)) (V (Proc.devRef .tc main_v201)) (V (Proc.devRef .tc main_v197)) (V (Proc.devRef .tc main_v195)) (V (Proc.devRef .tc main_arg16)) := by
  after_results_simp
  try simp only [Cert.LibStretch.ofBuf_toBuf, Cert.LibStretch.toBuf_ofBuf]
  rfl

set_option maxRecDepth 100000 in
set_option maxHeartbeats 4000000 in
/-- The three blocks side by side, normalised and activated. -/
theorem fin3_result (V : Valuation τ sig (Elt Ideal)) :
    after seg_fin3 V (Proc.devRef .tc main_v290) = normAct (cat3 (V (Proc.devRef .tc main_v243)) (V (Proc.devRef .tc main_v283)) (V (Proc.devRef .tc main_v203))) := by
  after_results_simp
  try simp only [Cert.LibStretch.ofBuf_toBuf, Cert.LibStretch.toBuf_ofBuf]
  rfl

/-! ## The two means -/

set_option maxRecDepth 100000 in
set_option maxHeartbeats 4000000 in
/-- The mean of the three layers' up edge weights. -/
theorem tail_v294 (V : Valuation τ sig (Elt Ideal)) :
    after seg_tail V (Proc.devRef .tc main_v294) = meanOf (V (Proc.devRef .tc main_arg5)) (V (Proc.devRef .tc main_arg10)) (V (Proc.devRef .tc main_arg15)) := by
  after_results_simp
  try simp only [Cert.LibStretch.ofBuf_toBuf, Cert.LibStretch.toBuf_ofBuf]
  rfl

set_option maxRecDepth 100000 in
set_option maxHeartbeats 4000000 in
/-- The mean of the three layers' down edge weights. -/
theorem tail_v298 (V : Valuation τ sig (Elt Ideal)) :
    after seg_tail V (Proc.devRef .tc main_v298) = meanOf (V (Proc.devRef .tc main_arg6)) (V (Proc.devRef .tc main_arg11)) (V (Proc.devRef .tc main_arg16)) := by
  after_results_simp
  try simp only [Cert.LibStretch.ofBuf_toBuf, Cert.LibStretch.toBuf_ofBuf]
  rfl

/-! ## Layer 1 whole -/

set_option maxRecDepth 100000 in
/-- Layer 1's six stretches, run from any contents, leave the layer's output at `layerA` of the contents of its inputs. -/
theorem layer1 (V : Valuation τ sig (Elt Ideal)) :
    (after seg_fin1 (after seg_msgD1 (after seg_dinvD1 (after seg_msgU1 (after seg_dinvU1 (after seg_pro1 V)))))) (Proc.devRef .tc main_v96)
      = layerA (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [fin1_result,
    seg_msgD1_keep _ (r := main_v49) (by decide),
    msgD1_result,
    seg_msgD1_keep _ (r := main_v9) (by decide),
    seg_dinvD1_keep _ (r := main_v49) (by decide),
    dinvD1_result,
    seg_dinvD1_keep _ (r := main_v7) (by decide),
    seg_dinvD1_keep _ (r := main_v3) (by decide),
    seg_dinvD1_keep _ (r := main_v1) (by decide),
    seg_dinvD1_keep _ (r := main_arg6) (by decide),
    seg_dinvD1_keep _ (r := main_v9) (by decide),
    msgU1_result,
    seg_msgU1_keep _ (r := main_v1) (by decide),
    seg_msgU1_keep _ (r := main_v7) (by decide),
    seg_msgU1_keep _ (r := main_v3) (by decide),
    seg_msgU1_keep _ (r := main_arg6) (by decide),
    seg_msgU1_keep _ (r := main_v9) (by decide),
    dinvU1_result,
    seg_dinvU1_keep _ (r := main_v5) (by decide),
    seg_dinvU1_keep _ (r := main_v1) (by decide),
    seg_dinvU1_keep _ (r := main_v3) (by decide),
    seg_dinvU1_keep _ (r := main_arg5) (by decide),
    seg_dinvU1_keep _ (r := main_v7) (by decide),
    seg_dinvU1_keep _ (r := main_arg6) (by decide),
    seg_dinvU1_keep _ (r := main_v9) (by decide),
    pro1_col,
    pro1_up,
    pro1_row,
    seg_pro1_keep _ (r := main_arg5) (by decide),
    pro1_down,
    seg_pro1_keep _ (r := main_arg6) (by decide),
    pro1_bias]
  rfl

/-- A reference none of layer 1's stretches writes keeps its contents through the layer. -/
theorem layer1_keep (V : Valuation τ sig (Elt Ideal)) {r : Ref sig .tc}
    (h0 : r ∉ seg_pro1_W) (h1 : r ∉ seg_dinvU1_W) (h2 : r ∉ seg_msgU1_W) (h3 : r ∉ seg_dinvD1_W) (h4 : r ∉ seg_msgD1_W) (h5 : r ∉ seg_fin1_W) :
    (after seg_fin1 (after seg_msgD1 (after seg_dinvD1 (after seg_msgU1 (after seg_dinvU1 (after seg_pro1 V)))))) (Proc.devRef .tc r) = V (Proc.devRef .tc r) := by
  rw [seg_fin1_keep _ h5, seg_msgD1_keep _ h4, seg_dinvD1_keep _ h3, seg_msgU1_keep _ h2, seg_dinvU1_keep _ h1, seg_pro1_keep _ h0]

/-! ## Layer 2 whole -/

set_option maxRecDepth 100000 in
/-- Layer 2's six stretches, run from any contents, leave the layer's output at `layerB` of the contents of its inputs. -/
theorem layer2 (V : Valuation τ sig (Elt Ideal)) :
    (after seg_fin2 (after seg_msgD2 (after seg_dinvD2 (after seg_msgU2 (after seg_dinvU2 (after seg_pro2 V)))))) (Proc.devRef .tc main_v193)
      = layerB (V (Proc.devRef .tc main_v96)) (V (Proc.devRef .tc main_arg1)) (V (Proc.devRef .tc main_arg7)) (V (Proc.devRef .tc main_arg8)) (V (Proc.devRef .tc main_arg9)) (V (Proc.devRef .tc main_arg10)) (V (Proc.devRef .tc main_arg11)) := by
  rw [fin2_result,
    seg_msgD2_keep _ (r := main_v146) (by decide),
    msgD2_result,
    seg_msgD2_keep _ (r := main_v106) (by decide),
    seg_dinvD2_keep _ (r := main_v146) (by decide),
    dinvD2_result,
    seg_dinvD2_keep _ (r := main_v104) (by decide),
    seg_dinvD2_keep _ (r := main_v100) (by decide),
    seg_dinvD2_keep _ (r := main_v98) (by decide),
    seg_dinvD2_keep _ (r := main_arg11) (by decide),
    seg_dinvD2_keep _ (r := main_v106) (by decide),
    msgU2_result,
    seg_msgU2_keep _ (r := main_v98) (by decide),
    seg_msgU2_keep _ (r := main_v104) (by decide),
    seg_msgU2_keep _ (r := main_v100) (by decide),
    seg_msgU2_keep _ (r := main_arg11) (by decide),
    seg_msgU2_keep _ (r := main_v106) (by decide),
    dinvU2_result,
    seg_dinvU2_keep _ (r := main_v102) (by decide),
    seg_dinvU2_keep _ (r := main_v98) (by decide),
    seg_dinvU2_keep _ (r := main_v100) (by decide),
    seg_dinvU2_keep _ (r := main_arg10) (by decide),
    seg_dinvU2_keep _ (r := main_v104) (by decide),
    seg_dinvU2_keep _ (r := main_arg11) (by decide),
    seg_dinvU2_keep _ (r := main_v106) (by decide),
    pro2_col,
    pro2_up,
    pro2_row,
    seg_pro2_keep _ (r := main_arg10) (by decide),
    pro2_down,
    seg_pro2_keep _ (r := main_arg11) (by decide),
    pro2_bias]
  rfl

/-- A reference none of layer 2's stretches writes keeps its contents through the layer. -/
theorem layer2_keep (V : Valuation τ sig (Elt Ideal)) {r : Ref sig .tc}
    (h0 : r ∉ seg_pro2_W) (h1 : r ∉ seg_dinvU2_W) (h2 : r ∉ seg_msgU2_W) (h3 : r ∉ seg_dinvD2_W) (h4 : r ∉ seg_msgD2_W) (h5 : r ∉ seg_fin2_W) :
    (after seg_fin2 (after seg_msgD2 (after seg_dinvD2 (after seg_msgU2 (after seg_dinvU2 (after seg_pro2 V)))))) (Proc.devRef .tc r) = V (Proc.devRef .tc r) := by
  rw [seg_fin2_keep _ h5, seg_msgD2_keep _ h4, seg_dinvD2_keep _ h3, seg_msgU2_keep _ h2, seg_dinvU2_keep _ h1, seg_pro2_keep _ h0]

/-! ## Layer 3 whole -/

set_option maxRecDepth 100000 in
/-- Layer 3's six stretches, run from any contents, leave the layer's output at `layerB` of the contents of its inputs. -/
theorem layer3 (V : Valuation τ sig (Elt Ideal)) :
    (after seg_fin3 (after seg_msgD3 (after seg_dinvD3 (after seg_msgU3 (after seg_dinvU3 (after seg_pro3 V)))))) (Proc.devRef .tc main_v290)
      = layerB (V (Proc.devRef .tc main_v193)) (V (Proc.devRef .tc main_arg1)) (V (Proc.devRef .tc main_arg12)) (V (Proc.devRef .tc main_arg13)) (V (Proc.devRef .tc main_arg14)) (V (Proc.devRef .tc main_arg15)) (V (Proc.devRef .tc main_arg16)) := by
  rw [fin3_result,
    seg_msgD3_keep _ (r := main_v243) (by decide),
    msgD3_result,
    seg_msgD3_keep _ (r := main_v203) (by decide),
    seg_dinvD3_keep _ (r := main_v243) (by decide),
    dinvD3_result,
    seg_dinvD3_keep _ (r := main_v201) (by decide),
    seg_dinvD3_keep _ (r := main_v197) (by decide),
    seg_dinvD3_keep _ (r := main_v195) (by decide),
    seg_dinvD3_keep _ (r := main_arg16) (by decide),
    seg_dinvD3_keep _ (r := main_v203) (by decide),
    msgU3_result,
    seg_msgU3_keep _ (r := main_v195) (by decide),
    seg_msgU3_keep _ (r := main_v201) (by decide),
    seg_msgU3_keep _ (r := main_v197) (by decide),
    seg_msgU3_keep _ (r := main_arg16) (by decide),
    seg_msgU3_keep _ (r := main_v203) (by decide),
    dinvU3_result,
    seg_dinvU3_keep _ (r := main_v199) (by decide),
    seg_dinvU3_keep _ (r := main_v195) (by decide),
    seg_dinvU3_keep _ (r := main_v197) (by decide),
    seg_dinvU3_keep _ (r := main_arg15) (by decide),
    seg_dinvU3_keep _ (r := main_v201) (by decide),
    seg_dinvU3_keep _ (r := main_arg16) (by decide),
    seg_dinvU3_keep _ (r := main_v203) (by decide),
    pro3_col,
    pro3_up,
    pro3_row,
    seg_pro3_keep _ (r := main_arg15) (by decide),
    pro3_down,
    seg_pro3_keep _ (r := main_arg16) (by decide),
    pro3_bias]
  rfl

/-- A reference none of layer 3's stretches writes keeps its contents through the layer. -/
theorem layer3_keep (V : Valuation τ sig (Elt Ideal)) {r : Ref sig .tc}
    (h0 : r ∉ seg_pro3_W) (h1 : r ∉ seg_dinvU3_W) (h2 : r ∉ seg_msgU3_W) (h3 : r ∉ seg_dinvD3_W) (h4 : r ∉ seg_msgD3_W) (h5 : r ∉ seg_fin3_W) :
    (after seg_fin3 (after seg_msgD3 (after seg_dinvD3 (after seg_msgU3 (after seg_dinvU3 (after seg_pro3 V)))))) (Proc.devRef .tc r) = V (Proc.devRef .tc r) := by
  rw [seg_fin3_keep _ h5, seg_msgD3_keep _ h4, seg_dinvD3_keep _ h3, seg_msgU3_keep _ h2, seg_dinvU3_keep _ h1, seg_pro3_keep _ h0]

/-! ## The whole program -/

set_option maxRecDepth 100000 in
set_option maxHeartbeats 4000000 in
/-- The program's first result is the three layers, one after the other, of the arguments. -/
theorem result_v290 (V : Valuation τ sig (Elt Ideal)) :
    after ops V (Proc.devRef .tc main_v290)
      = layerB (layerB (layerA (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)))
          (V (Proc.devRef .tc main_arg1)) (V (Proc.devRef .tc main_arg7)) (V (Proc.devRef .tc main_arg8)) (V (Proc.devRef .tc main_arg9)) (V (Proc.devRef .tc main_arg10)) (V (Proc.devRef .tc main_arg11)))
        (V (Proc.devRef .tc main_arg1)) (V (Proc.devRef .tc main_arg12)) (V (Proc.devRef .tc main_arg13)) (V (Proc.devRef .tc main_arg14)) (V (Proc.devRef .tc main_arg15)) (V (Proc.devRef .tc main_arg16)) := by
  rw [ops_eq_segs]
  simp only [after_append]
  rw [seg_tail_keep _ (r := main_v290) (by decide),
    layer3,
    layer2_keep _ (r := main_arg1) (by decide) (by decide) (by decide) (by decide) (by decide) (by decide),
    layer2_keep _ (r := main_arg12) (by decide) (by decide) (by decide) (by decide) (by decide) (by decide),
    layer2_keep _ (r := main_arg13) (by decide) (by decide) (by decide) (by decide) (by decide) (by decide),
    layer2_keep _ (r := main_arg14) (by decide) (by decide) (by decide) (by decide) (by decide) (by decide),
    layer2_keep _ (r := main_arg15) (by decide) (by decide) (by decide) (by decide) (by decide) (by decide),
    layer2_keep _ (r := main_arg16) (by decide) (by decide) (by decide) (by decide) (by decide) (by decide),
    layer2,
    layer1_keep _ (r := main_arg1) (by decide) (by decide) (by decide) (by decide) (by decide) (by decide),
    layer1_keep _ (r := main_arg7) (by decide) (by decide) (by decide) (by decide) (by decide) (by decide),
    layer1_keep _ (r := main_arg8) (by decide) (by decide) (by decide) (by decide) (by decide) (by decide),
    layer1_keep _ (r := main_arg9) (by decide) (by decide) (by decide) (by decide) (by decide) (by decide),
    layer1_keep _ (r := main_arg10) (by decide) (by decide) (by decide) (by decide) (by decide) (by decide),
    layer1_keep _ (r := main_arg11) (by decide) (by decide) (by decide) (by decide) (by decide) (by decide),
    layer1_keep _ (r := main_arg12) (by decide) (by decide) (by decide) (by decide) (by decide) (by decide),
    layer1_keep _ (r := main_arg13) (by decide) (by decide) (by decide) (by decide) (by decide) (by decide),
    layer1_keep _ (r := main_arg14) (by decide) (by decide) (by decide) (by decide) (by decide) (by decide),
    layer1_keep _ (r := main_arg15) (by decide) (by decide) (by decide) (by decide) (by decide) (by decide),
    layer1_keep _ (r := main_arg16) (by decide) (by decide) (by decide) (by decide) (by decide) (by decide),
    layer1]

set_option maxRecDepth 100000 in
set_option maxHeartbeats 4000000 in
/-- The program's second result is the mean of the three layers' up edge weights. -/
theorem result_v294 (V : Valuation τ sig (Elt Ideal)) :
    after ops V (Proc.devRef .tc main_v294) = meanOf (V (Proc.devRef .tc main_arg5)) (V (Proc.devRef .tc main_arg10)) (V (Proc.devRef .tc main_arg15)) := by
  rw [ops_eq_segs]
  simp only [after_append]
  rw [tail_v294,
    layer3_keep _ (r := main_arg5) (by decide) (by decide) (by decide) (by decide) (by decide) (by decide),
    layer3_keep _ (r := main_arg10) (by decide) (by decide) (by decide) (by decide) (by decide) (by decide),
    layer3_keep _ (r := main_arg15) (by decide) (by decide) (by decide) (by decide) (by decide) (by decide),
    layer2_keep _ (r := main_arg5) (by decide) (by decide) (by decide) (by decide) (by decide) (by decide),
    layer2_keep _ (r := main_arg10) (by decide) (by decide) (by decide) (by decide) (by decide) (by decide),
    layer2_keep _ (r := main_arg15) (by decide) (by decide) (by decide) (by decide) (by decide) (by decide),
    layer1_keep _ (r := main_arg5) (by decide) (by decide) (by decide) (by decide) (by decide) (by decide),
    layer1_keep _ (r := main_arg10) (by decide) (by decide) (by decide) (by decide) (by decide) (by decide),
    layer1_keep _ (r := main_arg15) (by decide) (by decide) (by decide) (by decide) (by decide) (by decide)]

set_option maxRecDepth 100000 in
set_option maxHeartbeats 4000000 in
/-- The program's third result is the mean of the three layers' down edge weights. -/
theorem result_v298 (V : Valuation τ sig (Elt Ideal)) :
    after ops V (Proc.devRef .tc main_v298) = meanOf (V (Proc.devRef .tc main_arg6)) (V (Proc.devRef .tc main_arg11)) (V (Proc.devRef .tc main_arg16)) := by
  rw [ops_eq_segs]
  simp only [after_append]
  rw [tail_v298,
    layer3_keep _ (r := main_arg6) (by decide) (by decide) (by decide) (by decide) (by decide) (by decide),
    layer3_keep _ (r := main_arg11) (by decide) (by decide) (by decide) (by decide) (by decide) (by decide),
    layer3_keep _ (r := main_arg16) (by decide) (by decide) (by decide) (by decide) (by decide) (by decide),
    layer2_keep _ (r := main_arg6) (by decide) (by decide) (by decide) (by decide) (by decide) (by decide),
    layer2_keep _ (r := main_arg11) (by decide) (by decide) (by decide) (by decide) (by decide) (by decide),
    layer2_keep _ (r := main_arg16) (by decide) (by decide) (by decide) (by decide) (by decide) (by decide),
    layer1_keep _ (r := main_arg6) (by decide) (by decide) (by decide) (by decide) (by decide) (by decide),
    layer1_keep _ (r := main_arg11) (by decide) (by decide) (by decide) (by decide) (by decide) (by decide),
    layer1_keep _ (r := main_arg16) (by decide) (by decide) (by decide) (by decide) (by decide) (by decide)]

end Cert.ReferenceIdeal.RefRun

end
-- ==== Proof.LayerSpec.lean ====
/-
  One layer's three regions as functions of whole arrays, index by index, at the ideal values, and the scalar laws
  that relate the two arrangements of a layer:
   • the projection: entry (r, q) of rows-times-matrix is the sum over k of x(r, k) · wt(k, q);
   • the message scaling: entry (e, q) is g(e, q) · w(e, 0);
   • the normalisation and activation: entry (r, q) is h := c(r, q) / max(sqrt(Σ_q' c(r, q')²), ε), kept where h > 0
     and multiplied by the slope elsewhere.
  Each is first a function of one row over any number of rows (a block of rows and the whole array are both
  instances), with the congruence that lets a block's row be read as the array's row.
-/
import proofs.«107201_j32822140076800_2_alg».proof.KernelIdeal
import Idealize.ShloMosaic.PureOps.Ideal
import Idealize.ShloMosaic.PureOps.Ideal.Laws
import Idealize.ShloMosaic.Lib.ValueIdx

open scoped BigOperators

noncomputable section

namespace Cert.KernelIdeal.Bridge

open Idealize.ShloMosaic Idealize.ShloMosaic.ValueIdx

/-! ## One row at a time, over any number of rows -/

/-- Row `r` of `x` against column `q` of `wt`: Σ_k x(r, k) · wt(k, q). -/
def matmulAt {R K N : Nat} (x : (⟨2, ![R, K]⟩ : Shape).Idx → EReal) (wt : (⟨2, ![K, N]⟩ : Shape).Idx → EReal)
    (r : Fin R) (q : Fin N) : EReal :=
  ∑ k : Fin K, x (ix2 r k) * wt (ix2 k q)

/-- Entry (e, q) of the messages scaled by a column: g(e, q) · w(e, 0). -/
def scaleAt {E D : Nat} (g : (⟨2, ![E, D]⟩ : Shape).Idx → EReal) (w : (⟨2, ![E, 1]⟩ : Shape).Idx → EReal)
    (e : Fin E) (q : Fin D) : EReal :=
  g (ix2 e q) * w (ix2 e (0 : Fin 1))

/-- The floor ε of the norm (the binary32 word nearest 1e-12), the slope of the activation (nearest 0.1) and zero,
    as the ideal values of their words. -/
def epsVal : EReal := Ideal.ofBits .f32 0x2B8CBCCC#32
def slopeVal : EReal := Ideal.ofBits .f32 0x3DCCCCCD#32
def zeroVal : EReal := Ideal.ofBits .f32 0x00000000#32

/-- The floored Euclidean norm of row `r`: max(sqrt(Σ_q' c(r, q')²), ε). -/
def rowNorm {R D : Nat} (c : (⟨2, ![R, D]⟩ : Shape).Idx → EReal) (r : Fin R) : EReal :=
  max (Ideal.sqrt (∑ q' : Fin D, c (ix2 r q') * c (ix2 r q'))) epsVal

/-- The activation that keeps a strictly positive value and scales the rest by the slope. -/
def leakyGt (h : EReal) : EReal := Scalar.select (Ideal.cmp .ogt h zeroVal) h (slopeVal * h)

/-- The activation that keeps a non-negative value and scales the rest by the slope. -/
def leakyGe (h : EReal) : EReal := Scalar.select (Ideal.cmp .oge h zeroVal) h (slopeVal * h)

/-- Entry (r, q) normalised by its row's floored norm, then activated (strict form). -/
def normActAt {R D : Nat} (c : (⟨2, ![R, D]⟩ : Shape).Idx → EReal) (r : Fin R) (q : Fin D) : EReal :=
  leakyGt (Ideal.div (c (ix2 r q)) (rowNorm c r))

/-- The two activations agree everywhere: they differ only in what they do at zero, where the kept value is zero and
    the scaled value is slope · 0 = 0. -/
theorem leakyGt_eq_leakyGe (h : EReal) : leakyGt h = leakyGe h := by
  have hz : zeroVal = 0 := Ideal.ofBits_zero_f32
  unfold leakyGt leakyGe
  rw [hz]
  show Scalar.select (BitVec.ofBool (decide ((0 : EReal) < h))) h (slopeVal * h)
    = Scalar.select (BitVec.ofBool (decide ((0 : EReal) ≤ h))) h (slopeVal * h)
  by_cases h0 : (0 : EReal) < h
  · have h1 : (0 : EReal) ≤ h := le_of_lt h0
    simp [h0, h1]
  · by_cases h1 : (0 : EReal) ≤ h
    · have h2 : h = 0 := le_antisymm (not_lt.mp h0) h1
      subst h2
      simp [Scalar.select]
    · simp [h0, h1]

/-! ### A block's row read as the array's row -/

theorem matmulAt_congr {R R' K N : Nat} (x : (⟨2, ![R, K]⟩ : Shape).Idx → EReal) (x' : (⟨2, ![R', K]⟩ : Shape).Idx → EReal)
    (wt : (⟨2, ![K, N]⟩ : Shape).Idx → EReal) (r : Fin R) (r' : Fin R') (q : Fin N)
    (hx : ∀ k : Fin K, x (ix2 r k) = x' (ix2 r' k)) : matmulAt x wt r q = matmulAt x' wt r' q := by
  unfold matmulAt
  exact Finset.sum_congr rfl fun k _ => by rw [hx k]

theorem scaleAt_congr {E E' D : Nat} (g : (⟨2, ![E, D]⟩ : Shape).Idx → EReal) (g' : (⟨2, ![E', D]⟩ : Shape).Idx → EReal)
    (w : (⟨2, ![E, 1]⟩ : Shape).Idx → EReal) (w' : (⟨2, ![E', 1]⟩ : Shape).Idx → EReal) (e : Fin E) (e' : Fin E') (q : Fin D)
    (hg : g (ix2 e q) = g' (ix2 e' q)) (hw : w (ix2 e (0 : Fin 1)) = w' (ix2 e' (0 : Fin 1))) :
    scaleAt g w e q = scaleAt g' w' e' q := by
  unfold scaleAt
  rw [hg, hw]

theorem rowNorm_congr {R R' D : Nat} (c : (⟨2, ![R, D]⟩ : Shape).Idx → EReal) (c' : (⟨2, ![R', D]⟩ : Shape).Idx → EReal)
    (r : Fin R) (r' : Fin R') (hc : ∀ q' : Fin D, c (ix2 r q') = c' (ix2 r' q')) : rowNorm c r = rowNorm c' r' := by
  unfold rowNorm
  congr 2
  exact Finset.sum_congr rfl fun q' _ => by rw [hc q']

theorem normActAt_congr {R R' D : Nat} (c : (⟨2, ![R, D]⟩ : Shape).Idx → EReal) (c' : (⟨2, ![R', D]⟩ : Shape).Idx → EReal)
    (r : Fin R) (r' : Fin R') (q : Fin D) (hc : ∀ q' : Fin D, c (ix2 r q') = c' (ix2 r' q')) :
    normActAt c r q = normActAt c' r' q := by
  unfold normActAt
  rw [rowNorm_congr c c' r r' hc, hc q]

/-! ## The regions as whole-array functions -/

/-- The first layer's projection region: rows of `x` (8 features) times the fused 8 × 96 matrix. -/
def regMatmulA (x : FVec Ideal S50000x8 .f32) (wt : FVec Ideal S8x96 .f32) : FVec Ideal S50000x96 .f32 :=
  fun i => matmulAt x wt (i 0) (i 1)

/-- The later layers' projection region: rows of `x` (96 features) times the fused 96 × 96 matrix. -/
def regMatmulB (x : FVec Ideal S50000x96 .f32) (wt : FVec Ideal S96x96 .f32) : FVec Ideal S50000x96 .f32 :=
  fun i => matmulAt x wt (i 0) (i 1)

/-- The message-scaling region: each gathered row times its edge's weight. -/
def regScale (g : FVec Ideal S1600000x32 .f32) (w : FVec Ideal S1600000x1 .f32) : FVec Ideal S1600000x32 .f32 :=
  fun i => scaleAt g w (i 0) (i 1)

/-- The normalise-and-activate region. -/
def regNormAct (c : FVec Ideal S50000x96 .f32) : FVec Ideal S50000x96 .f32 :=
  fun i => normActAt c (i 0) (i 1)

theorem regMatmulA_apply (x : FVec Ideal S50000x8 .f32) (wt : FVec Ideal S8x96 .f32) (r : Fin 50000) (q : Fin 96) :
    regMatmulA x wt (ix2 r q) = matmulAt x wt r q := rfl

theorem regMatmulB_apply (x : FVec Ideal S50000x96 .f32) (wt : FVec Ideal S96x96 .f32) (r : Fin 50000) (q : Fin 96) :
    regMatmulB x wt (ix2 r q) = matmulAt x wt r q := rfl

theorem regScale_apply (g : FVec Ideal S1600000x32 .f32) (w : FVec Ideal S1600000x1 .f32) (e : Fin 1600000) (q : Fin 32) :
    regScale g w (ix2 e q) = scaleAt g w e q := rfl

theorem regNormAct_apply (c : FVec Ideal S50000x96 .f32) (r : Fin 50000) (q : Fin 96) :
    regNormAct c (ix2 r q) = normActAt c r q := rfl

end Cert.KernelIdeal.Bridge

end
-- ==== Proof.LibColumn.lean ====
/-
  Column forms of the layout operations read at an index: a vector of `a` entries seen as an `a × 1` column,
  and such a column repeated along `b` columns. (The row forms, and the transpose, are the library's.)
-/
import Idealize.ShloMosaic.Lib.Pipeline.Value
import Idealize.ShloMosaic.Lib.ValueIdx
import Idealize.ShloMosaic.Lib.ValueLayout

namespace Idealize.ShloMosaic.ColumnForms

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnForms
-- ==== Proof.LibPlainDot.lean ====
/-
  The plain product of an M×K matrix by a K×N matrix, read at one entry, at the ideal values:
  entry (a, b) is the sum over the contracted coordinate c of A(a, c) · B(c, b).
  Stated for ANY dimension record equal to the plain one (rows × contraction by contraction × columns, no batch
  axis), for a kernel's matrix product accumulated into the zero splat and for the host's product, which has no
  accumulator: adding to zero is the only arithmetic used, so both hold at the infinities too.
-/
import Idealize.ShloMosaic.Lib.StackMember

noncomputable section

namespace Cert.LibPlainDot

open Idealize.ShloMosaic Idealize.ShloMosaic.ValueIdx
open scoped BigOperators

variable {M K N : Nat} {φ₁ φ₂ : FTy}

/-- The host's plain product at entry (a, b): the sum over c of A(a, c) · B(c, b). -/
theorem dotGeneral_plain_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    Host.dotGeneral D prec A B (ix2 a b) = ∑ c : Fin K, A (ix2 a c) * B (ix2 c b) := by
  subst hD
  exact StackMember.dotGeneral_plain_apply prec A B a b

/-- A kernel's plain product accumulated into the zero splat, at entry (a, b): the same sum. -/
theorem matmul_plain_zero_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact dotGeneral_plain_apply D hD prec A B a b

end Cert.LibPlainDot

end
-- ==== Proof.LayerBridgePay.lean ====
/-
  The kernel bodies' stored values read at an index, at the ideal values: the projection body stores row p of its
  block times column q of the fused matrix (the narrowing of the operands to bfloat16 changes nothing at the ideal
  values, and the accumulator is the zero splat); the scaling body stores g(p, q) · w(p, 0); the normalise-and-activate
  body stores the row formula of `normActAt`.
-/
import proofs.«107201_j32822140076800_2_alg».proof.Proof.Gen.KernelIdeal.Skeleton
import proofs.«107201_j32822140076800_2_alg».proof.Proof.LayerSpec
import proofs.«107201_j32822140076800_2_alg».proof.Proof.LibColumn
import proofs.«107201_j32822140076800_2_alg».proof.Proof.LibPlainDot
import Idealize.ShloMosaic.PureOps.Ideal.Laws
import Idealize.ShloMosaic.Lib.Pipeline.Value

open scoped BigOperators

noncomputable section

namespace Cert.KernelIdeal.Bridge

open Idealize.ShloMosaic Idealize.ShloMosaic.ValueIdx Idealize.ShloMosaic.ColumnForms

/-! ## The scaling body -/

theorem k1_pay1_apply (v0 : Vec Ideal S8000x32 .f32) (v2 : Vec Ideal S8000x1 .f32) (p : Fin 8000) (q : Fin 32) :
    Gen.k1_pay1 v0 v2 (ix2 p q) = scaleAt v0 v2 p q := by
  unfold Gen.k1_pay1
  rw [mulf_apply, shapeCast_self, broadcastTo_a1_ab_apply, shapeCast_self]
  rfl

/-! ## The projection bodies -/

theorem k0_pay1_apply (v0 : Vec Ideal S5000x8 .f32) (v2 : Vec Ideal S8x96 .f32) (p : Fin 5000) (q : Fin 96) :
    Gen.k0_pay1 v0 v2 (ix2 p q) = matmulAt v0 v2 p q := by
  unfold Gen.k0_pay1
  refine (Cert.LibPlainDot.matmul_plain_zero_apply _ rfl none _ _ p q).trans ?_
  unfold matmulAt
  refine Finset.sum_congr rfl fun k _ => ?_
  simp only [truncf_apply, shapeCast_self]

theorem k4_pay1_apply (v0 : Vec Ideal S5000x96 .f32) (v2 : Vec Ideal S96x96 .f32) (p : Fin 5000) (q : Fin 96) :
    Gen.k4_pay1 v0 v2 (ix2 p q) = matmulAt v0 v2 p q := by
  unfold Gen.k4_pay1
  refine (Cert.LibPlainDot.matmul_plain_zero_apply _ rfl none _ _ p q).trans ?_
  unfold matmulAt
  refine Finset.sum_congr rfl fun k _ => ?_
  simp only [truncf_apply, shapeCast_self]

/-! ## The normalise-and-activate body -/

/-- A reduced row index with the column coordinate put back is (r, k). -/
theorem lift1_ix2 {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- A lane sum from the zero word, at row r: the sum of the row's entries. -/
theorem rowSum_apply {m n : Nat} (v : FVec Ideal ⟨2, ![m, n]⟩ .f32) (h : (⟨2, ![m, n]⟩ : Shape).Reduces [1] ⟨1, ![m]⟩)
    (hφ : FKind.Formats .f32) (hacc : (0x00000000#32 : BitVec 32) = FKind.add.neutral .f32 hφ) (r : Fin m) :
    multiReduction (F := Ideal) .add [1] ⟨1, ![m]⟩ v 0x00000000#32 h hφ hacc (ix1 r) = ∑ q' : Fin n, v (ix2 r q') := by
  refine (Ideal.multiReduction_add_single v 0x00000000#32 h hφ hacc (ix1 r)).trans ?_
  exact Finset.sum_congr rfl fun k _ => congrArg v (lift1_ix2 h r k)

/-- The square root of the lane sum of squares, kept as a column, at row p: sqrt(Σ_q' v(p, q')²). -/
theorem sqrtRowSumSq_apply {m n : Nat} (v : FVec Ideal ⟨2, ![m, n]⟩ .f32) (h : (⟨2, ![m, n]⟩ : Shape).Reduces [1] ⟨1, ![m]⟩)
    (hφ : FKind.Formats .f32) (hacc : (0x00000000#32 : BitVec 32) = FKind.add.neutral .f32 hφ)
    (hc : (⟨1, ![m]⟩ : Shape).ShapeCasts ⟨2, ![m, 1]⟩) (p : Fin m) :
    (sqrt (shapeCast ⟨2, ![m, 1]⟩ (multiReduction (F := Ideal) .add [1] ⟨1, ![m]⟩ (mulf v v) 0x00000000#32 h hφ hacc) hc)
        : FVec Ideal ⟨2, ![m, 1]⟩ .f32) (ix2 p (0 : Fin 1))
      = Ideal.sqrt (∑ q' : Fin n, v (ix2 p q') * v (ix2 p q')) := by
  show Ideal.sqrt (shapeCast ⟨2, ![m, 1]⟩ _ hc (ix2 p (0 : Fin 1))) = _
  rw [shapeCast_a_a1_apply]
  congr 1
  exact rowSum_apply (mulf v v) h hφ hacc p

/-- The activation of the normalised entry, for any value S standing for the row's root sum of squares. -/
theorem normAct_of_sqrt {m n : Nat} (v : FVec Ideal ⟨2, ![m, n]⟩ .f32) (p : Fin m) (q : Fin n) (S : EReal)
    (hS : S = Ideal.sqrt (∑ q' : Fin n, v (ix2 p q') * v (ix2 p q'))) :
    Scalar.select
        (FloatOps.cmpf (F := Ideal) (φ := .f32) .ogt (Ideal.div (v (ix2 p q)) (max S (FloatOps.ofBits (F := Ideal) .f32 0x2B8CBCCC#32)))
          (FloatOps.ofBits (F := Ideal) .f32 0x00000000#32))
        (Ideal.div (v (ix2 p q)) (max S (FloatOps.ofBits (F := Ideal) .f32 0x2B8CBCCC#32)))
        (FloatOps.ofBits (F := Ideal) .f32 0x3DCCCCCD#32 * Ideal.div (v (ix2 p q)) (max S (FloatOps.ofBits (F := Ideal) .f32 0x2B8CBCCC#32)))
      = normActAt v p q := by
  subst hS
  rfl

theorem k3_pay1_apply (v0 : Vec Ideal S10000x96 .f32) (p : Fin 10000) (q : Fin 96) :
    Gen.k3_pay1 v0 (ix2 p q) = normActAt v0 p q := by
  unfold Gen.k3_pay1
  rw [shapeCast_self]
  rw [select_apply, cmpf_apply, mulf_apply, divf_apply, broadcastTo_a1_ab_apply, maximumf_apply, broadcast_apply,
    broadcast_apply, broadcast_apply]
  exact normAct_of_sqrt v0 p q _ (sqrtRowSumSq_apply v0 _ _ _ _ p)

/-! ## The same bodies at the other layers -/

theorem k2_pay1_apply (v0 : Vec Ideal S8000x32 .f32) (v2 : Vec Ideal S8000x1 .f32) (p : Fin 8000) (q : Fin 32) :
    Gen.k2_pay1 v0 v2 (ix2 p q) = scaleAt v0 v2 p q := by
  unfold Gen.k2_pay1
  rw [mulf_apply, shapeCast_self, broadcastTo_a1_ab_apply, shapeCast_self]
  rfl

theorem k5_pay1_apply (v0 : Vec Ideal S8000x32 .f32) (v2 : Vec Ideal S8000x1 .f32) (p : Fin 8000) (q : Fin 32) :
    Gen.k5_pay1 v0 v2 (ix2 p q) = scaleAt v0 v2 p q := by
  unfold Gen.k5_pay1
  rw [mulf_apply, shapeCast_self, broadcastTo_a1_ab_apply, shapeCast_self]
  rfl

theorem k6_pay1_apply (v0 : Vec Ideal S8000x32 .f32) (v2 : Vec Ideal S8000x1 .f32) (p : Fin 8000) (q : Fin 32) :
    Gen.k6_pay1 v0 v2 (ix2 p q) = scaleAt v0 v2 p q := by
  unfold Gen.k6_pay1
  rw [mulf_apply, shapeCast_self, broadcastTo_a1_ab_apply, shapeCast_self]
  rfl

theorem k9_pay1_apply (v0 : Vec Ideal S8000x32 .f32) (v2 : Vec Ideal S8000x1 .f32) (p : Fin 8000) (q : Fin 32) :
    Gen.k9_pay1 v0 v2 (ix2 p q) = scaleAt v0 v2 p q := by
  unfold Gen.k9_pay1
  rw [mulf_apply, shapeCast_self, broadcastTo_a1_ab_apply, shapeCast_self]
  rfl

theorem k10_pay1_apply (v0 : Vec Ideal S8000x32 .f32) (v2 : Vec Ideal S8000x1 .f32) (p : Fin 8000) (q : Fin 32) :
    Gen.k10_pay1 v0 v2 (ix2 p q) = scaleAt v0 v2 p q := by
  unfold Gen.k10_pay1
  rw [mulf_apply, shapeCast_self, broadcastTo_a1_ab_apply, shapeCast_self]
  rfl

theorem k7_pay1_apply (v0 : Vec Ideal S10000x96 .f32) (p : Fin 10000) (q : Fin 96) :
    Gen.k7_pay1 v0 (ix2 p q) = normActAt v0 p q := by
  unfold Gen.k7_pay1
  rw [shapeCast_self]
  rw [select_apply, cmpf_apply, mulf_apply, divf_apply, broadcastTo_a1_ab_apply, maximumf_apply, broadcast_apply,
    broadcast_apply, broadcast_apply]
  exact normAct_of_sqrt v0 p q _ (sqrtRowSumSq_apply v0 _ _ _ _ p)

theorem k11_pay1_apply (v0 : Vec Ideal S10000x96 .f32) (p : Fin 10000) (q : Fin 96) :
    Gen.k11_pay1 v0 (ix2 p q) = normActAt v0 p q := by
  unfold Gen.k11_pay1
  rw [shapeCast_self]
  rw [select_apply, cmpf_apply, mulf_apply, divf_apply, broadcastTo_a1_ab_apply, maximumf_apply, broadcast_apply,
    broadcast_apply, broadcast_apply]
  exact normAct_of_sqrt v0 p q _ (sqrtRowSumSq_apply v0 _ _ _ _ p)

theorem k8_pay1_apply (v0 : Vec Ideal S5000x96 .f32) (v2 : Vec Ideal S96x96 .f32) (p : Fin 5000) (q : Fin 96) :
    Gen.k8_pay1 v0 v2 (ix2 p q) = matmulAt v0 v2 p q := by
  unfold Gen.k8_pay1
  refine (Cert.LibPlainDot.matmul_plain_zero_apply _ rfl none _ _ p q).trans ?_
  unfold matmulAt
  refine Finset.sum_congr rfl fun k _ => ?_
  simp only [truncf_apply, shapeCast_self]

end Cert.KernelIdeal.Bridge

end
-- ==== Proof.LayerBridgeArr.lean ====
/-
  Each region's output array, assembled block by block from its body, is the whole-array function of the layer
  specification: block n / R of the inputs read at row n mod R is the array read at row n, because
  (n / R) · R + n mod R = n, and the projection's weight block is the whole fused matrix.
-/
import proofs.«107201_j32822140076800_2_alg».proof.Proof.KIVal0
import proofs.«107201_j32822140076800_2_alg».proof.Proof.KIVal1
import proofs.«107201_j32822140076800_2_alg».proof.Proof.KIVal2
import proofs.«107201_j32822140076800_2_alg».proof.Proof.KIVal3
import proofs.«107201_j32822140076800_2_alg».proof.Proof.KIVal4
import proofs.«107201_j32822140076800_2_alg».proof.Proof.KIVal5
import proofs.«107201_j32822140076800_2_alg».proof.Proof.KIVal6
import proofs.«107201_j32822140076800_2_alg».proof.Proof.KIVal7
import proofs.«107201_j32822140076800_2_alg».proof.Proof.LayerBridgePay

open scoped BigOperators

noncomputable section

namespace Cert.KernelIdeal.Bridge

open Idealize.ShloMosaic Idealize.ShloMosaic.ValueIdx Cert.KernelIdeal.Reg

/-- Row n mod R of block n / R is row n (and n is below the number of rows). -/
theorem blockRow {R Nr : Nat} (n : Nat) (hn : n < Nr) : (n / R * R + n % R) % Nr = n := by
  rw [Nat.div_add_mod']
  exact Nat.mod_eq_of_lt hn

theorem idx2_ext {n0 n1 : Nat} {a a' : Fin n0} {b b' : Fin n1} (ha : a.val = a'.val) (hb : b.val = b'.val) :
    ix2 a b = ix2 a' b' := by
  rw [Fin.ext ha, Fin.ext hb]

theorem arr0_eq (x : FVec Ideal S50000x8 .f32) (wt : FVec Ideal S8x96 .f32) : arr0 (F := Ideal) x wt = regMatmulA x wt := by
  funext i
  unfold arr0
  rw [k0_pay1_apply]
  unfold regMatmulA matmulAt
  refine Finset.sum_congr rfl fun k _ => ?_
  congr 1
  · exact congrArg x (idx2_ext (blockRow (R := 5000) _ (i 0).isLt) rfl)
  · exact congrArg wt (idx2_ext (by have := k.isLt; show (0 * 8 + k.val) % 8 = k.val; omega) rfl)

theorem arr4_eq (x : FVec Ideal S50000x96 .f32) (wt : FVec Ideal S96x96 .f32) : arr4 (F := Ideal) x wt = regMatmulB x wt := by
  funext i
  unfold arr4
  rw [k4_pay1_apply]
  unfold regMatmulB matmulAt
  refine Finset.sum_congr rfl fun k _ => ?_
  congr 1
  · exact congrArg x (idx2_ext (blockRow (R := 5000) _ (i 0).isLt) rfl)
  · exact congrArg wt (idx2_ext (by have := k.isLt; show (0 * 96 + k.val) % 96 = k.val; omega) rfl)

theorem arr1_eq (g : FVec Ideal S1600000x32 .f32) (w : FVec Ideal S1600000x1 .f32) : arr1 (F := Ideal) g w = regScale g w := by
  funext i
  unfold arr1
  rw [k1_pay1_apply]
  unfold regScale scaleAt
  congr 1
  · exact congrArg g (idx2_ext (blockRow (R := 8000) _ (i 0).isLt) rfl)
  · exact congrArg w (idx2_ext (blockRow (R := 8000) _ (i 0).isLt) rfl)

theorem arr2_eq (g : FVec Ideal S1600000x32 .f32) (w : FVec Ideal S1600000x1 .f32) : arr2 (F := Ideal) g w = regScale g w := by
  funext i
  unfold arr2
  rw [k2_pay1_apply]
  unfold regScale scaleAt
  congr 1
  · exact congrArg g (idx2_ext (blockRow (R := 8000) _ (i 0).isLt) rfl)
  · exact congrArg w (idx2_ext (blockRow (R := 8000) _ (i 0).isLt) rfl)

theorem arr5_eq (g : FVec Ideal S1600000x32 .f32) (w : FVec Ideal S1600000x1 .f32) : arr5 (F := Ideal) g w = regScale g w := by
  funext i
  unfold arr5
  rw [k5_pay1_apply]
  unfold regScale scaleAt
  congr 1
  · exact congrArg g (idx2_ext (blockRow (R := 8000) _ (i 0).isLt) rfl)
  · exact congrArg w (idx2_ext (blockRow (R := 8000) _ (i 0).isLt) rfl)

theorem arr6_eq (g : FVec Ideal S1600000x32 .f32) (w : FVec Ideal S1600000x1 .f32) : arr6 (F := Ideal) g w = regScale g w := by
  funext i
  unfold arr6
  rw [k6_pay1_apply]
  unfold regScale scaleAt
  congr 1
  · exact congrArg g (idx2_ext (blockRow (R := 8000) _ (i 0).isLt) rfl)
  · exact congrArg w (idx2_ext (blockRow (R := 8000) _ (i 0).isLt) rfl)

theorem arr3_eq (c : FVec Ideal S50000x96 .f32) : arr3 (F := Ideal) c = regNormAct c := by
  funext i
  unfold arr3
  rw [k3_pay1_apply]
  unfold regNormAct
  exact normActAt_congr _ _ _ _ _ (fun q' => congrArg c (idx2_ext (blockRow (R := 10000) _ (i 0).isLt) rfl))

theorem arr7_eq (c : FVec Ideal S50000x96 .f32) : arr7 (F := Ideal) c = regNormAct c := by
  funext i
  unfold arr7
  rw [k7_pay1_apply]
  unfold regNormAct
  exact normActAt_congr _ _ _ _ _ (fun q' => congrArg c (idx2_ext (blockRow (R := 10000) _ (i 0).isLt) rfl))

end Cert.KernelIdeal.Bridge

end
-- ==== Proof.LibIntScatter.lean ====
/-
  An integer scatter whose body adds, read at an index: the operand's element plus the sum of the update elements
  that land on it. The host scatter is a left fold over the update elements in row-major order; addition of
  fixed-width words is commutative and associative, so the fold at one element collects exactly the updates landing
  there. Then the special case of scattering ones into zeros along a column of positions: the number of updates that
  land at an element, as a word, and (below 2^31 updates) as the exact real the signed conversion reads.
-/
import Mathlib
import Idealize.ShloMosaic.PureOps.Ideal
import Idealize.ShloMosaic.PureOps.Contract
import Idealize.ShloMosaic.Lib.ValueIdx

open scoped BigOperators

namespace Cert.LibIntScatter

open Idealize.ShloMosaic Idealize.ShloMosaic.ValueIdx

section Fold
variable {α : Type} [AddCommMonoid α] {s si u : Shape} {w : Nat}

/-- The fold of the scatter step over ANY list of update positions, at one element: the start value plus the
    list's updates that land there. -/
theorem foldl_step_apply (d : ScatterDims s si u) (idx : IVec si w) (upd : u.Idx → α)
    (l : List (Fin u.numel)) (x : s.Idx → α) (i : s.Idx) :
    (l.foldl (fun r n =>
        match d.resultIdx? (u.rowMajor.symm n) idx with
        | some i0 => fun i' => if i' = i0 then r i0 + upd (u.rowMajor.symm n) else r i'
        | none => r) x) i
      = x i + (l.map fun n => if d.resultIdx? (u.rowMajor.symm n) idx = some i then upd (u.rowMajor.symm n) else 0).sum := by
  induction l generalizing x with
  | nil => simp
  | cons n l ih =>
    rw [List.foldl_cons, ih, List.map_cons, List.sum_cons, ← add_assoc]
    congr 1
    cases h : d.resultIdx? (u.rowMajor.symm n) idx with
    | none => simp
    | some i0 =>
      by_cases hi : i = i0
      · subst hi; simp
      · have : ¬ (some i0 = some i) := fun e => hi (Option.some.inj e).symm
        simp [hi, this]

/-- AN ADDING SCATTER READ AT AN ELEMENT: the operand's element plus the sum of the updates landing on it. -/
theorem scatter_add_apply (d : ScatterDims s si u) (x : s.Idx → α) (idx : IVec si w) (upd : u.Idx → α) (i : s.Idx) :
    Host.scatter d (fun a b => a + b) x idx upd i
      = x i + ∑ j ∈ Finset.univ.filter (fun j => d.resultIdx? j idx = some i), upd j := by
  unfold Host.scatter
  refine (foldl_step_apply d idx upd (List.finRange u.numel) x i).trans ?_
  congr 1
  rw [Finset.sum_filter, ← Equiv.sum_comp u.rowMajor.symm, Fin.sum_univ_def]

end Fold

end Cert.LibIntScatter
-- ==== Proof.LibCount.lean ====
import Mathlib
import Idealize.ShloMosaic.PureOps.Ideal
import Idealize.ShloMosaic.PureOps.Ideal.Laws
import Idealize.ShloMosaic.Lib.ValueIdx

/-!
# Counting a 0/1 mask, as a 32-bit integer and as an extended real

A mask is a family `b : Fin n → BitVec 1`.  Its *count* is the number of indices at which the bit is set.
Two programs may compute that count differently: one sums the zero-extended bits as wrapping 32-bit integers and
converts the total to a float afterwards, the other converts each bit to a float first and sums the floats.  At the
ideal values (floats are extended reals, every conversion exact) both give the natural number `count b`, provided the
count stays below `2 ^ 31`, so that the signed reading of the 32-bit total is the count itself.
-/

noncomputable section

namespace Cert.LibCount

open Idealize.ShloMosaic

/-- The number of indices at which the mask bit is set. -/
def count {n : ℕ} (b : Fin n → BitVec 1) : ℕ := (Finset.univ.filter fun k => b k = 1#1).card

/-- The count never exceeds the number of indices. -/
theorem count_le {n : ℕ} (b : Fin n → BitVec 1) : count b ≤ n := by
  unfold count
  exact (Finset.card_le_univ _).trans (by simp)

/-- A zero-extended bit is the 32-bit word one when the bit is set and zero otherwise. -/
theorem setWidth_bit (x : BitVec 1) : x.setWidth 32 = if x = 1#1 then (1 : BitVec 32) else 0 := by
  revert x; decide

/-- Read as a signed integer, a zero-extended bit is one when the bit is set and zero otherwise. -/
theorem toInt_setWidth_bit (x : BitVec 1) : (x.setWidth 32 : BitVec 32).toInt = if x = 1#1 then 1 else 0 := by
  revert x; decide

/-- A bit converted to a float through its 32-bit zero extension is the extended real one when set, zero otherwise. -/
theorem sitofp_bit (x : BitVec 1) :
    FloatOps.sitofp (F := Ideal) .f32 (x.setWidth 32) = if x = 1#1 then (1 : EReal) else 0 := by
  show (((x.setWidth 32 : BitVec 32).toInt : ℝ) : EReal) = _
  rw [toInt_setWidth_bit]
  split <;> simp

/-- **(a) The float sum of the bits is the count.**  Converting each zero-extended bit to a float and summing the
    floats gives the count, as a real number inside the extended reals. -/
theorem sum_sitofp_eq_count {n : ℕ} (b : Fin n → BitVec 1) :
    ∑ k : Fin n, FloatOps.sitofp (F := Ideal) .f32 ((b k).setWidth 32) = ((count b : ℝ) : EReal) := by
  simp only [sitofp_bit]
  rw [Finset.sum_boole, EReal.coe_natCast]
  rfl

/-- A fold of wrapping 32-bit addition over a finite set is the initial word plus the sum of the words. -/
theorem fold_addi_eq_sum {ι : Type*} [DecidableEq ι] (s : Finset ι) (z : BitVec 32) (g : ι → BitVec 32) :
    s.fold IntOp.addi z g = z + ∑ k ∈ s, g k := by
  induction s using Finset.induction_on with
  | empty => simp
  | insert a s ha ih =>
    rw [Finset.fold_insert ha, ih, Finset.sum_insert ha]
    show g a + (z + _) = z + (g a + _)
    ac_rfl

/-- **(b) The wrapping integer sum of the bits is the count**, in the shape a one-axis reduction reads as: the fold of
    32-bit addition from an initial word `z` over all indices of the zero-extended bits is `z` plus the count. -/
theorem fold_addi_bits {n : ℕ} (z : BitVec 32) (b : Fin n → BitVec 1) :
    (Finset.univ : Finset (Fin n)).fold IntOp.addi z (fun k => (b k).setWidth 32) = z + BitVec.ofNat 32 (count b) := by
  rw [fold_addi_eq_sum]
  simp only [setWidth_bit]
  rw [Finset.sum_boole]
  rfl

/-- The same from the zero word: the fold is the count, as a 32-bit word. -/
theorem fold_addi_bits_zero {n : ℕ} (b : Fin n → BitVec 1) :
    (Finset.univ : Finset (Fin n)).fold IntOp.addi 0#32 (fun k => (b k).setWidth 32) = BitVec.ofNat 32 (count b) := by
  rw [fold_addi_bits, BitVec.zero_add]

/-! ### The 32-bit total read back as a number -/

/-- The f32 pattern `0x3F800000` is the extended real one. -/
theorem ofBits_one_f32 : Ideal.ofBits .f32 0x3F800000#32 = 1 := by
  simp [Ideal.ofBits, Ideal.ieee, -EReal.coe_mul]; norm_num

/-- A natural number below `2 ^ 31`, stored in 32 bits and read back signed, is itself. -/
theorem toInt_ofNat_small {N : ℕ} (h : N < 2 ^ 31) : (BitVec.ofNat 32 N).toInt = (N : ℤ) := by
  have hN : (BitVec.ofNat 32 N).toNat = N := by
    rw [BitVec.toNat_ofNat]; exact Nat.mod_eq_of_lt (by omega)
  rw [BitVec.toInt_eq_toNat_cond, hN, if_pos (by omega)]

/-- The signed maximum of a small count and the word one is the larger of the two numbers. -/
theorem toInt_maxsi_one {N : ℕ} (h : N < 2 ^ 31) :
    (IntOp.maxsi (BitVec.ofNat 32 N) 1#32).toInt = max (N : ℤ) 1 := by
  have h1 : (1#32 : BitVec 32).toInt = 1 := by decide
  have hN := toInt_ofNat_small h
  unfold IntOp.maxsi BitVec.slt
  rw [h1, hN]
  by_cases hlt : (1 : ℤ) < N
  · rw [if_pos (by simpa using hlt), hN, max_eq_left (le_of_lt hlt)]
  · rw [if_neg (by simpa using hlt), h1, max_eq_right (not_lt.mp hlt)]

/-- **(c), the divisor.**  For a count `N < 2 ^ 31` held as a 32-bit word: clamping it below by the word one (signed
    maximum) and converting to a float gives the larger of the real number `N` and the float one. -/
theorem sitofp_maxsi_one {N : ℕ} (h : N < 2 ^ 31) :
    FloatOps.sitofp (F := Ideal) .f32 (IntOp.maxsi (BitVec.ofNat 32 N) 1#32)
      = max ((N : ℝ) : EReal) (Ideal.ofBits .f32 0x3F800000#32) := by
  rw [ofBits_one_f32]
  show (((IntOp.maxsi (BitVec.ofNat 32 N) 1#32).toInt : ℝ) : EReal) = _
  rw [toInt_maxsi_one h, ← EReal.coe_one, ← EReal.coe_strictMono.monotone.map_max]
  push_cast
  rfl

/-- **(c), the guard.**  For a count `N < 2 ^ 31` held as a 32-bit word: the signed test "count greater than zero" is the
    float test "the real number `N` greater than the float zero" (both are one bit). -/
theorem cmpi_sgt_zero {N : ℕ} (h : N < 2 ^ 31) :
    IntOp.cmpi .sgt (BitVec.ofNat 32 N) 0#32
      = FloatOps.cmpf (F := Ideal) (φ := .f32) .ogt ((N : ℝ) : EReal) (Ideal.ofBits .f32 0x00000000#32) := by
  rw [Ideal.ofBits_zero_f32]
  have h0 : (0#32 : BitVec 32).toInt = 0 := by decide
  show BitVec.ofBool ((0#32 : BitVec 32).slt (BitVec.ofNat 32 N)) = BitVec.ofBool (decide ((0 : EReal) < ((N : ℝ) : EReal)))
  congr 1
  unfold BitVec.slt
  rw [h0, toInt_ofNat_small h]
  simp only [decide_eq_decide]
  rw [EReal.coe_pos, Nat.cast_pos, Nat.cast_pos]

/-- The f32 pattern `0x00000000` is the extended real zero. -/
theorem ofBits_zero_f32 : Ideal.ofBits .f32 0x00000000#32 = 0 := Ideal.ofBits_zero_f32

/-- The divisor, with the float one written as the extended real `1`. -/
theorem sitofp_maxsi_one' {N : ℕ} (h : N < 2 ^ 31) :
    FloatOps.sitofp (F := Ideal) .f32 (IntOp.maxsi (BitVec.ofNat 32 N) 1#32) = max ((N : ℝ) : EReal) 1 := by
  rw [sitofp_maxsi_one h, ofBits_one_f32]

/-- The guard, with the float zero written as the extended real `0`. -/
theorem cmpi_sgt_zero' {N : ℕ} (h : N < 2 ^ 31) :
    IntOp.cmpi .sgt (BitVec.ofNat 32 N) 0#32
      = FloatOps.cmpf (F := Ideal) (φ := .f32) .ogt ((N : ℝ) : EReal) 0 := by
  rw [cmpi_sgt_zero h, ofBits_zero_f32]

/-! ### The two ways of counting, side by side

With `n < 2 ^ 31` indices the count is below `2 ^ 31`, so the integer route (wrapping sum of the bits from the zero word,
then clamp / test, then convert) and the float route (convert each bit, sum, then clamp / test) agree. -/

/-- The integer total, clamped below by one and converted, is the float total clamped below by the float one. -/
theorem sitofp_maxsi_fold_eq {n : ℕ} (hn : n < 2 ^ 31) (b : Fin n → BitVec 1) :
    FloatOps.sitofp (F := Ideal) .f32
        (IntOp.maxsi ((Finset.univ : Finset (Fin n)).fold IntOp.addi 0#32 (fun k => (b k).setWidth 32)) 1#32)
      = max (∑ k : Fin n, FloatOps.sitofp (F := Ideal) .f32 ((b k).setWidth 32)) (Ideal.ofBits .f32 0x3F800000#32) := by
  rw [fold_addi_bits_zero, sum_sitofp_eq_count, sitofp_maxsi_one (lt_of_le_of_lt (count_le b) hn)]

/-- The integer total is positive exactly when the float total exceeds the float zero. -/
theorem cmpi_sgt_fold_eq {n : ℕ} (hn : n < 2 ^ 31) (b : Fin n → BitVec 1) :
    IntOp.cmpi .sgt ((Finset.univ : Finset (Fin n)).fold IntOp.addi 0#32 (fun k => (b k).setWidth 32)) 0#32
      = FloatOps.cmpf (F := Ideal) (φ := .f32) .ogt
          (∑ k : Fin n, FloatOps.sitofp (F := Ideal) .f32 ((b k).setWidth 32)) (Ideal.ofBits .f32 0x00000000#32) := by
  rw [fold_addi_bits_zero, sum_sitofp_eq_count, cmpi_sgt_zero (lt_of_le_of_lt (count_le b) hn)]

/-! ### The instance of 4096 indices -/

/-- The float sum of 4096 bits is their count. -/
theorem sum_sitofp_eq_count_4096 (b : Fin 4096 → BitVec 1) :
    ∑ k : Fin 4096, FloatOps.sitofp (F := Ideal) .f32 ((b k).setWidth 32) = ((count b : ℝ) : EReal) :=
  sum_sitofp_eq_count b

/-- The wrapping integer sum of 4096 bits from the zero word is their count. -/
theorem fold_addi_bits_zero_4096 (b : Fin 4096 → BitVec 1) :
    (Finset.univ : Finset (Fin 4096)).fold IntOp.addi 0#32 (fun k => (b k).setWidth 32) = BitVec.ofNat 32 (count b) :=
  fold_addi_bits_zero b

/-- A count of 4096 bits is below `2 ^ 31`. -/
theorem count_lt_4096 (b : Fin 4096 → BitVec 1) : count b < 2 ^ 31 :=
  lt_of_le_of_lt (count_le b) (by norm_num)

/-- At 4096 indices: the clamped, converted integer total is the clamped float total. -/
theorem sitofp_maxsi_fold_eq_4096 (b : Fin 4096 → BitVec 1) :
    FloatOps.sitofp (F := Ideal) .f32
        (IntOp.maxsi ((Finset.univ : Finset (Fin 4096)).fold IntOp.addi 0#32 (fun k => (b k).setWidth 32)) 1#32)
      = max (∑ k : Fin 4096, FloatOps.sitofp (F := Ideal) .f32 ((b k).setWidth 32)) (Ideal.ofBits .f32 0x3F800000#32) :=
  sitofp_maxsi_fold_eq (by norm_num) b

/-- At 4096 indices: the integer total is positive exactly when the float total exceeds the float zero. -/
theorem cmpi_sgt_fold_eq_4096 (b : Fin 4096 → BitVec 1) :
    IntOp.cmpi .sgt ((Finset.univ : Finset (Fin 4096)).fold IntOp.addi 0#32 (fun k => (b k).setWidth 32)) 0#32
      = FloatOps.cmpf (F := Ideal) (φ := .f32) .ogt
          (∑ k : Fin 4096, FloatOps.sitofp (F := Ideal) .f32 ((b k).setWidth 32)) (Ideal.ofBits .f32 0x00000000#32) :=
  cmpi_sgt_fold_eq (by norm_num) b

/-- At 4096 indices, for the count itself: the divisor. -/
theorem sitofp_maxsi_count_4096 (b : Fin 4096 → BitVec 1) :
    FloatOps.sitofp (F := Ideal) .f32 (IntOp.maxsi (BitVec.ofNat 32 (count b)) 1#32) = max ((count b : ℝ) : EReal) 1 :=
  sitofp_maxsi_one' (count_lt_4096 b)

/-- At 4096 indices, for the count itself: the guard. -/
theorem cmpi_sgt_count_4096 (b : Fin 4096 → BitVec 1) :
    IntOp.cmpi .sgt (BitVec.ofNat 32 (count b)) 0#32
      = FloatOps.cmpf (F := Ideal) (φ := .f32) .ogt ((count b : ℝ) : EReal) 0 :=
  cmpi_sgt_zero' (count_lt_4096 b)

end Cert.LibCount
-- ==== Proof.LibDegree.lean ====
/-
  Counting the updates that land on an element, two ways: scattering the word one into zero words with an adding
  body and reading the result signed, against scatter-adding the value one into zeros at the ideal values. Both are
  the number of update elements whose landing place is that element; with fewer than 2^31 update elements the
  32-bit count does not wrap, so its signed reading is that number.
-/
import Mathlib
import Idealize.ShloMosaic.PureOps.Ideal
import Idealize.ShloMosaic.PureOps.Contract
import Idealize.ShloMosaic.Lib.ValueIdx
import proofs.«107201_j32822140076800_2_alg».proof.Proof.LibIntScatter
import proofs.«107201_j32822140076800_2_alg».proof.Proof.LibCount

open scoped BigOperators

namespace Cert.LibDegree

open Idealize.ShloMosaic Idealize.ShloMosaic.ValueIdx

variable {s si u : Shape} {w : Nat} {φ : FTy}

/-- The number of update elements landing on `i` is at most the number of update elements. -/
theorem card_landing_le (d : ScatterDims s si u) (idx : IVec si w) (i : s.Idx) :
    (Finset.univ.filter fun j => d.resultIdx? j idx = some i).card ≤ u.numel := by
  refine (Finset.card_le_univ _).trans ?_
  rw [Fintype.card_congr u.rowMajor, Fintype.card_fin]

/-- THE INTEGER COUNT READ SIGNED IS THE FLOAT COUNT: ones scattered into zeros with an adding body, converted to a
    float, against ones scatter-added into zeros at the ideal values. -/
theorem sitofp_scatter_ones_eq (d : ScatterDims s si u) (hu : u.numel < 2 ^ 31)
    (x : IVec s 32) (hx : ∀ i, x i = 0#32) (upd : IVec u 32) (hupd : ∀ j, upd j = 1#32)
    (x' : FVec Ideal s φ) (hx' : ∀ i, x' i = 0) (upd' : FVec Ideal u φ) (hupd' : ∀ j, upd' j = 1) (idx : IVec si w) :
    (sitofp φ (Host.scatter d IntOp.addi x idx upd) : FVec Ideal s φ) = Host.scatterAdd (F := Ideal) d x' idx upd' := by
  funext i
  rw [sitofp_apply]
  show (((Host.scatter d (fun a b => a + b) x idx upd i).toInt : ℝ) : EReal) = Ideal.hostScatterAdd d x' idx upd' i
  rw [Cert.LibIntScatter.scatter_add_apply]
  unfold Ideal.hostScatterAdd
  set S := Finset.univ.filter fun j => d.resultIdx? j idx = some i with hS
  have hcard : S.card < 2 ^ 31 := lt_of_le_of_lt (card_landing_le d idx i) hu
  have hI : x i + ∑ j ∈ S, upd j = BitVec.ofNat 32 S.card := by
    rw [hx i, Finset.sum_congr rfl (fun j _ => hupd j), Finset.sum_const, BitVec.zero_add]
    simp
  have hF : x' i + ∑ j ∈ S, upd' j = ((S.card : ℝ) : EReal) := by
    rw [hx' i, Finset.sum_congr rfl (fun j _ => hupd' j), Finset.sum_const, zero_add]
    simp
  rw [hI, hF, Cert.LibCount.toInt_ofNat_small hcard]
  simp

end Cert.LibDegree
-- ==== Proof.LayerBridgeLaws.lean ====
/-
  The places where the two arrangements of a layer differ, as equalities of whole arrays at the ideal values:
   • the in-degree counted in 32-bit integers and converted, against ones added up as floats;
   • a message: the gathered row times the weight column, against the broadcast weight times the gathered row;
   • the normalisation and activation: the row formula against the host's composed operations;
   • a column group of the fused projection against the projection by one weight matrix.
-/
import proofs.«107201_j32822140076800_2_alg».proof.Proof.LayerSpec
import proofs.«107201_j32822140076800_2_alg».proof.Proof.LayerBridgePay
import proofs.«107201_j32822140076800_2_alg».proof.Proof.RefLayer
import proofs.«107201_j32822140076800_2_alg».proof.Proof.LibDegree
import proofs.«107201_j32822140076800_2_alg».proof.Proof.LibPlainDot
import Idealize.ShloMosaic.Lib.IdealHost
import Idealize.ShloMosaic.Lib.Pipeline.Value
import Idealize.ShloMosaic.Lib.ValueLayout

open scoped BigOperators

noncomputable section

namespace Cert.KernelIdeal.Bridge

open Idealize.ShloMosaic Idealize.ShloMosaic.ValueIdx Idealize.ShloMosaic.ColumnForms
open Cert.ReferenceIdeal.RefRun (normAct leaky degOf degInv propagate layerA layerB edgeIdx edgeRow0 edgeRow1 meanOf)

/-! ## The host's row sum -/

/-- The host's sum over the columns, at row r: the initial value plus the sum of the row's entries. -/
theorem hostRowSum_apply {m n : Nat} (x : FVec Ideal ⟨2, ![m, n]⟩ .f32) (init : (⟨0, ![]⟩ : Shape).Idx → EReal)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (r : Fin m) :
    Host.reduceAdd (F := Ideal) x init h' hu (ix1 r) = init (Shape.Idx.first hu) + ∑ q' : Fin n, x (ix2 r q') := by
  rw [hostReduceAdd_apply]
  unfold Ideal.hostReduceAdd
  congr 1
  rw [Shape.ReducesTo.drop_eq_drop h' h, h.sum_filter_drop_single]
  exact Finset.sum_congr rfl fun k _ => congrArg x (lift1_ix2 h r k)

/-! ## Normalisation and activation -/

theorem refRowNorm_apply (cat : FVec Ideal S50000x96 .f32) (r : Fin 50000) :
    Cert.ReferenceIdeal.RefRun.rowNorm cat (ix2 r (0 : Fin 1))
      = Ideal.sqrt (∑ q' : Fin 96, cat (ix2 r q') * cat (ix2 r q')) := by
  unfold Cert.ReferenceIdeal.RefRun.rowNorm Host.sqrt
  dsimp only
  rw [Ideal.hostUnary_sqrt_def]
  refine congrArg Ideal.sqrt ?_
  rw [broadcastInDim_apply ![0] _ _ (ix2 r (0 : Fin 1)) (ix1 r) (fun a => by
    obtain rfl : a = 0 := Subsingleton.elim _ _
    exact (if_neg (by decide)).symm)]
  rw [hostRowSum_apply (mulf cat cat) _ _ (by decide) _ r, constant_apply, Ideal.ofBits_zero_f32, zero_add]
  rfl

theorem regNormAct_eq_normAct (cat : FVec Ideal S50000x96 .f32) : regNormAct cat = normAct cat := by
  funext i
  obtain ⟨r, q, rfl⟩ : ∃ (r : Fin 50000) (q : Fin 96), i = ix2 r q := ⟨i 0, i 1, eq_ix2 i⟩
  rw [regNormAct_apply]
  unfold normActAt
  rw [leakyGt_eq_leakyGe]
  unfold normAct leaky
  rw [select_apply, cmpf_apply, mulf_apply, broadcastInDim_scalar_apply, broadcastInDim_scalar_apply, hostDivf_apply,
    broadcastInDim_apply ![0, 1] _ _ (ix2 r q) (ix2 r (0 : Fin 1)) (fun a => by
      match a with
      | ⟨0, _⟩ => exact (if_neg (show ¬ ((50000 : ℕ) = 1) by decide)).symm
      | ⟨1, _⟩ => exact (if_pos rfl).symm),
    maximumf_apply, broadcastInDim_scalar_apply, refRowNorm_apply]
  rfl

/-! ## A message: gathered row times weight, either way round -/

theorem regScale_weight_eq (g : FVec Ideal S1600000x32 .f32) (v : FVec Ideal S1600000 .f32)
    (hc : S1600000.ShapeCasts S1600000x1) (hb1 : S1600000.BroadcastsInDim S1600000x1 ![0])
    (hb2 : S1600000x1.BroadcastsInDim S1600000x32 ![0, 1]) :
    regScale g (shapeCast S1600000x1 v hc)
      = mulf (broadcastInDim S1600000x32 ![0, 1] hb2 (broadcastInDim S1600000x1 ![0] hb1 v)) g := by
  funext i
  obtain ⟨e, q, rfl⟩ : ∃ (e : Fin 1600000) (q : Fin 32), i = ix2 e q := ⟨i 0, i 1, eq_ix2 i⟩
  rw [regScale_apply]
  unfold scaleAt
  rw [mulf_apply, shapeCast_a_a1_apply,
    broadcastInDim_apply ![0, 1] hb2 _ (ix2 e q) (ix2 e (0 : Fin 1)) (fun a => by
      match a with
      | ⟨0, _⟩ => exact (if_neg (show ¬ ((1600000 : ℕ) = 1) by decide)).symm
      | ⟨1, _⟩ => exact (if_pos rfl).symm),
    broadcastInDim_apply ![0] hb1 _ (ix2 e (0 : Fin 1)) (ix1 e) (fun a => by
      obtain rfl : a = 0 := Subsingleton.elim _ _
      exact (if_neg (by decide)).symm)]
  exact mul_comm _ _

/-! ## The in-degree, counted two ways -/

theorem intDeg_eq_degOf (e : IVec S1600000 32) :
    (sitofp .f32 (Host.scatter scatter_S50000_S1600000x1_S1600000_n_0_0_1 IntOp.addi
        (broadcastInDim S50000 ![] Gen.bcast_S_S50000 (constantI S_ 32 0#32)) (edgeIdx e)
        (broadcastInDim S1600000 ![] Gen.bcast_S_S1600000 (constantI S_ 32 1#32))) : FVec Ideal S50000 .f32)
      = degOf e := by
  unfold degOf
  exact Cert.LibDegree.sitofp_scatter_ones_eq _ (by decide) _ (fun _ => rfl) _ (fun _ => rfl)
    _ (fun _ => Ideal.ofBits_zero_f32) _ (fun _ => Cert.LibCount.ofBits_one_f32) _

/-! ## A column group of the fused projection -/

section Fused
variable {din : Nat} (wu wd wb : FVec Ideal ⟨2, ![32, din]⟩ .f32)
  (hcat : Shape.Concatenates ([⟨⟨2, ![32, din]⟩, wu⟩, ⟨⟨2, ![32, din]⟩, wd⟩, ⟨⟨2, ![32, din]⟩, wb⟩].map
    (fun p : (s : Shape) × (s.Idx → EReal) => p.1)) ⟨2, ![96, din]⟩ 0)
  (htr : (⟨2, ![96, din]⟩ : Shape).Transposes [1, 0] ⟨2, ![din, 96]⟩)

/-- Entry (k, c) of the three weight matrices stacked and transposed, for c in the first / second / third group of
    32 columns: entry (c − 32 g, k) of the g-th matrix. -/
theorem fused_apply0 (k : Fin din) (j : Fin 32) (c : Fin 96) (hcj : c.val = j.val) :
    transpose ⟨2, ![din, 96]⟩ [1, 0]
      (concatenate ⟨2, ![96, din]⟩ 0 [⟨⟨2, ![32, din]⟩, wu⟩, ⟨⟨2, ![32, din]⟩, wd⟩, ⟨⟨2, ![32, din]⟩, wb⟩] hcat) htr (ix2 k c)
      = wu (ix2 j k) := by
  rw [transpose_ix2_apply]
  exact concatenate_apply_piece 0 _ hcat _ 0 (show (0 : ℕ) < 3 by decide) _ wu rfl rfl 0 rfl (ix2 j k)
    (fun b hb => by match b with | ⟨0, _⟩ => exact absurd rfl hb | ⟨1, _⟩ => rfl)
    (by show 0 + j.val = c.val; omega)

theorem fused_apply1 (k : Fin din) (j : Fin 32) (c : Fin 96) (hcj : c.val = 32 + j.val) :
    transpose ⟨2, ![din, 96]⟩ [1, 0]
      (concatenate ⟨2, ![96, din]⟩ 0 [⟨⟨2, ![32, din]⟩, wu⟩, ⟨⟨2, ![32, din]⟩, wd⟩, ⟨⟨2, ![32, din]⟩, wb⟩] hcat) htr (ix2 k c)
      = wd (ix2 j k) := by
  rw [transpose_ix2_apply]
  exact concatenate_apply_piece 0 _ hcat _ 1 (show (1 : ℕ) < 3 by decide) _ wd rfl rfl 32 rfl (ix2 j k)
    (fun b hb => by match b with | ⟨0, _⟩ => exact absurd rfl hb | ⟨1, _⟩ => rfl)
    (by show 32 + j.val = c.val; omega)

theorem fused_apply2 (k : Fin din) (j : Fin 32) (c : Fin 96) (hcj : c.val = 64 + j.val) :
    transpose ⟨2, ![din, 96]⟩ [1, 0]
      (concatenate ⟨2, ![96, din]⟩ 0 [⟨⟨2, ![32, din]⟩, wu⟩, ⟨⟨2, ![32, din]⟩, wd⟩, ⟨⟨2, ![32, din]⟩, wb⟩] hcat) htr (ix2 k c)
      = wb (ix2 j k) := by
  rw [transpose_ix2_apply]
  exact concatenate_apply_piece 0 _ hcat _ 2 (show (2 : ℕ) < 3 by decide) _ wb rfl rfl 64 rfl (ix2 j k)
    (fun b hb => by match b with | ⟨0, _⟩ => exact absurd rfl hb | ⟨1, _⟩ => rfl)
    (by show 64 + j.val = c.val; omega)

end Fused

/-! ## A column group of the fused projection against the projection by one matrix -/

section Proj
variable {din : Nat} (x : FVec Ideal ⟨2, ![50000, din]⟩ .f32) (wu wd wb : FVec Ideal ⟨2, ![32, din]⟩ .f32)
  (hcat : Shape.Concatenates ([⟨⟨2, ![32, din]⟩, wu⟩, ⟨⟨2, ![32, din]⟩, wd⟩, ⟨⟨2, ![32, din]⟩, wb⟩].map
    (fun p : (s : Shape) × (s.Idx → EReal) => p.1)) ⟨2, ![96, din]⟩ 0)
  (htr : (⟨2, ![96, din]⟩ : Shape).Transposes [1, 0] ⟨2, ![din, 96]⟩)
  (htr' : (⟨2, ![32, din]⟩ : Shape).Transposes [1, 0] ⟨2, ![din, 32]⟩)
  (D : DotDims ⟨2, ![50000, din]⟩ ⟨2, ![din, 32]⟩ ⟨2, ![50000, 32]⟩) (hD : D = DotDims.plain 50000 din 32)
  (P : (⟨2, ![50000, 96]⟩ : Shape).Idx → EReal)
  (hP : ∀ (r : Fin 50000) (c : Fin 96), P (ix2 r c) = matmulAt x (transpose ⟨2, ![din, 96]⟩ [1, 0]
    (concatenate ⟨2, ![96, din]⟩ 0 [⟨⟨2, ![32, din]⟩, wu⟩, ⟨⟨2, ![32, din]⟩, wd⟩, ⟨⟨2, ![32, din]⟩, wb⟩] hcat) htr) r c)

include hP hD

theorem projLo (hsl : (⟨2, ![50000, 96]⟩ : Shape).Slices ![0, 0] ⟨2, ![50000, 32]⟩) :
    extractStridedSlice ⟨2, ![50000, 32]⟩ ![0, 0] P hsl
      = Host.dotGeneral (F := Ideal) D none x (transpose ⟨2, ![din, 32]⟩ [1, 0] wu htr') := by
  funext i
  obtain ⟨r, j, rfl⟩ : ∃ (r : Fin 50000) (j : Fin 32), i = ix2 r j := ⟨i 0, i 1, eq_ix2 i⟩
  rw [Cert.LibPlainDot.dotGeneral_plain_apply D hD,
    extractStridedSlice_apply ![0, 0] P hsl (ix2 r j) (ix2 r (⟨0 + j.val, by omega⟩ : Fin 96)) (fun a => by
      match a with
      | ⟨0, _⟩ => exact (Nat.zero_add _).symm
      | ⟨1, _⟩ => rfl),
    hP]
  unfold matmulAt
  refine Finset.sum_congr rfl fun k _ => ?_
  rw [fused_apply0 wu wd wb hcat htr k j _ (Nat.zero_add _), transpose_ix2_apply]

theorem projMid (hsl : (⟨2, ![50000, 96]⟩ : Shape).Slices ![0, 32] ⟨2, ![50000, 32]⟩) :
    extractStridedSlice ⟨2, ![50000, 32]⟩ ![0, 32] P hsl
      = Host.dotGeneral (F := Ideal) D none x (transpose ⟨2, ![din, 32]⟩ [1, 0] wd htr') := by
  funext i
  obtain ⟨r, j, rfl⟩ : ∃ (r : Fin 50000) (j : Fin 32), i = ix2 r j := ⟨i 0, i 1, eq_ix2 i⟩
  rw [Cert.LibPlainDot.dotGeneral_plain_apply D hD,
    extractStridedSlice_apply ![0, 32] P hsl (ix2 r j) (ix2 r (⟨32 + j.val, by omega⟩ : Fin 96)) (fun a => by
      match a with
      | ⟨0, _⟩ => exact (Nat.zero_add _).symm
      | ⟨1, _⟩ => rfl),
    hP]
  unfold matmulAt
  refine Finset.sum_congr rfl fun k _ => ?_
  rw [fused_apply1 wu wd wb hcat htr k j _ rfl, transpose_ix2_apply]

theorem projHi (hsl : (⟨2, ![50000, 96]⟩ : Shape).Slices ![0, 64] ⟨2, ![50000, 32]⟩) :
    extractStridedSlice ⟨2, ![50000, 32]⟩ ![0, 64] P hsl
      = Host.dotGeneral (F := Ideal) D none x (transpose ⟨2, ![din, 32]⟩ [1, 0] wb htr') := by
  funext i
  obtain ⟨r, j, rfl⟩ : ∃ (r : Fin 50000) (j : Fin 32), i = ix2 r j := ⟨i 0, i 1, eq_ix2 i⟩
  rw [Cert.LibPlainDot.dotGeneral_plain_apply D hD,
    extractStridedSlice_apply ![0, 64] P hsl (ix2 r j) (ix2 r (⟨64 + j.val, by omega⟩ : Fin 96)) (fun a => by
      match a with
      | ⟨0, _⟩ => exact (Nat.zero_add _).symm
      | ⟨1, _⟩ => rfl),
    hP]
  unfold matmulAt
  refine Finset.sum_congr rfl fun k _ => ?_
  rw [fused_apply2 wu wd wb hcat htr k j _ rfl, transpose_ix2_apply]

end Proj

end Cert.KernelIdeal.Bridge

end
-- ==== Proof.LayerBridge.lean ====
/-
  One layer of the program's arrangement equals one layer of the reference, as whole arrays at the ideal values:
  each region is its whole-array function; the fused projection's column groups are the three projections; the
  integer in-degree is the float in-degree; a message is the same product either way round; the normalisation and
  activation agree (the two activations differ only at zero, where both give zero). Everything else is the same host
  operation on equal operands.
-/
import proofs.«107201_j32822140076800_2_alg».proof.Proof.KILayer
import proofs.«107201_j32822140076800_2_alg».proof.Proof.RefLayer
import proofs.«107201_j32822140076800_2_alg».proof.Proof.LayerBridgeArr
import proofs.«107201_j32822140076800_2_alg».proof.Proof.LayerBridgeLaws

open scoped BigOperators

noncomputable section

namespace Cert.KernelIdeal.Bridge

open Idealize.ShloMosaic Idealize.ShloMosaic.ValueIdx
open Cert.KernelIdeal.Reg Cert.KernelIdeal.Run
open Cert.ReferenceIdeal.RefRun (normAct leaky degOf degInv propagate messages projA projB cat3 layerA layerB edgeIdx edgeRow0 edgeRow1
  meanOf)

/-- The in-degree counted in integers and converted is the in-degree added up in floats. -/
theorem kDeg_eq (e : IVec S1600000 32) : kDeg (F := Ideal) e = degOf e := by
  unfold kDeg
  exact intDeg_eq_degOf e

/-- The inverse in-degree gathered at the edges, either way. -/
theorem kInv_eq (e : IVec S1600000 32) :
    kInv (F := Ideal) e
      = Host.gather Cert.ReferenceIdeal.gather_S50000_S1600000x1_S1600000_n_0_n_n_0_1_1 (degInv e) (edgeIdx e) := by
  unfold kInv kDegInv degInv
  rw [kDeg_eq]
  rfl

/-- One propagation: gather the rows, scale each by its edge's weight over the degree, add up per node. -/
theorem kProp (xp : FVec Ideal S50000x32 .f32) (src dst : IVec S1600000 32) (ew : FVec Ideal S1600000 .f32) :
    kScatter (F := Ideal) dst (regScale (kGather xp src) (kWeight (kInv (F := Ideal) dst) ew)) = propagate xp src dst ew := by
  unfold kScatter kWeight propagate messages
  rw [regScale_weight_eq _ _ _ Cert.ReferenceIdeal.Gen.bcast_S1600000_S1600000x1_0 Cert.ReferenceIdeal.Gen.bcast_S1600000x1_S1600000x32_0_1, kInv_eq]
  rfl

theorem layerA_eq (x : FVec Ideal S50000x8 .f32) (ei : IVec S2x1600000 32) (wu wd wb : FVec Ideal S32x8 .f32)
    (eu ed : FVec Ideal S1600000 .f32) :
    kLayerA (F := Ideal) x ei wu wd wb eu ed = layerA x ei wu wd wb eu ed := by
  have hP : ∀ (r : Fin 50000) (c : Fin 96),
      regMatmulA x (kFuse8 wu wd wb) (ix2 r c) = matmulAt x (kFuse8 wu wd wb) r c := fun _ _ => rfl
  have hLo : kLo (F := Ideal) (regMatmulA x (kFuse8 wu wd wb))
      = Host.dotGeneral (F := Ideal) Cert.ReferenceIdeal.dot_S50000x8_S8x32_S50000x32_1_0_0_1_n_n none x (transpose Cert.ReferenceIdeal.S8x32 [1, 0] wu Cert.ReferenceIdeal.Gen.transposes_S32x8_S8x32_1_0) :=
    projLo x wu wd wb _ _ Cert.ReferenceIdeal.Gen.transposes_S32x8_S8x32_1_0 Cert.ReferenceIdeal.dot_S50000x8_S8x32_S50000x32_1_0_0_1_n_n rfl _ hP _
  have hMid : kMid (F := Ideal) (regMatmulA x (kFuse8 wu wd wb))
      = Host.dotGeneral (F := Ideal) Cert.ReferenceIdeal.dot_S50000x8_S8x32_S50000x32_1_0_0_1_n_n none x (transpose Cert.ReferenceIdeal.S8x32 [1, 0] wd Cert.ReferenceIdeal.Gen.transposes_S32x8_S8x32_1_0) :=
    projMid x wu wd wb _ _ Cert.ReferenceIdeal.Gen.transposes_S32x8_S8x32_1_0 Cert.ReferenceIdeal.dot_S50000x8_S8x32_S50000x32_1_0_0_1_n_n rfl _ hP _
  have hHi : kHi (F := Ideal) (regMatmulA x (kFuse8 wu wd wb))
      = Host.dotGeneral (F := Ideal) Cert.ReferenceIdeal.dot_S50000x8_S8x32_S50000x32_1_0_0_1_n_n none x (transpose Cert.ReferenceIdeal.S8x32 [1, 0] wb Cert.ReferenceIdeal.Gen.transposes_S32x8_S8x32_1_0) :=
    projHi x wu wd wb _ _ Cert.ReferenceIdeal.Gen.transposes_S32x8_S8x32_1_0 Cert.ReferenceIdeal.dot_S50000x8_S8x32_S50000x32_1_0_0_1_n_n rfl _ hP _
  unfold kLayerA layerA
  rw [arr3_eq, regNormAct_eq_normAct, arr1_eq, arr2_eq, arr0_eq, hLo, hMid, hHi, kProp, kProp]
  rfl

theorem layerB_eq (x : FVec Ideal S50000x96 .f32) (ei : IVec S2x1600000 32) (wu wd wb : FVec Ideal S32x96 .f32)
    (eu ed : FVec Ideal S1600000 .f32) :
    kLayerB (F := Ideal) x ei wu wd wb eu ed = layerB x ei wu wd wb eu ed := by
  have hP : ∀ (r : Fin 50000) (c : Fin 96),
      regMatmulB x (kFuse96 wu wd wb) (ix2 r c) = matmulAt x (kFuse96 wu wd wb) r c := fun _ _ => rfl
  have hLo : kLo (F := Ideal) (regMatmulB x (kFuse96 wu wd wb))
      = Host.dotGeneral (F := Ideal) Cert.ReferenceIdeal.dot_S50000x96_S96x32_S50000x32_1_0_0_1_n_n none x (transpose Cert.ReferenceIdeal.S96x32 [1, 0] wu Cert.ReferenceIdeal.Gen.transposes_S32x96_S96x32_1_0) :=
    projLo x wu wd wb _ _ Cert.ReferenceIdeal.Gen.transposes_S32x96_S96x32_1_0 Cert.ReferenceIdeal.dot_S50000x96_S96x32_S50000x32_1_0_0_1_n_n rfl _ hP _
  have hMid : kMid (F := Ideal) (regMatmulB x (kFuse96 wu wd wb))
      = Host.dotGeneral (F := Ideal) Cert.ReferenceIdeal.dot_S50000x96_S96x32_S50000x32_1_0_0_1_n_n none x (transpose Cert.ReferenceIdeal.S96x32 [1, 0] wd Cert.ReferenceIdeal.Gen.transposes_S32x96_S96x32_1_0) :=
    projMid x wu wd wb _ _ Cert.ReferenceIdeal.Gen.transposes_S32x96_S96x32_1_0 Cert.ReferenceIdeal.dot_S50000x96_S96x32_S50000x32_1_0_0_1_n_n rfl _ hP _
  have hHi : kHi (F := Ideal) (regMatmulB x (kFuse96 wu wd wb))
      = Host.dotGeneral (F := Ideal) Cert.ReferenceIdeal.dot_S50000x96_S96x32_S50000x32_1_0_0_1_n_n none x (transpose Cert.ReferenceIdeal.S96x32 [1, 0] wb Cert.ReferenceIdeal.Gen.transposes_S32x96_S96x32_1_0) :=
    projHi x wu wd wb _ _ Cert.ReferenceIdeal.Gen.transposes_S32x96_S96x32_1_0 Cert.ReferenceIdeal.dot_S50000x96_S96x32_S50000x32_1_0_0_1_n_n rfl _ hP _
  unfold kLayerB layerB
  rw [arr7_eq, regNormAct_eq_normAct, arr5_eq, arr6_eq, arr4_eq, hLo, hMid, hHi, kProp, kProp]
  rfl

/-- The mean of the three edge-weight lists is the same operations on both sides. -/
theorem mean_eq (a b c : FVec Ideal S1600000 .f32) : kMean (F := Ideal) a b c = meanOf a b c := rfl

end Cert.KernelIdeal.Bridge

end
-- ==== Proof.Algebraic.lean ====
/- The two programs end with equal results. The kernel program's final memory holds, in its three result buffers, three nested
   layers of its own composed operations and the two means of edge weights; the reference's final memory holds three nested layers
   of ITS operations and the same two means. One layer of the one program and one layer of the other are the same function of the
   same inputs, so from memories that agree on the seventeen arguments the two nestings are equal, layer by layer from the inside. -/
import proofs.«107201_j32822140076800_2_alg».proof.Defs
import proofs.«107201_j32822140076800_2_alg».proof.Proof.Gen.KernelIdeal
import proofs.«107201_j32822140076800_2_alg».proof.Proof.Gen.ReferenceIdeal
import proofs.«107201_j32822140076800_2_alg».proof.Proof.Gen.Pre_finite_inputs
import proofs.«107201_j32822140076800_2_alg».proof.Proof.KIRun
import proofs.«107201_j32822140076800_2_alg».proof.Proof.KIRead
import proofs.«107201_j32822140076800_2_alg».proof.Proof.RefRun
import proofs.«107201_j32822140076800_2_alg».proof.Proof.RefLayerRun
import proofs.«107201_j32822140076800_2_alg».proof.Proof.LayerBridge

set_option maxRecDepth 16384

noncomputable section

namespace Cert.Proof

open Idealize.ShloMosaic Idealize.SL.Sem

/-- The node features after three layers, as a function of the launch memory. -/
def resH (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v179) :=
  Cert.KernelIdeal.Run.kLayerB (F := Ideal) (Cert.KernelIdeal.Run.kLayerB (F := Ideal) (Cert.KernelIdeal.Run.kLayerA (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (m ((c.tc : Thread Cert.KernelIdeal.nD Cert.KernelIdeal.τ).loc Cert.KernelIdeal.main_arg1)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))
/-- The mean of the three layers' edge weights in the up direction. -/
def resUp (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v183) :=
  Cert.KernelIdeal.Run.kMean (F := Ideal) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg15))
/-- The mean of the three layers' edge weights in the down direction. -/
def resDown (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v187) :=
  Cert.KernelIdeal.Run.kMean (F := Ideal) (m ((c.tc : Thread Cert.KernelIdeal.nD Cert.KernelIdeal.τ).loc Cert.KernelIdeal.main_arg6)) (m ((c.tc : Thread Cert.KernelIdeal.nD Cert.KernelIdeal.τ).loc Cert.KernelIdeal.main_arg11)) (m ((c.tc : Thread Cert.KernelIdeal.nD Cert.KernelIdeal.τ).loc Cert.KernelIdeal.main_arg16))

open Cert.KernelIdeal Cert.KernelIdeal.Run in
/-- The kernel program ends with its result buffers at those functions of the launch memory and its arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v179) = resH m c
      ∧ r.2.mem ((c.tc : Thread nD τ).loc main_v183) = resUp m c
      ∧ r.2.mem ((c.tc : Thread nD τ).loc main_v187) = resDown m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_v179 (by decide))).trans (kRead_h m ρ c),
      (h c _ (mem_uc main_v183 (by decide))).trans (kRead_meanUp m ρ c),
      (h c _ (mem_uc main_v187 (by decide))).trans (kRead_meanDown m ρ c),
      (h c _ (mem_uc main_arg0 (by decide))).trans (W29_main_arg0 m ρ c),
      (h c _ (mem_uc main_arg1 (by decide))).trans (W29_main_arg1 m ρ c),
      (h c _ (mem_uc main_arg2 (by decide))).trans (W29_main_arg2 m ρ c),
      (h c _ (mem_uc main_arg3 (by decide))).trans (W29_main_arg3 m ρ c),
      (h c _ (mem_uc main_arg4 (by decide))).trans (W29_main_arg4 m ρ c),
      (h c _ (mem_uc main_arg5 (by decide))).trans (W29_main_arg5 m ρ c),
      (h c _ (mem_uc main_arg6 (by decide))).trans (W29_main_arg6 m ρ c),
      (h c _ (mem_uc main_arg7 (by decide))).trans (W29_main_arg7 m ρ c),
      (h c _ (mem_uc main_arg8 (by decide))).trans (W29_main_arg8 m ρ c),
      (h c _ (mem_uc main_arg9 (by decide))).trans (W29_main_arg9 m ρ c),
      (h c _ (mem_uc main_arg10 (by decide))).trans (W29_main_arg10 m ρ c),
      (h c _ (mem_uc main_arg11 (by decide))).trans (W29_main_arg11 m ρ c),
      (h c _ (mem_uc main_arg12 (by decide))).trans (W29_main_arg12 m ρ c),
      (h c _ (mem_uc main_arg13 (by decide))).trans (W29_main_arg13 m ρ c),
      (h c _ (mem_uc main_arg14 (by decide))).trans (W29_main_arg14 m ρ c),
      (h c _ (mem_uc main_arg15 (by decide))).trans (W29_main_arg15 m ρ c),
      (h c _ (mem_uc main_arg16 (by decide))).trans (W29_main_arg16 m ρ c)⟩) (run_all (F := Ideal) m ρ)

/-- From memories that agree on the arguments, both programs end with the same three results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨resH m, resUp m, resDown m, kernel_run m ρ, ?_⟩
  refine (θ_run Cert.ReferenceIdeal.defs _ _).mono (fun r h c => ?_) (Cert.ReferenceIdeal.RefRun.run (F := Ideal) m' ρ')
  obtain ⟨a0, a1, a2, a3, a4, a5, a6, a7, a8, a9, a10, a11, a12, a13, a14, a15, a16⟩ := hagree c
  have e0 : Idealize.ShloMosaic.StableHlo.launchContents m' c (Proc.devRef .tc Cert.ReferenceIdeal.main_arg0) = m ((c.tc : Thread Cert.KernelIdeal.nD Cert.KernelIdeal.τ).loc Cert.KernelIdeal.main_arg0) := a0
  have e1 : Idealize.ShloMosaic.StableHlo.launchContents m' c (Proc.devRef .tc Cert.ReferenceIdeal.main_arg1) = m ((c.tc : Thread Cert.KernelIdeal.nD Cert.KernelIdeal.τ).loc Cert.KernelIdeal.main_arg1) := a1
  have e2 : Idealize.ShloMosaic.StableHlo.launchContents m' c (Proc.devRef .tc Cert.ReferenceIdeal.main_arg2) = m ((c.tc : Thread Cert.KernelIdeal.nD Cert.KernelIdeal.τ).loc Cert.KernelIdeal.main_arg2) := a2
  have e3 : Idealize.ShloMosaic.StableHlo.launchContents m' c (Proc.devRef .tc Cert.ReferenceIdeal.main_arg3) = m ((c.tc : Thread Cert.KernelIdeal.nD Cert.KernelIdeal.τ).loc Cert.KernelIdeal.main_arg3) := a3
  have e4 : Idealize.ShloMosaic.StableHlo.launchContents m' c (Proc.devRef .tc Cert.ReferenceIdeal.main_arg4) = m ((c.tc : Thread Cert.KernelIdeal.nD Cert.KernelIdeal.τ).loc Cert.KernelIdeal.main_arg4) := a4
  have e5 : Idealize.ShloMosaic.StableHlo.launchContents m' c (Proc.devRef .tc Cert.ReferenceIdeal.main_arg5) = m ((c.tc : Thread Cert.KernelIdeal.nD Cert.KernelIdeal.τ).loc Cert.KernelIdeal.main_arg5) := a5
  have e6 : Idealize.ShloMosaic.StableHlo.launchContents m' c (Proc.devRef .tc Cert.ReferenceIdeal.main_arg6) = m ((c.tc : Thread Cert.KernelIdeal.nD Cert.KernelIdeal.τ).loc Cert.KernelIdeal.main_arg6) := a6
  have e7 : Idealize.ShloMosaic.StableHlo.launchContents m' c (Proc.devRef .tc Cert.ReferenceIdeal.main_arg7) = m ((c.tc : Thread Cert.KernelIdeal.nD Cert.KernelIdeal.τ).loc Cert.KernelIdeal.main_arg7) := a7
  have e8 : Idealize.ShloMosaic.StableHlo.launchContents m' c (Proc.devRef .tc Cert.ReferenceIdeal.main_arg8) = m ((c.tc : Thread Cert.KernelIdeal.nD Cert.KernelIdeal.τ).loc Cert.KernelIdeal.main_arg8) := a8
  have e9 : Idealize.ShloMosaic.StableHlo.launchContents m' c (Proc.devRef .tc Cert.ReferenceIdeal.main_arg9) = m ((c.tc : Thread Cert.KernelIdeal.nD Cert.KernelIdeal.τ).loc Cert.KernelIdeal.main_arg9) := a9
  have e10 : Idealize.ShloMosaic.StableHlo.launchContents m' c (Proc.devRef .tc Cert.ReferenceIdeal.main_arg10) = m ((c.tc : Thread Cert.KernelIdeal.nD Cert.KernelIdeal.τ).loc Cert.KernelIdeal.main_arg10) := a10
  have e11 : Idealize.ShloMosaic.StableHlo.launchContents m' c (Proc.devRef .tc Cert.ReferenceIdeal.main_arg11) = m ((c.tc : Thread Cert.KernelIdeal.nD Cert.KernelIdeal.τ).loc Cert.KernelIdeal.main_arg11) := a11
  have e12 : Idealize.ShloMosaic.StableHlo.launchContents m' c (Proc.devRef .tc Cert.ReferenceIdeal.main_arg12) = m ((c.tc : Thread Cert.KernelIdeal.nD Cert.KernelIdeal.τ).loc Cert.KernelIdeal.main_arg12) := a12
  have e13 : Idealize.ShloMosaic.StableHlo.launchContents m' c (Proc.devRef .tc Cert.ReferenceIdeal.main_arg13) = m ((c.tc : Thread Cert.KernelIdeal.nD Cert.KernelIdeal.τ).loc Cert.KernelIdeal.main_arg13) := a13
  have e14 : Idealize.ShloMosaic.StableHlo.launchContents m' c (Proc.devRef .tc Cert.ReferenceIdeal.main_arg14) = m ((c.tc : Thread Cert.KernelIdeal.nD Cert.KernelIdeal.τ).loc Cert.KernelIdeal.main_arg14) := a14
  have e15 : Idealize.ShloMosaic.StableHlo.launchContents m' c (Proc.devRef .tc Cert.ReferenceIdeal.main_arg15) = m ((c.tc : Thread Cert.KernelIdeal.nD Cert.KernelIdeal.τ).loc Cert.KernelIdeal.main_arg15) := a15
  have e16 : Idealize.ShloMosaic.StableHlo.launchContents m' c (Proc.devRef .tc Cert.ReferenceIdeal.main_arg16) = m ((c.tc : Thread Cert.KernelIdeal.nD Cert.KernelIdeal.τ).loc Cert.KernelIdeal.main_arg16) := a16
  refine ⟨(h c Cert.ReferenceIdeal.main_v290).trans ((Cert.ReferenceIdeal.RefRun.result_v290 _).trans ?_),
    (h c Cert.ReferenceIdeal.main_v294).trans ((Cert.ReferenceIdeal.RefRun.result_v294 _).trans ?_),
    (h c Cert.ReferenceIdeal.main_v298).trans ((Cert.ReferenceIdeal.RefRun.result_v298 _).trans ?_),
    (h c Cert.ReferenceIdeal.main_arg0).trans (Cert.ReferenceIdeal.RefRun.ops_keep _ (by decide) (by decide) (by decide) (by decide) (by decide) (by decide) (by decide)),
    (h c Cert.ReferenceIdeal.main_arg1).trans (Cert.ReferenceIdeal.RefRun.ops_keep _ (by decide) (by decide) (by decide) (by decide) (by decide) (by decide) (by decide)),
    (h c Cert.ReferenceIdeal.main_arg2).trans (Cert.ReferenceIdeal.RefRun.ops_keep _ (by decide) (by decide) (by decide) (by decide) (by decide) (by decide) (by decide)),
    (h c Cert.ReferenceIdeal.main_arg3).trans (Cert.ReferenceIdeal.RefRun.ops_keep _ (by decide) (by decide) (by decide) (by decide) (by decide) (by decide) (by decide)),
    (h c Cert.ReferenceIdeal.main_arg4).trans (Cert.ReferenceIdeal.RefRun.ops_keep _ (by decide) (by decide) (by decide) (by decide) (by decide) (by decide) (by decide)),
    (h c Cert.ReferenceIdeal.main_arg5).trans (Cert.ReferenceIdeal.RefRun.ops_keep _ (by decide) (by decide) (by decide) (by decide) (by decide) (by decide) (by decide)),
    (h c Cert.ReferenceIdeal.main_arg6).trans (Cert.ReferenceIdeal.RefRun.ops_keep _ (by decide) (by decide) (by decide) (by decide) (by decide) (by decide) (by decide)),
    (h c Cert.ReferenceIdeal.main_arg7).trans (Cert.ReferenceIdeal.RefRun.ops_keep _ (by decide) (by decide) (by decide) (by decide) (by decide) (by decide) (by decide)),
    (h c Cert.ReferenceIdeal.main_arg8).trans (Cert.ReferenceIdeal.RefRun.ops_keep _ (by decide) (by decide) (by decide) (by decide) (by decide) (by decide) (by decide)),
    (h c Cert.ReferenceIdeal.main_arg9).trans (Cert.ReferenceIdeal.RefRun.ops_keep _ (by decide) (by decide) (by decide) (by decide) (by decide) (by decide) (by decide)),
    (h c Cert.ReferenceIdeal.main_arg10).trans (Cert.ReferenceIdeal.RefRun.ops_keep _ (by decide) (by decide) (by decide) (by decide) (by decide) (by decide) (by decide)),
    (h c Cert.ReferenceIdeal.main_arg11).trans (Cert.ReferenceIdeal.RefRun.ops_keep _ (by decide) (by decide) (by decide) (by decide) (by decide) (by decide) (by decide)),
    (h c Cert.ReferenceIdeal.main_arg12).trans (Cert.ReferenceIdeal.RefRun.ops_keep _ (by decide) (by decide) (by decide) (by decide) (by decide) (by decide) (by decide)),
    (h c Cert.ReferenceIdeal.main_arg13).trans (Cert.ReferenceIdeal.RefRun.ops_keep _ (by decide) (by decide) (by decide) (by decide) (by decide) (by decide) (by decide)),
    (h c Cert.ReferenceIdeal.main_arg14).trans (Cert.ReferenceIdeal.RefRun.ops_keep _ (by decide) (by decide) (by decide) (by decide) (by decide) (by decide) (by decide)),
    (h c Cert.ReferenceIdeal.main_arg15).trans (Cert.ReferenceIdeal.RefRun.ops_keep _ (by decide) (by decide) (by decide) (by decide) (by decide) (by decide) (by decide)),
    (h c Cert.ReferenceIdeal.main_arg16).trans (Cert.ReferenceIdeal.RefRun.ops_keep _ (by decide) (by decide) (by decide) (by decide) (by decide) (by decide) (by decide))⟩
  · rw [e0, e1, e2, e3, e4, e5, e6, e7, e8, e9, e10, e11, e12, e13, e14, e15, e16]
    unfold resH
    rw [Cert.KernelIdeal.Bridge.layerA_eq, Cert.KernelIdeal.Bridge.layerB_eq, Cert.KernelIdeal.Bridge.layerB_eq]
  · rw [e5, e10, e15]
    unfold resUp
    rw [Cert.KernelIdeal.Bridge.mean_eq]
  · rw [e6, e11, e16]
    unfold resDown
    rw [Cert.KernelIdeal.Bridge.mean_eq]

end Cert.Proof

end
-- ==== Proof.lean ====
/- A three-layer graph network over 50000 nodes and 1600000 edges, computed two ways, gives the same three results on the extended reals.
   One layer takes node features x, projects them by three weight matrices (up, down, bias), sends the up projection along every
   edge and the down projection against it — each message scaled by the edge's weight and by one over the number of edges that
   end at its target —, sums the messages per target node, puts the two sums and the bias projection side by side into 96 columns,
   divides every row by the larger of its Euclidean norm and a small positive constant, and replaces an entry that is not positive
   by a tenth of itself. The other two results are the means of the three layers' edge weights in each direction.
   The kernel program does the projections as ONE product with the three matrices stacked, counts the edges per node in integers,
   scales the gathered rows by a column, and normalises in row blocks; the reference does three products, counts in floats, scales a
   broadcast, and normalises whole. Entry by entry these are the same sums, the same counts (at most 1600000, far below where a
   32-bit count would wrap), products in the other order, and activations that differ only in how they treat 0, where both give 0.
   Each program is also shown to run to its end without a fault and to leave its seventeen argument arrays as it found them:
   the kernel program's twelve blocked regions through their blocks, the reference as a straight line of array operations. -/
import proofs.«107201_j32822140076800_2_alg».proof.Defs
import proofs.«107201_j32822140076800_2_alg».proof.Proof.Gen.Kernel
import proofs.«107201_j32822140076800_2_alg».proof.Proof.Gen.KernelIdeal
import proofs.«107201_j32822140076800_2_alg».proof.Proof.Gen.ReferenceIdeal
import proofs.«107201_j32822140076800_2_alg».proof.Proof.Gen.Pre_finite_inputs
import proofs.«107201_j32822140076800_2_alg».proof.Proof.KRun
import proofs.«107201_j32822140076800_2_alg».proof.Proof.KIRun
import proofs.«107201_j32822140076800_2_alg».proof.Proof.RefRun
import proofs.«107201_j32822140076800_2_alg».proof.Proof.Algebraic
import Idealize.ShloMosaic.Adequacy
import Idealize.ShloMosaic.Init

noncomputable section

namespace Cert.Proof

open Idealize.ShloMosaic Idealize.SL.Sem

/-- The word-level program runs to its end, faults nowhere, and leaves its arguments as launched. -/
theorem frame_k : Cert.frame_Kernel (hKernel := Cert.Kernel.Gen.facts) (hPre_finite_inputs := Cert.Pre_finite_inputs.Gen.facts) :=
  fun m ρ _ => Cert.Kernel.Run.frame m ρ

/-- So does the same program read over the extended reals. -/
theorem frame_ki : Cert.frame_KernelIdeal (hKernelIdeal := Cert.KernelIdeal.Gen.facts) (hPre_finite_inputs := Cert.Pre_finite_inputs.Gen.facts) :=
  fun m ρ _ => Cert.KernelIdeal.Run.frame m ρ

/-- The kernel program's text is its own idealization: no operation was rewritten. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefRun.frame_ri, preserves, algebraic⟩

end Cert.Proof

end
